-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v169)) (v1 : (c : Dev Cert.KernelIdeal.nD) → Buf (Elt Ideal) ((c.tc : Thread Cert.KernelIdeal.nD Cert.KernelIdeal.τ).loc Cert.KernelIdeal.main_v200)) (v2 : (c : Dev Cert.KernelIdeal.nD) → Buf (Elt Ideal) ((c.tc : Thread Cert.KernelIdeal.nD Cert.KernelIdeal.τ).loc Cert.KernelIdeal.main_v231)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_v200) = v1 c
          ∧ r.2.mem ((c.tc : Thread Cert.KernelIdeal.nD Cert.KernelIdeal.τ).loc Cert.KernelIdeal.main_v231) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v222) = v1 c
          ∧ r.2.mem ((c.tc : Thread Cert.ReferenceIdeal.nD Cert.ReferenceIdeal.τ).loc Cert.ReferenceIdeal.main_v264) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S120000x64 : Shape := ⟨2, ![120000, 64]⟩
abbrev S150000x64 : Shape := ⟨2, ![150000, 64]⟩
abbrev S120000 : Shape := ⟨1, ![120000]⟩
abbrev S150000 : Shape := ⟨1, ![150000]⟩
abbrev S704x128 : Shape := ⟨2, ![704, 128]⟩
abbrev S128 : Shape := ⟨1, ![128]⟩
abbrev S128x64 : Shape := ⟨2, ![128, 64]⟩
abbrev S64 : Shape := ⟨1, ![64]⟩
abbrev S320x128 : Shape := ⟨2, ![320, 128]⟩
abbrev S_ : Shape := ⟨0, ![]⟩

class Facts : Prop where
  bcast_S_S120000x64 : S_.BroadcastsInDim S120000x64 (![] : Fin 0 → Fin S120000x64.rank)
  reducesTo_S120000x64_S_d0_1 : S120000x64.ReducesTo [0, 1] S_
  h_S_ : 0 < S_.numel
  bcast_S_S150000x64 : S_.BroadcastsInDim S150000x64 (![] : Fin 0 → Fin S150000x64.rank)
  reducesTo_S150000x64_S_d0_1 : S150000x64.ReducesTo [0, 1] S_
  bcast_S_S704x128 : S_.BroadcastsInDim S704x128 (![] : Fin 0 → Fin S704x128.rank)
  reducesTo_S704x128_S_d0_1 : S704x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S320x128 : S_.BroadcastsInDim S320x128 (![] : Fin 0 → Fin S320x128.rank)
  reducesTo_S320x128_S_d0_1 : S320x128.ReducesTo [0, 1] S_

variable [Facts]

def fn_part4 {F : FTy → Type} [FloatOps F] (main_arg17 : FVec F S64 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg14 : FVec F S128 .f32) (main_arg15 : FVec F S128x64 .f32) (main_arg16 : FVec F S64 .f32) (main_arg17 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg15
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg17 main_v63 main_v67

def fn_part2 {F : FTy → Type} [FloatOps F] (main_arg10 : FVec F S64 .f32) (main_arg11 : FVec F S64 .f32) (main_arg12 : FVec F S320x128 .f32) (main_arg13 : FVec F S128 .f32) (main_arg14 : FVec F S128 .f32) (main_arg15 : FVec F S128x64 .f32) (main_arg16 : FVec F S64 .f32) (main_arg17 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S320x128 .f32 := Host.absf main_arg12
  let main_cst_16 : FVec F S_ .f32 := constant S_ .f32 0x7F800000#32
  let main_v45 : FVec F S320x128 .f32 := broadcastInDim S320x128 ![] bcast_S_S320x128 main_cst_16
  let main_v46 : IVec S320x128 1 := cmpf .olt main_v44 main_v45
  let main_c_17 : IVec S_ 1 := constantI S_ 1 1#1
  let main_v47 : IVec S_ 1 := (fun x v => Host.reduce IntOp.andi x v reducesTo_S320x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_v48 main_v49 main_v50

def fn_part1 {F : FTy → Type} [FloatOps F] (main_arg7 : FVec F S128 .f32) (main_arg8 : FVec F S128 .f32) (main_arg9 : FVec F S128x64 .f32) (main_arg10 : FVec F S64 .f32) (main_arg11 : FVec F S64 .f32) (main_arg12 : FVec F S320x128 .f32) (main_arg13 : FVec F S128 .f32) (main_arg14 : FVec F S128 .f32) (main_arg15 : FVec F S128x64 .f32) (main_arg16 : FVec F S64 .f32) (main_arg17 : FVec F S64 .f32) (main_v13 : IVec S_ 1) (main_v16 : IVec S704x128 1) : IVec S_ 1 :=
  let main_c_5 : IVec S_ 1 := constantI S_ 1 1#1
  let main_v17 : IVec S_ 1 := (fun x v => Host.reduce IntOp.andi x v reducesTo_S704x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg9
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S120000x64 .f32) (main_arg1 : FVec F S150000x64 .f32) (main_arg2 : FVec F S150000x64 .f32) (main_arg3 : IVec S120000 32) (main_arg4 : IVec S150000 32) (main_arg5 : IVec S150000 32) (main_arg6 : FVec F S704x128 .f32) (main_arg7 : FVec F S128 .f32) (main_arg8 : FVec F S128 .f32) (main_arg9 : FVec F S128x64 .f32) (main_arg10 : FVec F S64 .f32) (main_arg11 : FVec F S64 .f32) (main_arg12 : FVec F S320x128 .f32) (main_arg13 : FVec F S128 .f32) (main_arg14 : FVec F S128 .f32) (main_arg15 : FVec F S128x64 .f32) (main_arg16 : FVec F S64 .f32) (main_arg17 : FVec F S64 .f32) : IVec S_ 1 :=
  let main_v0 : FVec F S120000x64 .f32 := Host.absf main_arg0
  let main_cst : FVec F S_ .f32 := constant S_ .f32 0x7F800000#32
  let main_v1 : FVec F S120000x64 .f32 := broadcastInDim S120000x64 ![] bcast_S_S120000x64 main_cst
  let main_v2 : IVec S120000x64 1 := cmpf .olt main_v0 main_v1
  let main_c : IVec S_ 1 := constantI S_ 1 1#1
  let main_v3 : IVec S_ 1 := (fun x v => Host.reduce IntOp.andi x v reducesTo_S120000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S150000x64 .f32 := Host.absf main_arg2
  let main_cst_2 : FVec F S_ .f32 := constant S_ .f32 0x7F800000#32
  let main_v10 : FVec F S150000x64 .f32 := broadcastInDim S150000x64 ![] bcast_S_S150000x64 main_cst_2
  let main_v11 : IVec S150000x64 1 := cmpf .olt main_v9 main_v10
  let main_c_3 : IVec S_ 1 := constantI S_ 1 1#1
  let main_v12 : IVec S_ 1 := (fun x v => Host.reduce IntOp.andi x v reducesTo_S150000x64_S_d0_1 h_S_) main_v11 main_c_3
  let main_v13 : IVec S_ 1 := andi main_v8 main_v12
  let main_v14 : FVec F S704x128 .f32 := Host.absf main_arg6
  let main_cst_4 : FVec F S_ .f32 := constant S_ .f32 0x7F800000#32
  let main_v15 : FVec F S704x128 .f32 := broadcastInDim S704x128 ![] bcast_S_S704x128 main_cst_4
  let main_v16 : IVec S704x128 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S120000x64 : Shape := ⟨2, ![120000, 64]⟩
abbrev S150000x64 : Shape := ⟨2, ![150000, 64]⟩
abbrev S120000 : Shape := ⟨1, ![120000]⟩
abbrev S150000 : Shape := ⟨1, ![150000]⟩
abbrev S704x128 : Shape := ⟨2, ![704, 128]⟩
abbrev S128 : Shape := ⟨1, ![128]⟩
abbrev S128x64 : Shape := ⟨2, ![128, 64]⟩
abbrev S64 : Shape := ⟨1, ![64]⟩
abbrev S320x128 : Shape := ⟨2, ![320, 128]⟩
abbrev S60000 : Shape := ⟨1, ![60000]⟩
abbrev S60000x2 : Shape := ⟨2, ![60000, 2]⟩
abbrev S30000 : Shape := ⟨1, ![30000]⟩
abbrev S30000x5 : Shape := ⟨2, ![30000, 5]⟩
abbrev S25000 : Shape := ⟨1, ![25000]⟩
abbrev S25000x6 : Shape := ⟨2, ![25000, 6]⟩
abbrev S_ : Shape := ⟨0, ![]⟩
abbrev S40000x64 : Shape := ⟨2, ![40000, 64]⟩
abbrev S120000x1 : Shape := ⟨2, ![120000, 1]⟩
abbrev S150000x1 : Shape := ⟨2, ![150000, 1]⟩
abbrev S30000x64 : Shape := ⟨2, ![30000, 64]⟩
abbrev S150000x128 : Shape := ⟨2, ![150000, 128]⟩
abbrev S40000x128 : Shape := ⟨2, ![40000, 128]⟩
abbrev S30000x128 : Shape := ⟨2, ![30000, 128]⟩
abbrev S150000x256 : Shape := ⟨2, ![150000, 256]⟩
abbrev S25000x64 : Shape := ⟨2, ![25000, 64]⟩
abbrev S25000x128 : Shape := ⟨2, ![25000, 128]⟩
abbrev S150000x320 : Shape := ⟨2, ![150000, 320]⟩
abbrev S40000x320 : Shape := ⟨2, ![40000, 320]⟩
abbrev S120000x320 : Shape := ⟨2, ![120000, 320]⟩
abbrev S60000x320 : Shape := ⟨2, ![60000, 320]⟩
abbrev S120000x640 : Shape := ⟨2, ![120000, 640]⟩
abbrev S120000x704 : Shape := ⟨2, ![120000, 704]⟩
abbrev S120000x128 : Shape := ⟨2, ![120000, 128]⟩
abbrev S1x128 : Shape := ⟨2, ![1, 128]⟩
abbrev S3000x704 : Shape := ⟨2, ![3000, 704]⟩
abbrev S3000x128 : Shape := ⟨2, ![3000, 128]⟩
abbrev S1x64 : Shape := ⟨2, ![1, 64]⟩
abbrev S3000x64 : Shape := ⟨2, ![3000, 64]⟩
abbrev S5000x320 : Shape := ⟨2, ![5000, 320]⟩
abbrev S5000x128 : Shape := ⟨2, ![5000, 128]⟩
abbrev S5000x64 : Shape := ⟨2, ![5000, 64]⟩

abbrev nBuf : Space → Nat
  | .hbm => 316
  | .vmem => 78
  | .smem => 0
  | _ => 0

abbrev hbmTy0_0 (i : Nat) : BufTy := match i % 128 with
  | 0 => ⟨S120000x64, .f32⟩
  | 1 => ⟨S150000x64, .f32⟩
  | 2 => ⟨S150000x64, .f32⟩
  | 3 => ⟨S120000, .i32⟩
  | 4 => ⟨S150000, .i32⟩
  | 5 => ⟨S150000, .i32⟩
  | 6 => ⟨S704x128, .f32⟩
  | 7 => ⟨S128, .f32⟩
  | 8 => ⟨S128, .f32⟩
  | 9 => ⟨S128x64, .f32⟩
  | 10 => ⟨S64, .f32⟩
  | 11 => ⟨S64, .f32⟩
  | 12 => ⟨S320x128, .f32⟩
  | 13 => ⟨S128, .f32⟩
  | 14 => ⟨S128, .f32⟩
  | 15 => ⟨S128x64, .f32⟩
  | 16 => ⟨S64, .f32⟩
  | 17 => ⟨S64, .f32⟩
  | 18 => ⟨S60000, .i32⟩
  | 19 => ⟨S60000x2, .i32⟩
  | 20 => ⟨S120000, .i32⟩
  | 21 => ⟨S30000, .i32⟩
  | 22 => ⟨S30000x5, .i32⟩
  | 23 => ⟨S150000, .i32⟩
  | 24 => ⟨S25000, .i32⟩
  | 25 => ⟨S25000x6, .i32⟩
  | 26 => ⟨S150000, .i32⟩
  | 27 => ⟨S_, .f32⟩
  | 28 => ⟨S40000x64, .f32⟩
  | 29 => ⟨S120000x1, .i32⟩
  | 30 => ⟨S40000x64, .f32⟩
  | 31 => ⟨S_, .i32⟩
  | 32 => ⟨S150000, .i32⟩
  | 33 => ⟨S150000, .i1⟩
  | 34 => ⟨S_, .i32⟩
  | 35 => ⟨S150000, .i32⟩
  | 36 => ⟨S150000, .i32⟩
  | 37 => ⟨S150000, .i32⟩
  | 38 => ⟨S150000x1, .i32⟩
  | 39 => ⟨S150000x64, .f32⟩
  | 40 => ⟨S_, .f32⟩
  | 41 => ⟨S30000x64, .f32⟩
  | 42 => ⟨S150000x1, .i32⟩
  | 43 => ⟨S30000x64, .f32⟩
  | 44 => ⟨S_, .i32⟩
  | 45 => ⟨S150000, .i32⟩
  | 46 => ⟨S150000, .i1⟩
  | 47 => ⟨S_, .i32⟩
  | 48 => ⟨S150000, .i32⟩
  | 49 => ⟨S150000, .i32⟩
  | 50 => ⟨S150000, .i32⟩
  | 51 => ⟨S150000x1, .i32⟩
  | 52 => ⟨S150000x64, .f32⟩
  | 53 => ⟨S150000x128, .f32⟩
  | 54 => ⟨S_, .f32⟩
  | 55 => ⟨S40000x128, .f32⟩
  | 56 => ⟨S150000x1, .i32⟩
  | 57 => ⟨S40000x128, .f32⟩
  | 58 => ⟨S_, .i32⟩
  | 59 => ⟨S150000, .i32⟩
  | 60 => ⟨S150000, .i1⟩
  | 61 => ⟨S_, .i32⟩
  | 62 => ⟨S150000, .i32⟩
  | 63 => ⟨S150000, .i32⟩
  | 64 => ⟨S150000, .i32⟩
  | 65 => ⟨S150000x1, .i32⟩
  | 66 => ⟨S150000x128, .f32⟩
  | 67 => ⟨S_, .f32⟩
  | 68 => ⟨S30000x128, .f32⟩
  | 69 => ⟨S150000x1, .i32⟩
  | 70 => ⟨S30000x128, .f32⟩
  | 71 => ⟨S_, .i32⟩
  | 72 => ⟨S150000, .i32⟩
  | 73 => ⟨S150000, .i1⟩
  | 74 => ⟨S_, .i32⟩
  | 75 => ⟨S150000, .i32⟩
  | 76 => ⟨S150000, .i32⟩
  | 77 => ⟨S150000, .i32⟩
  | 78 => ⟨S150000x1, .i32⟩
  | 79 => ⟨S150000x128, .f32⟩
  | 80 => ⟨S150000x256, .f32⟩
  | 81 => ⟨S_, .f32⟩
  | 82 => ⟨S40000x64, .f32⟩
  | 83 => ⟨S120000x1, .i32⟩
  | 84 => ⟨S40000x64, .f32⟩
  | 85 => ⟨S_, .i32⟩
  | 86 => ⟨S150000, .i32⟩
  | 87 => ⟨S150000, .i1⟩
  | 88 => ⟨S_, .i32⟩
  | 89 => ⟨S150000, .i32⟩
  | 90 => ⟨S150000, .i32⟩
  | 91 => ⟨S150000, .i32⟩
  | 92 => ⟨S150000x1, .i32⟩
  | 93 => ⟨S150000x64, .f32⟩
  | 94 => ⟨S_, .f32⟩
  | 95 => ⟨S25000x64, .f32⟩
  | 96 => ⟨S150000x1, .i32⟩
  | 97 => ⟨S25000x64, .f32⟩
  | 98 => ⟨S_, .i32⟩
  | 99 => ⟨S150000, .i32⟩
  | 100 => ⟨S150000, .i1⟩
  | 101 => ⟨S_, .i32⟩
  | 102 => ⟨S150000, .i32⟩
  | 103 => ⟨S150000, .i32⟩
  | 104 => ⟨S150000, .i32⟩
  | 105 => ⟨S150000x1, .i32⟩
  | 106 => ⟨S150000x64, .f32⟩
  | 107 => ⟨S150000x128, .f32⟩
  | 108 => ⟨S_, .f32⟩
  | 109 => ⟨S40000x128, .f32⟩
  | 110 => ⟨S150000x1, .i32⟩
  | 111 => ⟨S40000x128, .f32⟩
  | 112 => ⟨S_, .i32⟩
  | 113 => ⟨S150000, .i32⟩
  | 114 => ⟨S150000, .i1⟩
  | 115 => ⟨S_, .i32⟩
  | 116 => ⟨S150000, .i32⟩
  | 117 => ⟨S150000, .i32⟩
  | 118 => ⟨S150000, .i32⟩
  | 119 => ⟨S150000x1, .i32⟩
  | 120 => ⟨S150000x128, .f32⟩
  | 121 => ⟨S_, .f32⟩
  | 122 => ⟨S25000x128, .f32⟩
  | 123 => ⟨S150000x1, .i32⟩
  | 124 => ⟨S25000x128, .f32⟩
  | 125 => ⟨S_, .i32⟩
  | 126 => ⟨S150000, .i32⟩
  | 127 => ⟨S150000, .i1⟩
  | _ => ⟨S120000x64, .f32⟩

abbrev hbmTy0_1 (i : Nat) : BufTy := match i % 128 with
  | 0 => ⟨S_, .i32⟩
  | 1 => ⟨S150000, .i32⟩
  | 2 => ⟨S150000, .i32⟩
  | 3 => ⟨S150000, .i32⟩
  | 4 => ⟨S150000x1, .i32⟩
  | 5 => ⟨S150000x128, .f32⟩
  | 6 => ⟨S150000x256, .f32⟩
  | 7 => ⟨S150000x320, .f32⟩
  | 8 => ⟨S150000x320, .f32⟩
  | 9 => ⟨S_, .f32⟩
  | 10 => ⟨S40000x320, .f32⟩
  | 11 => ⟨S150000x1, .i32⟩
  | 12 => ⟨S40000x320, .f32⟩
  | 13 => ⟨S_, .i32⟩
  | 14 => ⟨S120000, .i32⟩
  | 15 => ⟨S120000, .i1⟩
  | 16 => ⟨S_, .i32⟩
  | 17 => ⟨S120000, .i32⟩
  | 18 => ⟨S120000, .i32⟩
  | 19 => ⟨S120000, .i32⟩
  | 20 => ⟨S120000x1, .i32⟩
  | 21 => ⟨S120000x320, .f32⟩
  | 22 => ⟨S_, .f32⟩
  | 23 => ⟨S60000x320, .f32⟩
  | 24 => ⟨S120000x1, .i32⟩
  | 25 => ⟨S60000x320, .f32⟩
  | 26 => ⟨S_, .i32⟩
  | 27 => ⟨S120000, .i32⟩
  | 28 => ⟨S120000, .i1⟩
  | 29 => ⟨S_, .i32⟩
  | 30 => ⟨S120000, .i32⟩
  | 31 => ⟨S120000, .i32⟩
  | 32 => ⟨S120000, .i32⟩
  | 33 => ⟨S120000x1, .i32⟩
  | 34 => ⟨S120000x320, .f32⟩
  | 35 => ⟨S120000x640, .f32⟩
  | 36 => ⟨S_, .f32⟩
  | 37 => ⟨S40000x320, .f32⟩
  | 38 => ⟨S150000x1, .i32⟩
  | 39 => ⟨S40000x320, .f32⟩
  | 40 => ⟨S_, .i32⟩
  | 41 => ⟨S120000, .i32⟩
  | 42 => ⟨S120000, .i1⟩
  | 43 => ⟨S_, .i32⟩
  | 44 => ⟨S120000, .i32⟩
  | 45 => ⟨S120000, .i32⟩
  | 46 => ⟨S120000, .i32⟩
  | 47 => ⟨S120000x1, .i32⟩
  | 48 => ⟨S120000x320, .f32⟩
  | 49 => ⟨S_, .f32⟩
  | 50 => ⟨S60000x320, .f32⟩
  | 51 => ⟨S120000x1, .i32⟩
  | 52 => ⟨S60000x320, .f32⟩
  | 53 => ⟨S_, .i32⟩
  | 54 => ⟨S120000, .i32⟩
  | 55 => ⟨S120000, .i1⟩
  | 56 => ⟨S_, .i32⟩
  | 57 => ⟨S120000, .i32⟩
  | 58 => ⟨S120000, .i32⟩
  | 59 => ⟨S120000, .i32⟩
  | 60 => ⟨S120000x1, .i32⟩
  | 61 => ⟨S120000x320, .f32⟩
  | 62 => ⟨S120000x640, .f32⟩
  | 63 => ⟨S120000x640, .f32⟩
  | 64 => ⟨S120000x704, .f32⟩
  | 65 => ⟨S120000x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S120000x64, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S_, .f32⟩
  | 92 => ⟨S1x64, .f32⟩
  | 93 => ⟨S1x64, .f32⟩
  | 94 => ⟨S1x64, .f32⟩
  | 95 => ⟨S1x64, .f32⟩
  | 96 => ⟨S_, .f32⟩
  | 97 => ⟨S1x64, .f32⟩
  | 98 => ⟨S1x64, .f32⟩
  | 99 => ⟨S1x64, .f32⟩
  | 100 => ⟨S1x64, .f32⟩
  | 101 => ⟨S1x64, .f32⟩
  | 102 => ⟨S1x64, .f32⟩
  | 103 => ⟨S1x64, .f32⟩
  | 104 => ⟨S1x64, .f32⟩
  | 105 => ⟨S120000x64, .f32⟩
  | 106 => ⟨S150000x128, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S150000x64, .f32⟩
  | 127 => ⟨S1x64, .f32⟩
  | _ => ⟨S120000x64, .f32⟩

abbrev hbmTy0_2 (i : Nat) : BufTy := match i % 128 with
  | 0 => ⟨S1x64, .f32⟩
  | 1 => ⟨S_, .f32⟩
  | 2 => ⟨S1x64, .f32⟩
  | 3 => ⟨S1x64, .f32⟩
  | 4 => ⟨S_, .f32⟩
  | 5 => ⟨S1x64, .f32⟩
  | 6 => ⟨S1x64, .f32⟩
  | 7 => ⟨S1x64, .f32⟩
  | 8 => ⟨S1x64, .f32⟩
  | 9 => ⟨S_, .f32⟩
  | 10 => ⟨S1x64, .f32⟩
  | 11 => ⟨S1x64, .f32⟩
  | 12 => ⟨S1x64, .f32⟩
  | 13 => ⟨S1x64, .f32⟩
  | 14 => ⟨S1x64, .f32⟩
  | 15 => ⟨S1x64, .f32⟩
  | 16 => ⟨S1x64, .f32⟩
  | 17 => ⟨S1x64, .f32⟩
  | 18 => ⟨S150000x64, .f32⟩
  | 19 => ⟨S150000x128, .f32⟩
  | 20 => ⟨S1x128, .f32⟩
  | 21 => ⟨S1x128, .f32⟩
  | 22 => ⟨S_, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S1x128, .f32⟩
  | 37 => ⟨S1x128, .f32⟩
  | 38 => ⟨S1x128, .f32⟩
  | 39 => ⟨S150000x64, .f32⟩
  | 40 => ⟨S1x64, .f32⟩
  | 41 => ⟨S1x64, .f32⟩
  | 42 => ⟨S_, .f32⟩
  | 43 => ⟨S1x64, .f32⟩
  | 44 => ⟨S1x64, .f32⟩
  | 45 => ⟨S_, .f32⟩
  | 46 => ⟨S1x64, .f32⟩
  | 47 => ⟨S1x64, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S1x64, .f32⟩
  | 54 => ⟨S1x64, .f32⟩
  | 55 => ⟨S1x64, .f32⟩
  | 56 => ⟨S1x64, .f32⟩
  | 57 => ⟨S1x64, .f32⟩
  | 58 => ⟨S1x64, .f32⟩
  | 59 => ⟨S150000x64, .f32⟩
  | _ => ⟨S120000x64, .f32⟩

abbrev hbmTy (i : Nat) : BufTy := match i / 128 with
  | 0 => hbmTy0_0 i
  | 1 => hbmTy0_1 i
  | 2 => hbmTy0_2 i
  | _ => ⟨S120000x64, .f32⟩

abbrev bufTy : (tb : Table) → Fin (tcTables nBuf tb) → BufTy
  | .hbm, ⟨i, _⟩ => hbmTy i
  | .local _ .vmem, ⟨0, _⟩ => ⟨S3000x704, .f32⟩
  | .local _ .vmem, ⟨1, _⟩ => ⟨S3000x704, .f32⟩
  | .local _ .vmem, ⟨2, _⟩ => ⟨S704x128, .f32⟩
  | .local _ .vmem, ⟨3, _⟩ => ⟨S3000x128, .f32⟩
  | .local _ .vmem, ⟨4, _⟩ => ⟨S3000x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S3000x128, .f32⟩
  | .local _ .vmem, ⟨10, _⟩ => ⟨S3000x128, .f32⟩
  | .local _ .vmem, ⟨11, _⟩ => ⟨S1x128, .f32⟩
  | .local _ .vmem, ⟨12, _⟩ => ⟨S1x128, .f32⟩
  | .local _ .vmem, ⟨13, _⟩ => ⟨S128x64, .f32⟩
  | .local _ .vmem, ⟨14, _⟩ => ⟨S3000x64, .f32⟩
  | .local _ .vmem, ⟨15, _⟩ => ⟨S3000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S3000x64, .f32⟩
  | .local _ .vmem, ⟨21, _⟩ => ⟨S3000x64, .f32⟩
  | .local _ .vmem, ⟨22, _⟩ => ⟨S1x64, .f32⟩
  | .local _ .vmem, ⟨23, _⟩ => ⟨S1x64, .f32⟩
  | .local _ .vmem, ⟨24, _⟩ => ⟨S3000x64, .f32⟩
  | .local _ .vmem, ⟨25, _⟩ => ⟨S3000x64, .f32⟩
  | .local _ .vmem, ⟨26, _⟩ => ⟨S5000x320, .f32⟩
  | .local _ .vmem, ⟨27, _⟩ => ⟨S5000x320, .f32⟩
  | .local _ .vmem, ⟨28, _⟩ => ⟨S320x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S1x128, .f32⟩
  | .local _ .vmem, ⟨39, _⟩ => ⟨S128x64, .f32⟩
  | .local _ .vmem, ⟨40, _⟩ => ⟨S5000x64, .f32⟩
  | .local _ .vmem, ⟨41, _⟩ => ⟨S5000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S1x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | .local _ .vmem, ⟨52, _⟩ => ⟨S5000x320, .f32⟩
  | .local _ .vmem, ⟨53, _⟩ => ⟨S5000x320, .f32⟩
  | .local _ .vmem, ⟨54, _⟩ => ⟨S320x128, .f32⟩
  | .local _ .vmem, ⟨55, _⟩ => ⟨S5000x128, .f32⟩
  | .local _ .vmem, ⟨56, _⟩ => ⟨S5000x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S1x128, .f32⟩
  | .local _ .vmem, ⟨64, _⟩ => ⟨S1x128, .f32⟩
  | .local _ .vmem, ⟨65, _⟩ => ⟨S128x64, .f32⟩
  | .local _ .vmem, ⟨66, _⟩ => ⟨S5000x64, .f32⟩
  | .local _ .vmem, ⟨67, _⟩ => ⟨S5000x64, .f32⟩
  | .local _ .vmem, ⟨68, _⟩ => ⟨S1x64, .f32⟩
  | .local _ .vmem, ⟨69, _⟩ => ⟨S1x64, .f32⟩
  | .local _ .vmem, ⟨70, _⟩ => ⟨S1x64, .f32⟩
  | .local _ .vmem, ⟨71, _⟩ => ⟨S1x64, .f32⟩
  | .local _ .vmem, ⟨72, _⟩ => ⟨S5000x64, .f32⟩
  | .local _ .vmem, ⟨73, _⟩ => ⟨S5000x64, .f32⟩
  | .local _ .vmem, ⟨74, _⟩ => ⟨S1x64, .f32⟩
  | .local _ .vmem, ⟨75, _⟩ => ⟨S1x64, .f32⟩
  | .local _ .vmem, ⟨76, _⟩ => ⟨S5000x64, .f32⟩
  | .local _ .vmem, ⟨77, _⟩ => ⟨S5000x64, .f32⟩
  | _, _ => ⟨S120000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_5 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_8 : Ref sig .tc := ⟨.hbm, 71, rfl⟩
abbrev main_v43 : Ref sig .tc := ⟨.hbm, 72, rfl⟩
abbrev main_v44 : Ref sig .tc := ⟨.hbm, 73, rfl⟩
abbrev main_c_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_v55 : Ref sig .tc := ⟨.hbm, 87, rfl⟩
abbrev main_c_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_14 : Ref sig .tc := ⟨.hbm, 98, rfl⟩
abbrev main_v64 : Ref sig .tc := ⟨.hbm, 99, rfl⟩
abbrev main_v65 : Ref sig .tc := ⟨.hbm, 100, rfl⟩
abbrev main_c_15 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_c_18 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_19 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c_20 : Ref sig .tc := ⟨.hbm, 125, rfl⟩
abbrev main_v85 : Ref sig .tc := ⟨.hbm, 126, rfl⟩
abbrev main_v86 : Ref sig .tc := ⟨.hbm, 127, rfl⟩
abbrev main_c_21 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_22 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_23 : Ref sig .tc := ⟨.hbm, 141, rfl⟩
abbrev main_v98 : Ref sig .tc := ⟨.hbm, 142, rfl⟩
abbrev main_v99 : Ref sig .tc := ⟨.hbm, 143, rfl⟩
abbrev main_c_24 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_25 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_26 : Ref sig .tc := ⟨.hbm, 154, rfl⟩
abbrev main_v108 : Ref sig .tc := ⟨.hbm, 155, rfl⟩
abbrev main_v109 : Ref sig .tc := ⟨.hbm, 156, rfl⟩
abbrev main_c_27 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_28 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_29 : Ref sig .tc := ⟨.hbm, 168, rfl⟩
abbrev main_v119 : Ref sig .tc := ⟨.hbm, 169, rfl⟩
abbrev main_v120 : Ref sig .tc := ⟨.hbm, 170, rfl⟩
abbrev main_c_30 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_31 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_c_32 : Ref sig .tc := ⟨.hbm, 181, rfl⟩
abbrev main_v129 : Ref sig .tc := ⟨.hbm, 182, rfl⟩
abbrev main_v130 : Ref sig .tc := ⟨.hbm, 183, rfl⟩
abbrev main_c_33 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139_0 : Ref sig .tc := ⟨.hbm, 193, rfl⟩
abbrev main_v139_1 : Ref sig .tc := ⟨.hbm, 194, rfl⟩
abbrev main_v139_2 : Ref sig .tc := ⟨.hbm, 195, rfl⟩
abbrev main_cst_34 : Ref sig .tc := ⟨.hbm, 196, rfl⟩
abbrev main_v140 : Ref sig .tc := ⟨.hbm, 197, rfl⟩
abbrev main_v141 : Ref sig .tc := ⟨.hbm, 198, rfl⟩
abbrev main_cst_35 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_cst_36 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154_0 : Ref sig .tc := ⟨.hbm, 213, rfl⟩
abbrev main_v154_1 : Ref sig .tc := ⟨.hbm, 214, rfl⟩
abbrev main_v154_2 : Ref sig .tc := ⟨.hbm, 215, rfl⟩
abbrev main_cst_37 : Ref sig .tc := ⟨.hbm, 216, rfl⟩
abbrev main_v155 : Ref sig .tc := ⟨.hbm, 217, rfl⟩
abbrev main_v156 : Ref sig .tc := ⟨.hbm, 218, rfl⟩
abbrev main_cst_38 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_cst_39 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170_0 : Ref sig .tc := ⟨.hbm, 234, rfl⟩
abbrev main_v170_1 : Ref sig .tc := ⟨.hbm, 235, rfl⟩
abbrev main_v170_2 : Ref sig .tc := ⟨.hbm, 236, rfl⟩
abbrev main_cst_40 : Ref sig .tc := ⟨.hbm, 237, rfl⟩
abbrev main_v171 : Ref sig .tc := ⟨.hbm, 238, rfl⟩
abbrev main_v172 : Ref sig .tc := ⟨.hbm, 239, rfl⟩
abbrev main_cst_41 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_cst_42 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185_0 : Ref sig .tc := ⟨.hbm, 254, rfl⟩
abbrev main_v185_1 : Ref sig .tc := ⟨.hbm, 255, rfl⟩
abbrev main_v185_2 : Ref sig .tc := ⟨.hbm, 256, rfl⟩
abbrev main_cst_43 : Ref sig .tc := ⟨.hbm, 257, rfl⟩
abbrev main_v186 : Ref sig .tc := ⟨.hbm, 258, rfl⟩
abbrev main_v187 : Ref sig .tc := ⟨.hbm, 259, rfl⟩
abbrev main_cst_44 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_cst_45 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201_0 : Ref sig .tc := ⟨.hbm, 275, rfl⟩
abbrev main_v201_1 : Ref sig .tc := ⟨.hbm, 276, rfl⟩
abbrev main_v201_2 : Ref sig .tc := ⟨.hbm, 277, rfl⟩
abbrev main_cst_46 : Ref sig .tc := ⟨.hbm, 278, rfl⟩
abbrev main_v202 : Ref sig .tc := ⟨.hbm, 279, rfl⟩
abbrev main_v203 : Ref sig .tc := ⟨.hbm, 280, rfl⟩
abbrev main_cst_47 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_cst_48 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216_0 : Ref sig .tc := ⟨.hbm, 295, rfl⟩
abbrev main_v216_1 : Ref sig .tc := ⟨.hbm, 296, rfl⟩
abbrev main_v216_2 : Ref sig .tc := ⟨.hbm, 297, rfl⟩
abbrev main_cst_49 : Ref sig .tc := ⟨.hbm, 298, rfl⟩
abbrev main_v217 : Ref sig .tc := ⟨.hbm, 299, rfl⟩
abbrev main_v218 : Ref sig .tc := ⟨.hbm, 300, rfl⟩
abbrev main_cst_50 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_cst_51 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_scratch0 : Ref sig .tc := ⟨.vmem, 33, rfl⟩
abbrev cc3_scratch1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc4_stg5_0 : Ref sig .tc := ⟨.vmem, 42, rfl⟩
abbrev cc4_stg6_0 : Ref sig .tc := ⟨.vmem, 43, rfl⟩
abbrev cc4_scratch0 : Ref sig .tc := ⟨.vmem, 44, rfl⟩
abbrev cc4_scratch1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg3_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg2_1 : Ref sig .tc := ⟨.vmem, 56, rfl⟩
abbrev cc6_stg3_0 : Ref sig .tc := ⟨.vmem, 57, rfl⟩
abbrev cc6_stg4_0 : Ref sig .tc := ⟨.vmem, 58, rfl⟩
abbrev cc6_scratch0 : Ref sig .tc := ⟨.vmem, 59, rfl⟩
abbrev cc6_scratch1 : Ref sig .tc := ⟨.vmem, 60, rfl⟩
abbrev cc7_stg0_0 : Ref sig .tc := ⟨.vmem, 61, rfl⟩
abbrev cc7_stg0_1 : Ref sig .tc := ⟨.vmem, 62, rfl⟩
abbrev cc7_stg1_0 : Ref sig .tc := ⟨.vmem, 63, rfl⟩
abbrev cc7_stg2_0 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg4_1 : Ref sig .tc := ⟨.vmem, 67, rfl⟩
abbrev cc7_stg5_0 : Ref sig .tc := ⟨.vmem, 68, rfl⟩
abbrev cc7_stg6_0 : Ref sig .tc := ⟨.vmem, 69, rfl⟩
abbrev cc7_scratch0 : Ref sig .tc := ⟨.vmem, 70, rfl⟩
abbrev cc7_scratch1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg2_0 : Ref sig .tc := ⟨.vmem, 75, rfl⟩
abbrev cc8_stg3_0 : Ref sig .tc := ⟨.vmem, 76, rfl⟩
abbrev cc8_stg3_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem4_0 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem4_1 : DmaSem sig := 35
abbrev cc4_sem5_0 : DmaSem sig := 36
abbrev cc4_sem6_0 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem2_1 : DmaSem sig := 48
abbrev cc6_sem3_0 : DmaSem sig := 49
abbrev cc6_sem4_0 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem3_0 : DmaSem sig := 55
abbrev cc7_sem4_0 : DmaSem sig := 56
abbrev cc7_sem4_1 : DmaSem sig := 57
abbrev cc7_sem5_0 : DmaSem sig := 58
abbrev cc7_sem6_0 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem3_0 : DmaSem sig := 64
abbrev cc8_sem3_1 : DmaSem sig := 65

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3000x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S704x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S3000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x320 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S320x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![30], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![30], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![30], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x320 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S320x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev grid7 : Pipeline.Grid := ⟨1, ![30], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![30], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  bcast_S60000_S60000x2_0 : S60000.BroadcastsInDim S60000x2 (![0] : Fin 1 → Fin S60000x2.rank)
  shapeCasts_S60000x2_S120000 : S60000x2.ShapeCasts S120000
  bcast_S30000_S30000x5_0 : S30000.BroadcastsInDim S30000x5 (![0] : Fin 1 → Fin S30000x5.rank)
  shapeCasts_S30000x5_S150000 : S30000x5.ShapeCasts S150000
  bcast_S25000_S25000x6_0 : S25000.BroadcastsInDim S25000x6 (![0] : Fin 1 → Fin S25000x6.rank)
  shapeCasts_S25000x6_S150000 : S25000x6.ShapeCasts S150000
  bcast_S_S40000x64 : S_.BroadcastsInDim S40000x64 (![] : Fin 0 → Fin S40000x64.rank)
  bcast_S120000_S120000x1_0 : S120000.BroadcastsInDim S120000x1 (![0] : Fin 1 → Fin S120000x1.rank)
  bcast_S_S150000 : S_.BroadcastsInDim S150000 (![] : Fin 0 → Fin S150000.rank)
  bcast_S150000_S150000x1_0 : S150000.BroadcastsInDim S150000x1 (![0] : Fin 1 → Fin S150000x1.rank)
  bcast_S_S30000x64 : S_.BroadcastsInDim S30000x64 (![] : Fin 0 → Fin S30000x64.rank)
  concatenates_S150000x64_S150000x64_S150000x128_d1 : Shape.Concatenates [S150000x64, S150000x64] S150000x128 1
  bcast_S_S40000x128 : S_.BroadcastsInDim S40000x128 (![] : Fin 0 → Fin S40000x128.rank)
  bcast_S_S30000x128 : S_.BroadcastsInDim S30000x128 (![] : Fin 0 → Fin S30000x128.rank)
  concatenates_S150000x128_S150000x128_S150000x256_d1 : Shape.Concatenates [S150000x128, S150000x128] S150000x256 1
  bcast_S_S25000x64 : S_.BroadcastsInDim S25000x64 (![] : Fin 0 → Fin S25000x64.rank)
  bcast_S_S25000x128 : S_.BroadcastsInDim S25000x128 (![] : Fin 0 → Fin S25000x128.rank)
  concatenates_S150000x256_S150000x64_S150000x320_d1 : Shape.Concatenates [S150000x256, S150000x64] S150000x320 1
  bcast_S_S40000x320 : S_.BroadcastsInDim S40000x320 (![] : Fin 0 → Fin S40000x320.rank)
  bcast_S_S120000 : S_.BroadcastsInDim S120000 (![] : Fin 0 → Fin S120000.rank)
  bcast_S_S60000x320 : S_.BroadcastsInDim S60000x320 (![] : Fin 0 → Fin S60000x320.rank)
  concatenates_S120000x320_S120000x320_S120000x640_d1 : Shape.Concatenates [S120000x320, S120000x320] S120000x640 1
  concatenates_S120000x64_S120000x640_S120000x704_d1 : Shape.Concatenates [S120000x64, S120000x640] S120000x704 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S3000x704_S3000x704_0_0 : ∀ a, (![0, 0] : Fin 2 → Nat) a + S3000x704.size a ≤ S3000x704.size a
  h_S3000x704 : 0 < S3000x704.numel
  shapeCasts_S3000x704_S3000x704 : S3000x704.ShapeCasts S3000x704
  bitsLt_bf16_f32 : FTy.bits .bf16 < FTy.bits .f32
  inb_S704x128_S704x128_0_0 : ∀ a, (![0, 0] : Fin 2 → Nat) a + S704x128.size a ≤ S704x128.size a
  h_S704x128 : 0 < S704x128.numel
  inb_S3000x128_S3000x128_0_0 : ∀ a, (![0, 0] : Fin 2 → Nat) a + S3000x128.size a ≤ S3000x128.size a
  h_S3000x128 : 0 < S3000x128.numel
  reduces_S3000x128_S128 : S3000x128.Reduces [0] S128
  shapeCasts_S128_S1x128 : S128.ShapeCasts S1x128
  bcast_S_S1x128 : S_.BroadcastsInDim S1x128 (![] : Fin 0 → Fin S1x128.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S3000x128_S3000x128 : S3000x128.ShapeCasts S3000x128
  broadcasts_S1x128_S3000x128 : S1x128.Broadcasts S3000x128
  inb_S128x64_S128x64_0_0 : ∀ a, (![0, 0] : Fin 2 → Nat) a + S128x64.size a ≤ S128x64.size a
  h_S128x64 : 0 < S128x64.numel
  inb_S3000x64_S3000x64_0_0 : ∀ a, (![0, 0] : Fin 2 → Nat) a + S3000x64.size a ≤ S3000x64.size a
  h_S3000x64 : 0 < S3000x64.numel
  reduces_S3000x64_S64 : S3000x64.Reduces [0] S64
  shapeCasts_S64_S1x64 : S64.ShapeCasts S1x64
  bcast_S_S1x64 : S_.BroadcastsInDim S1x64 (![] : Fin 0 → Fin S1x64.rank)
  shapeCasts_S3000x64_S3000x64 : S3000x64.ShapeCasts S3000x64
  broadcasts_S1x64_S3000x64 : S1x64.Broadcasts S3000x64
  inb_S5000x320_S5000x320_0_0 : ∀ a, (![0, 0] : Fin 2 → Nat) a + S5000x320.size a ≤ S5000x320.size a
  h_S5000x320 : 0 < S5000x320.numel
  shapeCasts_S5000x320_S5000x320 : S5000x320.ShapeCasts S5000x320
  inb_S320x128_S320x128_0_0 : ∀ a, (![0, 0] : Fin 2 → Nat) a + S320x128.size a ≤ S320x128.size a
  h_S320x128 : 0 < S320x128.numel
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  shapeCasts_S5000x128_S5000x128 : S5000x128.ShapeCasts S5000x128
  broadcasts_S1x128_S5000x128 : S1x128.Broadcasts S5000x128
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  shapeCasts_S5000x64_S5000x64 : S5000x64.ShapeCasts S5000x64
  broadcasts_S1x64_S5000x64 : S1x64.Broadcasts S5000x64
  scatter_S40000x64_S120000x1_S120000x64_1_0_0_1_wf : ScatterDims.WF S40000x64 S120000x1 S120000x64 [1] [0] [0] 1
  gather_S40000x64_S150000x1_S150000x64_1_0_n_n_0_1_164_wf : GatherDims.WF S40000x64 S150000x1 S150000x64 [1] [0] [] [0] [] 1 ![1, 64]
  scatter_S30000x64_S150000x1_S150000x64_1_0_0_1_wf : ScatterDims.WF S30000x64 S150000x1 S150000x64 [1] [0] [0] 1
  gather_S30000x64_S150000x1_S150000x64_1_0_n_n_0_1_164_wf : GatherDims.WF S30000x64 S150000x1 S150000x64 [1] [0] [] [0] [] 1 ![1, 64]
  scatter_S40000x128_S150000x1_S150000x128_1_0_0_1_wf : ScatterDims.WF S40000x128 S150000x1 S150000x128 [1] [0] [0] 1
  gather_S40000x128_S150000x1_S150000x128_1_0_n_n_0_1_1128_wf : GatherDims.WF S40000x128 S150000x1 S150000x128 [1] [0] [] [0] [] 1 ![1, 128]
  scatter_S30000x128_S150000x1_S150000x128_1_0_0_1_wf : ScatterDims.WF S30000x128 S150000x1 S150000x128 [1] [0] [0] 1
  gather_S30000x128_S150000x1_S150000x128_1_0_n_n_0_1_1128_wf : GatherDims.WF S30000x128 S150000x1 S150000x128 [1] [0] [] [0] [] 1 ![1, 128]
  scatter_S25000x64_S150000x1_S150000x64_1_0_0_1_wf : ScatterDims.WF S25000x64 S150000x1 S150000x64 [1] [0] [0] 1
  gather_S25000x64_S150000x1_S150000x64_1_0_n_n_0_1_164_wf : GatherDims.WF S25000x64 S150000x1 S150000x64 [1] [0] [] [0] [] 1 ![1, 64]
  scatter_S25000x128_S150000x1_S150000x128_1_0_0_1_wf : ScatterDims.WF S25000x128 S150000x1 S150000x128 [1] [0] [0] 1
  gather_S25000x128_S150000x1_S150000x128_1_0_n_n_0_1_1128_wf : GatherDims.WF S25000x128 S150000x1 S150000x128 [1] [0] [] [0] [] 1 ![1, 128]
  scatter_S40000x320_S150000x1_S150000x320_1_0_0_1_wf : ScatterDims.WF S40000x320 S150000x1 S150000x320 [1] [0] [0] 1
  gather_S40000x320_S120000x1_S120000x320_1_0_n_n_0_1_1320_wf : GatherDims.WF S40000x320 S120000x1 S120000x320 [1] [0] [] [0] [] 1 ![1, 320]
  scatter_S60000x320_S120000x1_S120000x320_1_0_0_1_wf : ScatterDims.WF S60000x320 S120000x1 S120000x320 [1] [0] [0] 1
  gather_S60000x320_S120000x1_S120000x320_1_0_n_n_0_1_1320_wf : GatherDims.WF S60000x320 S120000x1 S120000x320 [1] [0] [] [0] [] 1 ![1, 320]
  dot_S3000x704_S704x128_S3000x128_1_0_0_1_n_n_wf : DotDims.WF S3000x704 S704x128 S3000x128 [1] [0] [0] [1] [] []
  dot_S3000x128_S128x64_S3000x64_1_0_0_1_n_n_wf : DotDims.WF S3000x128 S128x64 S3000x64 [1] [0] [0] [1] [] []
  dot_S5000x320_S320x128_S5000x128_1_0_0_1_n_n_wf : DotDims.WF S5000x320 S320x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x704.size a ≤ S120000x704.size a
  hwx0_0 : ∀ i : grid0.Coords, EltTy.bits .f32 = 32 ∨ (Rect.block (s := S120000x704) S3000x704.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S704x128.size a ≤ S704x128.size a
  hwx0_1 : ∀ i : grid0.Coords, EltTy.bits .f32 = 32 ∨ (Rect.block (s := S704x128) S704x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x128.size a ≤ S120000x128.size a
  hwx0_2 : ∀ i : grid0.Coords, EltTy.bits .f32 = 32 ∨ (Rect.block (s := S120000x128) S3000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x128.size a ≤ S120000x128.size a
  hwx1_0 : ∀ i : grid1.Coords, EltTy.bits .f32 = 32 ∨ (Rect.block (s := S120000x128) S3000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3000x64.size a ≤ S120000x64.size a
  hwx1_4 : ∀ i : grid1.Coords, EltTy.bits .f32 = 32 ∨ (Rect.block (s := S120000x64) S3000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S120000x64.size a
  hwx2_0 : ∀ i : grid2.Coords, EltTy.bits .f32 = 32 ∨ (Rect.block (s := S120000x64) S3000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3000x64.size a ≤ S120000x64.size a
  hwx2_3 : ∀ i : grid2.Coords, EltTy.bits .f32 = 32 ∨ (Rect.block (s := S120000x64) S3000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x320.size a ≤ S150000x320.size a
  hwx3_0 : ∀ i : grid3.Coords, EltTy.bits .f32 = 32 ∨ (Rect.block (s := S150000x320) S5000x320.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S320x128.size a ≤ S320x128.size a
  hwx3_1 : ∀ i : grid3.Coords, EltTy.bits .f32 = 32 ∨ (Rect.block (s := S320x128) S320x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S150000x128.size a
  hwx3_2 : ∀ i : grid3.Coords, EltTy.bits .f32 = 32 ∨ (Rect.block (s := S150000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S150000x128.size a
  hwx4_0 : ∀ i : grid4.Coords, EltTy.bits .f32 = 32 ∨ (Rect.block (s := S150000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S150000x64.size a
  hwx4_4 : ∀ i : grid4.Coords, EltTy.bits .f32 = 32 ∨ (Rect.block (s := S150000x64) S5000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S150000x64.size a
  hwx5_0 : ∀ i : grid5.Coords, EltTy.bits .f32 = 32 ∨ (Rect.block (s := S150000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S150000x64.size a
  hwx5_3 : ∀ i : grid5.Coords, EltTy.bits .f32 = 32 ∨ (Rect.block (s := S150000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x320.size a ≤ S150000x320.size a
  hwx6_0 : ∀ i : grid6.Coords, EltTy.bits .f32 = 32 ∨ (Rect.block (s := S150000x320) S5000x320.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S320x128.size a ≤ S320x128.size a
  hwx6_1 : ∀ i : grid6.Coords, EltTy.bits .f32 = 32 ∨ (Rect.block (s := S320x128) S320x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S150000x128.size a
  hwx6_2 : ∀ i : grid6.Coords, EltTy.bits .f32 = 32 ∨ (Rect.block (s := S150000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S150000x128.size a
  hwx7_0 : ∀ i : grid7.Coords, EltTy.bits .f32 = 32 ∨ (Rect.block (s := S150000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x64.size a ≤ S128x64.size a
  hwx7_3 : ∀ i : grid7.Coords, EltTy.bits .f32 = 32 ∨ (Rect.block (s := S128x64) S128x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S150000x64.size a
  hwx7_4 : ∀ i : grid7.Coords, EltTy.bits .f32 = 32 ∨ (Rect.block (s := S150000x64) S5000x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S150000x64.size a
  hwx8_0 : ∀ i : grid8.Coords, EltTy.bits .f32 = 32 ∨ (Rect.block (s := S150000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S150000x64.size a
  hwx8_3 : ∀ i : grid8.Coords, EltTy.bits .f32 = 32 ∨ (Rect.block (s := S150000x64) S5000x64.size (cc8_transform_3 i) (hinb8_3 i)).WholeWords (EltTy.packing .f32)

variable [Facts₀]

def scatter_S40000x64_S120000x1_S120000x64_1_0_0_1 : ScatterDims S40000x64 S120000x1 S120000x64 where
  updateWindowDims := [1]
  insertedWindowDims := [0]
  scatterDimsToOperandDims := [0]
  indexVectorDim := 1
  wf := scatter_S40000x64_S120000x1_S120000x64_1_0_0_1_wf
def gather_S40000x64_S150000x1_S150000x64_1_0_n_n_0_1_164 : GatherDims S40000x64 S150000x1 S150000x64 where
  offsetDims := [1]
  collapsedSliceDims := [0]
  operandBatchingDims := []
  startIndicesBatchingDims := []
  startIndexMap := [0]
  indexVectorDim := 1
  sliceSizes := ![1, 64]
  wf := gather_S40000x64_S150000x1_S150000x64_1_0_n_n_0_1_164_wf
def scatter_S30000x64_S150000x1_S150000x64_1_0_0_1 : ScatterDims S30000x64 S150000x1 S150000x64 where
  updateWindowDims := [1]
  insertedWindowDims := [0]
  scatterDimsToOperandDims := [0]
  indexVectorDim := 1
  wf := scatter_S30000x64_S150000x1_S150000x64_1_0_0_1_wf
def gather_S30000x64_S150000x1_S150000x64_1_0_n_n_0_1_164 : GatherDims S30000x64 S150000x1 S150000x64 where
  offsetDims := [1]
  collapsedSliceDims := [0]
  operandBatchingDims := []
  startIndicesBatchingDims := []
  startIndexMap := [0]
  indexVectorDim := 1
  sliceSizes := ![1, 64]
  wf := gather_S30000x64_S150000x1_S150000x64_1_0_n_n_0_1_164_wf
def scatter_S40000x128_S150000x1_S150000x128_1_0_0_1 : ScatterDims S40000x128 S150000x1 S150000x128 where
  updateWindowDims := [1]
  insertedWindowDims := [0]
  scatterDimsToOperandDims := [0]
  indexVectorDim := 1
  wf := scatter_S40000x128_S150000x1_S150000x128_1_0_0_1_wf
def gather_S40000x128_S150000x1_S150000x128_1_0_n_n_0_1_1128 : GatherDims S40000x128 S150000x1 S150000x128 where
  offsetDims := [1]
  collapsedSliceDims := [0]
  operandBatchingDims := []
  startIndicesBatchingDims := []
  startIndexMap := [0]
  indexVectorDim := 1
  sliceSizes := ![1, 128]
  wf := gather_S40000x128_S150000x1_S150000x128_1_0_n_n_0_1_1128_wf
def scatter_S30000x128_S150000x1_S150000x128_1_0_0_1 : ScatterDims S30000x128 S150000x1 S150000x128 where
  updateWindowDims := [1]
  insertedWindowDims := [0]
  scatterDimsToOperandDims := [0]
  indexVectorDim := 1
  wf := scatter_S30000x128_S150000x1_S150000x128_1_0_0_1_wf
def gather_S30000x128_S150000x1_S150000x128_1_0_n_n_0_1_1128 : GatherDims S30000x128 S150000x1 S150000x128 where
  offsetDims := [1]
  collapsedSliceDims := [0]
  operandBatchingDims := []
  startIndicesBatchingDims := []
  startIndexMap := [0]
  indexVectorDim := 1
  sliceSizes := ![1, 128]
  wf := gather_S30000x128_S150000x1_S150000x128_1_0_n_n_0_1_1128_wf
def scatter_S25000x64_S150000x1_S150000x64_1_0_0_1 : ScatterDims S25000x64 S150000x1 S150000x64 where
  updateWindowDims := [1]
  insertedWindowDims := [0]
  scatterDimsToOperandDims := [0]
  indexVectorDim := 1
  wf := scatter_S25000x64_S150000x1_S150000x64_1_0_0_1_wf
def gather_S25000x64_S150000x1_S150000x64_1_0_n_n_0_1_164 : GatherDims S25000x64 S150000x1 S150000x64 where
  offsetDims := [1]
  collapsedSliceDims := [0]
  operandBatchingDims := []
  startIndicesBatchingDims := []
  startIndexMap := [0]
  indexVectorDim := 1
  sliceSizes := ![1, 64]
  wf := gather_S25000x64_S150000x1_S150000x64_1_0_n_n_0_1_164_wf
def scatter_S25000x128_S150000x1_S150000x128_1_0_0_1 : ScatterDims S25000x128 S150000x1 S150000x128 where
  updateWindowDims := [1]
  insertedWindowDims := [0]
  scatterDimsToOperandDims := [0]
  indexVectorDim := 1
  wf := scatter_S25000x128_S150000x1_S150000x128_1_0_0_1_wf
def gather_S25000x128_S150000x1_S150000x128_1_0_n_n_0_1_1128 : GatherDims S25000x128 S150000x1 S150000x128 where
  offsetDims := [1]
  collapsedSliceDims := [0]
  operandBatchingDims := []
  startIndicesBatchingDims := []
  startIndexMap := [0]
  indexVectorDim := 1
  sliceSizes := ![1, 128]
  wf := gather_S25000x128_S150000x1_S150000x128_1_0_n_n_0_1_1128_wf
def scatter_S40000x320_S150000x1_S150000x320_1_0_0_1 : ScatterDims S40000x320 S150000x1 S150000x320 where
  updateWindowDims := [1]
  insertedWindowDims := [0]
  scatterDimsToOperandDims := [0]
  indexVectorDim := 1
  wf := scatter_S40000x320_S150000x1_S150000x320_1_0_0_1_wf
def gather_S40000x320_S120000x1_S120000x320_1_0_n_n_0_1_1320 : GatherDims S40000x320 S120000x1 S120000x320 where
  offsetDims := [1]
  collapsedSliceDims := [0]
  operandBatchingDims := []
  startIndicesBatchingDims := []
  startIndexMap := [0]
  indexVectorDim := 1
  sliceSizes := ![1, 320]
  wf := gather_S40000x320_S120000x1_S120000x320_1_0_n_n_0_1_1320_wf
def scatter_S60000x320_S120000x1_S120000x320_1_0_0_1 : ScatterDims S60000x320 S120000x1 S120000x320 where
  updateWindowDims := [1]
  insertedWindowDims := [0]
  scatterDimsToOperandDims := [0]
  indexVectorDim := 1
  wf := scatter_S60000x320_S120000x1_S120000x320_1_0_0_1_wf
def gather_S60000x320_S120000x1_S120000x320_1_0_n_n_0_1_1320 : GatherDims S60000x320 S120000x1 S120000x320 where
  offsetDims := [1]
  collapsedSliceDims := [0]
  operandBatchingDims := []
  startIndicesBatchingDims := []
  startIndexMap := [0]
  indexVectorDim := 1
  sliceSizes := ![1, 320]
  wf := gather_S60000x320_S120000x1_S120000x320_1_0_n_n_0_1_1320_wf
def dot_S3000x704_S704x128_S3000x128_1_0_0_1_n_n : DotDims S3000x704 S704x128 S3000x128 where
  lhsContracting := [1]
  rhsContracting := [0]
  lhsNonContracting := [0]
  rhsNonContracting := [1]
  lhsBatch := []
  rhsBatch := []
  wf := dot_S3000x704_S704x128_S3000x128_1_0_0_1_n_n_wf
def dot_S3000x128_S128x64_S3000x64_1_0_0_1_n_n : DotDims S3000x128 S128x64 S3000x64 where
  lhsContracting := [1]
  rhsContracting := [0]
  lhsNonContracting := [0]
  rhsNonContracting := [1]
  lhsBatch := []
  rhsBatch := []
  wf := dot_S3000x128_S128x64_S3000x64_1_0_0_1_n_n_wf
def dot_S5000x320_S320x128_S5000x128_1_0_0_1_n_n : DotDims S5000x320 S320x128 S5000x128 where
  lhsContracting := [1]
  rhsContracting := [0]
  lhsNonContracting := [0]
  rhsNonContracting := [1]
  lhsBatch := []
  rhsBatch := []
  wf := dot_S5000x320_S320x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v138) S3000x704.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S704x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v139_0) S3000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v139_1) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v139_2) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v139_0) S3000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v150) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v153) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v154_0) S3000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v154_1) S1x64.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v154_2) S1x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v154_0) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v165) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v168) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v169) S3000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v93) S5000x320.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S320x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v170_0) S5000x128.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v170_1) S1x128.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v170_2) S1x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v170_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v181) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v184) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v185_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v185_1) S1x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v185_2) S1x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v185_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v196) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v199) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v200) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v94) S5000x320.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S320x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v201_0) S5000x128.size cc6_transform_2 reads6_2 true false 2 stage6_2 sem6_2
    hrank6 hreads6_2 hinb6_2 nbuf6_2 (Memref.isWhole_whole _) hwx6_2 hstage6_2

abbrev win6_3 : Pipeline.Window sig grid6 :=
  Pipeline.Window.ofSpec (Memref.whole main_v201_1) S1x128.size cc6_transform_3 reads6_3 true true 1 stage6_3 sem6_3
    hrank6 hreads6_3 hinb6_3 nbuf6_3 (Memref.isWhole_whole _) hwx6_3 hstage6_3

abbrev win6_4 : Pipeline.Window sig grid6 :=
  Pipeline.Window.ofSpec (Memref.whole main_v201_2) S1x128.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v201_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v212) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v215) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg15) S128x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v216_0) S5000x64.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v216_1) S1x64.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v216_2) S1x64.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v216_0) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v227) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v230) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v231) S5000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S120000x64 : Shape := ⟨2, ![120000, 64]⟩
abbrev S150000x64 : Shape := ⟨2, ![150000, 64]⟩
abbrev S120000 : Shape := ⟨1, ![120000]⟩
abbrev S150000 : Shape := ⟨1, ![150000]⟩
abbrev S704x128 : Shape := ⟨2, ![704, 128]⟩
abbrev S128 : Shape := ⟨1, ![128]⟩
abbrev S128x64 : Shape := ⟨2, ![128, 64]⟩
abbrev S64 : Shape := ⟨1, ![64]⟩
abbrev S320x128 : Shape := ⟨2, ![320, 128]⟩
abbrev S60000 : Shape := ⟨1, ![60000]⟩
abbrev S60000x2 : Shape := ⟨2, ![60000, 2]⟩
abbrev S30000 : Shape := ⟨1, ![30000]⟩
abbrev S30000x5 : Shape := ⟨2, ![30000, 5]⟩
abbrev S25000 : Shape := ⟨1, ![25000]⟩
abbrev S25000x6 : Shape := ⟨2, ![25000, 6]⟩
abbrev S_ : Shape := ⟨0, ![]⟩
abbrev S40000x64 : Shape := ⟨2, ![40000, 64]⟩
abbrev S120000x1 : Shape := ⟨2, ![120000, 1]⟩
abbrev S150000x1 : Shape := ⟨2, ![150000, 1]⟩
abbrev S30000x64 : Shape := ⟨2, ![30000, 64]⟩
abbrev S150000x128 : Shape := ⟨2, ![150000, 128]⟩
abbrev S40000x128 : Shape := ⟨2, ![40000, 128]⟩
abbrev S30000x128 : Shape := ⟨2, ![30000, 128]⟩
abbrev S150000x256 : Shape := ⟨2, ![150000, 256]⟩
abbrev S25000x64 : Shape := ⟨2, ![25000, 64]⟩
abbrev S25000x128 : Shape := ⟨2, ![25000, 128]⟩
abbrev S150000x320 : Shape := ⟨2, ![150000, 320]⟩
abbrev S40000x320 : Shape := ⟨2, ![40000, 320]⟩
abbrev S120000x320 : Shape := ⟨2, ![120000, 320]⟩
abbrev S60000x320 : Shape := ⟨2, ![60000, 320]⟩
abbrev S120000x640 : Shape := ⟨2, ![120000, 640]⟩
abbrev S120000x704 : Shape := ⟨2, ![120000, 704]⟩
abbrev S120000x128 : Shape := ⟨2, ![120000, 128]⟩
abbrev S1x128 : Shape := ⟨2, ![1, 128]⟩
abbrev S1x64 : Shape := ⟨2, ![1, 64]⟩

abbrev nBuf : Space → Nat
  | .hbm => 481
  | .vmem => 0
  | .smem => 0
  | _ => 0

abbrev hbmTy0_0 (i : Nat) : BufTy := match i % 128 with
  | 0 => ⟨S120000x64, .f32⟩
  | 1 => ⟨S150000x64, .f32⟩
  | 2 => ⟨S150000x64, .f32⟩
  | 3 => ⟨S120000, .i32⟩
  | 4 => ⟨S150000, .i32⟩
  | 5 => ⟨S150000, .i32⟩
  | 6 => ⟨S704x128, .f32⟩
  | 7 => ⟨S128, .f32⟩
  | 8 => ⟨S128, .f32⟩
  | 9 => ⟨S128x64, .f32⟩
  | 10 => ⟨S64, .f32⟩
  | 11 => ⟨S64, .f32⟩
  | 12 => ⟨S320x128, .f32⟩
  | 13 => ⟨S128, .f32⟩
  | 14 => ⟨S128, .f32⟩
  | 15 => ⟨S128x64, .f32⟩
  | 16 => ⟨S64, .f32⟩
  | 17 => ⟨S64, .f32⟩
  | 18 => ⟨S60000, .i32⟩
  | 19 => ⟨S60000x2, .i32⟩
  | 20 => ⟨S120000, .i32⟩
  | 21 => ⟨S30000, .i32⟩
  | 22 => ⟨S30000x5, .i32⟩
  | 23 => ⟨S150000, .i32⟩
  | 24 => ⟨S25000, .i32⟩
  | 25 => ⟨S25000x6, .i32⟩
  | 26 => ⟨S150000, .i32⟩
  | 27 => ⟨S_, .f32⟩
  | 28 => ⟨S40000x64, .f32⟩
  | 29 => ⟨S120000x1, .i32⟩
  | 30 => ⟨S40000x64, .f32⟩
  | 31 => ⟨S_, .i32⟩
  | 32 => ⟨S150000, .i32⟩
  | 33 => ⟨S150000, .i1⟩
  | 34 => ⟨S_, .i32⟩
  | 35 => ⟨S150000, .i32⟩
  | 36 => ⟨S150000, .i32⟩
  | 37 => ⟨S150000, .i32⟩
  | 38 => ⟨S150000x1, .i32⟩
  | 39 => ⟨S150000x64, .f32⟩
  | 40 => ⟨S_, .f32⟩
  | 41 => ⟨S30000x64, .f32⟩
  | 42 => ⟨S150000x1, .i32⟩
  | 43 => ⟨S30000x64, .f32⟩
  | 44 => ⟨S_, .i32⟩
  | 45 => ⟨S150000, .i32⟩
  | 46 => ⟨S150000, .i1⟩
  | 47 => ⟨S_, .i32⟩
  | 48 => ⟨S150000, .i32⟩
  | 49 => ⟨S150000, .i32⟩
  | 50 => ⟨S150000, .i32⟩
  | 51 => ⟨S150000x1, .i32⟩
  | 52 => ⟨S150000x64, .f32⟩
  | 53 => ⟨S150000x128, .f32⟩
  | 54 => ⟨S_, .f32⟩
  | 55 => ⟨S40000x128, .f32⟩
  | 56 => ⟨S150000x1, .i32⟩
  | 57 => ⟨S40000x128, .f32⟩
  | 58 => ⟨S_, .i32⟩
  | 59 => ⟨S150000, .i32⟩
  | 60 => ⟨S150000, .i1⟩
  | 61 => ⟨S_, .i32⟩
  | 62 => ⟨S150000, .i32⟩
  | 63 => ⟨S150000, .i32⟩
  | 64 => ⟨S150000, .i32⟩
  | 65 => ⟨S150000x1, .i32⟩
  | 66 => ⟨S150000x128, .f32⟩
  | 67 => ⟨S_, .f32⟩
  | 68 => ⟨S30000x128, .f32⟩
  | 69 => ⟨S150000x1, .i32⟩
  | 70 => ⟨S30000x128, .f32⟩
  | 71 => ⟨S_, .i32⟩
  | 72 => ⟨S150000, .i32⟩
  | 73 => ⟨S150000, .i1⟩
  | 74 => ⟨S_, .i32⟩
  | 75 => ⟨S150000, .i32⟩
  | 76 => ⟨S150000, .i32⟩
  | 77 => ⟨S150000, .i32⟩
  | 78 => ⟨S150000x1, .i32⟩
  | 79 => ⟨S150000x128, .f32⟩
  | 80 => ⟨S150000x256, .f32⟩
  | 81 => ⟨S_, .f32⟩
  | 82 => ⟨S40000x64, .f32⟩
  | 83 => ⟨S120000x1, .i32⟩
  | 84 => ⟨S40000x64, .f32⟩
  | 85 => ⟨S_, .i32⟩
  | 86 => ⟨S150000, .i32⟩
  | 87 => ⟨S150000, .i1⟩
  | 88 => ⟨S_, .i32⟩
  | 89 => ⟨S150000, .i32⟩
  | 90 => ⟨S150000, .i32⟩
  | 91 => ⟨S150000, .i32⟩
  | 92 => ⟨S150000x1, .i32⟩
  | 93 => ⟨S150000x64, .f32⟩
  | 94 => ⟨S_, .f32⟩
  | 95 => ⟨S25000x64, .f32⟩
  | 96 => ⟨S150000x1, .i32⟩
  | 97 => ⟨S25000x64, .f32⟩
  | 98 => ⟨S_, .i32⟩
  | 99 => ⟨S150000, .i32⟩
  | 100 => ⟨S150000, .i1⟩
  | 101 => ⟨S_, .i32⟩
  | 102 => ⟨S150000, .i32⟩
  | 103 => ⟨S150000, .i32⟩
  | 104 => ⟨S150000, .i32⟩
  | 105 => ⟨S150000x1, .i32⟩
  | 106 => ⟨S150000x64, .f32⟩
  | 107 => ⟨S150000x128, .f32⟩
  | 108 => ⟨S_, .f32⟩
  | 109 => ⟨S40000x128, .f32⟩
  | 110 => ⟨S150000x1, .i32⟩
  | 111 => ⟨S40000x128, .f32⟩
  | 112 => ⟨S_, .i32⟩
  | 113 => ⟨S150000, .i32⟩
  | 114 => ⟨S150000, .i1⟩
  | 115 => ⟨S_, .i32⟩
  | 116 => ⟨S150000, .i32⟩
  | 117 => ⟨S150000, .i32⟩
  | 118 => ⟨S150000, .i32⟩
  | 119 => ⟨S150000x1, .i32⟩
  | 120 => ⟨S150000x128, .f32⟩
  | 121 => ⟨S_, .f32⟩
  | 122 => ⟨S25000x128, .f32⟩
  | 123 => ⟨S150000x1, .i32⟩
  | 124 => ⟨S25000x128, .f32⟩
  | 125 => ⟨S_, .i32⟩
  | 126 => ⟨S150000, .i32⟩
  | 127 => ⟨S150000, .i1⟩
  | _ => ⟨S120000x64, .f32⟩

abbrev hbmTy0_1 (i : Nat) : BufTy := match i % 128 with
  | 0 => ⟨S_, .i32⟩
  | 1 => ⟨S150000, .i32⟩
  | 2 => ⟨S150000, .i32⟩
  | 3 => ⟨S150000, .i32⟩
  | 4 => ⟨S150000x1, .i32⟩
  | 5 => ⟨S150000x128, .f32⟩
  | 6 => ⟨S150000x256, .f32⟩
  | 7 => ⟨S150000x320, .f32⟩
  | 8 => ⟨S150000x320, .f32⟩
  | 9 => ⟨S_, .f32⟩
  | 10 => ⟨S40000x320, .f32⟩
  | 11 => ⟨S150000x1, .i32⟩
  | 12 => ⟨S40000x320, .f32⟩
  | 13 => ⟨S_, .i32⟩
  | 14 => ⟨S120000, .i32⟩
  | 15 => ⟨S120000, .i1⟩
  | 16 => ⟨S_, .i32⟩
  | 17 => ⟨S120000, .i32⟩
  | 18 => ⟨S120000, .i32⟩
  | 19 => ⟨S120000, .i32⟩
  | 20 => ⟨S120000x1, .i32⟩
  | 21 => ⟨S120000x320, .f32⟩
  | 22 => ⟨S_, .f32⟩
  | 23 => ⟨S60000x320, .f32⟩
  | 24 => ⟨S120000x1, .i32⟩
  | 25 => ⟨S60000x320, .f32⟩
  | 26 => ⟨S_, .i32⟩
  | 27 => ⟨S120000, .i32⟩
  | 28 => ⟨S120000, .i1⟩
  | 29 => ⟨S_, .i32⟩
  | 30 => ⟨S120000, .i32⟩
  | 31 => ⟨S120000, .i32⟩
  | 32 => ⟨S120000, .i32⟩
  | 33 => ⟨S120000x1, .i32⟩
  | 34 => ⟨S120000x320, .f32⟩
  | 35 => ⟨S120000x640, .f32⟩
  | 36 => ⟨S_, .f32⟩
  | 37 => ⟨S40000x320, .f32⟩
  | 38 => ⟨S150000x1, .i32⟩
  | 39 => ⟨S40000x320, .f32⟩
  | 40 => ⟨S_, .i32⟩
  | 41 => ⟨S120000, .i32⟩
  | 42 => ⟨S120000, .i1⟩
  | 43 => ⟨S_, .i32⟩
  | 44 => ⟨S120000, .i32⟩
  | 45 => ⟨S120000, .i32⟩
  | 46 => ⟨S120000, .i32⟩
  | 47 => ⟨S120000x1, .i32⟩
  | 48 => ⟨S120000x320, .f32⟩
  | 49 => ⟨S_, .f32⟩
  | 50 => ⟨S60000x320, .f32⟩
  | 51 => ⟨S120000x1, .i32⟩
  | 52 => ⟨S60000x320, .f32⟩
  | 53 => ⟨S_, .i32⟩
  | 54 => ⟨S120000, .i32⟩
  | 55 => ⟨S120000, .i1⟩
  | 56 => ⟨S_, .i32⟩
  | 57 => ⟨S120000, .i32⟩
  | 58 => ⟨S120000, .i32⟩
  | 59 => ⟨S120000, .i32⟩
  | 60 => ⟨S120000x1, .i32⟩
  | 61 => ⟨S120000x320, .f32⟩
  | 62 => ⟨S120000x640, .f32⟩
  | 63 => ⟨S120000x640, .f32⟩
  | 64 => ⟨S120000x704, .f32⟩
  | 65 => ⟨S120000x128, .f32⟩
  | 66 => ⟨S_, .f32⟩
  | 67 => ⟨S128, .f32⟩
  | 68 => ⟨S_, .f32⟩
  | 69 => ⟨S128, .f32⟩
  | 70 => ⟨S128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S120000x128, .f32⟩
  | 79 => ⟨S120000x128, .f32⟩
  | 80 => ⟨S120000x128, .f32⟩
  | 81 => ⟨S_, .f32⟩
  | 82 => ⟨S_, .f32⟩
  | 83 => ⟨S_, .f32⟩
  | 84 => ⟨S_, .f32⟩
  | 85 => ⟨S128, .f32⟩
  | 86 => ⟨S128, .f32⟩
  | 87 => ⟨S128, .f32⟩
  | 88 => ⟨S_, .f32⟩
  | 89 => ⟨S_, .i1⟩
  | 90 => ⟨S_, .f32⟩
  | 91 => ⟨S_, .f32⟩
  | 92 => ⟨S128, .f32⟩
  | 93 => ⟨S128, .f32⟩
  | 94 => ⟨S1x128, .f32⟩
  | 95 => ⟨S120000x128, .f32⟩
  | 96 => ⟨S120000x128, .f32⟩
  | 97 => ⟨S1x128, .f32⟩
  | 98 => ⟨S120000x128, .f32⟩
  | 99 => ⟨S120000x128, .f32⟩
  | 100 => ⟨S_, .f32⟩
  | 101 => ⟨S128, .f32⟩
  | 102 => ⟨S128, .f32⟩
  | 103 => ⟨S128, .f32⟩
  | 104 => ⟨S1x128, .f32⟩
  | 105 => ⟨S120000x128, .f32⟩
  | 106 => ⟨S120000x128, .f32⟩
  | 107 => ⟨S1x128, .f32⟩
  | 108 => ⟨S120000x128, .f32⟩
  | 109 => ⟨S120000x128, .f32⟩
  | 110 => ⟨S_, .f32⟩
  | 111 => ⟨S120000x128, .f32⟩
  | 112 => ⟨S120000x128, .f32⟩
  | 113 => ⟨S120000x64, .f32⟩
  | 114 => ⟨S_, .f32⟩
  | 115 => ⟨S64, .f32⟩
  | 116 => ⟨S_, .f32⟩
  | 117 => ⟨S64, .f32⟩
  | 118 => ⟨S64, .f32⟩
  | 119 => ⟨S_, .i32⟩
  | 120 => ⟨S_, .f32⟩
  | 121 => ⟨S64, .f32⟩
  | 122 => ⟨S1x64, .f32⟩
  | 123 => ⟨S_, .f32⟩
  | 124 => ⟨S1x64, .f32⟩
  | 125 => ⟨S1x64, .f32⟩
  | 126 => ⟨S120000x64, .f32⟩
  | 127 => ⟨S120000x64, .f32⟩
  | _ => ⟨S120000x64, .f32⟩

abbrev hbmTy0_2 (i : Nat) : BufTy := match i % 128 with
  | 0 => ⟨S120000x64, .f32⟩
  | 1 => ⟨S_, .f32⟩
  | 2 => ⟨S_, .f32⟩
  | 3 => ⟨S_, .f32⟩
  | 4 => ⟨S_, .f32⟩
  | 5 => ⟨S64, .f32⟩
  | 6 => ⟨S64, .f32⟩
  | 7 => ⟨S64, .f32⟩
  | 8 => ⟨S_, .f32⟩
  | 9 => ⟨S_, .i1⟩
  | 10 => ⟨S_, .f32⟩
  | 11 => ⟨S_, .f32⟩
  | 12 => ⟨S64, .f32⟩
  | 13 => ⟨S64, .f32⟩
  | 14 => ⟨S1x64, .f32⟩
  | 15 => ⟨S120000x64, .f32⟩
  | 16 => ⟨S120000x64, .f32⟩
  | 17 => ⟨S1x64, .f32⟩
  | 18 => ⟨S120000x64, .f32⟩
  | 19 => ⟨S120000x64, .f32⟩
  | 20 => ⟨S_, .f32⟩
  | 21 => ⟨S64, .f32⟩
  | 22 => ⟨S64, .f32⟩
  | 23 => ⟨S64, .f32⟩
  | 24 => ⟨S1x64, .f32⟩
  | 25 => ⟨S120000x64, .f32⟩
  | 26 => ⟨S120000x64, .f32⟩
  | 27 => ⟨S1x64, .f32⟩
  | 28 => ⟨S120000x64, .f32⟩
  | 29 => ⟨S120000x64, .f32⟩
  | 30 => ⟨S_, .f32⟩
  | 31 => ⟨S120000x64, .f32⟩
  | 32 => ⟨S120000x64, .f32⟩
  | 33 => ⟨S150000x128, .f32⟩
  | 34 => ⟨S_, .f32⟩
  | 35 => ⟨S128, .f32⟩
  | 36 => ⟨S_, .f32⟩
  | 37 => ⟨S128, .f32⟩
  | 38 => ⟨S128, .f32⟩
  | 39 => ⟨S_, .i32⟩
  | 40 => ⟨S_, .f32⟩
  | 41 => ⟨S128, .f32⟩
  | 42 => ⟨S1x128, .f32⟩
  | 43 => ⟨S_, .f32⟩
  | 44 => ⟨S1x128, .f32⟩
  | 45 => ⟨S1x128, .f32⟩
  | 46 => ⟨S150000x128, .f32⟩
  | 47 => ⟨S150000x128, .f32⟩
  | 48 => ⟨S150000x128, .f32⟩
  | 49 => ⟨S_, .f32⟩
  | 50 => ⟨S_, .f32⟩
  | 51 => ⟨S_, .f32⟩
  | 52 => ⟨S_, .f32⟩
  | 53 => ⟨S128, .f32⟩
  | 54 => ⟨S128, .f32⟩
  | 55 => ⟨S128, .f32⟩
  | 56 => ⟨S_, .f32⟩
  | 57 => ⟨S_, .i1⟩
  | 58 => ⟨S_, .f32⟩
  | 59 => ⟨S_, .f32⟩
  | 60 => ⟨S128, .f32⟩
  | 61 => ⟨S128, .f32⟩
  | 62 => ⟨S1x128, .f32⟩
  | 63 => ⟨S150000x128, .f32⟩
  | 64 => ⟨S150000x128, .f32⟩
  | 65 => ⟨S1x128, .f32⟩
  | 66 => ⟨S150000x128, .f32⟩
  | 67 => ⟨S150000x128, .f32⟩
  | 68 => ⟨S_, .f32⟩
  | 69 => ⟨S128, .f32⟩
  | 70 => ⟨S128, .f32⟩
  | 71 => ⟨S128, .f32⟩
  | 72 => ⟨S1x128, .f32⟩
  | 73 => ⟨S150000x128, .f32⟩
  | 74 => ⟨S150000x128, .f32⟩
  | 75 => ⟨S1x128, .f32⟩
  | 76 => ⟨S150000x128, .f32⟩
  | 77 => ⟨S150000x128, .f32⟩
  | 78 => ⟨S_, .f32⟩
  | 79 => ⟨S150000x128, .f32⟩
  | 80 => ⟨S150000x128, .f32⟩
  | 81 => ⟨S150000x64, .f32⟩
  | 82 => ⟨S_, .f32⟩
  | 83 => ⟨S64, .f32⟩
  | 84 => ⟨S_, .f32⟩
  | 85 => ⟨S64, .f32⟩
  | 86 => ⟨S64, .f32⟩
  | 87 => ⟨S_, .i32⟩
  | 88 => ⟨S_, .f32⟩
  | 89 => ⟨S64, .f32⟩
  | 90 => ⟨S1x64, .f32⟩
  | 91 => ⟨S_, .f32⟩
  | 92 => ⟨S1x64, .f32⟩
  | 93 => ⟨S1x64, .f32⟩
  | 94 => ⟨S150000x64, .f32⟩
  | 95 => ⟨S150000x64, .f32⟩
  | 96 => ⟨S150000x64, .f32⟩
  | 97 => ⟨S_, .f32⟩
  | 98 => ⟨S_, .f32⟩
  | 99 => ⟨S_, .f32⟩
  | 100 => ⟨S_, .f32⟩
  | 101 => ⟨S64, .f32⟩
  | 102 => ⟨S64, .f32⟩
  | 103 => ⟨S64, .f32⟩
  | 104 => ⟨S_, .f32⟩
  | 105 => ⟨S_, .i1⟩
  | 106 => ⟨S_, .f32⟩
  | 107 => ⟨S_, .f32⟩
  | 108 => ⟨S64, .f32⟩
  | 109 => ⟨S64, .f32⟩
  | 110 => ⟨S1x64, .f32⟩
  | 111 => ⟨S150000x64, .f32⟩
  | 112 => ⟨S150000x64, .f32⟩
  | 113 => ⟨S1x64, .f32⟩
  | 114 => ⟨S150000x64, .f32⟩
  | 115 => ⟨S150000x64, .f32⟩
  | 116 => ⟨S_, .f32⟩
  | 117 => ⟨S64, .f32⟩
  | 118 => ⟨S64, .f32⟩
  | 119 => ⟨S64, .f32⟩
  | 120 => ⟨S1x64, .f32⟩
  | 121 => ⟨S150000x64, .f32⟩
  | 122 => ⟨S150000x64, .f32⟩
  | 123 => ⟨S1x64, .f32⟩
  | 124 => ⟨S150000x64, .f32⟩
  | 125 => ⟨S150000x64, .f32⟩
  | 126 => ⟨S_, .f32⟩
  | 127 => ⟨S150000x64, .f32⟩
  | _ => ⟨S120000x64, .f32⟩

abbrev hbmTy0_3 (i : Nat) : BufTy := match i % 128 with
  | 0 => ⟨S150000x64, .f32⟩
  | 1 => ⟨S150000x128, .f32⟩
  | 2 => ⟨S_, .f32⟩
  | 3 => ⟨S128, .f32⟩
  | 4 => ⟨S_, .f32⟩
  | 5 => ⟨S128, .f32⟩
  | 6 => ⟨S128, .f32⟩
  | 7 => ⟨S_, .i32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S150000x128, .f32⟩
  | 15 => ⟨S150000x128, .f32⟩
  | 16 => ⟨S150000x128, .f32⟩
  | 17 => ⟨S_, .f32⟩
  | 18 => ⟨S_, .f32⟩
  | 19 => ⟨S_, .f32⟩
  | 20 => ⟨S_, .f32⟩
  | 21 => ⟨S128, .f32⟩
  | 22 => ⟨S128, .f32⟩
  | 23 => ⟨S128, .f32⟩
  | 24 => ⟨S_, .f32⟩
  | 25 => ⟨S_, .i1⟩
  | 26 => ⟨S_, .f32⟩
  | 27 => ⟨S_, .f32⟩
  | 28 => ⟨S128, .f32⟩
  | 29 => ⟨S128, .f32⟩
  | 30 => ⟨S1x128, .f32⟩
  | 31 => ⟨S150000x128, .f32⟩
  | 32 => ⟨S150000x128, .f32⟩
  | 33 => ⟨S1x128, .f32⟩
  | 34 => ⟨S150000x128, .f32⟩
  | 35 => ⟨S150000x128, .f32⟩
  | 36 => ⟨S_, .f32⟩
  | 37 => ⟨S128, .f32⟩
  | 38 => ⟨S128, .f32⟩
  | 39 => ⟨S128, .f32⟩
  | 40 => ⟨S1x128, .f32⟩
  | 41 => ⟨S150000x128, .f32⟩
  | 42 => ⟨S150000x128, .f32⟩
  | 43 => ⟨S1x128, .f32⟩
  | 44 => ⟨S150000x128, .f32⟩
  | 45 => ⟨S150000x128, .f32⟩
  | 46 => ⟨S_, .f32⟩
  | 47 => ⟨S150000x128, .f32⟩
  | 48 => ⟨S150000x128, .f32⟩
  | 49 => ⟨S150000x64, .f32⟩
  | 50 => ⟨S_, .f32⟩
  | 51 => ⟨S64, .f32⟩
  | 52 => ⟨S_, .f32⟩
  | 53 => ⟨S64, .f32⟩
  | 54 => ⟨S64, .f32⟩
  | 55 => ⟨S_, .i32⟩
  | 56 => ⟨S_, .f32⟩
  | 57 => ⟨S64, .f32⟩
  | 58 => ⟨S1x64, .f32⟩
  | 59 => ⟨S_, .f32⟩
  | 60 => ⟨S1x64, .f32⟩
  | 61 => ⟨S1x64, .f32⟩
  | 62 => ⟨S150000x64, .f32⟩
  | 63 => ⟨S150000x64, .f32⟩
  | 64 => ⟨S150000x64, .f32⟩
  | 65 => ⟨S_, .f32⟩
  | 66 => ⟨S_, .f32⟩
  | 67 => ⟨S_, .f32⟩
  | 68 => ⟨S_, .f32⟩
  | 69 => ⟨S64, .f32⟩
  | 70 => ⟨S64, .f32⟩
  | 71 => ⟨S64, .f32⟩
  | 72 => ⟨S_, .f32⟩
  | 73 => ⟨S_, .i1⟩
  | 74 => ⟨S_, .f32⟩
  | 75 => ⟨S_, .f32⟩
  | 76 => ⟨S64, .f32⟩
  | 77 => ⟨S64, .f32⟩
  | 78 => ⟨S1x64, .f32⟩
  | 79 => ⟨S150000x64, .f32⟩
  | 80 => ⟨S150000x64, .f32⟩
  | 81 => ⟨S1x64, .f32⟩
  | 82 => ⟨S150000x64, .f32⟩
  | 83 => ⟨S150000x64, .f32⟩
  | 84 => ⟨S_, .f32⟩
  | 85 => ⟨S64, .f32⟩
  | 86 => ⟨S64, .f32⟩
  | 87 => ⟨S64, .f32⟩
  | 88 => ⟨S1x64, .f32⟩
  | 89 => ⟨S150000x64, .f32⟩
  | 90 => ⟨S150000x64, .f32⟩
  | 91 => ⟨S1x64, .f32⟩
  | 92 => ⟨S150000x64, .f32⟩
  | 93 => ⟨S150000x64, .f32⟩
  | 94 => ⟨S_, .f32⟩
  | 95 => ⟨S150000x64, .f32⟩
  | 96 => ⟨S150000x64, .f32⟩
  | _ => ⟨S120000x64, .f32⟩

abbrev hbmTy (i : Nat) : BufTy := match i / 128 with
  | 0 => hbmTy0_0 i
  | 1 => hbmTy0_1 i
  | 2 => hbmTy0_2 i
  | 3 => hbmTy0_3 i
  | _ => ⟨S120000x64, .f32⟩

abbrev bufTy : (tb : Table) → Fin (tcTables nBuf tb) → BufTy
  | .hbm, ⟨i, _⟩ => hbmTy i
  | _, _ => ⟨S120000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_5 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_8 : Ref sig .tc := ⟨.hbm, 71, rfl⟩
abbrev main_v43 : Ref sig .tc := ⟨.hbm, 72, rfl⟩
abbrev main_v44 : Ref sig .tc := ⟨.hbm, 73, rfl⟩
abbrev main_c_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_v55 : Ref sig .tc := ⟨.hbm, 87, rfl⟩
abbrev main_c_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_14 : Ref sig .tc := ⟨.hbm, 98, rfl⟩
abbrev main_v64 : Ref sig .tc := ⟨.hbm, 99, rfl⟩
abbrev main_v65 : Ref sig .tc := ⟨.hbm, 100, rfl⟩
abbrev main_c_15 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_c_18 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_19 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c_20 : Ref sig .tc := ⟨.hbm, 125, rfl⟩
abbrev main_v85 : Ref sig .tc := ⟨.hbm, 126, rfl⟩
abbrev main_v86 : Ref sig .tc := ⟨.hbm, 127, rfl⟩
abbrev main_c_21 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_22 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_23 : Ref sig .tc := ⟨.hbm, 141, rfl⟩
abbrev main_v98 : Ref sig .tc := ⟨.hbm, 142, rfl⟩
abbrev main_v99 : Ref sig .tc := ⟨.hbm, 143, rfl⟩
abbrev main_c_24 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_25 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_26 : Ref sig .tc := ⟨.hbm, 154, rfl⟩
abbrev main_v108 : Ref sig .tc := ⟨.hbm, 155, rfl⟩
abbrev main_v109 : Ref sig .tc := ⟨.hbm, 156, rfl⟩
abbrev main_c_27 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_28 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_29 : Ref sig .tc := ⟨.hbm, 168, rfl⟩
abbrev main_v119 : Ref sig .tc := ⟨.hbm, 169, rfl⟩
abbrev main_v120 : Ref sig .tc := ⟨.hbm, 170, rfl⟩
abbrev main_c_30 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_31 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_c_32 : Ref sig .tc := ⟨.hbm, 181, rfl⟩
abbrev main_v129 : Ref sig .tc := ⟨.hbm, 182, rfl⟩
abbrev main_v130 : Ref sig .tc := ⟨.hbm, 183, rfl⟩
abbrev main_c_33 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_34 : Ref sig .tc := ⟨.hbm, 194, rfl⟩
abbrev main_v140 : Ref sig .tc := ⟨.hbm, 195, rfl⟩
abbrev main_cst_35 : Ref sig .tc := ⟨.hbm, 196, rfl⟩
abbrev main_v141 : Ref sig .tc := ⟨.hbm, 197, rfl⟩
abbrev main_v142 : Ref sig .tc := ⟨.hbm, 198, rfl⟩
abbrev main_c_36 : Ref sig .tc := ⟨.hbm, 199, rfl⟩
abbrev main_call0_cst : Ref sig .tc := ⟨.hbm, 200, rfl⟩
abbrev main_call0_v0 : Ref sig .tc := ⟨.hbm, 201, rfl⟩
abbrev main_call0_v1 : Ref sig .tc := ⟨.hbm, 202, rfl⟩
abbrev main_call0_cst_0 : Ref sig .tc := ⟨.hbm, 203, rfl⟩
abbrev main_call0_v2 : Ref sig .tc := ⟨.hbm, 204, rfl⟩
abbrev main_call0_v3 : Ref sig .tc := ⟨.hbm, 205, rfl⟩
abbrev main_call0_v4 : Ref sig .tc := ⟨.hbm, 206, rfl⟩
abbrev main_call0_v5 : Ref sig .tc := ⟨.hbm, 207, rfl⟩
abbrev main_call0_v6 : Ref sig .tc := ⟨.hbm, 208, rfl⟩
abbrev main_call0_v7 : Ref sig .tc := ⟨.hbm, 209, rfl⟩
abbrev main_call0_cst_1 : Ref sig .tc := ⟨.hbm, 210, rfl⟩
abbrev main_call0_v8 : Ref sig .tc := ⟨.hbm, 211, rfl⟩
abbrev main_call0_cst_2 : Ref sig .tc := ⟨.hbm, 212, rfl⟩
abbrev main_call0_v9 : Ref sig .tc := ⟨.hbm, 213, rfl⟩
abbrev main_call0_v10 : Ref sig .tc := ⟨.hbm, 214, rfl⟩
abbrev main_call0_v11 : Ref sig .tc := ⟨.hbm, 215, rfl⟩
abbrev main_call0_cst_3 : Ref sig .tc := ⟨.hbm, 216, rfl⟩
abbrev main_call0_v12 : Ref sig .tc := ⟨.hbm, 217, rfl⟩
abbrev main_call0_cst_4 : Ref sig .tc := ⟨.hbm, 218, rfl⟩
abbrev main_call0_call0_v0 : Ref sig .tc := ⟨.hbm, 219, rfl⟩
abbrev main_call0_call0_v1 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_cst_37 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_call1_cst : Ref sig .tc := ⟨.hbm, 238, rfl⟩
abbrev main_call1_v0 : Ref sig .tc := ⟨.hbm, 239, rfl⟩
abbrev main_v159 : Ref sig .tc := ⟨.hbm, 240, rfl⟩
abbrev main_v160 : Ref sig .tc := ⟨.hbm, 241, rfl⟩
abbrev main_cst_38 : Ref sig .tc := ⟨.hbm, 242, rfl⟩
abbrev main_v161 : Ref sig .tc := ⟨.hbm, 243, rfl⟩
abbrev main_cst_39 : Ref sig .tc := ⟨.hbm, 244, rfl⟩
abbrev main_v162 : Ref sig .tc := ⟨.hbm, 245, rfl⟩
abbrev main_v163 : Ref sig .tc := ⟨.hbm, 246, rfl⟩
abbrev main_c_40 : Ref sig .tc := ⟨.hbm, 247, rfl⟩
abbrev main_call2_cst : Ref sig .tc := ⟨.hbm, 248, rfl⟩
abbrev main_call2_v0 : Ref sig .tc := ⟨.hbm, 249, rfl⟩
abbrev main_call2_v1 : Ref sig .tc := ⟨.hbm, 250, rfl⟩
abbrev main_call2_cst_0 : Ref sig .tc := ⟨.hbm, 251, rfl⟩
abbrev main_call2_v2 : Ref sig .tc := ⟨.hbm, 252, rfl⟩
abbrev main_call2_v3 : Ref sig .tc := ⟨.hbm, 253, rfl⟩
abbrev main_call2_v4 : Ref sig .tc := ⟨.hbm, 254, rfl⟩
abbrev main_call2_v5 : Ref sig .tc := ⟨.hbm, 255, rfl⟩
abbrev main_call2_v6 : Ref sig .tc := ⟨.hbm, 256, rfl⟩
abbrev main_call2_v7 : Ref sig .tc := ⟨.hbm, 257, rfl⟩
abbrev main_call2_cst_1 : Ref sig .tc := ⟨.hbm, 258, rfl⟩
abbrev main_call2_v8 : Ref sig .tc := ⟨.hbm, 259, rfl⟩
abbrev main_call2_cst_2 : Ref sig .tc := ⟨.hbm, 260, rfl⟩
abbrev main_call2_v9 : Ref sig .tc := ⟨.hbm, 261, rfl⟩
abbrev main_call2_v10 : Ref sig .tc := ⟨.hbm, 262, rfl⟩
abbrev main_call2_v11 : Ref sig .tc := ⟨.hbm, 263, rfl⟩
abbrev main_call2_cst_3 : Ref sig .tc := ⟨.hbm, 264, rfl⟩
abbrev main_call2_v12 : Ref sig .tc := ⟨.hbm, 265, rfl⟩
abbrev main_call2_cst_4 : Ref sig .tc := ⟨.hbm, 266, rfl⟩
abbrev main_call2_call0_v0 : Ref sig .tc := ⟨.hbm, 267, rfl⟩
abbrev main_call2_call0_v1 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_cst_41 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_v176 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_call3_cst : Ref sig .tc := ⟨.hbm, 286, rfl⟩
abbrev main_call3_v0 : Ref sig .tc := ⟨.hbm, 287, rfl⟩
abbrev main_v180 : Ref sig .tc := ⟨.hbm, 288, rfl⟩
abbrev main_v181 : Ref sig .tc := ⟨.hbm, 289, rfl⟩
abbrev main_cst_42 : Ref sig .tc := ⟨.hbm, 290, rfl⟩
abbrev main_v182 : Ref sig .tc := ⟨.hbm, 291, rfl⟩
abbrev main_cst_43 : Ref sig .tc := ⟨.hbm, 292, rfl⟩
abbrev main_v183 : Ref sig .tc := ⟨.hbm, 293, rfl⟩
abbrev main_v184 : Ref sig .tc := ⟨.hbm, 294, rfl⟩
abbrev main_c_44 : Ref sig .tc := ⟨.hbm, 295, rfl⟩
abbrev main_call4_cst : Ref sig .tc := ⟨.hbm, 296, rfl⟩
abbrev main_call4_v0 : Ref sig .tc := ⟨.hbm, 297, rfl⟩
abbrev main_call4_v1 : Ref sig .tc := ⟨.hbm, 298, rfl⟩
abbrev main_call4_cst_0 : Ref sig .tc := ⟨.hbm, 299, rfl⟩
abbrev main_call4_v2 : Ref sig .tc := ⟨.hbm, 300, rfl⟩
abbrev main_call4_v3 : Ref sig .tc := ⟨.hbm, 301, rfl⟩
abbrev main_call4_v4 : Ref sig .tc := ⟨.hbm, 302, rfl⟩
abbrev main_call4_v5 : Ref sig .tc := ⟨.hbm, 303, rfl⟩
abbrev main_call4_v6 : Ref sig .tc := ⟨.hbm, 304, rfl⟩
abbrev main_call4_v7 : Ref sig .tc := ⟨.hbm, 305, rfl⟩
abbrev main_call4_cst_1 : Ref sig .tc := ⟨.hbm, 306, rfl⟩
abbrev main_call4_v8 : Ref sig .tc := ⟨.hbm, 307, rfl⟩
abbrev main_call4_cst_2 : Ref sig .tc := ⟨.hbm, 308, rfl⟩
abbrev main_call4_v9 : Ref sig .tc := ⟨.hbm, 309, rfl⟩
abbrev main_call4_v10 : Ref sig .tc := ⟨.hbm, 310, rfl⟩
abbrev main_call4_v11 : Ref sig .tc := ⟨.hbm, 311, rfl⟩
abbrev main_call4_cst_3 : Ref sig .tc := ⟨.hbm, 312, rfl⟩
abbrev main_call4_v12 : Ref sig .tc := ⟨.hbm, 313, rfl⟩
abbrev main_call4_cst_4 : Ref sig .tc := ⟨.hbm, 314, rfl⟩
abbrev main_call4_call0_v0 : Ref sig .tc := ⟨.hbm, 315, rfl⟩
abbrev main_call4_call0_v1 : Ref sig .tc := ⟨.hbm, 316, rfl⟩
abbrev main_v185 : Ref sig .tc := ⟨.hbm, 317, rfl⟩
abbrev main_v186 : Ref sig .tc := ⟨.hbm, 318, rfl⟩
abbrev main_v187 : Ref sig .tc := ⟨.hbm, 319, rfl⟩
abbrev main_v188 : Ref sig .tc := ⟨.hbm, 320, rfl⟩
abbrev main_v189 : Ref sig .tc := ⟨.hbm, 321, rfl⟩
abbrev main_v190 : Ref sig .tc := ⟨.hbm, 322, rfl⟩
abbrev main_v191 : Ref sig .tc := ⟨.hbm, 323, rfl⟩
abbrev main_cst_45 : Ref sig .tc := ⟨.hbm, 324, rfl⟩
abbrev main_v192 : Ref sig .tc := ⟨.hbm, 325, rfl⟩
abbrev main_v193 : Ref sig .tc := ⟨.hbm, 326, rfl⟩
abbrev main_v194 : Ref sig .tc := ⟨.hbm, 327, rfl⟩
abbrev main_v195 : Ref sig .tc := ⟨.hbm, 328, rfl⟩
abbrev main_v196 : Ref sig .tc := ⟨.hbm, 329, rfl⟩
abbrev main_v197 : Ref sig .tc := ⟨.hbm, 330, rfl⟩
abbrev main_v198 : Ref sig .tc := ⟨.hbm, 331, rfl⟩
abbrev main_v199 : Ref sig .tc := ⟨.hbm, 332, rfl⟩
abbrev main_v200 : Ref sig .tc := ⟨.hbm, 333, rfl⟩
abbrev main_call5_cst : Ref sig .tc := ⟨.hbm, 334, rfl⟩
abbrev main_call5_v0 : Ref sig .tc := ⟨.hbm, 335, rfl⟩
abbrev main_v201 : Ref sig .tc := ⟨.hbm, 336, rfl⟩
abbrev main_v202 : Ref sig .tc := ⟨.hbm, 337, rfl⟩
abbrev main_cst_46 : Ref sig .tc := ⟨.hbm, 338, rfl⟩
abbrev main_v203 : Ref sig .tc := ⟨.hbm, 339, rfl⟩
abbrev main_cst_47 : Ref sig .tc := ⟨.hbm, 340, rfl⟩
abbrev main_v204 : Ref sig .tc := ⟨.hbm, 341, rfl⟩
abbrev main_v205 : Ref sig .tc := ⟨.hbm, 342, rfl⟩
abbrev main_c_48 : Ref sig .tc := ⟨.hbm, 343, rfl⟩
abbrev main_call6_cst : Ref sig .tc := ⟨.hbm, 344, rfl⟩
abbrev main_call6_v0 : Ref sig .tc := ⟨.hbm, 345, rfl⟩
abbrev main_call6_v1 : Ref sig .tc := ⟨.hbm, 346, rfl⟩
abbrev main_call6_cst_0 : Ref sig .tc := ⟨.hbm, 347, rfl⟩
abbrev main_call6_v2 : Ref sig .tc := ⟨.hbm, 348, rfl⟩
abbrev main_call6_v3 : Ref sig .tc := ⟨.hbm, 349, rfl⟩
abbrev main_call6_v4 : Ref sig .tc := ⟨.hbm, 350, rfl⟩
abbrev main_call6_v5 : Ref sig .tc := ⟨.hbm, 351, rfl⟩
abbrev main_call6_v6 : Ref sig .tc := ⟨.hbm, 352, rfl⟩
abbrev main_call6_v7 : Ref sig .tc := ⟨.hbm, 353, rfl⟩
abbrev main_call6_cst_1 : Ref sig .tc := ⟨.hbm, 354, rfl⟩
abbrev main_call6_v8 : Ref sig .tc := ⟨.hbm, 355, rfl⟩
abbrev main_call6_cst_2 : Ref sig .tc := ⟨.hbm, 356, rfl⟩
abbrev main_call6_v9 : Ref sig .tc := ⟨.hbm, 357, rfl⟩
abbrev main_call6_v10 : Ref sig .tc := ⟨.hbm, 358, rfl⟩
abbrev main_call6_v11 : Ref sig .tc := ⟨.hbm, 359, rfl⟩
abbrev main_call6_cst_3 : Ref sig .tc := ⟨.hbm, 360, rfl⟩
abbrev main_call6_v12 : Ref sig .tc := ⟨.hbm, 361, rfl⟩
abbrev main_call6_cst_4 : Ref sig .tc := ⟨.hbm, 362, rfl⟩
abbrev main_call6_call0_v0 : Ref sig .tc := ⟨.hbm, 363, rfl⟩
abbrev main_call6_call0_v1 : Ref sig .tc := ⟨.hbm, 364, rfl⟩
abbrev main_v206 : Ref sig .tc := ⟨.hbm, 365, rfl⟩
abbrev main_v207 : Ref sig .tc := ⟨.hbm, 366, rfl⟩
abbrev main_v208 : Ref sig .tc := ⟨.hbm, 367, rfl⟩
abbrev main_v209 : Ref sig .tc := ⟨.hbm, 368, rfl⟩
abbrev main_v210 : Ref sig .tc := ⟨.hbm, 369, rfl⟩
abbrev main_v211 : Ref sig .tc := ⟨.hbm, 370, rfl⟩
abbrev main_v212 : Ref sig .tc := ⟨.hbm, 371, rfl⟩
abbrev main_cst_49 : Ref sig .tc := ⟨.hbm, 372, rfl⟩
abbrev main_v213 : Ref sig .tc := ⟨.hbm, 373, rfl⟩
abbrev main_v214 : Ref sig .tc := ⟨.hbm, 374, rfl⟩
abbrev main_v215 : Ref sig .tc := ⟨.hbm, 375, rfl⟩
abbrev main_v216 : Ref sig .tc := ⟨.hbm, 376, rfl⟩
abbrev main_v217 : Ref sig .tc := ⟨.hbm, 377, rfl⟩
abbrev main_v218 : Ref sig .tc := ⟨.hbm, 378, rfl⟩
abbrev main_v219 : Ref sig .tc := ⟨.hbm, 379, rfl⟩
abbrev main_v220 : Ref sig .tc := ⟨.hbm, 380, rfl⟩
abbrev main_v221 : Ref sig .tc := ⟨.hbm, 381, rfl⟩
abbrev main_call7_cst : Ref sig .tc := ⟨.hbm, 382, rfl⟩
abbrev main_call7_v0 : Ref sig .tc := ⟨.hbm, 383, rfl⟩
abbrev main_v222 : Ref sig .tc := ⟨.hbm, 384, rfl⟩
abbrev main_v223 : Ref sig .tc := ⟨.hbm, 385, rfl⟩
abbrev main_cst_50 : Ref sig .tc := ⟨.hbm, 386, rfl⟩
abbrev main_v224 : Ref sig .tc := ⟨.hbm, 387, rfl⟩
abbrev main_cst_51 : Ref sig .tc := ⟨.hbm, 388, rfl⟩
abbrev main_v225 : Ref sig .tc := ⟨.hbm, 389, rfl⟩
abbrev main_v226 : Ref sig .tc := ⟨.hbm, 390, rfl⟩
abbrev main_c_52 : Ref sig .tc := ⟨.hbm, 391, rfl⟩
abbrev main_call8_cst : Ref sig .tc := ⟨.hbm, 392, rfl⟩
abbrev main_call8_v0 : Ref sig .tc := ⟨.hbm, 393, rfl⟩
abbrev main_call8_v1 : Ref sig .tc := ⟨.hbm, 394, rfl⟩
abbrev main_call8_cst_0 : Ref sig .tc := ⟨.hbm, 395, rfl⟩
abbrev main_call8_v2 : Ref sig .tc := ⟨.hbm, 396, rfl⟩
abbrev main_call8_v3 : Ref sig .tc := ⟨.hbm, 397, rfl⟩
abbrev main_call8_v4 : Ref sig .tc := ⟨.hbm, 398, rfl⟩
abbrev main_call8_v5 : Ref sig .tc := ⟨.hbm, 399, rfl⟩
abbrev main_call8_v6 : Ref sig .tc := ⟨.hbm, 400, rfl⟩
abbrev main_call8_v7 : Ref sig .tc := ⟨.hbm, 401, rfl⟩
abbrev main_call8_cst_1 : Ref sig .tc := ⟨.hbm, 402, rfl⟩
abbrev main_call8_v8 : Ref sig .tc := ⟨.hbm, 403, rfl⟩
abbrev main_call8_cst_2 : Ref sig .tc := ⟨.hbm, 404, rfl⟩
abbrev main_call8_v9 : Ref sig .tc := ⟨.hbm, 405, rfl⟩
abbrev main_call8_v10 : Ref sig .tc := ⟨.hbm, 406, rfl⟩
abbrev main_call8_v11 : Ref sig .tc := ⟨.hbm, 407, rfl⟩
abbrev main_call8_cst_3 : Ref sig .tc := ⟨.hbm, 408, rfl⟩
abbrev main_call8_v12 : Ref sig .tc := ⟨.hbm, 409, rfl⟩
abbrev main_call8_cst_4 : Ref sig .tc := ⟨.hbm, 410, rfl⟩
abbrev main_call8_call0_v0 : Ref sig .tc := ⟨.hbm, 411, rfl⟩
abbrev main_call8_call0_v1 : Ref sig .tc := ⟨.hbm, 412, rfl⟩
abbrev main_v227 : Ref sig .tc := ⟨.hbm, 413, rfl⟩
abbrev main_v228 : Ref sig .tc := ⟨.hbm, 414, rfl⟩
abbrev main_v229 : Ref sig .tc := ⟨.hbm, 415, rfl⟩
abbrev main_v230 : Ref sig .tc := ⟨.hbm, 416, rfl⟩
abbrev main_v231 : Ref sig .tc := ⟨.hbm, 417, rfl⟩
abbrev main_v232 : Ref sig .tc := ⟨.hbm, 418, rfl⟩
abbrev main_v233 : Ref sig .tc := ⟨.hbm, 419, rfl⟩
abbrev main_cst_53 : Ref sig .tc := ⟨.hbm, 420, rfl⟩
abbrev main_v234 : Ref sig .tc := ⟨.hbm, 421, rfl⟩
abbrev main_v235 : Ref sig .tc := ⟨.hbm, 422, rfl⟩
abbrev main_v236 : Ref sig .tc := ⟨.hbm, 423, rfl⟩
abbrev main_v237 : Ref sig .tc := ⟨.hbm, 424, rfl⟩
abbrev main_v238 : Ref sig .tc := ⟨.hbm, 425, rfl⟩
abbrev main_v239 : Ref sig .tc := ⟨.hbm, 426, rfl⟩
abbrev main_v240 : Ref sig .tc := ⟨.hbm, 427, rfl⟩
abbrev main_v241 : Ref sig .tc := ⟨.hbm, 428, rfl⟩
abbrev main_v242 : Ref sig .tc := ⟨.hbm, 429, rfl⟩
abbrev main_call9_cst : Ref sig .tc := ⟨.hbm, 430, rfl⟩
abbrev main_call9_v0 : Ref sig .tc := ⟨.hbm, 431, rfl⟩
abbrev main_v243 : Ref sig .tc := ⟨.hbm, 432, rfl⟩
abbrev main_v244 : Ref sig .tc := ⟨.hbm, 433, rfl⟩
abbrev main_cst_54 : Ref sig .tc := ⟨.hbm, 434, rfl⟩
abbrev main_v245 : Ref sig .tc := ⟨.hbm, 435, rfl⟩
abbrev main_cst_55 : Ref sig .tc := ⟨.hbm, 436, rfl⟩
abbrev main_v246 : Ref sig .tc := ⟨.hbm, 437, rfl⟩
abbrev main_v247 : Ref sig .tc := ⟨.hbm, 438, rfl⟩
abbrev main_c_56 : Ref sig .tc := ⟨.hbm, 439, rfl⟩
abbrev main_call10_cst : Ref sig .tc := ⟨.hbm, 440, rfl⟩
abbrev main_call10_v0 : Ref sig .tc := ⟨.hbm, 441, rfl⟩
abbrev main_call10_v1 : Ref sig .tc := ⟨.hbm, 442, rfl⟩
abbrev main_call10_cst_0 : Ref sig .tc := ⟨.hbm, 443, rfl⟩
abbrev main_call10_v2 : Ref sig .tc := ⟨.hbm, 444, rfl⟩
abbrev main_call10_v3 : Ref sig .tc := ⟨.hbm, 445, rfl⟩
abbrev main_call10_v4 : Ref sig .tc := ⟨.hbm, 446, rfl⟩
abbrev main_call10_v5 : Ref sig .tc := ⟨.hbm, 447, rfl⟩
abbrev main_call10_v6 : Ref sig .tc := ⟨.hbm, 448, rfl⟩
abbrev main_call10_v7 : Ref sig .tc := ⟨.hbm, 449, rfl⟩
abbrev main_call10_cst_1 : Ref sig .tc := ⟨.hbm, 450, rfl⟩
abbrev main_call10_v8 : Ref sig .tc := ⟨.hbm, 451, rfl⟩
abbrev main_call10_cst_2 : Ref sig .tc := ⟨.hbm, 452, rfl⟩
abbrev main_call10_v9 : Ref sig .tc := ⟨.hbm, 453, rfl⟩
abbrev main_call10_v10 : Ref sig .tc := ⟨.hbm, 454, rfl⟩
abbrev main_call10_v11 : Ref sig .tc := ⟨.hbm, 455, rfl⟩
abbrev main_call10_cst_3 : Ref sig .tc := ⟨.hbm, 456, rfl⟩
abbrev main_call10_v12 : Ref sig .tc := ⟨.hbm, 457, rfl⟩
abbrev main_call10_cst_4 : Ref sig .tc := ⟨.hbm, 458, rfl⟩
abbrev main_call10_call0_v0 : Ref sig .tc := ⟨.hbm, 459, rfl⟩
abbrev main_call10_call0_v1 : Ref sig .tc := ⟨.hbm, 460, rfl⟩
abbrev main_v248 : Ref sig .tc := ⟨.hbm, 461, rfl⟩
abbrev main_v249 : Ref sig .tc := ⟨.hbm, 462, rfl⟩
abbrev main_v250 : Ref sig .tc := ⟨.hbm, 463, rfl⟩
abbrev main_v251 : Ref sig .tc := ⟨.hbm, 464, rfl⟩
abbrev main_v252 : Ref sig .tc := ⟨.hbm, 465, rfl⟩
abbrev main_v253 : Ref sig .tc := ⟨.hbm, 466, rfl⟩
abbrev main_v254 : Ref sig .tc := ⟨.hbm, 467, rfl⟩
abbrev main_cst_57 : Ref sig .tc := ⟨.hbm, 468, rfl⟩
abbrev main_v255 : Ref sig .tc := ⟨.hbm, 469, rfl⟩
abbrev main_v256 : Ref sig .tc := ⟨.hbm, 470, rfl⟩
abbrev main_v257 : Ref sig .tc := ⟨.hbm, 471, rfl⟩
abbrev main_v258 : Ref sig .tc := ⟨.hbm, 472, rfl⟩
abbrev main_v259 : Ref sig .tc := ⟨.hbm, 473, rfl⟩
abbrev main_v260 : Ref sig .tc := ⟨.hbm, 474, rfl⟩
abbrev main_v261 : Ref sig .tc := ⟨.hbm, 475, rfl⟩
abbrev main_v262 : Ref sig .tc := ⟨.hbm, 476, rfl⟩
abbrev main_v263 : Ref sig .tc := ⟨.hbm, 477, rfl⟩
abbrev main_call11_cst : Ref sig .tc := ⟨.hbm, 478, rfl⟩
abbrev main_call11_v0 : Ref sig .tc := ⟨.hbm, 479, rfl⟩
abbrev main_v264 : Ref sig .tc := ⟨.hbm, 480, rfl⟩

abbrev nD : Nat := 1
abbrev τ : Topo := Topo.v7x

variable {F : FTy → Type} [FloatOps F]

class Facts₀ : Prop where
  bcast_S60000_S60000x2_0 : S60000.BroadcastsInDim S60000x2 (![0] : Fin 1 → Fin S60000x2.rank)
  shapeCasts_S60000x2_S120000 : S60000x2.ShapeCasts S120000
  bcast_S30000_S30000x5_0 : S30000.BroadcastsInDim S30000x5 (![0] : Fin 1 → Fin S30000x5.rank)
  shapeCasts_S30000x5_S150000 : S30000x5.ShapeCasts S150000
  bcast_S25000_S25000x6_0 : S25000.BroadcastsInDim S25000x6 (![0] : Fin 1 → Fin S25000x6.rank)
  shapeCasts_S25000x6_S150000 : S25000x6.ShapeCasts S150000
  bcast_S_S40000x64 : S_.BroadcastsInDim S40000x64 (![] : Fin 0 → Fin S40000x64.rank)
  bcast_S120000_S120000x1_0 : S120000.BroadcastsInDim S120000x1 (![0] : Fin 1 → Fin S120000x1.rank)
  bcast_S_S150000 : S_.BroadcastsInDim S150000 (![] : Fin 0 → Fin S150000.rank)
  bcast_S150000_S150000x1_0 : S150000.BroadcastsInDim S150000x1 (![0] : Fin 1 → Fin S150000x1.rank)
  bcast_S_S30000x64 : S_.BroadcastsInDim S30000x64 (![] : Fin 0 → Fin S30000x64.rank)
  concatenates_S150000x64_S150000x64_S150000x128_d1 : Shape.Concatenates [S150000x64, S150000x64] S150000x128 1
  bcast_S_S40000x128 : S_.BroadcastsInDim S40000x128 (![] : Fin 0 → Fin S40000x128.rank)
  bcast_S_S30000x128 : S_.BroadcastsInDim S30000x128 (![] : Fin 0 → Fin S30000x128.rank)
  concatenates_S150000x128_S150000x128_S150000x256_d1 : Shape.Concatenates [S150000x128, S150000x128] S150000x256 1
  bcast_S_S25000x64 : S_.BroadcastsInDim S25000x64 (![] : Fin 0 → Fin S25000x64.rank)
  bcast_S_S25000x128 : S_.BroadcastsInDim S25000x128 (![] : Fin 0 → Fin S25000x128.rank)
  concatenates_S150000x256_S150000x64_S150000x320_d1 : Shape.Concatenates [S150000x256, S150000x64] S150000x320 1
  bcast_S_S40000x320 : S_.BroadcastsInDim S40000x320 (![] : Fin 0 → Fin S40000x320.rank)
  bcast_S_S120000 : S_.BroadcastsInDim S120000 (![] : Fin 0 → Fin S120000.rank)
  bcast_S_S60000x320 : S_.BroadcastsInDim S60000x320 (![] : Fin 0 → Fin S60000x320.rank)
  concatenates_S120000x320_S120000x320_S120000x640_d1 : Shape.Concatenates [S120000x320, S120000x320] S120000x640 1
  concatenates_S120000x64_S120000x640_S120000x704_d1 : Shape.Concatenates [S120000x64, S120000x640] S120000x704 1
  reducesTo_S120000x128_S128_d0 : S120000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S120000x128_0_1 : S1x128.BroadcastsInDim S120000x128 (![0, 1] : Fin 2 → Fin S120000x128.rank)
  bcast_S_S120000x128 : S_.BroadcastsInDim S120000x128 (![] : Fin 0 → Fin S120000x128.rank)
  reducesTo_S120000x64_S64_d0 : S120000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S120000x64_0_1 : S1x64.BroadcastsInDim S120000x64 (![0, 1] : Fin 2 → Fin S120000x64.rank)
  bcast_S_S120000x64 : S_.BroadcastsInDim S120000x64 (![] : Fin 0 → Fin S120000x64.rank)
  reducesTo_S150000x128_S128_d0 : S150000x128.ReducesTo [0] S128
  bcast_S1x128_S150000x128_0_1 : S1x128.BroadcastsInDim S150000x128 (![0, 1] : Fin 2 → Fin S150000x128.rank)
  bcast_S_S150000x128 : S_.BroadcastsInDim S150000x128 (![] : Fin 0 → Fin S150000x128.rank)
  reducesTo_S150000x64_S64_d0 : S150000x64.ReducesTo [0] S64
  bcast_S1x64_S150000x64_0_1 : S1x64.BroadcastsInDim S150000x64 (![0, 1] : Fin 2 → Fin S150000x64.rank)
  bcast_S_S150000x64 : S_.BroadcastsInDim S150000x64 (![] : Fin 0 → Fin S150000x64.rank)
  scatter_S40000x64_S120000x1_S120000x64_1_0_0_1_wf : ScatterDims.WF S40000x64 S120000x1 S120000x64 [1] [0] [0] 1
  gather_S40000x64_S150000x1_S150000x64_1_0_n_n_0_1_164_wf : GatherDims.WF S40000x64 S150000x1 S150000x64 [1] [0] [] [0] [] 1 ![1, 64]
  scatter_S30000x64_S150000x1_S150000x64_1_0_0_1_wf : ScatterDims.WF S30000x64 S150000x1 S150000x64 [1] [0] [0] 1
  gather_S30000x64_S150000x1_S150000x64_1_0_n_n_0_1_164_wf : GatherDims.WF S30000x64 S150000x1 S150000x64 [1] [0] [] [0] [] 1 ![1, 64]
  scatter_S40000x128_S150000x1_S150000x128_1_0_0_1_wf : ScatterDims.WF S40000x128 S150000x1 S150000x128 [1] [0] [0] 1
  gather_S40000x128_S150000x1_S150000x128_1_0_n_n_0_1_1128_wf : GatherDims.WF S40000x128 S150000x1 S150000x128 [1] [0] [] [0] [] 1 ![1, 128]
  scatter_S30000x128_S150000x1_S150000x128_1_0_0_1_wf : ScatterDims.WF S30000x128 S150000x1 S150000x128 [1] [0] [0] 1
  gather_S30000x128_S150000x1_S150000x128_1_0_n_n_0_1_1128_wf : GatherDims.WF S30000x128 S150000x1 S150000x128 [1] [0] [] [0] [] 1 ![1, 128]
  scatter_S25000x64_S150000x1_S150000x64_1_0_0_1_wf : ScatterDims.WF S25000x64 S150000x1 S150000x64 [1] [0] [0] 1
  gather_S25000x64_S150000x1_S150000x64_1_0_n_n_0_1_164_wf : GatherDims.WF S25000x64 S150000x1 S150000x64 [1] [0] [] [0] [] 1 ![1, 64]
  scatter_S25000x128_S150000x1_S150000x128_1_0_0_1_wf : ScatterDims.WF S25000x128 S150000x1 S150000x128 [1] [0] [0] 1
  gather_S25000x128_S150000x1_S150000x128_1_0_n_n_0_1_1128_wf : GatherDims.WF S25000x128 S150000x1 S150000x128 [1] [0] [] [0] [] 1 ![1, 128]
  scatter_S40000x320_S150000x1_S150000x320_1_0_0_1_wf : ScatterDims.WF S40000x320 S150000x1 S150000x320 [1] [0] [0] 1
  gather_S40000x320_S120000x1_S120000x320_1_0_n_n_0_1_1320_wf : GatherDims.WF S40000x320 S120000x1 S120000x320 [1] [0] [] [0] [] 1 ![1, 320]
  scatter_S60000x320_S120000x1_S120000x320_1_0_0_1_wf : ScatterDims.WF S60000x320 S120000x1 S120000x320 [1] [0] [0] 1
  gather_S60000x320_S120000x1_S120000x320_1_0_n_n_0_1_1320_wf : GatherDims.WF S60000x320 S120000x1 S120000x320 [1] [0] [] [0] [] 1 ![1, 320]
  dot_S120000x704_S704x128_S120000x128_1_0_0_1_n_n_wf : DotDims.WF S120000x704 S704x128 S120000x128 [1] [0] [0] [1] [] []
  dot_S120000x128_S128x64_S120000x64_1_0_0_1_n_n_wf : DotDims.WF S120000x128 S128x64 S120000x64 [1] [0] [0] [1] [] []
  dot_S150000x320_S320x128_S150000x128_1_0_0_1_n_n_wf : DotDims.WF S150000x320 S320x128 S150000x128 [1] [0] [0] [1] [] []
  dot_S150000x128_S128x64_S150000x64_1_0_0_1_n_n_wf : DotDims.WF S150000x128 S128x64 S150000x64 [1] [0] [0] [1] [] []

variable [Facts₀]

def scatter_S40000x64_S120000x1_S120000x64_1_0_0_1 : ScatterDims S40000x64 S120000x1 S120000x64 where
  updateWindowDims := [1]
  insertedWindowDims := [0]
  scatterDimsToOperandDims := [0]
  indexVectorDim := 1
  wf := scatter_S40000x64_S120000x1_S120000x64_1_0_0_1_wf
def gather_S40000x64_S150000x1_S150000x64_1_0_n_n_0_1_164 : GatherDims S40000x64 S150000x1 S150000x64 where
  offsetDims := [1]
  collapsedSliceDims := [0]
  operandBatchingDims := []
  startIndicesBatchingDims := []
  startIndexMap := [0]
  indexVectorDim := 1
  sliceSizes := ![1, 64]
  wf := gather_S40000x64_S150000x1_S150000x64_1_0_n_n_0_1_164_wf
def scatter_S30000x64_S150000x1_S150000x64_1_0_0_1 : ScatterDims S30000x64 S150000x1 S150000x64 where
  updateWindowDims := [1]
  insertedWindowDims := [0]
  scatterDimsToOperandDims := [0]
  indexVectorDim := 1
  wf := scatter_S30000x64_S150000x1_S150000x64_1_0_0_1_wf
def gather_S30000x64_S150000x1_S150000x64_1_0_n_n_0_1_164 : GatherDims S30000x64 S150000x1 S150000x64 where
  offsetDims := [1]
  collapsedSliceDims := [0]
  operandBatchingDims := []
  startIndicesBatchingDims := []
  startIndexMap := [0]
  indexVectorDim := 1
  sliceSizes := ![1, 64]
  wf := gather_S30000x64_S150000x1_S150000x64_1_0_n_n_0_1_164_wf
def scatter_S40000x128_S150000x1_S150000x128_1_0_0_1 : ScatterDims S40000x128 S150000x1 S150000x128 where
  updateWindowDims := [1]
  insertedWindowDims := [0]
  scatterDimsToOperandDims := [0]
  indexVectorDim := 1
  wf := scatter_S40000x128_S150000x1_S150000x128_1_0_0_1_wf
def gather_S40000x128_S150000x1_S150000x128_1_0_n_n_0_1_1128 : GatherDims S40000x128 S150000x1 S150000x128 where
  offsetDims := [1]
  collapsedSliceDims := [0]
  operandBatchingDims := []
  startIndicesBatchingDims := []
  startIndexMap := [0]
  indexVectorDim := 1
  sliceSizes := ![1, 128]
  wf := gather_S40000x128_S150000x1_S150000x128_1_0_n_n_0_1_1128_wf
def scatter_S30000x128_S150000x1_S150000x128_1_0_0_1 : ScatterDims S30000x128 S150000x1 S150000x128 where
  updateWindowDims := [1]
  insertedWindowDims := [0]
  scatterDimsToOperandDims := [0]
  indexVectorDim := 1
  wf := scatter_S30000x128_S150000x1_S150000x128_1_0_0_1_wf
def gather_S30000x128_S150000x1_S150000x128_1_0_n_n_0_1_1128 : GatherDims S30000x128 S150000x1 S150000x128 where
  offsetDims := [1]
  collapsedSliceDims := [0]
  operandBatchingDims := []
  startIndicesBatchingDims := []
  startIndexMap := [0]
  indexVectorDim := 1
  sliceSizes := ![1, 128]
  wf := gather_S30000x128_S150000x1_S150000x128_1_0_n_n_0_1_1128_wf
def scatter_S25000x64_S150000x1_S150000x64_1_0_0_1 : ScatterDims S25000x64 S150000x1 S150000x64 where
  updateWindowDims := [1]
  insertedWindowDims := [0]
  scatterDimsToOperandDims := [0]
  indexVectorDim := 1
  wf := scatter_S25000x64_S150000x1_S150000x64_1_0_0_1_wf
def gather_S25000x64_S150000x1_S150000x64_1_0_n_n_0_1_164 : GatherDims S25000x64 S150000x1 S150000x64 where
  offsetDims := [1]
  collapsedSliceDims := [0]
  operandBatchingDims := []
  startIndicesBatchingDims := []
  startIndexMap := [0]
  indexVectorDim := 1
  sliceSizes := ![1, 64]
  wf := gather_S25000x64_S150000x1_S150000x64_1_0_n_n_0_1_164_wf
def scatter_S25000x128_S150000x1_S150000x128_1_0_0_1 : ScatterDims S25000x128 S150000x1 S150000x128 where
  updateWindowDims := [1]
  insertedWindowDims := [0]
  scatterDimsToOperandDims := [0]
  indexVectorDim := 1
  wf := scatter_S25000x128_S150000x1_S150000x128_1_0_0_1_wf
def gather_S25000x128_S150000x1_S150000x128_1_0_n_n_0_1_1128 : GatherDims S25000x128 S150000x1 S150000x128 where
  offsetDims := [1]
  collapsedSliceDims := [0]
  operandBatchingDims := []
  startIndicesBatchingDims := []
  startIndexMap := [0]
  indexVectorDim := 1
  sliceSizes := ![1, 128]
  wf := gather_S25000x128_S150000x1_S150000x128_1_0_n_n_0_1_1128_wf
def scatter_S40000x320_S150000x1_S150000x320_1_0_0_1 : ScatterDims S40000x320 S150000x1 S150000x320 where
  updateWindowDims := [1]
  insertedWindowDims := [0]
  scatterDimsToOperandDims := [0]
  indexVectorDim := 1
  wf := scatter_S40000x320_S150000x1_S150000x320_1_0_0_1_wf
def gather_S40000x320_S120000x1_S120000x320_1_0_n_n_0_1_1320 : GatherDims S40000x320 S120000x1 S120000x320 where
  offsetDims := [1]
  collapsedSliceDims := [0]
  operandBatchingDims := []
  startIndicesBatchingDims := []
  startIndexMap := [0]
  indexVectorDim := 1
  sliceSizes := ![1, 320]
  wf := gather_S40000x320_S120000x1_S120000x320_1_0_n_n_0_1_1320_wf
def scatter_S60000x320_S120000x1_S120000x320_1_0_0_1 : ScatterDims S60000x320 S120000x1 S120000x320 where
  updateWindowDims := [1]
  insertedWindowDims := [0]
  scatterDimsToOperandDims := [0]
  indexVectorDim := 1
  wf := scatter_S60000x320_S120000x1_S120000x320_1_0_0_1_wf
def gather_S60000x320_S120000x1_S120000x320_1_0_n_n_0_1_1320 : GatherDims S60000x320 S120000x1 S120000x320 where
  offsetDims := [1]
  collapsedSliceDims := [0]
  operandBatchingDims := []
  startIndicesBatchingDims := []
  startIndexMap := [0]
  indexVectorDim := 1
  sliceSizes := ![1, 320]
  wf := gather_S60000x320_S120000x1_S120000x320_1_0_n_n_0_1_1320_wf
def dot_S120000x704_S704x128_S120000x128_1_0_0_1_n_n : DotDims S120000x704 S704x128 S120000x128 where
  lhsContracting := [1]
  rhsContracting := [0]
  lhsNonContracting := [0]
  rhsNonContracting := [1]
  lhsBatch := []
  rhsBatch := []
  wf := dot_S120000x704_S704x128_S120000x128_1_0_0_1_n_n_wf
def dot_S120000x128_S128x64_S120000x64_1_0_0_1_n_n : DotDims S120000x128 S128x64 S120000x64 where
  lhsContracting := [1]
  rhsContracting := [0]
  lhsNonContracting := [0]
  rhsNonContracting := [1]
  lhsBatch := []
  rhsBatch := []
  wf := dot_S120000x128_S128x64_S120000x64_1_0_0_1_n_n_wf
def dot_S150000x320_S320x128_S150000x128_1_0_0_1_n_n : DotDims S150000x320 S320x128 S150000x128 where
  lhsContracting := [1]
  rhsContracting := [0]
  lhsNonContracting := [0]
  rhsNonContracting := [1]
  lhsBatch := []
  rhsBatch := []
  wf := dot_S150000x320_S320x128_S150000x128_1_0_0_1_n_n_wf
def dot_S150000x128_S128x64_S150000x64_1_0_0_1_n_n : DotDims S150000x128 S128x64 S150000x64 where
  lhsContracting := [1]
  rhsContracting := [0]
  lhsNonContracting := [0]
  rhsNonContracting := [1]
  lhsBatch := []
  rhsBatch := []
  wf := dot_S150000x128_S128x64_S150000x64_1_0_0_1_n_n_wf

class Facts : Prop extends Facts₀ where

variable [Facts]
-- ==== Proof.K.HostFacts.lean ====
/-
  The host side of the kernel program's @main: seven stretches of host operations between the nine kernel regions.
  For each stretch: that it allocates nothing, the list of buffers it writes (so that any other buffer — an argument
  array above all — is read after the stretch as before it), and the stretch as a segment of the several-regions launch.
-/
import proofs.«143519_j50869592655552_1_alg».proof.Proof.Gen.Kernel.Launch
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The host stretch `hostOps0` (175 operations) -/

/-- No operation of the stretch allocates a buffer. -/
theorem hostOps0_fresh : (hostOps0 : List (HloOp τ sig (Elt F))).Forall fun op => op.fresh = ∅ := by
  simp only [List.Forall]; repeat' constructor
/-- The buffers the stretch's operations write: each operation's result, in order. -/
abbrev hostOps0_W : List (Ref sig .tc) := [main_v0, main_v1, main_v2, main_v3, main_v4, main_v5, main_v6, main_v7, main_v8, main_cst, main_v9, main_v10, main_v11, main_c, main_v12, main_v13, main_c_0, main_v14, main_v15, main_v16, main_v17, main_v18, main_cst_1, main_v19, main_v20, main_v21, main_c_2, main_v22, main_v23, main_c_3, main_v24, main_v25, main_v26, main_v27, main_v28, main_v29, main_cst_4, main_v30, main_v31, main_v32, main_c_5, main_v33, main_v34, main_c_6, main_v35, main_v36, main_v37, main_v38, main_v39, main_cst_7, main_v40, main_v41, main_v42, main_c_8, main_v43, main_v44, main_c_9, main_v45, main_v46, main_v47, main_v48, main_v49, main_v50, main_cst_10, main_v51, main_v52, main_v53, main_c_11, main_v54, main_v55, main_c_12, main_v56, main_v57, main_v58, main_v59, main_v60, main_cst_13, main_v61, main_v62, main_v63, main_c_14, main_v64, main_v65, main_c_15, main_v66, main_v67, main_v68, main_v69, main_v70, main_v71, main_cst_16, main_v72, main_v73, main_v74, main_c_17, main_v75, main_v76, main_c_18, main_v77, main_v78, main_v79, main_v80, main_v81, main_cst_19, main_v82, main_v83, main_v84, main_c_20, main_v85, main_v86, main_c_21, main_v87, main_v88, main_v89, main_v90, main_v91, main_v92, main_v93, main_v94, main_cst_22, main_v95, main_v96, main_v97, main_c_23, main_v98, main_v99, main_c_24, main_v100, main_v101, main_v102, main_v103, main_v104, main_cst_25, main_v105, main_v106, main_v107, main_c_26, main_v108, main_v109, main_c_27, main_v110, main_v111, main_v112, main_v113, main_v114, main_v115, main_cst_28, main_v116, main_v117, main_v118, main_c_29, main_v119, main_v120, main_c_30, main_v121, main_v122, main_v123, main_v124, main_v125, main_cst_31, main_v126, main_v127, main_v128, main_c_32, main_v129, main_v130, main_c_33, main_v131, main_v132, main_v133, main_v134, main_v135, main_v136, main_v137, main_v138]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep0 (V : Valuation τ sig (Elt F)) (r : Ref sig .tc) (h : r ∉ hostOps0_W) :
    StableHlo.after hostOps0 V (Proc.devRef .tc r) = V (Proc.devRef .tc r) :=
  StableHlo.after_of_writes_sub hostOps0 _ hostOps0_writes h

/-! ## The host stretch `hostOps1` (17 operations) -/

/-- No operation of the stretch allocates a buffer. -/
theorem hostOps1_fresh : (hostOps1 : List (HloOp τ sig (Elt F))).Forall fun op => op.fresh = ∅ := by
  simp only [List.Forall]; repeat' constructor
/-- The buffers the stretch's operations write: each operation's result, in order. -/
abbrev hostOps1_W : List (Ref sig .tc) := [main_cst_34, main_v140, main_v141, main_cst_35, main_v142, main_v143, main_v144, main_v145, main_cst_36, main_v146, main_v147, main_v148, main_v149, main_v150, main_v151, main_v152, main_v153]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep1 (V : Valuation τ sig (Elt F)) (r : Ref sig .tc) (h : r ∉ hostOps1_W) :
    StableHlo.after hostOps1 V (Proc.devRef .tc r) = V (Proc.devRef .tc r) :=
  StableHlo.after_of_writes_sub hostOps1 _ hostOps1_writes h

/-! ## The host stretch `hostOps2` (17 operations) -/

/-- No operation of the stretch allocates a buffer. -/
theorem hostOps2_fresh : (hostOps2 : List (HloOp τ sig (Elt F))).Forall fun op => op.fresh = ∅ := by
  simp only [List.Forall]; repeat' constructor
/-- The buffers the stretch's operations write: each operation's result, in order. -/
abbrev hostOps2_W : List (Ref sig .tc) := [main_cst_37, main_v155, main_v156, main_cst_38, main_v157, main_v158, main_v159, main_v160, main_cst_39, main_v161, main_v162, main_v163, main_v164, main_v165, main_v166, main_v167, main_v168]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep2 (V : Valuation τ sig (Elt F)) (r : Ref sig .tc) (h : r ∉ hostOps2_W) :
    StableHlo.after hostOps2 V (Proc.devRef .tc r) = V (Proc.devRef .tc r) :=
  StableHlo.after_of_writes_sub hostOps2 _ hostOps2_writes h

/-! ## The host stretch `hostOps4` (17 operations) -/

/-- No operation of the stretch allocates a buffer. -/
theorem hostOps4_fresh : (hostOps4 : List (HloOp τ sig (Elt F))).Forall fun op => op.fresh = ∅ := by
  simp only [List.Forall]; repeat' constructor
/-- The buffers the stretch's operations write: each operation's result, in order. -/
abbrev hostOps4_W : List (Ref sig .tc) := [main_cst_40, main_v171, main_v172, main_cst_41, main_v173, main_v174, main_v175, main_v176, main_cst_42, main_v177, main_v178, main_v179, main_v180, main_v181, main_v182, main_v183, main_v184]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep4 (V : Valuation τ sig (Elt F)) (r : Ref sig .tc) (h : r ∉ hostOps4_W) :
    StableHlo.after hostOps4 V (Proc.devRef .tc r) = V (Proc.devRef .tc r) :=
  StableHlo.after_of_writes_sub hostOps4 _ hostOps4_writes h

/-! ## The host stretch `hostOps5` (17 operations) -/

/-- No operation of the stretch allocates a buffer. -/
theorem hostOps5_fresh : (hostOps5 : List (HloOp τ sig (Elt F))).Forall fun op => op.fresh = ∅ := by
  simp only [List.Forall]; repeat' constructor
/-- The buffers the stretch's operations write: each operation's result, in order. -/
abbrev hostOps5_W : List (Ref sig .tc) := [main_cst_43, main_v186, main_v187, main_cst_44, main_v188, main_v189, main_v190, main_v191, main_cst_45, main_v192, main_v193, main_v194, main_v195, main_v196, main_v197, main_v198, main_v199]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep5 (V : Valuation τ sig (Elt F)) (r : Ref sig .tc) (h : r ∉ hostOps5_W) :
    StableHlo.after hostOps5 V (Proc.devRef .tc r) = V (Proc.devRef .tc r) :=
  StableHlo.after_of_writes_sub hostOps5 _ hostOps5_writes h

/-! ## The host stretch `hostOps7` (17 operations) -/

/-- No operation of the stretch allocates a buffer. -/
theorem hostOps7_fresh : (hostOps7 : List (HloOp τ sig (Elt F))).Forall fun op => op.fresh = ∅ := by
  simp only [List.Forall]; repeat' constructor
/-- The buffers the stretch's operations write: each operation's result, in order. -/
abbrev hostOps7_W : List (Ref sig .tc) := [main_cst_46, main_v202, main_v203, main_cst_47, main_v204, main_v205, main_v206, main_v207, main_cst_48, main_v208, main_v209, main_v210, main_v211, main_v212, main_v213, main_v214, main_v215]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep7 (V : Valuation τ sig (Elt F)) (r : Ref sig .tc) (h : r ∉ hostOps7_W) :
    StableHlo.after hostOps7 V (Proc.devRef .tc r) = V (Proc.devRef .tc r) :=
  StableHlo.after_of_writes_sub hostOps7 _ hostOps7_writes h

/-! ## The host stretch `hostOps8` (17 operations) -/

/-- No operation of the stretch allocates a buffer. -/
theorem hostOps8_fresh : (hostOps8 : List (HloOp τ sig (Elt F))).Forall fun op => op.fresh = ∅ := by
  simp only [List.Forall]; repeat' constructor
/-- The buffers the stretch's operations write: each operation's result, in order. -/
abbrev hostOps8_W : List (Ref sig .tc) := [main_cst_49, main_v217, main_v218, main_cst_50, main_v219, main_v220, main_v221, main_v222, main_cst_51, main_v223, main_v224, main_v225, main_v226, main_v227, main_v228, main_v229, main_v230]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep8 (V : Valuation τ sig (Elt F)) (r : Ref sig .tc) (h : r ∉ hostOps8_W) :
    StableHlo.after hostOps8 V (Proc.devRef .tc r) = V (Proc.devRef .tc r) :=
  StableHlo.after_of_writes_sub hostOps8 _ hostOps8_writes h

/-! ## What every segment of @main shares -/

/-- No pallas_call of the program has a prefetched table. -/
abbrev adm : (p : Fin 9) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0

local notation "𝕄" => MT nD τ sig Unit (Elt F) ℕ (UR sig nD τ) ℕ

/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

/-- A host stretch as a segment over the unscoped buffers from the contents `W`, `R` riding along: its post is
    those buffers at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Region0RunA.lean ====
import proofs.«143519_j50869592655552_1_alg».proof.Proof.Gen.Kernel.Launch
import proofs.«143519_j50869592655552_1_alg».proof.Proof.Gen.Kernel.Skeleton
import proofs.«143519_j50869592655552_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body of the accumulating linear kernel, run once per control case

The body has one conditional, on the grid coordinate being zero: there it clears the two scratch rows. Then, at
every point, it multiplies the point's block of rows by the weight matrix, stores the product as the point's output
block, adds the product's column sums to the first scratch row and the column sums of its squares to the second,
and copies the two scratch rows into the two one-row outputs. -/

/-- The condition of the body's conditional, as a proposition about the grid coordinate. -/
abbrev cond0_0 (i : grid0.Coords) : Prop := (Scalar.cmpi .ne (Scalar.extui (Scalar.cmpi .eq (BitVec.ofNat 32 (i 0).val) 0#32)) 0#32) = 1#1

/-- It holds at the first point only — decided over the grid's 40 points. -/
theorem hcond0_0 : ∀ t : Fin cfg0.N, cond0_0 (grid0.coords t) ↔ t.val = 0 :=
  (by decide +kernel : ∀ t : Fin grid0.N, cond0_0 (grid0.coords t) ↔ t.val = 0)

/-- The zero offsets of a rank-2 rectangle, however spelt. -/
theorem hz2 : (![0, 0] : Fin 2 → ℕ) = fun _ => 0 := by funext a; fin_cases a <;> rfl

/-- A store through the whole-shape rectangle, LAST in a list of stores, is what the buffer reads back as,
    whatever it held and whatever the earlier stores were. -/
theorem read_writes_unit_zero {sg : RefSig} {κ : Kind} {sp : Space} {S : Shape} {e : EltTy}
    (v : View sg κ sp S e) (f : v.ty.Contents (Elt F)) {off : Fin S.rank → ℕ}
    (inb : ∀ a, off a + S.size a ≤ S.size a) (w : S.Idx → Elt F e) (L : List (View.Piece (Elt F) S e))
    (h : off = fun _ => 0) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 1000000 in
/-- CASE A, the first point. From the two input blocks `x0` (rows) and `x1` (weights), whatever the three output
    buffers and the two scratch rows hold, the body leaves: the product in the block output, and in each scratch
    row — and in the one-row output that copies it — the row cleared and then added to. -/
theorem run0_A (c : Dev nD) (E : Set ℕ) (i : grid0.Coords) (arg1 : Memref sig .tc .vmem S3000x704 .f32) (harg1 : arg1.IsWhole) (arg2 : Memref sig .tc .vmem S704x128 .f32) (harg2 : arg2.IsWhole) (arg3 : Memref sig .tc .vmem S3000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc : cond0_0 i)
    (x0 : Vec F S3000x704 .f32) (x1 : Vec F S704x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (k0_pay3 x0 x1)
            ∗ owns (c : Thread nD τ) arg4 fullShare (k0_pay4 x0 x1 (k0_pay1 (F := F)))
            ∗ owns (c : Thread nD τ) arg5 fullShare (k0_pay5 x0 x1 (k0_pay2 (F := F)))
            ∗ owns (c : Thread nD τ) arg6 fullShare (k0_pay4 x0 x1 (k0_pay1 (F := F)))
            ∗ owns (c : Thread nD τ) arg7 fullShare (k0_pay5 x0 x1 (k0_pay2 (F := F)))) -∗ K ⟨⟩))
      ⊢ wp frame (wpE (defs₀ (F := F)) Variants.none c none) E (cc0__linear_accum_kernel i arg1 harg1 arg2 harg2 arg3 harg3 arg4 harg4 arg5 harg5 arg6 harg6 arg7 harg7) K := by
  simp only [cc0__linear_accum_kernel_eq_skeleton]; unfold cc0__linear_accum_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  obtain rfl := harg1.eq_unread hf1; obtain rfl := harg2.eq_unread hf2
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    refine (read_writes_unit_zero _ _ _ _ _ hz2).trans ?_
    simp only [View.readCov_unit_zero (S := S1x128) _ hz2, View.readCov_cons_toLoadRect, View.readAt_eq_ld, harg1.read_unread, harg2.read_unread, View.ld_unit_zero (S := S3000x704) hz2, View.ld_unit_zero (S := S704x128) hz2, View.ld_unit_zero (S := S1x128) hz2]
  isplitl [H4]
  · iexists _; isplitr
    swap; · iexact H4
    ipureintro
    sl_unfold_run_names
    refine (read_writes_unit_zero _ _ _ _ _ hz2).trans ?_
    simp only [View.readCov_unit_zero (S := S1x128) _ hz2, View.readCov_cons_toLoadRect, View.readAt_eq_ld, harg1.read_unread, harg2.read_unread, View.ld_unit_zero (S := S3000x704) hz2, View.ld_unit_zero (S := S704x128) hz2, View.ld_unit_zero (S := S1x128) hz2]
  isplitl [H5]
  · iexists _; isplitr
    swap; · iexact H5
    ipureintro
    sl_unfold_run_names
    refine (read_writes_unit_zero _ _ _ _ _ hz2).trans ?_
    simp only [View.readCov_unit_zero (S := S1x128) _ hz2, View.readCov_cons_toLoadRect, View.readAt_eq_ld, harg1.read_unread, harg2.read_unread, View.ld_unit_zero (S := S3000x704) hz2, View.ld_unit_zero (S := S704x128) hz2, View.ld_unit_zero (S := S1x128) hz2]
  isplitl [H6]
  · iexists _; isplitr
    swap; · iexact H6
    ipureintro
    sl_unfold_run_names
    refine (read_writes_unit_zero _ _ _ _ _ hz2).trans ?_
    simp only [View.readCov_unit_zero (S := S1x128) _ hz2, View.readCov_cons_toLoadRect, View.readAt_eq_ld, harg1.read_unread, harg2.read_unread, View.ld_unit_zero (S := S3000x704) hz2, View.ld_unit_zero (S := S704x128) hz2, View.ld_unit_zero (S := S1x128) hz2]
  · iexists _; isplitr
    swap; · iexact H7
    ipureintro
    sl_unfold_run_names
    refine (read_writes_unit_zero _ _ _ _ _ hz2).trans ?_
    simp only [View.readCov_unit_zero (S := S1x128) _ hz2, View.readCov_cons_toLoadRect, View.readAt_eq_ld, harg1.read_unread, harg2.read_unread, View.ld_unit_zero (S := S3000x704) hz2, View.ld_unit_zero (S := S704x128) hz2, View.ld_unit_zero (S := S1x128) hz2]

end Cert.Kernel.Hand

end
-- ==== Proof.K.Region0RunB.lean ====
import proofs.«143519_j50869592655552_1_alg».proof.Proof.K.Region0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B, every later point. As case A, but the scratch rows are not cleared: they enter at what the point before
    left, `xs0` and `xs1`, and are added to. -/
theorem run0_B (c : Dev nD) (E : Set ℕ) (i : grid0.Coords) (arg1 : Memref sig .tc .vmem S3000x704 .f32) (harg1 : arg1.IsWhole) (arg2 : Memref sig .tc .vmem S704x128 .f32) (harg2 : arg2.IsWhole) (arg3 : Memref sig .tc .vmem S3000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc : ¬cond0_0 i)
    (x0 : Vec F S3000x704 .f32) (x1 : Vec F S704x128 .f32) (xs0 xs1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg3 fullShare (k0_pay3 x0 x1)
            ∗ owns (c : Thread nD τ) arg4 fullShare (k0_pay4 x0 x1 xs0)
            ∗ owns (c : Thread nD τ) arg5 fullShare (k0_pay5 x0 x1 xs1)
            ∗ owns (c : Thread nD τ) arg6 fullShare (k0_pay4 x0 x1 xs0)
            ∗ owns (c : Thread nD τ) arg7 fullShare (k0_pay5 x0 x1 xs1)) -∗ K ⟨⟩))
      ⊢ wp frame (wpE (defs₀ (F := F)) Variants.none c none) E (cc0__linear_accum_kernel i arg1 harg1 arg2 harg2 arg3 harg3 arg4 harg4 arg5 harg5 arg6 harg6 arg7 harg7) K := by
  simp only [cc0__linear_accum_kernel_eq_skeleton]; unfold cc0__linear_accum_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  obtain rfl := harg1.eq_unread hf1; obtain rfl := harg2.eq_unread hf2; obtain rfl := harg6.eq_unread hf6; obtain rfl := harg7.eq_unread hf7
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    refine (read_writes_unit_zero _ _ _ _ _ hz2).trans ?_
    simp only [View.readCov_unit_zero (S := S1x128) _ hz2, View.readAt_eq_ld, harg1.read_unread, harg2.read_unread, harg6.read_unread, harg7.read_unread, View.ld_unit_zero (S := S3000x704) hz2, View.ld_unit_zero (S := S704x128) hz2, View.ld_unit_zero (S := S1x128) hz2]
  isplitl [H4]
  · iexists _; isplitr
    swap; · iexact H4
    ipureintro
    sl_unfold_run_names
    refine (read_writes_unit_zero _ _ _ _ _ hz2).trans ?_
    simp only [View.readCov_unit_zero (S := S1x128) _ hz2, View.readAt_eq_ld, harg1.read_unread, harg2.read_unread, harg6.read_unread, harg7.read_unread, View.ld_unit_zero (S := S3000x704) hz2, View.ld_unit_zero (S := S704x128) hz2, View.ld_unit_zero (S := S1x128) hz2]
  isplitl [H5]
  · iexists _; isplitr
    swap; · iexact H5
    ipureintro
    sl_unfold_run_names
    refine (read_writes_unit_zero _ _ _ _ _ hz2).trans ?_
    simp only [View.readCov_unit_zero (S := S1x128) _ hz2, View.readAt_eq_ld, harg1.read_unread, harg2.read_unread, harg6.read_unread, harg7.read_unread, View.ld_unit_zero (S := S3000x704) hz2, View.ld_unit_zero (S := S704x128) hz2, View.ld_unit_zero (S := S1x128) hz2]
  isplitl [H6]
  · iexists _; isplitr
    swap; · iexact H6
    ipureintro
    sl_unfold_run_names
    refine (read_writes_unit_zero _ _ _ _ _ hz2).trans ?_
    simp only [View.readCov_unit_zero (S := S1x128) _ hz2, View.readAt_eq_ld, harg1.read_unread, harg2.read_unread, harg6.read_unread, harg7.read_unread, View.ld_unit_zero (S := S3000x704) hz2, View.ld_unit_zero (S := S704x128) hz2, View.ld_unit_zero (S := S1x128) hz2]
  · iexists _; isplitr
    swap; · iexact H7
    ipureintro
    sl_unfold_run_names
    refine (read_writes_unit_zero _ _ _ _ _ hz2).trans ?_
    simp only [View.readCov_unit_zero (S := S1x128) _ hz2, View.readAt_eq_ld, harg1.read_unread, harg2.read_unread, harg6.read_unread, harg7.read_unread, View.ld_unit_zero (S := S3000x704) hz2, View.ld_unit_zero (S := S704x128) hz2, View.ld_unit_zero (S := S1x128) hz2]

end Cert.Kernel.Hand

end
-- ==== Proof.K.Region0.lean ====
import proofs.«143519_j50869592655552_1_alg».proof.Proof.K.Region0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 at the entry contents `V`: the proof data and the body obligation

Everything here is stated at a parameter `V`, the TensorCore's buffer contents when the region is entered. The two
scratch rows are carried from point to point: after point `t` they hold the column sums of the products of the
points up to `t`, and of their squares, as one pair of functions defined by recursion on the point. -/

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window holds its block when the body runs, at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds its block when the body runs, at every point: it is fetched at the first point only,
    its block index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The scratch rows -/

/-- The two scratch operands as memrefs: whole scoped buffers of the kernel's own. -/
abbrev scM0_0 : Memref sig .tc .vmem S1x128 .f32 := Memref.whole cc0_scratch0
abbrev scM0_1 : Memref sig .tc .vmem S1x128 .f32 := Memref.whole cc0_scratch1

/-- The class's invariant with the two scratch rows split out as memrefs owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-- THE ACCUMULATION. What the two scratch rows hold after the body at position `n`: at the first point the rows
    cleared and added to; afterwards what the point before left, added to. -/
def acc0 (c : Dev nD) : (n : ℕ) → n < cfg0.N → Vec F S1x128 .f32 × Vec F S1x128 .f32
  | 0, hn => (k0_pay4 (iblk0 V c 0 ⟨0, hn⟩) (iblk0 V c 1 ⟨0, hn⟩) (k0_pay1 (F := F)),
      k0_pay5 (iblk0 V c 0 ⟨0, hn⟩) (iblk0 V c 1 ⟨0, hn⟩) (k0_pay2 (F := F)))
  | n + 1, hn => (k0_pay4 (iblk0 V c 0 ⟨n + 1, hn⟩) (iblk0 V c 1 ⟨n + 1, hn⟩) (acc0 c n (Nat.lt_of_succ_lt hn)).1,
      k0_pay5 (iblk0 V c 0 ⟨n + 1, hn⟩) (iblk0 V c 1 ⟨n + 1, hn⟩) (acc0 c n (Nat.lt_of_succ_lt hn)).2)

/-- At the first point. -/
theorem acc0_zero (c : Dev nD) (t : Fin cfg0.N) (h : t.val = 0) :
    acc0 V c t.val t.isLt = (k0_pay4 (iblk0 V c 0 t) (iblk0 V c 1 t) (k0_pay1 (F := F)),
      k0_pay5 (iblk0 V c 0 t) (iblk0 V c 1 t) (k0_pay2 (F := F))) := by
  obtain ⟨n, hn⟩ := t
  cases n with
  | zero => rfl
  | succ n => exact absurd h (Nat.succ_ne_zero n)

/-- At a later point: over what the point before left. -/
theorem acc0_pos (c : Dev nD) (t : Fin cfg0.N) (h : t.val ≠ 0) :
    acc0 V c t.val t.isLt
      = (k0_pay4 (iblk0 V c 0 t) (iblk0 V c 1 t) (acc0 V c (t.val - 1) (Nat.lt_of_le_of_lt (Nat.sub_le _ _) t.isLt)).1,
        k0_pay5 (iblk0 V c 0 t) (iblk0 V c 1 t) (acc0 V c (t.val - 1) (Nat.lt_of_le_of_lt (Nat.sub_le _ _) t.isLt)).2) := by
  obtain ⟨n, hn⟩ := t
  cases n with
  | zero => exact absurd rfl h
  | succ n => rfl

/-- The region invariant before position `n`: before the first point the class's (every scratch at anything);
    afterwards the two scratch rows at what the point before left, the other scoped buffers at anything, and the
    generator register at some state. -/
def PhiS0 (c : Dev nD) : (n : ℕ) → n ≤ cfg0.N → sProp 𝕄
  | 0, _ => Pipeline.ΦA spec0 c
  | n + 1, hn => iprop(((owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(((owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(((owns (c : Thread nD τ) scM0_0 fullShare (acc0 V c (n - 1) (by omega)).1 ∗ owns (c : Thread nD τ) scM0_1 fullShare (acc0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of pipeline 0 on core `c`: the arrays as the region finds them; after the body at point `t` each
    input's buffer at its block, the block output's at the product of the two blocks, and the two one-row outputs' at
    the scratch rows' current values; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (iblk0 V c 0 t) (iblk0 V c 1 t)
    | ⟨3, _⟩ => (acc0 V c t.val t.isLt).1
    | ⟨4, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (iblk0 V c 0 t) (iblk0 V c 1 t) := by dsimp only [dat0]
theorem after0_3 (c : Dev nD) (t : Fin cfg0.N) : (dat0 V c).after 3 t = (acc0 V c t.val t.isLt).1 := by dsimp only [dat0]
theorem after0_4 (c : Dev nD) (t : Fin cfg0.N) : (dat0 V c).after 4 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  by_cases hz : t.val = 0
  · rw [PhiS0_castSucc V c t, PhiS0_zero V c _ _ hz, PhiA0_eq, acc0_zero V c t hz]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (run0_A c Set.univ (grid0.coords t) _ _ _ _ _ _ _ _ _ _ _ _ _ _ ((hcond0_0 t).mpr hz) (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexact H4
  · rw [PhiS0_castSucc V c t, PhiS0_pos V c _ _ hz, acc0_pos V c t hz]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (run0_B c Set.univ (grid0.coords t) _ _ _ _ _ _ _ _ _ _ _ _ _ _ (fun h => hz ((hcond0_0 t).mp h)) (iblk0 V c 0 t) (iblk0 V c 1 t) _ _ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch rows' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 40 := N_0; omega)

end Cert.Kernel.Hand

end
-- ==== Proof.K.Region1RunA.lean ====
import proofs.«143519_j50869592655552_1_alg».proof.Proof.Gen.Kernel.Launch
import proofs.«143519_j50869592655552_1_alg».proof.Proof.Gen.Kernel.Skeleton
import proofs.«143519_j50869592655552_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (custom_call 1): what its two control cases share, and the case of the grid's first point

The kernel body of custom_call 1 branches once, on "the grid coordinate is 0": at that point it first stores zeros
into its two scratch rows. Everything else it does at every point. -/

/-- The body's one branch condition as the printed scalar chain over the grid coordinate. -/
abbrev cond1_0 (i : grid1.Coords) : Prop :=
  (Scalar.cmpi .ne (Scalar.extui (Scalar.cmpi .eq (BitVec.ofNat 32 (i 0).val) 0#32)) 0#32) = 1#1

/-- It holds exactly at the first of the 40 points (decided over the grid). -/
theorem hcond1_0 : ∀ t : Fin cfg1.N, cond1_0 (grid1.coords t) ↔ t.val % 40 = 0 :=
  (by decide +kernel : ∀ t : Fin grid1.N, cond1_0 (grid1.coords t) ↔ t.val % 40 = 0)

/-- The two scratch rows, as whole memrefs, and the views through which their contents are stated. -/
abbrev scM1_0 : Memref sig .tc .vmem S1x64 .f32 := Memref.whole cc1_scratch0
abbrev scM1_1 : Memref sig .tc .vmem S1x64 .f32 := Memref.whole cc1_scratch1
abbrev VS1_0 : View sig .tc .vmem S1x64 .f32 := scM1_0.view
abbrev VS1_1 : View sig .tc .vmem S1x64 .f32 := scM1_1.view
/-- One staging buffer per output window, through which that window's contents are stated (any whole view of the
    shape reads a covering list of pieces back the same way). -/
abbrev VO1_4 : View sig .tc .vmem S3000x64 .f32 := (Memref.whole cc1_stg4_0 : Memref sig .tc .vmem S3000x64 .f32).view
abbrev VO1_5 : View sig .tc .vmem S1x64 .f32 := (Memref.whole cc1_stg5_0 : Memref sig .tc .vmem S1x64 .f32).view
abbrev VO1_6 : View sig .tc .vmem S1x64 .f32 := (Memref.whole cc1_stg6_0 : Memref sig .tc .vmem S1x64 .f32).view

/-- The class invariant of region 1 with the two scratch rows taken out as memrefs owned at some contents: the rest
    of the scoped buffers stays unopened beside them, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

-- (the run's proof term is large; the definition's epilogue walks it)
set_option maxHeartbeats 4000000 in
/-- THE FIRST POINT (the condition holds). On whole memrefs — the four inputs at contents `x0 … x3`, the three output
    buffers and both scratch rows at anything — the body runs to the continuation holding the inputs as they were and
    each output buffer and each scratch row with a list of pieces written: the lists are found by running the body,
    and are this definition's first components. -/
noncomputable def kernelRun1_A (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) :
    Σ' (L4 : List (View.Piece (Elt F) S3000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__bn_relu_linear_accum_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__bn_relu_linear_accum_kernel_eq_skeleton]; unfold cc1__bn_relu_linear_accum_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.Region1RunB.lean ====
import proofs.«143519_j50869592655552_1_alg».proof.Proof.K.Region1RunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (custom_call 1): the case of every later point

After the first point the condition fails: the body stores no zeros, and adds this point's column sums to what the
point before left in the two scratch rows. -/

-- (the run's proof term is large; the definition's epilogue walks it)
set_option maxHeartbeats 4000000 in
/-- A LATER POINT (the condition fails). On whole memrefs — the four inputs at contents `x0 … x3`, the three output
    buffers at anything, the two scratch rows at the contents `xs0`, `xs1` the point before left — the body runs to
    the continuation holding the inputs as they were and each output buffer and each scratch row with a list of pieces
    written; the lists are found by running the body. -/
noncomputable def kernelRun1_B (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) :
    Σ' (L4 : List (View.Piece (Elt F) S3000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__bn_relu_linear_accum_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__bn_relu_linear_accum_kernel_eq_skeleton]; unfold cc1__bn_relu_linear_accum_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.Region1.lean ====
import proofs.«143519_j50869592655552_1_alg».proof.Proof.K.Region1RunB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (custom_call 1) of @main: the frame half, at the contents `V` the region is entered with

Per point the body leaves: in output window 4 its own product block; in the two scratch rows the running column sums
(of the products, and of their squares) over the points so far; in output windows 5 and 6 copies of the two scratch
rows. The scratch rows are carried from point to point, so what they hold is stated by recursion on the point. -/

/-- The pieces the first point's run leaves in output window 4's buffer tile it (one whole-block store), so they cover it. -/
theorem cover1_A_4 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) (y : S3000x64.Idx) :
    ∃ pc ∈ (kernelRun1_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).1 S3000x64.size (by sl_kernel_rfl) y

/-- What the first point leaves in output window 4's staging buffer: its pieces read back. -/
def out1_A_4 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : Vec F S3000x64 .f32 :=
  VO1_4.read (Elt F) (VO1_4.writes (Elt F) VO1_4.junk (kernelRun1_A c i arg1 harg1 arg2 harg2 arg3 harg3 arg4 harg4 arg5 harg5 arg6 harg6 arg7 harg7 arg8 harg8 arg9 harg9 hc0 x0 x1 x2 x3).1)

/-- The pieces the first point's run leaves in output window 5's buffer tile it (one whole-block store), so they cover it. -/
theorem cover1_A_5 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) (y : S1x64.Idx) :
    ∃ pc ∈ (kernelRun1_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.1 S1x64.size (by sl_kernel_rfl) y

/-- What the first point leaves in output window 5's staging buffer: its pieces read back. -/
def out1_A_5 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : Vec F S1x64 .f32 :=
  VO1_5.read (Elt F) (VO1_5.writes (Elt F) VO1_5.junk (kernelRun1_A c i arg1 harg1 arg2 harg2 arg3 harg3 arg4 harg4 arg5 harg5 arg6 harg6 arg7 harg7 arg8 harg8 arg9 harg9 hc0 x0 x1 x2 x3).2.1)

/-- The pieces the first point's run leaves in output window 6's buffer tile it (one whole-block store), so they cover it. -/
theorem cover1_A_6 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) (y : S1x64.Idx) :
    ∃ pc ∈ (kernelRun1_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.2.1 S1x64.size (by sl_kernel_rfl) y

/-- What the first point leaves in output window 6's staging buffer: its pieces read back. -/
def out1_A_6 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : Vec F S1x64 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 hc0 x0 x1 x2 x3).2.2.1)

/-- The pieces the first point's run leaves in scratch row 0 cover it (whole-row stores). -/
theorem scover1_A_0 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) (y : S1x64.Idx) :
    ∃ pc ∈ (kernelRun1_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.2.2.1 S1x64.size (by sl_kernel_rfl) y

/-- What the first point leaves in scratch row 0: its pieces read back. -/
def sout1_A_0 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : Vec F S1x64 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 x0 x1 x2 x3).2.2.2.1)

/-- The pieces the first point's run leaves in scratch row 1 cover it (whole-row stores). -/
theorem scover1_A_1 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) (y : S1x64.Idx) :
    ∃ pc ∈ (kernelRun1_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.2.2.2.1 S1x64.size (by sl_kernel_rfl) y

/-- What the first point leaves in scratch row 1: its pieces read back. -/
def sout1_A_1 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : Vec F S1x64 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 hc0 x0 x1 x2 x3).2.2.2.2.1)

/-- The pieces a later point's run leaves in output window 4's buffer tile it (one whole-block store), so they cover it. -/
theorem cover1_B_4 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) (y : S3000x64.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).1 S3000x64.size (by sl_kernel_rfl) y

/-- What a later point leaves in output window 4's staging buffer: its pieces read back. -/
def out1_B_4 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : Vec F S3000x64 .f32 :=
  VO1_4.read (Elt F) (VO1_4.writes (Elt F) VO1_4.junk (kernelRun1_B c i arg1 harg1 arg2 harg2 arg3 harg3 arg4 harg4 arg5 harg5 arg6 harg6 arg7 harg7 arg8 harg8 arg9 harg9 hc0 x0 x1 x2 x3 xs0 xs1).1)

/-- The pieces a later point's run leaves in output window 5's buffer tile it (one whole-block store), so they cover it. -/
theorem cover1_B_5 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.1 S1x64.size (by sl_kernel_rfl) y

/-- What a later point leaves in output window 5's staging buffer: its pieces read back. -/
def out1_B_5 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : Vec F S1x64 .f32 :=
  VO1_5.read (Elt F) (VO1_5.writes (Elt F) VO1_5.junk (kernelRun1_B c i arg1 harg1 arg2 harg2 arg3 harg3 arg4 harg4 arg5 harg5 arg6 harg6 arg7 harg7 arg8 harg8 arg9 harg9 hc0 x0 x1 x2 x3 xs0 xs1).2.1)

/-- The pieces a later point's run leaves in output window 6's buffer tile it (one whole-block store), so they cover it. -/
theorem cover1_B_6 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.2.1 S1x64.size (by sl_kernel_rfl) y

/-- What a later point leaves in output window 6's staging buffer: its pieces read back. -/
def out1_B_6 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : Vec F S1x64 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 hc0 x0 x1 x2 x3 xs0 xs1).2.2.1)

/-- The pieces a later point's run leaves in scratch row 0 cover it (whole-row stores). -/
theorem scover1_B_0 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.2.2.1 S1x64.size (by sl_kernel_rfl) y

/-- What a later point leaves in scratch row 0: its pieces read back. -/
def sout1_B_0 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : Vec F S1x64 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 x0 x1 x2 x3 xs0 xs1).2.2.2.1)

/-- The pieces a later point's run leaves in scratch row 1 cover it (whole-row stores). -/
theorem scover1_B_1 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.2.2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.2.2.2.1 S1x64.size (by sl_kernel_rfl) y

/-- What a later point leaves in scratch row 1: its pieces read back. -/
def sout1_B_1 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : Vec F S1x64 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 hc0 x0 x1 x2 x3 xs0 xs1).2.2.2.2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data whose array is the entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is not
    fetched its block index has not moved), for any proof data whose array is the entry contents and whose body
    leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is not
    fetched its block index has not moved), for any proof data whose array is the entry contents and whose body
    leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is not
    fetched its block index has not moved), for any proof data whose array is the entry contents and whose body
    leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point, and the condition there -/

abbrev ms1_0 (t : Fin cfg1.N) : Memref sig .tc .vmem S3000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3000x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)

theorem hA1_of (t : Fin cfg1.N) (h : t.val = 0) : cond1_0 (grid1.coords t) :=
  (hcond1_0 t).mpr (by rw [h])
theorem hB1_of (t : Fin cfg1.N) (h : t.val ≠ 0) : ¬cond1_0 (grid1.coords t) := fun hc => by
  have h1 := (hcond1_0 t).mp hc
  have hN : t.val < 40 := lt_of_lt_of_eq t.isLt (show cfg1.N = 40 from N_1)
  omega

/-! ## What the outputs and the scratch rows hold after each point -/

/-- After the body at position `n`: output windows 4, 5, 6, then scratch rows 0, 1. The first point runs the zeroing
    case from the point's blocks; every later point runs the other case from its blocks and from what the point
    before left in the two scratch rows. -/
def outsAt1 (c : Dev nD) : (n : ℕ) → n < cfg1.N → Vec F S3000x64 .f32 × Vec F S1x64 .f32 × Vec F S1x64 .f32 × Vec F S1x64 .f32 × Vec F S1x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) (hA1_of ⟨0, hn⟩ rfl) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) (hA1_of ⟨0, hn⟩ rfl) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) (hA1_of ⟨0, hn⟩ rfl) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) (hA1_of ⟨0, hn⟩ rfl) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) (hA1_of ⟨0, hn⟩ rfl) (iblk1 V c 0 ⟨0, hn⟩) (iblk1 V c 1 ⟨0, hn⟩) (iblk1 V c 2 ⟨0, hn⟩) (iblk1 V c 3 ⟨0, hn⟩))
  | n + 1, hn => (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (hB1_of ⟨n + 1, hn⟩ (Nat.succ_ne_zero n)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (hB1_of ⟨n + 1, hn⟩ (Nat.succ_ne_zero n)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (hB1_of ⟨n + 1, hn⟩ (Nat.succ_ne_zero n)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (hB1_of ⟨n + 1, hn⟩ (Nat.succ_ne_zero n)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (hB1_of ⟨n + 1, hn⟩ (Nat.succ_ne_zero n)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2)

/-- `outsAt1` at the first point. -/
theorem outsAt1_A (c : Dev nD) (t : Fin cfg1.N) (h0 : t.val = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t)) := by
  obtain ⟨n, hn⟩ := t
  cases n with
  | zero => exact rfl
  | succ n => exact absurd h0 (Nat.succ_ne_zero n)

/-- `outsAt1` at a later point, over what the point before left. -/
theorem outsAt1_B (c : Dev nD) (t : Fin cfg1.N) (h0 : t.val ≠ 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact rfl

/-! ## The invariant -/

/-- The region invariant before position `n`: before the first point the class's (every scoped buffer that is no
    staging buffer at anything, the generator register at some state); afterwards the same with the two scratch rows
    at what the point before left in them. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

/-- The proof data of pipeline 1 on core `c`: the arrays as the region finds them; after the body at point `t` each
    input's buffer at its block and each output's at `outsAt1`'s component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 4800000 in
/-- The body at any point. The inputs' memrefs hold their blocks; the point is the first or a later one, and that
    case's run applies: the invariant hands the body the two scratch rows (at anything at the first point, at what the
    point before left afterwards) and takes them back at this point's contents; each output buffer ends at its pieces
    read back, because the pieces cover it; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6]
  by_cases hz : t.val = 0
  ·
    rw [outsAt1_A V c t hz]
    unfold out1_A_4 out1_A_5 out1_A_6 sout1_A_0 sout1_A_1; (try dsimp only)
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t hz) (iblk1 V c 0 t) (iblk1 V c 1 t) (iblk1 V c 2 t) (iblk1 V c 3 t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t hz) (iblk1 V c 0 t) (iblk1 V c 1 t) (iblk1 V c 2 t) (iblk1 V c 3 t))
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t hz) (iblk1 V c 0 t) (iblk1 V c 1 t) (iblk1 V c 2 t) (iblk1 V c 3 t))
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t hz) (iblk1 V c 0 t) (iblk1 V c 1 t) (iblk1 V c 2 t) (iblk1 V c 3 t))
    isplitl [H5]
    · unfold owns; iexists _; isplitr
      swap; · iexact H5
      ipureintro; exact View.read_writes_of_cover _ _ _ _ _ (cover1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t hz) (iblk1 V c 0 t) (iblk1 V c 1 t) (iblk1 V c 2 t) (iblk1 V c 3 t))
    unfold owns; iexists _; isplitr
    swap; · iexact H6
    ipureintro; exact View.read_writes_of_cover _ _ _ _ _ (cover1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t hz) (iblk1 V c 0 t) (iblk1 V c 1 t) (iblk1 V c 2 t) (iblk1 V c 3 t))
  ·
    rw [outsAt1_B V c t hz]
    unfold out1_B_4 out1_B_5 out1_B_6 sout1_B_0 sout1_B_1; (try dsimp only)
    rw [PhiS1_castSucc V c t, PhiS1_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t hz) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t hz) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2)
          · unfold owns; iexists _; isplitr
            swap; · iexact HS1
            ipureintro; exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t hz) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t hz) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2)
    isplitl [H5]
    · unfold owns; iexists _; isplitr
      swap; · iexact H5
      ipureintro; exact View.read_writes_of_cover _ _ _ _ _ (cover1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t hz) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2)
    unfold owns; iexists _; isplitr
    swap; · iexact H6
    ipureintro; exact View.read_writes_of_cover _ _ _ _ _ (cover1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t hz) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: what the scratch rows hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 40 := N_1; omega)

end Region

end Cert.Kernel.Hand

end
-- ==== Proof.K.Region2.lean ====
/- Region 2 of @main (custom_call 2, pipeline 2): the pointwise kernel `cc2__bn_relu_kernel`,
   out = max(x * scale + shift, 0) on one block of rows, scale and shift single rows broadcast down the block.
   Everything is stated at a parameter `V`, the TensorCore's buffer contents when the region is entered, and at any
   float instance `F`: each window's block at a grid point read off its array, what the body leaves in the output
   window's buffer (its one store over the whole block), the body's triple, the pipeline's proof data and the body
   obligation at every point. The three inputs are left in place by the body; whether or not a window is fetched
   at a point its buffer holds that point's block, since an unfetched window's block index has not moved. -/
import proofs.«143519_j50869592655552_1_alg».proof.Proof.Gen.Kernel.Launch
import proofs.«143519_j50869592655552_1_alg».proof.Proof.Gen.Kernel.Skeleton
import proofs.«143519_j50869592655552_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole block of rows, and the whole single row: the only rectangles the body touches. -/
abbrev r2_0 : Rect S3000x64 := Rect.unit (s := S3000x64) ![0, 0] S3000x64.size inb_S3000x64_S3000x64_0_0
abbrev r2_1 : Rect S1x64 := Rect.unit (s := S1x64) ![0, 0] S1x64.size inb_S1x64_S1x64_0_0

/-! ## What the body leaves in the output window's buffer -/

/-- Window 3's staging buffer after the body, from the input windows' blocks: its one store, of the payload
    max(x * scale + shift, 0) of the three loads, over the whole block. -/
def out2_3 (x0 : Vec F S3000x64 .f32) (x1 : Vec F S1x64 .f32) (x2 : Vec F S1x64 .f32) : Vec F S3000x64 .f32 :=
  View.canon [⟨r2_0, k2_pay1 (View.ld x0 r2_0) (View.ld x1 r2_1) (View.ld x2 r2_1)⟩]

/-- The one store tiles the buffer, so it covers it. -/
theorem cover2_3 (p0 : Vec F S3000x64 .f32) (y : S3000x64.Idx) :
    ∃ pc ∈ ([⟨r2_0, p0⟩] : List (View.Piece (Elt F) S3000x64 .f32)), y ∈ pc.1.set :=
  View.cover_of_tiled [⟨r2_0, p0⟩] S3000x64.size (by rfl) y

/-! ## The body's triple -/

set_option maxHeartbeats 1000000 in
/-- The kernel body on whole staging memrefs, the inputs' at read contents and the output's at anything, runs to the
    continuation holding the inputs' as they were and the output's at `out2_3` of the inputs'. -/
theorem sound_kernel2 (c : Dev nD) (E : Set ℕ) (i : grid2.Coords)
    (arg0 : Memref sig .tc .vmem S3000x64 .f32) (harg0 : arg0.IsWhole) (arg1 : Memref sig .tc .vmem S1x64 .f32) (harg1 : arg1.IsWhole)
    (arg2 : Memref sig .tc .vmem S1x64 .f32) (harg2 : arg2.IsWhole) (arg3 : Memref sig .tc .vmem S3000x64 .f32) (harg3 : arg3.IsWhole)
    (x0 : Vec F S3000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__bn_relu_kernel i arg0 harg0 arg1 harg1 arg2 harg2 arg3 harg3) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- The invariant is the class's at both ends of the grid. -/
theorem hin2 (c : Dev nD) : Pipeline.ΦA spec2 c ⊢ (dat2 V c).Φ 0 := .rfl
theorem hout2 (c : Dev nD) : (dat2 V c).Φ (Fin.last cfg2.N) ⊢ Pipeline.ΦA spec2 c := .rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Fold1.lean ====
/-
  The buffer contents at each boundary between two items of the kernel program's @main, as a fold from the launch
  memory. @main is sixteen items: the host stretch hostOps0, region 0, hostOps1, region 1, hostOps2, regions 2 and 3,
  hostOps4, region 4, hostOps5, regions 5 and 6, hostOps7, region 7, hostOps8, region 8. `Wi` is what a core's buffers hold
  after the first `i` items: a stretch applies its operations; a region leaves its input arrays as entered and each
  output array at what its write-backs leave. This module: the first six items (the edge MLP's three regions).
-/
import proofs.«143519_j50869592655552_1_alg».proof.Proof.K.HostFacts
import proofs.«143519_j50869592655552_1_alg».proof.Proof.K.Region0
import proofs.«143519_j50869592655552_1_alg».proof.Proof.K.Region1
import proofs.«143519_j50869592655552_1_alg».proof.Proof.K.Region2

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0`. -/
def W1 : Dev nD → Valuation τ sig (Elt F) := fun c => StableHlo.after hostOps0 (W0 m ρ c)
/-- Region 0's entry contents, read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2x : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2x m ρ c (Pipeline.arrRef spec0 w) :=
  (W2_arr m ρ c w).symm
theorem hrest0 (c : Dev nD) : ∀ b, b ∉ Finset.univ.image (Pipeline.arrRef spec0) → V2x m ρ c b = V1 m ρ c b :=
  fun b hb => W2_of_ne m ρ c b fun w e => hb (Finset.mem_image.mpr ⟨w, Finset.mem_univ _, e⟩)
/-- After `hostOps1`. -/
def W3 : Dev nD → Valuation τ sig (Elt F) := fun c => StableHlo.after hostOps1 (W2 m ρ c)
/-- Region 1's entry contents, read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
abbrev V4x : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4x m ρ c (Pipeline.arrRef spec1 w) :=
  (W4_arr m ρ c w).symm
theorem hrest1 (c : Dev nD) : ∀ b, b ∉ Finset.univ.image (Pipeline.arrRef spec1) → V4x m ρ c b = V3 m ρ c b :=
  fun b hb => W4_of_ne m ρ c b fun w e => hb (Finset.mem_image.mpr ⟨w, Finset.mem_univ _, e⟩)
/-- After `hostOps2`. -/
def W5 : Dev nD → Valuation τ sig (Elt F) := fun c => StableHlo.after hostOps2 (W4 m ρ c)
/-- Region 2's entry contents, read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
abbrev V6x : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6x m ρ c (Pipeline.arrRef spec2 w) :=
  (W6_arr m ρ c w).symm
theorem hrest2 (c : Dev nD) : ∀ b, b ∉ Finset.univ.image (Pipeline.arrRef spec2) → V6x m ρ c b = V5 m ρ c b :=
  fun b hb => W6_of_ne m ρ c b fun w e => hb (Finset.mem_image.mpr ⟨w, Finset.mem_univ _, e⟩)

end Cert.Kernel.Hand

end
-- ==== Proof.K.Region3RunA.lean ====
import proofs.«143519_j50869592655552_1_alg».proof.Proof.Gen.Kernel.Launch
import proofs.«143519_j50869592655552_1_alg».proof.Proof.Gen.Kernel.Skeleton
import proofs.«143519_j50869592655552_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 3 (the linear layer with running column sums): what the two control cases share, and the first case

The kernel at grid point `i` multiplies the point's 5000 rows of the input by the weight matrix, stores the
product into the output window, adds the product's column sums and the column sums of its squares to two
`[1,128]` accumulators kept in scratch memory between points (zeroed when `i = 0`), and copies the two
accumulators into the last two output windows. -/

section Shared
-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input rows' staging buffer holds the point's block of rows at every point, for any proof data over the
    entry contents whose body leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight matrix's staging buffer, fetched once, holds the (one) block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end Shared

/-! ## The body's branch condition -/

/-- The condition of the body's one conditional, from the grid coordinate: "this is the first point". -/
abbrev cond3_0 (i : grid3.Coords) : Prop := (Scalar.cmpi .ne (Scalar.extui (Scalar.cmpi .eq (BitVec.ofNat 32 (i 0).val) 0#32)) 0#32) = 1#1
/-- It holds at point 0 only — decided over the 30 points. -/
theorem hcond3_0 : ∀ t : Fin cfg3.N, cond3_0 (grid3.coords t) ↔ t.val % 30 = 0 :=
  (by decide +kernel : ∀ t : Fin grid3.N, cond3_0 (grid3.coords t) ↔ t.val % 30 = 0)

/-! ## The memrefs the body is called with -/

/-- One staging buffer of each output window, through which its contents are stated. -/
abbrev VO3_2 : View sig .tc .vmem S5000x128 .f32 := (Memref.whole cc3_stg2_0 : Memref sig .tc .vmem S5000x128 .f32).view
abbrev VO3_3 : View sig .tc .vmem S1x128 .f32 := (Memref.whole cc3_stg3_0 : Memref sig .tc .vmem S1x128 .f32).view
abbrev VO3_4 : View sig .tc .vmem S1x128 .f32 := (Memref.whole cc3_stg4_0 : Memref sig .tc .vmem S1x128 .f32).view
/-- Each window's current staging memref at point `t`, and its wholeness. -/
abbrev ms3_0 (t : Fin cfg3.N) : Memref sig .tc .vmem S5000x320 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S320x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
/-- The two accumulators: whole scoped buffers of the kernel's own, passed beside the windows. -/
abbrev scM3_0 : Memref sig .tc .vmem S1x128 .f32 := Memref.whole cc3_scratch0
abbrev scM3_1 : Memref sig .tc .vmem S1x128 .f32 := Memref.whole cc3_scratch1
abbrev VS3_0 : View sig .tc .vmem S1x128 .f32 := scM3_0.view
abbrev VS3_1 : View sig .tc .vmem S1x128 .f32 := scM3_1.view

/-- The class invariant with the two accumulators taken out of the scoped rest as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-! ## The first point's run -/

set_option maxHeartbeats 1000000 in
/-- What the body's stores leave in each output's staging memref and in each accumulator, as pieces (last first), AT
    THE FIRST POINT (the conditional taken: the accumulators are zeroed first), with the proof that on whole
    memrefs — the inputs' at their contents, everything else at anything — the body runs to the continuation holding
    the inputs' as they were and every other buffer with its pieces written. The pieces are what the run finds. -/
noncomputable def kernelRun3_A (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i)
    (x0 : Vec F S5000x320 .f32) (x1 : Vec F S320x128 .f32) :
    Σ' (L2 : List (View.Piece (Elt F) S5000x128 .f32)) (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__linear_accum_kernel i arg1 harg1 arg2 harg2 arg3 harg3 arg4 harg4 arg5 harg5 arg6 harg6 arg7 harg7) K } := by
  refine ⟨?_, ?_, ?_, ?_, ?_, fun E K => ?run⟩
  case run =>
    simp only [cc3__linear_accum_kernel_eq_skeleton]; unfold cc3__linear_accum_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Hand

end
-- ==== Proof.K.Region3RunB.lean ====
import proofs.«143519_j50869592655552_1_alg».proof.Proof.K.Region3RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 3: the run at every later point

The conditional is not taken: the two accumulators enter at what the point before left in them. -/

set_option maxHeartbeats 1000000 in
/-- What the body's stores leave in each output's staging memref and in each accumulator, as pieces (last first), AT A
    POINT AFTER THE FIRST (the conditional not taken), the accumulators entering at known contents `xs0`, `xs1`. -/
noncomputable def kernelRun3_B (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i)
    (x0 : Vec F S5000x320 .f32) (x1 : Vec F S320x128 .f32) (xs0 : Vec F S1x128 .f32) (xs1 : Vec F S1x128 .f32) :
    Σ' (L2 : List (View.Piece (Elt F) S5000x128 .f32)) (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__linear_accum_kernel i arg1 harg1 arg2 harg2 arg3 harg3 arg4 harg4 arg5 harg5 arg6 harg6 arg7 harg7) K } := by
  refine ⟨?_, ?_, ?_, ?_, ?_, fun E K => ?run⟩
  case run =>
    simp only [cc3__linear_accum_kernel_eq_skeleton]; unfold cc3__linear_accum_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Hand

end
-- ==== Proof.K.Region3.lean ====
import proofs.«143519_j50869592655552_1_alg».proof.Proof.K.Region3RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 3 (the linear layer with running column sums): the proof data and the body obligation

At a PARAMETER `V` — the TensorCore's buffer contents when the region is entered. What the two accumulators hold
after point `t` is one pair of functions of the blocks of the points up to `t`, by recursion on the point; the two
windows of sums hold the pair's current value after every point, and the output window holds the point's own product. -/

/-- The pieces the first point' run leaves in the output window cover it (each store is of the whole block). -/
theorem cover3_A_2 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i) (x0 : Vec F S5000x320 .f32) (x1 : Vec F S320x128 .f32) (y : S5000x128.Idx) :
    ∃ pc ∈ (kernelRun3_A c i arg1 harg1 arg2 harg2 arg3 harg3 arg4 harg4 arg5 harg5 arg6 harg6 arg7 harg7 hc0 x0 x1).1, y ∈ pc.1.set :=
  View.cover_of_tiledL (kernelRun3_A c i arg1 harg1 arg2 harg2 arg3 harg3 arg4 harg4 arg5 harg5 arg6 harg6 arg7 harg7 hc0 x0 x1).1 S5000x128.size (by sl_kernel_rfl) y

/-- The pieces the first point' run leaves in the column-sum window cover it (each store is of the whole block). -/
theorem cover3_A_3 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i) (x0 : Vec F S5000x320 .f32) (x1 : Vec F S320x128 .f32) (y : S1x128.Idx) :
    ∃ pc ∈ (kernelRun3_A c i arg1 harg1 arg2 harg2 arg3 harg3 arg4 harg4 arg5 harg5 arg6 harg6 arg7 harg7 hc0 x0 x1).2.1, y ∈ pc.1.set :=
  View.cover_of_tiledL (kernelRun3_A c i arg1 harg1 arg2 harg2 arg3 harg3 arg4 harg4 arg5 harg5 arg6 harg6 arg7 harg7 hc0 x0 x1).2.1 S1x128.size (by sl_kernel_rfl) y

/-- The pieces the first point' run leaves in the window of the column sums of squares cover it (each store is of the whole block). -/
theorem cover3_A_4 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i) (x0 : Vec F S5000x320 .f32) (x1 : Vec F S320x128 .f32) (y : S1x128.Idx) :
    ∃ pc ∈ (kernelRun3_A c i arg1 harg1 arg2 harg2 arg3 harg3 arg4 harg4 arg5 harg5 arg6 harg6 arg7 harg7 hc0 x0 x1).2.2.1, y ∈ pc.1.set :=
  View.cover_of_tiledL (kernelRun3_A c i arg1 harg1 arg2 harg2 arg3 harg3 arg4 harg4 arg5 harg5 arg6 harg6 arg7 harg7 hc0 x0 x1).2.2.1 S1x128.size (by sl_kernel_rfl) y

/-- The pieces the first point' run leaves in the first accumulator cover it (each store is of the whole block). -/
theorem scover3_A_0 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i) (x0 : Vec F S5000x320 .f32) (x1 : Vec F S320x128 .f32) (y : S1x128.Idx) :
    ∃ pc ∈ (kernelRun3_A c i arg1 harg1 arg2 harg2 arg3 harg3 arg4 harg4 arg5 harg5 arg6 harg6 arg7 harg7 hc0 x0 x1).2.2.2.1, y ∈ pc.1.set :=
  View.cover_of_tiledL (kernelRun3_A c i arg1 harg1 arg2 harg2 arg3 harg3 arg4 harg4 arg5 harg5 arg6 harg6 arg7 harg7 hc0 x0 x1).2.2.2.1 S1x128.size (by sl_kernel_rfl) y

/-- The pieces the first point' run leaves in the second accumulator cover it (each store is of the whole block). -/
theorem scover3_A_1 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i) (x0 : Vec F S5000x320 .f32) (x1 : Vec F S320x128 .f32) (y : S1x128.Idx) :
    ∃ pc ∈ (kernelRun3_A c i arg1 harg1 arg2 harg2 arg3 harg3 arg4 harg4 arg5 harg5 arg6 harg6 arg7 harg7 hc0 x0 x1).2.2.2.2.1, y ∈ pc.1.set :=
  View.cover_of_tiledL (kernelRun3_A c i arg1 harg1 arg2 harg2 arg3 harg3 arg4 harg4 arg5 harg5 arg6 harg6 arg7 harg7 hc0 x0 x1).2.2.2.2.1 S1x128.size (by sl_kernel_rfl) y

/-- What the first point leaves: the output window's block, the two windows of sums, the two accumulators — each its
    pieces read back. -/
def res3_A (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i) (x0 : Vec F S5000x320 .f32) (x1 : Vec F S320x128 .f32) : Vec F S5000x128 .f32 × Vec F S1x128 .f32 × Vec F S1x128 .f32 × Vec F S1x128 .f32 × Vec F S1x128 .f32 :=
  (VO3_2.read (Elt F) (VO3_2.writes (Elt F) VO3_2.junk (kernelRun3_A c i arg1 harg1 arg2 harg2 arg3 harg3 arg4 harg4 arg5 harg5 arg6 harg6 arg7 harg7 hc0 x0 x1).1),
   VO3_3.read (Elt F) (VO3_3.writes (Elt F) VO3_3.junk (kernelRun3_A c i arg1 harg1 arg2 harg2 arg3 harg3 arg4 harg4 arg5 harg5 arg6 harg6 arg7 harg7 hc0 x0 x1).2.1),
   VO3_4.read (Elt F) (VO3_4.writes (Elt F) VO3_4.junk (kernelRun3_A c i arg1 harg1 arg2 harg2 arg3 harg3 arg4 harg4 arg5 harg5 arg6 harg6 arg7 harg7 hc0 x0 x1).2.2.1),
   VS3_0.read (Elt F) (VS3_0.writes (Elt F) VS3_0.junk (kernelRun3_A c i arg1 harg1 arg2 harg2 arg3 harg3 arg4 harg4 arg5 harg5 arg6 harg6 arg7 harg7 hc0 x0 x1).2.2.2.1),
   VS3_1.read (Elt F) (VS3_1.writes (Elt F) VS3_1.junk (kernelRun3_A c i arg1 harg1 arg2 harg2 arg3 harg3 arg4 harg4 arg5 harg5 arg6 harg6 arg7 harg7 hc0 x0 x1).2.2.2.2.1))

/-- The pieces the later points' run leaves in the output window cover it (each store is of the whole block). -/
theorem cover3_B_2 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i) (x0 : Vec F S5000x320 .f32) (x1 : Vec F S320x128 .f32) (xs0 : Vec F S1x128 .f32) (xs1 : Vec F S1x128 .f32) (y : S5000x128.Idx) :
    ∃ pc ∈ (kernelRun3_B c i arg1 harg1 arg2 harg2 arg3 harg3 arg4 harg4 arg5 harg5 arg6 harg6 arg7 harg7 hc0 x0 x1 xs0 xs1).1, y ∈ pc.1.set :=
  View.cover_of_tiledL (kernelRun3_B c i arg1 harg1 arg2 harg2 arg3 harg3 arg4 harg4 arg5 harg5 arg6 harg6 arg7 harg7 hc0 x0 x1 xs0 xs1).1 S5000x128.size (by sl_kernel_rfl) y

/-- The pieces the later points' run leaves in the column-sum window cover it (each store is of the whole block). -/
theorem cover3_B_3 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i) (x0 : Vec F S5000x320 .f32) (x1 : Vec F S320x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 hc0 x0 x1 xs0 xs1).2.1, y ∈ pc.1.set :=
  View.cover_of_tiledL (kernelRun3_B c i arg1 harg1 arg2 harg2 arg3 harg3 arg4 harg4 arg5 harg5 arg6 harg6 arg7 harg7 hc0 x0 x1 xs0 xs1).2.1 S1x128.size (by sl_kernel_rfl) y

/-- The pieces the later points' run leaves in the window of the column sums of squares cover it (each store is of the whole block). -/
theorem cover3_B_4 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i) (x0 : Vec F S5000x320 .f32) (x1 : Vec F S320x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 hc0 x0 x1 xs0 xs1).2.2.1, y ∈ pc.1.set :=
  View.cover_of_tiledL (kernelRun3_B c i arg1 harg1 arg2 harg2 arg3 harg3 arg4 harg4 arg5 harg5 arg6 harg6 arg7 harg7 hc0 x0 x1 xs0 xs1).2.2.1 S1x128.size (by sl_kernel_rfl) y

/-- The pieces the later points' run leaves in the first accumulator cover it (each store is of the whole block). -/
theorem scover3_B_0 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i) (x0 : Vec F S5000x320 .f32) (x1 : Vec F S320x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 hc0 x0 x1 xs0 xs1).2.2.2.1, y ∈ pc.1.set :=
  View.cover_of_tiledL (kernelRun3_B c i arg1 harg1 arg2 harg2 arg3 harg3 arg4 harg4 arg5 harg5 arg6 harg6 arg7 harg7 hc0 x0 x1 xs0 xs1).2.2.2.1 S1x128.size (by sl_kernel_rfl) y

/-- The pieces the later points' run leaves in the second accumulator cover it (each store is of the whole block). -/
theorem scover3_B_1 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i) (x0 : Vec F S5000x320 .f32) (x1 : Vec F S320x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 hc0 x0 x1 xs0 xs1).2.2.2.2.1, y ∈ pc.1.set :=
  View.cover_of_tiledL (kernelRun3_B c i arg1 harg1 arg2 harg2 arg3 harg3 arg4 harg4 arg5 harg5 arg6 harg6 arg7 harg7 hc0 x0 x1 xs0 xs1).2.2.2.2.1 S1x128.size (by sl_kernel_rfl) y

/-- What the a later point leaves: the output window's block, the two windows of sums, the two accumulators — each its
    pieces read back. -/
def res3_B (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i) (x0 : Vec F S5000x320 .f32) (x1 : Vec F S320x128 .f32) (xs0 : Vec F S1x128 .f32) (xs1 : Vec F S1x128 .f32) : Vec F S5000x128 .f32 × Vec F S1x128 .f32 × Vec F S1x128 .f32 × Vec F S1x128 .f32 × Vec F S1x128 .f32 :=
  (VO3_2.read (Elt F) (VO3_2.writes (Elt F) VO3_2.junk (kernelRun3_B c i arg1 harg1 arg2 harg2 arg3 harg3 arg4 harg4 arg5 harg5 arg6 harg6 arg7 harg7 hc0 x0 x1 xs0 xs1).1),
   VO3_3.read (Elt F) (VO3_3.writes (Elt F) VO3_3.junk (kernelRun3_B c i arg1 harg1 arg2 harg2 arg3 harg3 arg4 harg4 arg5 harg5 arg6 harg6 arg7 harg7 hc0 x0 x1 xs0 xs1).2.1),
   VO3_4.read (Elt F) (VO3_4.writes (Elt F) VO3_4.junk (kernelRun3_B c i arg1 harg1 arg2 harg2 arg3 harg3 arg4 harg4 arg5 harg5 arg6 harg6 arg7 harg7 hc0 x0 x1 xs0 xs1).2.2.1),
   VS3_0.read (Elt F) (VS3_0.writes (Elt F) VS3_0.junk (kernelRun3_B c i arg1 harg1 arg2 harg2 arg3 harg3 arg4 harg4 arg5 harg5 arg6 harg6 arg7 harg7 hc0 x0 x1 xs0 xs1).2.2.2.1),
   VS3_1.read (Elt F) (VS3_1.writes (Elt F) VS3_1.junk (kernelRun3_B c i arg1 harg1 arg2 harg2 arg3 harg3 arg4 harg4 arg5 harg5 arg6 harg6 arg7 harg7 hc0 x0 x1 xs0 xs1).2.2.2.2.1))

section Region
variable (V : (c : Dev nD) → (b : Ref sig .tc) → Buf (Elt F) ((c : Thread nD τ).loc b))

/-! ## What the outputs and the accumulators hold after each point -/

/-- THE ACCUMULATION. After the body at position `n`: (the output window's buffer, the two sums windows' buffers, the
    two accumulators). The first point zeroes the accumulators before adding; every later point adds to what the
    point before left in them. -/
def outsAt3 (c : Dev nD) : (n : ℕ) → n < cfg3.N → Vec F S5000x128 .f32 × Vec F S1x128 .f32 × Vec F S1x128 .f32 × Vec F S1x128 .f32 × Vec F S1x128 .f32
  | 0, hn => res3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) ((hcond3_0 ⟨0, hn⟩).mpr (Nat.zero_mod _)) (iblk3 V c 0 ⟨0, hn⟩) (iblk3 V c 1 ⟨0, hn⟩)
  | n + 1, hn => res3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _)
      (fun h => by have h' := (hcond3_0 ⟨n + 1, hn⟩).mp h; have hN : n + 1 < 30 := lt_of_lt_of_eq hn (show cfg3.N = 30 from N_3); (try dsimp only at h'); omega)
      (iblk3 V c 0 ⟨n + 1, hn⟩) (iblk3 V c 1 ⟨n + 1, hn⟩) (outsAt3 c n (Nat.lt_of_succ_lt hn)).2.2.2.1 (outsAt3 c n (Nat.lt_of_succ_lt hn)).2.2.2.2

/-- `outsAt3` at the first point. -/
theorem outsAt3_A (c : Dev nD) (t : Fin cfg3.N) (h0 : t.val = 0) (hc : cond3_0 (grid3.coords t)) :
    outsAt3 V c t.val t.isLt = res3_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) hc (iblk3 V c 0 t) (iblk3 V c 1 t) := by
  obtain ⟨n, hn⟩ := t
  cases n with
  | zero => rfl
  | succ n => exact absurd h0 (Nat.succ_ne_zero n)

/-- `outsAt3` at a later point: over what the point before left in the accumulators. -/
theorem outsAt3_B (c : Dev nD) (t : Fin cfg3.N) (h0 : t.val ≠ 0) (hc : ¬cond3_0 (grid3.coords t)) :
    outsAt3 V c t.val t.isLt = res3_B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) hc (iblk3 V c 0 t) (iblk3 V c 1 t)
      (outsAt3 V c (t.val - 1) (Nat.lt_of_le_of_lt (Nat.sub_le _ _) t.isLt)).2.2.2.1 (outsAt3 V c (t.val - 1) (Nat.lt_of_le_of_lt (Nat.sub_le _ _) t.isLt)).2.2.2.2 := by
  obtain ⟨n, hn⟩ := t
  cases n with
  | zero => exact absurd rfl h0
  | succ n => rfl

/-- The region invariant before position `n`: before the first point the class's (every scoped buffer at anything);
    afterwards the two accumulators at what the point before left in them, the other scoped buffers at anything, and the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The pipeline's proof data -/

/-- The proof data of pipeline 3 on core `c`: the arrays as the region finds them; after the body at point `t` each
    input's buffer at its block, the output window's at the point's product, the two sums windows' at the accumulators'
    current value; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2.1
    | ⟨4, _⟩ => (outsAt3 V c t.val t.isLt).2.2.1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2.1 := by dsimp only [dat3]
theorem after3_4 (c : Dev nD) (t : Fin cfg3.N) : (dat3 V c).after 4 t = (outsAt3 V c t.val t.isLt).2.2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 4800000 in
/-- The body at any point: the inputs' memrefs hold their blocks; the first point's run takes the accumulators at
    anything (out of the class invariant), a later point's at what the point before left; either way the invariant takes
    them back at this point's contents, and every output buffer is left at its pieces read back. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2, after3_3, after3_4]
  have hN : t.val < 30 := lt_of_lt_of_eq t.isLt (show cfg3.N = 30 from N_3)
  by_cases h0 : t.val = 0
  · have hc : cond3_0 (grid3.coords t) := (hcond3_0 t).mpr (by rw [h0])
    rw [outsAt3_A V c t h0 hc]
    unfold res3_A; (try dsimp only)
    rw [PhiS3_castSucc V c t, PhiS3_zero V c _ _ h0, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((kernelRun3_A c (grid3.coords t) _ _ _ _ _ _ _ _ _ _ _ _ _ _ hc (iblk3 V c 0 t) (iblk3 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, ⟨%e2, H2⟩, ⟨%e3, H3⟩, ⟨%e4, H4⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _ _ _ _)
          · unfold owns; iexists _; isplitr
            swap; · iexact HS1
            ipureintro; exact View.read_writes_of_cover _ _ _ _ _ (scover3_A_1 c _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover3_A_2 c _ _ _ _ _ _ _ _ _ _ _ _ _ _ _ _ _ _)
    isplitl [H3]
    · unfold owns; iexists _; isplitr
      swap; · iexact H3
      ipureintro; exact View.read_writes_of_cover _ _ _ _ _ (cover3_A_3 c _ _ _ _ _ _ _ _ _ _ _ _ _ _ _ _ _ _)
    unfold owns; iexists _; isplitr
    swap; · iexact H4
    ipureintro; exact View.read_writes_of_cover _ _ _ _ _ (cover3_A_4 c _ _ _ _ _ _ _ _ _ _ _ _ _ _ _ _ _ _)
  · have hc : ¬cond3_0 (grid3.coords t) := fun h => h0 (by have h' := (hcond3_0 t).mp h; omega)
    rw [outsAt3_B V c t h0 hc]
    unfold res3_B; (try dsimp only)
    rw [PhiS3_castSucc V c t, PhiS3_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((kernelRun3_B c (grid3.coords t) _ _ _ _ _ _ _ _ _ _ _ _ _ _ hc (iblk3 V c 0 t) (iblk3 V c 1 t) _ _).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, ⟨%e2, H2⟩, ⟨%e3, H3⟩, ⟨%e4, H4⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover3_B_0 c _ _ _ _ _ _ _ _ _ _ _ _ _ _ _ _ _ _ _ _)
          · unfold owns; iexists _; isplitr
            swap; · iexact HS1
            ipureintro; exact View.read_writes_of_cover _ _ _ _ _ (scover3_B_1 c _ _ _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover3_B_2 c _ _ _ _ _ _ _ _ _ _ _ _ _ _ _ _ _ _ _ _)
    isplitl [H3]
    · unfold owns; iexists _; isplitr
      swap; · iexact H3
      ipureintro; exact View.read_writes_of_cover _ _ _ _ _ (cover3_B_3 c _ _ _ _ _ _ _ _ _ _ _ _ _ _ _ _ _ _ _ _)
    unfold owns; iexists _; isplitr
    swap; · iexact H4
    ipureintro; exact View.read_writes_of_cover _ _ _ _ _ (cover3_B_4 c _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulators' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout3 (c : Dev nD) : (dat3 V c).Φ (Fin.last cfg3.N) ⊢ Pipeline.ΦA spec3 c :=
  Phi_out3 V c _ (by rw [Fin.val_last]; have : cfg3.N = 30 := N_3; omega)

end Region

end Cert.Kernel.Hand

end
-- ==== Proof.K.Region4RunA.lean ====
import proofs.«143519_j50869592655552_1_alg».proof.Proof.Gen.Kernel.Launch
import proofs.«143519_j50869592655552_1_alg».proof.Proof.Gen.Kernel.Skeleton
import proofs.«143519_j50869592655552_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the batch-norm / relu / linear kernel with running column sums — what the runs share

The kernel at grid point `i` (30 points, one axis): at the first point it zeroes two scratch rows; at every point it
forms `h = max (x * scale + shift) 0` on a block of 5000 rows, multiplies by the weights into a fresh product block
which it stores, adds the product's column sums and the column sums of its squares to the two scratch rows, and copies
the scratch rows into the two small output windows. -/

/-- The `scf.if` of the body: "this is the first grid point", as the body computes it from the coordinate. -/
abbrev cond4_0 (i : grid4.Coords) : Prop := (Scalar.cmpi .ne (Scalar.extui (Scalar.cmpi .eq (BitVec.ofNat 32 (i 0).val) 0#32)) 0#32) = 1#1
/-- Over the grid it holds at point 0 and nowhere else. -/
theorem hcond4_0 : ∀ t : Fin cfg4.N, cond4_0 (grid4.coords t) ↔ t.val = 0 :=
  (by decide +kernel : ∀ t : Fin grid4.N, cond4_0 (grid4.coords t) ↔ t.val = 0)

/-- The two scratch operands as memrefs: whole buffers of the kernel's own, passed beside the windows. -/
abbrev scM4_0 : Memref sig .tc .vmem S1x64 .f32 := Memref.whole cc4_scratch0
abbrev scM4_1 : Memref sig .tc .vmem S1x64 .f32 := Memref.whole cc4_scratch1
/-- Views through which buffer contents are stated (which buffer of the shape is immaterial). -/
abbrev VS4_0 : View sig .tc .vmem S1x64 .f32 := scM4_0.view
abbrev VO4_4 : View sig .tc .vmem S5000x64 .f32 := (Memref.whole cc4_stg4_0 : Memref sig .tc .vmem S5000x64 .f32).view

set_option maxHeartbeats 4000000 in
/-- The whole body in the case "first grid point": on whole memrefs, the four inputs at their blocks, the three
    outputs at any contents and the two scratch rows at any contents (the case overwrites them with zeros first), the body
    runs to the continuation with the inputs unchanged and each output and scratch memref holding the listed stores
    written over what it held. The lists are found by running the body; they are the first components. -/
noncomputable def kernelRun4_A (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__bn_relu_linear_accum_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__bn_relu_linear_accum_kernel_eq_skeleton]; unfold cc4__bn_relu_linear_accum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.Region4RunB.lean ====
import proofs.«143519_j50869592655552_1_alg».proof.Proof.K.Region4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the body at a grid point after the first -/

set_option maxHeartbeats 4000000 in
/-- The whole body in the case "a later grid point": on whole memrefs, the four inputs at their blocks, the three
    outputs at any contents and the two scratch rows at what the point before left, the body
    runs to the continuation with the inputs unchanged and each output and scratch memref holding the listed stores
    written over what it held. The lists are found by running the body; they are the first components. -/
noncomputable def kernelRun4_B (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__bn_relu_linear_accum_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__bn_relu_linear_accum_kernel_eq_skeleton]; unfold cc4__bn_relu_linear_accum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.Region4.lean ====
import proofs.«143519_j50869592655552_1_alg».proof.Proof.K.Region4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: what its windows and scratch rows hold point by point, the proof data, the body obligation

Everything is stated at a parameter `V`: the TensorCore's buffer contents when the region is entered. -/

/-- The stores case A makes into output window 4's staging buffer tile it, so they cover it. -/
theorem cover4_A_4 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) (y : S5000x64.Idx) :
    ∃ pc ∈ (kernelRun4_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).1 S5000x64.size (by sl_kernel_rfl) y

/-- What case A leaves in output window 4's staging buffer: its stores read back (over contents that, being covered, do not matter). -/
def out4_A_4 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) : Vec F S5000x64 .f32 :=
  VO4_4.read (Elt F) (VO4_4.writes (Elt F) VO4_4.junk (kernelRun4_A c i arg1 harg1 arg2 harg2 arg3 harg3 arg4 harg4 arg5 harg5 arg6 harg6 arg7 harg7 arg8 harg8 arg9 harg9 hc0 x0 x1 x2 x3).1)

/-- The stores case A makes into output window 5's staging buffer tile it, so they cover it. -/
theorem cover4_A_5 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) (y : S1x64.Idx) :
    ∃ pc ∈ (kernelRun4_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.1 S1x64.size (by sl_kernel_rfl) y

/-- What case A leaves in output window 5's staging buffer: its stores read back (over contents that, being covered, do not matter). -/
def out4_A_5 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 x0 x1 x2 x3).2.1)

/-- The stores case A makes into output window 6's staging buffer tile it, so they cover it. -/
theorem cover4_A_6 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) (y : S1x64.Idx) :
    ∃ pc ∈ (kernelRun4_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.2.1 S1x64.size (by sl_kernel_rfl) y

/-- What case A leaves in output window 6's staging buffer: its stores read back (over contents that, being covered, do not matter). -/
def out4_A_6 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 x0 x1 x2 x3).2.2.1)

/-- The stores case A makes into scratch row 0 tile it, so they cover it. -/
theorem scover4_A_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) (y : S1x64.Idx) :
    ∃ pc ∈ (kernelRun4_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.2.2.1 S1x64.size (by sl_kernel_rfl) y

/-- What case A leaves in scratch row 0: its stores read back (over contents that, being covered, do not matter). -/
def sout4_A_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 x0 x1 x2 x3).2.2.2.1)

/-- The stores case A makes into scratch row 1 tile it, so they cover it. -/
theorem scover4_A_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) (y : S1x64.Idx) :
    ∃ pc ∈ (kernelRun4_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.2.2.2.1 S1x64.size (by sl_kernel_rfl) y

/-- What case A leaves in scratch row 1: its stores read back (over contents that, being covered, do not matter). -/
def sout4_A_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 x0 x1 x2 x3).2.2.2.2.1)

/-- The stores case B makes into output window 4's staging buffer tile it, so they cover it. -/
theorem cover4_B_4 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) (y : S5000x64.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).1 S5000x64.size (by sl_kernel_rfl) y

/-- What case B leaves in output window 4's staging buffer: its stores read back (over contents that, being covered, do not matter). -/
def out4_B_4 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) : Vec F S5000x64 .f32 :=
  VO4_4.read (Elt F) (VO4_4.writes (Elt F) VO4_4.junk (kernelRun4_B c i arg1 harg1 arg2 harg2 arg3 harg3 arg4 harg4 arg5 harg5 arg6 harg6 arg7 harg7 arg8 harg8 arg9 harg9 hc0 x0 x1 x2 x3 xs0 xs1).1)

/-- The stores case B makes into output window 5's staging buffer tile it, so they cover it. -/
theorem cover4_B_5 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.1 S1x64.size (by sl_kernel_rfl) y

/-- What case B leaves in output window 5's staging buffer: its stores read back (over contents that, being covered, do not matter). -/
def out4_B_5 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 x0 x1 x2 x3 xs0 xs1).2.1)

/-- The stores case B makes into output window 6's staging buffer tile it, so they cover it. -/
theorem cover4_B_6 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.2.1 S1x64.size (by sl_kernel_rfl) y

/-- What case B leaves in output window 6's staging buffer: its stores read back (over contents that, being covered, do not matter). -/
def out4_B_6 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 x0 x1 x2 x3 xs0 xs1).2.2.1)

/-- The stores case B makes into scratch row 0 tile it, so they cover it. -/
theorem scover4_B_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.2.2.1 S1x64.size (by sl_kernel_rfl) y

/-- What case B leaves in scratch row 0: its stores read back (over contents that, being covered, do not matter). -/
def sout4_B_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 x0 x1 x2 x3 xs0 xs1).2.2.2.1)

/-- The stores case B makes into scratch row 1 tile it, so they cover it. -/
theorem scover4_B_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.2.2.2.1 S1x64.size (by sl_kernel_rfl) y

/-- What case B leaves in scratch row 1: its stores read back (over contents that, being covered, do not matter). -/
def sout4_B_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 x0 x1 x2 x3 xs0 xs1).2.2.2.2.1)

section Region
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is the entry contents and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data
    whose array is the entry contents and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging memref at point `t`, spelt as the pipeline passes it to the body, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)

/-- The class invariant with the two scratch rows split out of the scoped rest as memrefs owned at some contents; the
    other scoped buffers stay unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## What the outputs and the scratch rows hold after each point -/

/-- The five buffers the body writes, after the body at position `n`: the product window, the two small output windows,
    the two scratch rows. At the first point the body starts the scratch rows from zero; at a later point from what the
    point before left in them. -/
def outsAt4 (c : Dev nD) : (n : ℕ) → n < cfg4.N → Vec F S5000x64 .f32 × Vec F S1x64 .f32 × Vec F S1x64 .f32 × Vec F S1x64 .f32 × Vec F S1x64 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩),
      out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩),
      out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩))
  | n + 1, hn => (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2,
      out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2,
      out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2,
      sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2,
      sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)

/-- `outsAt4` at the first point. -/
theorem outsAt4_A (c : Dev nD) (t : Fin cfg4.N) (hz : t.val = 0) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t),
      out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t),
      out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t),
      sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t),
      sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t)) := by
  obtain ⟨n, hn⟩ := t
  cases n with
  | zero => exact rfl
  | succ n => exact absurd hz (Nat.succ_ne_zero n)

/-- `outsAt4` at a later point: over what the point before left in the scratch rows. -/
theorem outsAt4_B (c : Dev nD) (t : Fin cfg4.N) (hz : ¬t.val = 0) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl hz
  | succ n => exact rfl

/-- The region invariant before position `n`: before the first point the class's (every scoped buffer at anything);
    afterwards the two scratch rows at what the point before left, the other scoped buffers unopened, the generator
    register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The proof data of pipeline 4 on core `c`: the arrays as the region finds them; after the body each input's buffer
    at its block, each output's at `outsAt4`'s component; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

set_option maxHeartbeats 4800000 in
/-- The body at any point: the inputs' memrefs hold their blocks; at the first point the invariant hands the scratch rows
    at anything and the first-point run applies, at a later point it hands them at what the point before left and the
    later-point run applies; either way the invariant takes them back at this point's contents (the stores cover them). -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [after4_0, after4_1, after4_2, after4_3, after4_4, after4_5, after4_6]
  by_cases hz : t.val = 0
  · rw [outsAt4_A V c t hz]
    unfold out4_A_4 out4_A_5 out4_A_6 sout4_A_0 sout4_A_1; (try dsimp only)
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr hz) (iblk4 V c 0 t) (iblk4 V c 1 t) (iblk4 V c 2 t) (iblk4 V c 3 t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ )
          · unfold owns; iexists _; isplitr
            swap; · iexact HS1
            ipureintro; exact View.read_writes_of_cover _ _ _ _ _ (scover4_A_1 c _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_A_4 c _ _ _ _ _ _ _ _ _ _ _ _ _ _ _ _ _ _ _ _ _ _ _ _ )
    isplitl [H5]
    · unfold owns; iexists _; isplitr
      swap; · iexact H5
      ipureintro; exact View.read_writes_of_cover _ _ _ _ _ (cover4_A_5 c _ _ _ _ _ _ _ _ _ _ _ _ _ _ _ _ _ _ _ _ _ _ _ _ )
    unfold owns; iexists _; isplitr
    swap; · iexact H6
    ipureintro; exact View.read_writes_of_cover _ _ _ _ _ (cover4_A_6 c _ _ _ _ _ _ _ _ _ _ _ _ _ _ _ _ _ _ _ _ _ _ _ _ )
  · rw [outsAt4_B V c t hz]
    unfold out4_B_4 out4_B_5 out4_B_6 sout4_B_0 sout4_B_1; (try dsimp only)
    rw [PhiS4_castSucc V c t, PhiS4_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_B c (grid4.coords t) _ _ _ _ _ _ _ _ _ _ _ _ _ _ _ _ _ _ (fun h => hz ((hcond4_0 t).mp h)) (iblk4 V c 0 t) (iblk4 V c 1 t) (iblk4 V c 2 t) (iblk4 V c 3 t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_B_0 c _ _ _ _ _ _ _ _ _ _ _ _ _ _ _ _ _ _ _ _ _ _ _ _ _ _ )
          · unfold owns; iexists _; isplitr
            swap; · iexact HS1
            ipureintro; exact View.read_writes_of_cover _ _ _ _ _ (scover4_B_1 c _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_B_4 c _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover4_B_5 c _ _ _ _ _ _ _ _ _ _ _ _ _ _ _ _ _ _ _ _ _ _ _ _ _ _ )
    unfold owns; iexists _; isplitr
    swap; · iexact H6
    ipureintro; exact View.read_writes_of_cover _ _ _ _ _ (cover4_B_6 c _ _ _ _ _ _ _ _ _ _ _ _ _ _ _ _ _ _ _ _ _ _ _ _ _ _ )

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the scratch rows' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout4 (c : Dev nD) : (dat4 V c).Φ (Fin.last cfg4.N) ⊢ Pipeline.ΦA spec4 c :=
  Phi_out4 V c _ (by rw [Fin.val_last]; have : cfg4.N = 30 := N_4; omega)

end Region

end Cert.Kernel.Hand

end
-- ==== Proof.K.Region5.lean ====
/- Region 5 of @main (custom_call 5, pipeline 5): the pointwise kernel `cc5__bn_relu_kernel`,
   out = max(x * scale + shift, 0) on one block of rows, scale and shift single rows broadcast down the block.
   Everything is stated at a parameter `V`, the TensorCore's buffer contents when the region is entered, and at any
   float instance `F`: each window's block at a grid point read off its array, what the body leaves in the output
   window's buffer (its one store over the whole block), the body's triple, the pipeline's proof data and the body
   obligation at every point. The three inputs are left in place by the body; whether or not a window is fetched
   at a point its buffer holds that point's block, since an unfetched window's block index has not moved. -/
import proofs.«143519_j50869592655552_1_alg».proof.Proof.Gen.Kernel.Launch
import proofs.«143519_j50869592655552_1_alg».proof.Proof.Gen.Kernel.Skeleton
import proofs.«143519_j50869592655552_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole block of rows, and the whole single row: the only rectangles the body touches. -/
abbrev r5_0 : Rect S5000x64 := Rect.unit (s := S5000x64) ![0, 0] S5000x64.size inb_S5000x64_S5000x64_0_0
abbrev r5_1 : Rect S1x64 := Rect.unit (s := S1x64) ![0, 0] S1x64.size inb_S1x64_S1x64_0_0

/-! ## What the body leaves in the output window's buffer -/

/-- Window 3's staging buffer after the body, from the input windows' blocks: its one store, of the payload
    max(x * scale + shift, 0) of the three loads, over the whole block. -/
def out5_3 (x0 : Vec F S5000x64 .f32) (x1 : Vec F S1x64 .f32) (x2 : Vec F S1x64 .f32) : Vec F S5000x64 .f32 :=
  View.canon [⟨r5_0, k5_pay1 (View.ld x0 r5_0) (View.ld x1 r5_1) (View.ld x2 r5_1)⟩]

/-- The one store tiles the buffer, so it covers it. -/
theorem cover5_3 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body's triple -/

set_option maxHeartbeats 1000000 in
/-- The kernel body on whole staging memrefs, the inputs' at read contents and the output's at anything, runs to the
    continuation holding the inputs' as they were and the output's at `out5_3` of the inputs'. -/
theorem sound_kernel5 (c : Dev nD) (E : Set ℕ) (i : grid5.Coords)
    (arg0 : Memref sig .tc .vmem S5000x64 .f32) (harg0 : arg0.IsWhole) (arg1 : Memref sig .tc .vmem S1x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out5_3 x0 x1 x2)) -∗ K ⟨⟩))
      ⊢ wp frame (wpE (defs₀ (F := F)) Variants.none c none) E (cc5__bn_relu_kernel i arg0 harg0 arg1 harg1 arg2 harg2 arg3 harg3) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point `t`
    each input's buffer at its block and the output's at `out5_3` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- The invariant is the class's at both ends of the grid. -/
theorem hin5 (c : Dev nD) : Pipeline.ΦA spec5 c ⊢ (dat5 V c).Φ 0 := .rfl
theorem hout5 (c : Dev nD) : (dat5 V c).Φ (Fin.last cfg5.N) ⊢ Pipeline.ΦA spec5 c := .rfl

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Fold2.lean ====
/-
  The fold of buffer contents through @main, continued: items seven to eleven (the first cycle MLP's three regions).
-/
import proofs.«143519_j50869592655552_1_alg».proof.Proof.K.Fold1
import proofs.«143519_j50869592655552_1_alg».proof.Proof.K.Region3
import proofs.«143519_j50869592655552_1_alg».proof.Proof.K.Region4
import proofs.«143519_j50869592655552_1_alg».proof.Proof.K.Region5

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (ρ : Dev nD → PrngReg)
/-- Region 3's entry contents, read at the TensorCore's references. -/
abbrev V6 : (c : Dev nD) → (b : Ref sig .tc) → Buf (Elt F) ((c : Thread nD τ).loc b) := fun c b => W6 m ρ c b
/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- An input window's array leaves region 3 as it entered. -/
theorem W7_in (c : Dev nD) (w : Fin cfg3.W) (hw : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hw _).trans (A_eq3 (V6 m ρ) c w))
abbrev V7x : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7x m ρ c (Pipeline.arrRef spec3 w) :=
  (W7_arr m ρ c w).symm
theorem hrest3 (c : Dev nD) : ∀ b, b ∉ Finset.univ.image (Pipeline.arrRef spec3) → V7x m ρ c b = V6 m ρ c b :=
  fun b hb => W7_of_ne m ρ c b fun w e => hb (Finset.mem_image.mpr ⟨w, Finset.mem_univ _, e⟩)
/-- After `hostOps4`. -/
def W8 : Dev nD → Valuation τ sig (Elt F) := fun c => StableHlo.after hostOps4 (W7 m ρ c)
/-- Region 4's entry contents, read at the TensorCore's references. -/
abbrev V8 : (c : Dev nD) → (b : Ref sig .tc) → Buf (Elt F) ((c : Thread nD τ).loc b) := fun c b => W8 m ρ c b
/-- At region 4's exit: its arrays at what the pipeline leaves, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- An input window's array leaves region 4 as it entered. -/
theorem W9_in (c : Dev nD) (w : Fin cfg4.W) (hw : (cfg4.win w).isOut = false) :
    W9 m ρ c (Proc.devRef .tc (Pipeline.arrRef spec4 w)) = W8 m ρ c (Proc.devRef .tc (Pipeline.arrRef spec4 w)) :=
  (W9_arr m ρ c w).trans (((dat4 (V8 m ρ) c).arrAt_in w hw _).trans (A_eq4 (V8 m ρ) c w))
abbrev V9x : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9x m ρ c (Pipeline.arrRef spec4 w) :=
  (W9_arr m ρ c w).symm
theorem hrest4 (c : Dev nD) : ∀ b, b ∉ Finset.univ.image (Pipeline.arrRef spec4) → V9x m ρ c b = V8 m ρ c b :=
  fun b hb => W9_of_ne m ρ c b fun w e => hb (Finset.mem_image.mpr ⟨w, Finset.mem_univ _, e⟩)
/-- After `hostOps5`. -/
def W10 : Dev nD → Valuation τ sig (Elt F) := fun c => StableHlo.after hostOps5 (W9 m ρ c)
/-- Region 5's entry contents, read at the TensorCore's references. -/
abbrev V10 : (c : Dev nD) → (b : Ref sig .tc) → Buf (Elt F) ((c : Thread nD τ).loc b) := fun c b => W10 m ρ c b
/-- At region 5's exit: its arrays at what the pipeline leaves, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- An input window's array leaves region 5 as it entered. -/
theorem W11_in (c : Dev nD) (w : Fin cfg5.W) (hw : (cfg5.win w).isOut = false) :
    W11 m ρ c (Proc.devRef .tc (Pipeline.arrRef spec5 w)) = W10 m ρ c (Proc.devRef .tc (Pipeline.arrRef spec5 w)) :=
  (W11_arr m ρ c w).trans (((dat5 (V10 m ρ) c).arrAt_in w hw _).trans (A_eq5 (V10 m ρ) c w))
abbrev V11x : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11x m ρ c (Pipeline.arrRef spec5 w) :=
  (W11_arr m ρ c w).symm
theorem hrest5 (c : Dev nD) : ∀ b, b ∉ Finset.univ.image (Pipeline.arrRef spec5) → V11x m ρ c b = V10 m ρ c b :=
  fun b hb => W11_of_ne m ρ c b fun w e => hb (Finset.mem_image.mpr ⟨w, Finset.mem_univ _, e⟩)

end Cert.Kernel.Hand

end
-- ==== Proof.K.Region6RunA.lean ====
import proofs.«143519_j50869592655552_1_alg».proof.Proof.Gen.Kernel.Launch
import proofs.«143519_j50869592655552_1_alg».proof.Proof.Gen.Kernel.Skeleton
import proofs.«143519_j50869592655552_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 6 (the linear layer with running column sums): what the two control cases share, and the first case

The kernel at grid point `i` multiplies the point's 5000 rows of the input by the weight matrix, stores the
product into the output window, adds the product's column sums and the column sums of its squares to two
`[1,128]` accumulators kept in scratch memory between points (zeroed when `i = 0`), and copies the two
accumulators into the last two output windows. -/

section Shared
-- the TensorCore's buffer contents when the region is entered
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The input rows' staging buffer holds the point's block of rows at every point, for any proof data over the
    entry contents whose body leaves that block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight matrix's staging buffer, fetched once, holds the (one) block at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

end Shared

/-! ## The body's branch condition -/

/-- The condition of the body's one conditional, from the grid coordinate: "this is the first point". -/
abbrev cond6_0 (i : grid6.Coords) : Prop := (Scalar.cmpi .ne (Scalar.extui (Scalar.cmpi .eq (BitVec.ofNat 32 (i 0).val) 0#32)) 0#32) = 1#1
/-- It holds at point 0 only — decided over the 30 points. -/
theorem hcond6_0 : ∀ t : Fin cfg6.N, cond6_0 (grid6.coords t) ↔ t.val % 30 = 0 :=
  (by decide +kernel : ∀ t : Fin grid6.N, cond6_0 (grid6.coords t) ↔ t.val % 30 = 0)

/-! ## The memrefs the body is called with -/

/-- One staging buffer of each output window, through which its contents are stated. -/
abbrev VO6_2 : View sig .tc .vmem S5000x128 .f32 := (Memref.whole cc6_stg2_0 : Memref sig .tc .vmem S5000x128 .f32).view
abbrev VO6_3 : View sig .tc .vmem S1x128 .f32 := (Memref.whole cc6_stg3_0 : Memref sig .tc .vmem S1x128 .f32).view
abbrev VO6_4 : View sig .tc .vmem S1x128 .f32 := (Memref.whole cc6_stg4_0 : Memref sig .tc .vmem S1x128 .f32).view
/-- Each window's current staging memref at point `t`, and its wholeness. -/
abbrev ms6_0 (t : Fin cfg6.N) : Memref sig .tc .vmem S5000x320 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S320x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S5000x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
/-- The two accumulators: whole scoped buffers of the kernel's own, passed beside the windows. -/
abbrev scM6_0 : Memref sig .tc .vmem S1x128 .f32 := Memref.whole cc6_scratch0
abbrev scM6_1 : Memref sig .tc .vmem S1x128 .f32 := Memref.whole cc6_scratch1
abbrev VS6_0 : View sig .tc .vmem S1x128 .f32 := scM6_0.view
abbrev VS6_1 : View sig .tc .vmem S1x128 .f32 := scM6_1.view

/-- The class invariant with the two accumulators taken out of the scoped rest as memrefs owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-! ## The first point's run -/

set_option maxHeartbeats 1000000 in
/-- What the body's stores leave in each output's staging memref and in each accumulator, as pieces (last first), AT
    THE FIRST POINT (the conditional taken: the accumulators are zeroed first), with the proof that on whole
    memrefs — the inputs' at their contents, everything else at anything — the body runs to the continuation holding
    the inputs' as they were and every other buffer with its pieces written. The pieces are what the run finds. -/
noncomputable def kernelRun6_A (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i)
    (x0 : Vec F S5000x320 .f32) (x1 : Vec F S320x128 .f32) :
    Σ' (L2 : List (View.Piece (Elt F) S5000x128 .f32)) (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__linear_accum_kernel i arg1 harg1 arg2 harg2 arg3 harg3 arg4 harg4 arg5 harg5 arg6 harg6 arg7 harg7) K } := by
  refine ⟨?_, ?_, ?_, ?_, ?_, fun E K => ?run⟩
  case run =>
    simp only [cc6__linear_accum_kernel_eq_skeleton]; unfold cc6__linear_accum_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Hand

end
-- ==== Proof.K.Region6RunB.lean ====
import proofs.«143519_j50869592655552_1_alg».proof.Proof.K.Region6RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 6: the run at every later point

The conditional is not taken: the two accumulators enter at what the point before left in them. -/

set_option maxHeartbeats 1000000 in
/-- What the body's stores leave in each output's staging memref and in each accumulator, as pieces (last first), AT A
    POINT AFTER THE FIRST (the conditional not taken), the accumulators entering at known contents `xs0`, `xs1`. -/
noncomputable def kernelRun6_B (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i)
    (x0 : Vec F S5000x320 .f32) (x1 : Vec F S320x128 .f32) (xs0 : Vec F S1x128 .f32) (xs1 : Vec F S1x128 .f32) :
    Σ' (L2 : List (View.Piece (Elt F) S5000x128 .f32)) (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__linear_accum_kernel i arg1 harg1 arg2 harg2 arg3 harg3 arg4 harg4 arg5 harg5 arg6 harg6 arg7 harg7) K } := by
  refine ⟨?_, ?_, ?_, ?_, ?_, fun E K => ?run⟩
  case run =>
    simp only [cc6__linear_accum_kernel_eq_skeleton]; unfold cc6__linear_accum_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Hand

end
-- ==== Proof.K.Region6.lean ====
import proofs.«143519_j50869592655552_1_alg».proof.Proof.K.Region6RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 6 (the linear layer with running column sums): the proof data and the body obligation

At a PARAMETER `V` — the TensorCore's buffer contents when the region is entered. What the two accumulators hold
after point `t` is one pair of functions of the blocks of the points up to `t`, by recursion on the point; the two
windows of sums hold the pair's current value after every point, and the output window holds the point's own product. -/

/-- The pieces the first point' run leaves in the output window cover it (each store is of the whole block). -/
theorem cover6_A_2 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i) (x0 : Vec F S5000x320 .f32) (x1 : Vec F S320x128 .f32) (y : S5000x128.Idx) :
    ∃ pc ∈ (kernelRun6_A c i arg1 harg1 arg2 harg2 arg3 harg3 arg4 harg4 arg5 harg5 arg6 harg6 arg7 harg7 hc0 x0 x1).1, y ∈ pc.1.set :=
  View.cover_of_tiledL (kernelRun6_A c i arg1 harg1 arg2 harg2 arg3 harg3 arg4 harg4 arg5 harg5 arg6 harg6 arg7 harg7 hc0 x0 x1).1 S5000x128.size (by sl_kernel_rfl) y

/-- The pieces the first point' run leaves in the column-sum window cover it (each store is of the whole block). -/
theorem cover6_A_3 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i) (x0 : Vec F S5000x320 .f32) (x1 : Vec F S320x128 .f32) (y : S1x128.Idx) :
    ∃ pc ∈ (kernelRun6_A c i arg1 harg1 arg2 harg2 arg3 harg3 arg4 harg4 arg5 harg5 arg6 harg6 arg7 harg7 hc0 x0 x1).2.1, y ∈ pc.1.set :=
  View.cover_of_tiledL (kernelRun6_A c i arg1 harg1 arg2 harg2 arg3 harg3 arg4 harg4 arg5 harg5 arg6 harg6 arg7 harg7 hc0 x0 x1).2.1 S1x128.size (by sl_kernel_rfl) y

/-- The pieces the first point' run leaves in the window of the column sums of squares cover it (each store is of the whole block). -/
theorem cover6_A_4 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i) (x0 : Vec F S5000x320 .f32) (x1 : Vec F S320x128 .f32) (y : S1x128.Idx) :
    ∃ pc ∈ (kernelRun6_A c i arg1 harg1 arg2 harg2 arg3 harg3 arg4 harg4 arg5 harg5 arg6 harg6 arg7 harg7 hc0 x0 x1).2.2.1, y ∈ pc.1.set :=
  View.cover_of_tiledL (kernelRun6_A c i arg1 harg1 arg2 harg2 arg3 harg3 arg4 harg4 arg5 harg5 arg6 harg6 arg7 harg7 hc0 x0 x1).2.2.1 S1x128.size (by sl_kernel_rfl) y

/-- The pieces the first point' run leaves in the first accumulator cover it (each store is of the whole block). -/
theorem scover6_A_0 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i) (x0 : Vec F S5000x320 .f32) (x1 : Vec F S320x128 .f32) (y : S1x128.Idx) :
    ∃ pc ∈ (kernelRun6_A c i arg1 harg1 arg2 harg2 arg3 harg3 arg4 harg4 arg5 harg5 arg6 harg6 arg7 harg7 hc0 x0 x1).2.2.2.1, y ∈ pc.1.set :=
  View.cover_of_tiledL (kernelRun6_A c i arg1 harg1 arg2 harg2 arg3 harg3 arg4 harg4 arg5 harg5 arg6 harg6 arg7 harg7 hc0 x0 x1).2.2.2.1 S1x128.size (by sl_kernel_rfl) y

/-- The pieces the first point' run leaves in the second accumulator cover it (each store is of the whole block). -/
theorem scover6_A_1 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i) (x0 : Vec F S5000x320 .f32) (x1 : Vec F S320x128 .f32) (y : S1x128.Idx) :
    ∃ pc ∈ (kernelRun6_A c i arg1 harg1 arg2 harg2 arg3 harg3 arg4 harg4 arg5 harg5 arg6 harg6 arg7 harg7 hc0 x0 x1).2.2.2.2.1, y ∈ pc.1.set :=
  View.cover_of_tiledL (kernelRun6_A c i arg1 harg1 arg2 harg2 arg3 harg3 arg4 harg4 arg5 harg5 arg6 harg6 arg7 harg7 hc0 x0 x1).2.2.2.2.1 S1x128.size (by sl_kernel_rfl) y

/-- What the first point leaves: the output window's block, the two windows of sums, the two accumulators — each its
    pieces read back. -/
def res6_A (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i) (x0 : Vec F S5000x320 .f32) (x1 : Vec F S320x128 .f32) : Vec F S5000x128 .f32 × Vec F S1x128 .f32 × Vec F S1x128 .f32 × Vec F S1x128 .f32 × Vec F S1x128 .f32 :=
  (VO6_2.read (Elt F) (VO6_2.writes (Elt F) VO6_2.junk (kernelRun6_A c i arg1 harg1 arg2 harg2 arg3 harg3 arg4 harg4 arg5 harg5 arg6 harg6 arg7 harg7 hc0 x0 x1).1),
   VO6_3.read (Elt F) (VO6_3.writes (Elt F) VO6_3.junk (kernelRun6_A c i arg1 harg1 arg2 harg2 arg3 harg3 arg4 harg4 arg5 harg5 arg6 harg6 arg7 harg7 hc0 x0 x1).2.1),
   VO6_4.read (Elt F) (VO6_4.writes (Elt F) VO6_4.junk (kernelRun6_A c i arg1 harg1 arg2 harg2 arg3 harg3 arg4 harg4 arg5 harg5 arg6 harg6 arg7 harg7 hc0 x0 x1).2.2.1),
   VS6_0.read (Elt F) (VS6_0.writes (Elt F) VS6_0.junk (kernelRun6_A c i arg1 harg1 arg2 harg2 arg3 harg3 arg4 harg4 arg5 harg5 arg6 harg6 arg7 harg7 hc0 x0 x1).2.2.2.1),
   VS6_1.read (Elt F) (VS6_1.writes (Elt F) VS6_1.junk (kernelRun6_A c i arg1 harg1 arg2 harg2 arg3 harg3 arg4 harg4 arg5 harg5 arg6 harg6 arg7 harg7 hc0 x0 x1).2.2.2.2.1))

/-- The pieces the later points' run leaves in the output window cover it (each store is of the whole block). -/
theorem cover6_B_2 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i) (x0 : Vec F S5000x320 .f32) (x1 : Vec F S320x128 .f32) (xs0 : Vec F S1x128 .f32) (xs1 : Vec F S1x128 .f32) (y : S5000x128.Idx) :
    ∃ pc ∈ (kernelRun6_B c i arg1 harg1 arg2 harg2 arg3 harg3 arg4 harg4 arg5 harg5 arg6 harg6 arg7 harg7 hc0 x0 x1 xs0 xs1).1, y ∈ pc.1.set :=
  View.cover_of_tiledL (kernelRun6_B c i arg1 harg1 arg2 harg2 arg3 harg3 arg4 harg4 arg5 harg5 arg6 harg6 arg7 harg7 hc0 x0 x1 xs0 xs1).1 S5000x128.size (by sl_kernel_rfl) y

/-- The pieces the later points' run leaves in the column-sum window cover it (each store is of the whole block). -/
theorem cover6_B_3 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i) (x0 : Vec F S5000x320 .f32) (x1 : Vec F S320x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 hc0 x0 x1 xs0 xs1).2.1, y ∈ pc.1.set :=
  View.cover_of_tiledL (kernelRun6_B c i arg1 harg1 arg2 harg2 arg3 harg3 arg4 harg4 arg5 harg5 arg6 harg6 arg7 harg7 hc0 x0 x1 xs0 xs1).2.1 S1x128.size (by sl_kernel_rfl) y

/-- The pieces the later points' run leaves in the window of the column sums of squares cover it (each store is of the whole block). -/
theorem cover6_B_4 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i) (x0 : Vec F S5000x320 .f32) (x1 : Vec F S320x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 hc0 x0 x1 xs0 xs1).2.2.1, y ∈ pc.1.set :=
  View.cover_of_tiledL (kernelRun6_B c i arg1 harg1 arg2 harg2 arg3 harg3 arg4 harg4 arg5 harg5 arg6 harg6 arg7 harg7 hc0 x0 x1 xs0 xs1).2.2.1 S1x128.size (by sl_kernel_rfl) y

/-- The pieces the later points' run leaves in the first accumulator cover it (each store is of the whole block). -/
theorem scover6_B_0 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i) (x0 : Vec F S5000x320 .f32) (x1 : Vec F S320x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 hc0 x0 x1 xs0 xs1).2.2.2.1, y ∈ pc.1.set :=
  View.cover_of_tiledL (kernelRun6_B c i arg1 harg1 arg2 harg2 arg3 harg3 arg4 harg4 arg5 harg5 arg6 harg6 arg7 harg7 hc0 x0 x1 xs0 xs1).2.2.2.1 S1x128.size (by sl_kernel_rfl) y

/-- The pieces the later points' run leaves in the second accumulator cover it (each store is of the whole block). -/
theorem scover6_B_1 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i) (x0 : Vec F S5000x320 .f32) (x1 : Vec F S320x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 hc0 x0 x1 xs0 xs1).2.2.2.2.1, y ∈ pc.1.set :=
  View.cover_of_tiledL (kernelRun6_B c i arg1 harg1 arg2 harg2 arg3 harg3 arg4 harg4 arg5 harg5 arg6 harg6 arg7 harg7 hc0 x0 x1 xs0 xs1).2.2.2.2.1 S1x128.size (by sl_kernel_rfl) y

/-- What the a later point leaves: the output window's block, the two windows of sums, the two accumulators — each its
    pieces read back. -/
def res6_B (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i) (x0 : Vec F S5000x320 .f32) (x1 : Vec F S320x128 .f32) (xs0 : Vec F S1x128 .f32) (xs1 : Vec F S1x128 .f32) : Vec F S5000x128 .f32 × Vec F S1x128 .f32 × Vec F S1x128 .f32 × Vec F S1x128 .f32 × Vec F S1x128 .f32 :=
  (VO6_2.read (Elt F) (VO6_2.writes (Elt F) VO6_2.junk (kernelRun6_B c i arg1 harg1 arg2 harg2 arg3 harg3 arg4 harg4 arg5 harg5 arg6 harg6 arg7 harg7 hc0 x0 x1 xs0 xs1).1),
   VO6_3.read (Elt F) (VO6_3.writes (Elt F) VO6_3.junk (kernelRun6_B c i arg1 harg1 arg2 harg2 arg3 harg3 arg4 harg4 arg5 harg5 arg6 harg6 arg7 harg7 hc0 x0 x1 xs0 xs1).2.1),
   VO6_4.read (Elt F) (VO6_4.writes (Elt F) VO6_4.junk (kernelRun6_B c i arg1 harg1 arg2 harg2 arg3 harg3 arg4 harg4 arg5 harg5 arg6 harg6 arg7 harg7 hc0 x0 x1 xs0 xs1).2.2.1),
   VS6_0.read (Elt F) (VS6_0.writes (Elt F) VS6_0.junk (kernelRun6_B c i arg1 harg1 arg2 harg2 arg3 harg3 arg4 harg4 arg5 harg5 arg6 harg6 arg7 harg7 hc0 x0 x1 xs0 xs1).2.2.2.1),
   VS6_1.read (Elt F) (VS6_1.writes (Elt F) VS6_1.junk (kernelRun6_B c i arg1 harg1 arg2 harg2 arg3 harg3 arg4 harg4 arg5 harg5 arg6 harg6 arg7 harg7 hc0 x0 x1 xs0 xs1).2.2.2.2.1))

section Region
variable (V : (c : Dev nD) → (b : Ref sig .tc) → Buf (Elt F) ((c : Thread nD τ).loc b))

/-! ## What the outputs and the accumulators hold after each point -/

/-- THE ACCUMULATION. After the body at position `n`: (the output window's buffer, the two sums windows' buffers, the
    two accumulators). The first point zeroes the accumulators before adding; every later point adds to what the
    point before left in them. -/
def outsAt6 (c : Dev nD) : (n : ℕ) → n < cfg6.N → Vec F S5000x128 .f32 × Vec F S1x128 .f32 × Vec F S1x128 .f32 × Vec F S1x128 .f32 × Vec F S1x128 .f32
  | 0, hn => res6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) scM6_0 (Memref.isWhole_whole _) scM6_1 (Memref.isWhole_whole _) ((hcond6_0 ⟨0, hn⟩).mpr (Nat.zero_mod _)) (iblk6 V c 0 ⟨0, hn⟩) (iblk6 V c 1 ⟨0, hn⟩)
  | n + 1, hn => res6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) scM6_1 (Memref.isWhole_whole _)
      (fun h => by have h' := (hcond6_0 ⟨n + 1, hn⟩).mp h; have hN : n + 1 < 30 := lt_of_lt_of_eq hn (show cfg6.N = 30 from N_6); (try dsimp only at h'); omega)
      (iblk6 V c 0 ⟨n + 1, hn⟩) (iblk6 V c 1 ⟨n + 1, hn⟩) (outsAt6 c n (Nat.lt_of_succ_lt hn)).2.2.2.1 (outsAt6 c n (Nat.lt_of_succ_lt hn)).2.2.2.2

/-- `outsAt6` at the first point. -/
theorem outsAt6_A (c : Dev nD) (t : Fin cfg6.N) (h0 : t.val = 0) (hc : cond6_0 (grid6.coords t)) :
    outsAt6 V c t.val t.isLt = res6_A c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) hc (iblk6 V c 0 t) (iblk6 V c 1 t) := by
  obtain ⟨n, hn⟩ := t
  cases n with
  | zero => rfl
  | succ n => exact absurd h0 (Nat.succ_ne_zero n)

/-- `outsAt6` at a later point: over what the point before left in the accumulators. -/
theorem outsAt6_B (c : Dev nD) (t : Fin cfg6.N) (h0 : t.val ≠ 0) (hc : ¬cond6_0 (grid6.coords t)) :
    outsAt6 V c t.val t.isLt = res6_B c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) hc (iblk6 V c 0 t) (iblk6 V c 1 t)
      (outsAt6 V c (t.val - 1) (Nat.lt_of_le_of_lt (Nat.sub_le _ _) t.isLt)).2.2.2.1 (outsAt6 V c (t.val - 1) (Nat.lt_of_le_of_lt (Nat.sub_le _ _) t.isLt)).2.2.2.2 := by
  obtain ⟨n, hn⟩ := t
  cases n with
  | zero => exact absurd rfl h0
  | succ n => rfl

/-- The region invariant before position `n`: before the first point the class's (every scoped buffer at anything);
    afterwards the two accumulators at what the point before left in them, the other scoped buffers at anything, and the
    generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.2.1) ∗ owns (c : Thread nD τ) scM6_1 fullShare ((outsAt6 V c n hn).2.2.2.2))
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2.2.2.1) ∗ owns (c : Thread nD τ) scM6_1 fullShare ((outsAt6 V c n hn).2.2.2.2))
      ∗ Pipeline.scopedRestBut (Ix := Unit) (Name := ℕ) (U := UR sig nD τ) (Lvl := ℕ) (Val := Elt F) spec6 c [cc6_scratch0, cc6_scratch1]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.2.1) ∗ owns (c : Thread nD τ) scM6_1 fullShare ((outsAt6 V c (n - 1) (by omega)).2.2.2.2))
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-! ## The pipeline's proof data -/

/-- The proof data of pipeline 6 on core `c`: the arrays as the region finds them; after the body at point `t` each
    input's buffer at its block, the output window's at the point's product, the two sums windows' at the accumulators'
    current value; the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
    | ⟨3, _⟩ => (outsAt6 V c t.val t.isLt).2.1
    | ⟨4, _⟩ => (outsAt6 V c t.val t.isLt).2.2.1
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]
theorem after6_3 (c : Dev nD) (t : Fin cfg6.N) : (dat6 V c).after 3 t = (outsAt6 V c t.val t.isLt).2.1 := by dsimp only [dat6]
theorem after6_4 (c : Dev nD) (t : Fin cfg6.N) : (dat6 V c).after 4 t = (outsAt6 V c t.val t.isLt).2.2.1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

set_option maxHeartbeats 4800000 in
/-- The body at any point: the inputs' memrefs hold their blocks; the first point's run takes the accumulators at
    anything (out of the class invariant), a later point's at what the point before left; either way the invariant takes
    them back at this point's contents, and every output buffer is left at its pieces read back. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [after6_0, after6_1, after6_2, after6_3, after6_4]
  have hN : t.val < 30 := lt_of_lt_of_eq t.isLt (show cfg6.N = 30 from N_6)
  by_cases h0 : t.val = 0
  · have hc : cond6_0 (grid6.coords t) := (hcond6_0 t).mpr (by rw [h0])
    rw [outsAt6_A V c t h0 hc]
    unfold res6_A; (try dsimp only)
    rw [PhiS6_castSucc V c t, PhiS6_zero V c _ _ h0, PhiA6_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((kernelRun6_A c (grid6.coords t) _ _ _ _ _ _ _ _ _ _ _ _ _ _ hc (iblk6 V c 0 t) (iblk6 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, ⟨%e2, H2⟩, ⟨%e3, H3⟩, ⟨%e4, H4⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover6_A_0 c _ _ _ _ _ _ _ _ _ _ _ _ _ _ _ _ _ _)
          · unfold owns; iexists _; isplitr
            swap; · iexact HS1
            ipureintro; exact View.read_writes_of_cover _ _ _ _ _ (scover6_A_1 c _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover6_A_2 c _ _ _ _ _ _ _ _ _ _ _ _ _ _ _ _ _ _)
    isplitl [H3]
    · unfold owns; iexists _; isplitr
      swap; · iexact H3
      ipureintro; exact View.read_writes_of_cover _ _ _ _ _ (cover6_A_3 c _ _ _ _ _ _ _ _ _ _ _ _ _ _ _ _ _ _)
    unfold owns; iexists _; isplitr
    swap; · iexact H4
    ipureintro; exact View.read_writes_of_cover _ _ _ _ _ (cover6_A_4 c _ _ _ _ _ _ _ _ _ _ _ _ _ _ _ _ _ _)
  · have hc : ¬cond6_0 (grid6.coords t) := fun h => h0 (by have h' := (hcond6_0 t).mp h; omega)
    rw [outsAt6_B V c t h0 hc]
    unfold res6_B; (try dsimp only)
    rw [PhiS6_castSucc V c t, PhiS6_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((kernelRun6_B c (grid6.coords t) _ _ _ _ _ _ _ _ _ _ _ _ _ _ hc (iblk6 V c 0 t) (iblk6 V c 1 t) _ _).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, ⟨%e2, H2⟩, ⟨%e3, H3⟩, ⟨%e4, H4⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover6_B_0 c _ _ _ _ _ _ _ _ _ _ _ _ _ _ _ _ _ _ _ _)
          · unfold owns; iexists _; isplitr
            swap; · iexact HS1
            ipureintro; exact View.read_writes_of_cover _ _ _ _ _ (scover6_B_1 c _ _ _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover6_B_2 c _ _ _ _ _ _ _ _ _ _ _ _ _ _ _ _ _ _ _ _)
    isplitl [H3]
    · unfold owns; iexists _; isplitr
      swap; · iexact H3
      ipureintro; exact View.read_writes_of_cover _ _ _ _ _ (cover6_B_3 c _ _ _ _ _ _ _ _ _ _ _ _ _ _ _ _ _ _ _ _)
    unfold owns; iexists _; isplitr
    swap; · iexact H4
    ipureintro; exact View.read_writes_of_cover _ _ _ _ _ (cover6_B_4 c _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the class's back: the accumulators' named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout6 (c : Dev nD) : (dat6 V c).Φ (Fin.last cfg6.N) ⊢ Pipeline.ΦA spec6 c :=
  Phi_out6 V c _ (by rw [Fin.val_last]; have : cfg6.N = 30 := N_6; omega)

end Region

end Cert.Kernel.Hand

end
-- ==== Proof.K.Region7RunA.lean ====
import proofs.«143519_j50869592655552_1_alg».proof.Proof.Gen.Kernel.Launch
import proofs.«143519_j50869592655552_1_alg».proof.Proof.Gen.Kernel.Skeleton
import proofs.«143519_j50869592655552_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: the batch-norm / relu / linear kernel with running column sums — what the runs share

The kernel at grid point `i` (30 points, one axis): at the first point it zeroes two scratch rows; at every point it
forms `h = max (x * scale + shift) 0` on a block of 5000 rows, multiplies by the weights into a fresh product block
which it stores, adds the product's column sums and the column sums of its squares to the two scratch rows, and copies
the scratch rows into the two small output windows. -/

/-- The `scf.if` of the body: "this is the first grid point", as the body computes it from the coordinate. -/
abbrev cond7_0 (i : grid7.Coords) : Prop := (Scalar.cmpi .ne (Scalar.extui (Scalar.cmpi .eq (BitVec.ofNat 32 (i 0).val) 0#32)) 0#32) = 1#1
/-- Over the grid it holds at point 0 and nowhere else. -/
theorem hcond7_0 : ∀ t : Fin cfg7.N, cond7_0 (grid7.coords t) ↔ t.val = 0 :=
  (by decide +kernel : ∀ t : Fin grid7.N, cond7_0 (grid7.coords t) ↔ t.val = 0)

/-- The two scratch operands as memrefs: whole buffers of the kernel's own, passed beside the windows. -/
abbrev scM7_0 : Memref sig .tc .vmem S1x64 .f32 := Memref.whole cc7_scratch0
abbrev scM7_1 : Memref sig .tc .vmem S1x64 .f32 := Memref.whole cc7_scratch1
/-- Views through which buffer contents are stated (which buffer of the shape is immaterial). -/
abbrev VS7_0 : View sig .tc .vmem S1x64 .f32 := scM7_0.view
abbrev VO7_4 : View sig .tc .vmem S5000x64 .f32 := (Memref.whole cc7_stg4_0 : Memref sig .tc .vmem S5000x64 .f32).view

set_option maxHeartbeats 4000000 in
/-- The whole body in the case "first grid point": on whole memrefs, the four inputs at their blocks, the three
    outputs at any contents and the two scratch rows at any contents (the case overwrites them with zeros first), the body
    runs to the continuation with the inputs unchanged and each output and scratch memref holding the listed stores
    written over what it held. The lists are found by running the body; they are the first components. -/
noncomputable def kernelRun7_A (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__bn_relu_linear_accum_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__bn_relu_linear_accum_kernel_eq_skeleton]; unfold cc7__bn_relu_linear_accum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.Region7RunB.lean ====
import proofs.«143519_j50869592655552_1_alg».proof.Proof.K.Region7RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: the body at a grid point after the first -/

set_option maxHeartbeats 4000000 in
/-- The whole body in the case "a later grid point": on whole memrefs, the four inputs at their blocks, the three
    outputs at any contents and the two scratch rows at what the point before left, the body
    runs to the continuation with the inputs unchanged and each output and scratch memref holding the listed stores
    written over what it held. The lists are found by running the body; they are the first components. -/
noncomputable def kernelRun7_B (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__bn_relu_linear_accum_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__bn_relu_linear_accum_kernel_eq_skeleton]; unfold cc7__bn_relu_linear_accum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.Region7.lean ====
import proofs.«143519_j50869592655552_1_alg».proof.Proof.K.Region7RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: what its windows and scratch rows hold point by point, the proof data, the body obligation

Everything is stated at a parameter `V`: the TensorCore's buffer contents when the region is entered. -/

/-- The stores case A makes into output window 4's staging buffer tile it, so they cover it. -/
theorem cover7_A_4 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) (y : S5000x64.Idx) :
    ∃ pc ∈ (kernelRun7_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).1 S5000x64.size (by sl_kernel_rfl) y

/-- What case A leaves in output window 4's staging buffer: its stores read back (over contents that, being covered, do not matter). -/
def out7_A_4 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) : Vec F S5000x64 .f32 :=
  VO7_4.read (Elt F) (VO7_4.writes (Elt F) VO7_4.junk (kernelRun7_A c i arg1 harg1 arg2 harg2 arg3 harg3 arg4 harg4 arg5 harg5 arg6 harg6 arg7 harg7 arg8 harg8 arg9 harg9 hc0 x0 x1 x2 x3).1)

/-- The stores case A makes into output window 5's staging buffer tile it, so they cover it. -/
theorem cover7_A_5 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) (y : S1x64.Idx) :
    ∃ pc ∈ (kernelRun7_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.1 S1x64.size (by sl_kernel_rfl) y

/-- What case A leaves in output window 5's staging buffer: its stores read back (over contents that, being covered, do not matter). -/
def out7_A_5 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) : Vec F S1x64 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 x0 x1 x2 x3).2.1)

/-- The stores case A makes into output window 6's staging buffer tile it, so they cover it. -/
theorem cover7_A_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) (y : S1x64.Idx) :
    ∃ pc ∈ (kernelRun7_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.2.1 S1x64.size (by sl_kernel_rfl) y

/-- What case A leaves in output window 6's staging buffer: its stores read back (over contents that, being covered, do not matter). -/
def out7_A_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) : Vec F S1x64 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 x0 x1 x2 x3).2.2.1)

/-- The stores case A makes into scratch row 0 tile it, so they cover it. -/
theorem scover7_A_0 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) (y : S1x64.Idx) :
    ∃ pc ∈ (kernelRun7_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.2.2.1 S1x64.size (by sl_kernel_rfl) y

/-- What case A leaves in scratch row 0: its stores read back (over contents that, being covered, do not matter). -/
def sout7_A_0 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) : Vec F S1x64 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 x0 x1 x2 x3).2.2.2.1)

/-- The stores case A makes into scratch row 1 tile it, so they cover it. -/
theorem scover7_A_1 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) (y : S1x64.Idx) :
    ∃ pc ∈ (kernelRun7_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.2.2.2.1 S1x64.size (by sl_kernel_rfl) y

/-- What case A leaves in scratch row 1: its stores read back (over contents that, being covered, do not matter). -/
def sout7_A_1 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) : Vec F S1x64 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 x0 x1 x2 x3).2.2.2.2.1)

/-- The stores case B makes into output window 4's staging buffer tile it, so they cover it. -/
theorem cover7_B_4 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) (y : S5000x64.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).1 S5000x64.size (by sl_kernel_rfl) y

/-- What case B leaves in output window 4's staging buffer: its stores read back (over contents that, being covered, do not matter). -/
def out7_B_4 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) : Vec F S5000x64 .f32 :=
  VO7_4.read (Elt F) (VO7_4.writes (Elt F) VO7_4.junk (kernelRun7_B c i arg1 harg1 arg2 harg2 arg3 harg3 arg4 harg4 arg5 harg5 arg6 harg6 arg7 harg7 arg8 harg8 arg9 harg9 hc0 x0 x1 x2 x3 xs0 xs1).1)

/-- The stores case B makes into output window 5's staging buffer tile it, so they cover it. -/
theorem cover7_B_5 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.1 S1x64.size (by sl_kernel_rfl) y

/-- What case B leaves in output window 5's staging buffer: its stores read back (over contents that, being covered, do not matter). -/
def out7_B_5 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 x0 x1 x2 x3 xs0 xs1).2.1)

/-- The stores case B makes into output window 6's staging buffer tile it, so they cover it. -/
theorem cover7_B_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.2.1 S1x64.size (by sl_kernel_rfl) y

/-- What case B leaves in output window 6's staging buffer: its stores read back (over contents that, being covered, do not matter). -/
def out7_B_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 x0 x1 x2 x3 xs0 xs1).2.2.1)

/-- The stores case B makes into scratch row 0 tile it, so they cover it. -/
theorem scover7_B_0 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.2.2.1 S1x64.size (by sl_kernel_rfl) y

/-- What case B leaves in scratch row 0: its stores read back (over contents that, being covered, do not matter). -/
def sout7_B_0 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 x0 x1 x2 x3 xs0 xs1).2.2.2.1)

/-- The stores case B makes into scratch row 1 tile it, so they cover it. -/
theorem scover7_B_1 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.2.2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.2.2.2.1 S1x64.size (by sl_kernel_rfl) y

/-- What case B leaves in scratch row 1: its stores read back (over contents that, being covered, do not matter). -/
def sout7_B_1 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 x0 x1 x2 x3 xs0 xs1).2.2.2.2.1)

section Region
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is the entry contents and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is the entry contents and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof data
    whose array is the entry contents and whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Each window's current staging memref at point `t`, spelt as the pipeline passes it to the body, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S128x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x64 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x64 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x64 .f32 := win7_6.stage (cfg7.slots t 6)
abbrev hs7_6 (t : Fin cfg7.N) : (ms7_6 t).IsWhole := hstage7_6 ((cfg7.slots t 6).cast nbuf7_6)

/-- The class invariant with the two scratch rows split out of the scoped rest as memrefs owned at some contents; the
    other scoped buffers stay unopened. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! ## What the outputs and the scratch rows hold after each point -/

/-- The five buffers the body writes, after the body at position `n`: the product window, the two small output windows,
    the two scratch rows. At the first point the body starts the scratch rows from zero; at a later point from what the
    point before left in them. -/
def outsAt7 (c : Dev nD) : (n : ℕ) → n < cfg7.N → Vec F S5000x64 .f32 × Vec F S1x64 .f32 × Vec F S1x64 .f32 × Vec F S1x64 .f32 × Vec F S1x64 .f32
  | 0, hn => (out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (iblk7 V c 0 ⟨0, hn⟩) (iblk7 V c 1 ⟨0, hn⟩) (iblk7 V c 2 ⟨0, hn⟩) (iblk7 V c 3 ⟨0, hn⟩),
      out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (iblk7 V c 0 ⟨0, hn⟩) (iblk7 V c 1 ⟨0, hn⟩) (iblk7 V c 2 ⟨0, hn⟩) (iblk7 V c 3 ⟨0, hn⟩),
      out7_A_6 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (iblk7 V c 0 ⟨0, hn⟩) (iblk7 V c 1 ⟨0, hn⟩) (iblk7 V c 2 ⟨0, hn⟩) (iblk7 V c 3 ⟨0, hn⟩),
      sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (iblk7 V c 0 ⟨0, hn⟩) (iblk7 V c 1 ⟨0, hn⟩) (iblk7 V c 2 ⟨0, hn⟩) (iblk7 V c 3 ⟨0, hn⟩),
      sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (iblk7 V c 0 ⟨0, hn⟩) (iblk7 V c 1 ⟨0, hn⟩) (iblk7 V c 2 ⟨0, hn⟩) (iblk7 V c 3 ⟨0, hn⟩))
  | n + 1, hn => (out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2,
      out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2,
      out7_B_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2,
      sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2,
      sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)

/-- `outsAt7` at the first point. -/
theorem outsAt7_A (c : Dev nD) (t : Fin cfg7.N) (hz : t.val = 0) :
    outsAt7 V c t.val t.isLt = (out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t),
      out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t),
      out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t),
      sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t),
      sout7_A_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t)) := by
  obtain ⟨n, hn⟩ := t
  cases n with
  | zero => exact rfl
  | succ n => exact absurd hz (Nat.succ_ne_zero n)

/-- `outsAt7` at a later point: over what the point before left in the scratch rows. -/
theorem outsAt7_B (c : Dev nD) (t : Fin cfg7.N) (hz : ¬t.val = 0) :
    outsAt7 V c t.val t.isLt = (out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
      out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
      out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
      sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
      sout7_B_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact absurd rfl hz
  | succ n => exact rfl

/-- The region invariant before position `n`: before the first point the class's (every scoped buffer at anything);
    afterwards the two scratch rows at what the point before left, the other scoped buffers unopened, the generator
    register at some state. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.2.2.1) ∗ owns (c : Thread nD τ) scM7_1 fullShare ((outsAt7 V c n hn).2.2.2.2))
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare ((outsAt7 V c n hn).2.2.2.1) ∗ owns (c : Thread nD τ) scM7_1 fullShare ((outsAt7 V c n hn).2.2.2.2))
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.2.2.1) ∗ owns (c : Thread nD τ) scM7_1 fullShare ((outsAt7 V c (n - 1) (by omega)).2.2.2.2))
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The proof data -/

/-- The proof data of pipeline 7 on core `c`: the arrays as the region finds them; after the body each input's buffer
    at its block, each output's at `outsAt7`'s component; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
    | ⟨6, _⟩ => (outsAt7 V c t.val t.isLt).2.2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]
theorem after7_6 (c : Dev nD) (t : Fin cfg7.N) : (dat7 V c).after 6 t = (outsAt7 V c t.val t.isLt).2.2.1 := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

set_option maxHeartbeats 4800000 in
/-- The body at any point: the inputs' memrefs hold their blocks; at the first point the invariant hands the scratch rows
    at anything and the first-point run applies, at a later point it hands them at what the point before left and the
    later-point run applies; either way the invariant takes them back at this point's contents (the stores cover them). -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [after7_0, after7_1, after7_2, after7_3, after7_4, after7_5, after7_6]
  by_cases hz : t.val = 0
  · rw [outsAt7_A V c t hz]
    unfold out7_A_4 out7_A_5 out7_A_6 sout7_A_0 sout7_A_1; (try dsimp only)
    rw [PhiS7_castSucc V c t, PhiS7_zero V c _ _ hz, PhiA7_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_A c (grid7.coords t) _ _ _ _ _ _ _ _ _ _ _ _ _ _ _ _ _ _ ((hcond7_0 t).mpr hz) (iblk7 V c 0 t) (iblk7 V c 1 t) (iblk7 V c 2 t) (iblk7 V c 3 t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover7_A_0 c _ _ _ _ _ _ _ _ _ _ _ _ _ _ _ _ _ _ _ _ _ _ _ _ )
          · unfold owns; iexists _; isplitr
            swap; · iexact HS1
            ipureintro; exact View.read_writes_of_cover _ _ _ _ _ (scover7_A_1 c _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover7_A_4 c _ _ _ _ _ _ _ _ _ _ _ _ _ _ _ _ _ _ _ _ _ _ _ _ )
    isplitl [H5]
    · unfold owns; iexists _; isplitr
      swap; · iexact H5
      ipureintro; exact View.read_writes_of_cover _ _ _ _ _ (cover7_A_5 c _ _ _ _ _ _ _ _ _ _ _ _ _ _ _ _ _ _ _ _ _ _ _ _ )
    unfold owns; iexists _; isplitr
    swap; · iexact H6
    ipureintro; exact View.read_writes_of_cover _ _ _ _ _ (cover7_A_6 c _ _ _ _ _ _ _ _ _ _ _ _ _ _ _ _ _ _ _ _ _ _ _ _ )
  · rw [outsAt7_B V c t hz]
    unfold out7_B_4 out7_B_5 out7_B_6 sout7_B_0 sout7_B_1; (try dsimp only)
    rw [PhiS7_castSucc V c t, PhiS7_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_B c (grid7.coords t) _ _ _ _ _ _ _ _ _ _ _ _ _ _ _ _ _ _ (fun h => hz ((hcond7_0 t).mp h)) (iblk7 V c 0 t) (iblk7 V c 1 t) (iblk7 V c 2 t) (iblk7 V c 3 t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover7_B_0 c _ _ _ _ _ _ _ _ _ _ _ _ _ _ _ _ _ _ _ _ _ _ _ _ _ _ )
          · unfold owns; iexists _; isplitr
            swap; · iexact HS1
            ipureintro; exact View.read_writes_of_cover _ _ _ _ _ (scover7_B_1 c _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover7_B_4 c _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover7_B_5 c _ _ _ _ _ _ _ _ _ _ _ _ _ _ _ _ _ _ _ _ _ _ _ _ _ _ )
    unfold owns; iexists _; isplitr
    swap; · iexact H6
    ipureintro; exact View.read_writes_of_cover _ _ _ _ _ (cover7_B_6 c _ _ _ _ _ _ _ _ _ _ _ _ _ _ _ _ _ _ _ _ _ _ _ _ _ _ )

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the scratch rows' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout7 (c : Dev nD) : (dat7 V c).Φ (Fin.last cfg7.N) ⊢ Pipeline.ΦA spec7 c :=
  Phi_out7 V c _ (by rw [Fin.val_last]; have : cfg7.N = 30 := N_7; omega)

end Region

end Cert.Kernel.Hand

end
-- ==== Proof.K.Region8.lean ====
/- Region 8 of @main (custom_call 8, pipeline 8): the pointwise kernel `cc8__bn_relu_kernel`,
   out = max(x * scale + shift, 0) on one block of rows, scale and shift single rows broadcast down the block.
   Everything is stated at a parameter `V`, the TensorCore's buffer contents when the region is entered, and at any
   float instance `F`: each window's block at a grid point read off its array, what the body leaves in the output
   window's buffer (its one store over the whole block), the body's triple, the pipeline's proof data and the body
   obligation at every point. The three inputs are left in place by the body; whether or not a window is fetched
   at a point its buffer holds that point's block, since an unfetched window's block index has not moved. -/
import proofs.«143519_j50869592655552_1_alg».proof.Proof.Gen.Kernel.Launch
import proofs.«143519_j50869592655552_1_alg».proof.Proof.Gen.Kernel.Skeleton
import proofs.«143519_j50869592655552_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: unfetched, the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s and whose body leaves the block in place: unfetched, the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s and whose body leaves the block in place: unfetched, the block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole block of rows, and the whole single row: the only rectangles the body touches. -/
abbrev r8_0 : Rect S5000x64 := Rect.unit (s := S5000x64) ![0, 0] S5000x64.size inb_S5000x64_S5000x64_0_0
abbrev r8_1 : Rect S1x64 := Rect.unit (s := S1x64) ![0, 0] S1x64.size inb_S1x64_S1x64_0_0

/-! ## What the body leaves in the output window's buffer -/

/-- Window 3's staging buffer after the body, from the input windows' blocks: its one store, of the payload
    max(x * scale + shift, 0) of the three loads, over the whole block. -/
def out8_3 (x0 : Vec F S5000x64 .f32) (x1 : Vec F S1x64 .f32) (x2 : Vec F S1x64 .f32) : Vec F S5000x64 .f32 :=
  View.canon [⟨r8_0, k8_pay1 (View.ld x0 r8_0) (View.ld x1 r8_1) (View.ld x2 r8_1)⟩]

/-- The one store tiles the buffer, so it covers it. -/
theorem cover8_3 (p0 : Vec F S5000x64 .f32) (y : S5000x64.Idx) :
    ∃ pc ∈ ([⟨r8_0, p0⟩] : List (View.Piece (Elt F) S5000x64 .f32)), y ∈ pc.1.set :=
  View.cover_of_tiled [⟨r8_0, p0⟩] S5000x64.size (by rfl) y

/-! ## The body's triple -/

set_option maxHeartbeats 1000000 in
/-- The kernel body on whole staging memrefs, the inputs' at read contents and the output's at anything, runs to the
    continuation holding the inputs' as they were and the output's at `out8_3` of the inputs'. -/
theorem sound_kernel8 (c : Dev nD) (E : Set ℕ) (i : grid8.Coords)
    (arg0 : Memref sig .tc .vmem S5000x64 .f32) (harg0 : arg0.IsWhole) (arg1 : Memref sig .tc .vmem S1x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out8_3 x0 x1 x2)) -∗ K ⟨⟩))
      ⊢ wp frame (wpE (defs₀ (F := F)) Variants.none c none) E (cc8__bn_relu_kernel i arg0 harg0 arg1 harg1 arg2 harg2 arg3 harg3) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body at point `t`
    each input's buffer at its block and the output's at `out8_3` of the input blocks; the invariant is the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- The invariant is the class's at both ends of the grid. -/
theorem hin8 (c : Dev nD) : Pipeline.ΦA spec8 c ⊢ (dat8 V c).Φ 0 := .rfl
theorem hout8 (c : Dev nD) : (dat8 V c).Φ (Fin.last cfg8.N) ⊢ Pipeline.ΦA spec8 c := .rfl

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and
    the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Fold3.lean ====
/-
  The fold of buffer contents through @main, concluded: items twelve to sixteen (the second cycle MLP's three regions);
  then that every argument array ends as launched, and where each result buffer's final contents come from.
-/
import proofs.«143519_j50869592655552_1_alg».proof.Proof.K.Fold2
import proofs.«143519_j50869592655552_1_alg».proof.Proof.K.Region6
import proofs.«143519_j50869592655552_1_alg».proof.Proof.K.Region7
import proofs.«143519_j50869592655552_1_alg».proof.Proof.K.Region8

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (ρ : Dev nD → PrngReg)
/-- Region 6's entry contents, read at the TensorCore's references. -/
abbrev V11 : (c : Dev nD) → (b : Ref sig .tc) → Buf (Elt F) ((c : Thread nD τ).loc b) := fun c b => W11 m ρ c b
/-- At region 6's exit: its arrays at what the pipeline leaves, every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
/-- An input window's array leaves region 6 as it entered. -/
theorem W12_in (c : Dev nD) (w : Fin cfg6.W) (hw : (cfg6.win w).isOut = false) :
    W12 m ρ c (Proc.devRef .tc (Pipeline.arrRef spec6 w)) = W11 m ρ c (Proc.devRef .tc (Pipeline.arrRef spec6 w)) :=
  (W12_arr m ρ c w).trans (((dat6 (V11 m ρ) c).arrAt_in w hw _).trans (A_eq6 (V11 m ρ) c w))
abbrev V12x : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12x m ρ c (Pipeline.arrRef spec6 w) :=
  (W12_arr m ρ c w).symm
theorem hrest6 (c : Dev nD) : ∀ b, b ∉ Finset.univ.image (Pipeline.arrRef spec6) → V12x m ρ c b = V11 m ρ c b :=
  fun b hb => W12_of_ne m ρ c b fun w e => hb (Finset.mem_image.mpr ⟨w, Finset.mem_univ _, e⟩)
/-- After `hostOps7`. -/
def W13 : Dev nD → Valuation τ sig (Elt F) := fun c => StableHlo.after hostOps7 (W12 m ρ c)
/-- Region 7's entry contents, read at the TensorCore's references. -/
abbrev V13 : (c : Dev nD) → (b : Ref sig .tc) → Buf (Elt F) ((c : Thread nD τ).loc b) := fun c b => W13 m ρ c b
/-- At region 7's exit: its arrays at what the pipeline leaves, every other buffer as entered. -/
def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
/-- An input window's array leaves region 7 as it entered. -/
theorem W14_in (c : Dev nD) (w : Fin cfg7.W) (hw : (cfg7.win w).isOut = false) :
    W14 m ρ c (Proc.devRef .tc (Pipeline.arrRef spec7 w)) = W13 m ρ c (Proc.devRef .tc (Pipeline.arrRef spec7 w)) :=
  (W14_arr m ρ c w).trans (((dat7 (V13 m ρ) c).arrAt_in w hw _).trans (A_eq7 (V13 m ρ) c w))
abbrev V14x : (c : Dev nD) → (b : Ref sig .tc) → Buf (Elt F) ((c : Thread nD τ).loc b) := fun c b => W14 m ρ c b
theorem hF7 (c : Dev nD) (w : Fin cfg7.W) : (dat7 (V13 m ρ) c).arrAt w cfg7.N = V14x m ρ c (Pipeline.arrRef spec7 w) :=
  (W14_arr m ρ c w).symm
theorem hrest7 (c : Dev nD) : ∀ b, b ∉ Finset.univ.image (Pipeline.arrRef spec7) → V14x m ρ c b = V13 m ρ c b :=
  fun b hb => W14_of_ne m ρ c b fun w e => hb (Finset.mem_image.mpr ⟨w, Finset.mem_univ _, e⟩)
/-- After `hostOps8`. -/
def W15 : Dev nD → Valuation τ sig (Elt F) := fun c => StableHlo.after hostOps8 (W14 m ρ c)
/-- Region 8's entry contents, read at the TensorCore's references. -/
abbrev V15 : (c : Dev nD) → (b : Ref sig .tc) → Buf (Elt F) ((c : Thread nD τ).loc b) := fun c b => W15 m ρ c b
/-- At region 8's exit: its arrays at what the pipeline leaves, every other buffer as entered. -/
def W16 (c : Dev nD) : Valuation τ sig (Elt F) :=
  Pipeline.withArrays spec8 c (W15 m ρ c) fun w => (dat8 (V15 m ρ) c).arrAt w cfg8.N
theorem W16_arr (c : Dev nD) (w : Fin cfg8.W) :
    W16 m ρ c (Proc.devRef .tc (Pipeline.arrRef spec8 w)) = (dat8 (V15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb
/-- An input window's array leaves region 8 as it entered. -/
theorem W16_in (c : Dev nD) (w : Fin cfg8.W) (hw : (cfg8.win w).isOut = false) :
    W16 m ρ c (Proc.devRef .tc (Pipeline.arrRef spec8 w)) = W15 m ρ c (Proc.devRef .tc (Pipeline.arrRef spec8 w)) :=
  (W16_arr m ρ c w).trans (((dat8 (V15 m ρ) c).arrAt_in w hw _).trans (A_eq8 (V15 m ρ) c w))
abbrev V16x : (c : Dev nD) → (b : Ref sig .tc) → Buf (Elt F) ((c : Thread nD τ).loc b) := fun c b => W16 m ρ c b
theorem hF8 (c : Dev nD) (w : Fin cfg8.W) : (dat8 (V15 m ρ) c).arrAt w cfg8.N = V16x m ρ c (Pipeline.arrRef spec8 w) :=
  (W16_arr m ρ c w).symm
theorem hrest8 (c : Dev nD) : ∀ b, b ∉ Finset.univ.image (Pipeline.arrRef spec8) → V16x m ρ c b = V15 m ρ c b :=
  fun b hb => W16_of_ne m ρ c b fun w e => hb (Finset.mem_image.mpr ⟨w, Finset.mem_univ _, e⟩)

/-! ## The arguments end as launched

No host stretch writes an argument (it is outside each stretch's list of written buffers) and no region changes one
(a region reads it through an input window, or does not name it): the fold at an argument's buffer walks back to
the launch memory. -/
theorem W16_main_arg0 (c : Dev nD) : W16 m ρ c (Proc.devRef .tc main_arg0) = m ((c : Thread nD τ).loc main_arg0) :=
  (W16_of_ne m ρ c main_arg0 (by decide)).trans <|
    (keep8 (W14 m ρ c) main_arg0 (by decide)).trans <|
    (W14_of_ne m ρ c main_arg0 (by decide)).trans <|
    (keep7 (W12 m ρ c) main_arg0 (by decide)).trans <|
    (W12_of_ne m ρ c main_arg0 (by decide)).trans <|
    (W11_of_ne m ρ c main_arg0 (by decide)).trans <|
    (keep5 (W9 m ρ c) main_arg0 (by decide)).trans <|
    (W9_of_ne m ρ c main_arg0 (by decide)).trans <|
    (keep4 (W7 m ρ c) main_arg0 (by decide)).trans <|
    (W7_of_ne m ρ c main_arg0 (by decide)).trans <|
    (W6_of_ne m ρ c main_arg0 (by decide)).trans <|
    (keep2 (W4 m ρ c) main_arg0 (by decide)).trans <|
    (W4_of_ne m ρ c main_arg0 (by decide)).trans <|
    (keep1 (W2 m ρ c) main_arg0 (by decide)).trans <|
    (W2_of_ne m ρ c main_arg0 (by decide)).trans <|
    (keep0 (W0 m ρ c) main_arg0 (by decide)).trans <| rfl
theorem W16_main_arg1 (c : Dev nD) : W16 m ρ c (Proc.devRef .tc main_arg1) = m ((c : Thread nD τ).loc main_arg1) :=
  (W16_of_ne m ρ c main_arg1 (by decide)).trans <|
    (keep8 (W14 m ρ c) main_arg1 (by decide)).trans <|
    (W14_of_ne m ρ c main_arg1 (by decide)).trans <|
    (keep7 (W12 m ρ c) main_arg1 (by decide)).trans <|
    (W12_of_ne m ρ c main_arg1 (by decide)).trans <|
    (W11_of_ne m ρ c main_arg1 (by decide)).trans <|
    (keep5 (W9 m ρ c) main_arg1 (by decide)).trans <|
    (W9_of_ne m ρ c main_arg1 (by decide)).trans <|
    (keep4 (W7 m ρ c) main_arg1 (by decide)).trans <|
    (W7_of_ne m ρ c main_arg1 (by decide)).trans <|
    (W6_of_ne m ρ c main_arg1 (by decide)).trans <|
    (keep2 (W4 m ρ c) main_arg1 (by decide)).trans <|
    (W4_of_ne m ρ c main_arg1 (by decide)).trans <|
    (keep1 (W2 m ρ c) main_arg1 (by decide)).trans <|
    (W2_of_ne m ρ c main_arg1 (by decide)).trans <|
    (keep0 (W0 m ρ c) main_arg1 (by decide)).trans <| rfl
theorem W16_main_arg2 (c : Dev nD) : W16 m ρ c (Proc.devRef .tc main_arg2) = m ((c : Thread nD τ).loc main_arg2) :=
  (W16_of_ne m ρ c main_arg2 (by decide)).trans <|
    (keep8 (W14 m ρ c) main_arg2 (by decide)).trans <|
    (W14_of_ne m ρ c main_arg2 (by decide)).trans <|
    (keep7 (W12 m ρ c) main_arg2 (by decide)).trans <|
    (W12_of_ne m ρ c main_arg2 (by decide)).trans <|
    (W11_of_ne m ρ c main_arg2 (by decide)).trans <|
    (keep5 (W9 m ρ c) main_arg2 (by decide)).trans <|
    (W9_of_ne m ρ c main_arg2 (by decide)).trans <|
    (keep4 (W7 m ρ c) main_arg2 (by decide)).trans <|
    (W7_of_ne m ρ c main_arg2 (by decide)).trans <|
    (W6_of_ne m ρ c main_arg2 (by decide)).trans <|
    (keep2 (W4 m ρ c) main_arg2 (by decide)).trans <|
    (W4_of_ne m ρ c main_arg2 (by decide)).trans <|
    (keep1 (W2 m ρ c) main_arg2 (by decide)).trans <|
    (W2_of_ne m ρ c main_arg2 (by decide)).trans <|
    (keep0 (W0 m ρ c) main_arg2 (by decide)).trans <| rfl
theorem W16_main_arg3 (c : Dev nD) : W16 m ρ c (Proc.devRef .tc main_arg3) = m ((c : Thread nD τ).loc main_arg3) :=
  (W16_of_ne m ρ c main_arg3 (by decide)).trans <|
    (keep8 (W14 m ρ c) main_arg3 (by decide)).trans <|
    (W14_of_ne m ρ c main_arg3 (by decide)).trans <|
    (keep7 (W12 m ρ c) main_arg3 (by decide)).trans <|
    (W12_of_ne m ρ c main_arg3 (by decide)).trans <|
    (W11_of_ne m ρ c main_arg3 (by decide)).trans <|
    (keep5 (W9 m ρ c) main_arg3 (by decide)).trans <|
    (W9_of_ne m ρ c main_arg3 (by decide)).trans <|
    (keep4 (W7 m ρ c) main_arg3 (by decide)).trans <|
    (W7_of_ne m ρ c main_arg3 (by decide)).trans <|
    (W6_of_ne m ρ c main_arg3 (by decide)).trans <|
    (keep2 (W4 m ρ c) main_arg3 (by decide)).trans <|
    (W4_of_ne m ρ c main_arg3 (by decide)).trans <|
    (keep1 (W2 m ρ c) main_arg3 (by decide)).trans <|
    (W2_of_ne m ρ c main_arg3 (by decide)).trans <|
    (keep0 (W0 m ρ c) main_arg3 (by decide)).trans <| rfl
theorem W16_main_arg4 (c : Dev nD) : W16 m ρ c (Proc.devRef .tc main_arg4) = m ((c : Thread nD τ).loc main_arg4) :=
  (W16_of_ne m ρ c main_arg4 (by decide)).trans <|
    (keep8 (W14 m ρ c) main_arg4 (by decide)).trans <|
    (W14_of_ne m ρ c main_arg4 (by decide)).trans <|
    (keep7 (W12 m ρ c) main_arg4 (by decide)).trans <|
    (W12_of_ne m ρ c main_arg4 (by decide)).trans <|
    (W11_of_ne m ρ c main_arg4 (by decide)).trans <|
    (keep5 (W9 m ρ c) main_arg4 (by decide)).trans <|
    (W9_of_ne m ρ c main_arg4 (by decide)).trans <|
    (keep4 (W7 m ρ c) main_arg4 (by decide)).trans <|
    (W7_of_ne m ρ c main_arg4 (by decide)).trans <|
    (W6_of_ne m ρ c main_arg4 (by decide)).trans <|
    (keep2 (W4 m ρ c) main_arg4 (by decide)).trans <|
    (W4_of_ne m ρ c main_arg4 (by decide)).trans <|
    (keep1 (W2 m ρ c) main_arg4 (by decide)).trans <|
    (W2_of_ne m ρ c main_arg4 (by decide)).trans <|
    (keep0 (W0 m ρ c) main_arg4 (by decide)).trans <| rfl
theorem W16_main_arg5 (c : Dev nD) : W16 m ρ c (Proc.devRef .tc main_arg5) = m ((c : Thread nD τ).loc main_arg5) :=
  (W16_of_ne m ρ c main_arg5 (by decide)).trans <|
    (keep8 (W14 m ρ c) main_arg5 (by decide)).trans <|
    (W14_of_ne m ρ c main_arg5 (by decide)).trans <|
    (keep7 (W12 m ρ c) main_arg5 (by decide)).trans <|
    (W12_of_ne m ρ c main_arg5 (by decide)).trans <|
    (W11_of_ne m ρ c main_arg5 (by decide)).trans <|
    (keep5 (W9 m ρ c) main_arg5 (by decide)).trans <|
    (W9_of_ne m ρ c main_arg5 (by decide)).trans <|
    (keep4 (W7 m ρ c) main_arg5 (by decide)).trans <|
    (W7_of_ne m ρ c main_arg5 (by decide)).trans <|
    (W6_of_ne m ρ c main_arg5 (by decide)).trans <|
    (keep2 (W4 m ρ c) main_arg5 (by decide)).trans <|
    (W4_of_ne m ρ c main_arg5 (by decide)).trans <|
    (keep1 (W2 m ρ c) main_arg5 (by decide)).trans <|
    (W2_of_ne m ρ c main_arg5 (by decide)).trans <|
    (keep0 (W0 m ρ c) main_arg5 (by decide)).trans <| rfl
theorem W16_main_arg6 (c : Dev nD) : W16 m ρ c (Proc.devRef .tc main_arg6) = m ((c : Thread nD τ).loc main_arg6) :=
  (W16_of_ne m ρ c main_arg6 (by decide)).trans <|
    (keep8 (W14 m ρ c) main_arg6 (by decide)).trans <|
    (W14_of_ne m ρ c main_arg6 (by decide)).trans <|
    (keep7 (W12 m ρ c) main_arg6 (by decide)).trans <|
    (W12_of_ne m ρ c main_arg6 (by decide)).trans <|
    (W11_of_ne m ρ c main_arg6 (by decide)).trans <|
    (keep5 (W9 m ρ c) main_arg6 (by decide)).trans <|
    (W9_of_ne m ρ c main_arg6 (by decide)).trans <|
    (keep4 (W7 m ρ c) main_arg6 (by decide)).trans <|
    (W7_of_ne m ρ c main_arg6 (by decide)).trans <|
    (W6_of_ne m ρ c main_arg6 (by decide)).trans <|
    (keep2 (W4 m ρ c) main_arg6 (by decide)).trans <|
    (W4_of_ne m ρ c main_arg6 (by decide)).trans <|
    (keep1 (W2 m ρ c) main_arg6 (by decide)).trans <|
    (W2_in m ρ c 1 rfl).trans <|
    (keep0 (W0 m ρ c) main_arg6 (by decide)).trans <| rfl
theorem W16_main_arg7 (c : Dev nD) : W16 m ρ c (Proc.devRef .tc main_arg7) = m ((c : Thread nD τ).loc main_arg7) :=
  (W16_of_ne m ρ c main_arg7 (by decide)).trans <|
    (keep8 (W14 m ρ c) main_arg7 (by decide)).trans <|
    (W14_of_ne m ρ c main_arg7 (by decide)).trans <|
    (keep7 (W12 m ρ c) main_arg7 (by decide)).trans <|
    (W12_of_ne m ρ c main_arg7 (by decide)).trans <|
    (W11_of_ne m ρ c main_arg7 (by decide)).trans <|
    (keep5 (W9 m ρ c) main_arg7 (by decide)).trans <|
    (W9_of_ne m ρ c main_arg7 (by decide)).trans <|
    (keep4 (W7 m ρ c) main_arg7 (by decide)).trans <|
    (W7_of_ne m ρ c main_arg7 (by decide)).trans <|
    (W6_of_ne m ρ c main_arg7 (by decide)).trans <|
    (keep2 (W4 m ρ c) main_arg7 (by decide)).trans <|
    (W4_of_ne m ρ c main_arg7 (by decide)).trans <|
    (keep1 (W2 m ρ c) main_arg7 (by decide)).trans <|
    (W2_of_ne m ρ c main_arg7 (by decide)).trans <|
    (keep0 (W0 m ρ c) main_arg7 (by decide)).trans <| rfl
theorem W16_main_arg8 (c : Dev nD) : W16 m ρ c (Proc.devRef .tc main_arg8) = m ((c : Thread nD τ).loc main_arg8) :=
  (W16_of_ne m ρ c main_arg8 (by decide)).trans <|
    (keep8 (W14 m ρ c) main_arg8 (by decide)).trans <|
    (W14_of_ne m ρ c main_arg8 (by decide)).trans <|
    (keep7 (W12 m ρ c) main_arg8 (by decide)).trans <|
    (W12_of_ne m ρ c main_arg8 (by decide)).trans <|
    (W11_of_ne m ρ c main_arg8 (by decide)).trans <|
    (keep5 (W9 m ρ c) main_arg8 (by decide)).trans <|
    (W9_of_ne m ρ c main_arg8 (by decide)).trans <|
    (keep4 (W7 m ρ c) main_arg8 (by decide)).trans <|
    (W7_of_ne m ρ c main_arg8 (by decide)).trans <|
    (W6_of_ne m ρ c main_arg8 (by decide)).trans <|
    (keep2 (W4 m ρ c) main_arg8 (by decide)).trans <|
    (W4_of_ne m ρ c main_arg8 (by decide)).trans <|
    (keep1 (W2 m ρ c) main_arg8 (by decide)).trans <|
    (W2_of_ne m ρ c main_arg8 (by decide)).trans <|
    (keep0 (W0 m ρ c) main_arg8 (by decide)).trans <| rfl
theorem W16_main_arg9 (c : Dev nD) : W16 m ρ c (Proc.devRef .tc main_arg9) = m ((c : Thread nD τ).loc main_arg9) :=
  (W16_of_ne m ρ c main_arg9 (by decide)).trans <|
    (keep8 (W14 m ρ c) main_arg9 (by decide)).trans <|
    (W14_of_ne m ρ c main_arg9 (by decide)).trans <|
    (keep7 (W12 m ρ c) main_arg9 (by decide)).trans <|
    (W12_of_ne m ρ c main_arg9 (by decide)).trans <|
    (W11_of_ne m ρ c main_arg9 (by decide)).trans <|
    (keep5 (W9 m ρ c) main_arg9 (by decide)).trans <|
    (W9_of_ne m ρ c main_arg9 (by decide)).trans <|
    (keep4 (W7 m ρ c) main_arg9 (by decide)).trans <|
    (W7_of_ne m ρ c main_arg9 (by decide)).trans <|
    (W6_of_ne m ρ c main_arg9 (by decide)).trans <|
    (keep2 (W4 m ρ c) main_arg9 (by decide)).trans <|
    (W4_in m ρ c 3 rfl).trans <|
    (keep1 (W2 m ρ c) main_arg9 (by decide)).trans <|
    (W2_of_ne m ρ c main_arg9 (by decide)).trans <|
    (keep0 (W0 m ρ c) main_arg9 (by decide)).trans <| rfl
theorem W16_main_arg10 (c : Dev nD) : W16 m ρ c (Proc.devRef .tc main_arg10) = m ((c : Thread nD τ).loc main_arg10) :=
  (W16_of_ne m ρ c main_arg10 (by decide)).trans <|
    (keep8 (W14 m ρ c) main_arg10 (by decide)).trans <|
    (W14_of_ne m ρ c main_arg10 (by decide)).trans <|
    (keep7 (W12 m ρ c) main_arg10 (by decide)).trans <|
    (W12_of_ne m ρ c main_arg10 (by decide)).trans <|
    (W11_of_ne m ρ c main_arg10 (by decide)).trans <|
    (keep5 (W9 m ρ c) main_arg10 (by decide)).trans <|
    (W9_of_ne m ρ c main_arg10 (by decide)).trans <|
    (keep4 (W7 m ρ c) main_arg10 (by decide)).trans <|
    (W7_of_ne m ρ c main_arg10 (by decide)).trans <|
    (W6_of_ne m ρ c main_arg10 (by decide)).trans <|
    (keep2 (W4 m ρ c) main_arg10 (by decide)).trans <|
    (W4_of_ne m ρ c main_arg10 (by decide)).trans <|
    (keep1 (W2 m ρ c) main_arg10 (by decide)).trans <|
    (W2_of_ne m ρ c main_arg10 (by decide)).trans <|
    (keep0 (W0 m ρ c) main_arg10 (by decide)).trans <| rfl
theorem W16_main_arg11 (c : Dev nD) : W16 m ρ c (Proc.devRef .tc main_arg11) = m ((c : Thread nD τ).loc main_arg11) :=
  (W16_of_ne m ρ c main_arg11 (by decide)).trans <|
    (keep8 (W14 m ρ c) main_arg11 (by decide)).trans <|
    (W14_of_ne m ρ c main_arg11 (by decide)).trans <|
    (keep7 (W12 m ρ c) main_arg11 (by decide)).trans <|
    (W12_of_ne m ρ c main_arg11 (by decide)).trans <|
    (W11_of_ne m ρ c main_arg11 (by decide)).trans <|
    (keep5 (W9 m ρ c) main_arg11 (by decide)).trans <|
    (W9_of_ne m ρ c main_arg11 (by decide)).trans <|
    (keep4 (W7 m ρ c) main_arg11 (by decide)).trans <|
    (W7_of_ne m ρ c main_arg11 (by decide)).trans <|
    (W6_of_ne m ρ c main_arg11 (by decide)).trans <|
    (keep2 (W4 m ρ c) main_arg11 (by decide)).trans <|
    (W4_of_ne m ρ c main_arg11 (by decide)).trans <|
    (keep1 (W2 m ρ c) main_arg11 (by decide)).trans <|
    (W2_of_ne m ρ c main_arg11 (by decide)).trans <|
    (keep0 (W0 m ρ c) main_arg11 (by decide)).trans <| rfl
theorem W16_main_arg12 (c : Dev nD) : W16 m ρ c (Proc.devRef .tc main_arg12) = m ((c : Thread nD τ).loc main_arg12) :=
  (W16_of_ne m ρ c main_arg12 (by decide)).trans <|
    (keep8 (W14 m ρ c) main_arg12 (by decide)).trans <|
    (W14_of_ne m ρ c main_arg12 (by decide)).trans <|
    (keep7 (W12 m ρ c) main_arg12 (by decide)).trans <|
    (W12_in m ρ c 1 rfl).trans <|
    (W11_of_ne m ρ c main_arg12 (by decide)).trans <|
    (keep5 (W9 m ρ c) main_arg12 (by decide)).trans <|
    (W9_of_ne m ρ c main_arg12 (by decide)).trans <|
    (keep4 (W7 m ρ c) main_arg12 (by decide)).trans <|
    (W7_in m ρ c 1 rfl).trans <|
    (W6_of_ne m ρ c main_arg12 (by decide)).trans <|
    (keep2 (W4 m ρ c) main_arg12 (by decide)).trans <|
    (W4_of_ne m ρ c main_arg12 (by decide)).trans <|
    (keep1 (W2 m ρ c) main_arg12 (by decide)).trans <|
    (W2_of_ne m ρ c main_arg12 (by decide)).trans <|
    (keep0 (W0 m ρ c) main_arg12 (by decide)).trans <| rfl
theorem W16_main_arg13 (c : Dev nD) : W16 m ρ c (Proc.devRef .tc main_arg13) = m ((c : Thread nD τ).loc main_arg13) :=
  (W16_of_ne m ρ c main_arg13 (by decide)).trans <|
    (keep8 (W14 m ρ c) main_arg13 (by decide)).trans <|
    (W14_of_ne m ρ c main_arg13 (by decide)).trans <|
    (keep7 (W12 m ρ c) main_arg13 (by decide)).trans <|
    (W12_of_ne m ρ c main_arg13 (by decide)).trans <|
    (W11_of_ne m ρ c main_arg13 (by decide)).trans <|
    (keep5 (W9 m ρ c) main_arg13 (by decide)).trans <|
    (W9_of_ne m ρ c main_arg13 (by decide)).trans <|
    (keep4 (W7 m ρ c) main_arg13 (by decide)).trans <|
    (W7_of_ne m ρ c main_arg13 (by decide)).trans <|
    (W6_of_ne m ρ c main_arg13 (by decide)).trans <|
    (keep2 (W4 m ρ c) main_arg13 (by decide)).trans <|
    (W4_of_ne m ρ c main_arg13 (by decide)).trans <|
    (keep1 (W2 m ρ c) main_arg13 (by decide)).trans <|
    (W2_of_ne m ρ c main_arg13 (by decide)).trans <|
    (keep0 (W0 m ρ c) main_arg13 (by decide)).trans <| rfl
theorem W16_main_arg14 (c : Dev nD) : W16 m ρ c (Proc.devRef .tc main_arg14) = m ((c : Thread nD τ).loc main_arg14) :=
  (W16_of_ne m ρ c main_arg14 (by decide)).trans <|
    (keep8 (W14 m ρ c) main_arg14 (by decide)).trans <|
    (W14_of_ne m ρ c main_arg14 (by decide)).trans <|
    (keep7 (W12 m ρ c) main_arg14 (by decide)).trans <|
    (W12_of_ne m ρ c main_arg14 (by decide)).trans <|
    (W11_of_ne m ρ c main_arg14 (by decide)).trans <|
    (keep5 (W9 m ρ c) main_arg14 (by decide)).trans <|
    (W9_of_ne m ρ c main_arg14 (by decide)).trans <|
    (keep4 (W7 m ρ c) main_arg14 (by decide)).trans <|
    (W7_of_ne m ρ c main_arg14 (by decide)).trans <|
    (W6_of_ne m ρ c main_arg14 (by decide)).trans <|
    (keep2 (W4 m ρ c) main_arg14 (by decide)).trans <|
    (W4_of_ne m ρ c main_arg14 (by decide)).trans <|
    (keep1 (W2 m ρ c) main_arg14 (by decide)).trans <|
    (W2_of_ne m ρ c main_arg14 (by decide)).trans <|
    (keep0 (W0 m ρ c) main_arg14 (by decide)).trans <| rfl
theorem W16_main_arg15 (c : Dev nD) : W16 m ρ c (Proc.devRef .tc main_arg15) = m ((c : Thread nD τ).loc main_arg15) :=
  (W16_of_ne m ρ c main_arg15 (by decide)).trans <|
    (keep8 (W14 m ρ c) main_arg15 (by decide)).trans <|
    (W14_in m ρ c 3 rfl).trans <|
    (keep7 (W12 m ρ c) main_arg15 (by decide)).trans <|
    (W12_of_ne m ρ c main_arg15 (by decide)).trans <|
    (W11_of_ne m ρ c main_arg15 (by decide)).trans <|
    (keep5 (W9 m ρ c) main_arg15 (by decide)).trans <|
    (W9_in m ρ c 3 rfl).trans <|
    (keep4 (W7 m ρ c) main_arg15 (by decide)).trans <|
    (W7_of_ne m ρ c main_arg15 (by decide)).trans <|
    (W6_of_ne m ρ c main_arg15 (by decide)).trans <|
    (keep2 (W4 m ρ c) main_arg15 (by decide)).trans <|
    (W4_of_ne m ρ c main_arg15 (by decide)).trans <|
    (keep1 (W2 m ρ c) main_arg15 (by decide)).trans <|
    (W2_of_ne m ρ c main_arg15 (by decide)).trans <|
    (keep0 (W0 m ρ c) main_arg15 (by decide)).trans <| rfl
theorem W16_main_arg16 (c : Dev nD) : W16 m ρ c (Proc.devRef .tc main_arg16) = m ((c : Thread nD τ).loc main_arg16) :=
  (W16_of_ne m ρ c main_arg16 (by decide)).trans <|
    (keep8 (W14 m ρ c) main_arg16 (by decide)).trans <|
    (W14_of_ne m ρ c main_arg16 (by decide)).trans <|
    (keep7 (W12 m ρ c) main_arg16 (by decide)).trans <|
    (W12_of_ne m ρ c main_arg16 (by decide)).trans <|
    (W11_of_ne m ρ c main_arg16 (by decide)).trans <|
    (keep5 (W9 m ρ c) main_arg16 (by decide)).trans <|
    (W9_of_ne m ρ c main_arg16 (by decide)).trans <|
    (keep4 (W7 m ρ c) main_arg16 (by decide)).trans <|
    (W7_of_ne m ρ c main_arg16 (by decide)).trans <|
    (W6_of_ne m ρ c main_arg16 (by decide)).trans <|
    (keep2 (W4 m ρ c) main_arg16 (by decide)).trans <|
    (W4_of_ne m ρ c main_arg16 (by decide)).trans <|
    (keep1 (W2 m ρ c) main_arg16 (by decide)).trans <|
    (W2_of_ne m ρ c main_arg16 (by decide)).trans <|
    (keep0 (W0 m ρ c) main_arg16 (by decide)).trans <| rfl
theorem W16_main_arg17 (c : Dev nD) : W16 m ρ c (Proc.devRef .tc main_arg17) = m ((c : Thread nD τ).loc main_arg17) :=
  (W16_of_ne m ρ c main_arg17 (by decide)).trans <|
    (keep8 (W14 m ρ c) main_arg17 (by decide)).trans <|
    (W14_of_ne m ρ c main_arg17 (by decide)).trans <|
    (keep7 (W12 m ρ c) main_arg17 (by decide)).trans <|
    (W12_of_ne m ρ c main_arg17 (by decide)).trans <|
    (W11_of_ne m ρ c main_arg17 (by decide)).trans <|
    (keep5 (W9 m ρ c) main_arg17 (by decide)).trans <|
    (W9_of_ne m ρ c main_arg17 (by decide)).trans <|
    (keep4 (W7 m ρ c) main_arg17 (by decide)).trans <|
    (W7_of_ne m ρ c main_arg17 (by decide)).trans <|
    (W6_of_ne m ρ c main_arg17 (by decide)).trans <|
    (keep2 (W4 m ρ c) main_arg17 (by decide)).trans <|
    (W4_of_ne m ρ c main_arg17 (by decide)).trans <|
    (keep1 (W2 m ρ c) main_arg17 (by decide)).trans <|
    (W2_of_ne m ρ c main_arg17 (by decide)).trans <|
    (keep0 (W0 m ρ c) main_arg17 (by decide)).trans <| rfl

/-! ## The results at the end: each is an output array of its last region, untouched afterwards -/
theorem W16_main_v169 (c : Dev nD) : W16 m ρ c (Proc.devRef .tc main_v169) = (dat2 (V5 m ρ) c).arrAt 3 cfg2.N :=
  (W16_of_ne m ρ c main_v169 (by decide)).trans <|
    (keep8 (W14 m ρ c) main_v169 (by decide)).trans <|
    (W14_of_ne m ρ c main_v169 (by decide)).trans <|
    (keep7 (W12 m ρ c) main_v169 (by decide)).trans <|
    (W12_of_ne m ρ c main_v169 (by decide)).trans <|
    (W11_of_ne m ρ c main_v169 (by decide)).trans <|
    (keep5 (W9 m ρ c) main_v169 (by decide)).trans <|
    (W9_of_ne m ρ c main_v169 (by decide)).trans <|
    (keep4 (W7 m ρ c) main_v169 (by decide)).trans <|
    (W7_of_ne m ρ c main_v169 (by decide)).trans <| (W6_arr m ρ c 3)
theorem W16_main_v200 (c : Dev nD) : W16 m ρ c (Proc.devRef .tc main_v200) = (dat5 (V10 m ρ) c).arrAt 3 cfg5.N :=
  (W16_of_ne m ρ c main_v200 (by decide)).trans <|
    (keep8 (W14 m ρ c) main_v200 (by decide)).trans <|
    (W14_of_ne m ρ c main_v200 (by decide)).trans <|
    (keep7 (W12 m ρ c) main_v200 (by decide)).trans <|
    (W12_of_ne m ρ c main_v200 (by decide)).trans <| (W11_arr m ρ c 3)
theorem W16_main_v231 (c : Dev nD) : W16 m ρ c (Proc.devRef .tc main_v231) = (dat8 (V15 m ρ) c).arrAt 3 cfg8.N :=
  (W16_arr m ρ c 3)

end Cert.Kernel.Hand

end
-- ==== Proof.K.Pdats.lean ====
/-
  The proof data of the kernel program's nine pipelines as one family, each at its region's entry contents.
-/
import proofs.«143519_j50869592655552_1_alg».proof.Proof.K.Fold3
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (ρ : Dev nD → PrngReg)

/-! ## The proof data family -/

/-- Every pipeline's proof data, each at its region's entry contents — a literal match, so that the launch's
    pinned configuration at a numeral reduces to the printed one. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V11 m ρ) c
  | ⟨7, _⟩ => fun c => dat7 (V13 m ρ) c
  | ⟨8, _⟩ => fun c => dat8 (V15 m ρ) c

end Cert.Kernel.Hand

end
-- ==== Proof.K.Reg0.lean ====
/-
  Region 0 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.K.Pdats

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 0 as a segment: entered from every unscoped buffer at `W1`, left at `W2`. Its windows' arrays are split
    out of the unscoped buffers and put back at their exit contents; the generator register goes into the kernel's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2x m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/-
  Region 1 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.K.Pdats

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 1 as a segment: entered from every unscoped buffer at `W3`, left at `W4`. Its windows' arrays are split
    out of the unscoped buffers and put back at their exit contents; the generator register goes into the kernel's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4x m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  Region 2 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.K.Pdats

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 2 as a segment: entered from every unscoped buffer at `W5`, left at `W6`. Its windows' arrays are split
    out of the unscoped buffers and put back at their exit contents; the generator register goes into the kernel's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6x m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
/-
  Region 3 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.K.Pdats

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 3 as a segment: entered from every unscoped buffer at `W6`, left at `W7`. Its windows' arrays are split
    out of the unscoped buffers and put back at their exit contents; the generator register goes into the kernel's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V6 m ρ) c)
    unfold Pipeline.ΦA
    iintro ⟨Hp, -, Hr⟩
    isplitl [Hr]; · iexact Hr
    iexact Hp
  hout c := by
    rw [Pipeline.ownSems0_none]
    refine (hout3 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7x m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4.lean ====
/-
  Region 4 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.K.Pdats

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 4 as a segment: entered from every unscoped buffer at `W8`, left at `W9`. Its windows' arrays are split
    out of the unscoped buffers and put back at their exit contents; the generator register goes into the kernel's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (V8 m ρ) c)
    unfold Pipeline.ΦA
    iintro ⟨Hp, -, Hr⟩
    isplitl [Hr]; · iexact Hr
    iexact Hp
  hout c := by
    rw [Pipeline.ownSems0_none]
    refine (hout4 (V8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9x m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg5.lean ====
/-
  Region 5 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.K.Pdats

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 5 as a segment: entered from every unscoped buffer at `W10`, left at `W11`. Its windows' arrays are split
    out of the unscoped buffers and put back at their exit contents; the generator register goes into the kernel's
    invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (V10 m ρ) c)
    unfold Pipeline.ΦA
    iintro ⟨Hp, -, Hr⟩
    isplitl [Hr]; · iexact Hr
    iexact Hp
  hout c := by
    rw [Pipeline.ownSems0_none]
    refine (hout5 (V10 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11x m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg6.lean ====
/-
  Region 6 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.K.Pdats

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 6 as a segment: entered from every unscoped buffer at `W11`, left at `W12`. Its windows' arrays are split
    out of the unscoped buffers and put back at their exit contents; the generator register goes into the kernel's
    invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin6 (V11 m ρ) c)
    unfold Pipeline.ΦA
    iintro ⟨Hp, -, Hr⟩
    isplitl [Hr]; · iexact Hr
    iexact Hp
  hout c := by
    rw [Pipeline.ownSems0_none]
    refine (hout6 (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12x m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg7.lean ====
/-
  Region 7 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.K.Pdats

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 7 as a segment: entered from every unscoped buffer at `W13`, left at `W14`. Its windows' arrays are split
    out of the unscoped buffers and put back at their exit contents; the generator register goes into the kernel's
    invariant and comes back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin7 (V13 m ρ) c)
    unfold Pipeline.ΦA
    iintro ⟨Hp, -, Hr⟩
    isplitl [Hr]; · iexact Hr
    iexact Hp
  hout c := by
    rw [Pipeline.ownSems0_none]
    refine (hout7 (V13 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14x m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg8.lean ====
/-
  Region 8 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.K.Pdats

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 8 as a segment: entered from every unscoped buffer at `W15`, left at `W16`. Its windows' arrays are split
    out of the unscoped buffers and put back at their exit contents; the generator register goes into the kernel's
    invariant and comes back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V15 m ρ) c).loose
  hwaits := Pipeline.hwaits_of_owed_zero _ _ _ _ L lv 8 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec8 c (V15 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin8 (V15 m ρ) c)
    unfold Pipeline.ΦA
    iintro ⟨Hp, -, Hr⟩
    isplitl [Hr]; · iexact Hr
    iexact Hp
  hout c := by
    rw [Pipeline.ownSems0_none]
    refine (hout8 (V15 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V15 m ρ c) (V16x m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The kernel program's run: @main as sixteen segments (seven host stretches, nine regions) over the several-regions
  launch. From any memory with zero counters every weakly fair execution terminates, nothing faulting; at the end each
  result buffer holds the last boundary's contents and every argument array is as launched.
-/
import proofs.«143519_j50869592655552_1_alg».proof.Proof.K.Reg0
import proofs.«143519_j50869592655552_1_alg».proof.Proof.K.Reg1
import proofs.«143519_j50869592655552_1_alg».proof.Proof.K.Reg2
import proofs.«143519_j50869592655552_1_alg».proof.Proof.K.Reg3
import proofs.«143519_j50869592655552_1_alg».proof.Proof.K.Reg4
import proofs.«143519_j50869592655552_1_alg».proof.Proof.K.Reg5
import proofs.«143519_j50869592655552_1_alg».proof.Proof.K.Reg6
import proofs.«143519_j50869592655552_1_alg».proof.Proof.K.Reg7
import proofs.«143519_j50869592655552_1_alg».proof.Proof.K.Reg8

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's sixteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .region (reg6 m ρ),
    .host (hseg hostOps7 hostOps7_sub hostOps7_fresh (W12 m ρ)),
    .region (reg7 m ρ),
    .host (hseg hostOps8 hostOps8_sub hostOps8_fresh (W14 m ρ)),
    .region (reg8 m ρ) ]

set_option maxHeartbeats 4000000 in
/-- @main is the run of the segments. -/
theorem main_run (c : Dev nD) : main (F := F) c = Pipeline.Seg.run (segs m ρ) := (main_chain c).trans (by chain_rfl)

/-- The last thread state without the `owes`: every unscoped buffer at the last boundary's contents, the generator
    register at some state. -/
abbrev Tₙ (c : Dev nD) : sProp 𝕄 := iprop(StableHlo.held (c : Thread nD τ) (Pipeline.ucRefs τ sig) (W16 m ρ c) ∗ ∃ r, prngReg c r)

set_option maxHeartbeats 8000000 in
set_option backward.isDefEq.respectTransparency.types false in
/-- THE RUN, at any instance: from any memory with zero counters every weakly fair execution of @main on the
    TensorCores terminates, nothing faulting; every final state has each result buffer at the last boundary's
    contents and every argument array as launched. -/
theorem run : θ_run defs (onTc (τ := τ) (main (F := F))) ⟨m, fun _ => 0, ρ⟩ (fun r => ∀ c : Dev nD,
      (r.2.mem ((c.tc : Thread nD τ).loc main_v169) = W16 m ρ c (Proc.devRef .tc main_v169)
      ∧ r.2.mem ((c.tc : Thread nD τ).loc main_v200) = W16 m ρ c (Proc.devRef .tc main_v200)
      ∧ r.2.mem ((c.tc : Thread nD τ).loc main_v231) = W16 m ρ c (Proc.devRef .tc main_v231))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W16 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨⟨h c _ (mem_uc main_v169 (by decide)), h c _ (mem_uc main_v200 (by decide)), h c _ (mem_uc main_v231 (by decide))⟩,
        (h c _ (mem_uc main_arg0 (by decide))).trans (W16_main_arg0 m ρ c),
        (h c _ (mem_uc main_arg1 (by decide))).trans (W16_main_arg1 m ρ c),
        (h c _ (mem_uc main_arg2 (by decide))).trans (W16_main_arg2 m ρ c),
        (h c _ (mem_uc main_arg3 (by decide))).trans (W16_main_arg3 m ρ c),
        (h c _ (mem_uc main_arg4 (by decide))).trans (W16_main_arg4 m ρ c),
        (h c _ (mem_uc main_arg5 (by decide))).trans (W16_main_arg5 m ρ c),
        (h c _ (mem_uc main_arg6 (by decide))).trans (W16_main_arg6 m ρ c),
        (h c _ (mem_uc main_arg7 (by decide))).trans (W16_main_arg7 m ρ c),
        (h c _ (mem_uc main_arg8 (by decide))).trans (W16_main_arg8 m ρ c),
        (h c _ (mem_uc main_arg9 (by decide))).trans (W16_main_arg9 m ρ c),
        (h c _ (mem_uc main_arg10 (by decide))).trans (W16_main_arg10 m ρ c),
        (h c _ (mem_uc main_arg11 (by decide))).trans (W16_main_arg11 m ρ c),
        (h c _ (mem_uc main_arg12 (by decide))).trans (W16_main_arg12 m ρ c),
        (h c _ (mem_uc main_arg13 (by decide))).trans (W16_main_arg13 m ρ c),
        (h c _ (mem_uc main_arg14 (by decide))).trans (W16_main_arg14 m ρ c),
        (h c _ (mem_uc main_arg15 (by decide))).trans (W16_main_arg15 m ρ c),
        (h c _ (mem_uc main_arg16 (by decide))).trans (W16_main_arg16 m ρ c),
        (h c _ (mem_uc main_arg17 (by decide))).trans (W16_main_arg17 m ρ c)⟩)

end Cert.Kernel.Hand

end
-- ==== Proof.KI.HostFacts.lean ====
/-
  The host side of the kernel program's @main: seven stretches of host operations between the nine kernel regions.
  For each stretch: that it allocates nothing, the list of buffers it writes (so that any other buffer — an argument
  array above all — is read after the stretch as before it), and the stretch as a segment of the several-regions launch.
-/
import proofs.«143519_j50869592655552_1_alg».proof.Proof.Gen.KernelIdeal.Launch
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The host stretch `hostOps0` (175 operations) -/

/-- No operation of the stretch allocates a buffer. -/
theorem hostOps0_fresh : (hostOps0 : List (HloOp τ sig (Elt F))).Forall fun op => op.fresh = ∅ := by
  simp only [List.Forall]; repeat' constructor
/-- The buffers the stretch's operations write: each operation's result, in order. -/
abbrev hostOps0_W : List (Ref sig .tc) := [main_v0, main_v1, main_v2, main_v3, main_v4, main_v5, main_v6, main_v7, main_v8, main_cst, main_v9, main_v10, main_v11, main_c, main_v12, main_v13, main_c_0, main_v14, main_v15, main_v16, main_v17, main_v18, main_cst_1, main_v19, main_v20, main_v21, main_c_2, main_v22, main_v23, main_c_3, main_v24, main_v25, main_v26, main_v27, main_v28, main_v29, main_cst_4, main_v30, main_v31, main_v32, main_c_5, main_v33, main_v34, main_c_6, main_v35, main_v36, main_v37, main_v38, main_v39, main_cst_7, main_v40, main_v41, main_v42, main_c_8, main_v43, main_v44, main_c_9, main_v45, main_v46, main_v47, main_v48, main_v49, main_v50, main_cst_10, main_v51, main_v52, main_v53, main_c_11, main_v54, main_v55, main_c_12, main_v56, main_v57, main_v58, main_v59, main_v60, main_cst_13, main_v61, main_v62, main_v63, main_c_14, main_v64, main_v65, main_c_15, main_v66, main_v67, main_v68, main_v69, main_v70, main_v71, main_cst_16, main_v72, main_v73, main_v74, main_c_17, main_v75, main_v76, main_c_18, main_v77, main_v78, main_v79, main_v80, main_v81, main_cst_19, main_v82, main_v83, main_v84, main_c_20, main_v85, main_v86, main_c_21, main_v87, main_v88, main_v89, main_v90, main_v91, main_v92, main_v93, main_v94, main_cst_22, main_v95, main_v96, main_v97, main_c_23, main_v98, main_v99, main_c_24, main_v100, main_v101, main_v102, main_v103, main_v104, main_cst_25, main_v105, main_v106, main_v107, main_c_26, main_v108, main_v109, main_c_27, main_v110, main_v111, main_v112, main_v113, main_v114, main_v115, main_cst_28, main_v116, main_v117, main_v118, main_c_29, main_v119, main_v120, main_c_30, main_v121, main_v122, main_v123, main_v124, main_v125, main_cst_31, main_v126, main_v127, main_v128, main_c_32, main_v129, main_v130, main_c_33, main_v131, main_v132, main_v133, main_v134, main_v135, main_v136, main_v137, main_v138]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep0 (V : Valuation τ sig (Elt F)) (r : Ref sig .tc) (h : r ∉ hostOps0_W) :
    StableHlo.after hostOps0 V (Proc.devRef .tc r) = V (Proc.devRef .tc r) :=
  StableHlo.after_of_writes_sub hostOps0 _ hostOps0_writes h

/-! ## The host stretch `hostOps1` (17 operations) -/

/-- No operation of the stretch allocates a buffer. -/
theorem hostOps1_fresh : (hostOps1 : List (HloOp τ sig (Elt F))).Forall fun op => op.fresh = ∅ := by
  simp only [List.Forall]; repeat' constructor
/-- The buffers the stretch's operations write: each operation's result, in order. -/
abbrev hostOps1_W : List (Ref sig .tc) := [main_cst_34, main_v140, main_v141, main_cst_35, main_v142, main_v143, main_v144, main_v145, main_cst_36, main_v146, main_v147, main_v148, main_v149, main_v150, main_v151, main_v152, main_v153]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep1 (V : Valuation τ sig (Elt F)) (r : Ref sig .tc) (h : r ∉ hostOps1_W) :
    StableHlo.after hostOps1 V (Proc.devRef .tc r) = V (Proc.devRef .tc r) :=
  StableHlo.after_of_writes_sub hostOps1 _ hostOps1_writes h

/-! ## The host stretch `hostOps2` (17 operations) -/

/-- No operation of the stretch allocates a buffer. -/
theorem hostOps2_fresh : (hostOps2 : List (HloOp τ sig (Elt F))).Forall fun op => op.fresh = ∅ := by
  simp only [List.Forall]; repeat' constructor
/-- The buffers the stretch's operations write: each operation's result, in order. -/
abbrev hostOps2_W : List (Ref sig .tc) := [main_cst_37, main_v155, main_v156, main_cst_38, main_v157, main_v158, main_v159, main_v160, main_cst_39, main_v161, main_v162, main_v163, main_v164, main_v165, main_v166, main_v167, main_v168]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep2 (V : Valuation τ sig (Elt F)) (r : Ref sig .tc) (h : r ∉ hostOps2_W) :
    StableHlo.after hostOps2 V (Proc.devRef .tc r) = V (Proc.devRef .tc r) :=
  StableHlo.after_of_writes_sub hostOps2 _ hostOps2_writes h

/-! ## The host stretch `hostOps4` (17 operations) -/

/-- No operation of the stretch allocates a buffer. -/
theorem hostOps4_fresh : (hostOps4 : List (HloOp τ sig (Elt F))).Forall fun op => op.fresh = ∅ := by
  simp only [List.Forall]; repeat' constructor
/-- The buffers the stretch's operations write: each operation's result, in order. -/
abbrev hostOps4_W : List (Ref sig .tc) := [main_cst_40, main_v171, main_v172, main_cst_41, main_v173, main_v174, main_v175, main_v176, main_cst_42, main_v177, main_v178, main_v179, main_v180, main_v181, main_v182, main_v183, main_v184]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep4 (V : Valuation τ sig (Elt F)) (r : Ref sig .tc) (h : r ∉ hostOps4_W) :
    StableHlo.after hostOps4 V (Proc.devRef .tc r) = V (Proc.devRef .tc r) :=
  StableHlo.after_of_writes_sub hostOps4 _ hostOps4_writes h

/-! ## The host stretch `hostOps5` (17 operations) -/

/-- No operation of the stretch allocates a buffer. -/
theorem hostOps5_fresh : (hostOps5 : List (HloOp τ sig (Elt F))).Forall fun op => op.fresh = ∅ := by
  simp only [List.Forall]; repeat' constructor
/-- The buffers the stretch's operations write: each operation's result, in order. -/
abbrev hostOps5_W : List (Ref sig .tc) := [main_cst_43, main_v186, main_v187, main_cst_44, main_v188, main_v189, main_v190, main_v191, main_cst_45, main_v192, main_v193, main_v194, main_v195, main_v196, main_v197, main_v198, main_v199]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep5 (V : Valuation τ sig (Elt F)) (r : Ref sig .tc) (h : r ∉ hostOps5_W) :
    StableHlo.after hostOps5 V (Proc.devRef .tc r) = V (Proc.devRef .tc r) :=
  StableHlo.after_of_writes_sub hostOps5 _ hostOps5_writes h

/-! ## The host stretch `hostOps7` (17 operations) -/

/-- No operation of the stretch allocates a buffer. -/
theorem hostOps7_fresh : (hostOps7 : List (HloOp τ sig (Elt F))).Forall fun op => op.fresh = ∅ := by
  simp only [List.Forall]; repeat' constructor
/-- The buffers the stretch's operations write: each operation's result, in order. -/
abbrev hostOps7_W : List (Ref sig .tc) := [main_cst_46, main_v202, main_v203, main_cst_47, main_v204, main_v205, main_v206, main_v207, main_cst_48, main_v208, main_v209, main_v210, main_v211, main_v212, main_v213, main_v214, main_v215]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep7 (V : Valuation τ sig (Elt F)) (r : Ref sig .tc) (h : r ∉ hostOps7_W) :
    StableHlo.after hostOps7 V (Proc.devRef .tc r) = V (Proc.devRef .tc r) :=
  StableHlo.after_of_writes_sub hostOps7 _ hostOps7_writes h

/-! ## The host stretch `hostOps8` (17 operations) -/

/-- No operation of the stretch allocates a buffer. -/
theorem hostOps8_fresh : (hostOps8 : List (HloOp τ sig (Elt F))).Forall fun op => op.fresh = ∅ := by
  simp only [List.Forall]; repeat' constructor
/-- The buffers the stretch's operations write: each operation's result, in order. -/
abbrev hostOps8_W : List (Ref sig .tc) := [main_cst_49, main_v217, main_v218, main_cst_50, main_v219, main_v220, main_v221, main_v222, main_cst_51, main_v223, main_v224, main_v225, main_v226, main_v227, main_v228, main_v229, main_v230]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list is as it was before the stretch. -/
theorem keep8 (V : Valuation τ sig (Elt F)) (r : Ref sig .tc) (h : r ∉ hostOps8_W) :
    StableHlo.after hostOps8 V (Proc.devRef .tc r) = V (Proc.devRef .tc r) :=
  StableHlo.after_of_writes_sub hostOps8 _ hostOps8_writes h

/-! ## What every segment of @main shares -/

/-- No pallas_call of the program has a prefetched table. -/
abbrev adm : (p : Fin 9) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0

local notation "𝕄" => MT nD τ sig Unit (Elt F) ℕ (UR sig nD τ) ℕ

/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

/-- A host stretch as a segment over the unscoped buffers from the contents `W`, `R` riding along: its post is
    those buffers at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Region0RunA.lean ====
import proofs.«143519_j50869592655552_1_alg».proof.Proof.Gen.KernelIdeal.Launch
import proofs.«143519_j50869592655552_1_alg».proof.Proof.Gen.KernelIdeal.Skeleton
import proofs.«143519_j50869592655552_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body of the accumulating linear kernel, run once per control case

The body has one conditional, on the grid coordinate being zero: there it clears the two scratch rows. Then, at
every point, it multiplies the point's block of rows by the weight matrix, stores the product as the point's output
block, adds the product's column sums to the first scratch row and the column sums of its squares to the second,
and copies the two scratch rows into the two one-row outputs. -/

/-- The condition of the body's conditional, as a proposition about the grid coordinate. -/
abbrev cond0_0 (i : grid0.Coords) : Prop := (Scalar.cmpi .ne (Scalar.extui (Scalar.cmpi .eq (BitVec.ofNat 32 (i 0).val) 0#32)) 0#32) = 1#1

/-- It holds at the first point only — decided over the grid's 40 points. -/
theorem hcond0_0 : ∀ t : Fin cfg0.N, cond0_0 (grid0.coords t) ↔ t.val = 0 :=
  (by decide +kernel : ∀ t : Fin grid0.N, cond0_0 (grid0.coords t) ↔ t.val = 0)

/-- The zero offsets of a rank-2 rectangle, however spelt. -/
theorem hz2 : (![0, 0] : Fin 2 → ℕ) = fun _ => 0 := by funext a; fin_cases a <;> rfl

/-- A store through the whole-shape rectangle, LAST in a list of stores, is what the buffer reads back as,
    whatever it held and whatever the earlier stores were. -/
theorem read_writes_unit_zero {sg : RefSig} {κ : Kind} {sp : Space} {S : Shape} {e : EltTy}
    (v : View sg κ sp S e) (f : v.ty.Contents (Elt F)) {off : Fin S.rank → ℕ}
    (inb : ∀ a, off a + S.size a ≤ S.size a) (w : S.Idx → Elt F e) (L : List (View.Piece (Elt F) S e))
    (h : off = fun _ => 0) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 1000000 in
/-- CASE A, the first point. From the two input blocks `x0` (rows) and `x1` (weights), whatever the three output
    buffers and the two scratch rows hold, the body leaves: the product in the block output, and in each scratch
    row — and in the one-row output that copies it — the row cleared and then added to. -/
theorem run0_A (c : Dev nD) (E : Set ℕ) (i : grid0.Coords) (arg1 : Memref sig .tc .vmem S3000x704 .f32) (harg1 : arg1.IsWhole) (arg2 : Memref sig .tc .vmem S704x128 .f32) (harg2 : arg2.IsWhole) (arg3 : Memref sig .tc .vmem S3000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc : cond0_0 i)
    (x0 : Vec F S3000x704 .f32) (x1 : Vec F S704x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (k0_pay3 x0 x1)
            ∗ owns (c : Thread nD τ) arg4 fullShare (k0_pay4 x0 x1 (k0_pay1 (F := F)))
            ∗ owns (c : Thread nD τ) arg5 fullShare (k0_pay5 x0 x1 (k0_pay2 (F := F)))
            ∗ owns (c : Thread nD τ) arg6 fullShare (k0_pay4 x0 x1 (k0_pay1 (F := F)))
            ∗ owns (c : Thread nD τ) arg7 fullShare (k0_pay5 x0 x1 (k0_pay2 (F := F)))) -∗ K ⟨⟩))
      ⊢ wp frame (wpE (defs₀ (F := F)) Variants.none c none) E (cc0__linear_accum_kernel i arg1 harg1 arg2 harg2 arg3 harg3 arg4 harg4 arg5 harg5 arg6 harg6 arg7 harg7) K := by
  simp only [cc0__linear_accum_kernel_eq_skeleton]; unfold cc0__linear_accum_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  obtain rfl := harg1.eq_unread hf1; obtain rfl := harg2.eq_unread hf2
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    refine (read_writes_unit_zero _ _ _ _ _ hz2).trans ?_
    simp only [View.readCov_unit_zero (S := S1x128) _ hz2, View.readCov_cons_toLoadRect, View.readAt_eq_ld, harg1.read_unread, harg2.read_unread, View.ld_unit_zero (S := S3000x704) hz2, View.ld_unit_zero (S := S704x128) hz2, View.ld_unit_zero (S := S1x128) hz2]
  isplitl [H4]
  · iexists _; isplitr
    swap; · iexact H4
    ipureintro
    sl_unfold_run_names
    refine (read_writes_unit_zero _ _ _ _ _ hz2).trans ?_
    simp only [View.readCov_unit_zero (S := S1x128) _ hz2, View.readCov_cons_toLoadRect, View.readAt_eq_ld, harg1.read_unread, harg2.read_unread, View.ld_unit_zero (S := S3000x704) hz2, View.ld_unit_zero (S := S704x128) hz2, View.ld_unit_zero (S := S1x128) hz2]
  isplitl [H5]
  · iexists _; isplitr
    swap; · iexact H5
    ipureintro
    sl_unfold_run_names
    refine (read_writes_unit_zero _ _ _ _ _ hz2).trans ?_
    simp only [View.readCov_unit_zero (S := S1x128) _ hz2, View.readCov_cons_toLoadRect, View.readAt_eq_ld, harg1.read_unread, harg2.read_unread, View.ld_unit_zero (S := S3000x704) hz2, View.ld_unit_zero (S := S704x128) hz2, View.ld_unit_zero (S := S1x128) hz2]
  isplitl [H6]
  · iexists _; isplitr
    swap; · iexact H6
    ipureintro
    sl_unfold_run_names
    refine (read_writes_unit_zero _ _ _ _ _ hz2).trans ?_
    simp only [View.readCov_unit_zero (S := S1x128) _ hz2, View.readCov_cons_toLoadRect, View.readAt_eq_ld, harg1.read_unread, harg2.read_unread, View.ld_unit_zero (S := S3000x704) hz2, View.ld_unit_zero (S := S704x128) hz2, View.ld_unit_zero (S := S1x128) hz2]
  · iexists _; isplitr
    swap; · iexact H7
    ipureintro
    sl_unfold_run_names
    refine (read_writes_unit_zero _ _ _ _ _ hz2).trans ?_
    simp only [View.readCov_unit_zero (S := S1x128) _ hz2, View.readCov_cons_toLoadRect, View.readAt_eq_ld, harg1.read_unread, harg2.read_unread, View.ld_unit_zero (S := S3000x704) hz2, View.ld_unit_zero (S := S704x128) hz2, View.ld_unit_zero (S := S1x128) hz2]

end Cert.KernelIdeal.Hand

end
-- ==== Proof.KI.Region0RunB.lean ====
import proofs.«143519_j50869592655552_1_alg».proof.Proof.KI.Region0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B, every later point. As case A, but the scratch rows are not cleared: they enter at what the point before
    left, `xs0` and `xs1`, and are added to. -/
theorem run0_B (c : Dev nD) (E : Set ℕ) (i : grid0.Coords) (arg1 : Memref sig .tc .vmem S3000x704 .f32) (harg1 : arg1.IsWhole) (arg2 : Memref sig .tc .vmem S704x128 .f32) (harg2 : arg2.IsWhole) (arg3 : Memref sig .tc .vmem S3000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc : ¬cond0_0 i)
    (x0 : Vec F S3000x704 .f32) (x1 : Vec F S704x128 .f32) (xs0 xs1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg3 fullShare (k0_pay3 x0 x1)
            ∗ owns (c : Thread nD τ) arg4 fullShare (k0_pay4 x0 x1 xs0)
            ∗ owns (c : Thread nD τ) arg5 fullShare (k0_pay5 x0 x1 xs1)
            ∗ owns (c : Thread nD τ) arg6 fullShare (k0_pay4 x0 x1 xs0)
            ∗ owns (c : Thread nD τ) arg7 fullShare (k0_pay5 x0 x1 xs1)) -∗ K ⟨⟩))
      ⊢ wp frame (wpE (defs₀ (F := F)) Variants.none c none) E (cc0__linear_accum_kernel i arg1 harg1 arg2 harg2 arg3 harg3 arg4 harg4 arg5 harg5 arg6 harg6 arg7 harg7) K := by
  simp only [cc0__linear_accum_kernel_eq_skeleton]; unfold cc0__linear_accum_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  obtain rfl := harg1.eq_unread hf1; obtain rfl := harg2.eq_unread hf2; obtain rfl := harg6.eq_unread hf6; obtain rfl := harg7.eq_unread hf7
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    refine (read_writes_unit_zero _ _ _ _ _ hz2).trans ?_
    simp only [View.readCov_unit_zero (S := S1x128) _ hz2, View.readAt_eq_ld, harg1.read_unread, harg2.read_unread, harg6.read_unread, harg7.read_unread, View.ld_unit_zero (S := S3000x704) hz2, View.ld_unit_zero (S := S704x128) hz2, View.ld_unit_zero (S := S1x128) hz2]
  isplitl [H4]
  · iexists _; isplitr
    swap; · iexact H4
    ipureintro
    sl_unfold_run_names
    refine (read_writes_unit_zero _ _ _ _ _ hz2).trans ?_
    simp only [View.readCov_unit_zero (S := S1x128) _ hz2, View.readAt_eq_ld, harg1.read_unread, harg2.read_unread, harg6.read_unread, harg7.read_unread, View.ld_unit_zero (S := S3000x704) hz2, View.ld_unit_zero (S := S704x128) hz2, View.ld_unit_zero (S := S1x128) hz2]
  isplitl [H5]
  · iexists _; isplitr
    swap; · iexact H5
    ipureintro
    sl_unfold_run_names
    refine (read_writes_unit_zero _ _ _ _ _ hz2).trans ?_
    simp only [View.readCov_unit_zero (S := S1x128) _ hz2, View.readAt_eq_ld, harg1.read_unread, harg2.read_unread, harg6.read_unread, harg7.read_unread, View.ld_unit_zero (S := S3000x704) hz2, View.ld_unit_zero (S := S704x128) hz2, View.ld_unit_zero (S := S1x128) hz2]
  isplitl [H6]
  · iexists _; isplitr
    swap; · iexact H6
    ipureintro
    sl_unfold_run_names
    refine (read_writes_unit_zero _ _ _ _ _ hz2).trans ?_
    simp only [View.readCov_unit_zero (S := S1x128) _ hz2, View.readAt_eq_ld, harg1.read_unread, harg2.read_unread, harg6.read_unread, harg7.read_unread, View.ld_unit_zero (S := S3000x704) hz2, View.ld_unit_zero (S := S704x128) hz2, View.ld_unit_zero (S := S1x128) hz2]
  · iexists _; isplitr
    swap; · iexact H7
    ipureintro
    sl_unfold_run_names
    refine (read_writes_unit_zero _ _ _ _ _ hz2).trans ?_
    simp only [View.readCov_unit_zero (S := S1x128) _ hz2, View.readAt_eq_ld, harg1.read_unread, harg2.read_unread, harg6.read_unread, harg7.read_unread, View.ld_unit_zero (S := S3000x704) hz2, View.ld_unit_zero (S := S704x128) hz2, View.ld_unit_zero (S := S1x128) hz2]

end Cert.KernelIdeal.Hand

end
-- ==== Proof.KI.Region0.lean ====
import proofs.«143519_j50869592655552_1_alg».proof.Proof.KI.Region0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 at the entry contents `V`: the proof data and the body obligation

Everything here is stated at a parameter `V`, the TensorCore's buffer contents when the region is entered. The two
scratch rows are carried from point to point: after point `t` they hold the column sums of the products of the
points up to `t`, and of their squares, as one pair of functions defined by recursion on the point. -/

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window holds its block when the body runs, at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds its block when the body runs, at every point: it is fetched at the first point only,
    its block index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The scratch rows -/

/-- The two scratch operands as memrefs: whole scoped buffers of the kernel's own. -/
abbrev scM0_0 : Memref sig .tc .vmem S1x128 .f32 := Memref.whole cc0_scratch0
abbrev scM0_1 : Memref sig .tc .vmem S1x128 .f32 := Memref.whole cc0_scratch1

/-- The class's invariant with the two scratch rows split out as memrefs owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-- THE ACCUMULATION. What the two scratch rows hold after the body at position `n`: at the first point the rows
    cleared and added to; afterwards what the point before left, added to. -/
def acc0 (c : Dev nD) : (n : ℕ) → n < cfg0.N → Vec F S1x128 .f32 × Vec F S1x128 .f32
  | 0, hn => (k0_pay4 (iblk0 V c 0 ⟨0, hn⟩) (iblk0 V c 1 ⟨0, hn⟩) (k0_pay1 (F := F)),
      k0_pay5 (iblk0 V c 0 ⟨0, hn⟩) (iblk0 V c 1 ⟨0, hn⟩) (k0_pay2 (F := F)))
  | n + 1, hn => (k0_pay4 (iblk0 V c 0 ⟨n + 1, hn⟩) (iblk0 V c 1 ⟨n + 1, hn⟩) (acc0 c n (Nat.lt_of_succ_lt hn)).1,
      k0_pay5 (iblk0 V c 0 ⟨n + 1, hn⟩) (iblk0 V c 1 ⟨n + 1, hn⟩) (acc0 c n (Nat.lt_of_succ_lt hn)).2)

/-- At the first point. -/
theorem acc0_zero (c : Dev nD) (t : Fin cfg0.N) (h : t.val = 0) :
    acc0 V c t.val t.isLt = (k0_pay4 (iblk0 V c 0 t) (iblk0 V c 1 t) (k0_pay1 (F := F)),
      k0_pay5 (iblk0 V c 0 t) (iblk0 V c 1 t) (k0_pay2 (F := F))) := by
  obtain ⟨n, hn⟩ := t
  cases n with
  | zero => rfl
  | succ n => exact absurd h (Nat.succ_ne_zero n)

/-- At a later point: over what the point before left. -/
theorem acc0_pos (c : Dev nD) (t : Fin cfg0.N) (h : t.val ≠ 0) :
    acc0 V c t.val t.isLt
      = (k0_pay4 (iblk0 V c 0 t) (iblk0 V c 1 t) (acc0 V c (t.val - 1) (Nat.lt_of_le_of_lt (Nat.sub_le _ _) t.isLt)).1,
        k0_pay5 (iblk0 V c 0 t) (iblk0 V c 1 t) (acc0 V c (t.val - 1) (Nat.lt_of_le_of_lt (Nat.sub_le _ _) t.isLt)).2) := by
  obtain ⟨n, hn⟩ := t
  cases n with
  | zero => exact absurd rfl h
  | succ n => rfl

/-- The region invariant before position `n`: before the first point the class's (every scratch at anything);
    afterwards the two scratch rows at what the point before left, the other scoped buffers at anything, and the
    generator register at some state. -/
def PhiS0 (c : Dev nD) : (n : ℕ) → n ≤ cfg0.N → sProp 𝕄
  | 0, _ => Pipeline.ΦA spec0 c
  | n + 1, hn => iprop(((owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(((owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(((owns (c : Thread nD τ) scM0_0 fullShare (acc0 V c (n - 1) (by omega)).1 ∗ owns (c : Thread nD τ) scM0_1 fullShare (acc0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of pipeline 0 on core `c`: the arrays as the region finds them; after the body at point `t` each
    input's buffer at its block, the block output's at the product of the two blocks, and the two one-row outputs' at
    the scratch rows' current values; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (iblk0 V c 0 t) (iblk0 V c 1 t)
    | ⟨3, _⟩ => (acc0 V c t.val t.isLt).1
    | ⟨4, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (iblk0 V c 0 t) (iblk0 V c 1 t) := by dsimp only [dat0]
theorem after0_3 (c : Dev nD) (t : Fin cfg0.N) : (dat0 V c).after 3 t = (acc0 V c t.val t.isLt).1 := by dsimp only [dat0]
theorem after0_4 (c : Dev nD) (t : Fin cfg0.N) : (dat0 V c).after 4 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  by_cases hz : t.val = 0
  · rw [PhiS0_castSucc V c t, PhiS0_zero V c _ _ hz, PhiA0_eq, acc0_zero V c t hz]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (run0_A c Set.univ (grid0.coords t) _ _ _ _ _ _ _ _ _ _ _ _ _ _ ((hcond0_0 t).mpr hz) (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexact H4
  · rw [PhiS0_castSucc V c t, PhiS0_pos V c _ _ hz, acc0_pos V c t hz]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (run0_B c Set.univ (grid0.coords t) _ _ _ _ _ _ _ _ _ _ _ _ _ _ (fun h => hz ((hcond0_0 t).mp h)) (iblk0 V c 0 t) (iblk0 V c 1 t) _ _ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch rows' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 40 := N_0; omega)

end Cert.KernelIdeal.Hand

end
-- ==== Proof.KI.Region1RunA.lean ====
import proofs.«143519_j50869592655552_1_alg».proof.Proof.Gen.KernelIdeal.Launch
import proofs.«143519_j50869592655552_1_alg».proof.Proof.Gen.KernelIdeal.Skeleton
import proofs.«143519_j50869592655552_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (custom_call 1): what its two control cases share, and the case of the grid's first point

The kernel body of custom_call 1 branches once, on "the grid coordinate is 0": at that point it first stores zeros
into its two scratch rows. Everything else it does at every point. -/

/-- The body's one branch condition as the printed scalar chain over the grid coordinate. -/
abbrev cond1_0 (i : grid1.Coords) : Prop :=
  (Scalar.cmpi .ne (Scalar.extui (Scalar.cmpi .eq (BitVec.ofNat 32 (i 0).val) 0#32)) 0#32) = 1#1

/-- It holds exactly at the first of the 40 points (decided over the grid). -/
theorem hcond1_0 : ∀ t : Fin cfg1.N, cond1_0 (grid1.coords t) ↔ t.val % 40 = 0 :=
  (by decide +kernel : ∀ t : Fin grid1.N, cond1_0 (grid1.coords t) ↔ t.val % 40 = 0)

/-- The two scratch rows, as whole memrefs, and the views through which their contents are stated. -/
abbrev scM1_0 : Memref sig .tc .vmem S1x64 .f32 := Memref.whole cc1_scratch0
abbrev scM1_1 : Memref sig .tc .vmem S1x64 .f32 := Memref.whole cc1_scratch1
abbrev VS1_0 : View sig .tc .vmem S1x64 .f32 := scM1_0.view
abbrev VS1_1 : View sig .tc .vmem S1x64 .f32 := scM1_1.view
/-- One staging buffer per output window, through which that window's contents are stated (any whole view of the
    shape reads a covering list of pieces back the same way). -/
abbrev VO1_4 : View sig .tc .vmem S3000x64 .f32 := (Memref.whole cc1_stg4_0 : Memref sig .tc .vmem S3000x64 .f32).view
abbrev VO1_5 : View sig .tc .vmem S1x64 .f32 := (Memref.whole cc1_stg5_0 : Memref sig .tc .vmem S1x64 .f32).view
abbrev VO1_6 : View sig .tc .vmem S1x64 .f32 := (Memref.whole cc1_stg6_0 : Memref sig .tc .vmem S1x64 .f32).view

/-- The class invariant of region 1 with the two scratch rows taken out as memrefs owned at some contents: the rest
    of the scoped buffers stays unopened beside them, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

-- (the run's proof term is large; the definition's epilogue walks it)
set_option maxHeartbeats 4000000 in
/-- THE FIRST POINT (the condition holds). On whole memrefs — the four inputs at contents `x0 … x3`, the three output
    buffers and both scratch rows at anything — the body runs to the continuation holding the inputs as they were and
    each output buffer and each scratch row with a list of pieces written: the lists are found by running the body,
    and are this definition's first components. -/
noncomputable def kernelRun1_A (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) :
    Σ' (L4 : List (View.Piece (Elt F) S3000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__bn_relu_linear_accum_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__bn_relu_linear_accum_kernel_eq_skeleton]; unfold cc1__bn_relu_linear_accum_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.Region1RunB.lean ====
import proofs.«143519_j50869592655552_1_alg».proof.Proof.KI.Region1RunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (custom_call 1): the case of every later point

After the first point the condition fails: the body stores no zeros, and adds this point's column sums to what the
point before left in the two scratch rows. -/

-- (the run's proof term is large; the definition's epilogue walks it)
set_option maxHeartbeats 4000000 in
/-- A LATER POINT (the condition fails). On whole memrefs — the four inputs at contents `x0 … x3`, the three output
    buffers at anything, the two scratch rows at the contents `xs0`, `xs1` the point before left — the body runs to
    the continuation holding the inputs as they were and each output buffer and each scratch row with a list of pieces
    written; the lists are found by running the body. -/
noncomputable def kernelRun1_B (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) :
    Σ' (L4 : List (View.Piece (Elt F) S3000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__bn_relu_linear_accum_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__bn_relu_linear_accum_kernel_eq_skeleton]; unfold cc1__bn_relu_linear_accum_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.Region1.lean ====
import proofs.«143519_j50869592655552_1_alg».proof.Proof.KI.Region1RunB

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (custom_call 1) of @main: the frame half, at the contents `V` the region is entered with

Per point the body leaves: in output window 4 its own product block; in the two scratch rows the running column sums
(of the products, and of their squares) over the points so far; in output windows 5 and 6 copies of the two scratch
rows. The scratch rows are carried from point to point, so what they hold is stated by recursion on the point. -/

/-- The pieces the first point's run leaves in output window 4's buffer tile it (one whole-block store), so they cover it. -/
theorem cover1_A_4 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) (y : S3000x64.Idx) :
    ∃ pc ∈ (kernelRun1_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).1 S3000x64.size (by sl_kernel_rfl) y

/-- What the first point leaves in output window 4's staging buffer: its pieces read back. -/
def out1_A_4 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : Vec F S3000x64 .f32 :=
  VO1_4.read (Elt F) (VO1_4.writes (Elt F) VO1_4.junk (kernelRun1_A c i arg1 harg1 arg2 harg2 arg3 harg3 arg4 harg4 arg5 harg5 arg6 harg6 arg7 harg7 arg8 harg8 arg9 harg9 hc0 x0 x1 x2 x3).1)

/-- The pieces the first point's run leaves in output window 5's buffer tile it (one whole-block store), so they cover it. -/
theorem cover1_A_5 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) (y : S1x64.Idx) :
    ∃ pc ∈ (kernelRun1_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.1 S1x64.size (by sl_kernel_rfl) y

/-- What the first point leaves in output window 5's staging buffer: its pieces read back. -/
def out1_A_5 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : Vec F S1x64 .f32 :=
  VO1_5.read (Elt F) (VO1_5.writes (Elt F) VO1_5.junk (kernelRun1_A c i arg1 harg1 arg2 harg2 arg3 harg3 arg4 harg4 arg5 harg5 arg6 harg6 arg7 harg7 arg8 harg8 arg9 harg9 hc0 x0 x1 x2 x3).2.1)

/-- The pieces the first point's run leaves in output window 6's buffer tile it (one whole-block store), so they cover it. -/
theorem cover1_A_6 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) (y : S1x64.Idx) :
    ∃ pc ∈ (kernelRun1_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.2.1 S1x64.size (by sl_kernel_rfl) y

/-- What the first point leaves in output window 6's staging buffer: its pieces read back. -/
def out1_A_6 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : Vec F S1x64 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 hc0 x0 x1 x2 x3).2.2.1)

/-- The pieces the first point's run leaves in scratch row 0 cover it (whole-row stores). -/
theorem scover1_A_0 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) (y : S1x64.Idx) :
    ∃ pc ∈ (kernelRun1_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.2.2.1 S1x64.size (by sl_kernel_rfl) y

/-- What the first point leaves in scratch row 0: its pieces read back. -/
def sout1_A_0 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : Vec F S1x64 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 x0 x1 x2 x3).2.2.2.1)

/-- The pieces the first point's run leaves in scratch row 1 cover it (whole-row stores). -/
theorem scover1_A_1 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) (y : S1x64.Idx) :
    ∃ pc ∈ (kernelRun1_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.2.2.2.1 S1x64.size (by sl_kernel_rfl) y

/-- What the first point leaves in scratch row 1: its pieces read back. -/
def sout1_A_1 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : Vec F S1x64 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 hc0 x0 x1 x2 x3).2.2.2.2.1)

/-- The pieces a later point's run leaves in output window 4's buffer tile it (one whole-block store), so they cover it. -/
theorem cover1_B_4 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) (y : S3000x64.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).1 S3000x64.size (by sl_kernel_rfl) y

/-- What a later point leaves in output window 4's staging buffer: its pieces read back. -/
def out1_B_4 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : Vec F S3000x64 .f32 :=
  VO1_4.read (Elt F) (VO1_4.writes (Elt F) VO1_4.junk (kernelRun1_B c i arg1 harg1 arg2 harg2 arg3 harg3 arg4 harg4 arg5 harg5 arg6 harg6 arg7 harg7 arg8 harg8 arg9 harg9 hc0 x0 x1 x2 x3 xs0 xs1).1)

/-- The pieces a later point's run leaves in output window 5's buffer tile it (one whole-block store), so they cover it. -/
theorem cover1_B_5 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.1 S1x64.size (by sl_kernel_rfl) y

/-- What a later point leaves in output window 5's staging buffer: its pieces read back. -/
def out1_B_5 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : Vec F S1x64 .f32 :=
  VO1_5.read (Elt F) (VO1_5.writes (Elt F) VO1_5.junk (kernelRun1_B c i arg1 harg1 arg2 harg2 arg3 harg3 arg4 harg4 arg5 harg5 arg6 harg6 arg7 harg7 arg8 harg8 arg9 harg9 hc0 x0 x1 x2 x3 xs0 xs1).2.1)

/-- The pieces a later point's run leaves in output window 6's buffer tile it (one whole-block store), so they cover it. -/
theorem cover1_B_6 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.2.1 S1x64.size (by sl_kernel_rfl) y

/-- What a later point leaves in output window 6's staging buffer: its pieces read back. -/
def out1_B_6 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : Vec F S1x64 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 hc0 x0 x1 x2 x3 xs0 xs1).2.2.1)

/-- The pieces a later point's run leaves in scratch row 0 cover it (whole-row stores). -/
theorem scover1_B_0 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.2.2.1 S1x64.size (by sl_kernel_rfl) y

/-- What a later point leaves in scratch row 0: its pieces read back. -/
def sout1_B_0 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : Vec F S1x64 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 x0 x1 x2 x3 xs0 xs1).2.2.2.1)

/-- The pieces a later point's run leaves in scratch row 1 cover it (whole-row stores). -/
theorem scover1_B_1 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.2.2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.2.2.2.1 S1x64.size (by sl_kernel_rfl) y

/-- What a later point leaves in scratch row 1: its pieces read back. -/
def sout1_B_1 (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : Vec F S1x64 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 hc0 x0 x1 x2 x3 xs0 xs1).2.2.2.2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data whose array is the entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is not
    fetched its block index has not moved), for any proof data whose array is the entry contents and whose body
    leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is not
    fetched its block index has not moved), for any proof data whose array is the entry contents and whose body
    leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is not
    fetched its block index has not moved), for any proof data whose array is the entry contents and whose body
    leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point, and the condition there -/

abbrev ms1_0 (t : Fin cfg1.N) : Memref sig .tc .vmem S3000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3000x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)

theorem hA1_of (t : Fin cfg1.N) (h : t.val = 0) : cond1_0 (grid1.coords t) :=
  (hcond1_0 t).mpr (by rw [h])
theorem hB1_of (t : Fin cfg1.N) (h : t.val ≠ 0) : ¬cond1_0 (grid1.coords t) := fun hc => by
  have h1 := (hcond1_0 t).mp hc
  have hN : t.val < 40 := lt_of_lt_of_eq t.isLt (show cfg1.N = 40 from N_1)
  omega

/-! ## What the outputs and the scratch rows hold after each point -/

/-- After the body at position `n`: output windows 4, 5, 6, then scratch rows 0, 1. The first point runs the zeroing
    case from the point's blocks; every later point runs the other case from its blocks and from what the point
    before left in the two scratch rows. -/
def outsAt1 (c : Dev nD) : (n : ℕ) → n < cfg1.N → Vec F S3000x64 .f32 × Vec F S1x64 .f32 × Vec F S1x64 .f32 × Vec F S1x64 .f32 × Vec F S1x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) (hA1_of ⟨0, hn⟩ rfl) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) (hA1_of ⟨0, hn⟩ rfl) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) (hA1_of ⟨0, hn⟩ rfl) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) (hA1_of ⟨0, hn⟩ rfl) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) (hA1_of ⟨0, hn⟩ rfl) (iblk1 V c 0 ⟨0, hn⟩) (iblk1 V c 1 ⟨0, hn⟩) (iblk1 V c 2 ⟨0, hn⟩) (iblk1 V c 3 ⟨0, hn⟩))
  | n + 1, hn => (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (hB1_of ⟨n + 1, hn⟩ (Nat.succ_ne_zero n)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (hB1_of ⟨n + 1, hn⟩ (Nat.succ_ne_zero n)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (hB1_of ⟨n + 1, hn⟩ (Nat.succ_ne_zero n)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (hB1_of ⟨n + 1, hn⟩ (Nat.succ_ne_zero n)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (hB1_of ⟨n + 1, hn⟩ (Nat.succ_ne_zero n)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2)

/-- `outsAt1` at the first point. -/
theorem outsAt1_A (c : Dev nD) (t : Fin cfg1.N) (h0 : t.val = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t)) := by
  obtain ⟨n, hn⟩ := t
  cases n with
  | zero => exact rfl
  | succ n => exact absurd h0 (Nat.succ_ne_zero n)

/-- `outsAt1` at a later point, over what the point before left. -/
theorem outsAt1_B (c : Dev nD) (t : Fin cfg1.N) (h0 : t.val ≠ 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact rfl

/-! ## The invariant -/

/-- The region invariant before position `n`: before the first point the class's (every scoped buffer that is no
    staging buffer at anything, the generator register at some state); afterwards the same with the two scratch rows
    at what the point before left in them. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

/-- The proof data of pipeline 1 on core `c`: the arrays as the region finds them; after the body at point `t` each
    input's buffer at its block and each output's at `outsAt1`'s component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 4800000 in
/-- The body at any point. The inputs' memrefs hold their blocks; the point is the first or a later one, and that
    case's run applies: the invariant hands the body the two scratch rows (at anything at the first point, at what the
    point before left afterwards) and takes them back at this point's contents; each output buffer ends at its pieces
    read back, because the pieces cover it; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6]
  by_cases hz : t.val = 0
  ·
    rw [outsAt1_A V c t hz]
    unfold out1_A_4 out1_A_5 out1_A_6 sout1_A_0 sout1_A_1; (try dsimp only)
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t hz) (iblk1 V c 0 t) (iblk1 V c 1 t) (iblk1 V c 2 t) (iblk1 V c 3 t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t hz) (iblk1 V c 0 t) (iblk1 V c 1 t) (iblk1 V c 2 t) (iblk1 V c 3 t))
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t hz) (iblk1 V c 0 t) (iblk1 V c 1 t) (iblk1 V c 2 t) (iblk1 V c 3 t))
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t hz) (iblk1 V c 0 t) (iblk1 V c 1 t) (iblk1 V c 2 t) (iblk1 V c 3 t))
    isplitl [H5]
    · unfold owns; iexists _; isplitr
      swap; · iexact H5
      ipureintro; exact View.read_writes_of_cover _ _ _ _ _ (cover1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t hz) (iblk1 V c 0 t) (iblk1 V c 1 t) (iblk1 V c 2 t) (iblk1 V c 3 t))
    unfold owns; iexists _; isplitr
    swap; · iexact H6
    ipureintro; exact View.read_writes_of_cover _ _ _ _ _ (cover1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t hz) (iblk1 V c 0 t) (iblk1 V c 1 t) (iblk1 V c 2 t) (iblk1 V c 3 t))
  ·
    rw [outsAt1_B V c t hz]
    unfold out1_B_4 out1_B_5 out1_B_6 sout1_B_0 sout1_B_1; (try dsimp only)
    rw [PhiS1_castSucc V c t, PhiS1_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t hz) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t hz) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2)
          · unfold owns; iexists _; isplitr
            swap; · iexact HS1
            ipureintro; exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t hz) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t hz) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2)
    isplitl [H5]
    · unfold owns; iexists _; isplitr
      swap; · iexact H5
      ipureintro; exact View.read_writes_of_cover _ _ _ _ _ (cover1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t hz) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2)
    unfold owns; iexists _; isplitr
    swap; · iexact H6
    ipureintro; exact View.read_writes_of_cover _ _ _ _ _ (cover1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t hz) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: what the scratch rows hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 40 := N_1; omega)

end Region

end Cert.KernelIdeal.Hand

end
-- ==== Proof.KI.Region2.lean ====
/- Region 2 of @main (custom_call 2, pipeline 2): the pointwise kernel `cc2__bn_relu_kernel`,
   out = max(x * scale + shift, 0) on one block of rows, scale and shift single rows broadcast down the block.
   Everything is stated at a parameter `V`, the TensorCore's buffer contents when the region is entered, and at any
   float instance `F`: each window's block at a grid point read off its array, what the body leaves in the output
   window's buffer (its one store over the whole block), the body's triple, the pipeline's proof data and the body
   obligation at every point. The three inputs are left in place by the body; whether or not a window is fetched
   at a point its buffer holds that point's block, since an unfetched window's block index has not moved. -/
import proofs.«143519_j50869592655552_1_alg».proof.Proof.Gen.KernelIdeal.Launch
import proofs.«143519_j50869592655552_1_alg».proof.Proof.Gen.KernelIdeal.Skeleton
import proofs.«143519_j50869592655552_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole block of rows, and the whole single row: the only rectangles the body touches. -/
abbrev r2_0 : Rect S3000x64 := Rect.unit (s := S3000x64) ![0, 0] S3000x64.size inb_S3000x64_S3000x64_0_0
abbrev r2_1 : Rect S1x64 := Rect.unit (s := S1x64) ![0, 0] S1x64.size inb_S1x64_S1x64_0_0

/-! ## What the body leaves in the output window's buffer -/

/-- Window 3's staging buffer after the body, from the input windows' blocks: its one store, of the payload
    max(x * scale + shift, 0) of the three loads, over the whole block. -/
def out2_3 (x0 : Vec F S3000x64 .f32) (x1 : Vec F S1x64 .f32) (x2 : Vec F S1x64 .f32) : Vec F S3000x64 .f32 :=
  View.canon [⟨r2_0, k2_pay1 (View.ld x0 r2_0) (View.ld x1 r2_1) (View.ld x2 r2_1)⟩]

/-- The one store tiles the buffer, so it covers it. -/
theorem cover2_3 (p0 : Vec F S3000x64 .f32) (y : S3000x64.Idx) :
    ∃ pc ∈ ([⟨r2_0, p0⟩] : List (View.Piece (Elt F) S3000x64 .f32)), y ∈ pc.1.set :=
  View.cover_of_tiled [⟨r2_0, p0⟩] S3000x64.size (by rfl) y

/-! ## The body's triple -/

set_option maxHeartbeats 1000000 in
/-- The kernel body on whole staging memrefs, the inputs' at read contents and the output's at anything, runs to the
    continuation holding the inputs' as they were and the output's at `out2_3` of the inputs'. -/
theorem sound_kernel2 (c : Dev nD) (E : Set ℕ) (i : grid2.Coords)
    (arg0 : Memref sig .tc .vmem S3000x64 .f32) (harg0 : arg0.IsWhole) (arg1 : Memref sig .tc .vmem S1x64 .f32) (harg1 : arg1.IsWhole)
    (arg2 : Memref sig .tc .vmem S1x64 .f32) (harg2 : arg2.IsWhole) (arg3 : Memref sig .tc .vmem S3000x64 .f32) (harg3 : arg3.IsWhole)
    (x0 : Vec F S3000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__bn_relu_kernel i arg0 harg0 arg1 harg1 arg2 harg2 arg3 harg3) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- The invariant is the class's at both ends of the grid. -/
theorem hin2 (c : Dev nD) : Pipeline.ΦA spec2 c ⊢ (dat2 V c).Φ 0 := .rfl
theorem hout2 (c : Dev nD) : (dat2 V c).Φ (Fin.last cfg2.N) ⊢ Pipeline.ΦA spec2 c := .rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Fold1.lean ====
/-
  The buffer contents at each boundary between two items of the kernel program's @main, as a fold from the launch
  memory. @main is sixteen items: the host stretch hostOps0, region 0, hostOps1, region 1, hostOps2, regions 2 and 3,
  hostOps4, region 4, hostOps5, regions 5 and 6, hostOps7, region 7, hostOps8, region 8. `Wi` is what a core's buffers hold
  after the first `i` items: a stretch applies its operations; a region leaves its input arrays as entered and each
  output array at what its write-backs leave. This module: the first six items (the edge MLP's three regions).
-/
import proofs.«143519_j50869592655552_1_alg».proof.Proof.KI.HostFacts
import proofs.«143519_j50869592655552_1_alg».proof.Proof.KI.Region0
import proofs.«143519_j50869592655552_1_alg».proof.Proof.KI.Region1
import proofs.«143519_j50869592655552_1_alg».proof.Proof.KI.Region2

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0`. -/
def W1 : Dev nD → Valuation τ sig (Elt F) := fun c => StableHlo.after hostOps0 (W0 m ρ c)
/-- Region 0's entry contents, read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2x : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2x m ρ c (Pipeline.arrRef spec0 w) :=
  (W2_arr m ρ c w).symm
theorem hrest0 (c : Dev nD) : ∀ b, b ∉ Finset.univ.image (Pipeline.arrRef spec0) → V2x m ρ c b = V1 m ρ c b :=
  fun b hb => W2_of_ne m ρ c b fun w e => hb (Finset.mem_image.mpr ⟨w, Finset.mem_univ _, e⟩)
/-- After `hostOps1`. -/
def W3 : Dev nD → Valuation τ sig (Elt F) := fun c => StableHlo.after hostOps1 (W2 m ρ c)
/-- Region 1's entry contents, read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
abbrev V4x : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4x m ρ c (Pipeline.arrRef spec1 w) :=
  (W4_arr m ρ c w).symm
theorem hrest1 (c : Dev nD) : ∀ b, b ∉ Finset.univ.image (Pipeline.arrRef spec1) → V4x m ρ c b = V3 m ρ c b :=
  fun b hb => W4_of_ne m ρ c b fun w e => hb (Finset.mem_image.mpr ⟨w, Finset.mem_univ _, e⟩)
/-- After `hostOps2`. -/
def W5 : Dev nD → Valuation τ sig (Elt F) := fun c => StableHlo.after hostOps2 (W4 m ρ c)
/-- Region 2's entry contents, read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
abbrev V6x : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6x m ρ c (Pipeline.arrRef spec2 w) :=
  (W6_arr m ρ c w).symm
theorem hrest2 (c : Dev nD) : ∀ b, b ∉ Finset.univ.image (Pipeline.arrRef spec2) → V6x m ρ c b = V5 m ρ c b :=
  fun b hb => W6_of_ne m ρ c b fun w e => hb (Finset.mem_image.mpr ⟨w, Finset.mem_univ _, e⟩)

end Cert.KernelIdeal.Hand

end
-- ==== Proof.KI.Region3RunA.lean ====
import proofs.«143519_j50869592655552_1_alg».proof.Proof.Gen.KernelIdeal.Launch
import proofs.«143519_j50869592655552_1_alg».proof.Proof.Gen.KernelIdeal.Skeleton
import proofs.«143519_j50869592655552_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 3 (the linear layer with running column sums): what the two control cases share, and the first case

The kernel at grid point `i` multiplies the point's 5000 rows of the input by the weight matrix, stores the
product into the output window, adds the product's column sums and the column sums of its squares to two
`[1,128]` accumulators kept in scratch memory between points (zeroed when `i = 0`), and copies the two
accumulators into the last two output windows. -/

section Shared
-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input rows' staging buffer holds the point's block of rows at every point, for any proof data over the
    entry contents whose body leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight matrix's staging buffer, fetched once, holds the (one) block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end Shared

/-! ## The body's branch condition -/

/-- The condition of the body's one conditional, from the grid coordinate: "this is the first point". -/
abbrev cond3_0 (i : grid3.Coords) : Prop := (Scalar.cmpi .ne (Scalar.extui (Scalar.cmpi .eq (BitVec.ofNat 32 (i 0).val) 0#32)) 0#32) = 1#1
/-- It holds at point 0 only — decided over the 30 points. -/
theorem hcond3_0 : ∀ t : Fin cfg3.N, cond3_0 (grid3.coords t) ↔ t.val % 30 = 0 :=
  (by decide +kernel : ∀ t : Fin grid3.N, cond3_0 (grid3.coords t) ↔ t.val % 30 = 0)

/-! ## The memrefs the body is called with -/

/-- One staging buffer of each output window, through which its contents are stated. -/
abbrev VO3_2 : View sig .tc .vmem S5000x128 .f32 := (Memref.whole cc3_stg2_0 : Memref sig .tc .vmem S5000x128 .f32).view
abbrev VO3_3 : View sig .tc .vmem S1x128 .f32 := (Memref.whole cc3_stg3_0 : Memref sig .tc .vmem S1x128 .f32).view
abbrev VO3_4 : View sig .tc .vmem S1x128 .f32 := (Memref.whole cc3_stg4_0 : Memref sig .tc .vmem S1x128 .f32).view
/-- Each window's current staging memref at point `t`, and its wholeness. -/
abbrev ms3_0 (t : Fin cfg3.N) : Memref sig .tc .vmem S5000x320 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S320x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
/-- The two accumulators: whole scoped buffers of the kernel's own, passed beside the windows. -/
abbrev scM3_0 : Memref sig .tc .vmem S1x128 .f32 := Memref.whole cc3_scratch0
abbrev scM3_1 : Memref sig .tc .vmem S1x128 .f32 := Memref.whole cc3_scratch1
abbrev VS3_0 : View sig .tc .vmem S1x128 .f32 := scM3_0.view
abbrev VS3_1 : View sig .tc .vmem S1x128 .f32 := scM3_1.view

/-- The class invariant with the two accumulators taken out of the scoped rest as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-! ## The first point's run -/

set_option maxHeartbeats 1000000 in
/-- What the body's stores leave in each output's staging memref and in each accumulator, as pieces (last first), AT
    THE FIRST POINT (the conditional taken: the accumulators are zeroed first), with the proof that on whole
    memrefs — the inputs' at their contents, everything else at anything — the body runs to the continuation holding
    the inputs' as they were and every other buffer with its pieces written. The pieces are what the run finds. -/
noncomputable def kernelRun3_A (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i)
    (x0 : Vec F S5000x320 .f32) (x1 : Vec F S320x128 .f32) :
    Σ' (L2 : List (View.Piece (Elt F) S5000x128 .f32)) (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__linear_accum_kernel i arg1 harg1 arg2 harg2 arg3 harg3 arg4 harg4 arg5 harg5 arg6 harg6 arg7 harg7) K } := by
  refine ⟨?_, ?_, ?_, ?_, ?_, fun E K => ?run⟩
  case run =>
    simp only [cc3__linear_accum_kernel_eq_skeleton]; unfold cc3__linear_accum_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Hand

end
-- ==== Proof.KI.Region3RunB.lean ====
import proofs.«143519_j50869592655552_1_alg».proof.Proof.KI.Region3RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 3: the run at every later point

The conditional is not taken: the two accumulators enter at what the point before left in them. -/

set_option maxHeartbeats 1000000 in
/-- What the body's stores leave in each output's staging memref and in each accumulator, as pieces (last first), AT A
    POINT AFTER THE FIRST (the conditional not taken), the accumulators entering at known contents `xs0`, `xs1`. -/
noncomputable def kernelRun3_B (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i)
    (x0 : Vec F S5000x320 .f32) (x1 : Vec F S320x128 .f32) (xs0 : Vec F S1x128 .f32) (xs1 : Vec F S1x128 .f32) :
    Σ' (L2 : List (View.Piece (Elt F) S5000x128 .f32)) (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__linear_accum_kernel i arg1 harg1 arg2 harg2 arg3 harg3 arg4 harg4 arg5 harg5 arg6 harg6 arg7 harg7) K } := by
  refine ⟨?_, ?_, ?_, ?_, ?_, fun E K => ?run⟩
  case run =>
    simp only [cc3__linear_accum_kernel_eq_skeleton]; unfold cc3__linear_accum_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Hand

end
-- ==== Proof.KI.Region3.lean ====
import proofs.«143519_j50869592655552_1_alg».proof.Proof.KI.Region3RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 3 (the linear layer with running column sums): the proof data and the body obligation

At a PARAMETER `V` — the TensorCore's buffer contents when the region is entered. What the two accumulators hold
after point `t` is one pair of functions of the blocks of the points up to `t`, by recursion on the point; the two
windows of sums hold the pair's current value after every point, and the output window holds the point's own product. -/

/-- The pieces the first point' run leaves in the output window cover it (each store is of the whole block). -/
theorem cover3_A_2 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i) (x0 : Vec F S5000x320 .f32) (x1 : Vec F S320x128 .f32) (y : S5000x128.Idx) :
    ∃ pc ∈ (kernelRun3_A c i arg1 harg1 arg2 harg2 arg3 harg3 arg4 harg4 arg5 harg5 arg6 harg6 arg7 harg7 hc0 x0 x1).1, y ∈ pc.1.set :=
  View.cover_of_tiledL (kernelRun3_A c i arg1 harg1 arg2 harg2 arg3 harg3 arg4 harg4 arg5 harg5 arg6 harg6 arg7 harg7 hc0 x0 x1).1 S5000x128.size (by sl_kernel_rfl) y

/-- The pieces the first point' run leaves in the column-sum window cover it (each store is of the whole block). -/
theorem cover3_A_3 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i) (x0 : Vec F S5000x320 .f32) (x1 : Vec F S320x128 .f32) (y : S1x128.Idx) :
    ∃ pc ∈ (kernelRun3_A c i arg1 harg1 arg2 harg2 arg3 harg3 arg4 harg4 arg5 harg5 arg6 harg6 arg7 harg7 hc0 x0 x1).2.1, y ∈ pc.1.set :=
  View.cover_of_tiledL (kernelRun3_A c i arg1 harg1 arg2 harg2 arg3 harg3 arg4 harg4 arg5 harg5 arg6 harg6 arg7 harg7 hc0 x0 x1).2.1 S1x128.size (by sl_kernel_rfl) y

/-- The pieces the first point' run leaves in the window of the column sums of squares cover it (each store is of the whole block). -/
theorem cover3_A_4 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i) (x0 : Vec F S5000x320 .f32) (x1 : Vec F S320x128 .f32) (y : S1x128.Idx) :
    ∃ pc ∈ (kernelRun3_A c i arg1 harg1 arg2 harg2 arg3 harg3 arg4 harg4 arg5 harg5 arg6 harg6 arg7 harg7 hc0 x0 x1).2.2.1, y ∈ pc.1.set :=
  View.cover_of_tiledL (kernelRun3_A c i arg1 harg1 arg2 harg2 arg3 harg3 arg4 harg4 arg5 harg5 arg6 harg6 arg7 harg7 hc0 x0 x1).2.2.1 S1x128.size (by sl_kernel_rfl) y

/-- The pieces the first point' run leaves in the first accumulator cover it (each store is of the whole block). -/
theorem scover3_A_0 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i) (x0 : Vec F S5000x320 .f32) (x1 : Vec F S320x128 .f32) (y : S1x128.Idx) :
    ∃ pc ∈ (kernelRun3_A c i arg1 harg1 arg2 harg2 arg3 harg3 arg4 harg4 arg5 harg5 arg6 harg6 arg7 harg7 hc0 x0 x1).2.2.2.1, y ∈ pc.1.set :=
  View.cover_of_tiledL (kernelRun3_A c i arg1 harg1 arg2 harg2 arg3 harg3 arg4 harg4 arg5 harg5 arg6 harg6 arg7 harg7 hc0 x0 x1).2.2.2.1 S1x128.size (by sl_kernel_rfl) y

/-- The pieces the first point' run leaves in the second accumulator cover it (each store is of the whole block). -/
theorem scover3_A_1 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i) (x0 : Vec F S5000x320 .f32) (x1 : Vec F S320x128 .f32) (y : S1x128.Idx) :
    ∃ pc ∈ (kernelRun3_A c i arg1 harg1 arg2 harg2 arg3 harg3 arg4 harg4 arg5 harg5 arg6 harg6 arg7 harg7 hc0 x0 x1).2.2.2.2.1, y ∈ pc.1.set :=
  View.cover_of_tiledL (kernelRun3_A c i arg1 harg1 arg2 harg2 arg3 harg3 arg4 harg4 arg5 harg5 arg6 harg6 arg7 harg7 hc0 x0 x1).2.2.2.2.1 S1x128.size (by sl_kernel_rfl) y

/-- What the first point leaves: the output window's block, the two windows of sums, the two accumulators — each its
    pieces read back. -/
def res3_A (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i) (x0 : Vec F S5000x320 .f32) (x1 : Vec F S320x128 .f32) : Vec F S5000x128 .f32 × Vec F S1x128 .f32 × Vec F S1x128 .f32 × Vec F S1x128 .f32 × Vec F S1x128 .f32 :=
  (VO3_2.read (Elt F) (VO3_2.writes (Elt F) VO3_2.junk (kernelRun3_A c i arg1 harg1 arg2 harg2 arg3 harg3 arg4 harg4 arg5 harg5 arg6 harg6 arg7 harg7 hc0 x0 x1).1),
   VO3_3.read (Elt F) (VO3_3.writes (Elt F) VO3_3.junk (kernelRun3_A c i arg1 harg1 arg2 harg2 arg3 harg3 arg4 harg4 arg5 harg5 arg6 harg6 arg7 harg7 hc0 x0 x1).2.1),
   VO3_4.read (Elt F) (VO3_4.writes (Elt F) VO3_4.junk (kernelRun3_A c i arg1 harg1 arg2 harg2 arg3 harg3 arg4 harg4 arg5 harg5 arg6 harg6 arg7 harg7 hc0 x0 x1).2.2.1),
   VS3_0.read (Elt F) (VS3_0.writes (Elt F) VS3_0.junk (kernelRun3_A c i arg1 harg1 arg2 harg2 arg3 harg3 arg4 harg4 arg5 harg5 arg6 harg6 arg7 harg7 hc0 x0 x1).2.2.2.1),
   VS3_1.read (Elt F) (VS3_1.writes (Elt F) VS3_1.junk (kernelRun3_A c i arg1 harg1 arg2 harg2 arg3 harg3 arg4 harg4 arg5 harg5 arg6 harg6 arg7 harg7 hc0 x0 x1).2.2.2.2.1))

/-- The pieces the later points' run leaves in the output window cover it (each store is of the whole block). -/
theorem cover3_B_2 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i) (x0 : Vec F S5000x320 .f32) (x1 : Vec F S320x128 .f32) (xs0 : Vec F S1x128 .f32) (xs1 : Vec F S1x128 .f32) (y : S5000x128.Idx) :
    ∃ pc ∈ (kernelRun3_B c i arg1 harg1 arg2 harg2 arg3 harg3 arg4 harg4 arg5 harg5 arg6 harg6 arg7 harg7 hc0 x0 x1 xs0 xs1).1, y ∈ pc.1.set :=
  View.cover_of_tiledL (kernelRun3_B c i arg1 harg1 arg2 harg2 arg3 harg3 arg4 harg4 arg5 harg5 arg6 harg6 arg7 harg7 hc0 x0 x1 xs0 xs1).1 S5000x128.size (by sl_kernel_rfl) y

/-- The pieces the later points' run leaves in the column-sum window cover it (each store is of the whole block). -/
theorem cover3_B_3 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i) (x0 : Vec F S5000x320 .f32) (x1 : Vec F S320x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 hc0 x0 x1 xs0 xs1).2.1, y ∈ pc.1.set :=
  View.cover_of_tiledL (kernelRun3_B c i arg1 harg1 arg2 harg2 arg3 harg3 arg4 harg4 arg5 harg5 arg6 harg6 arg7 harg7 hc0 x0 x1 xs0 xs1).2.1 S1x128.size (by sl_kernel_rfl) y

/-- The pieces the later points' run leaves in the window of the column sums of squares cover it (each store is of the whole block). -/
theorem cover3_B_4 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i) (x0 : Vec F S5000x320 .f32) (x1 : Vec F S320x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 hc0 x0 x1 xs0 xs1).2.2.1, y ∈ pc.1.set :=
  View.cover_of_tiledL (kernelRun3_B c i arg1 harg1 arg2 harg2 arg3 harg3 arg4 harg4 arg5 harg5 arg6 harg6 arg7 harg7 hc0 x0 x1 xs0 xs1).2.2.1 S1x128.size (by sl_kernel_rfl) y

/-- The pieces the later points' run leaves in the first accumulator cover it (each store is of the whole block). -/
theorem scover3_B_0 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i) (x0 : Vec F S5000x320 .f32) (x1 : Vec F S320x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 hc0 x0 x1 xs0 xs1).2.2.2.1, y ∈ pc.1.set :=
  View.cover_of_tiledL (kernelRun3_B c i arg1 harg1 arg2 harg2 arg3 harg3 arg4 harg4 arg5 harg5 arg6 harg6 arg7 harg7 hc0 x0 x1 xs0 xs1).2.2.2.1 S1x128.size (by sl_kernel_rfl) y

/-- The pieces the later points' run leaves in the second accumulator cover it (each store is of the whole block). -/
theorem scover3_B_1 (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i) (x0 : Vec F S5000x320 .f32) (x1 : Vec F S320x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 hc0 x0 x1 xs0 xs1).2.2.2.2.1, y ∈ pc.1.set :=
  View.cover_of_tiledL (kernelRun3_B c i arg1 harg1 arg2 harg2 arg3 harg3 arg4 harg4 arg5 harg5 arg6 harg6 arg7 harg7 hc0 x0 x1 xs0 xs1).2.2.2.2.1 S1x128.size (by sl_kernel_rfl) y

/-- What the a later point leaves: the output window's block, the two windows of sums, the two accumulators — each its
    pieces read back. -/
def res3_B (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i) (x0 : Vec F S5000x320 .f32) (x1 : Vec F S320x128 .f32) (xs0 : Vec F S1x128 .f32) (xs1 : Vec F S1x128 .f32) : Vec F S5000x128 .f32 × Vec F S1x128 .f32 × Vec F S1x128 .f32 × Vec F S1x128 .f32 × Vec F S1x128 .f32 :=
  (VO3_2.read (Elt F) (VO3_2.writes (Elt F) VO3_2.junk (kernelRun3_B c i arg1 harg1 arg2 harg2 arg3 harg3 arg4 harg4 arg5 harg5 arg6 harg6 arg7 harg7 hc0 x0 x1 xs0 xs1).1),
   VO3_3.read (Elt F) (VO3_3.writes (Elt F) VO3_3.junk (kernelRun3_B c i arg1 harg1 arg2 harg2 arg3 harg3 arg4 harg4 arg5 harg5 arg6 harg6 arg7 harg7 hc0 x0 x1 xs0 xs1).2.1),
   VO3_4.read (Elt F) (VO3_4.writes (Elt F) VO3_4.junk (kernelRun3_B c i arg1 harg1 arg2 harg2 arg3 harg3 arg4 harg4 arg5 harg5 arg6 harg6 arg7 harg7 hc0 x0 x1 xs0 xs1).2.2.1),
   VS3_0.read (Elt F) (VS3_0.writes (Elt F) VS3_0.junk (kernelRun3_B c i arg1 harg1 arg2 harg2 arg3 harg3 arg4 harg4 arg5 harg5 arg6 harg6 arg7 harg7 hc0 x0 x1 xs0 xs1).2.2.2.1),
   VS3_1.read (Elt F) (VS3_1.writes (Elt F) VS3_1.junk (kernelRun3_B c i arg1 harg1 arg2 harg2 arg3 harg3 arg4 harg4 arg5 harg5 arg6 harg6 arg7 harg7 hc0 x0 x1 xs0 xs1).2.2.2.2.1))

section Region
variable (V : (c : Dev nD) → (b : Ref sig .tc) → Buf (Elt F) ((c : Thread nD τ).loc b))

/-! ## What the outputs and the accumulators hold after each point -/

/-- THE ACCUMULATION. After the body at position `n`: (the output window's buffer, the two sums windows' buffers, the
    two accumulators). The first point zeroes the accumulators before adding; every later point adds to what the
    point before left in them. -/
def outsAt3 (c : Dev nD) : (n : ℕ) → n < cfg3.N → Vec F S5000x128 .f32 × Vec F S1x128 .f32 × Vec F S1x128 .f32 × Vec F S1x128 .f32 × Vec F S1x128 .f32
  | 0, hn => res3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) ((hcond3_0 ⟨0, hn⟩).mpr (Nat.zero_mod _)) (iblk3 V c 0 ⟨0, hn⟩) (iblk3 V c 1 ⟨0, hn⟩)
  | n + 1, hn => res3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _)
      (fun h => by have h' := (hcond3_0 ⟨n + 1, hn⟩).mp h; have hN : n + 1 < 30 := lt_of_lt_of_eq hn (show cfg3.N = 30 from N_3); (try dsimp only at h'); omega)
      (iblk3 V c 0 ⟨n + 1, hn⟩) (iblk3 V c 1 ⟨n + 1, hn⟩) (outsAt3 c n (Nat.lt_of_succ_lt hn)).2.2.2.1 (outsAt3 c n (Nat.lt_of_succ_lt hn)).2.2.2.2

/-- `outsAt3` at the first point. -/
theorem outsAt3_A (c : Dev nD) (t : Fin cfg3.N) (h0 : t.val = 0) (hc : cond3_0 (grid3.coords t)) :
    outsAt3 V c t.val t.isLt = res3_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) hc (iblk3 V c 0 t) (iblk3 V c 1 t) := by
  obtain ⟨n, hn⟩ := t
  cases n with
  | zero => rfl
  | succ n => exact absurd h0 (Nat.succ_ne_zero n)

/-- `outsAt3` at a later point: over what the point before left in the accumulators. -/
theorem outsAt3_B (c : Dev nD) (t : Fin cfg3.N) (h0 : t.val ≠ 0) (hc : ¬cond3_0 (grid3.coords t)) :
    outsAt3 V c t.val t.isLt = res3_B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) hc (iblk3 V c 0 t) (iblk3 V c 1 t)
      (outsAt3 V c (t.val - 1) (Nat.lt_of_le_of_lt (Nat.sub_le _ _) t.isLt)).2.2.2.1 (outsAt3 V c (t.val - 1) (Nat.lt_of_le_of_lt (Nat.sub_le _ _) t.isLt)).2.2.2.2 := by
  obtain ⟨n, hn⟩ := t
  cases n with
  | zero => exact absurd rfl h0
  | succ n => rfl

/-- The region invariant before position `n`: before the first point the class's (every scoped buffer at anything);
    afterwards the two accumulators at what the point before left in them, the other scoped buffers at anything, and the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The pipeline's proof data -/

/-- The proof data of pipeline 3 on core `c`: the arrays as the region finds them; after the body at point `t` each
    input's buffer at its block, the output window's at the point's product, the two sums windows' at the accumulators'
    current value; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2.1
    | ⟨4, _⟩ => (outsAt3 V c t.val t.isLt).2.2.1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2.1 := by dsimp only [dat3]
theorem after3_4 (c : Dev nD) (t : Fin cfg3.N) : (dat3 V c).after 4 t = (outsAt3 V c t.val t.isLt).2.2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 4800000 in
/-- The body at any point: the inputs' memrefs hold their blocks; the first point's run takes the accumulators at
    anything (out of the class invariant), a later point's at what the point before left; either way the invariant takes
    them back at this point's contents, and every output buffer is left at its pieces read back. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2, after3_3, after3_4]
  have hN : t.val < 30 := lt_of_lt_of_eq t.isLt (show cfg3.N = 30 from N_3)
  by_cases h0 : t.val = 0
  · have hc : cond3_0 (grid3.coords t) := (hcond3_0 t).mpr (by rw [h0])
    rw [outsAt3_A V c t h0 hc]
    unfold res3_A; (try dsimp only)
    rw [PhiS3_castSucc V c t, PhiS3_zero V c _ _ h0, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((kernelRun3_A c (grid3.coords t) _ _ _ _ _ _ _ _ _ _ _ _ _ _ hc (iblk3 V c 0 t) (iblk3 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, ⟨%e2, H2⟩, ⟨%e3, H3⟩, ⟨%e4, H4⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _ _ _ _)
          · unfold owns; iexists _; isplitr
            swap; · iexact HS1
            ipureintro; exact View.read_writes_of_cover _ _ _ _ _ (scover3_A_1 c _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover3_A_2 c _ _ _ _ _ _ _ _ _ _ _ _ _ _ _ _ _ _)
    isplitl [H3]
    · unfold owns; iexists _; isplitr
      swap; · iexact H3
      ipureintro; exact View.read_writes_of_cover _ _ _ _ _ (cover3_A_3 c _ _ _ _ _ _ _ _ _ _ _ _ _ _ _ _ _ _)
    unfold owns; iexists _; isplitr
    swap; · iexact H4
    ipureintro; exact View.read_writes_of_cover _ _ _ _ _ (cover3_A_4 c _ _ _ _ _ _ _ _ _ _ _ _ _ _ _ _ _ _)
  · have hc : ¬cond3_0 (grid3.coords t) := fun h => h0 (by have h' := (hcond3_0 t).mp h; omega)
    rw [outsAt3_B V c t h0 hc]
    unfold res3_B; (try dsimp only)
    rw [PhiS3_castSucc V c t, PhiS3_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((kernelRun3_B c (grid3.coords t) _ _ _ _ _ _ _ _ _ _ _ _ _ _ hc (iblk3 V c 0 t) (iblk3 V c 1 t) _ _).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, ⟨%e2, H2⟩, ⟨%e3, H3⟩, ⟨%e4, H4⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover3_B_0 c _ _ _ _ _ _ _ _ _ _ _ _ _ _ _ _ _ _ _ _)
          · unfold owns; iexists _; isplitr
            swap; · iexact HS1
            ipureintro; exact View.read_writes_of_cover _ _ _ _ _ (scover3_B_1 c _ _ _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover3_B_2 c _ _ _ _ _ _ _ _ _ _ _ _ _ _ _ _ _ _ _ _)
    isplitl [H3]
    · unfold owns; iexists _; isplitr
      swap; · iexact H3
      ipureintro; exact View.read_writes_of_cover _ _ _ _ _ (cover3_B_3 c _ _ _ _ _ _ _ _ _ _ _ _ _ _ _ _ _ _ _ _)
    unfold owns; iexists _; isplitr
    swap; · iexact H4
    ipureintro; exact View.read_writes_of_cover _ _ _ _ _ (cover3_B_4 c _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulators' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout3 (c : Dev nD) : (dat3 V c).Φ (Fin.last cfg3.N) ⊢ Pipeline.ΦA spec3 c :=
  Phi_out3 V c _ (by rw [Fin.val_last]; have : cfg3.N = 30 := N_3; omega)

end Region

end Cert.KernelIdeal.Hand

end
-- ==== Proof.KI.Region4RunA.lean ====
import proofs.«143519_j50869592655552_1_alg».proof.Proof.Gen.KernelIdeal.Launch
import proofs.«143519_j50869592655552_1_alg».proof.Proof.Gen.KernelIdeal.Skeleton
import proofs.«143519_j50869592655552_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the batch-norm / relu / linear kernel with running column sums — what the runs share

The kernel at grid point `i` (30 points, one axis): at the first point it zeroes two scratch rows; at every point it
forms `h = max (x * scale + shift) 0` on a block of 5000 rows, multiplies by the weights into a fresh product block
which it stores, adds the product's column sums and the column sums of its squares to the two scratch rows, and copies
the scratch rows into the two small output windows. -/

/-- The `scf.if` of the body: "this is the first grid point", as the body computes it from the coordinate. -/
abbrev cond4_0 (i : grid4.Coords) : Prop := (Scalar.cmpi .ne (Scalar.extui (Scalar.cmpi .eq (BitVec.ofNat 32 (i 0).val) 0#32)) 0#32) = 1#1
/-- Over the grid it holds at point 0 and nowhere else. -/
theorem hcond4_0 : ∀ t : Fin cfg4.N, cond4_0 (grid4.coords t) ↔ t.val = 0 :=
  (by decide +kernel : ∀ t : Fin grid4.N, cond4_0 (grid4.coords t) ↔ t.val = 0)

/-- The two scratch operands as memrefs: whole buffers of the kernel's own, passed beside the windows. -/
abbrev scM4_0 : Memref sig .tc .vmem S1x64 .f32 := Memref.whole cc4_scratch0
abbrev scM4_1 : Memref sig .tc .vmem S1x64 .f32 := Memref.whole cc4_scratch1
/-- Views through which buffer contents are stated (which buffer of the shape is immaterial). -/
abbrev VS4_0 : View sig .tc .vmem S1x64 .f32 := scM4_0.view
abbrev VO4_4 : View sig .tc .vmem S5000x64 .f32 := (Memref.whole cc4_stg4_0 : Memref sig .tc .vmem S5000x64 .f32).view

set_option maxHeartbeats 4000000 in
/-- The whole body in the case "first grid point": on whole memrefs, the four inputs at their blocks, the three
    outputs at any contents and the two scratch rows at any contents (the case overwrites them with zeros first), the body
    runs to the continuation with the inputs unchanged and each output and scratch memref holding the listed stores
    written over what it held. The lists are found by running the body; they are the first components. -/
noncomputable def kernelRun4_A (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__bn_relu_linear_accum_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__bn_relu_linear_accum_kernel_eq_skeleton]; unfold cc4__bn_relu_linear_accum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.Region4RunB.lean ====
import proofs.«143519_j50869592655552_1_alg».proof.Proof.KI.Region4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the body at a grid point after the first -/

set_option maxHeartbeats 4000000 in
/-- The whole body in the case "a later grid point": on whole memrefs, the four inputs at their blocks, the three
    outputs at any contents and the two scratch rows at what the point before left, the body
    runs to the continuation with the inputs unchanged and each output and scratch memref holding the listed stores
    written over what it held. The lists are found by running the body; they are the first components. -/
noncomputable def kernelRun4_B (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__bn_relu_linear_accum_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__bn_relu_linear_accum_kernel_eq_skeleton]; unfold cc4__bn_relu_linear_accum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.Region4.lean ====
import proofs.«143519_j50869592655552_1_alg».proof.Proof.KI.Region4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: what its windows and scratch rows hold point by point, the proof data, the body obligation

Everything is stated at a parameter `V`: the TensorCore's buffer contents when the region is entered. -/

/-- The stores case A makes into output window 4's staging buffer tile it, so they cover it. -/
theorem cover4_A_4 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) (y : S5000x64.Idx) :
    ∃ pc ∈ (kernelRun4_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).1 S5000x64.size (by sl_kernel_rfl) y

/-- What case A leaves in output window 4's staging buffer: its stores read back (over contents that, being covered, do not matter). -/
def out4_A_4 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) : Vec F S5000x64 .f32 :=
  VO4_4.read (Elt F) (VO4_4.writes (Elt F) VO4_4.junk (kernelRun4_A c i arg1 harg1 arg2 harg2 arg3 harg3 arg4 harg4 arg5 harg5 arg6 harg6 arg7 harg7 arg8 harg8 arg9 harg9 hc0 x0 x1 x2 x3).1)

/-- The stores case A makes into output window 5's staging buffer tile it, so they cover it. -/
theorem cover4_A_5 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) (y : S1x64.Idx) :
    ∃ pc ∈ (kernelRun4_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.1 S1x64.size (by sl_kernel_rfl) y

/-- What case A leaves in output window 5's staging buffer: its stores read back (over contents that, being covered, do not matter). -/
def out4_A_5 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 x0 x1 x2 x3).2.1)

/-- The stores case A makes into output window 6's staging buffer tile it, so they cover it. -/
theorem cover4_A_6 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) (y : S1x64.Idx) :
    ∃ pc ∈ (kernelRun4_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.2.1 S1x64.size (by sl_kernel_rfl) y

/-- What case A leaves in output window 6's staging buffer: its stores read back (over contents that, being covered, do not matter). -/
def out4_A_6 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 x0 x1 x2 x3).2.2.1)

/-- The stores case A makes into scratch row 0 tile it, so they cover it. -/
theorem scover4_A_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) (y : S1x64.Idx) :
    ∃ pc ∈ (kernelRun4_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.2.2.1 S1x64.size (by sl_kernel_rfl) y

/-- What case A leaves in scratch row 0: its stores read back (over contents that, being covered, do not matter). -/
def sout4_A_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 x0 x1 x2 x3).2.2.2.1)

/-- The stores case A makes into scratch row 1 tile it, so they cover it. -/
theorem scover4_A_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) (y : S1x64.Idx) :
    ∃ pc ∈ (kernelRun4_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.2.2.2.1 S1x64.size (by sl_kernel_rfl) y

/-- What case A leaves in scratch row 1: its stores read back (over contents that, being covered, do not matter). -/
def sout4_A_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 x0 x1 x2 x3).2.2.2.2.1)

/-- The stores case B makes into output window 4's staging buffer tile it, so they cover it. -/
theorem cover4_B_4 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) (y : S5000x64.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).1 S5000x64.size (by sl_kernel_rfl) y

/-- What case B leaves in output window 4's staging buffer: its stores read back (over contents that, being covered, do not matter). -/
def out4_B_4 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) : Vec F S5000x64 .f32 :=
  VO4_4.read (Elt F) (VO4_4.writes (Elt F) VO4_4.junk (kernelRun4_B c i arg1 harg1 arg2 harg2 arg3 harg3 arg4 harg4 arg5 harg5 arg6 harg6 arg7 harg7 arg8 harg8 arg9 harg9 hc0 x0 x1 x2 x3 xs0 xs1).1)

/-- The stores case B makes into output window 5's staging buffer tile it, so they cover it. -/
theorem cover4_B_5 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.1 S1x64.size (by sl_kernel_rfl) y

/-- What case B leaves in output window 5's staging buffer: its stores read back (over contents that, being covered, do not matter). -/
def out4_B_5 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 x0 x1 x2 x3 xs0 xs1).2.1)

/-- The stores case B makes into output window 6's staging buffer tile it, so they cover it. -/
theorem cover4_B_6 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.2.1 S1x64.size (by sl_kernel_rfl) y

/-- What case B leaves in output window 6's staging buffer: its stores read back (over contents that, being covered, do not matter). -/
def out4_B_6 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 x0 x1 x2 x3 xs0 xs1).2.2.1)

/-- The stores case B makes into scratch row 0 tile it, so they cover it. -/
theorem scover4_B_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.2.2.1 S1x64.size (by sl_kernel_rfl) y

/-- What case B leaves in scratch row 0: its stores read back (over contents that, being covered, do not matter). -/
def sout4_B_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 x0 x1 x2 x3 xs0 xs1).2.2.2.1)

/-- The stores case B makes into scratch row 1 tile it, so they cover it. -/
theorem scover4_B_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.2.2.2.1 S1x64.size (by sl_kernel_rfl) y

/-- What case B leaves in scratch row 1: its stores read back (over contents that, being covered, do not matter). -/
def sout4_B_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 x0 x1 x2 x3 xs0 xs1).2.2.2.2.1)

section Region
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is the entry contents and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data
    whose array is the entry contents and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging memref at point `t`, spelt as the pipeline passes it to the body, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)

/-- The class invariant with the two scratch rows split out of the scoped rest as memrefs owned at some contents; the
    other scoped buffers stay unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## What the outputs and the scratch rows hold after each point -/

/-- The five buffers the body writes, after the body at position `n`: the product window, the two small output windows,
    the two scratch rows. At the first point the body starts the scratch rows from zero; at a later point from what the
    point before left in them. -/
def outsAt4 (c : Dev nD) : (n : ℕ) → n < cfg4.N → Vec F S5000x64 .f32 × Vec F S1x64 .f32 × Vec F S1x64 .f32 × Vec F S1x64 .f32 × Vec F S1x64 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩),
      out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩),
      out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩))
  | n + 1, hn => (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2,
      out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2,
      out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2,
      sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2,
      sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)

/-- `outsAt4` at the first point. -/
theorem outsAt4_A (c : Dev nD) (t : Fin cfg4.N) (hz : t.val = 0) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t),
      out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t),
      out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t),
      sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t),
      sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t)) := by
  obtain ⟨n, hn⟩ := t
  cases n with
  | zero => exact rfl
  | succ n => exact absurd hz (Nat.succ_ne_zero n)

/-- `outsAt4` at a later point: over what the point before left in the scratch rows. -/
theorem outsAt4_B (c : Dev nD) (t : Fin cfg4.N) (hz : ¬t.val = 0) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl hz
  | succ n => exact rfl

/-- The region invariant before position `n`: before the first point the class's (every scoped buffer at anything);
    afterwards the two scratch rows at what the point before left, the other scoped buffers unopened, the generator
    register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The proof data of pipeline 4 on core `c`: the arrays as the region finds them; after the body each input's buffer
    at its block, each output's at `outsAt4`'s component; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

set_option maxHeartbeats 4800000 in
/-- The body at any point: the inputs' memrefs hold their blocks; at the first point the invariant hands the scratch rows
    at anything and the first-point run applies, at a later point it hands them at what the point before left and the
    later-point run applies; either way the invariant takes them back at this point's contents (the stores cover them). -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [after4_0, after4_1, after4_2, after4_3, after4_4, after4_5, after4_6]
  by_cases hz : t.val = 0
  · rw [outsAt4_A V c t hz]
    unfold out4_A_4 out4_A_5 out4_A_6 sout4_A_0 sout4_A_1; (try dsimp only)
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr hz) (iblk4 V c 0 t) (iblk4 V c 1 t) (iblk4 V c 2 t) (iblk4 V c 3 t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ )
          · unfold owns; iexists _; isplitr
            swap; · iexact HS1
            ipureintro; exact View.read_writes_of_cover _ _ _ _ _ (scover4_A_1 c _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_A_4 c _ _ _ _ _ _ _ _ _ _ _ _ _ _ _ _ _ _ _ _ _ _ _ _ )
    isplitl [H5]
    · unfold owns; iexists _; isplitr
      swap; · iexact H5
      ipureintro; exact View.read_writes_of_cover _ _ _ _ _ (cover4_A_5 c _ _ _ _ _ _ _ _ _ _ _ _ _ _ _ _ _ _ _ _ _ _ _ _ )
    unfold owns; iexists _; isplitr
    swap; · iexact H6
    ipureintro; exact View.read_writes_of_cover _ _ _ _ _ (cover4_A_6 c _ _ _ _ _ _ _ _ _ _ _ _ _ _ _ _ _ _ _ _ _ _ _ _ )
  · rw [outsAt4_B V c t hz]
    unfold out4_B_4 out4_B_5 out4_B_6 sout4_B_0 sout4_B_1; (try dsimp only)
    rw [PhiS4_castSucc V c t, PhiS4_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_B c (grid4.coords t) _ _ _ _ _ _ _ _ _ _ _ _ _ _ _ _ _ _ (fun h => hz ((hcond4_0 t).mp h)) (iblk4 V c 0 t) (iblk4 V c 1 t) (iblk4 V c 2 t) (iblk4 V c 3 t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_B_0 c _ _ _ _ _ _ _ _ _ _ _ _ _ _ _ _ _ _ _ _ _ _ _ _ _ _ )
          · unfold owns; iexists _; isplitr
            swap; · iexact HS1
            ipureintro; exact View.read_writes_of_cover _ _ _ _ _ (scover4_B_1 c _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_B_4 c _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover4_B_5 c _ _ _ _ _ _ _ _ _ _ _ _ _ _ _ _ _ _ _ _ _ _ _ _ _ _ )
    unfold owns; iexists _; isplitr
    swap; · iexact H6
    ipureintro; exact View.read_writes_of_cover _ _ _ _ _ (cover4_B_6 c _ _ _ _ _ _ _ _ _ _ _ _ _ _ _ _ _ _ _ _ _ _ _ _ _ _ )

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the scratch rows' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout4 (c : Dev nD) : (dat4 V c).Φ (Fin.last cfg4.N) ⊢ Pipeline.ΦA spec4 c :=
  Phi_out4 V c _ (by rw [Fin.val_last]; have : cfg4.N = 30 := N_4; omega)

end Region

end Cert.KernelIdeal.Hand

end
-- ==== Proof.KI.Region5.lean ====
/- Region 5 of @main (custom_call 5, pipeline 5): the pointwise kernel `cc5__bn_relu_kernel`,
   out = max(x * scale + shift, 0) on one block of rows, scale and shift single rows broadcast down the block.
   Everything is stated at a parameter `V`, the TensorCore's buffer contents when the region is entered, and at any
   float instance `F`: each window's block at a grid point read off its array, what the body leaves in the output
   window's buffer (its one store over the whole block), the body's triple, the pipeline's proof data and the body
   obligation at every point. The three inputs are left in place by the body; whether or not a window is fetched
   at a point its buffer holds that point's block, since an unfetched window's block index has not moved. -/
import proofs.«143519_j50869592655552_1_alg».proof.Proof.Gen.KernelIdeal.Launch
import proofs.«143519_j50869592655552_1_alg».proof.Proof.Gen.KernelIdeal.Skeleton
import proofs.«143519_j50869592655552_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole block of rows, and the whole single row: the only rectangles the body touches. -/
abbrev r5_0 : Rect S5000x64 := Rect.unit (s := S5000x64) ![0, 0] S5000x64.size inb_S5000x64_S5000x64_0_0
abbrev r5_1 : Rect S1x64 := Rect.unit (s := S1x64) ![0, 0] S1x64.size inb_S1x64_S1x64_0_0

/-! ## What the body leaves in the output window's buffer -/

/-- Window 3's staging buffer after the body, from the input windows' blocks: its one store, of the payload
    max(x * scale + shift, 0) of the three loads, over the whole block. -/
def out5_3 (x0 : Vec F S5000x64 .f32) (x1 : Vec F S1x64 .f32) (x2 : Vec F S1x64 .f32) : Vec F S5000x64 .f32 :=
  View.canon [⟨r5_0, k5_pay1 (View.ld x0 r5_0) (View.ld x1 r5_1) (View.ld x2 r5_1)⟩]

/-- The one store tiles the buffer, so it covers it. -/
theorem cover5_3 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body's triple -/

set_option maxHeartbeats 1000000 in
/-- The kernel body on whole staging memrefs, the inputs' at read contents and the output's at anything, runs to the
    continuation holding the inputs' as they were and the output's at `out5_3` of the inputs'. -/
theorem sound_kernel5 (c : Dev nD) (E : Set ℕ) (i : grid5.Coords)
    (arg0 : Memref sig .tc .vmem S5000x64 .f32) (harg0 : arg0.IsWhole) (arg1 : Memref sig .tc .vmem S1x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out5_3 x0 x1 x2)) -∗ K ⟨⟩))
      ⊢ wp frame (wpE (defs₀ (F := F)) Variants.none c none) E (cc5__bn_relu_kernel i arg0 harg0 arg1 harg1 arg2 harg2 arg3 harg3) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point `t`
    each input's buffer at its block and the output's at `out5_3` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- The invariant is the class's at both ends of the grid. -/
theorem hin5 (c : Dev nD) : Pipeline.ΦA spec5 c ⊢ (dat5 V c).Φ 0 := .rfl
theorem hout5 (c : Dev nD) : (dat5 V c).Φ (Fin.last cfg5.N) ⊢ Pipeline.ΦA spec5 c := .rfl

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Fold2.lean ====
/-
  The fold of buffer contents through @main, continued: items seven to eleven (the first cycle MLP's three regions).
-/
import proofs.«143519_j50869592655552_1_alg».proof.Proof.KI.Fold1
import proofs.«143519_j50869592655552_1_alg».proof.Proof.KI.Region3
import proofs.«143519_j50869592655552_1_alg».proof.Proof.KI.Region4
import proofs.«143519_j50869592655552_1_alg».proof.Proof.KI.Region5

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (ρ : Dev nD → PrngReg)
/-- Region 3's entry contents, read at the TensorCore's references. -/
abbrev V6 : (c : Dev nD) → (b : Ref sig .tc) → Buf (Elt F) ((c : Thread nD τ).loc b) := fun c b => W6 m ρ c b
/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- An input window's array leaves region 3 as it entered. -/
theorem W7_in (c : Dev nD) (w : Fin cfg3.W) (hw : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hw _).trans (A_eq3 (V6 m ρ) c w))
abbrev V7x : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7x m ρ c (Pipeline.arrRef spec3 w) :=
  (W7_arr m ρ c w).symm
theorem hrest3 (c : Dev nD) : ∀ b, b ∉ Finset.univ.image (Pipeline.arrRef spec3) → V7x m ρ c b = V6 m ρ c b :=
  fun b hb => W7_of_ne m ρ c b fun w e => hb (Finset.mem_image.mpr ⟨w, Finset.mem_univ _, e⟩)
/-- After `hostOps4`. -/
def W8 : Dev nD → Valuation τ sig (Elt F) := fun c => StableHlo.after hostOps4 (W7 m ρ c)
/-- Region 4's entry contents, read at the TensorCore's references. -/
abbrev V8 : (c : Dev nD) → (b : Ref sig .tc) → Buf (Elt F) ((c : Thread nD τ).loc b) := fun c b => W8 m ρ c b
/-- At region 4's exit: its arrays at what the pipeline leaves, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- An input window's array leaves region 4 as it entered. -/
theorem W9_in (c : Dev nD) (w : Fin cfg4.W) (hw : (cfg4.win w).isOut = false) :
    W9 m ρ c (Proc.devRef .tc (Pipeline.arrRef spec4 w)) = W8 m ρ c (Proc.devRef .tc (Pipeline.arrRef spec4 w)) :=
  (W9_arr m ρ c w).trans (((dat4 (V8 m ρ) c).arrAt_in w hw _).trans (A_eq4 (V8 m ρ) c w))
abbrev V9x : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9x m ρ c (Pipeline.arrRef spec4 w) :=
  (W9_arr m ρ c w).symm
theorem hrest4 (c : Dev nD) : ∀ b, b ∉ Finset.univ.image (Pipeline.arrRef spec4) → V9x m ρ c b = V8 m ρ c b :=
  fun b hb => W9_of_ne m ρ c b fun w e => hb (Finset.mem_image.mpr ⟨w, Finset.mem_univ _, e⟩)
/-- After `hostOps5`. -/
def W10 : Dev nD → Valuation τ sig (Elt F) := fun c => StableHlo.after hostOps5 (W9 m ρ c)
/-- Region 5's entry contents, read at the TensorCore's references. -/
abbrev V10 : (c : Dev nD) → (b : Ref sig .tc) → Buf (Elt F) ((c : Thread nD τ).loc b) := fun c b => W10 m ρ c b
/-- At region 5's exit: its arrays at what the pipeline leaves, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- An input window's array leaves region 5 as it entered. -/
theorem W11_in (c : Dev nD) (w : Fin cfg5.W) (hw : (cfg5.win w).isOut = false) :
    W11 m ρ c (Proc.devRef .tc (Pipeline.arrRef spec5 w)) = W10 m ρ c (Proc.devRef .tc (Pipeline.arrRef spec5 w)) :=
  (W11_arr m ρ c w).trans (((dat5 (V10 m ρ) c).arrAt_in w hw _).trans (A_eq5 (V10 m ρ) c w))
abbrev V11x : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11x m ρ c (Pipeline.arrRef spec5 w) :=
  (W11_arr m ρ c w).symm
theorem hrest5 (c : Dev nD) : ∀ b, b ∉ Finset.univ.image (Pipeline.arrRef spec5) → V11x m ρ c b = V10 m ρ c b :=
  fun b hb => W11_of_ne m ρ c b fun w e => hb (Finset.mem_image.mpr ⟨w, Finset.mem_univ _, e⟩)

end Cert.KernelIdeal.Hand

end
-- ==== Proof.KI.Region6RunA.lean ====
import proofs.«143519_j50869592655552_1_alg».proof.Proof.Gen.KernelIdeal.Launch
import proofs.«143519_j50869592655552_1_alg».proof.Proof.Gen.KernelIdeal.Skeleton
import proofs.«143519_j50869592655552_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 6 (the linear layer with running column sums): what the two control cases share, and the first case

The kernel at grid point `i` multiplies the point's 5000 rows of the input by the weight matrix, stores the
product into the output window, adds the product's column sums and the column sums of its squares to two
`[1,128]` accumulators kept in scratch memory between points (zeroed when `i = 0`), and copies the two
accumulators into the last two output windows. -/

section Shared
-- the TensorCore's buffer contents when the region is entered
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The input rows' staging buffer holds the point's block of rows at every point, for any proof data over the
    entry contents whose body leaves that block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight matrix's staging buffer, fetched once, holds the (one) block at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

end Shared

/-! ## The body's branch condition -/

/-- The condition of the body's one conditional, from the grid coordinate: "this is the first point". -/
abbrev cond6_0 (i : grid6.Coords) : Prop := (Scalar.cmpi .ne (Scalar.extui (Scalar.cmpi .eq (BitVec.ofNat 32 (i 0).val) 0#32)) 0#32) = 1#1
/-- It holds at point 0 only — decided over the 30 points. -/
theorem hcond6_0 : ∀ t : Fin cfg6.N, cond6_0 (grid6.coords t) ↔ t.val % 30 = 0 :=
  (by decide +kernel : ∀ t : Fin grid6.N, cond6_0 (grid6.coords t) ↔ t.val % 30 = 0)

/-! ## The memrefs the body is called with -/

/-- One staging buffer of each output window, through which its contents are stated. -/
abbrev VO6_2 : View sig .tc .vmem S5000x128 .f32 := (Memref.whole cc6_stg2_0 : Memref sig .tc .vmem S5000x128 .f32).view
abbrev VO6_3 : View sig .tc .vmem S1x128 .f32 := (Memref.whole cc6_stg3_0 : Memref sig .tc .vmem S1x128 .f32).view
abbrev VO6_4 : View sig .tc .vmem S1x128 .f32 := (Memref.whole cc6_stg4_0 : Memref sig .tc .vmem S1x128 .f32).view
/-- Each window's current staging memref at point `t`, and its wholeness. -/
abbrev ms6_0 (t : Fin cfg6.N) : Memref sig .tc .vmem S5000x320 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S320x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S5000x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
/-- The two accumulators: whole scoped buffers of the kernel's own, passed beside the windows. -/
abbrev scM6_0 : Memref sig .tc .vmem S1x128 .f32 := Memref.whole cc6_scratch0
abbrev scM6_1 : Memref sig .tc .vmem S1x128 .f32 := Memref.whole cc6_scratch1
abbrev VS6_0 : View sig .tc .vmem S1x128 .f32 := scM6_0.view
abbrev VS6_1 : View sig .tc .vmem S1x128 .f32 := scM6_1.view

/-- The class invariant with the two accumulators taken out of the scoped rest as memrefs owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-! ## The first point's run -/

set_option maxHeartbeats 1000000 in
/-- What the body's stores leave in each output's staging memref and in each accumulator, as pieces (last first), AT
    THE FIRST POINT (the conditional taken: the accumulators are zeroed first), with the proof that on whole
    memrefs — the inputs' at their contents, everything else at anything — the body runs to the continuation holding
    the inputs' as they were and every other buffer with its pieces written. The pieces are what the run finds. -/
noncomputable def kernelRun6_A (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i)
    (x0 : Vec F S5000x320 .f32) (x1 : Vec F S320x128 .f32) :
    Σ' (L2 : List (View.Piece (Elt F) S5000x128 .f32)) (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__linear_accum_kernel i arg1 harg1 arg2 harg2 arg3 harg3 arg4 harg4 arg5 harg5 arg6 harg6 arg7 harg7) K } := by
  refine ⟨?_, ?_, ?_, ?_, ?_, fun E K => ?run⟩
  case run =>
    simp only [cc6__linear_accum_kernel_eq_skeleton]; unfold cc6__linear_accum_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Hand

end
-- ==== Proof.KI.Region6RunB.lean ====
import proofs.«143519_j50869592655552_1_alg».proof.Proof.KI.Region6RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 6: the run at every later point

The conditional is not taken: the two accumulators enter at what the point before left in them. -/

set_option maxHeartbeats 1000000 in
/-- What the body's stores leave in each output's staging memref and in each accumulator, as pieces (last first), AT A
    POINT AFTER THE FIRST (the conditional not taken), the accumulators entering at known contents `xs0`, `xs1`. -/
noncomputable def kernelRun6_B (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i)
    (x0 : Vec F S5000x320 .f32) (x1 : Vec F S320x128 .f32) (xs0 : Vec F S1x128 .f32) (xs1 : Vec F S1x128 .f32) :
    Σ' (L2 : List (View.Piece (Elt F) S5000x128 .f32)) (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__linear_accum_kernel i arg1 harg1 arg2 harg2 arg3 harg3 arg4 harg4 arg5 harg5 arg6 harg6 arg7 harg7) K } := by
  refine ⟨?_, ?_, ?_, ?_, ?_, fun E K => ?run⟩
  case run =>
    simp only [cc6__linear_accum_kernel_eq_skeleton]; unfold cc6__linear_accum_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Hand

end
-- ==== Proof.KI.Region6.lean ====
import proofs.«143519_j50869592655552_1_alg».proof.Proof.KI.Region6RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 6 (the linear layer with running column sums): the proof data and the body obligation

At a PARAMETER `V` — the TensorCore's buffer contents when the region is entered. What the two accumulators hold
after point `t` is one pair of functions of the blocks of the points up to `t`, by recursion on the point; the two
windows of sums hold the pair's current value after every point, and the output window holds the point's own product. -/

/-- The pieces the first point' run leaves in the output window cover it (each store is of the whole block). -/
theorem cover6_A_2 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i) (x0 : Vec F S5000x320 .f32) (x1 : Vec F S320x128 .f32) (y : S5000x128.Idx) :
    ∃ pc ∈ (kernelRun6_A c i arg1 harg1 arg2 harg2 arg3 harg3 arg4 harg4 arg5 harg5 arg6 harg6 arg7 harg7 hc0 x0 x1).1, y ∈ pc.1.set :=
  View.cover_of_tiledL (kernelRun6_A c i arg1 harg1 arg2 harg2 arg3 harg3 arg4 harg4 arg5 harg5 arg6 harg6 arg7 harg7 hc0 x0 x1).1 S5000x128.size (by sl_kernel_rfl) y

/-- The pieces the first point' run leaves in the column-sum window cover it (each store is of the whole block). -/
theorem cover6_A_3 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i) (x0 : Vec F S5000x320 .f32) (x1 : Vec F S320x128 .f32) (y : S1x128.Idx) :
    ∃ pc ∈ (kernelRun6_A c i arg1 harg1 arg2 harg2 arg3 harg3 arg4 harg4 arg5 harg5 arg6 harg6 arg7 harg7 hc0 x0 x1).2.1, y ∈ pc.1.set :=
  View.cover_of_tiledL (kernelRun6_A c i arg1 harg1 arg2 harg2 arg3 harg3 arg4 harg4 arg5 harg5 arg6 harg6 arg7 harg7 hc0 x0 x1).2.1 S1x128.size (by sl_kernel_rfl) y

/-- The pieces the first point' run leaves in the window of the column sums of squares cover it (each store is of the whole block). -/
theorem cover6_A_4 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i) (x0 : Vec F S5000x320 .f32) (x1 : Vec F S320x128 .f32) (y : S1x128.Idx) :
    ∃ pc ∈ (kernelRun6_A c i arg1 harg1 arg2 harg2 arg3 harg3 arg4 harg4 arg5 harg5 arg6 harg6 arg7 harg7 hc0 x0 x1).2.2.1, y ∈ pc.1.set :=
  View.cover_of_tiledL (kernelRun6_A c i arg1 harg1 arg2 harg2 arg3 harg3 arg4 harg4 arg5 harg5 arg6 harg6 arg7 harg7 hc0 x0 x1).2.2.1 S1x128.size (by sl_kernel_rfl) y

/-- The pieces the first point' run leaves in the first accumulator cover it (each store is of the whole block). -/
theorem scover6_A_0 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i) (x0 : Vec F S5000x320 .f32) (x1 : Vec F S320x128 .f32) (y : S1x128.Idx) :
    ∃ pc ∈ (kernelRun6_A c i arg1 harg1 arg2 harg2 arg3 harg3 arg4 harg4 arg5 harg5 arg6 harg6 arg7 harg7 hc0 x0 x1).2.2.2.1, y ∈ pc.1.set :=
  View.cover_of_tiledL (kernelRun6_A c i arg1 harg1 arg2 harg2 arg3 harg3 arg4 harg4 arg5 harg5 arg6 harg6 arg7 harg7 hc0 x0 x1).2.2.2.1 S1x128.size (by sl_kernel_rfl) y

/-- The pieces the first point' run leaves in the second accumulator cover it (each store is of the whole block). -/
theorem scover6_A_1 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i) (x0 : Vec F S5000x320 .f32) (x1 : Vec F S320x128 .f32) (y : S1x128.Idx) :
    ∃ pc ∈ (kernelRun6_A c i arg1 harg1 arg2 harg2 arg3 harg3 arg4 harg4 arg5 harg5 arg6 harg6 arg7 harg7 hc0 x0 x1).2.2.2.2.1, y ∈ pc.1.set :=
  View.cover_of_tiledL (kernelRun6_A c i arg1 harg1 arg2 harg2 arg3 harg3 arg4 harg4 arg5 harg5 arg6 harg6 arg7 harg7 hc0 x0 x1).2.2.2.2.1 S1x128.size (by sl_kernel_rfl) y

/-- What the first point leaves: the output window's block, the two windows of sums, the two accumulators — each its
    pieces read back. -/
def res6_A (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i) (x0 : Vec F S5000x320 .f32) (x1 : Vec F S320x128 .f32) : Vec F S5000x128 .f32 × Vec F S1x128 .f32 × Vec F S1x128 .f32 × Vec F S1x128 .f32 × Vec F S1x128 .f32 :=
  (VO6_2.read (Elt F) (VO6_2.writes (Elt F) VO6_2.junk (kernelRun6_A c i arg1 harg1 arg2 harg2 arg3 harg3 arg4 harg4 arg5 harg5 arg6 harg6 arg7 harg7 hc0 x0 x1).1),
   VO6_3.read (Elt F) (VO6_3.writes (Elt F) VO6_3.junk (kernelRun6_A c i arg1 harg1 arg2 harg2 arg3 harg3 arg4 harg4 arg5 harg5 arg6 harg6 arg7 harg7 hc0 x0 x1).2.1),
   VO6_4.read (Elt F) (VO6_4.writes (Elt F) VO6_4.junk (kernelRun6_A c i arg1 harg1 arg2 harg2 arg3 harg3 arg4 harg4 arg5 harg5 arg6 harg6 arg7 harg7 hc0 x0 x1).2.2.1),
   VS6_0.read (Elt F) (VS6_0.writes (Elt F) VS6_0.junk (kernelRun6_A c i arg1 harg1 arg2 harg2 arg3 harg3 arg4 harg4 arg5 harg5 arg6 harg6 arg7 harg7 hc0 x0 x1).2.2.2.1),
   VS6_1.read (Elt F) (VS6_1.writes (Elt F) VS6_1.junk (kernelRun6_A c i arg1 harg1 arg2 harg2 arg3 harg3 arg4 harg4 arg5 harg5 arg6 harg6 arg7 harg7 hc0 x0 x1).2.2.2.2.1))

/-- The pieces the later points' run leaves in the output window cover it (each store is of the whole block). -/
theorem cover6_B_2 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i) (x0 : Vec F S5000x320 .f32) (x1 : Vec F S320x128 .f32) (xs0 : Vec F S1x128 .f32) (xs1 : Vec F S1x128 .f32) (y : S5000x128.Idx) :
    ∃ pc ∈ (kernelRun6_B c i arg1 harg1 arg2 harg2 arg3 harg3 arg4 harg4 arg5 harg5 arg6 harg6 arg7 harg7 hc0 x0 x1 xs0 xs1).1, y ∈ pc.1.set :=
  View.cover_of_tiledL (kernelRun6_B c i arg1 harg1 arg2 harg2 arg3 harg3 arg4 harg4 arg5 harg5 arg6 harg6 arg7 harg7 hc0 x0 x1 xs0 xs1).1 S5000x128.size (by sl_kernel_rfl) y

/-- The pieces the later points' run leaves in the column-sum window cover it (each store is of the whole block). -/
theorem cover6_B_3 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i) (x0 : Vec F S5000x320 .f32) (x1 : Vec F S320x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 hc0 x0 x1 xs0 xs1).2.1, y ∈ pc.1.set :=
  View.cover_of_tiledL (kernelRun6_B c i arg1 harg1 arg2 harg2 arg3 harg3 arg4 harg4 arg5 harg5 arg6 harg6 arg7 harg7 hc0 x0 x1 xs0 xs1).2.1 S1x128.size (by sl_kernel_rfl) y

/-- The pieces the later points' run leaves in the window of the column sums of squares cover it (each store is of the whole block). -/
theorem cover6_B_4 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i) (x0 : Vec F S5000x320 .f32) (x1 : Vec F S320x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 hc0 x0 x1 xs0 xs1).2.2.1, y ∈ pc.1.set :=
  View.cover_of_tiledL (kernelRun6_B c i arg1 harg1 arg2 harg2 arg3 harg3 arg4 harg4 arg5 harg5 arg6 harg6 arg7 harg7 hc0 x0 x1 xs0 xs1).2.2.1 S1x128.size (by sl_kernel_rfl) y

/-- The pieces the later points' run leaves in the first accumulator cover it (each store is of the whole block). -/
theorem scover6_B_0 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i) (x0 : Vec F S5000x320 .f32) (x1 : Vec F S320x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 hc0 x0 x1 xs0 xs1).2.2.2.1, y ∈ pc.1.set :=
  View.cover_of_tiledL (kernelRun6_B c i arg1 harg1 arg2 harg2 arg3 harg3 arg4 harg4 arg5 harg5 arg6 harg6 arg7 harg7 hc0 x0 x1 xs0 xs1).2.2.2.1 S1x128.size (by sl_kernel_rfl) y

/-- The pieces the later points' run leaves in the second accumulator cover it (each store is of the whole block). -/
theorem scover6_B_1 (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i) (x0 : Vec F S5000x320 .f32) (x1 : Vec F S320x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 hc0 x0 x1 xs0 xs1).2.2.2.2.1, y ∈ pc.1.set :=
  View.cover_of_tiledL (kernelRun6_B c i arg1 harg1 arg2 harg2 arg3 harg3 arg4 harg4 arg5 harg5 arg6 harg6 arg7 harg7 hc0 x0 x1 xs0 xs1).2.2.2.2.1 S1x128.size (by sl_kernel_rfl) y

/-- What the a later point leaves: the output window's block, the two windows of sums, the two accumulators — each its
    pieces read back. -/
def res6_B (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i) (x0 : Vec F S5000x320 .f32) (x1 : Vec F S320x128 .f32) (xs0 : Vec F S1x128 .f32) (xs1 : Vec F S1x128 .f32) : Vec F S5000x128 .f32 × Vec F S1x128 .f32 × Vec F S1x128 .f32 × Vec F S1x128 .f32 × Vec F S1x128 .f32 :=
  (VO6_2.read (Elt F) (VO6_2.writes (Elt F) VO6_2.junk (kernelRun6_B c i arg1 harg1 arg2 harg2 arg3 harg3 arg4 harg4 arg5 harg5 arg6 harg6 arg7 harg7 hc0 x0 x1 xs0 xs1).1),
   VO6_3.read (Elt F) (VO6_3.writes (Elt F) VO6_3.junk (kernelRun6_B c i arg1 harg1 arg2 harg2 arg3 harg3 arg4 harg4 arg5 harg5 arg6 harg6 arg7 harg7 hc0 x0 x1 xs0 xs1).2.1),
   VO6_4.read (Elt F) (VO6_4.writes (Elt F) VO6_4.junk (kernelRun6_B c i arg1 harg1 arg2 harg2 arg3 harg3 arg4 harg4 arg5 harg5 arg6 harg6 arg7 harg7 hc0 x0 x1 xs0 xs1).2.2.1),
   VS6_0.read (Elt F) (VS6_0.writes (Elt F) VS6_0.junk (kernelRun6_B c i arg1 harg1 arg2 harg2 arg3 harg3 arg4 harg4 arg5 harg5 arg6 harg6 arg7 harg7 hc0 x0 x1 xs0 xs1).2.2.2.1),
   VS6_1.read (Elt F) (VS6_1.writes (Elt F) VS6_1.junk (kernelRun6_B c i arg1 harg1 arg2 harg2 arg3 harg3 arg4 harg4 arg5 harg5 arg6 harg6 arg7 harg7 hc0 x0 x1 xs0 xs1).2.2.2.2.1))

section Region
variable (V : (c : Dev nD) → (b : Ref sig .tc) → Buf (Elt F) ((c : Thread nD τ).loc b))

/-! ## What the outputs and the accumulators hold after each point -/

/-- THE ACCUMULATION. After the body at position `n`: (the output window's buffer, the two sums windows' buffers, the
    two accumulators). The first point zeroes the accumulators before adding; every later point adds to what the
    point before left in them. -/
def outsAt6 (c : Dev nD) : (n : ℕ) → n < cfg6.N → Vec F S5000x128 .f32 × Vec F S1x128 .f32 × Vec F S1x128 .f32 × Vec F S1x128 .f32 × Vec F S1x128 .f32
  | 0, hn => res6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) scM6_0 (Memref.isWhole_whole _) scM6_1 (Memref.isWhole_whole _) ((hcond6_0 ⟨0, hn⟩).mpr (Nat.zero_mod _)) (iblk6 V c 0 ⟨0, hn⟩) (iblk6 V c 1 ⟨0, hn⟩)
  | n + 1, hn => res6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) scM6_1 (Memref.isWhole_whole _)
      (fun h => by have h' := (hcond6_0 ⟨n + 1, hn⟩).mp h; have hN : n + 1 < 30 := lt_of_lt_of_eq hn (show cfg6.N = 30 from N_6); (try dsimp only at h'); omega)
      (iblk6 V c 0 ⟨n + 1, hn⟩) (iblk6 V c 1 ⟨n + 1, hn⟩) (outsAt6 c n (Nat.lt_of_succ_lt hn)).2.2.2.1 (outsAt6 c n (Nat.lt_of_succ_lt hn)).2.2.2.2

/-- `outsAt6` at the first point. -/
theorem outsAt6_A (c : Dev nD) (t : Fin cfg6.N) (h0 : t.val = 0) (hc : cond6_0 (grid6.coords t)) :
    outsAt6 V c t.val t.isLt = res6_A c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) hc (iblk6 V c 0 t) (iblk6 V c 1 t) := by
  obtain ⟨n, hn⟩ := t
  cases n with
  | zero => rfl
  | succ n => exact absurd h0 (Nat.succ_ne_zero n)

/-- `outsAt6` at a later point: over what the point before left in the accumulators. -/
theorem outsAt6_B (c : Dev nD) (t : Fin cfg6.N) (h0 : t.val ≠ 0) (hc : ¬cond6_0 (grid6.coords t)) :
    outsAt6 V c t.val t.isLt = res6_B c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) hc (iblk6 V c 0 t) (iblk6 V c 1 t)
      (outsAt6 V c (t.val - 1) (Nat.lt_of_le_of_lt (Nat.sub_le _ _) t.isLt)).2.2.2.1 (outsAt6 V c (t.val - 1) (Nat.lt_of_le_of_lt (Nat.sub_le _ _) t.isLt)).2.2.2.2 := by
  obtain ⟨n, hn⟩ := t
  cases n with
  | zero => exact absurd rfl h0
  | succ n => rfl

/-- The region invariant before position `n`: before the first point the class's (every scoped buffer at anything);
    afterwards the two accumulators at what the point before left in them, the other scoped buffers at anything, and the
    generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.2.1) ∗ owns (c : Thread nD τ) scM6_1 fullShare ((outsAt6 V c n hn).2.2.2.2))
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2.2.2.1) ∗ owns (c : Thread nD τ) scM6_1 fullShare ((outsAt6 V c n hn).2.2.2.2))
      ∗ Pipeline.scopedRestBut (Ix := Unit) (Name := ℕ) (U := UR sig nD τ) (Lvl := ℕ) (Val := Elt F) spec6 c [cc6_scratch0, cc6_scratch1]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.2.1) ∗ owns (c : Thread nD τ) scM6_1 fullShare ((outsAt6 V c (n - 1) (by omega)).2.2.2.2))
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-! ## The pipeline's proof data -/

/-- The proof data of pipeline 6 on core `c`: the arrays as the region finds them; after the body at point `t` each
    input's buffer at its block, the output window's at the point's product, the two sums windows' at the accumulators'
    current value; the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
    | ⟨3, _⟩ => (outsAt6 V c t.val t.isLt).2.1
    | ⟨4, _⟩ => (outsAt6 V c t.val t.isLt).2.2.1
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]
theorem after6_3 (c : Dev nD) (t : Fin cfg6.N) : (dat6 V c).after 3 t = (outsAt6 V c t.val t.isLt).2.1 := by dsimp only [dat6]
theorem after6_4 (c : Dev nD) (t : Fin cfg6.N) : (dat6 V c).after 4 t = (outsAt6 V c t.val t.isLt).2.2.1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

set_option maxHeartbeats 4800000 in
/-- The body at any point: the inputs' memrefs hold their blocks; the first point's run takes the accumulators at
    anything (out of the class invariant), a later point's at what the point before left; either way the invariant takes
    them back at this point's contents, and every output buffer is left at its pieces read back. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [after6_0, after6_1, after6_2, after6_3, after6_4]
  have hN : t.val < 30 := lt_of_lt_of_eq t.isLt (show cfg6.N = 30 from N_6)
  by_cases h0 : t.val = 0
  · have hc : cond6_0 (grid6.coords t) := (hcond6_0 t).mpr (by rw [h0])
    rw [outsAt6_A V c t h0 hc]
    unfold res6_A; (try dsimp only)
    rw [PhiS6_castSucc V c t, PhiS6_zero V c _ _ h0, PhiA6_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((kernelRun6_A c (grid6.coords t) _ _ _ _ _ _ _ _ _ _ _ _ _ _ hc (iblk6 V c 0 t) (iblk6 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, ⟨%e2, H2⟩, ⟨%e3, H3⟩, ⟨%e4, H4⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover6_A_0 c _ _ _ _ _ _ _ _ _ _ _ _ _ _ _ _ _ _)
          · unfold owns; iexists _; isplitr
            swap; · iexact HS1
            ipureintro; exact View.read_writes_of_cover _ _ _ _ _ (scover6_A_1 c _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover6_A_2 c _ _ _ _ _ _ _ _ _ _ _ _ _ _ _ _ _ _)
    isplitl [H3]
    · unfold owns; iexists _; isplitr
      swap; · iexact H3
      ipureintro; exact View.read_writes_of_cover _ _ _ _ _ (cover6_A_3 c _ _ _ _ _ _ _ _ _ _ _ _ _ _ _ _ _ _)
    unfold owns; iexists _; isplitr
    swap; · iexact H4
    ipureintro; exact View.read_writes_of_cover _ _ _ _ _ (cover6_A_4 c _ _ _ _ _ _ _ _ _ _ _ _ _ _ _ _ _ _)
  · have hc : ¬cond6_0 (grid6.coords t) := fun h => h0 (by have h' := (hcond6_0 t).mp h; omega)
    rw [outsAt6_B V c t h0 hc]
    unfold res6_B; (try dsimp only)
    rw [PhiS6_castSucc V c t, PhiS6_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((kernelRun6_B c (grid6.coords t) _ _ _ _ _ _ _ _ _ _ _ _ _ _ hc (iblk6 V c 0 t) (iblk6 V c 1 t) _ _).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, ⟨%e2, H2⟩, ⟨%e3, H3⟩, ⟨%e4, H4⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover6_B_0 c _ _ _ _ _ _ _ _ _ _ _ _ _ _ _ _ _ _ _ _)
          · unfold owns; iexists _; isplitr
            swap; · iexact HS1
            ipureintro; exact View.read_writes_of_cover _ _ _ _ _ (scover6_B_1 c _ _ _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover6_B_2 c _ _ _ _ _ _ _ _ _ _ _ _ _ _ _ _ _ _ _ _)
    isplitl [H3]
    · unfold owns; iexists _; isplitr
      swap; · iexact H3
      ipureintro; exact View.read_writes_of_cover _ _ _ _ _ (cover6_B_3 c _ _ _ _ _ _ _ _ _ _ _ _ _ _ _ _ _ _ _ _)
    unfold owns; iexists _; isplitr
    swap; · iexact H4
    ipureintro; exact View.read_writes_of_cover _ _ _ _ _ (cover6_B_4 c _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the class's back: the accumulators' named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout6 (c : Dev nD) : (dat6 V c).Φ (Fin.last cfg6.N) ⊢ Pipeline.ΦA spec6 c :=
  Phi_out6 V c _ (by rw [Fin.val_last]; have : cfg6.N = 30 := N_6; omega)

end Region

end Cert.KernelIdeal.Hand

end
-- ==== Proof.KI.Region7RunA.lean ====
import proofs.«143519_j50869592655552_1_alg».proof.Proof.Gen.KernelIdeal.Launch
import proofs.«143519_j50869592655552_1_alg».proof.Proof.Gen.KernelIdeal.Skeleton
import proofs.«143519_j50869592655552_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: the batch-norm / relu / linear kernel with running column sums — what the runs share

The kernel at grid point `i` (30 points, one axis): at the first point it zeroes two scratch rows; at every point it
forms `h = max (x * scale + shift) 0` on a block of 5000 rows, multiplies by the weights into a fresh product block
which it stores, adds the product's column sums and the column sums of its squares to the two scratch rows, and copies
the scratch rows into the two small output windows. -/

/-- The `scf.if` of the body: "this is the first grid point", as the body computes it from the coordinate. -/
abbrev cond7_0 (i : grid7.Coords) : Prop := (Scalar.cmpi .ne (Scalar.extui (Scalar.cmpi .eq (BitVec.ofNat 32 (i 0).val) 0#32)) 0#32) = 1#1
/-- Over the grid it holds at point 0 and nowhere else. -/
theorem hcond7_0 : ∀ t : Fin cfg7.N, cond7_0 (grid7.coords t) ↔ t.val = 0 :=
  (by decide +kernel : ∀ t : Fin grid7.N, cond7_0 (grid7.coords t) ↔ t.val = 0)

/-- The two scratch operands as memrefs: whole buffers of the kernel's own, passed beside the windows. -/
abbrev scM7_0 : Memref sig .tc .vmem S1x64 .f32 := Memref.whole cc7_scratch0
abbrev scM7_1 : Memref sig .tc .vmem S1x64 .f32 := Memref.whole cc7_scratch1
/-- Views through which buffer contents are stated (which buffer of the shape is immaterial). -/
abbrev VS7_0 : View sig .tc .vmem S1x64 .f32 := scM7_0.view
abbrev VO7_4 : View sig .tc .vmem S5000x64 .f32 := (Memref.whole cc7_stg4_0 : Memref sig .tc .vmem S5000x64 .f32).view

set_option maxHeartbeats 4000000 in
/-- The whole body in the case "first grid point": on whole memrefs, the four inputs at their blocks, the three
    outputs at any contents and the two scratch rows at any contents (the case overwrites them with zeros first), the body
    runs to the continuation with the inputs unchanged and each output and scratch memref holding the listed stores
    written over what it held. The lists are found by running the body; they are the first components. -/
noncomputable def kernelRun7_A (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__bn_relu_linear_accum_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__bn_relu_linear_accum_kernel_eq_skeleton]; unfold cc7__bn_relu_linear_accum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.Region7RunB.lean ====
import proofs.«143519_j50869592655552_1_alg».proof.Proof.KI.Region7RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: the body at a grid point after the first -/

set_option maxHeartbeats 4000000 in
/-- The whole body in the case "a later grid point": on whole memrefs, the four inputs at their blocks, the three
    outputs at any contents and the two scratch rows at what the point before left, the body
    runs to the continuation with the inputs unchanged and each output and scratch memref holding the listed stores
    written over what it held. The lists are found by running the body; they are the first components. -/
noncomputable def kernelRun7_B (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__bn_relu_linear_accum_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__bn_relu_linear_accum_kernel_eq_skeleton]; unfold cc7__bn_relu_linear_accum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.Region7.lean ====
import proofs.«143519_j50869592655552_1_alg».proof.Proof.KI.Region7RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: what its windows and scratch rows hold point by point, the proof data, the body obligation

Everything is stated at a parameter `V`: the TensorCore's buffer contents when the region is entered. -/

/-- The stores case A makes into output window 4's staging buffer tile it, so they cover it. -/
theorem cover7_A_4 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) (y : S5000x64.Idx) :
    ∃ pc ∈ (kernelRun7_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).1 S5000x64.size (by sl_kernel_rfl) y

/-- What case A leaves in output window 4's staging buffer: its stores read back (over contents that, being covered, do not matter). -/
def out7_A_4 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) : Vec F S5000x64 .f32 :=
  VO7_4.read (Elt F) (VO7_4.writes (Elt F) VO7_4.junk (kernelRun7_A c i arg1 harg1 arg2 harg2 arg3 harg3 arg4 harg4 arg5 harg5 arg6 harg6 arg7 harg7 arg8 harg8 arg9 harg9 hc0 x0 x1 x2 x3).1)

/-- The stores case A makes into output window 5's staging buffer tile it, so they cover it. -/
theorem cover7_A_5 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) (y : S1x64.Idx) :
    ∃ pc ∈ (kernelRun7_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.1 S1x64.size (by sl_kernel_rfl) y

/-- What case A leaves in output window 5's staging buffer: its stores read back (over contents that, being covered, do not matter). -/
def out7_A_5 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) : Vec F S1x64 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 x0 x1 x2 x3).2.1)

/-- The stores case A makes into output window 6's staging buffer tile it, so they cover it. -/
theorem cover7_A_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) (y : S1x64.Idx) :
    ∃ pc ∈ (kernelRun7_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.2.1 S1x64.size (by sl_kernel_rfl) y

/-- What case A leaves in output window 6's staging buffer: its stores read back (over contents that, being covered, do not matter). -/
def out7_A_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) : Vec F S1x64 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 x0 x1 x2 x3).2.2.1)

/-- The stores case A makes into scratch row 0 tile it, so they cover it. -/
theorem scover7_A_0 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) (y : S1x64.Idx) :
    ∃ pc ∈ (kernelRun7_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.2.2.1 S1x64.size (by sl_kernel_rfl) y

/-- What case A leaves in scratch row 0: its stores read back (over contents that, being covered, do not matter). -/
def sout7_A_0 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) : Vec F S1x64 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 x0 x1 x2 x3).2.2.2.1)

/-- The stores case A makes into scratch row 1 tile it, so they cover it. -/
theorem scover7_A_1 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) (y : S1x64.Idx) :
    ∃ pc ∈ (kernelRun7_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.2.2.2.1 S1x64.size (by sl_kernel_rfl) y

/-- What case A leaves in scratch row 1: its stores read back (over contents that, being covered, do not matter). -/
def sout7_A_1 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) : Vec F S1x64 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 x0 x1 x2 x3).2.2.2.2.1)

/-- The stores case B makes into output window 4's staging buffer tile it, so they cover it. -/
theorem cover7_B_4 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) (y : S5000x64.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).1 S5000x64.size (by sl_kernel_rfl) y

/-- What case B leaves in output window 4's staging buffer: its stores read back (over contents that, being covered, do not matter). -/
def out7_B_4 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) : Vec F S5000x64 .f32 :=
  VO7_4.read (Elt F) (VO7_4.writes (Elt F) VO7_4.junk (kernelRun7_B c i arg1 harg1 arg2 harg2 arg3 harg3 arg4 harg4 arg5 harg5 arg6 harg6 arg7 harg7 arg8 harg8 arg9 harg9 hc0 x0 x1 x2 x3 xs0 xs1).1)

/-- The stores case B makes into output window 5's staging buffer tile it, so they cover it. -/
theorem cover7_B_5 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.1 S1x64.size (by sl_kernel_rfl) y

/-- What case B leaves in output window 5's staging buffer: its stores read back (over contents that, being covered, do not matter). -/
def out7_B_5 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 x0 x1 x2 x3 xs0 xs1).2.1)

/-- The stores case B makes into output window 6's staging buffer tile it, so they cover it. -/
theorem cover7_B_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.2.1 S1x64.size (by sl_kernel_rfl) y

/-- What case B leaves in output window 6's staging buffer: its stores read back (over contents that, being covered, do not matter). -/
def out7_B_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 x0 x1 x2 x3 xs0 xs1).2.2.1)

/-- The stores case B makes into scratch row 0 tile it, so they cover it. -/
theorem scover7_B_0 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.2.2.1 S1x64.size (by sl_kernel_rfl) y

/-- What case B leaves in scratch row 0: its stores read back (over contents that, being covered, do not matter). -/
def sout7_B_0 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 x0 x1 x2 x3 xs0 xs1).2.2.2.1)

/-- The stores case B makes into scratch row 1 tile it, so they cover it. -/
theorem scover7_B_1 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.2.2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.2.2.2.1 S1x64.size (by sl_kernel_rfl) y

/-- What case B leaves in scratch row 1: its stores read back (over contents that, being covered, do not matter). -/
def sout7_B_1 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 x0 x1 x2 x3 xs0 xs1).2.2.2.2.1)

section Region
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is the entry contents and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is the entry contents and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof data
    whose array is the entry contents and whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Each window's current staging memref at point `t`, spelt as the pipeline passes it to the body, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S128x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x64 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x64 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x64 .f32 := win7_6.stage (cfg7.slots t 6)
abbrev hs7_6 (t : Fin cfg7.N) : (ms7_6 t).IsWhole := hstage7_6 ((cfg7.slots t 6).cast nbuf7_6)

/-- The class invariant with the two scratch rows split out of the scoped rest as memrefs owned at some contents; the
    other scoped buffers stay unopened. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! ## What the outputs and the scratch rows hold after each point -/

/-- The five buffers the body writes, after the body at position `n`: the product window, the two small output windows,
    the two scratch rows. At the first point the body starts the scratch rows from zero; at a later point from what the
    point before left in them. -/
def outsAt7 (c : Dev nD) : (n : ℕ) → n < cfg7.N → Vec F S5000x64 .f32 × Vec F S1x64 .f32 × Vec F S1x64 .f32 × Vec F S1x64 .f32 × Vec F S1x64 .f32
  | 0, hn => (out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (iblk7 V c 0 ⟨0, hn⟩) (iblk7 V c 1 ⟨0, hn⟩) (iblk7 V c 2 ⟨0, hn⟩) (iblk7 V c 3 ⟨0, hn⟩),
      out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (iblk7 V c 0 ⟨0, hn⟩) (iblk7 V c 1 ⟨0, hn⟩) (iblk7 V c 2 ⟨0, hn⟩) (iblk7 V c 3 ⟨0, hn⟩),
      out7_A_6 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (iblk7 V c 0 ⟨0, hn⟩) (iblk7 V c 1 ⟨0, hn⟩) (iblk7 V c 2 ⟨0, hn⟩) (iblk7 V c 3 ⟨0, hn⟩),
      sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (iblk7 V c 0 ⟨0, hn⟩) (iblk7 V c 1 ⟨0, hn⟩) (iblk7 V c 2 ⟨0, hn⟩) (iblk7 V c 3 ⟨0, hn⟩),
      sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (iblk7 V c 0 ⟨0, hn⟩) (iblk7 V c 1 ⟨0, hn⟩) (iblk7 V c 2 ⟨0, hn⟩) (iblk7 V c 3 ⟨0, hn⟩))
  | n + 1, hn => (out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2,
      out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2,
      out7_B_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2,
      sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2,
      sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)

/-- `outsAt7` at the first point. -/
theorem outsAt7_A (c : Dev nD) (t : Fin cfg7.N) (hz : t.val = 0) :
    outsAt7 V c t.val t.isLt = (out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t),
      out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t),
      out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t),
      sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t),
      sout7_A_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t)) := by
  obtain ⟨n, hn⟩ := t
  cases n with
  | zero => exact rfl
  | succ n => exact absurd hz (Nat.succ_ne_zero n)

/-- `outsAt7` at a later point: over what the point before left in the scratch rows. -/
theorem outsAt7_B (c : Dev nD) (t : Fin cfg7.N) (hz : ¬t.val = 0) :
    outsAt7 V c t.val t.isLt = (out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
      out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
      out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
      sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
      sout7_B_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact absurd rfl hz
  | succ n => exact rfl

/-- The region invariant before position `n`: before the first point the class's (every scoped buffer at anything);
    afterwards the two scratch rows at what the point before left, the other scoped buffers unopened, the generator
    register at some state. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.2.2.1) ∗ owns (c : Thread nD τ) scM7_1 fullShare ((outsAt7 V c n hn).2.2.2.2))
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare ((outsAt7 V c n hn).2.2.2.1) ∗ owns (c : Thread nD τ) scM7_1 fullShare ((outsAt7 V c n hn).2.2.2.2))
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.2.2.1) ∗ owns (c : Thread nD τ) scM7_1 fullShare ((outsAt7 V c (n - 1) (by omega)).2.2.2.2))
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The proof data -/

/-- The proof data of pipeline 7 on core `c`: the arrays as the region finds them; after the body each input's buffer
    at its block, each output's at `outsAt7`'s component; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
    | ⟨6, _⟩ => (outsAt7 V c t.val t.isLt).2.2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]
theorem after7_6 (c : Dev nD) (t : Fin cfg7.N) : (dat7 V c).after 6 t = (outsAt7 V c t.val t.isLt).2.2.1 := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

set_option maxHeartbeats 4800000 in
/-- The body at any point: the inputs' memrefs hold their blocks; at the first point the invariant hands the scratch rows
    at anything and the first-point run applies, at a later point it hands them at what the point before left and the
    later-point run applies; either way the invariant takes them back at this point's contents (the stores cover them). -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [after7_0, after7_1, after7_2, after7_3, after7_4, after7_5, after7_6]
  by_cases hz : t.val = 0
  · rw [outsAt7_A V c t hz]
    unfold out7_A_4 out7_A_5 out7_A_6 sout7_A_0 sout7_A_1; (try dsimp only)
    rw [PhiS7_castSucc V c t, PhiS7_zero V c _ _ hz, PhiA7_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_A c (grid7.coords t) _ _ _ _ _ _ _ _ _ _ _ _ _ _ _ _ _ _ ((hcond7_0 t).mpr hz) (iblk7 V c 0 t) (iblk7 V c 1 t) (iblk7 V c 2 t) (iblk7 V c 3 t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover7_A_0 c _ _ _ _ _ _ _ _ _ _ _ _ _ _ _ _ _ _ _ _ _ _ _ _ )
          · unfold owns; iexists _; isplitr
            swap; · iexact HS1
            ipureintro; exact View.read_writes_of_cover _ _ _ _ _ (scover7_A_1 c _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover7_A_4 c _ _ _ _ _ _ _ _ _ _ _ _ _ _ _ _ _ _ _ _ _ _ _ _ )
    isplitl [H5]
    · unfold owns; iexists _; isplitr
      swap; · iexact H5
      ipureintro; exact View.read_writes_of_cover _ _ _ _ _ (cover7_A_5 c _ _ _ _ _ _ _ _ _ _ _ _ _ _ _ _ _ _ _ _ _ _ _ _ )
    unfold owns; iexists _; isplitr
    swap; · iexact H6
    ipureintro; exact View.read_writes_of_cover _ _ _ _ _ (cover7_A_6 c _ _ _ _ _ _ _ _ _ _ _ _ _ _ _ _ _ _ _ _ _ _ _ _ )
  · rw [outsAt7_B V c t hz]
    unfold out7_B_4 out7_B_5 out7_B_6 sout7_B_0 sout7_B_1; (try dsimp only)
    rw [PhiS7_castSucc V c t, PhiS7_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_B c (grid7.coords t) _ _ _ _ _ _ _ _ _ _ _ _ _ _ _ _ _ _ (fun h => hz ((hcond7_0 t).mp h)) (iblk7 V c 0 t) (iblk7 V c 1 t) (iblk7 V c 2 t) (iblk7 V c 3 t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover7_B_0 c _ _ _ _ _ _ _ _ _ _ _ _ _ _ _ _ _ _ _ _ _ _ _ _ _ _ )
          · unfold owns; iexists _; isplitr
            swap; · iexact HS1
            ipureintro; exact View.read_writes_of_cover _ _ _ _ _ (scover7_B_1 c _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover7_B_4 c _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover7_B_5 c _ _ _ _ _ _ _ _ _ _ _ _ _ _ _ _ _ _ _ _ _ _ _ _ _ _ )
    unfold owns; iexists _; isplitr
    swap; · iexact H6
    ipureintro; exact View.read_writes_of_cover _ _ _ _ _ (cover7_B_6 c _ _ _ _ _ _ _ _ _ _ _ _ _ _ _ _ _ _ _ _ _ _ _ _ _ _ )

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the scratch rows' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout7 (c : Dev nD) : (dat7 V c).Φ (Fin.last cfg7.N) ⊢ Pipeline.ΦA spec7 c :=
  Phi_out7 V c _ (by rw [Fin.val_last]; have : cfg7.N = 30 := N_7; omega)

end Region

end Cert.KernelIdeal.Hand

end
-- ==== Proof.KI.Region8.lean ====
/- Region 8 of @main (custom_call 8, pipeline 8): the pointwise kernel `cc8__bn_relu_kernel`,
   out = max(x * scale + shift, 0) on one block of rows, scale and shift single rows broadcast down the block.
   Everything is stated at a parameter `V`, the TensorCore's buffer contents when the region is entered, and at any
   float instance `F`: each window's block at a grid point read off its array, what the body leaves in the output
   window's buffer (its one store over the whole block), the body's triple, the pipeline's proof data and the body
   obligation at every point. The three inputs are left in place by the body; whether or not a window is fetched
   at a point its buffer holds that point's block, since an unfetched window's block index has not moved. -/
import proofs.«143519_j50869592655552_1_alg».proof.Proof.Gen.KernelIdeal.Launch
import proofs.«143519_j50869592655552_1_alg».proof.Proof.Gen.KernelIdeal.Skeleton
import proofs.«143519_j50869592655552_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: unfetched, the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s and whose body leaves the block in place: unfetched, the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s and whose body leaves the block in place: unfetched, the block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole block of rows, and the whole single row: the only rectangles the body touches. -/
abbrev r8_0 : Rect S5000x64 := Rect.unit (s := S5000x64) ![0, 0] S5000x64.size inb_S5000x64_S5000x64_0_0
abbrev r8_1 : Rect S1x64 := Rect.unit (s := S1x64) ![0, 0] S1x64.size inb_S1x64_S1x64_0_0

/-! ## What the body leaves in the output window's buffer -/

/-- Window 3's staging buffer after the body, from the input windows' blocks: its one store, of the payload
    max(x * scale + shift, 0) of the three loads, over the whole block. -/
def out8_3 (x0 : Vec F S5000x64 .f32) (x1 : Vec F S1x64 .f32) (x2 : Vec F S1x64 .f32) : Vec F S5000x64 .f32 :=
  View.canon [⟨r8_0, k8_pay1 (View.ld x0 r8_0) (View.ld x1 r8_1) (View.ld x2 r8_1)⟩]

/-- The one store tiles the buffer, so it covers it. -/
theorem cover8_3 (p0 : Vec F S5000x64 .f32) (y : S5000x64.Idx) :
    ∃ pc ∈ ([⟨r8_0, p0⟩] : List (View.Piece (Elt F) S5000x64 .f32)), y ∈ pc.1.set :=
  View.cover_of_tiled [⟨r8_0, p0⟩] S5000x64.size (by rfl) y

/-! ## The body's triple -/

set_option maxHeartbeats 1000000 in
/-- The kernel body on whole staging memrefs, the inputs' at read contents and the output's at anything, runs to the
    continuation holding the inputs' as they were and the output's at `out8_3` of the inputs'. -/
theorem sound_kernel8 (c : Dev nD) (E : Set ℕ) (i : grid8.Coords)
    (arg0 : Memref sig .tc .vmem S5000x64 .f32) (harg0 : arg0.IsWhole) (arg1 : Memref sig .tc .vmem S1x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out8_3 x0 x1 x2)) -∗ K ⟨⟩))
      ⊢ wp frame (wpE (defs₀ (F := F)) Variants.none c none) E (cc8__bn_relu_kernel i arg0 harg0 arg1 harg1 arg2 harg2 arg3 harg3) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body at point `t`
    each input's buffer at its block and the output's at `out8_3` of the input blocks; the invariant is the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- The invariant is the class's at both ends of the grid. -/
theorem hin8 (c : Dev nD) : Pipeline.ΦA spec8 c ⊢ (dat8 V c).Φ 0 := .rfl
theorem hout8 (c : Dev nD) : (dat8 V c).Φ (Fin.last cfg8.N) ⊢ Pipeline.ΦA spec8 c := .rfl

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and
    the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Fold3.lean ====
/-
  The fold of buffer contents through @main, concluded: items twelve to sixteen (the second cycle MLP's three regions);
  then that every argument array ends as launched, and where each result buffer's final contents come from.
-/
import proofs.«143519_j50869592655552_1_alg».proof.Proof.KI.Fold2
import proofs.«143519_j50869592655552_1_alg».proof.Proof.KI.Region6
import proofs.«143519_j50869592655552_1_alg».proof.Proof.KI.Region7
import proofs.«143519_j50869592655552_1_alg».proof.Proof.KI.Region8

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (ρ : Dev nD → PrngReg)
/-- Region 6's entry contents, read at the TensorCore's references. -/
abbrev V11 : (c : Dev nD) → (b : Ref sig .tc) → Buf (Elt F) ((c : Thread nD τ).loc b) := fun c b => W11 m ρ c b
/-- At region 6's exit: its arrays at what the pipeline leaves, every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
/-- An input window's array leaves region 6 as it entered. -/
theorem W12_in (c : Dev nD) (w : Fin cfg6.W) (hw : (cfg6.win w).isOut = false) :
    W12 m ρ c (Proc.devRef .tc (Pipeline.arrRef spec6 w)) = W11 m ρ c (Proc.devRef .tc (Pipeline.arrRef spec6 w)) :=
  (W12_arr m ρ c w).trans (((dat6 (V11 m ρ) c).arrAt_in w hw _).trans (A_eq6 (V11 m ρ) c w))
abbrev V12x : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12x m ρ c (Pipeline.arrRef spec6 w) :=
  (W12_arr m ρ c w).symm
theorem hrest6 (c : Dev nD) : ∀ b, b ∉ Finset.univ.image (Pipeline.arrRef spec6) → V12x m ρ c b = V11 m ρ c b :=
  fun b hb => W12_of_ne m ρ c b fun w e => hb (Finset.mem_image.mpr ⟨w, Finset.mem_univ _, e⟩)
/-- After `hostOps7`. -/
def W13 : Dev nD → Valuation τ sig (Elt F) := fun c => StableHlo.after hostOps7 (W12 m ρ c)
/-- Region 7's entry contents, read at the TensorCore's references. -/
abbrev V13 : (c : Dev nD) → (b : Ref sig .tc) → Buf (Elt F) ((c : Thread nD τ).loc b) := fun c b => W13 m ρ c b
/-- At region 7's exit: its arrays at what the pipeline leaves, every other buffer as entered. -/
def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
/-- An input window's array leaves region 7 as it entered. -/
theorem W14_in (c : Dev nD) (w : Fin cfg7.W) (hw : (cfg7.win w).isOut = false) :
    W14 m ρ c (Proc.devRef .tc (Pipeline.arrRef spec7 w)) = W13 m ρ c (Proc.devRef .tc (Pipeline.arrRef spec7 w)) :=
  (W14_arr m ρ c w).trans (((dat7 (V13 m ρ) c).arrAt_in w hw _).trans (A_eq7 (V13 m ρ) c w))
abbrev V14x : (c : Dev nD) → (b : Ref sig .tc) → Buf (Elt F) ((c : Thread nD τ).loc b) := fun c b => W14 m ρ c b
theorem hF7 (c : Dev nD) (w : Fin cfg7.W) : (dat7 (V13 m ρ) c).arrAt w cfg7.N = V14x m ρ c (Pipeline.arrRef spec7 w) :=
  (W14_arr m ρ c w).symm
theorem hrest7 (c : Dev nD) : ∀ b, b ∉ Finset.univ.image (Pipeline.arrRef spec7) → V14x m ρ c b = V13 m ρ c b :=
  fun b hb => W14_of_ne m ρ c b fun w e => hb (Finset.mem_image.mpr ⟨w, Finset.mem_univ _, e⟩)
/-- After `hostOps8`. -/
def W15 : Dev nD → Valuation τ sig (Elt F) := fun c => StableHlo.after hostOps8 (W14 m ρ c)
/-- Region 8's entry contents, read at the TensorCore's references. -/
abbrev V15 : (c : Dev nD) → (b : Ref sig .tc) → Buf (Elt F) ((c : Thread nD τ).loc b) := fun c b => W15 m ρ c b
/-- At region 8's exit: its arrays at what the pipeline leaves, every other buffer as entered. -/
def W16 (c : Dev nD) : Valuation τ sig (Elt F) :=
  Pipeline.withArrays spec8 c (W15 m ρ c) fun w => (dat8 (V15 m ρ) c).arrAt w cfg8.N
theorem W16_arr (c : Dev nD) (w : Fin cfg8.W) :
    W16 m ρ c (Proc.devRef .tc (Pipeline.arrRef spec8 w)) = (dat8 (V15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb
/-- An input window's array leaves region 8 as it entered. -/
theorem W16_in (c : Dev nD) (w : Fin cfg8.W) (hw : (cfg8.win w).isOut = false) :
    W16 m ρ c (Proc.devRef .tc (Pipeline.arrRef spec8 w)) = W15 m ρ c (Proc.devRef .tc (Pipeline.arrRef spec8 w)) :=
  (W16_arr m ρ c w).trans (((dat8 (V15 m ρ) c).arrAt_in w hw _).trans (A_eq8 (V15 m ρ) c w))
abbrev V16x : (c : Dev nD) → (b : Ref sig .tc) → Buf (Elt F) ((c : Thread nD τ).loc b) := fun c b => W16 m ρ c b
theorem hF8 (c : Dev nD) (w : Fin cfg8.W) : (dat8 (V15 m ρ) c).arrAt w cfg8.N = V16x m ρ c (Pipeline.arrRef spec8 w) :=
  (W16_arr m ρ c w).symm
theorem hrest8 (c : Dev nD) : ∀ b, b ∉ Finset.univ.image (Pipeline.arrRef spec8) → V16x m ρ c b = V15 m ρ c b :=
  fun b hb => W16_of_ne m ρ c b fun w e => hb (Finset.mem_image.mpr ⟨w, Finset.mem_univ _, e⟩)

/-! ## The arguments end as launched

No host stretch writes an argument (it is outside each stretch's list of written buffers) and no region changes one
(a region reads it through an input window, or does not name it): the fold at an argument's buffer walks back to
the launch memory. -/
theorem W16_main_arg0 (c : Dev nD) : W16 m ρ c (Proc.devRef .tc main_arg0) = m ((c : Thread nD τ).loc main_arg0) :=
  (W16_of_ne m ρ c main_arg0 (by decide)).trans <|
    (keep8 (W14 m ρ c) main_arg0 (by decide)).trans <|
    (W14_of_ne m ρ c main_arg0 (by decide)).trans <|
    (keep7 (W12 m ρ c) main_arg0 (by decide)).trans <|
    (W12_of_ne m ρ c main_arg0 (by decide)).trans <|
    (W11_of_ne m ρ c main_arg0 (by decide)).trans <|
    (keep5 (W9 m ρ c) main_arg0 (by decide)).trans <|
    (W9_of_ne m ρ c main_arg0 (by decide)).trans <|
    (keep4 (W7 m ρ c) main_arg0 (by decide)).trans <|
    (W7_of_ne m ρ c main_arg0 (by decide)).trans <|
    (W6_of_ne m ρ c main_arg0 (by decide)).trans <|
    (keep2 (W4 m ρ c) main_arg0 (by decide)).trans <|
    (W4_of_ne m ρ c main_arg0 (by decide)).trans <|
    (keep1 (W2 m ρ c) main_arg0 (by decide)).trans <|
    (W2_of_ne m ρ c main_arg0 (by decide)).trans <|
    (keep0 (W0 m ρ c) main_arg0 (by decide)).trans <| rfl
theorem W16_main_arg1 (c : Dev nD) : W16 m ρ c (Proc.devRef .tc main_arg1) = m ((c : Thread nD τ).loc main_arg1) :=
  (W16_of_ne m ρ c main_arg1 (by decide)).trans <|
    (keep8 (W14 m ρ c) main_arg1 (by decide)).trans <|
    (W14_of_ne m ρ c main_arg1 (by decide)).trans <|
    (keep7 (W12 m ρ c) main_arg1 (by decide)).trans <|
    (W12_of_ne m ρ c main_arg1 (by decide)).trans <|
    (W11_of_ne m ρ c main_arg1 (by decide)).trans <|
    (keep5 (W9 m ρ c) main_arg1 (by decide)).trans <|
    (W9_of_ne m ρ c main_arg1 (by decide)).trans <|
    (keep4 (W7 m ρ c) main_arg1 (by decide)).trans <|
    (W7_of_ne m ρ c main_arg1 (by decide)).trans <|
    (W6_of_ne m ρ c main_arg1 (by decide)).trans <|
    (keep2 (W4 m ρ c) main_arg1 (by decide)).trans <|
    (W4_of_ne m ρ c main_arg1 (by decide)).trans <|
    (keep1 (W2 m ρ c) main_arg1 (by decide)).trans <|
    (W2_of_ne m ρ c main_arg1 (by decide)).trans <|
    (keep0 (W0 m ρ c) main_arg1 (by decide)).trans <| rfl
theorem W16_main_arg2 (c : Dev nD) : W16 m ρ c (Proc.devRef .tc main_arg2) = m ((c : Thread nD τ).loc main_arg2) :=
  (W16_of_ne m ρ c main_arg2 (by decide)).trans <|
    (keep8 (W14 m ρ c) main_arg2 (by decide)).trans <|
    (W14_of_ne m ρ c main_arg2 (by decide)).trans <|
    (keep7 (W12 m ρ c) main_arg2 (by decide)).trans <|
    (W12_of_ne m ρ c main_arg2 (by decide)).trans <|
    (W11_of_ne m ρ c main_arg2 (by decide)).trans <|
    (keep5 (W9 m ρ c) main_arg2 (by decide)).trans <|
    (W9_of_ne m ρ c main_arg2 (by decide)).trans <|
    (keep4 (W7 m ρ c) main_arg2 (by decide)).trans <|
    (W7_of_ne m ρ c main_arg2 (by decide)).trans <|
    (W6_of_ne m ρ c main_arg2 (by decide)).trans <|
    (keep2 (W4 m ρ c) main_arg2 (by decide)).trans <|
    (W4_of_ne m ρ c main_arg2 (by decide)).trans <|
    (keep1 (W2 m ρ c) main_arg2 (by decide)).trans <|
    (W2_of_ne m ρ c main_arg2 (by decide)).trans <|
    (keep0 (W0 m ρ c) main_arg2 (by decide)).trans <| rfl
theorem W16_main_arg3 (c : Dev nD) : W16 m ρ c (Proc.devRef .tc main_arg3) = m ((c : Thread nD τ).loc main_arg3) :=
  (W16_of_ne m ρ c main_arg3 (by decide)).trans <|
    (keep8 (W14 m ρ c) main_arg3 (by decide)).trans <|
    (W14_of_ne m ρ c main_arg3 (by decide)).trans <|
    (keep7 (W12 m ρ c) main_arg3 (by decide)).trans <|
    (W12_of_ne m ρ c main_arg3 (by decide)).trans <|
    (W11_of_ne m ρ c main_arg3 (by decide)).trans <|
    (keep5 (W9 m ρ c) main_arg3 (by decide)).trans <|
    (W9_of_ne m ρ c main_arg3 (by decide)).trans <|
    (keep4 (W7 m ρ c) main_arg3 (by decide)).trans <|
    (W7_of_ne m ρ c main_arg3 (by decide)).trans <|
    (W6_of_ne m ρ c main_arg3 (by decide)).trans <|
    (keep2 (W4 m ρ c) main_arg3 (by decide)).trans <|
    (W4_of_ne m ρ c main_arg3 (by decide)).trans <|
    (keep1 (W2 m ρ c) main_arg3 (by decide)).trans <|
    (W2_of_ne m ρ c main_arg3 (by decide)).trans <|
    (keep0 (W0 m ρ c) main_arg3 (by decide)).trans <| rfl
theorem W16_main_arg4 (c : Dev nD) : W16 m ρ c (Proc.devRef .tc main_arg4) = m ((c : Thread nD τ).loc main_arg4) :=
  (W16_of_ne m ρ c main_arg4 (by decide)).trans <|
    (keep8 (W14 m ρ c) main_arg4 (by decide)).trans <|
    (W14_of_ne m ρ c main_arg4 (by decide)).trans <|
    (keep7 (W12 m ρ c) main_arg4 (by decide)).trans <|
    (W12_of_ne m ρ c main_arg4 (by decide)).trans <|
    (W11_of_ne m ρ c main_arg4 (by decide)).trans <|
    (keep5 (W9 m ρ c) main_arg4 (by decide)).trans <|
    (W9_of_ne m ρ c main_arg4 (by decide)).trans <|
    (keep4 (W7 m ρ c) main_arg4 (by decide)).trans <|
    (W7_of_ne m ρ c main_arg4 (by decide)).trans <|
    (W6_of_ne m ρ c main_arg4 (by decide)).trans <|
    (keep2 (W4 m ρ c) main_arg4 (by decide)).trans <|
    (W4_of_ne m ρ c main_arg4 (by decide)).trans <|
    (keep1 (W2 m ρ c) main_arg4 (by decide)).trans <|
    (W2_of_ne m ρ c main_arg4 (by decide)).trans <|
    (keep0 (W0 m ρ c) main_arg4 (by decide)).trans <| rfl
theorem W16_main_arg5 (c : Dev nD) : W16 m ρ c (Proc.devRef .tc main_arg5) = m ((c : Thread nD τ).loc main_arg5) :=
  (W16_of_ne m ρ c main_arg5 (by decide)).trans <|
    (keep8 (W14 m ρ c) main_arg5 (by decide)).trans <|
    (W14_of_ne m ρ c main_arg5 (by decide)).trans <|
    (keep7 (W12 m ρ c) main_arg5 (by decide)).trans <|
    (W12_of_ne m ρ c main_arg5 (by decide)).trans <|
    (W11_of_ne m ρ c main_arg5 (by decide)).trans <|
    (keep5 (W9 m ρ c) main_arg5 (by decide)).trans <|
    (W9_of_ne m ρ c main_arg5 (by decide)).trans <|
    (keep4 (W7 m ρ c) main_arg5 (by decide)).trans <|
    (W7_of_ne m ρ c main_arg5 (by decide)).trans <|
    (W6_of_ne m ρ c main_arg5 (by decide)).trans <|
    (keep2 (W4 m ρ c) main_arg5 (by decide)).trans <|
    (W4_of_ne m ρ c main_arg5 (by decide)).trans <|
    (keep1 (W2 m ρ c) main_arg5 (by decide)).trans <|
    (W2_of_ne m ρ c main_arg5 (by decide)).trans <|
    (keep0 (W0 m ρ c) main_arg5 (by decide)).trans <| rfl
theorem W16_main_arg6 (c : Dev nD) : W16 m ρ c (Proc.devRef .tc main_arg6) = m ((c : Thread nD τ).loc main_arg6) :=
  (W16_of_ne m ρ c main_arg6 (by decide)).trans <|
    (keep8 (W14 m ρ c) main_arg6 (by decide)).trans <|
    (W14_of_ne m ρ c main_arg6 (by decide)).trans <|
    (keep7 (W12 m ρ c) main_arg6 (by decide)).trans <|
    (W12_of_ne m ρ c main_arg6 (by decide)).trans <|
    (W11_of_ne m ρ c main_arg6 (by decide)).trans <|
    (keep5 (W9 m ρ c) main_arg6 (by decide)).trans <|
    (W9_of_ne m ρ c main_arg6 (by decide)).trans <|
    (keep4 (W7 m ρ c) main_arg6 (by decide)).trans <|
    (W7_of_ne m ρ c main_arg6 (by decide)).trans <|
    (W6_of_ne m ρ c main_arg6 (by decide)).trans <|
    (keep2 (W4 m ρ c) main_arg6 (by decide)).trans <|
    (W4_of_ne m ρ c main_arg6 (by decide)).trans <|
    (keep1 (W2 m ρ c) main_arg6 (by decide)).trans <|
    (W2_in m ρ c 1 rfl).trans <|
    (keep0 (W0 m ρ c) main_arg6 (by decide)).trans <| rfl
theorem W16_main_arg7 (c : Dev nD) : W16 m ρ c (Proc.devRef .tc main_arg7) = m ((c : Thread nD τ).loc main_arg7) :=
  (W16_of_ne m ρ c main_arg7 (by decide)).trans <|
    (keep8 (W14 m ρ c) main_arg7 (by decide)).trans <|
    (W14_of_ne m ρ c main_arg7 (by decide)).trans <|
    (keep7 (W12 m ρ c) main_arg7 (by decide)).trans <|
    (W12_of_ne m ρ c main_arg7 (by decide)).trans <|
    (W11_of_ne m ρ c main_arg7 (by decide)).trans <|
    (keep5 (W9 m ρ c) main_arg7 (by decide)).trans <|
    (W9_of_ne m ρ c main_arg7 (by decide)).trans <|
    (keep4 (W7 m ρ c) main_arg7 (by decide)).trans <|
    (W7_of_ne m ρ c main_arg7 (by decide)).trans <|
    (W6_of_ne m ρ c main_arg7 (by decide)).trans <|
    (keep2 (W4 m ρ c) main_arg7 (by decide)).trans <|
    (W4_of_ne m ρ c main_arg7 (by decide)).trans <|
    (keep1 (W2 m ρ c) main_arg7 (by decide)).trans <|
    (W2_of_ne m ρ c main_arg7 (by decide)).trans <|
    (keep0 (W0 m ρ c) main_arg7 (by decide)).trans <| rfl
theorem W16_main_arg8 (c : Dev nD) : W16 m ρ c (Proc.devRef .tc main_arg8) = m ((c : Thread nD τ).loc main_arg8) :=
  (W16_of_ne m ρ c main_arg8 (by decide)).trans <|
    (keep8 (W14 m ρ c) main_arg8 (by decide)).trans <|
    (W14_of_ne m ρ c main_arg8 (by decide)).trans <|
    (keep7 (W12 m ρ c) main_arg8 (by decide)).trans <|
    (W12_of_ne m ρ c main_arg8 (by decide)).trans <|
    (W11_of_ne m ρ c main_arg8 (by decide)).trans <|
    (keep5 (W9 m ρ c) main_arg8 (by decide)).trans <|
    (W9_of_ne m ρ c main_arg8 (by decide)).trans <|
    (keep4 (W7 m ρ c) main_arg8 (by decide)).trans <|
    (W7_of_ne m ρ c main_arg8 (by decide)).trans <|
    (W6_of_ne m ρ c main_arg8 (by decide)).trans <|
    (keep2 (W4 m ρ c) main_arg8 (by decide)).trans <|
    (W4_of_ne m ρ c main_arg8 (by decide)).trans <|
    (keep1 (W2 m ρ c) main_arg8 (by decide)).trans <|
    (W2_of_ne m ρ c main_arg8 (by decide)).trans <|
    (keep0 (W0 m ρ c) main_arg8 (by decide)).trans <| rfl
theorem W16_main_arg9 (c : Dev nD) : W16 m ρ c (Proc.devRef .tc main_arg9) = m ((c : Thread nD τ).loc main_arg9) :=
  (W16_of_ne m ρ c main_arg9 (by decide)).trans <|
    (keep8 (W14 m ρ c) main_arg9 (by decide)).trans <|
    (W14_of_ne m ρ c main_arg9 (by decide)).trans <|
    (keep7 (W12 m ρ c) main_arg9 (by decide)).trans <|
    (W12_of_ne m ρ c main_arg9 (by decide)).trans <|
    (W11_of_ne m ρ c main_arg9 (by decide)).trans <|
    (keep5 (W9 m ρ c) main_arg9 (by decide)).trans <|
    (W9_of_ne m ρ c main_arg9 (by decide)).trans <|
    (keep4 (W7 m ρ c) main_arg9 (by decide)).trans <|
    (W7_of_ne m ρ c main_arg9 (by decide)).trans <|
    (W6_of_ne m ρ c main_arg9 (by decide)).trans <|
    (keep2 (W4 m ρ c) main_arg9 (by decide)).trans <|
    (W4_in m ρ c 3 rfl).trans <|
    (keep1 (W2 m ρ c) main_arg9 (by decide)).trans <|
    (W2_of_ne m ρ c main_arg9 (by decide)).trans <|
    (keep0 (W0 m ρ c) main_arg9 (by decide)).trans <| rfl
theorem W16_main_arg10 (c : Dev nD) : W16 m ρ c (Proc.devRef .tc main_arg10) = m ((c : Thread nD τ).loc main_arg10) :=
  (W16_of_ne m ρ c main_arg10 (by decide)).trans <|
    (keep8 (W14 m ρ c) main_arg10 (by decide)).trans <|
    (W14_of_ne m ρ c main_arg10 (by decide)).trans <|
    (keep7 (W12 m ρ c) main_arg10 (by decide)).trans <|
    (W12_of_ne m ρ c main_arg10 (by decide)).trans <|
    (W11_of_ne m ρ c main_arg10 (by decide)).trans <|
    (keep5 (W9 m ρ c) main_arg10 (by decide)).trans <|
    (W9_of_ne m ρ c main_arg10 (by decide)).trans <|
    (keep4 (W7 m ρ c) main_arg10 (by decide)).trans <|
    (W7_of_ne m ρ c main_arg10 (by decide)).trans <|
    (W6_of_ne m ρ c main_arg10 (by decide)).trans <|
    (keep2 (W4 m ρ c) main_arg10 (by decide)).trans <|
    (W4_of_ne m ρ c main_arg10 (by decide)).trans <|
    (keep1 (W2 m ρ c) main_arg10 (by decide)).trans <|
    (W2_of_ne m ρ c main_arg10 (by decide)).trans <|
    (keep0 (W0 m ρ c) main_arg10 (by decide)).trans <| rfl
theorem W16_main_arg11 (c : Dev nD) : W16 m ρ c (Proc.devRef .tc main_arg11) = m ((c : Thread nD τ).loc main_arg11) :=
  (W16_of_ne m ρ c main_arg11 (by decide)).trans <|
    (keep8 (W14 m ρ c) main_arg11 (by decide)).trans <|
    (W14_of_ne m ρ c main_arg11 (by decide)).trans <|
    (keep7 (W12 m ρ c) main_arg11 (by decide)).trans <|
    (W12_of_ne m ρ c main_arg11 (by decide)).trans <|
    (W11_of_ne m ρ c main_arg11 (by decide)).trans <|
    (keep5 (W9 m ρ c) main_arg11 (by decide)).trans <|
    (W9_of_ne m ρ c main_arg11 (by decide)).trans <|
    (keep4 (W7 m ρ c) main_arg11 (by decide)).trans <|
    (W7_of_ne m ρ c main_arg11 (by decide)).trans <|
    (W6_of_ne m ρ c main_arg11 (by decide)).trans <|
    (keep2 (W4 m ρ c) main_arg11 (by decide)).trans <|
    (W4_of_ne m ρ c main_arg11 (by decide)).trans <|
    (keep1 (W2 m ρ c) main_arg11 (by decide)).trans <|
    (W2_of_ne m ρ c main_arg11 (by decide)).trans <|
    (keep0 (W0 m ρ c) main_arg11 (by decide)).trans <| rfl
theorem W16_main_arg12 (c : Dev nD) : W16 m ρ c (Proc.devRef .tc main_arg12) = m ((c : Thread nD τ).loc main_arg12) :=
  (W16_of_ne m ρ c main_arg12 (by decide)).trans <|
    (keep8 (W14 m ρ c) main_arg12 (by decide)).trans <|
    (W14_of_ne m ρ c main_arg12 (by decide)).trans <|
    (keep7 (W12 m ρ c) main_arg12 (by decide)).trans <|
    (W12_in m ρ c 1 rfl).trans <|
    (W11_of_ne m ρ c main_arg12 (by decide)).trans <|
    (keep5 (W9 m ρ c) main_arg12 (by decide)).trans <|
    (W9_of_ne m ρ c main_arg12 (by decide)).trans <|
    (keep4 (W7 m ρ c) main_arg12 (by decide)).trans <|
    (W7_in m ρ c 1 rfl).trans <|
    (W6_of_ne m ρ c main_arg12 (by decide)).trans <|
    (keep2 (W4 m ρ c) main_arg12 (by decide)).trans <|
    (W4_of_ne m ρ c main_arg12 (by decide)).trans <|
    (keep1 (W2 m ρ c) main_arg12 (by decide)).trans <|
    (W2_of_ne m ρ c main_arg12 (by decide)).trans <|
    (keep0 (W0 m ρ c) main_arg12 (by decide)).trans <| rfl
theorem W16_main_arg13 (c : Dev nD) : W16 m ρ c (Proc.devRef .tc main_arg13) = m ((c : Thread nD τ).loc main_arg13) :=
  (W16_of_ne m ρ c main_arg13 (by decide)).trans <|
    (keep8 (W14 m ρ c) main_arg13 (by decide)).trans <|
    (W14_of_ne m ρ c main_arg13 (by decide)).trans <|
    (keep7 (W12 m ρ c) main_arg13 (by decide)).trans <|
    (W12_of_ne m ρ c main_arg13 (by decide)).trans <|
    (W11_of_ne m ρ c main_arg13 (by decide)).trans <|
    (keep5 (W9 m ρ c) main_arg13 (by decide)).trans <|
    (W9_of_ne m ρ c main_arg13 (by decide)).trans <|
    (keep4 (W7 m ρ c) main_arg13 (by decide)).trans <|
    (W7_of_ne m ρ c main_arg13 (by decide)).trans <|
    (W6_of_ne m ρ c main_arg13 (by decide)).trans <|
    (keep2 (W4 m ρ c) main_arg13 (by decide)).trans <|
    (W4_of_ne m ρ c main_arg13 (by decide)).trans <|
    (keep1 (W2 m ρ c) main_arg13 (by decide)).trans <|
    (W2_of_ne m ρ c main_arg13 (by decide)).trans <|
    (keep0 (W0 m ρ c) main_arg13 (by decide)).trans <| rfl
theorem W16_main_arg14 (c : Dev nD) : W16 m ρ c (Proc.devRef .tc main_arg14) = m ((c : Thread nD τ).loc main_arg14) :=
  (W16_of_ne m ρ c main_arg14 (by decide)).trans <|
    (keep8 (W14 m ρ c) main_arg14 (by decide)).trans <|
    (W14_of_ne m ρ c main_arg14 (by decide)).trans <|
    (keep7 (W12 m ρ c) main_arg14 (by decide)).trans <|
    (W12_of_ne m ρ c main_arg14 (by decide)).trans <|
    (W11_of_ne m ρ c main_arg14 (by decide)).trans <|
    (keep5 (W9 m ρ c) main_arg14 (by decide)).trans <|
    (W9_of_ne m ρ c main_arg14 (by decide)).trans <|
    (keep4 (W7 m ρ c) main_arg14 (by decide)).trans <|
    (W7_of_ne m ρ c main_arg14 (by decide)).trans <|
    (W6_of_ne m ρ c main_arg14 (by decide)).trans <|
    (keep2 (W4 m ρ c) main_arg14 (by decide)).trans <|
    (W4_of_ne m ρ c main_arg14 (by decide)).trans <|
    (keep1 (W2 m ρ c) main_arg14 (by decide)).trans <|
    (W2_of_ne m ρ c main_arg14 (by decide)).trans <|
    (keep0 (W0 m ρ c) main_arg14 (by decide)).trans <| rfl
theorem W16_main_arg15 (c : Dev nD) : W16 m ρ c (Proc.devRef .tc main_arg15) = m ((c : Thread nD τ).loc main_arg15) :=
  (W16_of_ne m ρ c main_arg15 (by decide)).trans <|
    (keep8 (W14 m ρ c) main_arg15 (by decide)).trans <|
    (W14_in m ρ c 3 rfl).trans <|
    (keep7 (W12 m ρ c) main_arg15 (by decide)).trans <|
    (W12_of_ne m ρ c main_arg15 (by decide)).trans <|
    (W11_of_ne m ρ c main_arg15 (by decide)).trans <|
    (keep5 (W9 m ρ c) main_arg15 (by decide)).trans <|
    (W9_in m ρ c 3 rfl).trans <|
    (keep4 (W7 m ρ c) main_arg15 (by decide)).trans <|
    (W7_of_ne m ρ c main_arg15 (by decide)).trans <|
    (W6_of_ne m ρ c main_arg15 (by decide)).trans <|
    (keep2 (W4 m ρ c) main_arg15 (by decide)).trans <|
    (W4_of_ne m ρ c main_arg15 (by decide)).trans <|
    (keep1 (W2 m ρ c) main_arg15 (by decide)).trans <|
    (W2_of_ne m ρ c main_arg15 (by decide)).trans <|
    (keep0 (W0 m ρ c) main_arg15 (by decide)).trans <| rfl
theorem W16_main_arg16 (c : Dev nD) : W16 m ρ c (Proc.devRef .tc main_arg16) = m ((c : Thread nD τ).loc main_arg16) :=
  (W16_of_ne m ρ c main_arg16 (by decide)).trans <|
    (keep8 (W14 m ρ c) main_arg16 (by decide)).trans <|
    (W14_of_ne m ρ c main_arg16 (by decide)).trans <|
    (keep7 (W12 m ρ c) main_arg16 (by decide)).trans <|
    (W12_of_ne m ρ c main_arg16 (by decide)).trans <|
    (W11_of_ne m ρ c main_arg16 (by decide)).trans <|
    (keep5 (W9 m ρ c) main_arg16 (by decide)).trans <|
    (W9_of_ne m ρ c main_arg16 (by decide)).trans <|
    (keep4 (W7 m ρ c) main_arg16 (by decide)).trans <|
    (W7_of_ne m ρ c main_arg16 (by decide)).trans <|
    (W6_of_ne m ρ c main_arg16 (by decide)).trans <|
    (keep2 (W4 m ρ c) main_arg16 (by decide)).trans <|
    (W4_of_ne m ρ c main_arg16 (by decide)).trans <|
    (keep1 (W2 m ρ c) main_arg16 (by decide)).trans <|
    (W2_of_ne m ρ c main_arg16 (by decide)).trans <|
    (keep0 (W0 m ρ c) main_arg16 (by decide)).trans <| rfl
theorem W16_main_arg17 (c : Dev nD) : W16 m ρ c (Proc.devRef .tc main_arg17) = m ((c : Thread nD τ).loc main_arg17) :=
  (W16_of_ne m ρ c main_arg17 (by decide)).trans <|
    (keep8 (W14 m ρ c) main_arg17 (by decide)).trans <|
    (W14_of_ne m ρ c main_arg17 (by decide)).trans <|
    (keep7 (W12 m ρ c) main_arg17 (by decide)).trans <|
    (W12_of_ne m ρ c main_arg17 (by decide)).trans <|
    (W11_of_ne m ρ c main_arg17 (by decide)).trans <|
    (keep5 (W9 m ρ c) main_arg17 (by decide)).trans <|
    (W9_of_ne m ρ c main_arg17 (by decide)).trans <|
    (keep4 (W7 m ρ c) main_arg17 (by decide)).trans <|
    (W7_of_ne m ρ c main_arg17 (by decide)).trans <|
    (W6_of_ne m ρ c main_arg17 (by decide)).trans <|
    (keep2 (W4 m ρ c) main_arg17 (by decide)).trans <|
    (W4_of_ne m ρ c main_arg17 (by decide)).trans <|
    (keep1 (W2 m ρ c) main_arg17 (by decide)).trans <|
    (W2_of_ne m ρ c main_arg17 (by decide)).trans <|
    (keep0 (W0 m ρ c) main_arg17 (by decide)).trans <| rfl

/-! ## The results at the end: each is an output array of its last region, untouched afterwards -/
theorem W16_main_v169 (c : Dev nD) : W16 m ρ c (Proc.devRef .tc main_v169) = (dat2 (V5 m ρ) c).arrAt 3 cfg2.N :=
  (W16_of_ne m ρ c main_v169 (by decide)).trans <|
    (keep8 (W14 m ρ c) main_v169 (by decide)).trans <|
    (W14_of_ne m ρ c main_v169 (by decide)).trans <|
    (keep7 (W12 m ρ c) main_v169 (by decide)).trans <|
    (W12_of_ne m ρ c main_v169 (by decide)).trans <|
    (W11_of_ne m ρ c main_v169 (by decide)).trans <|
    (keep5 (W9 m ρ c) main_v169 (by decide)).trans <|
    (W9_of_ne m ρ c main_v169 (by decide)).trans <|
    (keep4 (W7 m ρ c) main_v169 (by decide)).trans <|
    (W7_of_ne m ρ c main_v169 (by decide)).trans <| (W6_arr m ρ c 3)
theorem W16_main_v200 (c : Dev nD) : W16 m ρ c (Proc.devRef .tc main_v200) = (dat5 (V10 m ρ) c).arrAt 3 cfg5.N :=
  (W16_of_ne m ρ c main_v200 (by decide)).trans <|
    (keep8 (W14 m ρ c) main_v200 (by decide)).trans <|
    (W14_of_ne m ρ c main_v200 (by decide)).trans <|
    (keep7 (W12 m ρ c) main_v200 (by decide)).trans <|
    (W12_of_ne m ρ c main_v200 (by decide)).trans <| (W11_arr m ρ c 3)
theorem W16_main_v231 (c : Dev nD) : W16 m ρ c (Proc.devRef .tc main_v231) = (dat8 (V15 m ρ) c).arrAt 3 cfg8.N :=
  (W16_arr m ρ c 3)

end Cert.KernelIdeal.Hand

end
-- ==== Proof.KI.Pdats.lean ====
/-
  The proof data of the kernel program's nine pipelines as one family, each at its region's entry contents.
-/
import proofs.«143519_j50869592655552_1_alg».proof.Proof.KI.Fold3
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (ρ : Dev nD → PrngReg)

/-! ## The proof data family -/

/-- Every pipeline's proof data, each at its region's entry contents — a literal match, so that the launch's
    pinned configuration at a numeral reduces to the printed one. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V11 m ρ) c
  | ⟨7, _⟩ => fun c => dat7 (V13 m ρ) c
  | ⟨8, _⟩ => fun c => dat8 (V15 m ρ) c

end Cert.KernelIdeal.Hand

end
-- ==== Proof.KI.Reg0.lean ====
/-
  Region 0 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.KI.Pdats

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 0 as a segment: entered from every unscoped buffer at `W1`, left at `W2`. Its windows' arrays are split
    out of the unscoped buffers and put back at their exit contents; the generator register goes into the kernel's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2x m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  Region 1 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.KI.Pdats

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 1 as a segment: entered from every unscoped buffer at `W3`, left at `W4`. Its windows' arrays are split
    out of the unscoped buffers and put back at their exit contents; the generator register goes into the kernel's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4x m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  Region 2 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.KI.Pdats

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 2 as a segment: entered from every unscoped buffer at `W5`, left at `W6`. Its windows' arrays are split
    out of the unscoped buffers and put back at their exit contents; the generator register goes into the kernel's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6x m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
/-
  Region 3 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.KI.Pdats

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 3 as a segment: entered from every unscoped buffer at `W6`, left at `W7`. Its windows' arrays are split
    out of the unscoped buffers and put back at their exit contents; the generator register goes into the kernel's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V6 m ρ) c)
    unfold Pipeline.ΦA
    iintro ⟨Hp, -, Hr⟩
    isplitl [Hr]; · iexact Hr
    iexact Hp
  hout c := by
    rw [Pipeline.ownSems0_none]
    refine (hout3 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7x m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
/-
  Region 4 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.KI.Pdats

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 4 as a segment: entered from every unscoped buffer at `W8`, left at `W9`. Its windows' arrays are split
    out of the unscoped buffers and put back at their exit contents; the generator register goes into the kernel's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (V8 m ρ) c)
    unfold Pipeline.ΦA
    iintro ⟨Hp, -, Hr⟩
    isplitl [Hr]; · iexact Hr
    iexact Hp
  hout c := by
    rw [Pipeline.ownSems0_none]
    refine (hout4 (V8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9x m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
/-
  Region 5 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.KI.Pdats

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 5 as a segment: entered from every unscoped buffer at `W10`, left at `W11`. Its windows' arrays are split
    out of the unscoped buffers and put back at their exit contents; the generator register goes into the kernel's
    invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (V10 m ρ) c)
    unfold Pipeline.ΦA
    iintro ⟨Hp, -, Hr⟩
    isplitl [Hr]; · iexact Hr
    iexact Hp
  hout c := by
    rw [Pipeline.ownSems0_none]
    refine (hout5 (V10 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11x m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg6.lean ====
/-
  Region 6 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.KI.Pdats

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 6 as a segment: entered from every unscoped buffer at `W11`, left at `W12`. Its windows' arrays are split
    out of the unscoped buffers and put back at their exit contents; the generator register goes into the kernel's
    invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin6 (V11 m ρ) c)
    unfold Pipeline.ΦA
    iintro ⟨Hp, -, Hr⟩
    isplitl [Hr]; · iexact Hr
    iexact Hp
  hout c := by
    rw [Pipeline.ownSems0_none]
    refine (hout6 (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12x m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg7.lean ====
/-
  Region 7 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.KI.Pdats

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 7 as a segment: entered from every unscoped buffer at `W13`, left at `W14`. Its windows' arrays are split
    out of the unscoped buffers and put back at their exit contents; the generator register goes into the kernel's
    invariant and comes back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin7 (V13 m ρ) c)
    unfold Pipeline.ΦA
    iintro ⟨Hp, -, Hr⟩
    isplitl [Hr]; · iexact Hr
    iexact Hp
  hout c := by
    rw [Pipeline.ownSems0_none]
    refine (hout7 (V13 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14x m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg8.lean ====
/-
  Region 8 of the kernel program as a segment of the several-regions launch: entered from the thread state "every
  unscoped buffer at the boundary's contents, the generator register at some state, nothing owed"; its windows' arrays
  are split out of the unscoped buffers and put back at their exit contents, the generator register goes into the
  kernel's invariant and comes back, and the kernel has no semaphore of its own.
-/
import proofs.«143519_j50869592655552_1_alg».proof.Proof.KI.Pdats

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

open Idealize.ShloMosaic.Pipeline (BodyObligation)
local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 8 as a segment: entered from every unscoped buffer at `W15`, left at `W16`. Its windows' arrays are split
    out of the unscoped buffers and put back at their exit contents; the generator register goes into the kernel's
    invariant and comes back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V15 m ρ) c).loose
  hwaits := Pipeline.hwaits_of_owed_zero _ _ _ _ L lv 8 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec8 c (V15 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin8 (V15 m ρ) c)
    unfold Pipeline.ΦA
    iintro ⟨Hp, -, Hr⟩
    isplitl [Hr]; · iexact Hr
    iexact Hp
  hout c := by
    rw [Pipeline.ownSems0_none]
    refine (hout8 (V15 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V15 m ρ c) (V16x m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The kernel program's run: @main as sixteen segments (seven host stretches, nine regions) over the several-regions
  launch. From any memory with zero counters every weakly fair execution terminates, nothing faulting; at the end each
  result buffer holds the last boundary's contents and every argument array is as launched.
-/
import proofs.«143519_j50869592655552_1_alg».proof.Proof.KI.Reg0
import proofs.«143519_j50869592655552_1_alg».proof.Proof.KI.Reg1
import proofs.«143519_j50869592655552_1_alg».proof.Proof.KI.Reg2
import proofs.«143519_j50869592655552_1_alg».proof.Proof.KI.Reg3
import proofs.«143519_j50869592655552_1_alg».proof.Proof.KI.Reg4
import proofs.«143519_j50869592655552_1_alg».proof.Proof.KI.Reg5
import proofs.«143519_j50869592655552_1_alg».proof.Proof.KI.Reg6
import proofs.«143519_j50869592655552_1_alg».proof.Proof.KI.Reg7
import proofs.«143519_j50869592655552_1_alg».proof.Proof.KI.Reg8

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's sixteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .region (reg6 m ρ),
    .host (hseg hostOps7 hostOps7_sub hostOps7_fresh (W12 m ρ)),
    .region (reg7 m ρ),
    .host (hseg hostOps8 hostOps8_sub hostOps8_fresh (W14 m ρ)),
    .region (reg8 m ρ) ]

set_option maxHeartbeats 4000000 in
/-- @main is the run of the segments. -/
theorem main_run (c : Dev nD) : main (F := F) c = Pipeline.Seg.run (segs m ρ) := (main_chain c).trans (by chain_rfl)

/-- The last thread state without the `owes`: every unscoped buffer at the last boundary's contents, the generator
    register at some state. -/
abbrev Tₙ (c : Dev nD) : sProp 𝕄 := iprop(StableHlo.held (c : Thread nD τ) (Pipeline.ucRefs τ sig) (W16 m ρ c) ∗ ∃ r, prngReg c r)

set_option maxHeartbeats 8000000 in
set_option backward.isDefEq.respectTransparency.types false in
/-- THE RUN, at any instance: from any memory with zero counters every weakly fair execution of @main on the
    TensorCores terminates, nothing faulting; every final state has each result buffer at the last boundary's
    contents and every argument array as launched. -/
theorem run : θ_run defs (onTc (τ := τ) (main (F := F))) ⟨m, fun _ => 0, ρ⟩ (fun r => ∀ c : Dev nD,
      (r.2.mem ((c.tc : Thread nD τ).loc main_v169) = W16 m ρ c (Proc.devRef .tc main_v169)
      ∧ r.2.mem ((c.tc : Thread nD τ).loc main_v200) = W16 m ρ c (Proc.devRef .tc main_v200)
      ∧ r.2.mem ((c.tc : Thread nD τ).loc main_v231) = W16 m ρ c (Proc.devRef .tc main_v231))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W16 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨⟨h c _ (mem_uc main_v169 (by decide)), h c _ (mem_uc main_v200 (by decide)), h c _ (mem_uc main_v231 (by decide))⟩,
        (h c _ (mem_uc main_arg0 (by decide))).trans (W16_main_arg0 m ρ c),
        (h c _ (mem_uc main_arg1 (by decide))).trans (W16_main_arg1 m ρ c),
        (h c _ (mem_uc main_arg2 (by decide))).trans (W16_main_arg2 m ρ c),
        (h c _ (mem_uc main_arg3 (by decide))).trans (W16_main_arg3 m ρ c),
        (h c _ (mem_uc main_arg4 (by decide))).trans (W16_main_arg4 m ρ c),
        (h c _ (mem_uc main_arg5 (by decide))).trans (W16_main_arg5 m ρ c),
        (h c _ (mem_uc main_arg6 (by decide))).trans (W16_main_arg6 m ρ c),
        (h c _ (mem_uc main_arg7 (by decide))).trans (W16_main_arg7 m ρ c),
        (h c _ (mem_uc main_arg8 (by decide))).trans (W16_main_arg8 m ρ c),
        (h c _ (mem_uc main_arg9 (by decide))).trans (W16_main_arg9 m ρ c),
        (h c _ (mem_uc main_arg10 (by decide))).trans (W16_main_arg10 m ρ c),
        (h c _ (mem_uc main_arg11 (by decide))).trans (W16_main_arg11 m ρ c),
        (h c _ (mem_uc main_arg12 (by decide))).trans (W16_main_arg12 m ρ c),
        (h c _ (mem_uc main_arg13 (by decide))).trans (W16_main_arg13 m ρ c),
        (h c _ (mem_uc main_arg14 (by decide))).trans (W16_main_arg14 m ρ c),
        (h c _ (mem_uc main_arg15 (by decide))).trans (W16_main_arg15 m ρ c),
        (h c _ (mem_uc main_arg16 (by decide))).trans (W16_main_arg16 m ρ c),
        (h c _ (mem_uc main_arg17 (by decide))).trans (W16_main_arg17 m ρ c)⟩)

end Cert.KernelIdeal.Hand

end
-- ==== Proof.RefRunOps0.lean ====
import proofs.«143519_j50869592655552_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 1 … 60 of the 463 that the reference's @main performs, in program order
    (the statements of `main_part0`). -/
abbrev ops_part0 : List (HloOp τ sig (Elt F)) :=
  [ StableHlo.nullary main_v0 (iotaInDim S60000 32 0),
    StableHlo.unary main_v0 main_v1 (broadcastInDim S60000x2 ![0] bcast_S60000_S60000x2_0 : (⟨S60000, .i32⟩ : BufTy).Contents (Elt F) → (⟨S60000x2, .i32⟩ : BufTy).Contents (Elt F)),
    StableHlo.reshape main_v1 main_v2 rfl shapeCasts_S60000x2_S120000,
    StableHlo.nullary main_v3 (iotaInDim S30000 32 0),
    StableHlo.unary main_v3 main_v4 (broadcastInDim S30000x5 ![0] bcast_S30000_S30000x5_0 : (⟨S30000, .i32⟩ : BufTy).Contents (Elt F) → (⟨S30000x5, .i32⟩ : BufTy).Contents (Elt F)),
    StableHlo.reshape main_v4 main_v5 rfl shapeCasts_S30000x5_S150000,
    StableHlo.nullary main_v6 (iotaInDim S25000 32 0),
    StableHlo.unary main_v6 main_v7 (broadcastInDim S25000x6 ![0] bcast_S25000_S25000x6_0 : (⟨S25000, .i32⟩ : BufTy).Contents (Elt F) → (⟨S25000x6, .i32⟩ : BufTy).Contents (Elt F)),
    StableHlo.reshape main_v7 main_v8 rfl shapeCasts_S25000x6_S150000,
    StableHlo.nullary main_cst (constant S_ .f32 0x00000000#32),
    StableHlo.unary main_cst main_v9 (broadcastInDim S40000x64 ![] bcast_S_S40000x64 : (⟨S_, .f32⟩ : BufTy).Contents (Elt F) → (⟨S40000x64, .f32⟩ : BufTy).Contents (Elt F)),
    StableHlo.unary main_arg3 main_v10 (broadcastInDim S120000x1 ![0] bcast_S120000_S120000x1_0 : (⟨S120000, .i32⟩ : BufTy).Contents (Elt F) → (⟨S120000x1, .i32⟩ : BufTy).Contents (Elt F)),
    StableHlo.ternary main_v9 main_v10 main_arg0 main_v11 ((fun x i u => Host.scatterAdd scatter_S40000x64_S120000x1_S120000x64_1_0_0_1 x i u) : (⟨S40000x64, .f32⟩ : BufTy).Contents (Elt F) → (⟨S120000x1, .i32⟩ : BufTy).Contents (Elt F) → (⟨S120000x64, .f32⟩ : BufTy).Contents (Elt F) → (⟨S40000x64, .f32⟩ : BufTy).Contents (Elt F)),
    StableHlo.nullary main_c (constantI S_ 32 0#32),
    StableHlo.unary main_c main_v12 (broadcastInDim S150000 ![] bcast_S_S150000 : (⟨S_, .i32⟩ : BufTy).Contents (Elt F) → (⟨S150000, .i32⟩ : BufTy).Contents (Elt F)),
    StableHlo.binary main_arg4 main_v12 main_v13 (cmpi .slt : (⟨S150000, .i32⟩ : BufTy).Contents (Elt F) → (⟨S150000, .i32⟩ : BufTy).Contents (Elt F) → (⟨S150000, .i1⟩ : BufTy).Contents (Elt F)),
    StableHlo.nullary main_c_0 (constantI S_ 32 40000#32),
    StableHlo.unary main_c_0 main_v14 (broadcastInDim S150000 ![] bcast_S_S150000 : (⟨S_, .i32⟩ : BufTy).Contents (Elt F) → (⟨S150000, .i32⟩ : BufTy).Contents (Elt F)),
    StableHlo.binary main_arg4 main_v14 main_v15 (addi : (⟨S150000, .i32⟩ : BufTy).Contents (Elt F) → (⟨S150000, .i32⟩ : BufTy).Contents (Elt F) → (⟨S150000, .i32⟩ : BufTy).Contents (Elt F)),
    StableHlo.ternary main_v13 main_v15 main_arg4 main_v16 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v16 main_v17 (broadcastInDim S150000x1 ![0] bcast_S150000_S150000x1_0 : (⟨S150000, .i32⟩ : BufTy).Contents (Elt F) → (⟨S150000x1, .i32⟩ : BufTy).Contents (Elt F)),
    StableHlo.binary main_v11 main_v17 main_v18 ((fun x i => Host.gather gather_S40000x64_S150000x1_S150000x64_1_0_n_n_0_1_164 x i) : (⟨S40000x64, .f32⟩ : BufTy).Contents (Elt F) → (⟨S150000x1, .i32⟩ : BufTy).Contents (Elt F) → (⟨S150000x64, .f32⟩ : BufTy).Contents (Elt F)),
    StableHlo.nullary main_cst_1 (constant S_ .f32 0x00000000#32),
    StableHlo.unary main_cst_1 main_v19 (broadcastInDim S30000x64 ![] bcast_S_S30000x64 : (⟨S_, .f32⟩ : BufTy).Contents (Elt F) → (⟨S30000x64, .f32⟩ : BufTy).Contents (Elt F)),
    StableHlo.unary main_v5 main_v20 (broadcastInDim S150000x1 ![0] bcast_S150000_S150000x1_0 : (⟨S150000, .i32⟩ : BufTy).Contents (Elt F) → (⟨S150000x1, .i32⟩ : BufTy).Contents (Elt F)),
    StableHlo.ternary main_v19 main_v20 main_v18 main_v21 ((fun x i u => Host.scatterAdd scatter_S30000x64_S150000x1_S150000x64_1_0_0_1 x i u) : (⟨S30000x64, .f32⟩ : BufTy).Contents (Elt F) → (⟨S150000x1, .i32⟩ : BufTy).Contents (Elt F) → (⟨S150000x64, .f32⟩ : BufTy).Contents (Elt F) → (⟨S30000x64, .f32⟩ : BufTy).Contents (Elt F)),
    StableHlo.nullary main_c_2 (constantI S_ 32 0#32),
    StableHlo.unary main_c_2 main_v22 (broadcastInDim S150000 ![] bcast_S_S150000 : (⟨S_, .i32⟩ : BufTy).Contents (Elt F) → (⟨S150000, .i32⟩ : BufTy).Contents (Elt F)),
    StableHlo.binary main_v5 main_v22 main_v23 (cmpi .slt : (⟨S150000, .i32⟩ : BufTy).Contents (Elt F) → (⟨S150000, .i32⟩ : BufTy).Contents (Elt F) → (⟨S150000, .i1⟩ : BufTy).Contents (Elt F)),
    StableHlo.nullary main_c_3 (constantI S_ 32 30000#32),
    StableHlo.unary main_c_3 main_v24 (broadcastInDim S150000 ![] bcast_S_S150000 : (⟨S_, .i32⟩ : BufTy).Contents (Elt F) → (⟨S150000, .i32⟩ : BufTy).Contents (Elt F)),
    StableHlo.binary main_v5 main_v24 main_v25 (addi : (⟨S150000, .i32⟩ : BufTy).Contents (Elt F) → (⟨S150000, .i32⟩ : BufTy).Contents (Elt F) → (⟨S150000, .i32⟩ : BufTy).Contents (Elt F)),
    StableHlo.ternary main_v23 main_v25 main_v5 main_v26 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v26 main_v27 (broadcastInDim S150000x1 ![0] bcast_S150000_S150000x1_0 : (⟨S150000, .i32⟩ : BufTy).Contents (Elt F) → (⟨S150000x1, .i32⟩ : BufTy).Contents (Elt F)),
    StableHlo.binary main_v21 main_v27 main_v28 ((fun x i => Host.gather gather_S30000x64_S150000x1_S150000x64_1_0_n_n_0_1_164 x i) : (⟨S30000x64, .f32⟩ : BufTy).Contents (Elt F) → (⟨S150000x1, .i32⟩ : BufTy).Contents (Elt F) → (⟨S150000x64, .f32⟩ : BufTy).Contents (Elt F)),
    StableHlo.binary main_v18 main_v28 main_v29 ((fun a b => concatenate S150000x128 1 [⟨S150000x64, a⟩, ⟨S150000x64, b⟩] concatenates_S150000x64_S150000x64_S150000x128_d1) : (⟨S150000x64, .f32⟩ : BufTy).Contents (Elt F) → (⟨S150000x64, .f32⟩ : BufTy).Contents (Elt F) → (⟨S150000x128, .f32⟩ : BufTy).Contents (Elt F)),
    StableHlo.nullary main_cst_4 (constant S_ .f32 0x00000000#32),
    StableHlo.unary main_cst_4 main_v30 (broadcastInDim S40000x128 ![] bcast_S_S40000x128 : (⟨S_, .f32⟩ : BufTy).Contents (Elt F) → (⟨S40000x128, .f32⟩ : BufTy).Contents (Elt F)),
    StableHlo.unary main_arg4 main_v31 (broadcastInDim S150000x1 ![0] bcast_S150000_S150000x1_0 : (⟨S150000, .i32⟩ : BufTy).Contents (Elt F) → (⟨S150000x1, .i32⟩ : BufTy).Contents (Elt F)),
    StableHlo.ternary main_v30 main_v31 main_v29 main_v32 ((fun x i u => Host.scatterAdd scatter_S40000x128_S150000x1_S150000x128_1_0_0_1 x i u) : (⟨S40000x128, .f32⟩ : BufTy).Contents (Elt F) → (⟨S150000x1, .i32⟩ : BufTy).Contents (Elt F) → (⟨S150000x128, .f32⟩ : BufTy).Contents (Elt F) → (⟨S40000x128, .f32⟩ : BufTy).Contents (Elt F)),
    StableHlo.nullary main_c_5 (constantI S_ 32 0#32),
    StableHlo.unary main_c_5 main_v33 (broadcastInDim S150000 ![] bcast_S_S150000 : (⟨S_, .i32⟩ : BufTy).Contents (Elt F) → (⟨S150000, .i32⟩ : BufTy).Contents (Elt F)),
    StableHlo.binary main_arg4 main_v33 main_v34 (cmpi .slt : (⟨S150000, .i32⟩ : BufTy).Contents (Elt F) → (⟨S150000, .i32⟩ : BufTy).Contents (Elt F) → (⟨S150000, .i1⟩ : BufTy).Contents (Elt F)),
    StableHlo.nullary main_c_6 (constantI S_ 32 40000#32),
    StableHlo.unary main_c_6 main_v35 (broadcastInDim S150000 ![] bcast_S_S150000 : (⟨S_, .i32⟩ : BufTy).Contents (Elt F) → (⟨S150000, .i32⟩ : BufTy).Contents (Elt F)),
    StableHlo.binary main_arg4 main_v35 main_v36 (addi : (⟨S150000, .i32⟩ : BufTy).Contents (Elt F) → (⟨S150000, .i32⟩ : BufTy).Contents (Elt F) → (⟨S150000, .i32⟩ : BufTy).Contents (Elt F)),
    StableHlo.ternary main_v34 main_v36 main_arg4 main_v37 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v37 main_v38 (broadcastInDim S150000x1 ![0] bcast_S150000_S150000x1_0 : (⟨S150000, .i32⟩ : BufTy).Contents (Elt F) → (⟨S150000x1, .i32⟩ : BufTy).Contents (Elt F)),
    StableHlo.binary main_v32 main_v38 main_v39 ((fun x i => Host.gather gather_S40000x128_S150000x1_S150000x128_1_0_n_n_0_1_1128 x i) : (⟨S40000x128, .f32⟩ : BufTy).Contents (Elt F) → (⟨S150000x1, .i32⟩ : BufTy).Contents (Elt F) → (⟨S150000x128, .f32⟩ : BufTy).Contents (Elt F)),
    StableHlo.nullary main_cst_7 (constant S_ .f32 0x00000000#32),
    StableHlo.unary main_cst_7 main_v40 (broadcastInDim S30000x128 ![] bcast_S_S30000x128 : (⟨S_, .f32⟩ : BufTy).Contents (Elt F) → (⟨S30000x128, .f32⟩ : BufTy).Contents (Elt F)),
    StableHlo.unary main_v5 main_v41 (broadcastInDim S150000x1 ![0] bcast_S150000_S150000x1_0 : (⟨S150000, .i32⟩ : BufTy).Contents (Elt F) → (⟨S150000x1, .i32⟩ : BufTy).Contents (Elt F)),
    StableHlo.ternary main_v40 main_v41 main_v39 main_v42 ((fun x i u => Host.scatterAdd scatter_S30000x128_S150000x1_S150000x128_1_0_0_1 x i u) : (⟨S30000x128, .f32⟩ : BufTy).Contents (Elt F) → (⟨S150000x1, .i32⟩ : BufTy).Contents (Elt F) → (⟨S150000x128, .f32⟩ : BufTy).Contents (Elt F) → (⟨S30000x128, .f32⟩ : BufTy).Contents (Elt F)),
    StableHlo.nullary main_c_8 (constantI S_ 32 0#32),
    StableHlo.unary main_c_8 main_v43 (broadcastInDim S150000 ![] bcast_S_S150000 : (⟨S_, .i32⟩ : BufTy).Contents (Elt F) → (⟨S150000, .i32⟩ : BufTy).Contents (Elt F)),
    StableHlo.binary main_v5 main_v43 main_v44 (cmpi .slt : (⟨S150000, .i32⟩ : BufTy).Contents (Elt F) → (⟨S150000, .i32⟩ : BufTy).Contents (Elt F) → (⟨S150000, .i1⟩ : BufTy).Contents (Elt F)),
    StableHlo.nullary main_c_9 (constantI S_ 32 30000#32),
    StableHlo.unary main_c_9 main_v45 (broadcastInDim S150000 ![] bcast_S_S150000 : (⟨S_, .i32⟩ : BufTy).Contents (Elt F) → (⟨S150000, .i32⟩ : BufTy).Contents (Elt F)),
    StableHlo.binary main_v5 main_v45 main_v46 (addi : (⟨S150000, .i32⟩ : BufTy).Contents (Elt F) → (⟨S150000, .i32⟩ : BufTy).Contents (Elt F) → (⟨S150000, .i32⟩ : BufTy).Contents (Elt F)),
    StableHlo.ternary main_v44 main_v46 main_v5 main_v47 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)) ]

set_option maxRecDepth 8192 in
set_option maxHeartbeats 4000000 in
/-- The window is the straight line of its operations. -/
theorem main_part0_eq (c : Dev nD) : main_part0 (F := F) c = seq ops_part0 := rfl

set_option maxRecDepth 8192 in
/-- Every operation of the window touches TensorCore references only. -/
theorem ops_part0_sub : (ops_part0 : List (HloOp τ sig (Elt F))).Forall fun op => op.bufs ⊆ tcRefs τ sig :=
  ⟨nullary_bufs_sub .., unary_bufs_sub .., reshape_bufs_sub .., nullary_bufs_sub .., unary_bufs_sub .., reshape_bufs_sub .., nullary_bufs_sub .., unary_bufs_sub .., reshape_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub ..⟩

set_option maxRecDepth 8192 in
/-- Every operation of the window determines its results. -/
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops_part0_W : List (Ref sig .tc) := [main_v0, main_v1, main_v2, main_v3, main_v4, main_v5, main_v6, main_v7, main_v8, main_cst, main_v9, main_v10, main_v11, main_c, main_v12, main_v13, main_c_0, main_v14, main_v15, main_v16, main_v17, main_v18, main_cst_1, main_v19, main_v20, main_v21, main_c_2, main_v22, main_v23, main_c_3, main_v24, main_v25, main_v26, main_v27, main_v28, main_v29, main_cst_4, main_v30, main_v31, main_v32, main_c_5, main_v33, main_v34, main_c_6, main_v35, main_v36, main_v37, main_v38, main_v39, main_cst_7, main_v40, main_v41, main_v42, main_c_8, main_v43, main_v44, main_c_9, main_v45, main_v46, main_v47]

set_option maxRecDepth 8192 in
/-- Each operation writes exactly its result reference, which is in the list. -/
theorem ops_part0_writes : (ops_part0 : List (HloOp τ sig (Elt F))).Forall fun op =>
    op.writes ⊆ (ops_part0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference the window does not write keeps its contents through it. -/
theorem keep_part0 (V : Valuation τ sig (Elt F)) (r : Ref sig .tc) (h : r ∉ ops_part0_W) :
    after ops_part0 V (Proc.devRef .tc r) = V (Proc.devRef .tc r) :=
  after_of_writes_sub ops_part0 V ops_part0_writes h

end Cert.ReferenceIdeal.RefRun

end
-- ==== Proof.RefRunOps1.lean ====
import proofs.«143519_j50869592655552_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 61 … 120 of the 463 that the reference's @main performs, in program order
    (the statements of `main_part1`). -/
abbrev ops_part1 : List (HloOp τ sig (Elt F)) :=
  [ StableHlo.unary main_v47 main_v48 (broadcastInDim S150000x1 ![0] bcast_S150000_S150000x1_0 : (⟨S150000, .i32⟩ : BufTy).Contents (Elt F) → (⟨S150000x1, .i32⟩ : BufTy).Contents (Elt F)),
    StableHlo.binary main_v42 main_v48 main_v49 ((fun x i => Host.gather gather_S30000x128_S150000x1_S150000x128_1_0_n_n_0_1_1128 x i) : (⟨S30000x128, .f32⟩ : BufTy).Contents (Elt F) → (⟨S150000x1, .i32⟩ : BufTy).Contents (Elt F) → (⟨S150000x128, .f32⟩ : BufTy).Contents (Elt F)),
    StableHlo.binary main_v39 main_v49 main_v50 ((fun a b => concatenate S150000x256 1 [⟨S150000x128, a⟩, ⟨S150000x128, b⟩] concatenates_S150000x128_S150000x128_S150000x256_d1) : (⟨S150000x128, .f32⟩ : BufTy).Contents (Elt F) → (⟨S150000x128, .f32⟩ : BufTy).Contents (Elt F) → (⟨S150000x256, .f32⟩ : BufTy).Contents (Elt F)),
    StableHlo.nullary main_cst_10 (constant S_ .f32 0x00000000#32),
    StableHlo.unary main_cst_10 main_v51 (broadcastInDim S40000x64 ![] bcast_S_S40000x64 : (⟨S_, .f32⟩ : BufTy).Contents (Elt F) → (⟨S40000x64, .f32⟩ : BufTy).Contents (Elt F)),
    StableHlo.unary main_arg3 main_v52 (broadcastInDim S120000x1 ![0] bcast_S120000_S120000x1_0 : (⟨S120000, .i32⟩ : BufTy).Contents (Elt F) → (⟨S120000x1, .i32⟩ : BufTy).Contents (Elt F)),
    StableHlo.ternary main_v51 main_v52 main_arg0 main_v53 ((fun x i u => Host.scatterAdd scatter_S40000x64_S120000x1_S120000x64_1_0_0_1 x i u) : (⟨S40000x64, .f32⟩ : BufTy).Contents (Elt F) → (⟨S120000x1, .i32⟩ : BufTy).Contents (Elt F) → (⟨S120000x64, .f32⟩ : BufTy).Contents (Elt F) → (⟨S40000x64, .f32⟩ : BufTy).Contents (Elt F)),
    StableHlo.nullary main_c_11 (constantI S_ 32 0#32),
    StableHlo.unary main_c_11 main_v54 (broadcastInDim S150000 ![] bcast_S_S150000 : (⟨S_, .i32⟩ : BufTy).Contents (Elt F) → (⟨S150000, .i32⟩ : BufTy).Contents (Elt F)),
    StableHlo.binary main_arg5 main_v54 main_v55 (cmpi .slt : (⟨S150000, .i32⟩ : BufTy).Contents (Elt F) → (⟨S150000, .i32⟩ : BufTy).Contents (Elt F) → (⟨S150000, .i1⟩ : BufTy).Contents (Elt F)),
    StableHlo.nullary main_c_12 (constantI S_ 32 40000#32),
    StableHlo.unary main_c_12 main_v56 (broadcastInDim S150000 ![] bcast_S_S150000 : (⟨S_, .i32⟩ : BufTy).Contents (Elt F) → (⟨S150000, .i32⟩ : BufTy).Contents (Elt F)),
    StableHlo.binary main_arg5 main_v56 main_v57 (addi : (⟨S150000, .i32⟩ : BufTy).Contents (Elt F) → (⟨S150000, .i32⟩ : BufTy).Contents (Elt F) → (⟨S150000, .i32⟩ : BufTy).Contents (Elt F)),
    StableHlo.ternary main_v55 main_v57 main_arg5 main_v58 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v58 main_v59 (broadcastInDim S150000x1 ![0] bcast_S150000_S150000x1_0 : (⟨S150000, .i32⟩ : BufTy).Contents (Elt F) → (⟨S150000x1, .i32⟩ : BufTy).Contents (Elt F)),
    StableHlo.binary main_v53 main_v59 main_v60 ((fun x i => Host.gather gather_S40000x64_S150000x1_S150000x64_1_0_n_n_0_1_164 x i) : (⟨S40000x64, .f32⟩ : BufTy).Contents (Elt F) → (⟨S150000x1, .i32⟩ : BufTy).Contents (Elt F) → (⟨S150000x64, .f32⟩ : BufTy).Contents (Elt F)),
    StableHlo.nullary main_cst_13 (constant S_ .f32 0x00000000#32),
    StableHlo.unary main_cst_13 main_v61 (broadcastInDim S25000x64 ![] bcast_S_S25000x64 : (⟨S_, .f32⟩ : BufTy).Contents (Elt F) → (⟨S25000x64, .f32⟩ : BufTy).Contents (Elt F)),
    StableHlo.unary main_v8 main_v62 (broadcastInDim S150000x1 ![0] bcast_S150000_S150000x1_0 : (⟨S150000, .i32⟩ : BufTy).Contents (Elt F) → (⟨S150000x1, .i32⟩ : BufTy).Contents (Elt F)),
    StableHlo.ternary main_v61 main_v62 main_v60 main_v63 ((fun x i u => Host.scatterAdd scatter_S25000x64_S150000x1_S150000x64_1_0_0_1 x i u) : (⟨S25000x64, .f32⟩ : BufTy).Contents (Elt F) → (⟨S150000x1, .i32⟩ : BufTy).Contents (Elt F) → (⟨S150000x64, .f32⟩ : BufTy).Contents (Elt F) → (⟨S25000x64, .f32⟩ : BufTy).Contents (Elt F)),
    StableHlo.nullary main_c_14 (constantI S_ 32 0#32),
    StableHlo.unary main_c_14 main_v64 (broadcastInDim S150000 ![] bcast_S_S150000 : (⟨S_, .i32⟩ : BufTy).Contents (Elt F) → (⟨S150000, .i32⟩ : BufTy).Contents (Elt F)),
    StableHlo.binary main_v8 main_v64 main_v65 (cmpi .slt : (⟨S150000, .i32⟩ : BufTy).Contents (Elt F) → (⟨S150000, .i32⟩ : BufTy).Contents (Elt F) → (⟨S150000, .i1⟩ : BufTy).Contents (Elt F)),
    StableHlo.nullary main_c_15 (constantI S_ 32 25000#32),
    StableHlo.unary main_c_15 main_v66 (broadcastInDim S150000 ![] bcast_S_S150000 : (⟨S_, .i32⟩ : BufTy).Contents (Elt F) → (⟨S150000, .i32⟩ : BufTy).Contents (Elt F)),
    StableHlo.binary main_v8 main_v66 main_v67 (addi : (⟨S150000, .i32⟩ : BufTy).Contents (Elt F) → (⟨S150000, .i32⟩ : BufTy).Contents (Elt F) → (⟨S150000, .i32⟩ : BufTy).Contents (Elt F)),
    StableHlo.ternary main_v65 main_v67 main_v8 main_v68 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v68 main_v69 (broadcastInDim S150000x1 ![0] bcast_S150000_S150000x1_0 : (⟨S150000, .i32⟩ : BufTy).Contents (Elt F) → (⟨S150000x1, .i32⟩ : BufTy).Contents (Elt F)),
    StableHlo.binary main_v63 main_v69 main_v70 ((fun x i => Host.gather gather_S25000x64_S150000x1_S150000x64_1_0_n_n_0_1_164 x i) : (⟨S25000x64, .f32⟩ : BufTy).Contents (Elt F) → (⟨S150000x1, .i32⟩ : BufTy).Contents (Elt F) → (⟨S150000x64, .f32⟩ : BufTy).Contents (Elt F)),
    StableHlo.binary main_v60 main_v70 main_v71 ((fun a b => concatenate S150000x128 1 [⟨S150000x64, a⟩, ⟨S150000x64, b⟩] concatenates_S150000x64_S150000x64_S150000x128_d1) : (⟨S150000x64, .f32⟩ : BufTy).Contents (Elt F) → (⟨S150000x64, .f32⟩ : BufTy).Contents (Elt F) → (⟨S150000x128, .f32⟩ : BufTy).Contents (Elt F)),
    StableHlo.nullary main_cst_16 (constant S_ .f32 0x00000000#32),
    StableHlo.unary main_cst_16 main_v72 (broadcastInDim S40000x128 ![] bcast_S_S40000x128 : (⟨S_, .f32⟩ : BufTy).Contents (Elt F) → (⟨S40000x128, .f32⟩ : BufTy).Contents (Elt F)),
    StableHlo.unary main_arg5 main_v73 (broadcastInDim S150000x1 ![0] bcast_S150000_S150000x1_0 : (⟨S150000, .i32⟩ : BufTy).Contents (Elt F) → (⟨S150000x1, .i32⟩ : BufTy).Contents (Elt F)),
    StableHlo.ternary main_v72 main_v73 main_v71 main_v74 ((fun x i u => Host.scatterAdd scatter_S40000x128_S150000x1_S150000x128_1_0_0_1 x i u) : (⟨S40000x128, .f32⟩ : BufTy).Contents (Elt F) → (⟨S150000x1, .i32⟩ : BufTy).Contents (Elt F) → (⟨S150000x128, .f32⟩ : BufTy).Contents (Elt F) → (⟨S40000x128, .f32⟩ : BufTy).Contents (Elt F)),
    StableHlo.nullary main_c_17 (constantI S_ 32 0#32),
    StableHlo.unary main_c_17 main_v75 (broadcastInDim S150000 ![] bcast_S_S150000 : (⟨S_, .i32⟩ : BufTy).Contents (Elt F) → (⟨S150000, .i32⟩ : BufTy).Contents (Elt F)),
    StableHlo.binary main_arg5 main_v75 main_v76 (cmpi .slt : (⟨S150000, .i32⟩ : BufTy).Contents (Elt F) → (⟨S150000, .i32⟩ : BufTy).Contents (Elt F) → (⟨S150000, .i1⟩ : BufTy).Contents (Elt F)),
    StableHlo.nullary main_c_18 (constantI S_ 32 40000#32),
    StableHlo.unary main_c_18 main_v77 (broadcastInDim S150000 ![] bcast_S_S150000 : (⟨S_, .i32⟩ : BufTy).Contents (Elt F) → (⟨S150000, .i32⟩ : BufTy).Contents (Elt F)),
    StableHlo.binary main_arg5 main_v77 main_v78 (addi : (⟨S150000, .i32⟩ : BufTy).Contents (Elt F) → (⟨S150000, .i32⟩ : BufTy).Contents (Elt F) → (⟨S150000, .i32⟩ : BufTy).Contents (Elt F)),
    StableHlo.ternary main_v76 main_v78 main_arg5 main_v79 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v79 main_v80 (broadcastInDim S150000x1 ![0] bcast_S150000_S150000x1_0 : (⟨S150000, .i32⟩ : BufTy).Contents (Elt F) → (⟨S150000x1, .i32⟩ : BufTy).Contents (Elt F)),
    StableHlo.binary main_v74 main_v80 main_v81 ((fun x i => Host.gather gather_S40000x128_S150000x1_S150000x128_1_0_n_n_0_1_1128 x i) : (⟨S40000x128, .f32⟩ : BufTy).Contents (Elt F) → (⟨S150000x1, .i32⟩ : BufTy).Contents (Elt F) → (⟨S150000x128, .f32⟩ : BufTy).Contents (Elt F)),
    StableHlo.nullary main_cst_19 (constant S_ .f32 0x00000000#32),
    StableHlo.unary main_cst_19 main_v82 (broadcastInDim S25000x128 ![] bcast_S_S25000x128 : (⟨S_, .f32⟩ : BufTy).Contents (Elt F) → (⟨S25000x128, .f32⟩ : BufTy).Contents (Elt F)),
    StableHlo.unary main_v8 main_v83 (broadcastInDim S150000x1 ![0] bcast_S150000_S150000x1_0 : (⟨S150000, .i32⟩ : BufTy).Contents (Elt F) → (⟨S150000x1, .i32⟩ : BufTy).Contents (Elt F)),
    StableHlo.ternary main_v82 main_v83 main_v81 main_v84 ((fun x i u => Host.scatterAdd scatter_S25000x128_S150000x1_S150000x128_1_0_0_1 x i u) : (⟨S25000x128, .f32⟩ : BufTy).Contents (Elt F) → (⟨S150000x1, .i32⟩ : BufTy).Contents (Elt F) → (⟨S150000x128, .f32⟩ : BufTy).Contents (Elt F) → (⟨S25000x128, .f32⟩ : BufTy).Contents (Elt F)),
    StableHlo.nullary main_c_20 (constantI S_ 32 0#32),
    StableHlo.unary main_c_20 main_v85 (broadcastInDim S150000 ![] bcast_S_S150000 : (⟨S_, .i32⟩ : BufTy).Contents (Elt F) → (⟨S150000, .i32⟩ : BufTy).Contents (Elt F)),
    StableHlo.binary main_v8 main_v85 main_v86 (cmpi .slt : (⟨S150000, .i32⟩ : BufTy).Contents (Elt F) → (⟨S150000, .i32⟩ : BufTy).Contents (Elt F) → (⟨S150000, .i1⟩ : BufTy).Contents (Elt F)),
    StableHlo.nullary main_c_21 (constantI S_ 32 25000#32),
    StableHlo.unary main_c_21 main_v87 (broadcastInDim S150000 ![] bcast_S_S150000 : (⟨S_, .i32⟩ : BufTy).Contents (Elt F) → (⟨S150000, .i32⟩ : BufTy).Contents (Elt F)),
    StableHlo.binary main_v8 main_v87 main_v88 (addi : (⟨S150000, .i32⟩ : BufTy).Contents (Elt F) → (⟨S150000, .i32⟩ : BufTy).Contents (Elt F) → (⟨S150000, .i32⟩ : BufTy).Contents (Elt F)),
    StableHlo.ternary main_v86 main_v88 main_v8 main_v89 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v89 main_v90 (broadcastInDim S150000x1 ![0] bcast_S150000_S150000x1_0 : (⟨S150000, .i32⟩ : BufTy).Contents (Elt F) → (⟨S150000x1, .i32⟩ : BufTy).Contents (Elt F)),
    StableHlo.binary main_v84 main_v90 main_v91 ((fun x i => Host.gather gather_S25000x128_S150000x1_S150000x128_1_0_n_n_0_1_1128 x i) : (⟨S25000x128, .f32⟩ : BufTy).Contents (Elt F) → (⟨S150000x1, .i32⟩ : BufTy).Contents (Elt F) → (⟨S150000x128, .f32⟩ : BufTy).Contents (Elt F)),
    StableHlo.binary main_v81 main_v91 main_v92 ((fun a b => concatenate S150000x256 1 [⟨S150000x128, a⟩, ⟨S150000x128, b⟩] concatenates_S150000x128_S150000x128_S150000x256_d1) : (⟨S150000x128, .f32⟩ : BufTy).Contents (Elt F) → (⟨S150000x128, .f32⟩ : BufTy).Contents (Elt F) → (⟨S150000x256, .f32⟩ : BufTy).Contents (Elt F)),
    StableHlo.binary main_v50 main_arg1 main_v93 ((fun a b => concatenate S150000x320 1 [⟨S150000x256, a⟩, ⟨S150000x64, b⟩] concatenates_S150000x256_S150000x64_S150000x320_d1) : (⟨S150000x256, .f32⟩ : BufTy).Contents (Elt F) → (⟨S150000x64, .f32⟩ : BufTy).Contents (Elt F) → (⟨S150000x320, .f32⟩ : BufTy).Contents (Elt F)),
    StableHlo.binary main_v92 main_arg2 main_v94 ((fun a b => concatenate S150000x320 1 [⟨S150000x256, a⟩, ⟨S150000x64, b⟩] concatenates_S150000x256_S150000x64_S150000x320_d1) : (⟨S150000x256, .f32⟩ : BufTy).Contents (Elt F) → (⟨S150000x64, .f32⟩ : BufTy).Contents (Elt F) → (⟨S150000x320, .f32⟩ : BufTy).Contents (Elt F)),
    StableHlo.nullary main_cst_22 (constant S_ .f32 0x00000000#32) ]

set_option maxRecDepth 8192 in
set_option maxHeartbeats 4000000 in
/-- The window is the straight line of its operations. -/
theorem main_part1_eq (c : Dev nD) : main_part1 (F := F) c = seq ops_part1 := rfl

set_option maxRecDepth 8192 in
/-- Every operation of the window touches TensorCore references only. -/
theorem ops_part1_sub : (ops_part1 : List (HloOp τ sig (Elt F))).Forall fun op => op.bufs ⊆ tcRefs τ sig :=
  ⟨unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub ..⟩

set_option maxRecDepth 8192 in
/-- Every operation of the window determines its results. -/
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops_part1_W : List (Ref sig .tc) := [main_v48, main_v49, main_v50, main_cst_10, main_v51, main_v52, main_v53, main_c_11, main_v54, main_v55, main_c_12, main_v56, main_v57, main_v58, main_v59, main_v60, main_cst_13, main_v61, main_v62, main_v63, main_c_14, main_v64, main_v65, main_c_15, main_v66, main_v67, main_v68, main_v69, main_v70, main_v71, main_cst_16, main_v72, main_v73, main_v74, main_c_17, main_v75, main_v76, main_c_18, main_v77, main_v78, main_v79, main_v80, main_v81, main_cst_19, main_v82, main_v83, main_v84, main_c_20, main_v85, main_v86, main_c_21, main_v87, main_v88, main_v89, main_v90, main_v91, main_v92, main_v93, main_v94, main_cst_22]

set_option maxRecDepth 8192 in
/-- Each operation writes exactly its result reference, which is in the list. -/
theorem ops_part1_writes : (ops_part1 : List (HloOp τ sig (Elt F))).Forall fun op =>
    op.writes ⊆ (ops_part1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference the window does not write keeps its contents through it. -/
theorem keep_part1 (V : Valuation τ sig (Elt F)) (r : Ref sig .tc) (h : r ∉ ops_part1_W) :
    after ops_part1 V (Proc.devRef .tc r) = V (Proc.devRef .tc r) :=
  after_of_writes_sub ops_part1 V ops_part1_writes h

end Cert.ReferenceIdeal.RefRun

end
-- ==== Proof.RefRunOps2.lean ====
import proofs.«143519_j50869592655552_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 121 … 180 of the 463 that the reference's @main performs, in program order
    (the statements of `main_part2`). -/
abbrev ops_part2 : List (HloOp τ sig (Elt F)) :=
  [ StableHlo.unary main_cst_22 main_v95 (broadcastInDim S40000x320 ![] bcast_S_S40000x320 : (⟨S_, .f32⟩ : BufTy).Contents (Elt F) → (⟨S40000x320, .f32⟩ : BufTy).Contents (Elt F)),
    StableHlo.unary main_arg4 main_v96 (broadcastInDim S150000x1 ![0] bcast_S150000_S150000x1_0 : (⟨S150000, .i32⟩ : BufTy).Contents (Elt F) → (⟨S150000x1, .i32⟩ : BufTy).Contents (Elt F)),
    StableHlo.ternary main_v95 main_v96 main_v93 main_v97 ((fun x i u => Host.scatterAdd scatter_S40000x320_S150000x1_S150000x320_1_0_0_1 x i u) : (⟨S40000x320, .f32⟩ : BufTy).Contents (Elt F) → (⟨S150000x1, .i32⟩ : BufTy).Contents (Elt F) → (⟨S150000x320, .f32⟩ : BufTy).Contents (Elt F) → (⟨S40000x320, .f32⟩ : BufTy).Contents (Elt F)),
    StableHlo.nullary main_c_23 (constantI S_ 32 0#32),
    StableHlo.unary main_c_23 main_v98 (broadcastInDim S120000 ![] bcast_S_S120000 : (⟨S_, .i32⟩ : BufTy).Contents (Elt F) → (⟨S120000, .i32⟩ : BufTy).Contents (Elt F)),
    StableHlo.binary main_arg3 main_v98 main_v99 (cmpi .slt : (⟨S120000, .i32⟩ : BufTy).Contents (Elt F) → (⟨S120000, .i32⟩ : BufTy).Contents (Elt F) → (⟨S120000, .i1⟩ : BufTy).Contents (Elt F)),
    StableHlo.nullary main_c_24 (constantI S_ 32 40000#32),
    StableHlo.unary main_c_24 main_v100 (broadcastInDim S120000 ![] bcast_S_S120000 : (⟨S_, .i32⟩ : BufTy).Contents (Elt F) → (⟨S120000, .i32⟩ : BufTy).Contents (Elt F)),
    StableHlo.binary main_arg3 main_v100 main_v101 (addi : (⟨S120000, .i32⟩ : BufTy).Contents (Elt F) → (⟨S120000, .i32⟩ : BufTy).Contents (Elt F) → (⟨S120000, .i32⟩ : BufTy).Contents (Elt F)),
    StableHlo.ternary main_v99 main_v101 main_arg3 main_v102 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F)),
    StableHlo.unary main_v102 main_v103 (broadcastInDim S120000x1 ![0] bcast_S120000_S120000x1_0 : (⟨S120000, .i32⟩ : BufTy).Contents (Elt F) → (⟨S120000x1, .i32⟩ : BufTy).Contents (Elt F)),
    StableHlo.binary main_v97 main_v103 main_v104 ((fun x i => Host.gather gather_S40000x320_S120000x1_S120000x320_1_0_n_n_0_1_1320 x i) : (⟨S40000x320, .f32⟩ : BufTy).Contents (Elt F) → (⟨S120000x1, .i32⟩ : BufTy).Contents (Elt F) → (⟨S120000x320, .f32⟩ : BufTy).Contents (Elt F)),
    StableHlo.nullary main_cst_25 (constant S_ .f32 0x00000000#32),
    StableHlo.unary main_cst_25 main_v105 (broadcastInDim S60000x320 ![] bcast_S_S60000x320 : (⟨S_, .f32⟩ : BufTy).Contents (Elt F) → (⟨S60000x320, .f32⟩ : BufTy).Contents (Elt F)),
    StableHlo.unary main_v2 main_v106 (broadcastInDim S120000x1 ![0] bcast_S120000_S120000x1_0 : (⟨S120000, .i32⟩ : BufTy).Contents (Elt F) → (⟨S120000x1, .i32⟩ : BufTy).Contents (Elt F)),
    StableHlo.ternary main_v105 main_v106 main_v104 main_v107 ((fun x i u => Host.scatterAdd scatter_S60000x320_S120000x1_S120000x320_1_0_0_1 x i u) : (⟨S60000x320, .f32⟩ : BufTy).Contents (Elt F) → (⟨S120000x1, .i32⟩ : BufTy).Contents (Elt F) → (⟨S120000x320, .f32⟩ : BufTy).Contents (Elt F) → (⟨S60000x320, .f32⟩ : BufTy).Contents (Elt F)),
    StableHlo.nullary main_c_26 (constantI S_ 32 0#32),
    StableHlo.unary main_c_26 main_v108 (broadcastInDim S120000 ![] bcast_S_S120000 : (⟨S_, .i32⟩ : BufTy).Contents (Elt F) → (⟨S120000, .i32⟩ : BufTy).Contents (Elt F)),
    StableHlo.binary main_v2 main_v108 main_v109 (cmpi .slt : (⟨S120000, .i32⟩ : BufTy).Contents (Elt F) → (⟨S120000, .i32⟩ : BufTy).Contents (Elt F) → (⟨S120000, .i1⟩ : BufTy).Contents (Elt F)),
    StableHlo.nullary main_c_27 (constantI S_ 32 60000#32),
    StableHlo.unary main_c_27 main_v110 (broadcastInDim S120000 ![] bcast_S_S120000 : (⟨S_, .i32⟩ : BufTy).Contents (Elt F) → (⟨S120000, .i32⟩ : BufTy).Contents (Elt F)),
    StableHlo.binary main_v2 main_v110 main_v111 (addi : (⟨S120000, .i32⟩ : BufTy).Contents (Elt F) → (⟨S120000, .i32⟩ : BufTy).Contents (Elt F) → (⟨S120000, .i32⟩ : BufTy).Contents (Elt F)),
    StableHlo.ternary main_v109 main_v111 main_v2 main_v112 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F)),
    StableHlo.unary main_v112 main_v113 (broadcastInDim S120000x1 ![0] bcast_S120000_S120000x1_0 : (⟨S120000, .i32⟩ : BufTy).Contents (Elt F) → (⟨S120000x1, .i32⟩ : BufTy).Contents (Elt F)),
    StableHlo.binary main_v107 main_v113 main_v114 ((fun x i => Host.gather gather_S60000x320_S120000x1_S120000x320_1_0_n_n_0_1_1320 x i) : (⟨S60000x320, .f32⟩ : BufTy).Contents (Elt F) → (⟨S120000x1, .i32⟩ : BufTy).Contents (Elt F) → (⟨S120000x320, .f32⟩ : BufTy).Contents (Elt F)),
    StableHlo.binary main_v104 main_v114 main_v115 ((fun a b => concatenate S120000x640 1 [⟨S120000x320, a⟩, ⟨S120000x320, b⟩] concatenates_S120000x320_S120000x320_S120000x640_d1) : (⟨S120000x320, .f32⟩ : BufTy).Contents (Elt F) → (⟨S120000x320, .f32⟩ : BufTy).Contents (Elt F) → (⟨S120000x640, .f32⟩ : BufTy).Contents (Elt F)),
    StableHlo.nullary main_cst_28 (constant S_ .f32 0x00000000#32),
    StableHlo.unary main_cst_28 main_v116 (broadcastInDim S40000x320 ![] bcast_S_S40000x320 : (⟨S_, .f32⟩ : BufTy).Contents (Elt F) → (⟨S40000x320, .f32⟩ : BufTy).Contents (Elt F)),
    StableHlo.unary main_arg5 main_v117 (broadcastInDim S150000x1 ![0] bcast_S150000_S150000x1_0 : (⟨S150000, .i32⟩ : BufTy).Contents (Elt F) → (⟨S150000x1, .i32⟩ : BufTy).Contents (Elt F)),
    StableHlo.ternary main_v116 main_v117 main_v94 main_v118 ((fun x i u => Host.scatterAdd scatter_S40000x320_S150000x1_S150000x320_1_0_0_1 x i u) : (⟨S40000x320, .f32⟩ : BufTy).Contents (Elt F) → (⟨S150000x1, .i32⟩ : BufTy).Contents (Elt F) → (⟨S150000x320, .f32⟩ : BufTy).Contents (Elt F) → (⟨S40000x320, .f32⟩ : BufTy).Contents (Elt F)),
    StableHlo.nullary main_c_29 (constantI S_ 32 0#32),
    StableHlo.unary main_c_29 main_v119 (broadcastInDim S120000 ![] bcast_S_S120000 : (⟨S_, .i32⟩ : BufTy).Contents (Elt F) → (⟨S120000, .i32⟩ : BufTy).Contents (Elt F)),
    StableHlo.binary main_arg3 main_v119 main_v120 (cmpi .slt : (⟨S120000, .i32⟩ : BufTy).Contents (Elt F) → (⟨S120000, .i32⟩ : BufTy).Contents (Elt F) → (⟨S120000, .i1⟩ : BufTy).Contents (Elt F)),
    StableHlo.nullary main_c_30 (constantI S_ 32 40000#32),
    StableHlo.unary main_c_30 main_v121 (broadcastInDim S120000 ![] bcast_S_S120000 : (⟨S_, .i32⟩ : BufTy).Contents (Elt F) → (⟨S120000, .i32⟩ : BufTy).Contents (Elt F)),
    StableHlo.binary main_arg3 main_v121 main_v122 (addi : (⟨S120000, .i32⟩ : BufTy).Contents (Elt F) → (⟨S120000, .i32⟩ : BufTy).Contents (Elt F) → (⟨S120000, .i32⟩ : BufTy).Contents (Elt F)),
    StableHlo.ternary main_v120 main_v122 main_arg3 main_v123 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F)),
    StableHlo.unary main_v123 main_v124 (broadcastInDim S120000x1 ![0] bcast_S120000_S120000x1_0 : (⟨S120000, .i32⟩ : BufTy).Contents (Elt F) → (⟨S120000x1, .i32⟩ : BufTy).Contents (Elt F)),
    StableHlo.binary main_v118 main_v124 main_v125 ((fun x i => Host.gather gather_S40000x320_S120000x1_S120000x320_1_0_n_n_0_1_1320 x i) : (⟨S40000x320, .f32⟩ : BufTy).Contents (Elt F) → (⟨S120000x1, .i32⟩ : BufTy).Contents (Elt F) → (⟨S120000x320, .f32⟩ : BufTy).Contents (Elt F)),
    StableHlo.nullary main_cst_31 (constant S_ .f32 0x00000000#32),
    StableHlo.unary main_cst_31 main_v126 (broadcastInDim S60000x320 ![] bcast_S_S60000x320 : (⟨S_, .f32⟩ : BufTy).Contents (Elt F) → (⟨S60000x320, .f32⟩ : BufTy).Contents (Elt F)),
    StableHlo.unary main_v2 main_v127 (broadcastInDim S120000x1 ![0] bcast_S120000_S120000x1_0 : (⟨S120000, .i32⟩ : BufTy).Contents (Elt F) → (⟨S120000x1, .i32⟩ : BufTy).Contents (Elt F)),
    StableHlo.ternary main_v126 main_v127 main_v125 main_v128 ((fun x i u => Host.scatterAdd scatter_S60000x320_S120000x1_S120000x320_1_0_0_1 x i u) : (⟨S60000x320, .f32⟩ : BufTy).Contents (Elt F) → (⟨S120000x1, .i32⟩ : BufTy).Contents (Elt F) → (⟨S120000x320, .f32⟩ : BufTy).Contents (Elt F) → (⟨S60000x320, .f32⟩ : BufTy).Contents (Elt F)),
    StableHlo.nullary main_c_32 (constantI S_ 32 0#32),
    StableHlo.unary main_c_32 main_v129 (broadcastInDim S120000 ![] bcast_S_S120000 : (⟨S_, .i32⟩ : BufTy).Contents (Elt F) → (⟨S120000, .i32⟩ : BufTy).Contents (Elt F)),
    StableHlo.binary main_v2 main_v129 main_v130 (cmpi .slt : (⟨S120000, .i32⟩ : BufTy).Contents (Elt F) → (⟨S120000, .i32⟩ : BufTy).Contents (Elt F) → (⟨S120000, .i1⟩ : BufTy).Contents (Elt F)),
    StableHlo.nullary main_c_33 (constantI S_ 32 60000#32),
    StableHlo.unary main_c_33 main_v131 (broadcastInDim S120000 ![] bcast_S_S120000 : (⟨S_, .i32⟩ : BufTy).Contents (Elt F) → (⟨S120000, .i32⟩ : BufTy).Contents (Elt F)),
    StableHlo.binary main_v2 main_v131 main_v132 (addi : (⟨S120000, .i32⟩ : BufTy).Contents (Elt F) → (⟨S120000, .i32⟩ : BufTy).Contents (Elt F) → (⟨S120000, .i32⟩ : BufTy).Contents (Elt F)),
    StableHlo.ternary main_v130 main_v132 main_v2 main_v133 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F)),
    StableHlo.unary main_v133 main_v134 (broadcastInDim S120000x1 ![0] bcast_S120000_S120000x1_0 : (⟨S120000, .i32⟩ : BufTy).Contents (Elt F) → (⟨S120000x1, .i32⟩ : BufTy).Contents (Elt F)),
    StableHlo.binary main_v128 main_v134 main_v135 ((fun x i => Host.gather gather_S60000x320_S120000x1_S120000x320_1_0_n_n_0_1_1320 x i) : (⟨S60000x320, .f32⟩ : BufTy).Contents (Elt F) → (⟨S120000x1, .i32⟩ : BufTy).Contents (Elt F) → (⟨S120000x320, .f32⟩ : BufTy).Contents (Elt F)),
    StableHlo.binary main_v125 main_v135 main_v136 ((fun a b => concatenate S120000x640 1 [⟨S120000x320, a⟩, ⟨S120000x320, b⟩] concatenates_S120000x320_S120000x320_S120000x640_d1) : (⟨S120000x320, .f32⟩ : BufTy).Contents (Elt F) → (⟨S120000x320, .f32⟩ : BufTy).Contents (Elt F) → (⟨S120000x640, .f32⟩ : BufTy).Contents (Elt F)),
    StableHlo.binary main_v115 main_v136 main_v137 (addf : (⟨S120000x640, .f32⟩ : BufTy).Contents (Elt F) → (⟨S120000x640, .f32⟩ : BufTy).Contents (Elt F) → (⟨S120000x640, .f32⟩ : BufTy).Contents (Elt F)),
    StableHlo.binary main_arg0 main_v137 main_v138 ((fun a b => concatenate S120000x704 1 [⟨S120000x64, a⟩, ⟨S120000x640, b⟩] concatenates_S120000x64_S120000x640_S120000x704_d1) : (⟨S120000x64, .f32⟩ : BufTy).Contents (Elt F) → (⟨S120000x640, .f32⟩ : BufTy).Contents (Elt F) → (⟨S120000x704, .f32⟩ : BufTy).Contents (Elt F)),
    StableHlo.binary main_v138 main_arg6 main_v139 ((fun l r => Host.dotGeneral dot_S120000x704_S704x128_S120000x128_1_0_0_1_n_n none l r) : (⟨S120000x704, .f32⟩ : BufTy).Contents (Elt F) → (⟨S704x128, .f32⟩ : BufTy).Contents (Elt F) → (⟨S120000x128, .f32⟩ : BufTy).Contents (Elt F)),
    StableHlo.nullary main_cst_34 (constant S_ .f32 0x00000000#32),
    StableHlo.binary main_v139 main_cst_34 main_v140 ((fun x v => Host.reduceAdd x v reducesTo_S120000x128_S128_d0 h_S_) : (⟨S120000x128, .f32⟩ : BufTy).Contents (Elt F) → (⟨S_, .f32⟩ : BufTy).Contents (Elt F) → (⟨S128, .f32⟩ : BufTy).Contents (Elt F)),
    StableHlo.nullary main_cst_35 (constant S_ .f32 0x47EA6000#32),
    StableHlo.unary main_cst_35 main_v141 (broadcastInDim S128 ![] bcast_S_S128 : (⟨S_, .f32⟩ : BufTy).Contents (Elt F) → (⟨S128, .f32⟩ : BufTy).Contents (Elt F)) ]

set_option maxRecDepth 8192 in
set_option maxHeartbeats 4000000 in
/-- The window is the straight line of its operations. -/
theorem main_part2_eq (c : Dev nD) : main_part2 (F := F) c = seq ops_part2 := rfl

set_option maxRecDepth 8192 in
/-- Every operation of the window touches TensorCore references only. -/
theorem ops_part2_sub : (ops_part2 : List (HloOp τ sig (Elt F))).Forall fun op => op.bufs ⊆ tcRefs τ sig :=
  ⟨unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., binary_bufs_sub .., nullary_bufs_sub .., binary_bufs_sub .., nullary_bufs_sub .., unary_bufs_sub ..⟩

set_option maxRecDepth 8192 in
/-- Every operation of the window determines its results. -/
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops_part2_W : List (Ref sig .tc) := [main_v95, main_v96, main_v97, main_c_23, main_v98, main_v99, main_c_24, main_v100, main_v101, main_v102, main_v103, main_v104, main_cst_25, main_v105, main_v106, main_v107, main_c_26, main_v108, main_v109, main_c_27, main_v110, main_v111, main_v112, main_v113, main_v114, main_v115, main_cst_28, main_v116, main_v117, main_v118, main_c_29, main_v119, main_v120, main_c_30, main_v121, main_v122, main_v123, main_v124, main_v125, main_cst_31, main_v126, main_v127, main_v128, main_c_32, main_v129, main_v130, main_c_33, main_v131, main_v132, main_v133, main_v134, main_v135, main_v136, main_v137, main_v138, main_v139, main_cst_34, main_v140, main_cst_35, main_v141]

set_option maxRecDepth 8192 in
/-- Each operation writes exactly its result reference, which is in the list. -/
theorem ops_part2_writes : (ops_part2 : List (HloOp τ sig (Elt F))).Forall fun op =>
    op.writes ⊆ (ops_part2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference the window does not write keeps its contents through it. -/
theorem keep_part2 (V : Valuation τ sig (Elt F)) (r : Ref sig .tc) (h : r ∉ ops_part2_W) :
    after ops_part2 V (Proc.devRef .tc r) = V (Proc.devRef .tc r) :=
  after_of_writes_sub ops_part2 V ops_part2_writes h

end Cert.ReferenceIdeal.RefRun

end
-- ==== Proof.RefRunOps3.lean ====
import proofs.«143519_j50869592655552_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 181 … 307 of the 463 that the reference's @main performs, in program order
    (the statements of `main_part3`). Each call of an outlined function is replaced by the function's own operations, in order,
    over that call's buffer record (a nested call by the nested function's operations over the nested record). -/
abbrev ops_part3 : List (HloOp τ sig (Elt F)) :=
  [ StableHlo.binary main_v140 main_v141 main_v142 (Host.divf : (⟨S128, .f32⟩ : BufTy).Contents (Elt F) → (⟨S128, .f32⟩ : BufTy).Contents (Elt F) → (⟨S128, .f32⟩ : BufTy).Contents (Elt F)),
    StableHlo.nullary main_c_36 (constantI S_ 32 0#32),
    StableHlo.TRef.nullary main_call0.cst (constant S_ .f32 0x00000000#32),
    StableHlo.TRef.binary (.of main_v139 : StableHlo.TRef sig ⟨S120000x128, .f32⟩) main_call0.cst main_call0.v0 (fun x v => Host.reduceAdd x v reducesTo_S120000x128_S128_d0 h_S_),
    StableHlo.TRef.unary main_call0.v0 main_call0.v1 (broadcastInDim S1x128 ![1] bcast_S128_S1x128_1),
    StableHlo.TRef.nullary main_call0.cst_0 (constant S_ .f32 0x47EA6000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S120000x128 ![0, 1] bcast_S1x128_S120000x128_0_1),
    StableHlo.TRef.binary (.of main_v139 : StableHlo.TRef sig ⟨S120000x128, .f32⟩) main_call0.v4 main_call0.v5 subf,
    StableHlo.TRef.binary main_call0.v5 main_call0.v5 main_call0.v6 mulf,
    StableHlo.TRef.unary (.of main_c_36 : StableHlo.TRef sig ⟨S_, .i32⟩) main_call0.v7 (sitofp .f32),
    StableHlo.TRef.nullary main_call0.cst_1 (constant S_ .f32 0x47EA6000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S120000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v142 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S120000x128 ![0, 1] bcast_S1x128_S120000x128_0_1 : (⟨S1x128, .f32⟩ : BufTy).Contents (Elt F) → (⟨S120000x128, .f32⟩ : BufTy).Contents (Elt F)),
    StableHlo.binary main_v139 main_v145 main_v146 (subf : (⟨S120000x128, .f32⟩ : BufTy).Contents (Elt F) → (⟨S120000x128, .f32⟩ : BufTy).Contents (Elt F) → (⟨S120000x128, .f32⟩ : BufTy).Contents (Elt F)),
    StableHlo.unary main_arg7 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S120000x128 ![0, 1] bcast_S1x128_S120000x128_0_1 : (⟨S1x128, .f32⟩ : BufTy).Contents (Elt F) → (⟨S120000x128, .f32⟩ : BufTy).Contents (Elt F)),
    StableHlo.binary main_v148 main_v146 main_v149 (mulf : (⟨S120000x128, .f32⟩ : BufTy).Contents (Elt F) → (⟨S120000x128, .f32⟩ : BufTy).Contents (Elt F) → (⟨S120000x128, .f32⟩ : BufTy).Contents (Elt F)),
    StableHlo.nullary main_cst_37 (constant S_ .f32 0x3727C5AC#32),
    StableHlo.unary main_cst_37 main_v150 (broadcastInDim S128 ![] bcast_S_S128 : (⟨S_, .f32⟩ : BufTy).Contents (Elt F) → (⟨S128, .f32⟩ : BufTy).Contents (Elt F)),
    StableHlo.binary main_v143 main_v150 main_v151 (addf : (⟨S128, .f32⟩ : BufTy).Contents (Elt F) → (⟨S128, .f32⟩ : BufTy).Contents (Elt F) → (⟨S128, .f32⟩ : BufTy).Contents (Elt F)),
    StableHlo.unary main_v151 main_v152 (Host.rsqrt : (⟨S128, .f32⟩ : BufTy).Contents (Elt F) → (⟨S128, .f32⟩ : BufTy).Contents (Elt F)),
    StableHlo.unary main_v152 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S120000x128 ![0, 1] bcast_S1x128_S120000x128_0_1 : (⟨S1x128, .f32⟩ : BufTy).Contents (Elt F) → (⟨S120000x128, .f32⟩ : BufTy).Contents (Elt F)),
    StableHlo.binary main_v149 main_v154 main_v155 (mulf : (⟨S120000x128, .f32⟩ : BufTy).Contents (Elt F) → (⟨S120000x128, .f32⟩ : BufTy).Contents (Elt F) → (⟨S120000x128, .f32⟩ : BufTy).Contents (Elt F)),
    StableHlo.unary main_arg8 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S120000x128 ![0, 1] bcast_S1x128_S120000x128_0_1 : (⟨S1x128, .f32⟩ : BufTy).Contents (Elt F) → (⟨S120000x128, .f32⟩ : BufTy).Contents (Elt F)),
    StableHlo.binary main_v155 main_v157 main_v158 (addf : (⟨S120000x128, .f32⟩ : BufTy).Contents (Elt F) → (⟨S120000x128, .f32⟩ : BufTy).Contents (Elt F) → (⟨S120000x128, .f32⟩ : BufTy).Contents (Elt F)),
    StableHlo.TRef.nullary main_call1.cst (constant S_ .f32 0x00000000#32),
    StableHlo.TRef.unary main_call1.cst main_call1.v0 (broadcastInDim S120000x128 ![] bcast_S_S120000x128),
    StableHlo.TRef.binary (.of main_v158 : StableHlo.TRef sig ⟨S120000x128, .f32⟩) main_call1.v0 main_call1.v1 maximumf,
    StableHlo.binary main_v159 main_arg9 main_v160 ((fun l r => Host.dotGeneral dot_S120000x128_S128x64_S120000x64_1_0_0_1_n_n none l r) : (⟨S120000x128, .f32⟩ : BufTy).Contents (Elt F) → (⟨S128x64, .f32⟩ : BufTy).Contents (Elt F) → (⟨S120000x64, .f32⟩ : BufTy).Contents (Elt F)),
    StableHlo.nullary main_cst_38 (constant S_ .f32 0x00000000#32),
    StableHlo.binary main_v160 main_cst_38 main_v161 ((fun x v => Host.reduceAdd x v reducesTo_S120000x64_S64_d0 h_S_) : (⟨S120000x64, .f32⟩ : BufTy).Contents (Elt F) → (⟨S_, .f32⟩ : BufTy).Contents (Elt F) → (⟨S64, .f32⟩ : BufTy).Contents (Elt F)),
    StableHlo.nullary main_cst_39 (constant S_ .f32 0x47EA6000#32),
    StableHlo.unary main_cst_39 main_v162 (broadcastInDim S64 ![] bcast_S_S64 : (⟨S_, .f32⟩ : BufTy).Contents (Elt F) → (⟨S64, .f32⟩ : BufTy).Contents (Elt F)),
    StableHlo.binary main_v161 main_v162 main_v163 (Host.divf : (⟨S64, .f32⟩ : BufTy).Contents (Elt F) → (⟨S64, .f32⟩ : BufTy).Contents (Elt F) → (⟨S64, .f32⟩ : BufTy).Contents (Elt F)),
    StableHlo.nullary main_c_40 (constantI S_ 32 0#32),
    StableHlo.TRef.nullary main_call2.cst (constant S_ .f32 0x00000000#32),
    StableHlo.TRef.binary (.of main_v160 : StableHlo.TRef sig ⟨S120000x64, .f32⟩) main_call2.cst main_call2.v0 (fun x v => Host.reduceAdd x v reducesTo_S120000x64_S64_d0 h_S_),
    StableHlo.TRef.unary main_call2.v0 main_call2.v1 (broadcastInDim S1x64 ![1] bcast_S64_S1x64_1),
    StableHlo.TRef.nullary main_call2.cst_0 (constant S_ .f32 0x47EA6000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S120000x64 ![0, 1] bcast_S1x64_S120000x64_0_1),
    StableHlo.TRef.binary (.of main_v160 : StableHlo.TRef sig ⟨S120000x64, .f32⟩) main_call2.v4 main_call2.v5 subf,
    StableHlo.TRef.binary main_call2.v5 main_call2.v5 main_call2.v6 mulf,
    StableHlo.TRef.unary (.of main_c_40 : StableHlo.TRef sig ⟨S_, .i32⟩) main_call2.v7 (sitofp .f32),
    StableHlo.TRef.nullary main_call2.cst_1 (constant S_ .f32 0x47EA6000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S120000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v163 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S120000x64 ![0, 1] bcast_S1x64_S120000x64_0_1 : (⟨S1x64, .f32⟩ : BufTy).Contents (Elt F) → (⟨S120000x64, .f32⟩ : BufTy).Contents (Elt F)),
    StableHlo.binary main_v160 main_v166 main_v167 (subf : (⟨S120000x64, .f32⟩ : BufTy).Contents (Elt F) → (⟨S120000x64, .f32⟩ : BufTy).Contents (Elt F) → (⟨S120000x64, .f32⟩ : BufTy).Contents (Elt F)),
    StableHlo.unary main_arg10 main_v168 (broadcastInDim S1x64 ![1] bcast_S64_S1x64_1 : (⟨S64, .f32⟩ : BufTy).Contents (Elt F) → (⟨S1x64, .f32⟩ : BufTy).Contents (Elt F)),
    StableHlo.unary main_v168 main_v169 (broadcastInDim S120000x64 ![0, 1] bcast_S1x64_S120000x64_0_1 : (⟨S1x64, .f32⟩ : BufTy).Contents (Elt F) → (⟨S120000x64, .f32⟩ : BufTy).Contents (Elt F)),
    StableHlo.binary main_v169 main_v167 main_v170 (mulf : (⟨S120000x64, .f32⟩ : BufTy).Contents (Elt F) → (⟨S120000x64, .f32⟩ : BufTy).Contents (Elt F) → (⟨S120000x64, .f32⟩ : BufTy).Contents (Elt F)),
    StableHlo.nullary main_cst_41 (constant S_ .f32 0x3727C5AC#32),
    StableHlo.unary main_cst_41 main_v171 (broadcastInDim S64 ![] bcast_S_S64 : (⟨S_, .f32⟩ : BufTy).Contents (Elt F) → (⟨S64, .f32⟩ : BufTy).Contents (Elt F)),
    StableHlo.binary main_v164 main_v171 main_v172 (addf : (⟨S64, .f32⟩ : BufTy).Contents (Elt F) → (⟨S64, .f32⟩ : BufTy).Contents (Elt F) → (⟨S64, .f32⟩ : BufTy).Contents (Elt F)),
    StableHlo.unary main_v172 main_v173 (Host.rsqrt : (⟨S64, .f32⟩ : BufTy).Contents (Elt F) → (⟨S64, .f32⟩ : BufTy).Contents (Elt F)),
    StableHlo.unary main_v173 main_v174 (broadcastInDim S1x64 ![1] bcast_S64_S1x64_1 : (⟨S64, .f32⟩ : BufTy).Contents (Elt F) → (⟨S1x64, .f32⟩ : BufTy).Contents (Elt F)),
    StableHlo.unary main_v174 main_v175 (broadcastInDim S120000x64 ![0, 1] bcast_S1x64_S120000x64_0_1 : (⟨S1x64, .f32⟩ : BufTy).Contents (Elt F) → (⟨S120000x64, .f32⟩ : BufTy).Contents (Elt F)),
    StableHlo.binary main_v170 main_v175 main_v176 (mulf : (⟨S120000x64, .f32⟩ : BufTy).Contents (Elt F) → (⟨S120000x64, .f32⟩ : BufTy).Contents (Elt F) → (⟨S120000x64, .f32⟩ : BufTy).Contents (Elt F)),
    StableHlo.unary main_arg11 main_v177 (broadcastInDim S1x64 ![1] bcast_S64_S1x64_1 : (⟨S64, .f32⟩ : BufTy).Contents (Elt F) → (⟨S1x64, .f32⟩ : BufTy).Contents (Elt F)),
    StableHlo.unary main_v177 main_v178 (broadcastInDim S120000x64 ![0, 1] bcast_S1x64_S120000x64_0_1 : (⟨S1x64, .f32⟩ : BufTy).Contents (Elt F) → (⟨S120000x64, .f32⟩ : BufTy).Contents (Elt F)),
    StableHlo.binary main_v176 main_v178 main_v179 (addf : (⟨S120000x64, .f32⟩ : BufTy).Contents (Elt F) → (⟨S120000x64, .f32⟩ : BufTy).Contents (Elt F) → (⟨S120000x64, .f32⟩ : BufTy).Contents (Elt F)),
    StableHlo.TRef.nullary main_call3.cst (constant S_ .f32 0x00000000#32),
    StableHlo.TRef.unary main_call3.cst main_call3.v0 (broadcastInDim S120000x64 ![] bcast_S_S120000x64),
    StableHlo.TRef.binary (.of main_v179 : StableHlo.TRef sig ⟨S120000x64, .f32⟩) main_call3.v0 main_call3.v1 maximumf,
    StableHlo.binary main_v93 main_arg12 main_v181 ((fun l r => Host.dotGeneral dot_S150000x320_S320x128_S150000x128_1_0_0_1_n_n none l r) : (⟨S150000x320, .f32⟩ : BufTy).Contents (Elt F) → (⟨S320x128, .f32⟩ : BufTy).Contents (Elt F) → (⟨S150000x128, .f32⟩ : BufTy).Contents (Elt F)),
    StableHlo.nullary main_cst_42 (constant S_ .f32 0x00000000#32),
    StableHlo.binary main_v181 main_cst_42 main_v182 ((fun x v => Host.reduceAdd x v reducesTo_S150000x128_S128_d0 h_S_) : (⟨S150000x128, .f32⟩ : BufTy).Contents (Elt F) → (⟨S_, .f32⟩ : BufTy).Contents (Elt F) → (⟨S128, .f32⟩ : BufTy).Contents (Elt F)),
    StableHlo.nullary main_cst_43 (constant S_ .f32 0x48127C00#32),
    StableHlo.unary main_cst_43 main_v183 (broadcastInDim S128 ![] bcast_S_S128 : (⟨S_, .f32⟩ : BufTy).Contents (Elt F) → (⟨S128, .f32⟩ : BufTy).Contents (Elt F)),
    StableHlo.binary main_v182 main_v183 main_v184 (Host.divf : (⟨S128, .f32⟩ : BufTy).Contents (Elt F) → (⟨S128, .f32⟩ : BufTy).Contents (Elt F) → (⟨S128, .f32⟩ : BufTy).Contents (Elt F)),
    StableHlo.nullary main_c_44 (constantI S_ 32 0#32),
    StableHlo.TRef.nullary main_call4.cst (constant S_ .f32 0x00000000#32),
    StableHlo.TRef.binary (.of main_v181 : StableHlo.TRef sig ⟨S150000x128, .f32⟩) main_call4.cst main_call4.v0 (fun x v => Host.reduceAdd x v reducesTo_S150000x128_S128_d0 h_S_),
    StableHlo.TRef.unary main_call4.v0 main_call4.v1 (broadcastInDim S1x128 ![1] bcast_S128_S1x128_1),
    StableHlo.TRef.nullary main_call4.cst_0 (constant S_ .f32 0x48127C00#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S150000x128 ![0, 1] bcast_S1x128_S150000x128_0_1),
    StableHlo.TRef.binary (.of main_v181 : StableHlo.TRef sig ⟨S150000x128, .f32⟩) main_call4.v4 main_call4.v5 subf,
    StableHlo.TRef.binary main_call4.v5 main_call4.v5 main_call4.v6 mulf,
    StableHlo.TRef.unary (.of main_c_44 : StableHlo.TRef sig ⟨S_, .i32⟩) main_call4.v7 (sitofp .f32),
    StableHlo.TRef.nullary main_call4.cst_1 (constant S_ .f32 0x48127C00#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S150000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v184 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S150000x128 ![0, 1] bcast_S1x128_S150000x128_0_1 : (⟨S1x128, .f32⟩ : BufTy).Contents (Elt F) → (⟨S150000x128, .f32⟩ : BufTy).Contents (Elt F)),
    StableHlo.binary main_v181 main_v187 main_v188 (subf : (⟨S150000x128, .f32⟩ : BufTy).Contents (Elt F) → (⟨S150000x128, .f32⟩ : BufTy).Contents (Elt F) → (⟨S150000x128, .f32⟩ : BufTy).Contents (Elt F)),
    StableHlo.unary main_arg13 main_v189 (broadcastInDim S1x128 ![1] bcast_S128_S1x128_1 : (⟨S128, .f32⟩ : BufTy).Contents (Elt F) → (⟨S1x128, .f32⟩ : BufTy).Contents (Elt F)),
    StableHlo.unary main_v189 main_v190 (broadcastInDim S150000x128 ![0, 1] bcast_S1x128_S150000x128_0_1 : (⟨S1x128, .f32⟩ : BufTy).Contents (Elt F) → (⟨S150000x128, .f32⟩ : BufTy).Contents (Elt F)),
    StableHlo.binary main_v190 main_v188 main_v191 (mulf : (⟨S150000x128, .f32⟩ : BufTy).Contents (Elt F) → (⟨S150000x128, .f32⟩ : BufTy).Contents (Elt F) → (⟨S150000x128, .f32⟩ : BufTy).Contents (Elt F)),
    StableHlo.nullary main_cst_45 (constant S_ .f32 0x3727C5AC#32) ]

set_option maxRecDepth 8192 in
set_option maxHeartbeats 4000000 in
/-- The window is the straight line of its operations. -/
theorem main_part3_eq (c : Dev nD) : main_part3 (F := F) c = seq ops_part3 := by
  simp only [main_part3, fn_var.body, fn_where.body, fn_relu.body, fn_var_0.body, fn_where_1.body, fn_relu_2.body, fn_var_3.body, seq, bind_assoc, pure_bind] <;> rfl

set_option maxRecDepth 8192 in
/-- Every operation of the window touches TensorCore references only. -/
theorem ops_part3_sub : (ops_part3 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub ..⟩

set_option maxRecDepth 8192 in
/-- Every operation of the window determines its results. -/
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops_part3_W : List (Ref sig .tc) := [main_v142, main_c_36, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v144, main_v145, main_v146, main_v147, main_v148, main_v149, main_cst_37, main_v150, main_v151, main_v152, main_v153, main_v154, main_v155, main_v156, main_v157, main_v158, main_call1.cst.ref, main_call1.v0.ref, main_call1.v1.ref, main_v160, main_cst_38, main_v161, main_cst_39, main_v162, main_v163, main_c_40, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v165, main_v166, main_v167, main_v168, main_v169, main_v170, main_cst_41, main_v171, main_v172, main_v173, main_v174, main_v175, main_v176, main_v177, main_v178, main_v179, main_call3.cst.ref, main_call3.v0.ref, main_call3.v1.ref, main_v181, main_cst_42, main_v182, main_cst_43, main_v183, main_v184, main_c_44, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v186, main_v187, main_v188, main_v189, main_v190, main_v191, main_cst_45]

set_option maxRecDepth 8192 in
/-- Each operation writes exactly its result reference, which is in the list. -/
theorem ops_part3_writes : (ops_part3 : List (HloOp τ sig (Elt F))).Forall fun op =>
    op.writes ⊆ (ops_part3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference the window does not write keeps its contents through it. -/
theorem keep_part3 (V : Valuation τ sig (Elt F)) (r : Ref sig .tc) (h : r ∉ ops_part3_W) :
    after ops_part3 V (Proc.devRef .tc r) = V (Proc.devRef .tc r) :=
  after_of_writes_sub ops_part3 V ops_part3_writes h

end Cert.ReferenceIdeal.RefRun

end
-- ==== Proof.RefRunOps4.lean ====
import proofs.«143519_j50869592655552_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 308 … 415 of the 463 that the reference's @main performs, in program order
    (the statements of `main_part4`). Each call of an outlined function is replaced by the function's own operations, in order,
    over that call's buffer record (a nested call by the nested function's operations over the nested record). -/
abbrev ops_part4 : List (HloOp τ sig (Elt F)) :=
  [ StableHlo.unary main_cst_45 main_v192 (broadcastInDim S128 ![] bcast_S_S128 : (⟨S_, .f32⟩ : BufTy).Contents (Elt F) → (⟨S128, .f32⟩ : BufTy).Contents (Elt F)),
    StableHlo.binary main_v185 main_v192 main_v193 (addf : (⟨S128, .f32⟩ : BufTy).Contents (Elt F) → (⟨S128, .f32⟩ : BufTy).Contents (Elt F) → (⟨S128, .f32⟩ : BufTy).Contents (Elt F)),
    StableHlo.unary main_v193 main_v194 (Host.rsqrt : (⟨S128, .f32⟩ : BufTy).Contents (Elt F) → (⟨S128, .f32⟩ : BufTy).Contents (Elt F)),
    StableHlo.unary main_v194 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S150000x128 ![0, 1] bcast_S1x128_S150000x128_0_1 : (⟨S1x128, .f32⟩ : BufTy).Contents (Elt F) → (⟨S150000x128, .f32⟩ : BufTy).Contents (Elt F)),
    StableHlo.binary main_v191 main_v196 main_v197 (mulf : (⟨S150000x128, .f32⟩ : BufTy).Contents (Elt F) → (⟨S150000x128, .f32⟩ : BufTy).Contents (Elt F) → (⟨S150000x128, .f32⟩ : BufTy).Contents (Elt F)),
    StableHlo.unary main_arg14 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S150000x128 ![0, 1] bcast_S1x128_S150000x128_0_1 : (⟨S1x128, .f32⟩ : BufTy).Contents (Elt F) → (⟨S150000x128, .f32⟩ : BufTy).Contents (Elt F)),
    StableHlo.binary main_v197 main_v199 main_v200 (addf : (⟨S150000x128, .f32⟩ : BufTy).Contents (Elt F) → (⟨S150000x128, .f32⟩ : BufTy).Contents (Elt F) → (⟨S150000x128, .f32⟩ : BufTy).Contents (Elt F)),
    StableHlo.TRef.nullary main_call5.cst (constant S_ .f32 0x00000000#32),
    StableHlo.TRef.unary main_call5.cst main_call5.v0 (broadcastInDim S150000x128 ![] bcast_S_S150000x128),
    StableHlo.TRef.binary (.of main_v200 : StableHlo.TRef sig ⟨S150000x128, .f32⟩) main_call5.v0 main_call5.v1 maximumf,
    StableHlo.binary main_v201 main_arg15 main_v202 ((fun l r => Host.dotGeneral dot_S150000x128_S128x64_S150000x64_1_0_0_1_n_n none l r) : (⟨S150000x128, .f32⟩ : BufTy).Contents (Elt F) → (⟨S128x64, .f32⟩ : BufTy).Contents (Elt F) → (⟨S150000x64, .f32⟩ : BufTy).Contents (Elt F)),
    StableHlo.nullary main_cst_46 (constant S_ .f32 0x00000000#32),
    StableHlo.binary main_v202 main_cst_46 main_v203 ((fun x v => Host.reduceAdd x v reducesTo_S150000x64_S64_d0 h_S_) : (⟨S150000x64, .f32⟩ : BufTy).Contents (Elt F) → (⟨S_, .f32⟩ : BufTy).Contents (Elt F) → (⟨S64, .f32⟩ : BufTy).Contents (Elt F)),
    StableHlo.nullary main_cst_47 (constant S_ .f32 0x48127C00#32),
    StableHlo.unary main_cst_47 main_v204 (broadcastInDim S64 ![] bcast_S_S64 : (⟨S_, .f32⟩ : BufTy).Contents (Elt F) → (⟨S64, .f32⟩ : BufTy).Contents (Elt F)),
    StableHlo.binary main_v203 main_v204 main_v205 (Host.divf : (⟨S64, .f32⟩ : BufTy).Contents (Elt F) → (⟨S64, .f32⟩ : BufTy).Contents (Elt F) → (⟨S64, .f32⟩ : BufTy).Contents (Elt F)),
    StableHlo.nullary main_c_48 (constantI S_ 32 0#32),
    StableHlo.TRef.nullary main_call6.cst (constant S_ .f32 0x00000000#32),
    StableHlo.TRef.binary (.of main_v202 : StableHlo.TRef sig ⟨S150000x64, .f32⟩) main_call6.cst main_call6.v0 (fun x v => Host.reduceAdd x v reducesTo_S150000x64_S64_d0 h_S_),
    StableHlo.TRef.unary main_call6.v0 main_call6.v1 (broadcastInDim S1x64 ![1] bcast_S64_S1x64_1),
    StableHlo.TRef.nullary main_call6.cst_0 (constant S_ .f32 0x48127C00#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S150000x64 ![0, 1] bcast_S1x64_S150000x64_0_1),
    StableHlo.TRef.binary (.of main_v202 : StableHlo.TRef sig ⟨S150000x64, .f32⟩) main_call6.v4 main_call6.v5 subf,
    StableHlo.TRef.binary main_call6.v5 main_call6.v5 main_call6.v6 mulf,
    StableHlo.TRef.unary (.of main_c_48 : StableHlo.TRef sig ⟨S_, .i32⟩) main_call6.v7 (sitofp .f32),
    StableHlo.TRef.nullary main_call6.cst_1 (constant S_ .f32 0x48127C00#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S150000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v205 main_v207 (broadcastInDim S1x64 ![1] bcast_S64_S1x64_1 : (⟨S64, .f32⟩ : BufTy).Contents (Elt F) → (⟨S1x64, .f32⟩ : BufTy).Contents (Elt F)),
    StableHlo.unary main_v207 main_v208 (broadcastInDim S150000x64 ![0, 1] bcast_S1x64_S150000x64_0_1 : (⟨S1x64, .f32⟩ : BufTy).Contents (Elt F) → (⟨S150000x64, .f32⟩ : BufTy).Contents (Elt F)),
    StableHlo.binary main_v202 main_v208 main_v209 (subf : (⟨S150000x64, .f32⟩ : BufTy).Contents (Elt F) → (⟨S150000x64, .f32⟩ : BufTy).Contents (Elt F) → (⟨S150000x64, .f32⟩ : BufTy).Contents (Elt F)),
    StableHlo.unary main_arg16 main_v210 (broadcastInDim S1x64 ![1] bcast_S64_S1x64_1 : (⟨S64, .f32⟩ : BufTy).Contents (Elt F) → (⟨S1x64, .f32⟩ : BufTy).Contents (Elt F)),
    StableHlo.unary main_v210 main_v211 (broadcastInDim S150000x64 ![0, 1] bcast_S1x64_S150000x64_0_1 : (⟨S1x64, .f32⟩ : BufTy).Contents (Elt F) → (⟨S150000x64, .f32⟩ : BufTy).Contents (Elt F)),
    StableHlo.binary main_v211 main_v209 main_v212 (mulf : (⟨S150000x64, .f32⟩ : BufTy).Contents (Elt F) → (⟨S150000x64, .f32⟩ : BufTy).Contents (Elt F) → (⟨S150000x64, .f32⟩ : BufTy).Contents (Elt F)),
    StableHlo.nullary main_cst_49 (constant S_ .f32 0x3727C5AC#32),
    StableHlo.unary main_cst_49 main_v213 (broadcastInDim S64 ![] bcast_S_S64 : (⟨S_, .f32⟩ : BufTy).Contents (Elt F) → (⟨S64, .f32⟩ : BufTy).Contents (Elt F)),
    StableHlo.binary main_v206 main_v213 main_v214 (addf : (⟨S64, .f32⟩ : BufTy).Contents (Elt F) → (⟨S64, .f32⟩ : BufTy).Contents (Elt F) → (⟨S64, .f32⟩ : BufTy).Contents (Elt F)),
    StableHlo.unary main_v214 main_v215 (Host.rsqrt : (⟨S64, .f32⟩ : BufTy).Contents (Elt F) → (⟨S64, .f32⟩ : BufTy).Contents (Elt F)),
    StableHlo.unary main_v215 main_v216 (broadcastInDim S1x64 ![1] bcast_S64_S1x64_1 : (⟨S64, .f32⟩ : BufTy).Contents (Elt F) → (⟨S1x64, .f32⟩ : BufTy).Contents (Elt F)),
    StableHlo.unary main_v216 main_v217 (broadcastInDim S150000x64 ![0, 1] bcast_S1x64_S150000x64_0_1 : (⟨S1x64, .f32⟩ : BufTy).Contents (Elt F) → (⟨S150000x64, .f32⟩ : BufTy).Contents (Elt F)),
    StableHlo.binary main_v212 main_v217 main_v218 (mulf : (⟨S150000x64, .f32⟩ : BufTy).Contents (Elt F) → (⟨S150000x64, .f32⟩ : BufTy).Contents (Elt F) → (⟨S150000x64, .f32⟩ : BufTy).Contents (Elt F)),
    StableHlo.unary main_arg17 main_v219 (broadcastInDim S1x64 ![1] bcast_S64_S1x64_1 : (⟨S64, .f32⟩ : BufTy).Contents (Elt F) → (⟨S1x64, .f32⟩ : BufTy).Contents (Elt F)),
    StableHlo.unary main_v219 main_v220 (broadcastInDim S150000x64 ![0, 1] bcast_S1x64_S150000x64_0_1 : (⟨S1x64, .f32⟩ : BufTy).Contents (Elt F) → (⟨S150000x64, .f32⟩ : BufTy).Contents (Elt F)),
    StableHlo.binary main_v218 main_v220 main_v221 (addf : (⟨S150000x64, .f32⟩ : BufTy).Contents (Elt F) → (⟨S150000x64, .f32⟩ : BufTy).Contents (Elt F) → (⟨S150000x64, .f32⟩ : BufTy).Contents (Elt F)),
    StableHlo.TRef.nullary main_call7.cst (constant S_ .f32 0x00000000#32),
    StableHlo.TRef.unary main_call7.cst main_call7.v0 (broadcastInDim S150000x64 ![] bcast_S_S150000x64),
    StableHlo.TRef.binary (.of main_v221 : StableHlo.TRef sig ⟨S150000x64, .f32⟩) main_call7.v0 main_call7.v1 maximumf,
    StableHlo.binary main_v94 main_arg12 main_v223 ((fun l r => Host.dotGeneral dot_S150000x320_S320x128_S150000x128_1_0_0_1_n_n none l r) : (⟨S150000x320, .f32⟩ : BufTy).Contents (Elt F) → (⟨S320x128, .f32⟩ : BufTy).Contents (Elt F) → (⟨S150000x128, .f32⟩ : BufTy).Contents (Elt F)),
    StableHlo.nullary main_cst_50 (constant S_ .f32 0x00000000#32),
    StableHlo.binary main_v223 main_cst_50 main_v224 ((fun x v => Host.reduceAdd x v reducesTo_S150000x128_S128_d0 h_S_) : (⟨S150000x128, .f32⟩ : BufTy).Contents (Elt F) → (⟨S_, .f32⟩ : BufTy).Contents (Elt F) → (⟨S128, .f32⟩ : BufTy).Contents (Elt F)),
    StableHlo.nullary main_cst_51 (constant S_ .f32 0x48127C00#32),
    StableHlo.unary main_cst_51 main_v225 (broadcastInDim S128 ![] bcast_S_S128 : (⟨S_, .f32⟩ : BufTy).Contents (Elt F) → (⟨S128, .f32⟩ : BufTy).Contents (Elt F)),
    StableHlo.binary main_v224 main_v225 main_v226 (Host.divf : (⟨S128, .f32⟩ : BufTy).Contents (Elt F) → (⟨S128, .f32⟩ : BufTy).Contents (Elt F) → (⟨S128, .f32⟩ : BufTy).Contents (Elt F)),
    StableHlo.nullary main_c_52 (constantI S_ 32 0#32),
    StableHlo.TRef.nullary main_call8.cst (constant S_ .f32 0x00000000#32),
    StableHlo.TRef.binary (.of main_v223 : StableHlo.TRef sig ⟨S150000x128, .f32⟩) main_call8.cst main_call8.v0 (fun x v => Host.reduceAdd x v reducesTo_S150000x128_S128_d0 h_S_),
    StableHlo.TRef.unary main_call8.v0 main_call8.v1 (broadcastInDim S1x128 ![1] bcast_S128_S1x128_1),
    StableHlo.TRef.nullary main_call8.cst_0 (constant S_ .f32 0x48127C00#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S150000x128 ![0, 1] bcast_S1x128_S150000x128_0_1),
    StableHlo.TRef.binary (.of main_v223 : StableHlo.TRef sig ⟨S150000x128, .f32⟩) main_call8.v4 main_call8.v5 subf,
    StableHlo.TRef.binary main_call8.v5 main_call8.v5 main_call8.v6 mulf,
    StableHlo.TRef.unary (.of main_c_52 : StableHlo.TRef sig ⟨S_, .i32⟩) main_call8.v7 (sitofp .f32),
    StableHlo.TRef.nullary main_call8.cst_1 (constant S_ .f32 0x48127C00#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S150000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v226 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S150000x128 ![0, 1] bcast_S1x128_S150000x128_0_1 : (⟨S1x128, .f32⟩ : BufTy).Contents (Elt F) → (⟨S150000x128, .f32⟩ : BufTy).Contents (Elt F)),
    StableHlo.binary main_v223 main_v229 main_v230 (subf : (⟨S150000x128, .f32⟩ : BufTy).Contents (Elt F) → (⟨S150000x128, .f32⟩ : BufTy).Contents (Elt F) → (⟨S150000x128, .f32⟩ : BufTy).Contents (Elt F)),
    StableHlo.unary main_arg13 main_v231 (broadcastInDim S1x128 ![1] bcast_S128_S1x128_1 : (⟨S128, .f32⟩ : BufTy).Contents (Elt F) → (⟨S1x128, .f32⟩ : BufTy).Contents (Elt F)),
    StableHlo.unary main_v231 main_v232 (broadcastInDim S150000x128 ![0, 1] bcast_S1x128_S150000x128_0_1 : (⟨S1x128, .f32⟩ : BufTy).Contents (Elt F) → (⟨S150000x128, .f32⟩ : BufTy).Contents (Elt F)),
    StableHlo.binary main_v232 main_v230 main_v233 (mulf : (⟨S150000x128, .f32⟩ : BufTy).Contents (Elt F) → (⟨S150000x128, .f32⟩ : BufTy).Contents (Elt F) → (⟨S150000x128, .f32⟩ : BufTy).Contents (Elt F)),
    StableHlo.nullary main_cst_53 (constant S_ .f32 0x3727C5AC#32),
    StableHlo.unary main_cst_53 main_v234 (broadcastInDim S128 ![] bcast_S_S128 : (⟨S_, .f32⟩ : BufTy).Contents (Elt F) → (⟨S128, .f32⟩ : BufTy).Contents (Elt F)),
    StableHlo.binary main_v227 main_v234 main_v235 (addf : (⟨S128, .f32⟩ : BufTy).Contents (Elt F) → (⟨S128, .f32⟩ : BufTy).Contents (Elt F) → (⟨S128, .f32⟩ : BufTy).Contents (Elt F)),
    StableHlo.unary main_v235 main_v236 (Host.rsqrt : (⟨S128, .f32⟩ : BufTy).Contents (Elt F) → (⟨S128, .f32⟩ : BufTy).Contents (Elt F)),
    StableHlo.unary main_v236 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S150000x128 ![0, 1] bcast_S1x128_S150000x128_0_1 : (⟨S1x128, .f32⟩ : BufTy).Contents (Elt F) → (⟨S150000x128, .f32⟩ : BufTy).Contents (Elt F)),
    StableHlo.binary main_v233 main_v238 main_v239 (mulf : (⟨S150000x128, .f32⟩ : BufTy).Contents (Elt F) → (⟨S150000x128, .f32⟩ : BufTy).Contents (Elt F) → (⟨S150000x128, .f32⟩ : BufTy).Contents (Elt F)),
    StableHlo.unary main_arg14 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S150000x128 ![0, 1] bcast_S1x128_S150000x128_0_1 : (⟨S1x128, .f32⟩ : BufTy).Contents (Elt F) → (⟨S150000x128, .f32⟩ : BufTy).Contents (Elt F)),
    StableHlo.binary main_v239 main_v241 main_v242 (addf : (⟨S150000x128, .f32⟩ : BufTy).Contents (Elt F) → (⟨S150000x128, .f32⟩ : BufTy).Contents (Elt F) → (⟨S150000x128, .f32⟩ : BufTy).Contents (Elt F)),
    StableHlo.TRef.nullary main_call9.cst (constant S_ .f32 0x00000000#32),
    StableHlo.TRef.unary main_call9.cst main_call9.v0 (broadcastInDim S150000x128 ![] bcast_S_S150000x128),
    StableHlo.TRef.binary (.of main_v242 : StableHlo.TRef sig ⟨S150000x128, .f32⟩) main_call9.v0 main_call9.v1 maximumf ]

set_option maxRecDepth 8192 in
set_option maxHeartbeats 4000000 in
/-- The window is the straight line of its operations. -/
theorem main_part4_eq (c : Dev nD) : main_part4 (F := F) c = seq ops_part4 := by
  simp only [main_part4, fn_relu_4.body, fn_var_5.body, fn_where_1.body, fn_relu_6.body, fn_var_3.body, fn_where.body, seq, bind_assoc, pure_bind] <;> rfl

set_option maxRecDepth 8192 in
/-- Every operation of the window touches TensorCore references only. -/
theorem ops_part4_sub : (ops_part4 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
/-- Every operation of the window determines its results. -/
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops_part4_W : List (Ref sig .tc) := [main_v192, main_v193, main_v194, main_v195, main_v196, main_v197, main_v198, main_v199, main_v200, main_call5.cst.ref, main_call5.v0.ref, main_call5.v1.ref, main_v202, main_cst_46, main_v203, main_cst_47, main_v204, main_v205, main_c_48, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v207, main_v208, main_v209, main_v210, main_v211, main_v212, main_cst_49, main_v213, main_v214, main_v215, main_v216, main_v217, main_v218, main_v219, main_v220, main_v221, main_call7.cst.ref, main_call7.v0.ref, main_call7.v1.ref, main_v223, main_cst_50, main_v224, main_cst_51, main_v225, main_v226, main_c_52, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v228, main_v229, main_v230, main_v231, main_v232, main_v233, main_cst_53, main_v234, main_v235, main_v236, main_v237, main_v238, main_v239, main_v240, main_v241, main_v242, main_call9.cst.ref, main_call9.v0.ref, main_call9.v1.ref]

set_option maxRecDepth 8192 in
/-- Each operation writes exactly its result reference, which is in the list. -/
theorem ops_part4_writes : (ops_part4 : List (HloOp τ sig (Elt F))).Forall fun op =>
    op.writes ⊆ (ops_part4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference the window does not write keeps its contents through it. -/
theorem keep_part4 (V : Valuation τ sig (Elt F)) (r : Ref sig .tc) (h : r ∉ ops_part4_W) :
    after ops_part4 V (Proc.devRef .tc r) = V (Proc.devRef .tc r) :=
  after_of_writes_sub ops_part4 V ops_part4_writes h

end Cert.ReferenceIdeal.RefRun

end
-- ==== Proof.RefRunOps5.lean ====
import proofs.«143519_j50869592655552_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 416 … 463 of the 463 that the reference's @main performs, in program order
    (the statements of `main_part5`). Each call of an outlined function is replaced by the function's own operations, in order,
    over that call's buffer record (a nested call by the nested function's operations over the nested record). -/
abbrev ops_part5 : List (HloOp τ sig (Elt F)) :=
  [ StableHlo.binary main_v243 main_arg15 main_v244 ((fun l r => Host.dotGeneral dot_S150000x128_S128x64_S150000x64_1_0_0_1_n_n none l r) : (⟨S150000x128, .f32⟩ : BufTy).Contents (Elt F) → (⟨S128x64, .f32⟩ : BufTy).Contents (Elt F) → (⟨S150000x64, .f32⟩ : BufTy).Contents (Elt F)),
    StableHlo.nullary main_cst_54 (constant S_ .f32 0x00000000#32),
    StableHlo.binary main_v244 main_cst_54 main_v245 ((fun x v => Host.reduceAdd x v reducesTo_S150000x64_S64_d0 h_S_) : (⟨S150000x64, .f32⟩ : BufTy).Contents (Elt F) → (⟨S_, .f32⟩ : BufTy).Contents (Elt F) → (⟨S64, .f32⟩ : BufTy).Contents (Elt F)),
    StableHlo.nullary main_cst_55 (constant S_ .f32 0x48127C00#32),
    StableHlo.unary main_cst_55 main_v246 (broadcastInDim S64 ![] bcast_S_S64 : (⟨S_, .f32⟩ : BufTy).Contents (Elt F) → (⟨S64, .f32⟩ : BufTy).Contents (Elt F)),
    StableHlo.binary main_v245 main_v246 main_v247 (Host.divf : (⟨S64, .f32⟩ : BufTy).Contents (Elt F) → (⟨S64, .f32⟩ : BufTy).Contents (Elt F) → (⟨S64, .f32⟩ : BufTy).Contents (Elt F)),
    StableHlo.nullary main_c_56 (constantI S_ 32 0#32),
    StableHlo.TRef.nullary main_call10.cst (constant S_ .f32 0x00000000#32),
    StableHlo.TRef.binary (.of main_v244 : StableHlo.TRef sig ⟨S150000x64, .f32⟩) main_call10.cst main_call10.v0 (fun x v => Host.reduceAdd x v reducesTo_S150000x64_S64_d0 h_S_),
    StableHlo.TRef.unary main_call10.v0 main_call10.v1 (broadcastInDim S1x64 ![1] bcast_S64_S1x64_1),
    StableHlo.TRef.nullary main_call10.cst_0 (constant S_ .f32 0x48127C00#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S150000x64 ![0, 1] bcast_S1x64_S150000x64_0_1),
    StableHlo.TRef.binary (.of main_v244 : StableHlo.TRef sig ⟨S150000x64, .f32⟩) main_call10.v4 main_call10.v5 subf,
    StableHlo.TRef.binary main_call10.v5 main_call10.v5 main_call10.v6 mulf,
    StableHlo.TRef.unary (.of main_c_56 : StableHlo.TRef sig ⟨S_, .i32⟩) main_call10.v7 (sitofp .f32),
    StableHlo.TRef.nullary main_call10.cst_1 (constant S_ .f32 0x48127C00#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S150000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v247 main_v249 (broadcastInDim S1x64 ![1] bcast_S64_S1x64_1 : (⟨S64, .f32⟩ : BufTy).Contents (Elt F) → (⟨S1x64, .f32⟩ : BufTy).Contents (Elt F)),
    StableHlo.unary main_v249 main_v250 (broadcastInDim S150000x64 ![0, 1] bcast_S1x64_S150000x64_0_1 : (⟨S1x64, .f32⟩ : BufTy).Contents (Elt F) → (⟨S150000x64, .f32⟩ : BufTy).Contents (Elt F)),
    StableHlo.binary main_v244 main_v250 main_v251 (subf : (⟨S150000x64, .f32⟩ : BufTy).Contents (Elt F) → (⟨S150000x64, .f32⟩ : BufTy).Contents (Elt F) → (⟨S150000x64, .f32⟩ : BufTy).Contents (Elt F)),
    StableHlo.unary main_arg16 main_v252 (broadcastInDim S1x64 ![1] bcast_S64_S1x64_1 : (⟨S64, .f32⟩ : BufTy).Contents (Elt F) → (⟨S1x64, .f32⟩ : BufTy).Contents (Elt F)),
    StableHlo.unary main_v252 main_v253 (broadcastInDim S150000x64 ![0, 1] bcast_S1x64_S150000x64_0_1 : (⟨S1x64, .f32⟩ : BufTy).Contents (Elt F) → (⟨S150000x64, .f32⟩ : BufTy).Contents (Elt F)),
    StableHlo.binary main_v253 main_v251 main_v254 (mulf : (⟨S150000x64, .f32⟩ : BufTy).Contents (Elt F) → (⟨S150000x64, .f32⟩ : BufTy).Contents (Elt F) → (⟨S150000x64, .f32⟩ : BufTy).Contents (Elt F)),
    StableHlo.nullary main_cst_57 (constant S_ .f32 0x3727C5AC#32),
    StableHlo.unary main_cst_57 main_v255 (broadcastInDim S64 ![] bcast_S_S64 : (⟨S_, .f32⟩ : BufTy).Contents (Elt F) → (⟨S64, .f32⟩ : BufTy).Contents (Elt F)),
    StableHlo.binary main_v248 main_v255 main_v256 (addf : (⟨S64, .f32⟩ : BufTy).Contents (Elt F) → (⟨S64, .f32⟩ : BufTy).Contents (Elt F) → (⟨S64, .f32⟩ : BufTy).Contents (Elt F)),
    StableHlo.unary main_v256 main_v257 (Host.rsqrt : (⟨S64, .f32⟩ : BufTy).Contents (Elt F) → (⟨S64, .f32⟩ : BufTy).Contents (Elt F)),
    StableHlo.unary main_v257 main_v258 (broadcastInDim S1x64 ![1] bcast_S64_S1x64_1 : (⟨S64, .f32⟩ : BufTy).Contents (Elt F) → (⟨S1x64, .f32⟩ : BufTy).Contents (Elt F)),
    StableHlo.unary main_v258 main_v259 (broadcastInDim S150000x64 ![0, 1] bcast_S1x64_S150000x64_0_1 : (⟨S1x64, .f32⟩ : BufTy).Contents (Elt F) → (⟨S150000x64, .f32⟩ : BufTy).Contents (Elt F)),
    StableHlo.binary main_v254 main_v259 main_v260 (mulf : (⟨S150000x64, .f32⟩ : BufTy).Contents (Elt F) → (⟨S150000x64, .f32⟩ : BufTy).Contents (Elt F) → (⟨S150000x64, .f32⟩ : BufTy).Contents (Elt F)),
    StableHlo.unary main_arg17 main_v261 (broadcastInDim S1x64 ![1] bcast_S64_S1x64_1 : (⟨S64, .f32⟩ : BufTy).Contents (Elt F) → (⟨S1x64, .f32⟩ : BufTy).Contents (Elt F)),
    StableHlo.unary main_v261 main_v262 (broadcastInDim S150000x64 ![0, 1] bcast_S1x64_S150000x64_0_1 : (⟨S1x64, .f32⟩ : BufTy).Contents (Elt F) → (⟨S150000x64, .f32⟩ : BufTy).Contents (Elt F)),
    StableHlo.binary main_v260 main_v262 main_v263 (addf : (⟨S150000x64, .f32⟩ : BufTy).Contents (Elt F) → (⟨S150000x64, .f32⟩ : BufTy).Contents (Elt F) → (⟨S150000x64, .f32⟩ : BufTy).Contents (Elt F)),
    StableHlo.TRef.nullary main_call11.cst (constant S_ .f32 0x00000000#32),
    StableHlo.TRef.unary main_call11.cst main_call11.v0 (broadcastInDim S150000x64 ![] bcast_S_S150000x64),
    StableHlo.TRef.binary (.of main_v263 : StableHlo.TRef sig ⟨S150000x64, .f32⟩) main_call11.v0 main_call11.v1 maximumf ]

set_option maxRecDepth 8192 in
set_option maxHeartbeats 4000000 in
/-- The window is the straight line of its operations. -/
theorem main_part5_eq (c : Dev nD) : main_part5 (F := F) c = seq ops_part5 := by
  simp only [main_part5, fn_var_5.body, fn_where_1.body, fn_relu_6.body, seq, bind_assoc, pure_bind] <;> rfl

set_option maxRecDepth 8192 in
/-- Every operation of the window touches TensorCore references only. -/
theorem ops_part5_sub : (ops_part5 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
/-- Every operation of the window determines its results. -/
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops_part5_W : List (Ref sig .tc) := [main_v244, main_cst_54, main_v245, main_cst_55, main_v246, main_v247, main_c_56, main_call10.cst.ref, main_call10.v0.ref, main_call10.v1.ref, main_call10.cst_0.ref, main_call10.v2.ref, main_call10.v3.ref, main_call10.v4.ref, main_call10.v5.ref, main_call10.v6.ref, main_call10.v7.ref, main_call10.cst_1.ref, main_call10.v8.ref, main_call10.cst_2.ref, main_call10.v9.ref, main_call10.v10.ref, main_call10.v11.ref, main_call10.cst_3.ref, main_call10.v12.ref, main_call10.cst_4.ref, main_call10.call0.v0.ref, main_call10.call0.v1.ref, main_call10.call0.v2.ref, main_v249, main_v250, main_v251, main_v252, main_v253, main_v254, main_cst_57, main_v255, main_v256, main_v257, main_v258, main_v259, main_v260, main_v261, main_v262, main_v263, main_call11.cst.ref, main_call11.v0.ref, main_call11.v1.ref]

set_option maxRecDepth 8192 in
/-- Each operation writes exactly its result reference, which is in the list. -/
theorem ops_part5_writes : (ops_part5 : List (HloOp τ sig (Elt F))).Forall fun op =>
    op.writes ⊆ (ops_part5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference the window does not write keeps its contents through it. -/
theorem keep_part5 (V : Valuation τ sig (Elt F)) (r : Ref sig .tc) (h : r ∉ ops_part5_W) :
    after ops_part5 V (Proc.devRef .tc r) = V (Proc.devRef .tc r) :=
  after_of_writes_sub ops_part5 V ops_part5_writes h

end Cert.ReferenceIdeal.RefRun

end
-- ==== Proof.RefRun.lean ====
import proofs.«143519_j50869592655552_1_alg».proof.Proof.RefRunOps0
import proofs.«143519_j50869592655552_1_alg».proof.Proof.RefRunOps1
import proofs.«143519_j50869592655552_1_alg».proof.Proof.RefRunOps2
import proofs.«143519_j50869592655552_1_alg».proof.Proof.RefRunOps3
import proofs.«143519_j50869592655552_1_alg».proof.Proof.RefRunOps4
import proofs.«143519_j50869592655552_1_alg».proof.Proof.RefRunOps5
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's @main as one straight line: its 463 operations in program order, every call of an outlined
    function replaced by that function's own operations over the call's buffers; the six windows one after the other. -/
abbrev ops : List (HloOp τ sig (Elt F)) :=
  ops_part0 ++ (ops_part1 ++ (ops_part2 ++ (ops_part3 ++ (ops_part4 ++ (ops_part5)))))

/-- @main runs its windows in order, and each window is the straight line of its operations. -/
theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h]

/-- Every operation determines its results: window by window. -/
theorem ops_fresh : ∀ op ∈ (ops : List (HloOp τ sig (Elt F))), op.fresh = ∅ := fun op h => by
  simp only [ops, List.mem_append] at h
  rcases h with h | h | h | h | h | h
  exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_fresh op h, List.forall_iff_forall_mem.mp ops_part5_fresh op h]

/-- The contents after the whole line are the windows' folds, one inside the next. -/
theorem after_ops (V : Valuation τ sig (Elt F)) :
    after ops V = after ops_part5 (after ops_part4 (after ops_part3 (after ops_part2 (after ops_part1 (after ops_part0 (V)))))) := by
  simp only [ops, after_append]

/-- A reference that no window writes keeps its contents through the whole line. -/
theorem ops_keep (V : Valuation τ sig (Elt F)) (r : Ref sig .tc)
    (h0 : r ∉ ops_part0_W) (h1 : r ∉ ops_part1_W) (h2 : r ∉ ops_part2_W) (h3 : r ∉ ops_part3_W) (h4 : r ∉ ops_part4_W) (h5 : r ∉ ops_part5_W) :
    after ops V (Proc.devRef .tc r) = V (Proc.devRef .tc r) := by
  rw [after_ops, keep_part5 _ r h5, keep_part4 _ r h4, keep_part3 _ r h3, keep_part2 _ r h2, keep_part1 _ r h1, keep_part0 _ r h0]

/-- On every device, for any float values, from any memory with zero counters: every weakly fair execution of the
    reference's @main terminates; each of its three results holds what the fold of the operations over the launch
    contents puts there, and each of its eighteen arguments holds what it held at launch. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v180) = StableHlo.after ops (fun b => m (c, b)) (Proc.devRef .tc main_v180)
       ∧ r.2.mem ((c.tc : Thread nD τ).loc main_v222) = StableHlo.after ops (fun b => m (c, b)) (Proc.devRef .tc main_v222)
       ∧ r.2.mem ((c.tc : Thread nD τ).loc main_v264) = StableHlo.after ops (fun b => m (c, b)) (Proc.devRef .tc main_v264))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨⟨h c main_v180, h c main_v222, h c main_v264⟩,
      (h c main_arg0).trans (ops_keep _ main_arg0 (by decide) (by decide) (by decide) (by decide) (by decide) (by decide)),
      (h c main_arg1).trans (ops_keep _ main_arg1 (by decide) (by decide) (by decide) (by decide) (by decide) (by decide)),
      (h c main_arg2).trans (ops_keep _ main_arg2 (by decide) (by decide) (by decide) (by decide) (by decide) (by decide)),
      (h c main_arg3).trans (ops_keep _ main_arg3 (by decide) (by decide) (by decide) (by decide) (by decide) (by decide)),
      (h c main_arg4).trans (ops_keep _ main_arg4 (by decide) (by decide) (by decide) (by decide) (by decide) (by decide)),
      (h c main_arg5).trans (ops_keep _ main_arg5 (by decide) (by decide) (by decide) (by decide) (by decide) (by decide)),
      (h c main_arg6).trans (ops_keep _ main_arg6 (by decide) (by decide) (by decide) (by decide) (by decide) (by decide)),
      (h c main_arg7).trans (ops_keep _ main_arg7 (by decide) (by decide) (by decide) (by decide) (by decide) (by decide)),
      (h c main_arg8).trans (ops_keep _ main_arg8 (by decide) (by decide) (by decide) (by decide) (by decide) (by decide)),
      (h c main_arg9).trans (ops_keep _ main_arg9 (by decide) (by decide) (by decide) (by decide) (by decide) (by decide)),
      (h c main_arg10).trans (ops_keep _ main_arg10 (by decide) (by decide) (by decide) (by decide) (by decide) (by decide)),
      (h c main_arg11).trans (ops_keep _ main_arg11 (by decide) (by decide) (by decide) (by decide) (by decide) (by decide)),
      (h c main_arg12).trans (ops_keep _ main_arg12 (by decide) (by decide) (by decide) (by decide) (by decide) (by decide)),
      (h c main_arg13).trans (ops_keep _ main_arg13 (by decide) (by decide) (by decide) (by decide) (by decide) (by decide)),
      (h c main_arg14).trans (ops_keep _ main_arg14 (by decide) (by decide) (by decide) (by decide) (by decide) (by decide)),
      (h c main_arg15).trans (ops_keep _ main_arg15 (by decide) (by decide) (by decide) (by decide) (by decide) (by decide)),
      (h c main_arg16).trans (ops_keep _ main_arg16 (by decide) (by decide) (by decide) (by decide) (by decide) (by decide)),
      (h c main_arg17).trans (ops_keep _ main_arg17 (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.KI.Value0Pay.lean ====
import proofs.«143519_j50869592655552_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Cert.KernelIdeal.Facts₀ Cert.KernelIdeal.Facts
open Idealize.ShloMosaic Idealize.ShloMosaic.ValueIdx

/-! # Region 0's arithmetic read at an index, at the ideal values

At the ideal values a float is an extended real and a change of float format is the identity. The point's product
block is, entry by entry, the sum over the 704 contracted columns of the products of the operands' entries; a lane
reduction over the block's 3000 rows is the sum over those rows; the two accumulating payloads add that sum (of the
product, and of its square) to what the scratch row held; the two clearing payloads are zero. -/

/-- The matmul's dimension numbers: rows by columns, one contracted axis. -/
abbrev D0 := dot_S3000x704_S704x128_S3000x128_1_0_0_1_n_n

theorem D0_contr_rank : D0.contr.rank = 1 := rfl
theorem D0_contr_size : D0.contr.size ⟨0, by rw [D0_contr_rank]; exact Nat.one_pos⟩ = 704 := rfl

theorem lhsIdx0 (p : Fin 3000) (n : Fin 128) (k : D0.contr.Idx) :
    D0.lhsIdx (ix2 p n) k = ix2 p (contrEquiv1 D0 704 rfl rfl k) := by
  funext a; apply Fin.ext
  match a with
  | ⟨0, _⟩ => first | rfl | (simp [DotDims.lhsIdx, D0, dot_S3000x704_S704x128_S3000x128_1_0_0_1_n_n, contrEquiv1]; done) | (simp [DotDims.lhsIdx, D0, dot_S3000x704_S704x128_S3000x128_1_0_0_1_n_n, contrEquiv1]; rfl)
  | ⟨1, _⟩ => first | rfl | (simp [DotDims.lhsIdx, D0, dot_S3000x704_S704x128_S3000x128_1_0_0_1_n_n, contrEquiv1]; done) | (simp [DotDims.lhsIdx, D0, dot_S3000x704_S704x128_S3000x128_1_0_0_1_n_n, contrEquiv1]; rfl)

theorem rhsIdx0 (p : Fin 3000) (n : Fin 128) (k : D0.contr.Idx) :
    D0.rhsIdx (ix2 p n) k = ix2 (contrEquiv1 D0 704 rfl rfl k) n := by
  funext a; apply Fin.ext
  match a with
  | ⟨0, _⟩ => first | rfl | (simp [DotDims.rhsIdx, D0, dot_S3000x704_S704x128_S3000x128_1_0_0_1_n_n, contrEquiv1]; done) | (simp [DotDims.rhsIdx, D0, dot_S3000x704_S704x128_S3000x128_1_0_0_1_n_n, contrEquiv1]; rfl)
  | ⟨1, _⟩ => first | rfl | (simp [DotDims.rhsIdx, D0, dot_S3000x704_S704x128_S3000x128_1_0_0_1_n_n, contrEquiv1]; done) | (simp [DotDims.rhsIdx, D0, dot_S3000x704_S704x128_S3000x128_1_0_0_1_n_n, contrEquiv1]; rfl)

theorem pay3_apply (x0 : FVec Ideal S3000x704 .f32) (x1 : FVec Ideal S704x128 .f32) (p : Fin 3000) (n : Fin 128) :
    k0_pay3 (F := Ideal) x0 x1 (ix2 p n) = ∑ k : Fin 704, x0 (ix2 p k) * x1 (ix2 k n) := by
  unfold k0_pay3
  refine (Ideal.matmul_constant_zero_apply D0 none _ _ (ix2 p n)).trans ?_
  refine Fintype.sum_equiv (contrEquiv1 D0 704 rfl rfl) _ _ fun k => ?_
  rw [lhsIdx0, rhsIdx0, shapeCast_self]
  rfl

/-- The inserted index of the lane reduction over the rows: column `n` with row `p` put back is `(p, n)`. -/
theorem lift0 (h : S3000x128.Reduces [0] S128) (n : Fin 128) (p : Fin 3000) : h.lift (ix1 n) p = ix2 p n := by
  funext a; apply Fin.ext
  match a with
  | ⟨0, _⟩ => rfl
  | ⟨1, _⟩ => rfl

/-- The lane reduction over the block's rows, at column `n`: the sum over the 3000 rows. -/
theorem colsum_apply (src : FVec Ideal S3000x128 .f32) (h : S3000x128.Reduces [0] S128) (hφ : FKind.Formats .f32)
    (hacc : (0x00000000#32 : BitVec 32) = 0x00000000#32) (n : Fin 128) :
    multiReduction (F := Ideal) .add [0] S128 src 0x00000000#32 h hφ hacc (ix1 n) = ∑ p : Fin 3000, src (ix2 p n) :=
  (Ideal.multiReduction_add_single src 0x00000000#32 h hφ hacc (ix1 n)).trans
    (Finset.sum_congr rfl fun p _ => congrArg src (lift0 h n p))

/-- The first scratch row's payload at column `n`: what the row held plus the column sum of the product. -/
theorem pay4_apply (x0 : FVec Ideal S3000x704 .f32) (x1 : FVec Ideal S704x128 .f32) (v10 : FVec Ideal S1x128 .f32) (n : Fin 128) :
    k0_pay4 (F := Ideal) x0 x1 v10 (ix2 (0 : Fin 1) n)
      = v10 (ix2 (0 : Fin 1) n) + ∑ p : Fin 3000, k0_pay3 (F := Ideal) x0 x1 (ix2 p n) := by
  unfold k0_pay4
  dsimp only
  refine (congrFun (shapeCast_self _ _) _).trans ?_
  refine congrArg (fun z => v10 (ix2 (0 : Fin 1) n) + z) ?_
  refine (shapeCast_a_1a_apply _ _ 0 n).trans ?_
  exact colsum_apply _ _ _ _ n

/-- The second scratch row's payload at column `n`: what the row held plus the column sum of the product's square. -/
theorem pay5_apply (x0 : FVec Ideal S3000x704 .f32) (x1 : FVec Ideal S704x128 .f32) (v17 : FVec Ideal S1x128 .f32) (n : Fin 128) :
    k0_pay5 (F := Ideal) x0 x1 v17 (ix2 (0 : Fin 1) n)
      = v17 (ix2 (0 : Fin 1) n) + ∑ p : Fin 3000, k0_pay3 (F := Ideal) x0 x1 (ix2 p n) * k0_pay3 (F := Ideal) x0 x1 (ix2 p n) := by
  unfold k0_pay5
  dsimp only
  refine (congrFun (shapeCast_self _ _) _).trans ?_
  refine congrArg (fun z => v17 (ix2 (0 : Fin 1) n) + z) ?_
  refine (shapeCast_a_1a_apply _ _ 0 n).trans ?_
  exact colsum_apply _ _ _ _ n

/-- The clearing payloads are zero everywhere. -/
theorem pay1_apply (j : S1x128.Idx) : k0_pay1 (F := Ideal) j = 0 := by
  unfold k0_pay1
  refine (congrFun (shapeCast_self _ _) j).trans ?_
  exact Ideal.ofBits_zero_f32
theorem pay2_apply (j : S1x128.Idx) : k0_pay2 (F := Ideal) j = 0 := by
  unfold k0_pay2
  refine (congrFun (shapeCast_self _ _) j).trans ?_
  exact Ideal.ofBits_zero_f32

end Cert.KernelIdeal.Hand
end
-- ==== Proof.LibBlockSum.lean ====
/-
  A sum over the rows of an array cut into equal blocks.

  When T·B rows are cut into T consecutive blocks of B rows, row t·B + q is row q of block t, and a sum over all rows is
  the sum over the blocks of each block's own sum. A running total that starts at zero and adds one block's sum at a time
  therefore holds, after the first n blocks, the sum over the rows below n·B, and after all T blocks the sum over every row.
  Stated for any commutative additive monoid.
-/
import Mathlib.Data.Fintype.BigOperators
import Mathlib.Logic.Equiv.Fin.Basic

open scoped BigOperators

namespace Cert.LibBlockSum

variable {M : Type*} [AddCommMonoid M]

/-- Row q of block t lies among the T·B rows. -/
theorem row_lt {T B : Nat} (t : Fin T) (q : Fin B) : t.val * B + q.val < T * B :=
  calc t.val * B + q.val < t.val * B + B := Nat.add_lt_add_left q.isLt _
    _ = (t.val + 1) * B := (Nat.succ_mul _ _).symm
    _ ≤ T * B := Nat.mul_le_mul_right B t.isLt

/-- Row q of block t lies among the N rows when N = T·B. -/
theorem row_lt_of_eq {T B N : Nat} (h : T * B = N) (t : Fin T) (q : Fin B) : t.val * B + q.val < N :=
  h ▸ row_lt t q

/-- A sum over T·B rows is the sum over the T blocks of the sum over each block's B rows. -/
theorem sum_blocks {T B : Nat} (f : Fin (T * B) → M) :
    ∑ r : Fin (T * B), f r = ∑ t : Fin T, ∑ q : Fin B, f ⟨t.val * B + q.val, row_lt t q⟩ := by
  rw [← (finProdFinEquiv (m := T) (n := B)).sum_comp, Fintype.sum_prod_type]
  refine Finset.sum_congr rfl fun t _ => Finset.sum_congr rfl fun q _ => congrArg f (Fin.ext ?_)
  show q.val + B * t.val = t.val * B + q.val
  rw [Nat.mul_comm, Nat.add_comm]

/-- The same with the number of rows given as a literal N = T·B. -/
theorem sum_blocks_of_eq {T B N : Nat} (h : T * B = N) (f : Fin N → M) :
    ∑ r : Fin N, f r = ∑ t : Fin T, ∑ q : Fin B, f ⟨t.val * B + q.val, row_lt_of_eq h t q⟩ := by
  subst h
  exact sum_blocks f

/-- The total of the first n of T block values (a block past the last counts as zero). -/
def upTo {T : Nat} (g : Fin T → M) (n : Nat) : M :=
  ∑ k ∈ Finset.range n, if h : k < T then g ⟨k, h⟩ else 0

/-- Before any block the total is zero. -/
theorem upTo_zero {T : Nat} (g : Fin T → M) : upTo g 0 = 0 := Finset.sum_range_zero _

/-- Adding block n to the total of the first n blocks gives the total of the first n + 1. -/
theorem upTo_succ {T : Nat} (g : Fin T → M) (n : Nat) (hn : n < T) : upTo g (n + 1) = upTo g n + g ⟨n, hn⟩ := by
  unfold upTo
  rw [Finset.sum_range_succ, dif_pos hn]

/-- The first block alone. -/
theorem upTo_one {T : Nat} (g : Fin T → M) (h0 : 0 < T) : upTo g 1 = g ⟨0, h0⟩ := by
  rw [upTo_succ g 0 h0, upTo_zero, zero_add]

/-- After all T blocks the total is the sum over the blocks. -/
theorem upTo_all {T : Nat} (g : Fin T → M) : upTo g T = ∑ t : Fin T, g t := by
  unfold upTo
  rw [Finset.sum_fin_eq_sum_range]

/-- After all T blocks of B rows the running total of the blocks' sums is the sum over all N = T·B rows. -/
theorem upTo_blocks {T B N : Nat} (h : T * B = N) (f : Fin N → M) :
    upTo (fun t : Fin T => ∑ q : Fin B, f ⟨t.val * B + q.val, row_lt_of_eq h t q⟩) T = ∑ r : Fin N, f r := by
  rw [upTo_all, sum_blocks_of_eq h f]

end Cert.LibBlockSum
-- ==== Proof.KI.Value0.lean ====
import proofs.«143519_j50869592655552_1_alg».proof.Proof.KI.Region0
import proofs.«143519_j50869592655552_1_alg».proof.Proof.KI.Value0Pay
import proofs.«143519_j50869592655552_1_alg».proof.Proof.LibBlockSum

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibBlockSum

/-! # Region 0's output arrays as functions of the arrays the region is entered with

With `X` the [120000, 704] array of rows and `Wt` the [704, 128] weight matrix as the region finds them, the block
output ends holding the product `X · Wt`, row by row (each grid point writes its own 3000 rows), and the two one-row
outputs, written back once after the last point, the column sums of the product and of its square over all 120000
rows: the scratch rows are a running total over the 40 blocks of 3000 rows. -/

variable (V : (c : Dev nD) → (b : Ref sig .tc) → Buf (Elt Ideal) ((c : Thread nD τ).loc b))

/-- Row `r` of `X` times column `n` of `Wt`. -/
def pre0 (X : S120000x704.Idx → EReal) (Wt : S704x128.Idx → EReal) (r : Fin 120000) (n : Fin 128) : EReal :=
  ∑ k : Fin 704, X (ix2 r k) * Wt (ix2 k n)

/-- The block output: the product, entry by entry. -/
def G0_2 (X : S120000x704.Idx → EReal) (Wt : S704x128.Idx → EReal) : S120000x128.Idx → EReal :=
  fun j => pre0 X Wt (j 0) (j 1)
/-- The first one-row output: the product's column sums. -/
def G0_3 (X : S120000x704.Idx → EReal) (Wt : S704x128.Idx → EReal) : S1x128.Idx → EReal :=
  fun j => ∑ r : Fin 120000, pre0 X Wt r (j 1)
/-- The second one-row output: the column sums of the product's squares. -/
def G0_4 (X : S120000x704.Idx → EReal) (Wt : S704x128.Idx → EReal) : S1x128.Idx → EReal :=
  fun j => ∑ r : Fin 120000, pre0 X Wt r (j 1) * pre0 X Wt r (j 1)

theorem G0_2_apply (X : S120000x704.Idx → EReal) (Wt : S704x128.Idx → EReal) (r : Fin 120000) (n : Fin 128) :
    G0_2 X Wt (ix2 r n) = pre0 X Wt r n := rfl
theorem G0_3_apply (X : S120000x704.Idx → EReal) (Wt : S704x128.Idx → EReal) (u : Fin 1) (n : Fin 128) :
    G0_3 X Wt (ix2 u n) = ∑ r : Fin 120000, pre0 X Wt r n := rfl
theorem G0_4_apply (X : S120000x704.Idx → EReal) (Wt : S704x128.Idx → EReal) (u : Fin 1) (n : Fin 128) :
    G0_4 X Wt (ix2 u n) = ∑ r : Fin 120000, pre0 X Wt r n * pre0 X Wt r n := rfl

theorem G0_3_at (X : S120000x704.Idx → EReal) (Wt : S704x128.Idx → EReal) (i : S1x128.Idx) :
    G0_3 X Wt i = ∑ r : Fin 120000, pre0 X Wt r (i 1) := rfl
theorem G0_4_at (X : S120000x704.Idx → EReal) (Wt : S704x128.Idx → EReal) (i : S1x128.Idx) :
    G0_4 X Wt i = ∑ r : Fin 120000, pre0 X Wt r (i 1) * pre0 X Wt r (i 1) := rfl

/-- The two arrays the region reads, as it finds them. -/
abbrev X0 (c : Dev nD) : S120000x704.Idx → EReal := V c (Pipeline.arrRef spec0 0)
abbrev Wt0 (c : Dev nD) : S704x128.Idx → EReal := V c (Pipeline.arrRef spec0 1)

/-! ## The windows' block indices, and the blocks read at an index -/

/-- The printed index maps over the grid: the rows' and the block output's blocks move with the point along the
    rows; every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `p` of the block of point `t` is row `t · 3000 + p` of the array. -/
theorem hrow (t : Fin cfg0.N) (p : Fin 3000) : t.val * 3000 + p.val < 120000 := by
  have hN : t.val < 40 := lt_of_lt_of_eq t.isLt (show cfg0.N = 40 from N_0)
  have := p.isLt; omega

theorem iblk0_0_apply (c : Dev nD) (t : Fin cfg0.N) (p : Fin 3000) (k : Fin 704) :
    iblk0 (F := Ideal) V c 0 t (ix2 p k) = X0 V c (ix2 ⟨t.val * 3000 + p.val, hrow t p⟩ k) := by
  show V c (Pipeline.arrRef spec0 0) (((cfg0.win 0).blk t).view.emb (ix2 p k)) = _
  refine congrArg _ ?_
  obtain ⟨e0, e1, -⟩ := idx_facts0 t
  funext a; apply Fin.ext
  match a with
  | ⟨0, _⟩ => show win0_0.index t (0 : Fin 2) * 3000 + 1 * p.val = t.val * 3000 + p.val; omega
  | ⟨1, _⟩ => show win0_0.index t (1 : Fin 2) * 704 + 1 * k.val = k.val; omega

theorem iblk0_1_apply (c : Dev nD) (t : Fin cfg0.N) (k : Fin 704) (n : Fin 128) :
    iblk0 (F := Ideal) V c 1 t (ix2 k n) = Wt0 V c (ix2 k n) := by
  show V c (Pipeline.arrRef spec0 1) (((cfg0.win 1).blk t).view.emb (ix2 k n)) = _
  refine congrArg _ ?_
  obtain ⟨-, -, e0, e1, -⟩ := idx_facts0 t
  funext a; apply Fin.ext
  match a with
  | ⟨0, _⟩ => show win0_1.index t (0 : Fin 2) * 704 + 1 * k.val = k.val; omega
  | ⟨1, _⟩ => show win0_1.index t (1 : Fin 2) * 128 + 1 * n.val = n.val; omega

/-- THE POINT'S PRODUCT: entry `(p, n)` of the product of point `t`'s two blocks is row `t · 3000 + p` of `X` times
    column `n` of `Wt`. -/
theorem prod_pt (c : Dev nD) (t : Fin cfg0.N) (p : Fin 3000) (n : Fin 128) :
    k0_pay3 (F := Ideal) (iblk0 V c 0 t) (iblk0 V c 1 t) (ix2 p n)
      = pre0 (X0 V c) (Wt0 V c) ⟨t.val * 3000 + p.val, hrow t p⟩ n :=
  (pay3_apply (iblk0 V c 0 t) (iblk0 V c 1 t) p n).trans
    (Finset.sum_congr rfl fun k _ => congrArg₂ (· * ·) (iblk0_0_apply V c t p k) (iblk0_1_apply V c t k n))

/-! ## The scratch rows: a running total over the blocks -/

theorem h40 : 40 * 3000 = 120000 := by norm_num

/-- The sum of `f` over the 3000 rows of block `t`. -/
def blk40 (f : Fin 120000 → EReal) (t : Fin 40) : EReal :=
  ∑ q : Fin 3000, f ⟨t.val * 3000 + q.val, row_lt_of_eq h40 t q⟩

/-- The running total of the 40 blocks' sums is the sum over all 120000 rows. -/
theorem upTo_blk40 (f : Fin 120000 → EReal) : upTo (blk40 f) 40 = ∑ r : Fin 120000, f r :=
  upTo_blocks h40 f

/-- After point `n` the scratch rows hold, in column `j`, the totals over the first `n + 1` blocks of the product's
    entries and of their squares: by induction on the point. -/
theorem acc0_inv (c : Dev nD) (j : Fin 128) : ∀ (n : ℕ) (hn : n < cfg0.N),
    (acc0 V c n hn).1 (ix2 (0 : Fin 1) j) = upTo (blk40 fun r => pre0 (X0 V c) (Wt0 V c) r j) (n + 1)
    ∧ (acc0 V c n hn).2 (ix2 (0 : Fin 1) j)
        = upTo (blk40 fun r => pre0 (X0 V c) (Wt0 V c) r j * pre0 (X0 V c) (Wt0 V c) r j) (n + 1) := by
  intro n
  induction n with
  | zero =>
    intro hn
    have h0 : 0 < 40 := by norm_num
    have e := acc0_zero V c ⟨0, hn⟩ rfl
    constructor
    · refine (congrFun (congrArg Prod.fst e) _).trans ?_
      refine (pay4_apply _ _ _ j).trans ?_
      rw [pay1_apply, upTo_succ _ 0 h0, upTo_zero]
      refine congrArg (fun z => (0 : EReal) + z) ?_
      exact Finset.sum_congr rfl fun p _ => prod_pt V c ⟨0, hn⟩ p j
    · refine (congrFun (congrArg Prod.snd e) _).trans ?_
      refine (pay5_apply _ _ _ j).trans ?_
      rw [pay2_apply, upTo_succ _ 0 h0, upTo_zero]
      refine congrArg (fun z => (0 : EReal) + z) ?_
      exact Finset.sum_congr rfl fun p _ => congrArg₂ (· * ·) (prod_pt V c ⟨0, hn⟩ p j) (prod_pt V c ⟨0, hn⟩ p j)
  | succ n ih =>
    intro hn
    have hn40 : n + 1 < 40 := lt_of_lt_of_eq hn N_0
    have e := acc0_pos V c ⟨n + 1, hn⟩ (Nat.succ_ne_zero n)
    obtain ⟨ih1, ih2⟩ := ih (Nat.lt_of_succ_lt hn)
    constructor
    · refine (congrFun (congrArg Prod.fst e) _).trans ?_
      refine (pay4_apply _ _ _ j).trans ?_
      rw [upTo_succ _ (n + 1) hn40]
      refine congrArg₂ (· + ·) ?_ ?_
      · exact ih1
      · exact Finset.sum_congr rfl fun p _ => prod_pt V c ⟨n + 1, hn⟩ p j
    · refine (congrFun (congrArg Prod.snd e) _).trans ?_
      refine (pay5_apply _ _ _ j).trans ?_
      rw [upTo_succ _ (n + 1) hn40]
      refine congrArg₂ (· + ·) ?_ ?_
      · exact ih2
      · exact Finset.sum_congr rfl fun p _ => congrArg₂ (· * ·) (prod_pt V c ⟨n + 1, hn⟩ p j) (prod_pt V c ⟨n + 1, hn⟩ p j)

/-- After the last point: the sums over all 120000 rows. -/
theorem acc0_last (c : Dev nD) (j : Fin 128) (t : Fin cfg0.N) (ht : t.val = 39) :
    (acc0 V c t.val t.isLt).1 (ix2 (0 : Fin 1) j) = ∑ r : Fin 120000, pre0 (X0 V c) (Wt0 V c) r j
    ∧ (acc0 V c t.val t.isLt).2 (ix2 (0 : Fin 1) j)
        = ∑ r : Fin 120000, pre0 (X0 V c) (Wt0 V c) r j * pre0 (X0 V c) (Wt0 V c) r j := by
  obtain ⟨h1, h2⟩ := acc0_inv V c j t.val t.isLt
  have e40 : t.val + 1 = 40 := by omega
  exact ⟨h1.trans ((congrArg (upTo _) e40).trans (upTo_blk40 fun r => pre0 (X0 V c) (Wt0 V c) r j)),
    h2.trans ((congrArg (upTo _) e40).trans (upTo_blk40 fun r => pre0 (X0 V c) (Wt0 V c) r j * pre0 (X0 V c) (Wt0 V c) r j))⟩

/-! ## The block output -/

/-- An index of a [3000, 128] block through its two coordinates. -/
theorem eq_ix2_blk (y : S3000x128.Idx) :
    y = ix2 (⟨(y 0).val, (y 0).isLt⟩ : Fin 3000) (⟨(y 1).val, (y 1).isLt⟩ : Fin 128) := by
  funext a
  match a with
  | ⟨0, _⟩ => rfl
  | ⟨1, _⟩ => rfl

/-- An index of a [1, 128] row through its column. -/
theorem eq_ix2_row (y : S1x128.Idx) : y = ix2 (0 : Fin 1) (⟨(y 1).val, (y 1).isLt⟩ : Fin 128) := by
  funext a
  match a with
  | ⟨0, _⟩ => exact Fin.ext (by have h : (y 0).val < 1 := (y 0).isLt; show (y 0).val = 0; omega)
  | ⟨1, _⟩ => rfl

/-- WHAT POINT `t` WRITES BACK into the block output is block `t` of the product. -/
theorem flushed2_eq (c : Dev nD) (t : Fin cfg0.N) :
    (dat0 (F := Ideal) V c).flushed 2 t = ((cfg0.win 2).blk t).view.read (Elt Ideal) (G0_2 (X0 V c) (Wt0 V c)) := by
  show (cfg0.win 2).cut (grid0.coords t) ((dat0 (F := Ideal) V c).after 2 t) = _
  rw [after0_2]
  show (k0_pay3 (F := Ideal) (iblk0 V c 0 t) (iblk0 V c 1 t) : S3000x128.Idx → EReal)
    = fun y : S3000x128.Idx => G0_2 (X0 V c) (Wt0 V c) (((cfg0.win 2).blk t).view.emb y)
  funext y
  obtain ⟨-, -, -, -, e0, e1, -⟩ := idx_facts0 t
  refine (congrArg (k0_pay3 (F := Ideal) (iblk0 V c 0 t) (iblk0 V c 1 t)) (eq_ix2_blk y)).trans ?_
  refine (prod_pt V c t _ _).trans ?_
  show pre0 (X0 V c) (Wt0 V c) _ _ = pre0 (X0 V c) (Wt0 V c) ((((cfg0.win 2).blk t).view.emb y) 0) ((((cfg0.win 2).blk t).view.emb y) 1)
  refine congrArg₂ (pre0 (X0 V c) (Wt0 V c)) (Fin.ext ?_) (Fin.ext ?_)
  · show t.val * 3000 + (y 0).val = win0_2.index t (0 : Fin 2) * 3000 + 1 * (y 0).val; omega
  · show (y 1).val = win0_2.index t (1 : Fin 2) * 128 + 1 * (y 1).val; omega

/-- An index of the array is in point `t`'s block iff each coordinate is in the block's range on its axis. -/
theorem mem_blk2 (t : Fin cfg0.N) (i : S120000x128.Idx) :
    i ∈ ((cfg0.win 2).blk t).view.set ↔ ∀ a : Fin 2, win0_2.index t a * S3000x128.size a ≤ (i a).val ∧ (i a).val < win0_2.index t a * S3000x128.size a + S3000x128.size a := by
  show i ∈ ((View.whole main_v139_0).slice (win0_2.rect t)).set ↔ _
  rw [View.set_slice_whole, Rect.mem_set_unit]
  exact Iff.rfl

/-- Every row is in the block of the point its number divided by 3000 names. -/
theorem cover2 (i : S120000x128.Idx) :
    ∃ t : Fin cfg0.N, (cfg0.win 2).flush t = true ∧ i ∈ ((cfg0.win 2).blk t).view.set := by
  have hi0 : (i 0).val < 120000 := (i 0).isLt
  have hi1 : (i 1).val < 128 := (i 1).isLt
  have hN : cfg0.N = 40 := N_0
  refine ⟨⟨(i 0).val / 3000, by omega⟩, flush0_2 _, ?_⟩
  rw [mem_blk2]
  obtain ⟨-, -, -, -, e0, e1, -⟩ := idx_facts0 ⟨(i 0).val / 3000, by omega⟩
  intro a
  match a with
  | ⟨0, _⟩ =>
    show win0_2.index ⟨(i 0).val / 3000, _⟩ (0 : Fin 2) * 3000 ≤ (i 0).val ∧ (i 0).val < win0_2.index ⟨(i 0).val / 3000, _⟩ (0 : Fin 2) * 3000 + 3000
    rw [e0]; dsimp only; omega
  | ⟨1, _⟩ =>
    show win0_2.index ⟨(i 0).val / 3000, _⟩ (1 : Fin 2) * 128 ≤ (i 1).val ∧ (i 1).val < win0_2.index ⟨(i 0).val / 3000, _⟩ (1 : Fin 2) * 128 + 128
    rw [e1]; omega

/-- THE BLOCK OUTPUT after the region: the product of the two arrays the region read. -/
theorem final0_2 (c : Dev nD) :
    (dat0 (F := Ideal) V c).arrAt 2 cfg0.N = G0_2 (X0 V c) (Wt0 V c) :=
  (dat0 (F := Ideal) V c).arrAt_eq_of_cover 2 (G0_2 (X0 V c) (Wt0 V c)) (fun t _ => flushed2_eq V c t) (cover2)

/-! ## The two one-row outputs -/

/-- The last point. -/
theorem last_of_flush (t : Fin cfg0.N) (h : t.val % 40 = 39) : t.val = 39 := by
  have hN : t.val < 40 := lt_of_lt_of_eq t.isLt (show cfg0.N = 40 from N_0)
  omega

/-- What the last point writes back into the first one-row output: the column sums over every row. -/
theorem flushed3_eq (c : Dev nD) (t : Fin cfg0.N) (hf : (cfg0.win 3).flush t = true) :
    (dat0 (F := Ideal) V c).flushed 3 t = ((cfg0.win 3).blk t).view.read (Elt Ideal) (G0_3 (X0 V c) (Wt0 V c)) := by
  have ht : t.val = 39 := last_of_flush t ((flush0_3 t).mp hf)
  have hA : ∀ j : Fin 128, (acc0 V c t.val t.isLt).1 (ix2 (0 : Fin 1) j) = ∑ r : Fin 120000, pre0 (X0 V c) (Wt0 V c) r j :=
    fun j => (acc0_last V c j t ht).1
  show (cfg0.win 3).cut (grid0.coords t) ((dat0 (F := Ideal) V c).after 3 t) = _
  rw [after0_3]
  generalize (acc0 V c t.val t.isLt).1 = A at hA ⊢
  generalize hG : G0_3 (X0 V c) (Wt0 V c) = G
  show (A : S1x128.Idx → EReal) = fun y : S1x128.Idx => G (((cfg0.win 3).blk t).view.emb y)
  funext y
  subst hG
  obtain ⟨-, -, -, -, -, -, e0, e1, -⟩ := idx_facts0 t
  refine (congrArg A (eq_ix2_row y)).trans ?_
  refine (hA _).trans ?_
  refine Eq.trans ?_ (G0_3_at _ _ _).symm
  refine Finset.sum_congr rfl fun r _ => congrArg (pre0 (X0 V c) (Wt0 V c) r) (Fin.ext ?_)
  show (y 1).val = win0_3.index t (1 : Fin 2) * 128 + 1 * (y 1).val; omega

theorem flushed4_eq (c : Dev nD) (t : Fin cfg0.N) (hf : (cfg0.win 4).flush t = true) :
    (dat0 (F := Ideal) V c).flushed 4 t = ((cfg0.win 4).blk t).view.read (Elt Ideal) (G0_4 (X0 V c) (Wt0 V c)) := by
  have ht : t.val = 39 := last_of_flush t ((flush0_4 t).mp hf)
  have hA : ∀ j : Fin 128, (acc0 V c t.val t.isLt).2 (ix2 (0 : Fin 1) j)
      = ∑ r : Fin 120000, pre0 (X0 V c) (Wt0 V c) r j * pre0 (X0 V c) (Wt0 V c) r j :=
    fun j => (acc0_last V c j t ht).2
  show (cfg0.win 4).cut (grid0.coords t) ((dat0 (F := Ideal) V c).after 4 t) = _
  rw [after0_4]
  generalize (acc0 V c t.val t.isLt).2 = A at hA ⊢
  generalize hG : G0_4 (X0 V c) (Wt0 V c) = G
  show (A : S1x128.Idx → EReal) = fun y : S1x128.Idx => G (((cfg0.win 4).blk t).view.emb y)
  funext y
  subst hG
  obtain ⟨-, -, -, -, -, -, -, -, e0, e1⟩ := idx_facts0 t
  refine (congrArg A (eq_ix2_row y)).trans ?_
  refine (hA _).trans ?_
  refine Eq.trans ?_ (G0_4_at _ _ _).symm
  have hy : (⟨(y 1).val, (y 1).isLt⟩ : Fin 128) = (((cfg0.win 4).blk t).view.emb y) 1 := Fin.ext (by
    show (y 1).val = win0_4.index t (1 : Fin 2) * 128 + 1 * (y 1).val; omega)
  rw [hy]

theorem mem_blk3 (t : Fin cfg0.N) (i : S1x128.Idx) :
    i ∈ ((cfg0.win 3).blk t).view.set ↔ ∀ a : Fin 2, win0_3.index t a * S1x128.size a ≤ (i a).val ∧ (i a).val < win0_3.index t a * S1x128.size a + S1x128.size a := by
  show i ∈ ((View.whole main_v139_1).slice (win0_3.rect t)).set ↔ _
  rw [View.set_slice_whole, Rect.mem_set_unit]
  exact Iff.rfl

theorem mem_blk4 (t : Fin cfg0.N) (i : S1x128.Idx) :
    i ∈ ((cfg0.win 4).blk t).view.set ↔ ∀ a : Fin 2, win0_4.index t a * S1x128.size a ≤ (i a).val ∧ (i a).val < win0_4.index t a * S1x128.size a + S1x128.size a := by
  show i ∈ ((View.whole main_v139_2).slice (win0_4.rect t)).set ↔ _
  rw [View.set_slice_whole, Rect.mem_set_unit]
  exact Iff.rfl

/-- The last point's block is the whole row. -/
theorem cover3 (i : S1x128.Idx) :
    ∃ t : Fin cfg0.N, (cfg0.win 3).flush t = true ∧ i ∈ ((cfg0.win 3).blk t).view.set := by
  have hi0 : (i 0).val < 1 := (i 0).isLt
  have hi1 : (i 1).val < 128 := (i 1).isLt
  have hN : cfg0.N = 40 := N_0
  refine ⟨⟨39, by omega⟩, (flush0_3 _).mpr rfl, ?_⟩
  rw [mem_blk3]
  obtain ⟨-, -, -, -, -, -, e0, e1, -⟩ := idx_facts0 ⟨39, by omega⟩
  intro a
  match a with
  | ⟨0, _⟩ =>
    show win0_3.index ⟨39, _⟩ (0 : Fin 2) * 1 ≤ (i 0).val ∧ (i 0).val < win0_3.index ⟨39, _⟩ (0 : Fin 2) * 1 + 1
    rw [e0]; omega
  | ⟨1, _⟩ =>
    show win0_3.index ⟨39, _⟩ (1 : Fin 2) * 128 ≤ (i 1).val ∧ (i 1).val < win0_3.index ⟨39, _⟩ (1 : Fin 2) * 128 + 128
    rw [e1]; omega

theorem cover4 (i : S1x128.Idx) :
    ∃ t : Fin cfg0.N, (cfg0.win 4).flush t = true ∧ i ∈ ((cfg0.win 4).blk t).view.set := by
  have hi0 : (i 0).val < 1 := (i 0).isLt
  have hi1 : (i 1).val < 128 := (i 1).isLt
  have hN : cfg0.N = 40 := N_0
  refine ⟨⟨39, by omega⟩, (flush0_4 _).mpr rfl, ?_⟩
  rw [mem_blk4]
  obtain ⟨-, -, -, -, -, -, -, -, e0, e1⟩ := idx_facts0 ⟨39, by omega⟩
  intro a
  match a with
  | ⟨0, _⟩ =>
    show win0_4.index ⟨39, _⟩ (0 : Fin 2) * 1 ≤ (i 0).val ∧ (i 0).val < win0_4.index ⟨39, _⟩ (0 : Fin 2) * 1 + 1
    rw [e0]; omega
  | ⟨1, _⟩ =>
    show win0_4.index ⟨39, _⟩ (1 : Fin 2) * 128 ≤ (i 1).val ∧ (i 1).val < win0_4.index ⟨39, _⟩ (1 : Fin 2) * 128 + 128
    rw [e1]; omega

/-- THE FIRST ONE-ROW OUTPUT after the region: the product's column sums over all 120000 rows. -/
theorem final0_3 (c : Dev nD) :
    (dat0 (F := Ideal) V c).arrAt 3 cfg0.N = G0_3 (X0 V c) (Wt0 V c) :=
  (dat0 (F := Ideal) V c).arrAt_eq_of_cover 3 (G0_3 (X0 V c) (Wt0 V c)) (fun t hf => flushed3_eq V c t hf) (cover3)

/-- THE SECOND ONE-ROW OUTPUT after the region: the column sums of the product's squares. -/
theorem final0_4 (c : Dev nD) :
    (dat0 (F := Ideal) V c).arrAt 4 cfg0.N = G0_4 (X0 V c) (Wt0 V c) :=
  (dat0 (F := Ideal) V c).arrAt_eq_of_cover 4 (G0_4 (X0 V c) (Wt0 V c)) (fun t hf => flushed4_eq V c t hf) (cover4)

end Cert.KernelIdeal.Hand
end
-- ==== Proof.KI.Value1.lean ====
import proofs.«143519_j50869592655552_1_alg».proof.Proof.KI.Region1
import proofs.«143519_j50869592655552_1_alg».proof.Proof.LibBlockSum
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-! # Region 1 (custom_call 1): the value half, at the extended reals

What the region's three result arrays hold when it ends, as functions of the four arrays it is entered with:
the product array row by row, and the column sums of the products and of their squares over all rows. -/

section AnyInstance
variable {F : FTy → Type} [FloatOps F]

/-! ## What each case leaves, as the body's payloads (any float instance)

Every store of the body writes a whole buffer through the rectangle at zero offsets, and every load reads one; so each
list of pieces a run found reads back as its last piece's payload, at the loaded blocks themselves. -/

theorem hz_r1 : (![0, 0] : Fin 2 → Nat) = fun _ => 0 := funext fun a => by fin_cases a <;> rfl

/-- The product block, at the first point … -/
theorem out1_A_4_eq (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : out1_A_4 c i arg1 harg1 arg2 harg2 arg3 harg3 arg4 harg4 arg5 harg5 arg6 harg6 arg7 harg7 arg8 harg8 arg9 harg9 hc0 x0 x1 x2 x3 = k1_pay4 x0 x1 x2 x3 := by
  unfold out1_A_4
  rw [View.read_writes_eq_canon _ _ _ (cover1_A_4 c i arg1 harg1 arg2 harg2 arg3 harg3 arg4 harg4 arg5 harg5 arg6 harg6 arg7 harg7 arg8 harg8 arg9 harg9 hc0 x0 x1 x2 x3)]
  unfold kernelRun1_A
  dsimp only
  rw [View.canon_unit_zero hz_r1]
  simp only [View.readAt_eq_ld, harg1.read_unread, harg2.read_unread, harg3.read_unread, harg4.read_unread,
    View.ld_unit_zero (S := S3000x128) hz_r1, View.ld_unit_zero (S := S1x128) hz_r1, View.ld_unit_zero (S := S128x64) hz_r1]

/-- … and at a later point. -/
theorem out1_B_4_eq (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : out1_B_4 c i arg1 harg1 arg2 harg2 arg3 harg3 arg4 harg4 arg5 harg5 arg6 harg6 arg7 harg7 arg8 harg8 arg9 harg9 hc0 x0 x1 x2 x3 xs0 xs1 = k1_pay4 x0 x1 x2 x3 := by
  unfold out1_B_4
  rw [View.read_writes_eq_canon _ _ _ (cover1_B_4 c i arg1 harg1 arg2 harg2 arg3 harg3 arg4 harg4 arg5 harg5 arg6 harg6 arg7 harg7 arg8 harg8 arg9 harg9 hc0 x0 x1 x2 x3 xs0 xs1)]
  unfold kernelRun1_B
  dsimp only
  rw [View.canon_unit_zero hz_r1]
  simp only [View.readAt_eq_ld, harg1.read_unread, harg2.read_unread, harg3.read_unread, harg4.read_unread,
    View.ld_unit_zero (S := S3000x128) hz_r1, View.ld_unit_zero (S := S1x128) hz_r1, View.ld_unit_zero (S := S128x64) hz_r1]

/-- Scratch row 0 after the first point: the zero row plus this point's column sums … -/
theorem sout1_A_0_eq (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : sout1_A_0 c i arg1 harg1 arg2 harg2 arg3 harg3 arg4 harg4 arg5 harg5 arg6 harg6 arg7 harg7 arg8 harg8 arg9 harg9 hc0 x0 x1 x2 x3 = k1_pay5 x0 x1 x2 x3 (k1_pay2 (F := F)) := by
  unfold sout1_A_0
  rw [View.read_writes_eq_canon _ _ _ (scover1_A_0 c i arg1 harg1 arg2 harg2 arg3 harg3 arg4 harg4 arg5 harg5 arg6 harg6 arg7 harg7 arg8 harg8 arg9 harg9 hc0 x0 x1 x2 x3)]
  unfold kernelRun1_A
  dsimp only
  sl_unfold_words
  rw [View.canon_cons_unit_zero (S := S1x64) hz_r1, View.readCov_unit_zero (S := S1x64) _ hz_r1]
  simp only [View.readAt_eq_ld, harg1.read_unread, harg2.read_unread, harg3.read_unread, harg4.read_unread,
    View.ld_unit_zero (S := S3000x128) hz_r1, View.ld_unit_zero (S := S1x128) hz_r1, View.ld_unit_zero (S := S128x64) hz_r1]

/-- … and after a later point: what the point before left plus this point's. -/
theorem sout1_B_0_eq (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : sout1_B_0 c i arg1 harg1 arg2 harg2 arg3 harg3 arg4 harg4 arg5 harg5 arg6 harg6 arg7 harg7 arg8 harg8 arg9 harg9 hc0 x0 x1 x2 x3 xs0 xs1 = k1_pay5 x0 x1 x2 x3 xs0 := by
  unfold sout1_B_0
  rw [View.read_writes_eq_canon _ _ _ (scover1_B_0 c i arg1 harg1 arg2 harg2 arg3 harg3 arg4 harg4 arg5 harg5 arg6 harg6 arg7 harg7 arg8 harg8 arg9 harg9 hc0 x0 x1 x2 x3 xs0 xs1)]
  unfold kernelRun1_B
  dsimp only
  sl_unfold_words
  rw [View.canon_unit_zero hz_r1]
  simp only [View.readAt_eq_ld, harg1.read_unread, harg2.read_unread, harg3.read_unread, harg4.read_unread, harg8.read_unread, harg9.read_unread,
    View.ld_unit_zero (S := S3000x128) hz_r1, View.ld_unit_zero (S := S1x128) hz_r1, View.ld_unit_zero (S := S128x64) hz_r1, View.ld_unit_zero (S := S1x64) hz_r1]

/-- Scratch row 1 likewise, with the squares' column sums. -/
theorem sout1_A_1_eq (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : sout1_A_1 c i arg1 harg1 arg2 harg2 arg3 harg3 arg4 harg4 arg5 harg5 arg6 harg6 arg7 harg7 arg8 harg8 arg9 harg9 hc0 x0 x1 x2 x3 = k1_pay1 (k1_pay6 x0 x1 x2 x3 (k1_pay3 (F := F))) := by
  unfold sout1_A_1
  rw [View.read_writes_eq_canon _ _ _ (scover1_A_1 c i arg1 harg1 arg2 harg2 arg3 harg3 arg4 harg4 arg5 harg5 arg6 harg6 arg7 harg7 arg8 harg8 arg9 harg9 hc0 x0 x1 x2 x3)]
  unfold kernelRun1_A
  dsimp only
  sl_unfold_words
  rw [View.canon_cons_unit_zero (S := S1x64) hz_r1, View.readCov_unit_zero (S := S1x64) _ hz_r1]
  simp only [View.readAt_eq_ld, harg1.read_unread, harg2.read_unread, harg3.read_unread, harg4.read_unread,
    View.ld_unit_zero (S := S3000x128) hz_r1, View.ld_unit_zero (S := S1x128) hz_r1, View.ld_unit_zero (S := S128x64) hz_r1]

theorem sout1_B_1_eq (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : sout1_B_1 c i arg1 harg1 arg2 harg2 arg3 harg3 arg4 harg4 arg5 harg5 arg6 harg6 arg7 harg7 arg8 harg8 arg9 harg9 hc0 x0 x1 x2 x3 xs0 xs1 = k1_pay1 (k1_pay6 x0 x1 x2 x3 xs1) := by
  unfold sout1_B_1
  rw [View.read_writes_eq_canon _ _ _ (scover1_B_1 c i arg1 harg1 arg2 harg2 arg3 harg3 arg4 harg4 arg5 harg5 arg6 harg6 arg7 harg7 arg8 harg8 arg9 harg9 hc0 x0 x1 x2 x3 xs0 xs1)]
  unfold kernelRun1_B
  dsimp only
  sl_unfold_words
  rw [View.canon_unit_zero hz_r1]
  simp only [View.readAt_eq_ld, harg1.read_unread, harg2.read_unread, harg3.read_unread, harg4.read_unread, harg8.read_unread, harg9.read_unread,
    View.ld_unit_zero (S := S3000x128) hz_r1, View.ld_unit_zero (S := S1x128) hz_r1, View.ld_unit_zero (S := S128x64) hz_r1, View.ld_unit_zero (S := S1x64) hz_r1]

/-- Output windows 5 and 6 end every point as copies of the two scratch rows. -/
theorem out1_A_5_eq (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : out1_A_5 c i arg1 harg1 arg2 harg2 arg3 harg3 arg4 harg4 arg5 harg5 arg6 harg6 arg7 harg7 arg8 harg8 arg9 harg9 hc0 x0 x1 x2 x3 = k1_pay5 x0 x1 x2 x3 (k1_pay2 (F := F)) := by
  unfold out1_A_5
  rw [View.read_writes_eq_canon _ _ _ (cover1_A_5 c i arg1 harg1 arg2 harg2 arg3 harg3 arg4 harg4 arg5 harg5 arg6 harg6 arg7 harg7 arg8 harg8 arg9 harg9 hc0 x0 x1 x2 x3)]
  unfold kernelRun1_A
  dsimp only
  sl_unfold_words
  rw [View.canon_unit_zero hz_r1, View.readCov_cons_toLoadRect, View.readCov_unit_zero (S := S1x64) _ hz_r1]
  simp only [View.readAt_eq_ld, harg1.read_unread, harg2.read_unread, harg3.read_unread, harg4.read_unread,
    View.ld_unit_zero (S := S3000x128) hz_r1, View.ld_unit_zero (S := S1x128) hz_r1, View.ld_unit_zero (S := S128x64) hz_r1]

theorem out1_B_5_eq (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : out1_B_5 c i arg1 harg1 arg2 harg2 arg3 harg3 arg4 harg4 arg5 harg5 arg6 harg6 arg7 harg7 arg8 harg8 arg9 harg9 hc0 x0 x1 x2 x3 xs0 xs1 = k1_pay5 x0 x1 x2 x3 xs0 := by
  unfold out1_B_5
  rw [View.read_writes_eq_canon _ _ _ (cover1_B_5 c i arg1 harg1 arg2 harg2 arg3 harg3 arg4 harg4 arg5 harg5 arg6 harg6 arg7 harg7 arg8 harg8 arg9 harg9 hc0 x0 x1 x2 x3 xs0 xs1)]
  unfold kernelRun1_B
  dsimp only
  sl_unfold_words
  rw [View.canon_unit_zero hz_r1, View.readCov_cons_toLoadRect]
  simp only [View.readAt_eq_ld, harg1.read_unread, harg2.read_unread, harg3.read_unread, harg4.read_unread, harg8.read_unread, harg9.read_unread,
    View.ld_unit_zero (S := S3000x128) hz_r1, View.ld_unit_zero (S := S1x128) hz_r1, View.ld_unit_zero (S := S128x64) hz_r1, View.ld_unit_zero (S := S1x64) hz_r1]

theorem out1_A_6_eq (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i)
    (x0 : Vec F S3000x128 .f32) (x1 : Vec F S1x128 .f32) (x2 : Vec F S1x128 .f32) (x3 : Vec F S128x64 .f32) : out1_A_6 c i arg1 harg1 arg2 harg2 arg3 harg3 arg4 harg4 arg5 harg5 arg6 harg6 arg7 harg7 arg8 harg8 arg9 harg9 hc0 x0 x1 x2 x3 = k1_pay1 (k1_pay6 x0 x1 x2 x3 (k1_pay3 (F := F))) := by
  unfold out1_A_6
  rw [View.read_writes_eq_canon _ _ _ (cover1_A_6 c i arg1 harg1 arg2 harg2 arg3 harg3 arg4 harg4 arg5 harg5 arg6 harg6 arg7 harg7 arg8 harg8 arg9 harg9 hc0 x0 x1 x2 x3)]
  unfold kernelRun1_A
  dsimp only
  sl_unfold_words
  rw [View.canon_unit_zero hz_r1, View.readCov_cons_toLoadRect, View.readCov_unit_zero (S := S1x64) _ hz_r1]
  simp only [View.readAt_eq_ld, harg1.read_unread, harg2.read_unread, harg3.read_unread, harg4.read_unread,
    View.ld_unit_zero (S := S3000x128) hz_r1, View.ld_unit_zero (S := S1x128) hz_r1, View.ld_unit_zero (S := S128x64) hz_r1]

theorem out1_B_6_eq (c : Dev nD) (i : grid1.Coords) (arg1 : Memref sig .tc .vmem S3000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S3000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i)
    (x0 : Vec F S3000x128 .f32) (x1 : Vec F S1x128 .f32) (x2 : Vec F S1x128 .f32) (x3 : Vec F S128x64 .f32) (xs0 : Vec F S1x64 .f32) (xs1 : Vec F S1x64 .f32) : out1_B_6 c i arg1 harg1 arg2 harg2 arg3 harg3 arg4 harg4 arg5 harg5 arg6 harg6 arg7 harg7 arg8 harg8 arg9 harg9 hc0 x0 x1 x2 x3 xs0 xs1 = k1_pay1 (k1_pay6 x0 x1 x2 x3 xs1) := by
  unfold out1_B_6
  rw [View.read_writes_eq_canon _ _ _ (cover1_B_6 c i arg1 harg1 arg2 harg2 arg3 harg3 arg4 harg4 arg5 harg5 arg6 harg6 arg7 harg7 arg8 harg8 arg9 harg9 hc0 x0 x1 x2 x3 xs0 xs1)]
  unfold kernelRun1_B
  dsimp only
  sl_unfold_words
  rw [View.canon_unit_zero hz_r1, View.readCov_cons_toLoadRect]
  simp only [View.readAt_eq_ld, harg1.read_unread, harg2.read_unread, harg3.read_unread, harg4.read_unread, harg8.read_unread, harg9.read_unread,
    View.ld_unit_zero (S := S3000x128) hz_r1, View.ld_unit_zero (S := S1x128) hz_r1, View.ld_unit_zero (S := S128x64) hz_r1, View.ld_unit_zero (S := S1x64) hz_r1]

end AnyInstance

/-! ## The body's payloads read at an index, over the extended reals -/

/-- The contraction index of the body's one matrix product is its one coordinate, below 128. -/
abbrev dotK_r1 : DotDims S3000x128 S128x64 S3000x64 := dot_S3000x128_S128x64_S3000x64_1_0_0_1_n_n
abbrev kE_r1 : dotK_r1.contr.Idx ≃ Fin 128 := contrEquiv1 dotK_r1 128 rfl rfl

theorem dotK_r1_lhsIdx (r : Fin 3000) (n : Fin 64) (k : Fin 128) : dotK_r1.lhsIdx (ix2 r n) (kE_r1.symm k) = ix2 r k := by
  funext a
  refine Fin.ext ?_
  match a with
  | ⟨0, _⟩ => rfl
  | ⟨1, _⟩ => exact (dotK_r1.lhsIdx_val_of_single (cl := 1) rfl (ix2 r n) (kE_r1.symm k)).trans (contrEquiv1_symm_val dotK_r1 128 rfl rfl k)

theorem dotK_r1_rhsIdx (r : Fin 3000) (n : Fin 64) (k : Fin 128) : dotK_r1.rhsIdx (ix2 r n) (kE_r1.symm k) = ix2 k n := by
  funext a
  refine Fin.ext ?_
  match a with
  | ⟨0, _⟩ => exact (dotK_r1.rhsIdx_val_of_single (cr := 0) rfl (ix2 r n) (kE_r1.symm k)).trans (contrEquiv1_symm_val dotK_r1 128 rfl rfl k)
  | ⟨1, _⟩ => rfl

/-- The product block at row `r`, column `n`: the sum over the 128 features of the activated, normalised input entry
    times the weight entry. (A change of float format is the identity on extended reals; the accumulator is zero.) -/
theorem k1_pay4_apply (x0 : Vec Ideal S3000x128 .f32) (x1 x2 : Vec Ideal S1x128 .f32) (x3 : Vec Ideal S128x64 .f32)
    (r : Fin 3000) (n : Fin 64) :
    k1_pay4 (F := Ideal) x0 x1 x2 x3 (ix2 r n)
      = ∑ k : Fin 128, max (x0 (ix2 r k) * x1 (ix2 (0 : Fin 1) k) + x2 (ix2 (0 : Fin 1) k)) 0 * x3 (ix2 k n) := by
  unfold k1_pay4
  refine (Ideal.matmul_constant_zero_apply dotK_r1 none _ _ (ix2 r n)).trans ?_
  refine (Equiv.sum_comp kE_r1.symm _).symm.trans ?_
  refine Finset.sum_congr rfl fun k _ => ?_
  rw [dotK_r1_lhsIdx r n k, dotK_r1_rhsIdx r n k]
  simp only [truncf_apply, maximumf_apply, addf_apply, mulf_apply, shapeCast_self, broadcastTo_1b_ab_apply, broadcast_apply]
  rw [show (Scalar.ofBits .f32 0x00000000#32 : Ideal .f32) = 0 from Ideal.ofBits_zero_f32]

/-- The reduced index with the row put back is (row, column). -/
theorem lift1_ix1 (h : S3000x64.Reduces [0] S64) (n : Fin 64) (r : Fin 3000) : h.lift (ix1 n) r = ix2 r n := by
  funext a
  refine Fin.ext ?_
  match a with
  | ⟨0, _⟩ => rfl
  | ⟨1, _⟩ => rfl

/-- A column sum of a 3000-row block, kept as a [1,64] row: the sum over the block's rows. -/
theorem colsum1_apply (src : FVec Ideal S3000x64 .f32) (h : S3000x64.Reduces [0] S64) (hφ : FKind.Formats .f32)
    (hacc : (0x00000000#32 : BitVec 32) = FKind.add.neutral .f32 hφ) (hc : S64.ShapeCasts S1x64) (u : Fin 1) (n : Fin 64) :
    shapeCast S1x64 (multiReduction (F := Ideal) .add [0] S64 src 0x00000000#32 h hφ hacc) hc (ix2 u n) = ∑ r : Fin 3000, src (ix2 r n) := by
  refine (shapeCast_a_1a_apply _ hc u n).trans ?_
  refine (Ideal.multiReduction_add_single src 0x00000000#32 h hφ hacc (ix1 n)).trans ?_
  exact Finset.sum_congr rfl fun r _ => congrArg src (lift1_ix1 h n r)

/-- Scratch row 0 after a point: what it held plus the column sums of the point's product block. -/
theorem k1_pay5_apply (x0 : Vec Ideal S3000x128 .f32) (x1 x2 : Vec Ideal S1x128 .f32) (x3 : Vec Ideal S128x64 .f32)
    (s : Vec Ideal S1x64 .f32) (u : Fin 1) (n : Fin 64) :
    k1_pay5 (F := Ideal) x0 x1 x2 x3 s (ix2 u n) = s (ix2 u n) + ∑ r : Fin 3000, k1_pay4 (F := Ideal) x0 x1 x2 x3 (ix2 r n) := by
  unfold k1_pay5
  rw [shapeCast_self]
  exact congrArg (s (ix2 u n) + ·) (colsum1_apply _ _ _ _ _ u n)

/-- Scratch row 1 after a point: what it held plus the column sums of the squares of the point's product block. -/
theorem k1_pay16_apply (x0 : Vec Ideal S3000x128 .f32) (x1 x2 : Vec Ideal S1x128 .f32) (x3 : Vec Ideal S128x64 .f32)
    (s : Vec Ideal S1x64 .f32) (u : Fin 1) (n : Fin 64) :
    k1_pay1 (F := Ideal) (k1_pay6 (F := Ideal) x0 x1 x2 x3 s) (ix2 u n)
      = s (ix2 u n) + ∑ r : Fin 3000, k1_pay4 (F := Ideal) x0 x1 x2 x3 (ix2 r n) * k1_pay4 (F := Ideal) x0 x1 x2 x3 (ix2 r n) := by
  unfold k1_pay1 k1_pay6
  rw [shapeCast_self]
  exact congrArg (s (ix2 u n) + ·) (colsum1_apply _ _ _ _ _ u n)

/-- The two zero rows the first point stores. -/
theorem k1_pay2_apply (u : Fin 1) (n : Fin 64) : k1_pay2 (F := Ideal) (ix2 u n) = 0 := by
  unfold k1_pay2
  rw [shapeCast_self]
  exact Ideal.ofBits_zero_f32
theorem k1_pay3_apply (u : Fin 1) (n : Fin 64) : k1_pay3 (F := Ideal) (ix2 u n) = 0 := by
  unfold k1_pay3
  rw [shapeCast_self]
  exact Ideal.ofBits_zero_f32

/-! ## The specification: region 1's three results as functions of its four entry arrays

With `X` the [120000,128] input, `sc`, `sh` the [1,128] scale and shift rows and `Wt` the [128,64] weights:
the activated entry `max (X r k · sc k + sh k) 0`, the product `pre r n = Σ k, act r k · Wt k n`, and the column
sums of `pre` and of its squares over all 120000 rows. -/

def act1 (X : FVec Ideal S120000x128 .f32) (sc sh : FVec Ideal S1x128 .f32) (r : Fin 120000) (k : Fin 128) : Ideal .f32 :=
  max (X (ix2 r k) * sc (ix2 (0 : Fin 1) k) + sh (ix2 (0 : Fin 1) k)) 0

def pre1 (X : FVec Ideal S120000x128 .f32) (sc sh : FVec Ideal S1x128 .f32) (Wt : FVec Ideal S128x64 .f32)
    (r : Fin 120000) (n : Fin 64) : Ideal .f32 :=
  ∑ k : Fin 128, act1 X sc sh r k * Wt (ix2 k n)

def G1_4 (X : FVec Ideal S120000x128 .f32) (sc sh : FVec Ideal S1x128 .f32) (Wt : FVec Ideal S128x64 .f32) :
    FVec Ideal S120000x64 .f32 := fun j => pre1 X sc sh Wt (j 0) (j 1)

def G1_5 (X : FVec Ideal S120000x128 .f32) (sc sh : FVec Ideal S1x128 .f32) (Wt : FVec Ideal S128x64 .f32) :
    FVec Ideal S1x64 .f32 := fun j => ∑ r : Fin 120000, pre1 X sc sh Wt r (j 1)

def G1_6 (X : FVec Ideal S120000x128 .f32) (sc sh : FVec Ideal S1x128 .f32) (Wt : FVec Ideal S128x64 .f32) :
    FVec Ideal S1x64 .f32 := fun j => ∑ r : Fin 120000, pre1 X sc sh Wt r (j 1) * pre1 X sc sh Wt r (j 1)

theorem G1_4_apply (X : FVec Ideal S120000x128 .f32) (sc sh : FVec Ideal S1x128 .f32) (Wt : FVec Ideal S128x64 .f32)
    (r : Fin 120000) (n : Fin 64) : G1_4 X sc sh Wt (ix2 r n) = pre1 X sc sh Wt r n := rfl
theorem G1_5_apply (X : FVec Ideal S120000x128 .f32) (sc sh : FVec Ideal S1x128 .f32) (Wt : FVec Ideal S128x64 .f32)
    (u : Fin 1) (n : Fin 64) : G1_5 X sc sh Wt (ix2 u n) = ∑ r : Fin 120000, pre1 X sc sh Wt r n := rfl
theorem G1_6_apply (X : FVec Ideal S120000x128 .f32) (sc sh : FVec Ideal S1x128 .f32) (Wt : FVec Ideal S128x64 .f32)
    (u : Fin 1) (n : Fin 64) : G1_6 X sc sh Wt (ix2 u n) = ∑ r : Fin 120000, pre1 X sc sh Wt r n * pre1 X sc sh Wt r n := rfl

/-- The 120000 rows are 40 blocks of 3000. -/
theorem h40_r1 : 40 * 3000 = 120000 := by norm_num

/-- One block's share of a column sum of the products, and of their squares. -/
def gS1 (X : FVec Ideal S120000x128 .f32) (sc sh : FVec Ideal S1x128 .f32) (Wt : FVec Ideal S128x64 .f32) (n : Fin 64) :
    Fin 40 → Ideal .f32 :=
  fun t => ∑ q : Fin 3000, (fun r : Fin 120000 => pre1 X sc sh Wt r n) ⟨t.val * 3000 + q.val, Cert.LibBlockSum.row_lt_of_eq h40_r1 t q⟩
def gQ1 (X : FVec Ideal S120000x128 .f32) (sc sh : FVec Ideal S1x128 .f32) (Wt : FVec Ideal S128x64 .f32) (n : Fin 64) :
    Fin 40 → Ideal .f32 :=
  fun t => ∑ q : Fin 3000, (fun r : Fin 120000 => pre1 X sc sh Wt r n * pre1 X sc sh Wt r n) ⟨t.val * 3000 + q.val, Cert.LibBlockSum.row_lt_of_eq h40_r1 t q⟩

section AtIdeal
-- the TensorCore's buffer contents when the region is entered, at the extended reals
variable (V : (c : Dev nD) → (b : Ref sig .tc) → Buf (Elt Ideal) ((c : Thread nD τ).loc b))

/-! ## The windows' blocks read at an index -/

/-- The printed index maps, decided over the grid: windows 0 and 4 move down the rows with the point, the other five
    stay at block (0, 0). -/
theorem idx1_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row `q` of the input block at point `t` is row `3000 t + q` of the input. -/
theorem iblk1_0_apply (c : Dev nD) (t : Fin cfg1.N) (q : Fin 3000) (k : Fin 128) (hr : t.val * 3000 + q.val < 120000) :
    (iblk1 V c 0 t : Vec Ideal S3000x128 .f32) (ix2 q k) = (V c (Pipeline.arrRef spec1 0) : FVec Ideal S120000x128 .f32) (ix2 ⟨t.val * 3000 + q.val, hr⟩ k) := by
  obtain ⟨e0, e1, -⟩ := idx1_facts t
  unfold iblk1
  rw [View.read_apply]
  refine congrArg (V c (Pipeline.arrRef spec1 0)) ?_
  funext a
  apply Fin.ext
  match a with
  | ⟨0, _⟩ => show win1_0.index t (0 : Fin 2) * 3000 + 1 * q.val = t.val * 3000 + q.val; omega
  | ⟨1, _⟩ => show win1_0.index t (1 : Fin 2) * 128 + 1 * k.val = k.val; omega

/-- The scale, shift and weight blocks are the whole arrays at every point. -/
theorem iblk1_1_apply (c : Dev nD) (t : Fin cfg1.N) (u : Fin 1) (k : Fin 128) :
    (iblk1 V c 1 t : Vec Ideal S1x128 .f32) (ix2 u k) = (V c (Pipeline.arrRef spec1 1) : FVec Ideal S1x128 .f32) (ix2 (0 : Fin 1) k) := by
  obtain ⟨-, -, e0, e1, -⟩ := idx1_facts t
  unfold iblk1
  rw [View.read_apply]
  refine congrArg (V c (Pipeline.arrRef spec1 1)) ?_
  funext a
  apply Fin.ext
  match a with
  | ⟨0, _⟩ => show win1_1.index t (0 : Fin 2) * 1 + 1 * u.val = 0; omega
  | ⟨1, _⟩ => show win1_1.index t (1 : Fin 2) * 128 + 1 * k.val = k.val; omega

theorem iblk1_2_apply (c : Dev nD) (t : Fin cfg1.N) (u : Fin 1) (k : Fin 128) :
    (iblk1 V c 2 t : Vec Ideal S1x128 .f32) (ix2 u k) = (V c (Pipeline.arrRef spec1 2) : FVec Ideal S1x128 .f32) (ix2 (0 : Fin 1) k) := by
  obtain ⟨-, -, -, -, e0, e1, -⟩ := idx1_facts t
  unfold iblk1
  rw [View.read_apply]
  refine congrArg (V c (Pipeline.arrRef spec1 2)) ?_
  funext a
  apply Fin.ext
  match a with
  | ⟨0, _⟩ => show win1_2.index t (0 : Fin 2) * 1 + 1 * u.val = 0; omega
  | ⟨1, _⟩ => show win1_2.index t (1 : Fin 2) * 128 + 1 * k.val = k.val; omega

theorem iblk1_3_apply (c : Dev nD) (t : Fin cfg1.N) (k : Fin 128) (n : Fin 64) :
    (iblk1 V c 3 t : Vec Ideal S128x64 .f32) (ix2 k n) = (V c (Pipeline.arrRef spec1 3) : FVec Ideal S128x64 .f32) (ix2 k n) := by
  obtain ⟨-, -, -, -, -, -, e0, e1, -⟩ := idx1_facts t
  unfold iblk1
  rw [View.read_apply]
  refine congrArg (V c (Pipeline.arrRef spec1 3)) ?_
  funext a
  apply Fin.ext
  match a with
  | ⟨0, _⟩ => show win1_3.index t (0 : Fin 2) * 128 + 1 * k.val = k.val; omega
  | ⟨1, _⟩ => show win1_3.index t (1 : Fin 2) * 64 + 1 * n.val = n.val; omega

/-- The product block at point `t`, row `q`, is the specification's product at row `3000 t + q`. -/
theorem pre1_block (c : Dev nD) (t : Fin cfg1.N) (q : Fin 3000) (n : Fin 64) (hr : t.val * 3000 + q.val < 120000) :
    k1_pay4 (F := Ideal) (iblk1 V c 0 t) (iblk1 V c 1 t) (iblk1 V c 2 t) (iblk1 V c 3 t) (ix2 q n)
      = pre1 (V c (Pipeline.arrRef spec1 0)) (V c (Pipeline.arrRef spec1 1)) (V c (Pipeline.arrRef spec1 2)) (V c (Pipeline.arrRef spec1 3)) ⟨t.val * 3000 + q.val, hr⟩ n := by
  refine (k1_pay4_apply (iblk1 V c 0 t) (iblk1 V c 1 t) (iblk1 V c 2 t) (iblk1 V c 3 t) q n).trans ?_
  unfold pre1 act1
  refine Finset.sum_congr rfl fun k _ => ?_
  rw [iblk1_0_apply V c t q k hr, iblk1_1_apply V c t (0 : Fin 1) k, iblk1_2_apply V c t (0 : Fin 1) k, iblk1_3_apply V c t k n]

/-! ## What a point leaves, through the payloads -/

/-- Output window 4 after point `t`: the product of the point's blocks. -/
theorem o1_4_at (c : Dev nD) (t : Fin cfg1.N) : (outsAt1 V c t.val t.isLt).1 = k1_pay4 (F := Ideal) (iblk1 V c 0 t) (iblk1 V c 1 t) (iblk1 V c 2 t) (iblk1 V c 3 t) := by
  by_cases h0 : t.val = 0
  · rw [outsAt1_A V c t h0, out1_A_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t)]
  · rw [outsAt1_B V c t h0, out1_B_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2]

/-- Output windows 5 and 6 after point `t` hold what the two scratch rows hold then. -/
theorem o1_5_eq_s0 (c : Dev nD) (t : Fin cfg1.N) : (outsAt1 V c t.val t.isLt).2.1 = (outsAt1 V c t.val t.isLt).2.2.2.1 := by
  by_cases h0 : t.val = 0
  · rw [outsAt1_A V c t h0, out1_A_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t), sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t)]
  · rw [outsAt1_B V c t h0, out1_B_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2]
theorem o1_6_eq_s1 (c : Dev nD) (t : Fin cfg1.N) : (outsAt1 V c t.val t.isLt).2.2.1 = (outsAt1 V c t.val t.isLt).2.2.2.2 := by
  by_cases h0 : t.val = 0
  · rw [outsAt1_A V c t h0, out1_A_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t), sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t)]
  · rw [outsAt1_B V c t h0, out1_B_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2]

/-- The scratch rows after the first point, and after a later one over what the point before left. -/
theorem s1_0_A (c : Dev nD) (t : Fin cfg1.N) (h0 : t.val = 0) :
    (outsAt1 V c t.val t.isLt).2.2.2.1 = k1_pay5 (F := Ideal) (iblk1 V c 0 t) (iblk1 V c 1 t) (iblk1 V c 2 t) (iblk1 V c 3 t) (k1_pay2 (F := Ideal)) := by
  rw [outsAt1_A V c t h0, sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t)]
theorem s1_0_B (c : Dev nD) (t : Fin cfg1.N) (h0 : t.val ≠ 0) :
    (outsAt1 V c t.val t.isLt).2.2.2.1 = k1_pay5 (F := Ideal) (iblk1 V c 0 t) (iblk1 V c 1 t) (iblk1 V c 2 t) (iblk1 V c 3 t) (outsAt1 V c (t.val - 1) (Nat.lt_of_le_of_lt (Nat.sub_le _ _) t.isLt)).2.2.2.1 := by
  rw [outsAt1_B V c t h0, sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2]
theorem s1_1_A (c : Dev nD) (t : Fin cfg1.N) (h0 : t.val = 0) :
    (outsAt1 V c t.val t.isLt).2.2.2.2 = k1_pay1 (F := Ideal) (k1_pay6 (F := Ideal) (iblk1 V c 0 t) (iblk1 V c 1 t) (iblk1 V c 2 t) (iblk1 V c 3 t) (k1_pay3 (F := Ideal))) := by
  rw [outsAt1_A V c t h0, sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hA1_of t h0) (iblk1 V c 0 t) (iblk1 V c 1 t) (iblk1 V c 2 t) (iblk1 V c 3 t)]
theorem s1_1_B (c : Dev nD) (t : Fin cfg1.N) (h0 : t.val ≠ 0) :
    (outsAt1 V c t.val t.isLt).2.2.2.2 = k1_pay1 (F := Ideal) (k1_pay6 (F := Ideal) (iblk1 V c 0 t) (iblk1 V c 1 t) (iblk1 V c 2 t) (iblk1 V c 3 t) (outsAt1 V c (t.val - 1) (Nat.lt_of_le_of_lt (Nat.sub_le _ _) t.isLt)).2.2.2.2) := by
  rw [outsAt1_B V c t h0, sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hB1_of t h0) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2]

/-! ## The scratch rows are running column sums -/

theorem gS1_apply (X : FVec Ideal S120000x128 .f32) (sc sh : FVec Ideal S1x128 .f32) (Wt : FVec Ideal S128x64 .f32) (n : Fin 64) (t : Fin 40) :
    gS1 X sc sh Wt n t = ∑ q : Fin 3000, pre1 X sc sh Wt ⟨t.val * 3000 + q.val, Cert.LibBlockSum.row_lt_of_eq h40_r1 t q⟩ n := rfl
theorem gQ1_apply (X : FVec Ideal S120000x128 .f32) (sc sh : FVec Ideal S1x128 .f32) (Wt : FVec Ideal S128x64 .f32) (n : Fin 64) (t : Fin 40) :
    gQ1 X sc sh Wt n t = ∑ q : Fin 3000, pre1 X sc sh Wt ⟨t.val * 3000 + q.val, Cert.LibBlockSum.row_lt_of_eq h40_r1 t q⟩ n
      * pre1 X sc sh Wt ⟨t.val * 3000 + q.val, Cert.LibBlockSum.row_lt_of_eq h40_r1 t q⟩ n := rfl

/-- After point `p` scratch row 0 holds, in column `n`, the products' column sum over the first `p + 1` blocks of rows:
    zero plus the first block's at the first point, one more block's at each later point. -/
theorem scratch1_0_inv (c : Dev nD) (n : Fin 64) : ∀ (p : ℕ) (hp : p < cfg1.N) (u : Fin 1),
    (outsAt1 V c p hp).2.2.2.1 (ix2 u n) = Cert.LibBlockSum.upTo (gS1 (V c (Pipeline.arrRef spec1 0)) (V c (Pipeline.arrRef spec1 1)) (V c (Pipeline.arrRef spec1 2)) (V c (Pipeline.arrRef spec1 3)) n) (p + 1)
  | 0, hp, u => by
    refine (congrFun (s1_0_A V c ⟨0, hp⟩ rfl) (ix2 u n)).trans ?_
    refine (k1_pay5_apply (iblk1 V c 0 ⟨0, hp⟩) (iblk1 V c 1 ⟨0, hp⟩) (iblk1 V c 2 ⟨0, hp⟩) (iblk1 V c 3 ⟨0, hp⟩) (k1_pay2 (F := Ideal)) u n).trans ?_
    rw [k1_pay2_apply u n, Cert.LibBlockSum.upTo_succ _ 0 (by norm_num), Cert.LibBlockSum.upTo_zero, gS1_apply]
    refine congrArg (0 + ·) ?_
    exact Finset.sum_congr rfl fun q _ => pre1_block V c ⟨0, hp⟩ q n _
  | p + 1, hp, u => by
    refine (congrFun (s1_0_B V c ⟨p + 1, hp⟩ (Nat.succ_ne_zero p)) (ix2 u n)).trans ?_
    refine (k1_pay5_apply (iblk1 V c 0 ⟨p + 1, hp⟩) (iblk1 V c 1 ⟨p + 1, hp⟩) (iblk1 V c 2 ⟨p + 1, hp⟩) (iblk1 V c 3 ⟨p + 1, hp⟩) _ u n).trans ?_
    rw [Cert.LibBlockSum.upTo_succ _ (p + 1) (lt_of_lt_of_eq hp N_1), gS1_apply]
    refine congrArg₂ (· + ·) (scratch1_0_inv c n p (Nat.lt_of_succ_lt hp) u) ?_
    exact Finset.sum_congr rfl fun q _ => pre1_block V c ⟨p + 1, hp⟩ q n _

/-- Scratch row 1 likewise holds the squares' column sum over the first `p + 1` blocks. -/
theorem scratch1_1_inv (c : Dev nD) (n : Fin 64) : ∀ (p : ℕ) (hp : p < cfg1.N) (u : Fin 1),
    (outsAt1 V c p hp).2.2.2.2 (ix2 u n) = Cert.LibBlockSum.upTo (gQ1 (V c (Pipeline.arrRef spec1 0)) (V c (Pipeline.arrRef spec1 1)) (V c (Pipeline.arrRef spec1 2)) (V c (Pipeline.arrRef spec1 3)) n) (p + 1)
  | 0, hp, u => by
    refine (congrFun (s1_1_A V c ⟨0, hp⟩ rfl) (ix2 u n)).trans ?_
    refine (k1_pay16_apply (iblk1 V c 0 ⟨0, hp⟩) (iblk1 V c 1 ⟨0, hp⟩) (iblk1 V c 2 ⟨0, hp⟩) (iblk1 V c 3 ⟨0, hp⟩) (k1_pay3 (F := Ideal)) u n).trans ?_
    rw [k1_pay3_apply u n, Cert.LibBlockSum.upTo_succ _ 0 (by norm_num), Cert.LibBlockSum.upTo_zero, gQ1_apply]
    refine congrArg (0 + ·) ?_
    exact Finset.sum_congr rfl fun q _ => congrArg₂ (· * ·) (pre1_block V c ⟨0, hp⟩ q n _) (pre1_block V c ⟨0, hp⟩ q n _)
  | p + 1, hp, u => by
    refine (congrFun (s1_1_B V c ⟨p + 1, hp⟩ (Nat.succ_ne_zero p)) (ix2 u n)).trans ?_
    refine (k1_pay16_apply (iblk1 V c 0 ⟨p + 1, hp⟩) (iblk1 V c 1 ⟨p + 1, hp⟩) (iblk1 V c 2 ⟨p + 1, hp⟩) (iblk1 V c 3 ⟨p + 1, hp⟩) _ u n).trans ?_
    rw [Cert.LibBlockSum.upTo_succ _ (p + 1) (lt_of_lt_of_eq hp N_1), gQ1_apply]
    refine congrArg₂ (· + ·) (scratch1_1_inv c n p (Nat.lt_of_succ_lt hp) u) ?_
    exact Finset.sum_congr rfl fun q _ => congrArg₂ (· * ·) (pre1_block V c ⟨p + 1, hp⟩ q n _) (pre1_block V c ⟨p + 1, hp⟩ q n _)

/-! ## From blocks to the arrays -/

/-- An index of output 4's array is in point `t`'s block iff each coordinate is in the block's range on its axis. -/
theorem mem_blk1_4 (t : Fin cfg1.N) (i : S120000x64.Idx) :
    i ∈ ((cfg1.win 4).blk t).view.set ↔ ∀ a : Fin 2, win1_4.index t a * S3000x64.size a ≤ (i a).val ∧ (i a).val < win1_4.index t a * S3000x64.size a + S3000x64.size a := by
  show i ∈ ((View.whole main_v154_0).slice (win1_4.rect t)).set ↔ _
  rw [View.set_slice_whole, Rect.mem_set_unit]
  exact Iff.rfl

/-- An index of output 5's array is in point `t`'s block iff each coordinate is in the block's range on its axis. -/
theorem mem_blk1_5 (t : Fin cfg1.N) (i : S1x64.Idx) :
    i ∈ ((cfg1.win 5).blk t).view.set ↔ ∀ a : Fin 2, win1_5.index t a * S1x64.size a ≤ (i a).val ∧ (i a).val < win1_5.index t a * S1x64.size a + S1x64.size a := by
  show i ∈ ((View.whole main_v154_1).slice (win1_5.rect t)).set ↔ _
  rw [View.set_slice_whole, Rect.mem_set_unit]
  exact Iff.rfl

/-- An index of output 6's array is in point `t`'s block iff each coordinate is in the block's range on its axis. -/
theorem mem_blk1_6 (t : Fin cfg1.N) (i : S1x64.Idx) :
    i ∈ ((cfg1.win 6).blk t).view.set ↔ ∀ a : Fin 2, win1_6.index t a * S1x64.size a ≤ (i a).val ∧ (i a).val < win1_6.index t a * S1x64.size a + S1x64.size a := by
  show i ∈ ((View.whole main_v154_2).slice (win1_6.rect t)).set ↔ _
  rw [View.set_slice_whole, Rect.mem_set_unit]
  exact Iff.rfl

/-- What point `t` writes back of output window 4 is block `t` of the specification's products. -/
theorem flushed1_4_eq (c : Dev nD) (t : Fin cfg1.N) :
    (dat1 (F := Ideal) V c).flushed 4 t = ((cfg1.win 4).blk t).view.read (Elt Ideal) (G1_4 (V c (Pipeline.arrRef spec1 0)) (V c (Pipeline.arrRef spec1 1)) (V c (Pipeline.arrRef spec1 2)) (V c (Pipeline.arrRef spec1 3))) := by
  have hN : cfg1.N = 40 := N_1
  show (cfg1.win 4).cut (grid1.coords t) ((dat1 (F := Ideal) V c).after 4 t) = _
  rw [after1_4, o1_4_at V c t]
  obtain ⟨i00, i01, i10, i11, i20, i21, i30, i31, i40, i41, i50, i51, i60, i61⟩ := idx1_facts t
  funext y
  obtain ⟨q, n, rfl⟩ : ∃ (q : Fin 3000) (n : Fin 64), y = ix2 q n := ⟨y 0, y 1, eq_ix2 y⟩
  have hr : t.val * 3000 + q.val < 120000 := by have h1 := t.isLt; have h2 := q.isLt; omega
  refine (pre1_block V c t q n hr).trans ?_
  rw [View.read_apply]
  refine Eq.trans ?_ (cast_eq _ _).symm
  unfold G1_4
  refine congrArg₂ (pre1 (V c (Pipeline.arrRef spec1 0)) (V c (Pipeline.arrRef spec1 1)) (V c (Pipeline.arrRef spec1 2)) (V c (Pipeline.arrRef spec1 3))) (Fin.ext ?_) (Fin.ext ?_)
  · show t.val * 3000 + q.val = win1_4.index t (0 : Fin 2) * 3000 + 1 * q.val; omega
  · show n.val = win1_4.index t (1 : Fin 2) * 64 + 1 * n.val; omega

/-- Output 4's array ends at the specification's products: row `r` lies in the block of point `r / 3000`. -/
theorem final1_4 (c : Dev nD) : (dat1 (F := Ideal) V c).arrAt 4 cfg1.N = G1_4 (V c (Pipeline.arrRef spec1 0)) (V c (Pipeline.arrRef spec1 1)) (V c (Pipeline.arrRef spec1 2)) (V c (Pipeline.arrRef spec1 3)) :=
  (dat1 (F := Ideal) V c).arrAt_eq_of_cover 4 (G1_4 (V c (Pipeline.arrRef spec1 0)) (V c (Pipeline.arrRef spec1 1)) (V c (Pipeline.arrRef spec1 2)) (V c (Pipeline.arrRef spec1 3))) (fun t _ => flushed1_4_eq V c t) fun i => by
    have hi0 : (i 0).val < 120000 := (i 0).isLt
    have hi1 : (i 1).val < 64 := (i 1).isLt
    have hN : cfg1.N = 40 := N_1
    let t : Fin cfg1.N := ⟨(i 0).val / 3000, by omega⟩
    have ht : t.val = (i 0).val / 3000 := rfl
    obtain ⟨i00, i01, i10, i11, i20, i21, i30, i31, i40, i41, i50, i51, i60, i61⟩ := idx1_facts t
    refine ⟨t, flush1_4 t, ?_⟩
    rw [mem_blk1_4]
    intro a
    match a with
    | ⟨0, _⟩ => show win1_4.index t (0 : Fin 2) * 3000 ≤ (i 0).val ∧ (i 0).val < win1_4.index t (0 : Fin 2) * 3000 + 3000; omega
    | ⟨1, _⟩ => show win1_4.index t (1 : Fin 2) * 64 ≤ (i 1).val ∧ (i 1).val < win1_4.index t (1 : Fin 2) * 64 + 64; omega

/-- The one write-back of output window 5, at the last point, writes the products' column sums over all 120000 rows:
    the running sum after the 40th block is the whole sum, and block (0, 0) of a [1,64] array is the array. -/
theorem flushed1_5_eq (c : Dev nD) (t : Fin cfg1.N) (hf : (cfg1.win 5).flush t = true) :
    (dat1 (F := Ideal) V c).flushed 5 t = ((cfg1.win 5).blk t).view.read (Elt Ideal) (G1_5 (V c (Pipeline.arrRef spec1 0)) (V c (Pipeline.arrRef spec1 1)) (V c (Pipeline.arrRef spec1 2)) (V c (Pipeline.arrRef spec1 3))) := by
  have hN : cfg1.N = 40 := N_1
  have h39 : t.val = 39 := by have h1 := (flush1_5 t).mp hf; have h2 := t.isLt; omega
  show (cfg1.win 5).cut (grid1.coords t) ((dat1 (F := Ideal) V c).after 5 t) = _
  rw [after1_5, o1_5_eq_s0 V c t]
  obtain ⟨i00, i01, i10, i11, i20, i21, i30, i31, i40, i41, i50, i51, i60, i61⟩ := idx1_facts t
  funext y
  obtain ⟨u, n, rfl⟩ : ∃ (u : Fin 1) (n : Fin 64), y = ix2 u n := ⟨y 0, y 1, eq_ix2 y⟩
  refine (scratch1_0_inv V c n t.val t.isLt u).trans ?_
  rw [h39]
  refine (Cert.LibBlockSum.upTo_blocks h40_r1 (fun r : Fin 120000 => pre1 (V c (Pipeline.arrRef spec1 0)) (V c (Pipeline.arrRef spec1 1)) (V c (Pipeline.arrRef spec1 2)) (V c (Pipeline.arrRef spec1 3)) r n)).trans ?_
  rw [View.read_apply]
  refine Eq.trans ?_ (cast_eq _ _).symm
  unfold G1_5
  have hn : (((cfg1.win 5).blk t).view.emb (ix2 u n)) 1 = n := Fin.ext (by
    show win1_5.index t (1 : Fin 2) * 64 + 1 * n.val = n.val; omega)
  rw [hn]

/-- Output 5's array ends at the products' column sums: the last point's block covers it. -/
theorem final1_5 (c : Dev nD) : (dat1 (F := Ideal) V c).arrAt 5 cfg1.N = G1_5 (V c (Pipeline.arrRef spec1 0)) (V c (Pipeline.arrRef spec1 1)) (V c (Pipeline.arrRef spec1 2)) (V c (Pipeline.arrRef spec1 3)) :=
  (dat1 (F := Ideal) V c).arrAt_eq_of_cover 5 (G1_5 (V c (Pipeline.arrRef spec1 0)) (V c (Pipeline.arrRef spec1 1)) (V c (Pipeline.arrRef spec1 2)) (V c (Pipeline.arrRef spec1 3))) (fun t hf => flushed1_5_eq V c t hf) fun i => by
    have hi0 : (i 0).val < 1 := (i 0).isLt
    have hi1 : (i 1).val < 64 := (i 1).isLt
    have hN : cfg1.N = 40 := N_1
    let t : Fin cfg1.N := ⟨39, by omega⟩
    obtain ⟨i00, i01, i10, i11, i20, i21, i30, i31, i40, i41, i50, i51, i60, i61⟩ := idx1_facts t
    refine ⟨t, (flush1_5 t).mpr rfl, ?_⟩
    rw [mem_blk1_5]
    intro a
    match a with
    | ⟨0, _⟩ => show win1_5.index t (0 : Fin 2) * 1 ≤ (i 0).val ∧ (i 0).val < win1_5.index t (0 : Fin 2) * 1 + 1; omega
    | ⟨1, _⟩ => show win1_5.index t (1 : Fin 2) * 64 ≤ (i 1).val ∧ (i 1).val < win1_5.index t (1 : Fin 2) * 64 + 64; omega

/-- The one write-back of output window 6, at the last point, writes the squares' column sums over all 120000 rows:
    the running sum after the 40th block is the whole sum, and block (0, 0) of a [1,64] array is the array. -/
theorem flushed1_6_eq (c : Dev nD) (t : Fin cfg1.N) (hf : (cfg1.win 6).flush t = true) :
    (dat1 (F := Ideal) V c).flushed 6 t = ((cfg1.win 6).blk t).view.read (Elt Ideal) (G1_6 (V c (Pipeline.arrRef spec1 0)) (V c (Pipeline.arrRef spec1 1)) (V c (Pipeline.arrRef spec1 2)) (V c (Pipeline.arrRef spec1 3))) := by
  have hN : cfg1.N = 40 := N_1
  have h39 : t.val = 39 := by have h1 := (flush1_6 t).mp hf; have h2 := t.isLt; omega
  show (cfg1.win 6).cut (grid1.coords t) ((dat1 (F := Ideal) V c).after 6 t) = _
  rw [after1_6, o1_6_eq_s1 V c t]
  obtain ⟨i00, i01, i10, i11, i20, i21, i30, i31, i40, i41, i50, i51, i60, i61⟩ := idx1_facts t
  funext y
  obtain ⟨u, n, rfl⟩ : ∃ (u : Fin 1) (n : Fin 64), y = ix2 u n := ⟨y 0, y 1, eq_ix2 y⟩
  refine (scratch1_1_inv V c n t.val t.isLt u).trans ?_
  rw [h39]
  refine (Cert.LibBlockSum.upTo_blocks h40_r1 (fun r : Fin 120000 => pre1 (V c (Pipeline.arrRef spec1 0)) (V c (Pipeline.arrRef spec1 1)) (V c (Pipeline.arrRef spec1 2)) (V c (Pipeline.arrRef spec1 3)) r n * pre1 (V c (Pipeline.arrRef spec1 0)) (V c (Pipeline.arrRef spec1 1)) (V c (Pipeline.arrRef spec1 2)) (V c (Pipeline.arrRef spec1 3)) r n)).trans ?_
  rw [View.read_apply]
  refine Eq.trans ?_ (cast_eq _ _).symm
  unfold G1_6
  have hn : (((cfg1.win 6).blk t).view.emb (ix2 u n)) 1 = n := Fin.ext (by
    show win1_6.index t (1 : Fin 2) * 64 + 1 * n.val = n.val; omega)
  rw [hn]

/-- Output 6's array ends at the squares' column sums: the last point's block covers it. -/
theorem final1_6 (c : Dev nD) : (dat1 (F := Ideal) V c).arrAt 6 cfg1.N = G1_6 (V c (Pipeline.arrRef spec1 0)) (V c (Pipeline.arrRef spec1 1)) (V c (Pipeline.arrRef spec1 2)) (V c (Pipeline.arrRef spec1 3)) :=
  (dat1 (F := Ideal) V c).arrAt_eq_of_cover 6 (G1_6 (V c (Pipeline.arrRef spec1 0)) (V c (Pipeline.arrRef spec1 1)) (V c (Pipeline.arrRef spec1 2)) (V c (Pipeline.arrRef spec1 3))) (fun t hf => flushed1_6_eq V c t hf) fun i => by
    have hi0 : (i 0).val < 1 := (i 0).isLt
    have hi1 : (i 1).val < 64 := (i 1).isLt
    have hN : cfg1.N = 40 := N_1
    let t : Fin cfg1.N := ⟨39, by omega⟩
    obtain ⟨i00, i01, i10, i11, i20, i21, i30, i31, i40, i41, i50, i51, i60, i61⟩ := idx1_facts t
    refine ⟨t, (flush1_6 t).mpr rfl, ?_⟩
    rw [mem_blk1_6]
    intro a
    match a with
    | ⟨0, _⟩ => show win1_6.index t (0 : Fin 2) * 1 ≤ (i 0).val ∧ (i 0).val < win1_6.index t (0 : Fin 2) * 1 + 1; omega
    | ⟨1, _⟩ => show win1_6.index t (1 : Fin 2) * 64 ≤ (i 1).val ∧ (i 1).val < win1_6.index t (1 : Fin 2) * 64 + 64; omega

end AtIdeal

end Cert.KernelIdeal.Hand

end
-- ==== Proof.KI.Value2.lean ====
/- The value of region 2 of @main at the extended reals: after the pointwise kernel `cc2__bn_relu_kernel` has run over its
   40 grid points, the output array holds, at row r and column n, max(x[r,n] * scale[0,n] + shift[0,n], 0) of the
   three arrays the region was entered with. Point t writes back rows 3000·t … 3000·t + 2999, so the point whose
   block covers row r is r / 3000, and the 40 blocks tile the 120000 rows. -/
import proofs.«143519_j50869592655552_1_alg».proof.Proof.KI.Region2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the TensorCore's buffer contents when the region is entered, at the extended reals
variable (V : (c : Dev nD) → (b : Ref sig .tc) → Buf (Elt Ideal) ((c : Thread nD τ).loc b))

/-! ## The specification -/

/-- Scale, shift and clamp at zero, one element: the column's scale and shift are read off the single row. -/
def bnRelu2 (X : S120000x64.Idx → EReal) (sc : S1x64.Idx → EReal) (sh : S1x64.Idx → EReal) : S120000x64.Idx → EReal :=
  fun i => max (X i * sc (ix2 (0 : Fin 1) (i 1)) + sh (ix2 (0 : Fin 1) (i 1))) 0

/-- The specification at explicit coordinates. -/
theorem bnRelu2_apply (X : S120000x64.Idx → EReal) (sc : S1x64.Idx → EReal) (sh : S1x64.Idx → EReal) (r : Fin 120000) (n : Fin 64) :
    bnRelu2 X sc sh (ix2 r n) = max (X (ix2 r n) * sc (ix2 (0 : Fin 1) n) + sh (ix2 (0 : Fin 1) n)) 0 := rfl

/-! ## The body's payload at an index -/

theorem bnrZeros2 : (![0, 0] : Fin 2 → Nat) = fun _ => 0 := funext fun a => by fin_cases a <;> rfl

/-- The payload of the body's one store, at row p and column n of the block: the same-shape casts are the identity,
    the two row broadcasts read the single row at column n, the constant is the zero word. -/
theorem bnrPay2_apply (x0 : Vec Ideal S3000x64 .f32) (x1 : Vec Ideal S1x64 .f32) (x2 : Vec Ideal S1x64 .f32) (p : Fin 3000) (n : Fin 64) :
    k2_pay1 x0 x1 x2 (ix2 p n) = max (x0 (ix2 p n) * x1 (ix2 (0 : Fin 1) n) + x2 (ix2 (0 : Fin 1) n)) 0 := by
  unfold k2_pay1
  show max (shapeCast S3000x64 x0 _ (ix2 p n) * broadcastTo S3000x64 (shapeCast S1x64 x1 _) _ (ix2 p n)
      + broadcastTo S3000x64 (shapeCast S1x64 x2 _) _ (ix2 p n)) (Ideal.ofBits .f32 0x00000000#32) = _
  rw [shapeCast_self, shapeCast_self, shapeCast_self, broadcastTo_1b_ab_apply, broadcastTo_1b_ab_apply, Ideal.ofBits_zero_f32]

/-! ## From blocks to the array -/

/-- The printed index maps, decided over the grid: the input and output row blocks move together, point t at block
    row t; the single-row windows sit still. -/
theorem bnrIdxFacts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of point t's block of a row-blocked window is row 3000·t + p of its array. -/
def bnrRowAt2 (t : Fin cfg2.N) (p : Fin 3000) : Fin 120000 :=
  ⟨t.val * 3000 + p.val, by have ht : t.val < 40 := t.isLt; have := p.isLt; omega⟩

/-- Input window 0's block at point t, at row p and column n: the array at row 3000·t + p. -/
theorem bnrIblk2_0_apply (c : Dev nD) (t : Fin cfg2.N) (p : Fin 3000) (n : Fin 64) :
    iblk2 V c 0 t (ix2 p n) = (V c (Pipeline.arrRef spec2 0) : S120000x64.Idx → EReal) (ix2 (bnrRowAt2 t p) n) := by
  obtain ⟨e00, e01, -⟩ := bnrIdxFacts2 t
  show (V c (Pipeline.arrRef spec2 0) : S120000x64.Idx → EReal) (((cfg2.win 0).blk t).view.emb (ix2 p n)) = _
  refine congrArg (V c (Pipeline.arrRef spec2 0) : S120000x64.Idx → EReal) (funext fun a => Fin.ext ?_)
  match a with
  | ⟨0, _⟩ => show win2_0.index t (0 : Fin 2) * 3000 + 1 * p.val = t.val * 3000 + p.val; omega
  | ⟨1, _⟩ => show win2_0.index t (1 : Fin 2) * 64 + 1 * n.val = n.val; omega

/-- Input window 1's block at any point is the whole single row. -/
theorem bnrIblk2_1_apply (c : Dev nD) (t : Fin cfg2.N) (n : Fin 64) :
    iblk2 V c 1 t (ix2 (0 : Fin 1) n) = (V c (Pipeline.arrRef spec2 1) : S1x64.Idx → EReal) (ix2 (0 : Fin 1) n) := by
  obtain ⟨-, -, e10, e11, -⟩ := bnrIdxFacts2 t
  show (V c (Pipeline.arrRef spec2 1) : S1x64.Idx → EReal) (((cfg2.win 1).blk t).view.emb (ix2 (0 : Fin 1) n)) = _
  refine congrArg (V c (Pipeline.arrRef spec2 1) : S1x64.Idx → EReal) (funext fun a => Fin.ext ?_)
  match a with
  | ⟨0, _⟩ => show win2_1.index t (0 : Fin 2) * 1 + 1 * 0 = 0; omega
  | ⟨1, _⟩ => show win2_1.index t (1 : Fin 2) * 64 + 1 * n.val = n.val; omega

/-- Input window 2's block at any point is the whole single row. -/
theorem bnrIblk2_2_apply (c : Dev nD) (t : Fin cfg2.N) (n : Fin 64) :
    iblk2 V c 2 t (ix2 (0 : Fin 1) n) = (V c (Pipeline.arrRef spec2 2) : S1x64.Idx → EReal) (ix2 (0 : Fin 1) n) := by
  obtain ⟨-, -, -, -, e20, e21, -⟩ := bnrIdxFacts2 t
  show (V c (Pipeline.arrRef spec2 2) : S1x64.Idx → EReal) (((cfg2.win 2).blk t).view.emb (ix2 (0 : Fin 1) n)) = _
  refine congrArg (V c (Pipeline.arrRef spec2 2) : S1x64.Idx → EReal) (funext fun a => Fin.ext ?_)
  match a with
  | ⟨0, _⟩ => show win2_2.index t (0 : Fin 2) * 1 + 1 * 0 = 0; omega
  | ⟨1, _⟩ => show win2_2.index t (1 : Fin 2) * 64 + 1 * n.val = n.val; omega

/-- Output window 3's block at point t of any array, at row p and column n: the array at row 3000·t + p. -/
theorem bnrReadBlk2_3_apply (G : S120000x64.Idx → EReal) (t : Fin cfg2.N) (p : Fin 3000) (n : Fin 64) :
    ((cfg2.win 3).blk t).view.read (Elt Ideal) G (ix2 p n) = G (ix2 (bnrRowAt2 t p) n) := by
  obtain ⟨-, -, -, -, -, -, e30, e31⟩ := bnrIdxFacts2 t
  show G (((cfg2.win 3).blk t).view.emb (ix2 p n)) = _
  refine congrArg G (funext fun a => Fin.ext ?_)
  match a with
  | ⟨0, _⟩ => show win2_3.index t (0 : Fin 2) * 3000 + 1 * p.val = t.val * 3000 + p.val; omega
  | ⟨1, _⟩ => show win2_3.index t (1 : Fin 2) * 64 + 1 * n.val = n.val; omega

/-- What point `t` writes back is block `t` of the specification of the arrays as the region finds them. -/
theorem bnrFlushed2_3_eq (c : Dev nD) (t : Fin cfg2.N) :
    (dat2 (F := Ideal) V c).flushed 3 t = ((cfg2.win 3).blk t).view.read (Elt Ideal)
      (bnRelu2 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero bnrZeros2]
  simp only [View.ld_unit_zero (S := S3000x64) bnrZeros2, View.ld_unit_zero (S := S1x64) bnrZeros2]
  funext j
  obtain ⟨p, n, rfl⟩ : ∃ (p : Fin 3000) (n : Fin 64), j = ix2 p n := ⟨j 0, j 1, eq_ix2 j⟩
  refine (bnrPay2_apply _ _ _ p n).trans ?_
  rw [bnrIblk2_0_apply, bnrIblk2_1_apply, bnrIblk2_2_apply]
  exact (bnrReadBlk2_3_apply
    (bnRelu2 (V c (Pipeline.arrRef spec2 0)) (V c (Pipeline.arrRef spec2 1)) (V c (Pipeline.arrRef spec2 2))) t p n).symm

/-- An index of the array is in point `t`'s block iff each coordinate is in the block's range on its axis. -/
theorem bnrMemBlk2_3 (t : Fin cfg2.N) (i : S120000x64.Idx) :
    i ∈ ((cfg2.win 3).blk t).view.set ↔ ∀ a : Fin 2, win2_3.index t a * S3000x64.size a ≤ (i a).val ∧ (i a).val < win2_3.index t a * S3000x64.size a + S3000x64.size a := by
  show i ∈ ((View.whole main_v169).slice (win2_3.rect t)).set ↔ _
  rw [View.set_slice_whole, Rect.mem_set_unit]
  exact Iff.rfl

/-- Every index of the array is in some point's block: row r in the block of point r / 3000. -/
theorem bnrCovered2_3 (i : S120000x64.Idx) :
    ∃ t : Fin cfg2.N, (cfg2.win 3).flush t = true ∧ i ∈ ((cfg2.win 3).blk t).view.set := by
  have hi0 : (i 0).val < 120000 := (i 0).isLt
  have hi1 : (i 1).val < 64 := (i 1).isLt
  have hN : cfg2.N = 40 := rfl
  have ht : (i 0).val / 3000 < cfg2.N := by rw [hN]; omega
  obtain ⟨-, -, -, -, -, -, e30, e31⟩ := bnrIdxFacts2 ⟨(i 0).val / 3000, ht⟩
  refine ⟨⟨(i 0).val / 3000, ht⟩, flush2_3 _, ?_⟩
  rw [bnrMemBlk2_3]
  intro a
  match a with
  | ⟨0, _⟩ =>
    show win2_3.index ⟨(i 0).val / 3000, ht⟩ (0 : Fin 2) * 3000 ≤ (i 0).val ∧ (i 0).val < win2_3.index ⟨(i 0).val / 3000, ht⟩ (0 : Fin 2) * 3000 + 3000
    rw [e30]; show (i 0).val / 3000 * 3000 ≤ (i 0).val ∧ (i 0).val < (i 0).val / 3000 * 3000 + 3000; omega
  | ⟨1, _⟩ =>
    show win2_3.index ⟨(i 0).val / 3000, ht⟩ (1 : Fin 2) * 64 ≤ (i 1).val ∧ (i 1).val < win2_3.index ⟨(i 0).val / 3000, ht⟩ (1 : Fin 2) * 64 + 64
    rw [e31]; omega

/-- The output array after the region: the specification of the three arrays the region was entered with. -/
theorem final2_3 (c : Dev nD) : (dat2 (F := Ideal) V c).arrAt 3 cfg2.N
    = bnRelu2 (V c (Pipeline.arrRef spec2 0)) (V c (Pipeline.arrRef spec2 1)) (V c (Pipeline.arrRef spec2 2)) :=
  (dat2 (F := Ideal) V c).arrAt_eq_of_cover 3 _ (fun t _ => bnrFlushed2_3_eq V c t) bnrCovered2_3

end Cert.KernelIdeal.Hand

end
-- ==== Proof.LibBatchNormFold.lean ====
/-
  Training-mode batch normalisation of one column, written two ways, on the extended reals.

  A column is a finite family of REAL numbers x i (i : ι), read into EReal by the coercion; n is the
  number of rows as a real, (Fintype.card ι : ℝ) = n, n ≠ 0; g, b are the real scale and shift; ε > 0 is the
  real the stabilising constant denotes. The division is the extended reals' Ideal.div and the reciprocal
  square root Ideal.rsqrt; sums, differences and products are EReal's own.

    two-pass form:   m = (Σ x) / n ;  v = (Σ (x - m)·(x - m)) / n ;  y i = ((g · (x i - m)) · rsqrt (v + ε)) + b
    one-pass form:   m = (Σ x) / n ;  w = (Σ x·x) / n - m·m ;  s = g · rsqrt (w + ε) ;  t = b - m·s ;
                     y i = x i · s + t

  Over the reals v = w (expand the square; Σ_i m = n·m) and v ≥ 0, so v + ε > 0, the reciprocal square root is
  the real (√(v + ε))⁻¹, and the two y i agree by distributivity. None of this holds at an infinity
  (EReal's + and · are not distributive there), so every statement is about coerced reals and is proved by
  moving the coercion outwards, step by step, until an identity of reals is left.

  What is here:
    coe_sum, coe_sum_univ            a finite sum of coerced reals is the coerced sum
    var_two_ways, var_nonneg         v = w and 0 ≤ v, over ℝ
    div_coe, rsqrt_coe_pos           Ideal.div and Ideal.rsqrt on coerced reals
    mean_coe, var_centred_coe, var_moment_coe      each stage of the two forms is a coerced real
    two_pass_coe, one_pass_coe       each y i is a coerced real, in closed form
    bn_column_eq                     the two y i are equal
    bn_column_real, max_coe_zero, max_zero_real     the common value is a coerced real, and so is its max with 0
    two_pass_point_coe, one_pass_point_coe, point_eq     the pointwise step alone, from a real mean and variance
-/
import Mathlib.Tactic
import Idealize.ShloMosaic.PureOps.Ideal

noncomputable section

namespace Cert.LibBatchNormFold

open Idealize.ShloMosaic
open scoped BigOperators

variable {ι : Type*}

/-! ### Sums of coerced reals -/

/-- A finite sum of coerced reals is the coerced sum. -/
theorem coe_sum (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same over a whole finite index type. -/
theorem coe_sum_univ [Fintype ι] (f : ι → ℝ) :
    (∑ i, ((f i : ℝ) : EReal)) = ((∑ i, f i : ℝ) : EReal) :=
  coe_sum Finset.univ f

/-! ### The variance, over the reals -/

/-- The mean of the squared deviations from the mean is the mean of the squares minus the squared mean:
    expand (x i - m)² = x i² - 2·m·x i + m², sum, and use Σ_i m² = n·m² and Σ_i x i = n·m. -/
theorem var_two_ways [Fintype ι] (x : ι → ℝ) {n : ℝ} (hn : (Fintype.card ι : ℝ) = n) (hn0 : n ≠ 0) :
    (∑ i, (x i - (∑ j, x j) / n) * (x i - (∑ j, x j) / n)) / n
      = (∑ i, x i * x i) / n - ((∑ j, x j) / n) * ((∑ j, x j) / n) := by
  have h1 : ∀ m : ℝ, ∑ i, (x i - m) * (x i - m) = (∑ i, x i * x i) - 2 * m * (∑ i, x i) + n * (m * m) := by
    intro m
    have h2 : ∀ i, (x i - m) * (x i - m) = x i * x i - 2 * m * x i + m * m := fun i => by ring
    simp only [h2]
    rw [Finset.sum_add_distrib, Finset.sum_sub_distrib, ← Finset.mul_sum, Finset.sum_const, Finset.card_univ,
      nsmul_eq_mul, hn]
  rw [h1]
  field_simp
  ring

/-- A mean of squares is not negative (about any centre m). -/
theorem var_nonneg [Fintype ι] (x : ι → ℝ) (m : ℝ) {n : ℝ} (hn : (Fintype.card ι : ℝ) = n) :
    0 ≤ (∑ i, (x i - m) * (x i - m)) / n := by
  have h0 : (0 : ℝ) ≤ n := hn ▸ Nat.cast_nonneg _
  exact div_nonneg (Finset.sum_nonneg fun i _ => mul_self_nonneg _) h0

/-! ### Division and reciprocal square root on coerced reals -/

/-- The quotient of two coerced reals by a nonzero divisor is the coerced quotient. -/
theorem div_coe (a : ℝ) {n : ℝ} (hn0 : n ≠ 0) :
    Ideal.div ((a : ℝ) : EReal) ((n : ℝ) : EReal) = ((a / n : ℝ) : EReal) := by
  rw [Ideal.div_coe hn0, ← EReal.coe_mul, mul_one_div]

/-- The reciprocal square root of a coerced positive real is the coerced real (√r)⁻¹. -/
theorem rsqrt_coe_pos {r : ℝ} (hr : 0 < r) :
    Ideal.rsqrt ((r : ℝ) : EReal) = (((Real.sqrt r)⁻¹ : ℝ) : EReal) := by
  rw [Ideal.rsqrt_coe, if_neg (not_lt.mpr hr.le), if_neg hr.ne']

/-! ### The stages of the two forms are coerced reals -/

/-- The mean. -/
theorem mean_coe [Fintype ι] (x : ι → ℝ) {n : ℝ} (hn0 : n ≠ 0) :
    Ideal.div (∑ j, ((x j : ℝ) : EReal)) ((n : ℝ) : EReal) = (((∑ j, x j) / n : ℝ) : EReal) := by
  rw [coe_sum_univ, div_coe _ hn0]

/-- The mean of the squared deviations from a real centre m. -/
theorem var_centred_coe [Fintype ι] (x : ι → ℝ) (m : ℝ) {n : ℝ} (hn0 : n ≠ 0) :
    Ideal.div (∑ j, (((x j : ℝ) : EReal) - ((m : ℝ) : EReal)) * (((x j : ℝ) : EReal) - ((m : ℝ) : EReal)))
        ((n : ℝ) : EReal)
      = (((∑ j, (x j - m) * (x j - m)) / n : ℝ) : EReal) := by
  simp only [← EReal.coe_sub, ← EReal.coe_mul]
  rw [coe_sum_univ, div_coe _ hn0]

/-- The mean of the squares minus the square of a real m. -/
theorem var_moment_coe [Fintype ι] (x : ι → ℝ) (m : ℝ) {n : ℝ} (hn0 : n ≠ 0) :
    Ideal.div (∑ j, ((x j : ℝ) : EReal) * ((x j : ℝ) : EReal)) ((n : ℝ) : EReal)
        - ((m : ℝ) : EReal) * ((m : ℝ) : EReal)
      = (((∑ j, x j * x j) / n - m * m : ℝ) : EReal) := by
  simp only [← EReal.coe_mul]
  rw [coe_sum_univ, div_coe _ hn0, ← EReal.coe_sub]

/-! ### Each form is a coerced real, in closed form -/

/-- The two-pass form: with m the mean and v the mean of the squared deviations from m,
    ((g · (x i - m)) · rsqrt (v + ε)) + b is the coerced real g·(x i - m)·(√(v + ε))⁻¹ + b. -/
theorem two_pass_coe [Fintype ι] (x : ι → ℝ) (g b ε n : ℝ) (e : EReal) (he : e = ((ε : ℝ) : EReal)) (hε : 0 < ε)
    (hn : (Fintype.card ι : ℝ) = n) (hn0 : n ≠ 0) (i : ι) :
    (((g : ℝ) : EReal) * (((x i : ℝ) : EReal) - Ideal.div (∑ j, ((x j : ℝ) : EReal)) ((n : ℝ) : EReal)))
        * Ideal.rsqrt
            (Ideal.div
                (∑ k, (((x k : ℝ) : EReal) - Ideal.div (∑ j, ((x j : ℝ) : EReal)) ((n : ℝ) : EReal))
                      * (((x k : ℝ) : EReal) - Ideal.div (∑ j, ((x j : ℝ) : EReal)) ((n : ℝ) : EReal)))
                ((n : ℝ) : EReal)
              + e)
      + ((b : ℝ) : EReal)
    = ((g * (x i - (∑ j, x j) / n)
          * (Real.sqrt ((∑ k, (x k - (∑ j, x j) / n) * (x k - (∑ j, x j) / n)) / n + ε))⁻¹ + b : ℝ) : EReal) := by
  have hv : 0 < (∑ k, (x k - (∑ j, x j) / n) * (x k - (∑ j, x j) / n)) / n + ε :=
    add_pos_of_nonneg_of_pos (var_nonneg x _ hn) hε
  rw [mean_coe x hn0, var_centred_coe x _ hn0, he, ← EReal.coe_add, rsqrt_coe_pos hv, ← EReal.coe_sub,
    ← EReal.coe_mul, ← EReal.coe_mul, ← EReal.coe_add]

/-- The one-pass form: with m the mean, w the mean of the squares minus m·m, s = g · rsqrt (w + ε) and
    t = b - m·s, x i · s + t is the coerced real x i·(g·(√(w + ε))⁻¹) + (b - m·(g·(√(w + ε))⁻¹)). -/
theorem one_pass_coe [Fintype ι] (x : ι → ℝ) (g b ε n : ℝ) (e : EReal) (he : e = ((ε : ℝ) : EReal)) (hε : 0 < ε)
    (hn : (Fintype.card ι : ℝ) = n) (hn0 : n ≠ 0) (i : ι) :
    ((x i : ℝ) : EReal)
        * (((g : ℝ) : EReal)
            * Ideal.rsqrt
                (Ideal.div (∑ k, ((x k : ℝ) : EReal) * ((x k : ℝ) : EReal)) ((n : ℝ) : EReal)
                    - Ideal.div (∑ j, ((x j : ℝ) : EReal)) ((n : ℝ) : EReal)
                      * Ideal.div (∑ j, ((x j : ℝ) : EReal)) ((n : ℝ) : EReal)
                  + e))
      + (((b : ℝ) : EReal)
          - Ideal.div (∑ j, ((x j : ℝ) : EReal)) ((n : ℝ) : EReal)
            * (((g : ℝ) : EReal)
                * Ideal.rsqrt
                    (Ideal.div (∑ k, ((x k : ℝ) : EReal) * ((x k : ℝ) : EReal)) ((n : ℝ) : EReal)
                        - Ideal.div (∑ j, ((x j : ℝ) : EReal)) ((n : ℝ) : EReal)
                          * Ideal.div (∑ j, ((x j : ℝ) : EReal)) ((n : ℝ) : EReal)
                      + e)))
    = ((x i * (g * (Real.sqrt ((∑ k, x k * x k) / n - (∑ j, x j) / n * ((∑ j, x j) / n) + ε))⁻¹)
          + (b - (∑ j, x j) / n
                  * (g * (Real.sqrt ((∑ k, x k * x k) / n - (∑ j, x j) / n * ((∑ j, x j) / n) + ε))⁻¹)) : ℝ)
        : EReal) := by
  have hw : 0 < (∑ k, x k * x k) / n - (∑ j, x j) / n * ((∑ j, x j) / n) + ε := by
    rw [← var_two_ways x hn hn0]
    exact add_pos_of_nonneg_of_pos (var_nonneg x _ hn) hε
  rw [mean_coe x hn0, var_moment_coe x _ hn0, he, ← EReal.coe_add, rsqrt_coe_pos hw, ← EReal.coe_mul,
    ← EReal.coe_mul, ← EReal.coe_mul, ← EReal.coe_sub, ← EReal.coe_add]

/-! ### The two forms agree -/

/-- THE MAIN LEMMA. For a column of reals, real scale and shift, and a positive stabiliser, the two-pass form
    and the one-pass form of the normalised entry are the same extended real: the two variances are one real
    (var_two_ways), it is not negative, and the rest is distributivity in ℝ. -/
theorem bn_column_eq [Fintype ι] (x : ι → ℝ) (g b ε n : ℝ) (e : EReal) (he : e = ((ε : ℝ) : EReal)) (hε : 0 < ε)
    (hn : (Fintype.card ι : ℝ) = n) (hn0 : n ≠ 0) (i : ι) :
    (((g : ℝ) : EReal) * (((x i : ℝ) : EReal) - Ideal.div (∑ j, ((x j : ℝ) : EReal)) ((n : ℝ) : EReal)))
        * Ideal.rsqrt
            (Ideal.div
                (∑ k, (((x k : ℝ) : EReal) - Ideal.div (∑ j, ((x j : ℝ) : EReal)) ((n : ℝ) : EReal))
                      * (((x k : ℝ) : EReal) - Ideal.div (∑ j, ((x j : ℝ) : EReal)) ((n : ℝ) : EReal)))
                ((n : ℝ) : EReal)
              + e)
      + ((b : ℝ) : EReal)
    = ((x i : ℝ) : EReal)
        * (((g : ℝ) : EReal)
            * Ideal.rsqrt
                (Ideal.div (∑ k, ((x k : ℝ) : EReal) * ((x k : ℝ) : EReal)) ((n : ℝ) : EReal)
                    - Ideal.div (∑ j, ((x j : ℝ) : EReal)) ((n : ℝ) : EReal)
                      * Ideal.div (∑ j, ((x j : ℝ) : EReal)) ((n : ℝ) : EReal)
                  + e))
      + (((b : ℝ) : EReal)
          - Ideal.div (∑ j, ((x j : ℝ) : EReal)) ((n : ℝ) : EReal)
            * (((g : ℝ) : EReal)
                * Ideal.rsqrt
                    (Ideal.div (∑ k, ((x k : ℝ) : EReal) * ((x k : ℝ) : EReal)) ((n : ℝ) : EReal)
                        - Ideal.div (∑ j, ((x j : ℝ) : EReal)) ((n : ℝ) : EReal)
                          * Ideal.div (∑ j, ((x j : ℝ) : EReal)) ((n : ℝ) : EReal)
                      + e))) := by
  rw [two_pass_coe x g b ε n e he hε hn hn0 i, one_pass_coe x g b ε n e he hε hn hn0 i, var_two_ways x hn hn0]
  congr 1
  ring

/-- The common value is a coerced real. -/
theorem bn_column_real [Fintype ι] (x : ι → ℝ) (g b ε n : ℝ) (e : EReal) (he : e = ((ε : ℝ) : EReal)) (hε : 0 < ε)
    (hn : (Fintype.card ι : ℝ) = n) (hn0 : n ≠ 0) (i : ι) :
    ∃ r : ℝ,
      ((x i : ℝ) : EReal)
          * (((g : ℝ) : EReal)
              * Ideal.rsqrt
                  (Ideal.div (∑ k, ((x k : ℝ) : EReal) * ((x k : ℝ) : EReal)) ((n : ℝ) : EReal)
                      - Ideal.div (∑ j, ((x j : ℝ) : EReal)) ((n : ℝ) : EReal)
                        * Ideal.div (∑ j, ((x j : ℝ) : EReal)) ((n : ℝ) : EReal)
                    + e))
        + (((b : ℝ) : EReal)
            - Ideal.div (∑ j, ((x j : ℝ) : EReal)) ((n : ℝ) : EReal)
              * (((g : ℝ) : EReal)
                  * Ideal.rsqrt
                      (Ideal.div (∑ k, ((x k : ℝ) : EReal) * ((x k : ℝ) : EReal)) ((n : ℝ) : EReal)
                          - Ideal.div (∑ j, ((x j : ℝ) : EReal)) ((n : ℝ) : EReal)
                            * Ideal.div (∑ j, ((x j : ℝ) : EReal)) ((n : ℝ) : EReal)
                        + e)))
        = ((r : ℝ) : EReal) :=
  ⟨_, one_pass_coe x g b ε n e he hε hn hn0 i⟩

/-! ### After the rectifier -/

/-- The maximum of a coerced real and zero is the coerced maximum. -/
theorem max_coe_zero (r : ℝ) : max ((r : ℝ) : EReal) 0 = ((max r 0 : ℝ) : EReal) := by
  rw [← EReal.coe_zero]
  exact (EReal.coe_strictMono.monotone.map_max).symm

/-- Equal extended reals have equal maxima with zero, and the maximum of a coerced real with zero is a
    coerced real: the rectified entry of either form is the coerced real max r 0, r the common value. -/
theorem max_zero_real {a : EReal} (h : ∃ r : ℝ, a = ((r : ℝ) : EReal)) : ∃ r : ℝ, max a 0 = ((r : ℝ) : EReal) := by
  obtain ⟨r, rfl⟩ := h
  exact ⟨_, max_coe_zero r⟩

/-! ### The pointwise step alone (for a bridge whose mean and variance are already coerced reals) -/

/-- The two-pass entry from a real mean m and a real variance v with v + ε > 0. -/
theorem two_pass_point_coe (xi m v g b ε : ℝ) (hv : 0 < v + ε) :
    (((g : ℝ) : EReal) * (((xi : ℝ) : EReal) - ((m : ℝ) : EReal)))
        * Ideal.rsqrt (((v : ℝ) : EReal) + ((ε : ℝ) : EReal)) + ((b : ℝ) : EReal)
      = ((g * (xi - m) * (Real.sqrt (v + ε))⁻¹ + b : ℝ) : EReal) := by
  rw [← EReal.coe_add, rsqrt_coe_pos hv, ← EReal.coe_sub, ← EReal.coe_mul, ← EReal.coe_mul, ← EReal.coe_add]

/-- The one-pass entry from a real mean m and a real variance w with w + ε > 0. -/
theorem one_pass_point_coe (xi m w g b ε : ℝ) (hw : 0 < w + ε) :
    ((xi : ℝ) : EReal) * (((g : ℝ) : EReal) * Ideal.rsqrt (((w : ℝ) : EReal) + ((ε : ℝ) : EReal)))
        + (((b : ℝ) : EReal)
            - ((m : ℝ) : EReal) * (((g : ℝ) : EReal) * Ideal.rsqrt (((w : ℝ) : EReal) + ((ε : ℝ) : EReal))))
      = ((xi * (g * (Real.sqrt (w + ε))⁻¹) + (b - m * (g * (Real.sqrt (w + ε))⁻¹)) : ℝ) : EReal) := by
  rw [← EReal.coe_add, rsqrt_coe_pos hw, ← EReal.coe_mul, ← EReal.coe_mul, ← EReal.coe_mul, ← EReal.coe_sub,
    ← EReal.coe_add]

/-- Distributivity over ℝ: scaling the centred entry is scaling the entry and shifting. -/
theorem point_eq (xi m r g b : ℝ) : g * (xi - m) * r + b = xi * (g * r) + (b - m * (g * r)) := by ring

end Cert.LibBatchNormFold

end
-- ==== Proof.LibMlpBatchNorm.lean ====
/-
  A two-layer perceptron with training-mode batch normalisation and a rectifier after each layer, written two
  ways on the extended reals, and the equality of the two.

  Matrices are curried EReal-valued functions over finite index types (R the rows, Ci / Cm / Co the input,
  middle and output columns). A layer is a matrix product (mm) followed, column by column, by batch
  normalisation over the rows and max(·, 0):

    one-pass side   from the column sums s = Σ_r P r n and q = Σ_r P r n · P r n:
                    scale n = g n · rsqrt ((q n / nn - (s n / nn)·(s n / nn)) + e),  shift n = b n - (s n / nn) · scale n,
                    out r n = max (P r n · scale n + shift n) 0                                   (scaleK, shiftK, bnReluK)
    two-pass side   mean n = (Σ_j P j n) / nn,  var n = (Σ_k (P k n - mean n)·(P k n - mean n)) / nn,
                    out r n = max (((g n · (P r n - mean n)) · rsqrt (var n + e)) + b n) 0       (meanR, varR, bnReluRef)

  Here / is Ideal.div and rsqrt is Ideal.rsqrt; nn is the row count and e the stabiliser, as extended reals that
  are the coerced reals N = card R ≠ 0 and ε > 0.

  When every entry of P, g, b is a coerced real the two sides are equal entry by entry (bnRelu_eq: the column
  lemma Cert.LibBatchNormFold.bn_column_eq at the column fun r => P r n) and the result is again a matrix of
  coerced reals (bnReluRef_real); a product of matrices of coerced reals is one too (mm_real). So the equality
  passes through the second layer, whose input is the first layer's output: mlp_eq.
-/
import Mathlib.Tactic
import Idealize.ShloMosaic.PureOps.Ideal
import proofs.«143519_j50869592655552_1_alg».proof.Proof.LibBatchNormFold

noncomputable section

namespace Cert.LibMlpBatchNorm

open Idealize.ShloMosaic
open scoped BigOperators

variable {R Ci Cm Co : Type*} [Fintype R] [Fintype Ci] [Fintype Cm] [Fintype Co]

/-! ### The pieces -/

/-- The matrix product. -/
def mm (X : R → Ci → EReal) (W : Ci → Cm → EReal) : R → Cm → EReal := fun r n => ∑ k, X r k * W k n

/-- The sum of each column. -/
def colSum (P : R → Cm → EReal) : Cm → EReal := fun n => ∑ r, P r n

/-- The sum of the squares of each column. -/
def colSumSq (P : R → Cm → EReal) : Cm → EReal := fun n => ∑ r, P r n * P r n

/-- One-pass side: the scale of a column from its sum s and its sum of squares q. -/
def scaleK (s q g : Cm → EReal) (nn e : EReal) : Cm → EReal :=
  fun n => g n * Ideal.rsqrt ((Ideal.div (q n) nn - Ideal.div (s n) nn * Ideal.div (s n) nn) + e)

/-- One-pass side: the shift of a column. -/
def shiftK (s q g b : Cm → EReal) (nn e : EReal) : Cm → EReal :=
  fun n => b n - Ideal.div (s n) nn * scaleK s q g nn e n

/-- One-pass side: scale, shift, rectify. -/
def bnReluK (P : R → Cm → EReal) (sc sh : Cm → EReal) : R → Cm → EReal :=
  fun r n => max (P r n * sc n + sh n) 0

/-- Two-pass side: the mean of each column. -/
def meanR (P : R → Cm → EReal) (nn : EReal) : Cm → EReal := fun n => Ideal.div (∑ j, P j n) nn

/-- Two-pass side: the mean of the squared deviations from the mean, of each column. -/
def varR (P : R → Cm → EReal) (nn : EReal) : Cm → EReal :=
  fun n => Ideal.div (∑ k, (P k n - meanR P nn n) * (P k n - meanR P nn n)) nn

/-- Two-pass side: centre, scale, shift, rectify. -/
def bnReluRef (P : R → Cm → EReal) (g b : Cm → EReal) (nn e : EReal) : R → Cm → EReal :=
  fun r n => max (((g n * (P r n - meanR P nn n)) * Ideal.rsqrt (varR P nn n + e)) + b n) 0

/-! ### One layer -/

/-- A matrix all of whose entries are coerced reals is the coercion of a real matrix. -/
theorem exists_real_matrix {A B : Type*} (P : A → B → EReal) (hP : ∀ r n, ∃ x : ℝ, P r n = ((x : ℝ) : EReal)) :
    ∃ p : A → B → ℝ, P = fun r n => ((p r n : ℝ) : EReal) := by
  choose p hp using hP
  exact ⟨p, funext fun r => funext fun n => hp r n⟩

/-- A vector all of whose entries are coerced reals is the coercion of a real vector. -/
theorem exists_real_vector {B : Type*} (g : B → EReal) (hg : ∀ n, ∃ x : ℝ, g n = ((x : ℝ) : EReal)) :
    ∃ γ : B → ℝ, g = fun n => ((γ n : ℝ) : EReal) := by
  choose γ hγ using hg
  exact ⟨γ, funext hγ⟩

/-- On a matrix of coerced reals, with coerced-real scale and shift parameters, a row count that is the
    coerced number of rows and a positive stabiliser, the one-pass and the two-pass normalise-and-rectify agree:
    column n is the column lemma at x = fun r => P r n. -/
theorem bnRelu_eq (P : R → Cm → EReal) (g b : Cm → EReal) (nn e : EReal)
    (hP : ∀ r n, ∃ x : ℝ, P r n = ((x : ℝ) : EReal)) (hg : ∀ n, ∃ x : ℝ, g n = ((x : ℝ) : EReal))
    (hb : ∀ n, ∃ x : ℝ, b n = ((x : ℝ) : EReal)) {N ε : ℝ} (hnn : nn = ((N : ℝ) : EReal))
    (hN : (Fintype.card R : ℝ) = N) (hN0 : N ≠ 0) (he : e = ((ε : ℝ) : EReal)) (hε : 0 < ε) :
    bnReluK P (scaleK (colSum P) (colSumSq P) g nn e) (shiftK (colSum P) (colSumSq P) g b nn e)
      = bnReluRef P g b nn e := by
  obtain ⟨p, rfl⟩ := exists_real_matrix P hP
  obtain ⟨γ, rfl⟩ := exists_real_vector g hg
  obtain ⟨β, rfl⟩ := exists_real_vector b hb
  subst hnn
  funext r n
  simp only [bnReluK, scaleK, shiftK, colSum, colSumSq, bnReluRef, meanR, varR]
  exact congrArg (fun y => max y 0)
    (Cert.LibBatchNormFold.bn_column_eq (fun r => p r n) (γ n) (β n) ε N e he hε hN hN0 r).symm

/-- Under the same hypotheses every entry of the result is a coerced real. -/
theorem bnReluRef_real (P : R → Cm → EReal) (g b : Cm → EReal) (nn e : EReal)
    (hP : ∀ r n, ∃ x : ℝ, P r n = ((x : ℝ) : EReal)) (hg : ∀ n, ∃ x : ℝ, g n = ((x : ℝ) : EReal))
    (hb : ∀ n, ∃ x : ℝ, b n = ((x : ℝ) : EReal)) {N ε : ℝ} (hnn : nn = ((N : ℝ) : EReal))
    (hN : (Fintype.card R : ℝ) = N) (hN0 : N ≠ 0) (he : e = ((ε : ℝ) : EReal)) (hε : 0 < ε) :
    ∀ r n, ∃ x : ℝ, bnReluRef P g b nn e r n = ((x : ℝ) : EReal) := by
  obtain ⟨p, rfl⟩ := exists_real_matrix P hP
  obtain ⟨γ, rfl⟩ := exists_real_vector g hg
  obtain ⟨β, rfl⟩ := exists_real_vector b hb
  subst hnn
  intro r n
  simp only [bnReluRef, meanR, varR]
  exact Cert.LibBatchNormFold.max_zero_real
    ⟨_, Cert.LibBatchNormFold.two_pass_coe (fun r => p r n) (γ n) (β n) ε N e he hε hN hN0 r⟩

/-- A product of matrices of coerced reals is a matrix of coerced reals. -/
theorem mm_real (X : R → Ci → EReal) (W : Ci → Cm → EReal)
    (hX : ∀ r k, ∃ x : ℝ, X r k = ((x : ℝ) : EReal)) (hW : ∀ k n, ∃ x : ℝ, W k n = ((x : ℝ) : EReal)) :
    ∀ r n, ∃ x : ℝ, mm X W r n = ((x : ℝ) : EReal) := by
  obtain ⟨a, rfl⟩ := exists_real_matrix X hX
  obtain ⟨w, rfl⟩ := exists_real_matrix W hW
  intro r n
  refine ⟨∑ k, a r k * w k n, ?_⟩
  simp only [mm, ← EReal.coe_mul]
  exact Cert.LibBatchNormFold.coe_sum_univ _

/-! ### Two layers -/

/-- One-pass side: product, normalise-and-rectify from the column sums, product, the same again. -/
def mlpK (X : R → Ci → EReal) (W1 : Ci → Cm → EReal) (g1 b1 : Cm → EReal) (W2 : Cm → Co → EReal)
    (g2 b2 : Co → EReal) (nn e : EReal) : R → Co → EReal :=
  let P1 := mm X W1
  let H := bnReluK P1 (scaleK (colSum P1) (colSumSq P1) g1 nn e) (shiftK (colSum P1) (colSumSq P1) g1 b1 nn e)
  let P2 := mm H W2
  bnReluK P2 (scaleK (colSum P2) (colSumSq P2) g2 nn e) (shiftK (colSum P2) (colSumSq P2) g2 b2 nn e)

/-- Two-pass side: product, normalise-and-rectify about the mean, product, the same again. -/
def mlpRef (X : R → Ci → EReal) (W1 : Ci → Cm → EReal) (g1 b1 : Cm → EReal) (W2 : Cm → Co → EReal)
    (g2 b2 : Co → EReal) (nn e : EReal) : R → Co → EReal :=
  bnReluRef (mm (bnReluRef (mm X W1) g1 b1 nn e) W2) g2 b2 nn e

/-- The two sides of the two-layer network agree when every input, weight, scale and shift is a coerced real:
    the first layers agree (bnRelu_eq) and give a matrix of coerced reals (bnReluRef_real), so the second
    products are one matrix of coerced reals (mm_real), on which the second layers agree. -/
theorem mlp_eq (X : R → Ci → EReal) (W1 : Ci → Cm → EReal) (g1 b1 : Cm → EReal) (W2 : Cm → Co → EReal)
    (g2 b2 : Co → EReal) (nn e : EReal)
    (hX : ∀ r k, ∃ x : ℝ, X r k = ((x : ℝ) : EReal)) (hW1 : ∀ k n, ∃ x : ℝ, W1 k n = ((x : ℝ) : EReal))
    (hg1 : ∀ n, ∃ x : ℝ, g1 n = ((x : ℝ) : EReal)) (hb1 : ∀ n, ∃ x : ℝ, b1 n = ((x : ℝ) : EReal))
    (hW2 : ∀ k n, ∃ x : ℝ, W2 k n = ((x : ℝ) : EReal))
    (hg2 : ∀ n, ∃ x : ℝ, g2 n = ((x : ℝ) : EReal)) (hb2 : ∀ n, ∃ x : ℝ, b2 n = ((x : ℝ) : EReal))
    {N ε : ℝ} (hnn : nn = ((N : ℝ) : EReal)) (hN : (Fintype.card R : ℝ) = N) (hN0 : N ≠ 0)
    (he : e = ((ε : ℝ) : EReal)) (hε : 0 < ε) :
    mlpK X W1 g1 b1 W2 g2 b2 nn e = mlpRef X W1 g1 b1 W2 g2 b2 nn e := by
  have hP1 := mm_real X W1 hX hW1
  have h1 := bnRelu_eq (mm X W1) g1 b1 nn e hP1 hg1 hb1 hnn hN hN0 he hε
  have hH := bnReluRef_real (mm X W1) g1 b1 nn e hP1 hg1 hb1 hnn hN hN0 he hε
  have hP2 := mm_real (bnReluRef (mm X W1) g1 b1 nn e) W2 hH hW2
  have h2 := bnRelu_eq (mm (bnReluRef (mm X W1) g1 b1 nn e) W2) g2 b2 nn e hP2 hg2 hb2 hnn hN hN0 he hε
  simp only [mlpK, mlpRef, h1]
  exact h2

/-- Every entry of the two-layer result is a coerced real. -/
theorem mlpRef_real (X : R → Ci → EReal) (W1 : Ci → Cm → EReal) (g1 b1 : Cm → EReal) (W2 : Cm → Co → EReal)
    (g2 b2 : Co → EReal) (nn e : EReal)
    (hX : ∀ r k, ∃ x : ℝ, X r k = ((x : ℝ) : EReal)) (hW1 : ∀ k n, ∃ x : ℝ, W1 k n = ((x : ℝ) : EReal))
    (hg1 : ∀ n, ∃ x : ℝ, g1 n = ((x : ℝ) : EReal)) (hb1 : ∀ n, ∃ x : ℝ, b1 n = ((x : ℝ) : EReal))
    (hW2 : ∀ k n, ∃ x : ℝ, W2 k n = ((x : ℝ) : EReal))
    (hg2 : ∀ n, ∃ x : ℝ, g2 n = ((x : ℝ) : EReal)) (hb2 : ∀ n, ∃ x : ℝ, b2 n = ((x : ℝ) : EReal))
    {N ε : ℝ} (hnn : nn = ((N : ℝ) : EReal)) (hN : (Fintype.card R : ℝ) = N) (hN0 : N ≠ 0)
    (he : e = ((ε : ℝ) : EReal)) (hε : 0 < ε) :
    ∀ r n, ∃ x : ℝ, mlpRef X W1 g1 b1 W2 g2 b2 nn e r n = ((x : ℝ) : EReal) := by
  have hP1 := mm_real X W1 hX hW1
  have hH := bnReluRef_real (mm X W1) g1 b1 nn e hP1 hg1 hb1 hnn hN hN0 he hε
  have hP2 := mm_real (bnReluRef (mm X W1) g1 b1 nn e) W2 hH hW2
  exact bnReluRef_real (mm (bnReluRef (mm X W1) g1 b1 nn e) W2) g2 b2 nn e hP2 hg2 hb2 hnn hN hN0 he hε

end Cert.LibMlpBatchNorm

end
-- ==== Proof.KI.AffineRead.lean ====
/-
  The host stretch between two regions of the kernel that turns a region's two row outputs — the column sums s and
  the column sums of squares q of a product matrix — and the two parameter vectors g, b into the affine map the next
  region applies: with nn the row count and e the stabiliser (both splats of an `f32` word),

      mean = s / nn,   var = q / nn - mean · mean,   inv = rsqrt (var + e),
      scale = g · inv,   shift = b - mean · scale,

  every array of shape [1, C] (g and b reshaped from [C]). Read at the extended reals and at the entry (0, n), the two
  results are the one-pass scale and shift of column n (`scaleK`, `shiftK`) of the vectors n ↦ s (0, n), n ↦ q (0, n),
  n ↦ g n, n ↦ b n: every operation is pointwise, the splats read their word's value at every entry, and the reshape
  of a vector to one row reads entry n at (0, n).

  First the two printed terms read at an entry, for any width and any two words; then each of the six stretches of this
  shape: what its two result buffers hold after the stretch has run from ANY contents V of the device's buffers.
-/
import proofs.«143519_j50869592655552_1_alg».proof.Proof.Gen.KernelIdeal.Launch
import proofs.«143519_j50869592655552_1_alg».proof.Proof.LibMlpBatchNorm
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.AffineRead

open Idealize.ShloMosaic Idealize.SL.Sem Cert.KernelIdeal Cert.KernelIdeal.Gen Cert.LibMlpBatchNorm
open Idealize.ShloMosaic.ValueIdx

/-! ## The two printed terms at an entry -/

section Terms
variable {C : Nat}

/-- The scale's term, `reshape g · rsqrt ((q / nn - (s / nn) · (s / nn)) + e)`, at the entry (0, n). -/
theorem scale_term (s q : FVec Ideal ⟨2, ![1, C]⟩ .f32) (g : FVec Ideal ⟨1, ![C]⟩ .f32)
    (dims : Fin (⟨0, ![]⟩ : Shape).rank → Fin (⟨2, ![1, C]⟩ : Shape).rank)
    (bc : (⟨0, ![]⟩ : Shape).BroadcastsInDim ⟨2, ![1, C]⟩ dims)
    (hc : (⟨1, ![C]⟩ : Shape).ShapeCasts ⟨2, ![1, C]⟩) (nw ew : BitVec 32) (n : Fin C) :
    mulf (fun i => shapeCast ⟨2, ![1, C]⟩ g hc i)
        (Host.rsqrt
          (addf
            (subf (Host.divf q (broadcastInDim ⟨2, ![1, C]⟩ dims bc (constant ⟨0, ![]⟩ .f32 nw)))
              (mulf (Host.divf s (broadcastInDim ⟨2, ![1, C]⟩ dims bc (constant ⟨0, ![]⟩ .f32 nw)))
                (Host.divf s (broadcastInDim ⟨2, ![1, C]⟩ dims bc (constant ⟨0, ![]⟩ .f32 nw)))))
            (broadcastInDim ⟨2, ![1, C]⟩ dims bc (constant ⟨0, ![]⟩ .f32 ew))))
        (ix2 (0 : Fin 1) n)
      = scaleK (fun n : Fin C => s (ix2 (0 : Fin 1) n)) (fun n => q (ix2 (0 : Fin 1) n)) (fun n => g (ix1 n))
          (Ideal.ofBits .f32 nw) (Ideal.ofBits .f32 ew) n := by
  unfold scaleK
  rw [mulf_apply]
  exact congrArg₂ (· * ·) (shapeCast_a_1a_apply g hc 0 n) rfl

/-- The shift's term, `reshape b - (s / nn) · scale`, at the entry (0, n). -/
theorem shift_term (s q : FVec Ideal ⟨2, ![1, C]⟩ .f32) (g b : FVec Ideal ⟨1, ![C]⟩ .f32)
    (dims : Fin (⟨0, ![]⟩ : Shape).rank → Fin (⟨2, ![1, C]⟩ : Shape).rank)
    (bc : (⟨0, ![]⟩ : Shape).BroadcastsInDim ⟨2, ![1, C]⟩ dims)
    (hc : (⟨1, ![C]⟩ : Shape).ShapeCasts ⟨2, ![1, C]⟩) (nw ew : BitVec 32) (n : Fin C) :
    subf (fun i => shapeCast ⟨2, ![1, C]⟩ b hc i)
        (mulf (Host.divf s (broadcastInDim ⟨2, ![1, C]⟩ dims bc (constant ⟨0, ![]⟩ .f32 nw)))
          (mulf (fun i => shapeCast ⟨2, ![1, C]⟩ g hc i)
            (Host.rsqrt
              (addf
                (subf (Host.divf q (broadcastInDim ⟨2, ![1, C]⟩ dims bc (constant ⟨0, ![]⟩ .f32 nw)))
                  (mulf (Host.divf s (broadcastInDim ⟨2, ![1, C]⟩ dims bc (constant ⟨0, ![]⟩ .f32 nw)))
                    (Host.divf s (broadcastInDim ⟨2, ![1, C]⟩ dims bc (constant ⟨0, ![]⟩ .f32 nw)))))
                (broadcastInDim ⟨2, ![1, C]⟩ dims bc (constant ⟨0, ![]⟩ .f32 ew))))))
        (ix2 (0 : Fin 1) n)
      = shiftK (fun n : Fin C => s (ix2 (0 : Fin 1) n)) (fun n => q (ix2 (0 : Fin 1) n)) (fun n => g (ix1 n))
          (fun n => b (ix1 n)) (Ideal.ofBits .f32 nw) (Ideal.ofBits .f32 ew) n := by
  unfold shiftK
  rw [subf_apply, mulf_apply]
  exact congrArg₂ (· - ·) (shapeCast_a_1a_apply b hc 0 n)
    (congrArg₂ (· * ·) rfl (scale_term s q g dims bc hc nw ew n))

end Terms

/-! ## Stretch 1 -/

/-- After stretch 1, from any contents `V`, the scale buffer at (u, n) is the one-pass scale of column n. -/
theorem scale1_read_ix (V : Valuation τ sig (Elt Ideal)) (u : Fin 1) (n : Fin 128) :
    (StableHlo.after (hostOps1 (F := Ideal)) V (Proc.devRef .tc main_v150) : S1x128.Idx → EReal) (ix2 u n)
      = scaleK (fun n : Fin 128 => (V (Proc.devRef .tc main_v139_1) : S1x128.Idx → EReal) (ix2 0 n))
          (fun n => (V (Proc.devRef .tc main_v139_2) : S1x128.Idx → EReal) (ix2 0 n))
          (fun n => (V (Proc.devRef .tc main_arg7) : S128.Idx → EReal) (ix1 n))
          (Ideal.ofBits .f32 0x47EA6000#32) (Ideal.ofBits .f32 0x3727C5AC#32) n := by
  obtain rfl : u = 0 := Subsingleton.elim _ _
  after_results_simp
  exact scale_term _ _ _ _ _ _ _ _ n

/-- After stretch 1, from any contents `V`, the shift buffer at (u, n) is the one-pass shift of column n. -/
theorem shift1_read_ix (V : Valuation τ sig (Elt Ideal)) (u : Fin 1) (n : Fin 128) :
    (StableHlo.after (hostOps1 (F := Ideal)) V (Proc.devRef .tc main_v153) : S1x128.Idx → EReal) (ix2 u n)
      = shiftK (fun n : Fin 128 => (V (Proc.devRef .tc main_v139_1) : S1x128.Idx → EReal) (ix2 0 n))
          (fun n => (V (Proc.devRef .tc main_v139_2) : S1x128.Idx → EReal) (ix2 0 n))
          (fun n => (V (Proc.devRef .tc main_arg7) : S128.Idx → EReal) (ix1 n))
          (fun n => (V (Proc.devRef .tc main_arg8) : S128.Idx → EReal) (ix1 n))
          (Ideal.ofBits .f32 0x47EA6000#32) (Ideal.ofBits .f32 0x3727C5AC#32) n := by
  obtain rfl : u = 0 := Subsingleton.elim _ _
  after_results_simp
  exact shift_term _ _ _ _ _ _ _ _ _ n

/-- The same at any index `j` of the result's shape: the column is `j`'s second coordinate. -/
theorem scale1_read (V : Valuation τ sig (Elt Ideal)) (j : S1x128.Idx) :
    (StableHlo.after (hostOps1 (F := Ideal)) V (Proc.devRef .tc main_v150) : S1x128.Idx → EReal) j
      = scaleK (fun n : Fin 128 => (V (Proc.devRef .tc main_v139_1) : S1x128.Idx → EReal) (ix2 0 n))
          (fun n => (V (Proc.devRef .tc main_v139_2) : S1x128.Idx → EReal) (ix2 0 n))
          (fun n => (V (Proc.devRef .tc main_arg7) : S128.Idx → EReal) (ix1 n))
          (Ideal.ofBits .f32 0x47EA6000#32) (Ideal.ofBits .f32 0x3727C5AC#32) (j 1) := by
  obtain ⟨u, n, rfl⟩ : ∃ (u : Fin 1) (n : Fin 128), j = ix2 u n := ⟨j 0, j 1, eq_ix2 j⟩
  exact scale1_read_ix V u n

theorem shift1_read (V : Valuation τ sig (Elt Ideal)) (j : S1x128.Idx) :
    (StableHlo.after (hostOps1 (F := Ideal)) V (Proc.devRef .tc main_v153) : S1x128.Idx → EReal) j
      = shiftK (fun n : Fin 128 => (V (Proc.devRef .tc main_v139_1) : S1x128.Idx → EReal) (ix2 0 n))
          (fun n => (V (Proc.devRef .tc main_v139_2) : S1x128.Idx → EReal) (ix2 0 n))
          (fun n => (V (Proc.devRef .tc main_arg7) : S128.Idx → EReal) (ix1 n))
          (fun n => (V (Proc.devRef .tc main_arg8) : S128.Idx → EReal) (ix1 n))
          (Ideal.ofBits .f32 0x47EA6000#32) (Ideal.ofBits .f32 0x3727C5AC#32) (j 1) := by
  obtain ⟨u, n, rfl⟩ : ∃ (u : Fin 1) (n : Fin 128), j = ix2 u n := ⟨j 0, j 1, eq_ix2 j⟩
  exact shift1_read_ix V u n

/-! ## Stretch 2 -/

/-- After stretch 2, from any contents `V`, the scale buffer at (u, n) is the one-pass scale of column n. -/
theorem scale2_read_ix (V : Valuation τ sig (Elt Ideal)) (u : Fin 1) (n : Fin 64) :
    (StableHlo.after (hostOps2 (F := Ideal)) V (Proc.devRef .tc main_v165) : S1x64.Idx → EReal) (ix2 u n)
      = scaleK (fun n : Fin 64 => (V (Proc.devRef .tc main_v154_1) : S1x64.Idx → EReal) (ix2 0 n))
          (fun n => (V (Proc.devRef .tc main_v154_2) : S1x64.Idx → EReal) (ix2 0 n))
          (fun n => (V (Proc.devRef .tc main_arg10) : S64.Idx → EReal) (ix1 n))
          (Ideal.ofBits .f32 0x47EA6000#32) (Ideal.ofBits .f32 0x3727C5AC#32) n := by
  obtain rfl : u = 0 := Subsingleton.elim _ _
  after_results_simp
  exact scale_term _ _ _ _ _ _ _ _ n

/-- After stretch 2, from any contents `V`, the shift buffer at (u, n) is the one-pass shift of column n. -/
theorem shift2_read_ix (V : Valuation τ sig (Elt Ideal)) (u : Fin 1) (n : Fin 64) :
    (StableHlo.after (hostOps2 (F := Ideal)) V (Proc.devRef .tc main_v168) : S1x64.Idx → EReal) (ix2 u n)
      = shiftK (fun n : Fin 64 => (V (Proc.devRef .tc main_v154_1) : S1x64.Idx → EReal) (ix2 0 n))
          (fun n => (V (Proc.devRef .tc main_v154_2) : S1x64.Idx → EReal) (ix2 0 n))
          (fun n => (V (Proc.devRef .tc main_arg10) : S64.Idx → EReal) (ix1 n))
          (fun n => (V (Proc.devRef .tc main_arg11) : S64.Idx → EReal) (ix1 n))
          (Ideal.ofBits .f32 0x47EA6000#32) (Ideal.ofBits .f32 0x3727C5AC#32) n := by
  obtain rfl : u = 0 := Subsingleton.elim _ _
  after_results_simp
  exact shift_term _ _ _ _ _ _ _ _ _ n

/-- The same at any index `j` of the result's shape: the column is `j`'s second coordinate. -/
theorem scale2_read (V : Valuation τ sig (Elt Ideal)) (j : S1x64.Idx) :
    (StableHlo.after (hostOps2 (F := Ideal)) V (Proc.devRef .tc main_v165) : S1x64.Idx → EReal) j
      = scaleK (fun n : Fin 64 => (V (Proc.devRef .tc main_v154_1) : S1x64.Idx → EReal) (ix2 0 n))
          (fun n => (V (Proc.devRef .tc main_v154_2) : S1x64.Idx → EReal) (ix2 0 n))
          (fun n => (V (Proc.devRef .tc main_arg10) : S64.Idx → EReal) (ix1 n))
          (Ideal.ofBits .f32 0x47EA6000#32) (Ideal.ofBits .f32 0x3727C5AC#32) (j 1) := by
  obtain ⟨u, n, rfl⟩ : ∃ (u : Fin 1) (n : Fin 64), j = ix2 u n := ⟨j 0, j 1, eq_ix2 j⟩
  exact scale2_read_ix V u n

theorem shift2_read (V : Valuation τ sig (Elt Ideal)) (j : S1x64.Idx) :
    (StableHlo.after (hostOps2 (F := Ideal)) V (Proc.devRef .tc main_v168) : S1x64.Idx → EReal) j
      = shiftK (fun n : Fin 64 => (V (Proc.devRef .tc main_v154_1) : S1x64.Idx → EReal) (ix2 0 n))
          (fun n => (V (Proc.devRef .tc main_v154_2) : S1x64.Idx → EReal) (ix2 0 n))
          (fun n => (V (Proc.devRef .tc main_arg10) : S64.Idx → EReal) (ix1 n))
          (fun n => (V (Proc.devRef .tc main_arg11) : S64.Idx → EReal) (ix1 n))
          (Ideal.ofBits .f32 0x47EA6000#32) (Ideal.ofBits .f32 0x3727C5AC#32) (j 1) := by
  obtain ⟨u, n, rfl⟩ : ∃ (u : Fin 1) (n : Fin 64), j = ix2 u n := ⟨j 0, j 1, eq_ix2 j⟩
  exact shift2_read_ix V u n

/-! ## Stretch 4 -/

/-- After stretch 4, from any contents `V`, the scale buffer at (u, n) is the one-pass scale of column n. -/
theorem scale4_read_ix (V : Valuation τ sig (Elt Ideal)) (u : Fin 1) (n : Fin 128) :
    (StableHlo.after (hostOps4 (F := Ideal)) V (Proc.devRef .tc main_v181) : S1x128.Idx → EReal) (ix2 u n)
      = scaleK (fun n : Fin 128 => (V (Proc.devRef .tc main_v170_1) : S1x128.Idx → EReal) (ix2 0 n))
          (fun n => (V (Proc.devRef .tc main_v170_2) : S1x128.Idx → EReal) (ix2 0 n))
          (fun n => (V (Proc.devRef .tc main_arg13) : S128.Idx → EReal) (ix1 n))
          (Ideal.ofBits .f32 0x48127C00#32) (Ideal.ofBits .f32 0x3727C5AC#32) n := by
  obtain rfl : u = 0 := Subsingleton.elim _ _
  after_results_simp
  exact scale_term _ _ _ _ _ _ _ _ n

/-- After stretch 4, from any contents `V`, the shift buffer at (u, n) is the one-pass shift of column n. -/
theorem shift4_read_ix (V : Valuation τ sig (Elt Ideal)) (u : Fin 1) (n : Fin 128) :
    (StableHlo.after (hostOps4 (F := Ideal)) V (Proc.devRef .tc main_v184) : S1x128.Idx → EReal) (ix2 u n)
      = shiftK (fun n : Fin 128 => (V (Proc.devRef .tc main_v170_1) : S1x128.Idx → EReal) (ix2 0 n))
          (fun n => (V (Proc.devRef .tc main_v170_2) : S1x128.Idx → EReal) (ix2 0 n))
          (fun n => (V (Proc.devRef .tc main_arg13) : S128.Idx → EReal) (ix1 n))
          (fun n => (V (Proc.devRef .tc main_arg14) : S128.Idx → EReal) (ix1 n))
          (Ideal.ofBits .f32 0x48127C00#32) (Ideal.ofBits .f32 0x3727C5AC#32) n := by
  obtain rfl : u = 0 := Subsingleton.elim _ _
  after_results_simp
  exact shift_term _ _ _ _ _ _ _ _ _ n

/-- The same at any index `j` of the result's shape: the column is `j`'s second coordinate. -/
theorem scale4_read (V : Valuation τ sig (Elt Ideal)) (j : S1x128.Idx) :
    (StableHlo.after (hostOps4 (F := Ideal)) V (Proc.devRef .tc main_v181) : S1x128.Idx → EReal) j
      = scaleK (fun n : Fin 128 => (V (Proc.devRef .tc main_v170_1) : S1x128.Idx → EReal) (ix2 0 n))
          (fun n => (V (Proc.devRef .tc main_v170_2) : S1x128.Idx → EReal) (ix2 0 n))
          (fun n => (V (Proc.devRef .tc main_arg13) : S128.Idx → EReal) (ix1 n))
          (Ideal.ofBits .f32 0x48127C00#32) (Ideal.ofBits .f32 0x3727C5AC#32) (j 1) := by
  obtain ⟨u, n, rfl⟩ : ∃ (u : Fin 1) (n : Fin 128), j = ix2 u n := ⟨j 0, j 1, eq_ix2 j⟩
  exact scale4_read_ix V u n

theorem shift4_read (V : Valuation τ sig (Elt Ideal)) (j : S1x128.Idx) :
    (StableHlo.after (hostOps4 (F := Ideal)) V (Proc.devRef .tc main_v184) : S1x128.Idx → EReal) j
      = shiftK (fun n : Fin 128 => (V (Proc.devRef .tc main_v170_1) : S1x128.Idx → EReal) (ix2 0 n))
          (fun n => (V (Proc.devRef .tc main_v170_2) : S1x128.Idx → EReal) (ix2 0 n))
          (fun n => (V (Proc.devRef .tc main_arg13) : S128.Idx → EReal) (ix1 n))
          (fun n => (V (Proc.devRef .tc main_arg14) : S128.Idx → EReal) (ix1 n))
          (Ideal.ofBits .f32 0x48127C00#32) (Ideal.ofBits .f32 0x3727C5AC#32) (j 1) := by
  obtain ⟨u, n, rfl⟩ : ∃ (u : Fin 1) (n : Fin 128), j = ix2 u n := ⟨j 0, j 1, eq_ix2 j⟩
  exact shift4_read_ix V u n

/-! ## Stretch 5 -/

/-- After stretch 5, from any contents `V`, the scale buffer at (u, n) is the one-pass scale of column n. -/
theorem scale5_read_ix (V : Valuation τ sig (Elt Ideal)) (u : Fin 1) (n : Fin 64) :
    (StableHlo.after (hostOps5 (F := Ideal)) V (Proc.devRef .tc main_v196) : S1x64.Idx → EReal) (ix2 u n)
      = scaleK (fun n : Fin 64 => (V (Proc.devRef .tc main_v185_1) : S1x64.Idx → EReal) (ix2 0 n))
          (fun n => (V (Proc.devRef .tc main_v185_2) : S1x64.Idx → EReal) (ix2 0 n))
          (fun n => (V (Proc.devRef .tc main_arg16) : S64.Idx → EReal) (ix1 n))
          (Ideal.ofBits .f32 0x48127C00#32) (Ideal.ofBits .f32 0x3727C5AC#32) n := by
  obtain rfl : u = 0 := Subsingleton.elim _ _
  after_results_simp
  exact scale_term _ _ _ _ _ _ _ _ n

/-- After stretch 5, from any contents `V`, the shift buffer at (u, n) is the one-pass shift of column n. -/
theorem shift5_read_ix (V : Valuation τ sig (Elt Ideal)) (u : Fin 1) (n : Fin 64) :
    (StableHlo.after (hostOps5 (F := Ideal)) V (Proc.devRef .tc main_v199) : S1x64.Idx → EReal) (ix2 u n)
      = shiftK (fun n : Fin 64 => (V (Proc.devRef .tc main_v185_1) : S1x64.Idx → EReal) (ix2 0 n))
          (fun n => (V (Proc.devRef .tc main_v185_2) : S1x64.Idx → EReal) (ix2 0 n))
          (fun n => (V (Proc.devRef .tc main_arg16) : S64.Idx → EReal) (ix1 n))
          (fun n => (V (Proc.devRef .tc main_arg17) : S64.Idx → EReal) (ix1 n))
          (Ideal.ofBits .f32 0x48127C00#32) (Ideal.ofBits .f32 0x3727C5AC#32) n := by
  obtain rfl : u = 0 := Subsingleton.elim _ _
  after_results_simp
  exact shift_term _ _ _ _ _ _ _ _ _ n

/-- The same at any index `j` of the result's shape: the column is `j`'s second coordinate. -/
theorem scale5_read (V : Valuation τ sig (Elt Ideal)) (j : S1x64.Idx) :
    (StableHlo.after (hostOps5 (F := Ideal)) V (Proc.devRef .tc main_v196) : S1x64.Idx → EReal) j
      = scaleK (fun n : Fin 64 => (V (Proc.devRef .tc main_v185_1) : S1x64.Idx → EReal) (ix2 0 n))
          (fun n => (V (Proc.devRef .tc main_v185_2) : S1x64.Idx → EReal) (ix2 0 n))
          (fun n => (V (Proc.devRef .tc main_arg16) : S64.Idx → EReal) (ix1 n))
          (Ideal.ofBits .f32 0x48127C00#32) (Ideal.ofBits .f32 0x3727C5AC#32) (j 1) := by
  obtain ⟨u, n, rfl⟩ : ∃ (u : Fin 1) (n : Fin 64), j = ix2 u n := ⟨j 0, j 1, eq_ix2 j⟩
  exact scale5_read_ix V u n

theorem shift5_read (V : Valuation τ sig (Elt Ideal)) (j : S1x64.Idx) :
    (StableHlo.after (hostOps5 (F := Ideal)) V (Proc.devRef .tc main_v199) : S1x64.Idx → EReal) j
      = shiftK (fun n : Fin 64 => (V (Proc.devRef .tc main_v185_1) : S1x64.Idx → EReal) (ix2 0 n))
          (fun n => (V (Proc.devRef .tc main_v185_2) : S1x64.Idx → EReal) (ix2 0 n))
          (fun n => (V (Proc.devRef .tc main_arg16) : S64.Idx → EReal) (ix1 n))
          (fun n => (V (Proc.devRef .tc main_arg17) : S64.Idx → EReal) (ix1 n))
          (Ideal.ofBits .f32 0x48127C00#32) (Ideal.ofBits .f32 0x3727C5AC#32) (j 1) := by
  obtain ⟨u, n, rfl⟩ : ∃ (u : Fin 1) (n : Fin 64), j = ix2 u n := ⟨j 0, j 1, eq_ix2 j⟩
  exact shift5_read_ix V u n

/-! ## Stretch 7 -/

/-- After stretch 7, from any contents `V`, the scale buffer at (u, n) is the one-pass scale of column n. -/
theorem scale7_read_ix (V : Valuation τ sig (Elt Ideal)) (u : Fin 1) (n : Fin 128) :
    (StableHlo.after (hostOps7 (F := Ideal)) V (Proc.devRef .tc main_v212) : S1x128.Idx → EReal) (ix2 u n)
      = scaleK (fun n : Fin 128 => (V (Proc.devRef .tc main_v201_1) : S1x128.Idx → EReal) (ix2 0 n))
          (fun n => (V (Proc.devRef .tc main_v201_2) : S1x128.Idx → EReal) (ix2 0 n))
          (fun n => (V (Proc.devRef .tc main_arg13) : S128.Idx → EReal) (ix1 n))
          (Ideal.ofBits .f32 0x48127C00#32) (Ideal.ofBits .f32 0x3727C5AC#32) n := by
  obtain rfl : u = 0 := Subsingleton.elim _ _
  after_results_simp
  exact scale_term _ _ _ _ _ _ _ _ n

/-- After stretch 7, from any contents `V`, the shift buffer at (u, n) is the one-pass shift of column n. -/
theorem shift7_read_ix (V : Valuation τ sig (Elt Ideal)) (u : Fin 1) (n : Fin 128) :
    (StableHlo.after (hostOps7 (F := Ideal)) V (Proc.devRef .tc main_v215) : S1x128.Idx → EReal) (ix2 u n)
      = shiftK (fun n : Fin 128 => (V (Proc.devRef .tc main_v201_1) : S1x128.Idx → EReal) (ix2 0 n))
          (fun n => (V (Proc.devRef .tc main_v201_2) : S1x128.Idx → EReal) (ix2 0 n))
          (fun n => (V (Proc.devRef .tc main_arg13) : S128.Idx → EReal) (ix1 n))
          (fun n => (V (Proc.devRef .tc main_arg14) : S128.Idx → EReal) (ix1 n))
          (Ideal.ofBits .f32 0x48127C00#32) (Ideal.ofBits .f32 0x3727C5AC#32) n := by
  obtain rfl : u = 0 := Subsingleton.elim _ _
  after_results_simp
  exact shift_term _ _ _ _ _ _ _ _ _ n

/-- The same at any index `j` of the result's shape: the column is `j`'s second coordinate. -/
theorem scale7_read (V : Valuation τ sig (Elt Ideal)) (j : S1x128.Idx) :
    (StableHlo.after (hostOps7 (F := Ideal)) V (Proc.devRef .tc main_v212) : S1x128.Idx → EReal) j
      = scaleK (fun n : Fin 128 => (V (Proc.devRef .tc main_v201_1) : S1x128.Idx → EReal) (ix2 0 n))
          (fun n => (V (Proc.devRef .tc main_v201_2) : S1x128.Idx → EReal) (ix2 0 n))
          (fun n => (V (Proc.devRef .tc main_arg13) : S128.Idx → EReal) (ix1 n))
          (Ideal.ofBits .f32 0x48127C00#32) (Ideal.ofBits .f32 0x3727C5AC#32) (j 1) := by
  obtain ⟨u, n, rfl⟩ : ∃ (u : Fin 1) (n : Fin 128), j = ix2 u n := ⟨j 0, j 1, eq_ix2 j⟩
  exact scale7_read_ix V u n

theorem shift7_read (V : Valuation τ sig (Elt Ideal)) (j : S1x128.Idx) :
    (StableHlo.after (hostOps7 (F := Ideal)) V (Proc.devRef .tc main_v215) : S1x128.Idx → EReal) j
      = shiftK (fun n : Fin 128 => (V (Proc.devRef .tc main_v201_1) : S1x128.Idx → EReal) (ix2 0 n))
          (fun n => (V (Proc.devRef .tc main_v201_2) : S1x128.Idx → EReal) (ix2 0 n))
          (fun n => (V (Proc.devRef .tc main_arg13) : S128.Idx → EReal) (ix1 n))
          (fun n => (V (Proc.devRef .tc main_arg14) : S128.Idx → EReal) (ix1 n))
          (Ideal.ofBits .f32 0x48127C00#32) (Ideal.ofBits .f32 0x3727C5AC#32) (j 1) := by
  obtain ⟨u, n, rfl⟩ : ∃ (u : Fin 1) (n : Fin 128), j = ix2 u n := ⟨j 0, j 1, eq_ix2 j⟩
  exact shift7_read_ix V u n

/-! ## Stretch 8 -/

/-- After stretch 8, from any contents `V`, the scale buffer at (u, n) is the one-pass scale of column n. -/
theorem scale8_read_ix (V : Valuation τ sig (Elt Ideal)) (u : Fin 1) (n : Fin 64) :
    (StableHlo.after (hostOps8 (F := Ideal)) V (Proc.devRef .tc main_v227) : S1x64.Idx → EReal) (ix2 u n)
      = scaleK (fun n : Fin 64 => (V (Proc.devRef .tc main_v216_1) : S1x64.Idx → EReal) (ix2 0 n))
          (fun n => (V (Proc.devRef .tc main_v216_2) : S1x64.Idx → EReal) (ix2 0 n))
          (fun n => (V (Proc.devRef .tc main_arg16) : S64.Idx → EReal) (ix1 n))
          (Ideal.ofBits .f32 0x48127C00#32) (Ideal.ofBits .f32 0x3727C5AC#32) n := by
  obtain rfl : u = 0 := Subsingleton.elim _ _
  after_results_simp
  exact scale_term _ _ _ _ _ _ _ _ n

/-- After stretch 8, from any contents `V`, the shift buffer at (u, n) is the one-pass shift of column n. -/
theorem shift8_read_ix (V : Valuation τ sig (Elt Ideal)) (u : Fin 1) (n : Fin 64) :
    (StableHlo.after (hostOps8 (F := Ideal)) V (Proc.devRef .tc main_v230) : S1x64.Idx → EReal) (ix2 u n)
      = shiftK (fun n : Fin 64 => (V (Proc.devRef .tc main_v216_1) : S1x64.Idx → EReal) (ix2 0 n))
          (fun n => (V (Proc.devRef .tc main_v216_2) : S1x64.Idx → EReal) (ix2 0 n))
          (fun n => (V (Proc.devRef .tc main_arg16) : S64.Idx → EReal) (ix1 n))
          (fun n => (V (Proc.devRef .tc main_arg17) : S64.Idx → EReal) (ix1 n))
          (Ideal.ofBits .f32 0x48127C00#32) (Ideal.ofBits .f32 0x3727C5AC#32) n := by
  obtain rfl : u = 0 := Subsingleton.elim _ _
  after_results_simp
  exact shift_term _ _ _ _ _ _ _ _ _ n

/-- The same at any index `j` of the result's shape: the column is `j`'s second coordinate. -/
theorem scale8_read (V : Valuation τ sig (Elt Ideal)) (j : S1x64.Idx) :
    (StableHlo.after (hostOps8 (F := Ideal)) V (Proc.devRef .tc main_v227) : S1x64.Idx → EReal) j
      = scaleK (fun n : Fin 64 => (V (Proc.devRef .tc main_v216_1) : S1x64.Idx → EReal) (ix2 0 n))
          (fun n => (V (Proc.devRef .tc main_v216_2) : S1x64.Idx → EReal) (ix2 0 n))
          (fun n => (V (Proc.devRef .tc main_arg16) : S64.Idx → EReal) (ix1 n))
          (Ideal.ofBits .f32 0x48127C00#32) (Ideal.ofBits .f32 0x3727C5AC#32) (j 1) := by
  obtain ⟨u, n, rfl⟩ : ∃ (u : Fin 1) (n : Fin 64), j = ix2 u n := ⟨j 0, j 1, eq_ix2 j⟩
  exact scale8_read_ix V u n

theorem shift8_read (V : Valuation τ sig (Elt Ideal)) (j : S1x64.Idx) :
    (StableHlo.after (hostOps8 (F := Ideal)) V (Proc.devRef .tc main_v230) : S1x64.Idx → EReal) j
      = shiftK (fun n : Fin 64 => (V (Proc.devRef .tc main_v216_1) : S1x64.Idx → EReal) (ix2 0 n))
          (fun n => (V (Proc.devRef .tc main_v216_2) : S1x64.Idx → EReal) (ix2 0 n))
          (fun n => (V (Proc.devRef .tc main_arg16) : S64.Idx → EReal) (ix1 n))
          (fun n => (V (Proc.devRef .tc main_arg17) : S64.Idx → EReal) (ix1 n))
          (Ideal.ofBits .f32 0x48127C00#32) (Ideal.ofBits .f32 0x3727C5AC#32) (j 1) := by
  obtain ⟨u, n, rfl⟩ : ∃ (u : Fin 1) (n : Fin 64), j = ix2 u n := ⟨j 0, j 1, eq_ix2 j⟩
  exact shift8_read_ix V u n

end Cert.KernelIdeal.AffineRead

end
-- ==== Proof.KI.KValueE.lean ====
/-
  The kernel side's value of the edge network, as one equation. Three kernel regions are chained through two short host
  stretches: region 0 multiplies the input rows X by the first weight matrix and accumulates, column by column, the sum
  and the sum of squares of the product P1 = X · W1; the stretch after it turns those two rows and the parameters g1, b1
  into the one-pass batch-normalisation scale and shift of each column; region 1 applies them with the rectifier,
  H = max (P1 · scale + shift, 0), multiplies by the second weight matrix, P2 = H · W2, and again accumulates the column
  sums; the next stretch makes the second scale and shift; region 2 applies them, max (P2 · scale + shift, 0). Each
  step reads its operands where the previous step left them, and every parameter array is still as launched when it is
  read (no stretch writes it, no region changes it). So region 2's output array is the one-pass two-layer network
  (mlpK) of X and the six parameter arrays.
-/
import proofs.«143519_j50869592655552_1_alg».proof.Proof.KI.Fold1
import proofs.«143519_j50869592655552_1_alg».proof.Proof.KI.Value0
import proofs.«143519_j50869592655552_1_alg».proof.Proof.KI.Value1
import proofs.«143519_j50869592655552_1_alg».proof.Proof.KI.Value2
import proofs.«143519_j50869592655552_1_alg».proof.Proof.KI.AffineRead
import proofs.«143519_j50869592655552_1_alg».proof.Proof.LibMlpBatchNorm
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Cert.LibMlpBatchNorm Cert.KernelIdeal.AffineRead

variable (m : (ℓ : Loc nD τ sig) → Buf (Elt Ideal) ℓ) (ρ : Dev nD → PrngReg)

/-! ## The network's data: the input rows and the six parameter arrays, as matrices and vectors -/

/-- The input rows: what the first host stretch leaves in region 0's input array. -/
abbrev eX (c : Dev nD) : Fin 120000 → Fin 704 → EReal :=
  fun r k => (W1 m ρ c (Proc.devRef .tc main_v138) : S120000x704.Idx → EReal) (ix2 r k)
/-- The first layer's weights, scale parameter and shift parameter; the second layer's. -/
abbrev eW1 (c : Dev nD) : Fin 704 → Fin 128 → EReal :=
  fun k n => (m ((c : Thread nD τ).loc main_arg6) : S704x128.Idx → EReal) (ix2 k n)
abbrev eG1 (c : Dev nD) : Fin 128 → EReal := fun n => (m ((c : Thread nD τ).loc main_arg7) : S128.Idx → EReal) (ix1 n)
abbrev eB1 (c : Dev nD) : Fin 128 → EReal := fun n => (m ((c : Thread nD τ).loc main_arg8) : S128.Idx → EReal) (ix1 n)
abbrev eW2 (c : Dev nD) : Fin 128 → Fin 64 → EReal :=
  fun k n => (m ((c : Thread nD τ).loc main_arg9) : S128x64.Idx → EReal) (ix2 k n)
abbrev eG2 (c : Dev nD) : Fin 64 → EReal := fun n => (m ((c : Thread nD τ).loc main_arg10) : S64.Idx → EReal) (ix1 n)
abbrev eB2 (c : Dev nD) : Fin 64 → EReal := fun n => (m ((c : Thread nD τ).loc main_arg11) : S64.Idx → EReal) (ix1 n)
/-- The row count and the stabiliser, as the words the host stretches splat. -/
abbrev eNN : EReal := Ideal.ofBits .f32 0x47EA6000#32
abbrev eEps : EReal := Ideal.ofBits .f32 0x3727C5AC#32

/-- The first product, its one-pass scale and shift, the first layer's output; the second product, its scale and shift. -/
def eP1 (c : Dev nD) : Fin 120000 → Fin 128 → EReal := mm (eX m ρ c) (eW1 m c)
def eSc1 (c : Dev nD) : Fin 128 → EReal := scaleK (colSum (eP1 m ρ c)) (colSumSq (eP1 m ρ c)) (eG1 m c) eNN eEps
def eSh1 (c : Dev nD) : Fin 128 → EReal := shiftK (colSum (eP1 m ρ c)) (colSumSq (eP1 m ρ c)) (eG1 m c) (eB1 m c) eNN eEps
def eH (c : Dev nD) : Fin 120000 → Fin 128 → EReal := bnReluK (eP1 m ρ c) (eSc1 m ρ c) (eSh1 m ρ c)
def eP2 (c : Dev nD) : Fin 120000 → Fin 64 → EReal := mm (eH m ρ c) (eW2 m c)
def eSc2 (c : Dev nD) : Fin 64 → EReal := scaleK (colSum (eP2 m ρ c)) (colSumSq (eP2 m ρ c)) (eG2 m c) eNN eEps
def eSh2 (c : Dev nD) : Fin 64 → EReal := shiftK (colSum (eP2 m ρ c)) (colSumSq (eP2 m ρ c)) (eG2 m c) (eB2 m c) eNN eEps

/-! ## The input rows and the parameter arrays where the regions and stretches read them: as the first stretch left
    them, and as launched -/

theorem eX_atA (c : Dev nD) : W1 m ρ c (Proc.devRef .tc main_v138) = W1 m ρ c (Proc.devRef .tc main_v138) :=
  rfl
theorem eW1_atA (c : Dev nD) : W1 m ρ c (Proc.devRef .tc main_arg6) = m ((c : Thread nD τ).loc main_arg6) :=
  (keep0 (W0 m ρ c) main_arg6 (by decide)).trans rfl
theorem eG1_atA1 (c : Dev nD) : W2 m ρ c (Proc.devRef .tc main_arg7) = m ((c : Thread nD τ).loc main_arg7) :=
  (W2_of_ne m ρ c main_arg7 (by decide)).trans <|
    (keep0 (W0 m ρ c) main_arg7 (by decide)).trans rfl
theorem eB1_atA1 (c : Dev nD) : W2 m ρ c (Proc.devRef .tc main_arg8) = m ((c : Thread nD τ).loc main_arg8) :=
  (W2_of_ne m ρ c main_arg8 (by decide)).trans <|
    (keep0 (W0 m ρ c) main_arg8 (by decide)).trans rfl
theorem eW2_atB (c : Dev nD) : W3 m ρ c (Proc.devRef .tc main_arg9) = m ((c : Thread nD τ).loc main_arg9) :=
  (keep1 (W2 m ρ c) main_arg9 (by decide)).trans <|
    (W2_of_ne m ρ c main_arg9 (by decide)).trans <|
    (keep0 (W0 m ρ c) main_arg9 (by decide)).trans rfl
theorem eG2_atB1 (c : Dev nD) : W4 m ρ c (Proc.devRef .tc main_arg10) = m ((c : Thread nD τ).loc main_arg10) :=
  (W4_of_ne m ρ c main_arg10 (by decide)).trans <|
    (keep1 (W2 m ρ c) main_arg10 (by decide)).trans <|
    (W2_of_ne m ρ c main_arg10 (by decide)).trans <|
    (keep0 (W0 m ρ c) main_arg10 (by decide)).trans rfl
theorem eB2_atB1 (c : Dev nD) : W4 m ρ c (Proc.devRef .tc main_arg11) = m ((c : Thread nD τ).loc main_arg11) :=
  (W4_of_ne m ρ c main_arg11 (by decide)).trans <|
    (keep1 (W2 m ρ c) main_arg11 (by decide)).trans <|
    (W2_of_ne m ρ c main_arg11 (by decide)).trans <|
    (keep0 (W0 m ρ c) main_arg11 (by decide)).trans rfl

/-! ## Region 0: the first product and its column sums -/

theorem e_pre0 (c : Dev nD) (r : Fin 120000) (n : Fin 128) :
    pre0 (X0 (V1 m ρ) c) (Wt0 (V1 m ρ) c) r n = eP1 m ρ c r n := by
  have hW : (Wt0 (V1 m ρ) c : S704x128.Idx → EReal) = (m ((c : Thread nD τ).loc main_arg6) : S704x128.Idx → EReal) := eW1_atA m ρ c
  rw [hW]
  rfl

theorem e_p1_0 (c : Dev nD) (r : Fin 120000) (n : Fin 128) :
    (W2 m ρ c (Proc.devRef .tc main_v139_0) : S120000x128.Idx → EReal) (ix2 r n) = eP1 m ρ c r n := by
  have h : (W2 m ρ c (Proc.devRef .tc main_v139_0) : S120000x128.Idx → EReal) = G0_2 (X0 (V1 m ρ) c) (Wt0 (V1 m ρ) c) :=
    (W2_arr m ρ c 2).trans (final0_2 (V1 m ρ) c)
  refine (congrFun h (ix2 r n)).trans ?_
  rw [G0_2_apply]
  exact e_pre0 m ρ c r n

theorem e_p1_1 (c : Dev nD) (n : Fin 128) :
    (W2 m ρ c (Proc.devRef .tc main_v139_1) : S1x128.Idx → EReal) (ix2 (0 : Fin 1) n) = colSum (eP1 m ρ c) n := by
  have h : (W2 m ρ c (Proc.devRef .tc main_v139_1) : S1x128.Idx → EReal) = G0_3 (X0 (V1 m ρ) c) (Wt0 (V1 m ρ) c) :=
    (W2_arr m ρ c 3).trans (final0_3 (V1 m ρ) c)
  refine (congrFun h (ix2 (0 : Fin 1) n)).trans ?_
  rw [G0_3_apply]
  exact (Finset.sum_congr rfl fun r _ => e_pre0 m ρ c r n :
    (∑ r : Fin 120000, pre0 (X0 (V1 m ρ) c) (Wt0 (V1 m ρ) c) r n) = ∑ r : Fin 120000, eP1 m ρ c r n)

theorem e_p1_2 (c : Dev nD) (n : Fin 128) :
    (W2 m ρ c (Proc.devRef .tc main_v139_2) : S1x128.Idx → EReal) (ix2 (0 : Fin 1) n) = colSumSq (eP1 m ρ c) n := by
  have h : (W2 m ρ c (Proc.devRef .tc main_v139_2) : S1x128.Idx → EReal) = G0_4 (X0 (V1 m ρ) c) (Wt0 (V1 m ρ) c) :=
    (W2_arr m ρ c 4).trans (final0_4 (V1 m ρ) c)
  refine (congrFun h (ix2 (0 : Fin 1) n)).trans ?_
  rw [G0_4_apply]
  exact (Finset.sum_congr rfl fun r _ => by rw [e_pre0 m ρ c r n] :
    (∑ r : Fin 120000, pre0 (X0 (V1 m ρ) c) (Wt0 (V1 m ρ) c) r n * pre0 (X0 (V1 m ρ) c) (Wt0 (V1 m ρ) c) r n)
      = ∑ r : Fin 120000, eP1 m ρ c r n * eP1 m ρ c r n)

/-! ## Stretch 1: the first layer's scale and shift -/

theorem e_sc1 (c : Dev nD) (j : S1x128.Idx) :
    (W3 m ρ c (Proc.devRef .tc main_v150) : S1x128.Idx → EReal) j = eSc1 m ρ c (j 1) := by
  refine (scale1_read (W2 m ρ c) j).trans ?_
  have h1 : (fun n : Fin 128 => (W2 m ρ c (Proc.devRef .tc main_v139_1) : S1x128.Idx → EReal) (ix2 0 n)) = colSum (eP1 m ρ c) :=
    funext fun n => e_p1_1 m ρ c n
  have h2 : (fun n : Fin 128 => (W2 m ρ c (Proc.devRef .tc main_v139_2) : S1x128.Idx → EReal) (ix2 0 n)) = colSumSq (eP1 m ρ c) :=
    funext fun n => e_p1_2 m ρ c n
  have h3 : (fun n : Fin 128 => (W2 m ρ c (Proc.devRef .tc main_arg7) : S128.Idx → EReal) (ix1 n)) = eG1 m c :=
    funext fun n => congrFun (eG1_atA1 m ρ c) (ix1 n)
  rw [h1, h2, h3]
  rfl

theorem e_sh1 (c : Dev nD) (j : S1x128.Idx) :
    (W3 m ρ c (Proc.devRef .tc main_v153) : S1x128.Idx → EReal) j = eSh1 m ρ c (j 1) := by
  refine (shift1_read (W2 m ρ c) j).trans ?_
  have h1 : (fun n : Fin 128 => (W2 m ρ c (Proc.devRef .tc main_v139_1) : S1x128.Idx → EReal) (ix2 0 n)) = colSum (eP1 m ρ c) :=
    funext fun n => e_p1_1 m ρ c n
  have h2 : (fun n : Fin 128 => (W2 m ρ c (Proc.devRef .tc main_v139_2) : S1x128.Idx → EReal) (ix2 0 n)) = colSumSq (eP1 m ρ c) :=
    funext fun n => e_p1_2 m ρ c n
  have h3 : (fun n : Fin 128 => (W2 m ρ c (Proc.devRef .tc main_arg7) : S128.Idx → EReal) (ix1 n)) = eG1 m c :=
    funext fun n => congrFun (eG1_atA1 m ρ c) (ix1 n)
  have h4 : (fun n : Fin 128 => (W2 m ρ c (Proc.devRef .tc main_arg8) : S128.Idx → EReal) (ix1 n)) = eB1 m c :=
    funext fun n => congrFun (eB1_atA1 m ρ c) (ix1 n)
  rw [h1, h2, h3, h4]
  rfl

theorem e_p1_0_atB (c : Dev nD) (r : Fin 120000) (n : Fin 128) :
    (W3 m ρ c (Proc.devRef .tc main_v139_0) : S120000x128.Idx → EReal) (ix2 r n) = eP1 m ρ c r n :=
  (congrFun (keep1 (W2 m ρ c) main_v139_0 (by decide)) (ix2 r n)).trans (e_p1_0 m ρ c r n)

/-- Scale, shift and clamp of equal operands are equal. -/
theorem e_max_congr {x s h x' s' h' : EReal} (hx : x = x') (hs : s = s') (hh : h = h') :
    max (x * s + h) 0 = max (x' * s' + h') 0 := by
  subst hx hs hh; rfl

/-! ## Region 1: the first layer's output, the second product and its column sums -/

theorem e_act1 (c : Dev nD) (r : Fin 120000) (k : Fin 128) :
    act1 (V3 m ρ c (Pipeline.arrRef spec1 0)) (V3 m ρ c (Pipeline.arrRef spec1 1)) (V3 m ρ c (Pipeline.arrRef spec1 2)) r k
      = eH m ρ c r k :=
  e_max_congr (e_p1_0_atB m ρ c r k) (e_sc1 m ρ c (ix2 (0 : Fin 1) k)) (e_sh1 m ρ c (ix2 (0 : Fin 1) k))

theorem e_pre1 (c : Dev nD) (r : Fin 120000) (n : Fin 64) :
    pre1 (V3 m ρ c (Pipeline.arrRef spec1 0)) (V3 m ρ c (Pipeline.arrRef spec1 1)) (V3 m ρ c (Pipeline.arrRef spec1 2))
        (V3 m ρ c (Pipeline.arrRef spec1 3)) r n
      = eP2 m ρ c r n := by
  have hW : (V3 m ρ c (Pipeline.arrRef spec1 3) : S128x64.Idx → EReal) = (m ((c : Thread nD τ).loc main_arg9) : S128x64.Idx → EReal) :=
    eW2_atB m ρ c
  show (∑ k : Fin 128, act1 (V3 m ρ c (Pipeline.arrRef spec1 0)) (V3 m ρ c (Pipeline.arrRef spec1 1)) (V3 m ρ c (Pipeline.arrRef spec1 2)) r k
      * (V3 m ρ c (Pipeline.arrRef spec1 3) : S128x64.Idx → EReal) (ix2 k n)) = ∑ k : Fin 128, eH m ρ c r k * eW2 m c k n
  rw [hW]
  exact (Finset.sum_congr rfl fun k _ => by rw [e_act1 m ρ c r k] :
    (∑ k : Fin 128, act1 (V3 m ρ c (Pipeline.arrRef spec1 0)) (V3 m ρ c (Pipeline.arrRef spec1 1)) (V3 m ρ c (Pipeline.arrRef spec1 2)) r k
        * (m ((c : Thread nD τ).loc main_arg9) : S128x64.Idx → EReal) (ix2 k n))
      = ∑ k : Fin 128, eH m ρ c r k * (m ((c : Thread nD τ).loc main_arg9) : S128x64.Idx → EReal) (ix2 k n))

theorem e_p2_0 (c : Dev nD) (r : Fin 120000) (n : Fin 64) :
    (W4 m ρ c (Proc.devRef .tc main_v154_0) : S120000x64.Idx → EReal) (ix2 r n) = eP2 m ρ c r n := by
  have h : (W4 m ρ c (Proc.devRef .tc main_v154_0) : S120000x64.Idx → EReal)
      = G1_4 (V3 m ρ c (Pipeline.arrRef spec1 0)) (V3 m ρ c (Pipeline.arrRef spec1 1)) (V3 m ρ c (Pipeline.arrRef spec1 2))
        (V3 m ρ c (Pipeline.arrRef spec1 3)) :=
    (W4_arr m ρ c 4).trans (final1_4 (V3 m ρ) c)
  refine (congrFun h (ix2 r n)).trans ?_
  rw [G1_4_apply]
  exact e_pre1 m ρ c r n

theorem e_p2_1 (c : Dev nD) (n : Fin 64) :
    (W4 m ρ c (Proc.devRef .tc main_v154_1) : S1x64.Idx → EReal) (ix2 (0 : Fin 1) n) = colSum (eP2 m ρ c) n := by
  have h : (W4 m ρ c (Proc.devRef .tc main_v154_1) : S1x64.Idx → EReal)
      = G1_5 (V3 m ρ c (Pipeline.arrRef spec1 0)) (V3 m ρ c (Pipeline.arrRef spec1 1)) (V3 m ρ c (Pipeline.arrRef spec1 2))
        (V3 m ρ c (Pipeline.arrRef spec1 3)) :=
    (W4_arr m ρ c 5).trans (final1_5 (V3 m ρ) c)
  refine (congrFun h (ix2 (0 : Fin 1) n)).trans ?_
  rw [G1_5_apply]
  exact (Finset.sum_congr rfl fun r _ => e_pre1 m ρ c r n :
    (∑ r : Fin 120000, pre1 (V3 m ρ c (Pipeline.arrRef spec1 0)) (V3 m ρ c (Pipeline.arrRef spec1 1)) (V3 m ρ c (Pipeline.arrRef spec1 2))
        (V3 m ρ c (Pipeline.arrRef spec1 3)) r n) = ∑ r : Fin 120000, eP2 m ρ c r n)

theorem e_p2_2 (c : Dev nD) (n : Fin 64) :
    (W4 m ρ c (Proc.devRef .tc main_v154_2) : S1x64.Idx → EReal) (ix2 (0 : Fin 1) n) = colSumSq (eP2 m ρ c) n := by
  have h : (W4 m ρ c (Proc.devRef .tc main_v154_2) : S1x64.Idx → EReal)
      = G1_6 (V3 m ρ c (Pipeline.arrRef spec1 0)) (V3 m ρ c (Pipeline.arrRef spec1 1)) (V3 m ρ c (Pipeline.arrRef spec1 2))
        (V3 m ρ c (Pipeline.arrRef spec1 3)) :=
    (W4_arr m ρ c 6).trans (final1_6 (V3 m ρ) c)
  refine (congrFun h (ix2 (0 : Fin 1) n)).trans ?_
  rw [G1_6_apply]
  exact (Finset.sum_congr rfl fun r _ => by rw [e_pre1 m ρ c r n] :
    (∑ r : Fin 120000, pre1 (V3 m ρ c (Pipeline.arrRef spec1 0)) (V3 m ρ c (Pipeline.arrRef spec1 1)) (V3 m ρ c (Pipeline.arrRef spec1 2))
        (V3 m ρ c (Pipeline.arrRef spec1 3)) r n
        * pre1 (V3 m ρ c (Pipeline.arrRef spec1 0)) (V3 m ρ c (Pipeline.arrRef spec1 1)) (V3 m ρ c (Pipeline.arrRef spec1 2))
        (V3 m ρ c (Pipeline.arrRef spec1 3)) r n) = ∑ r : Fin 120000, eP2 m ρ c r n * eP2 m ρ c r n)

/-! ## Stretch 2: the second layer's scale and shift -/

theorem e_sc2 (c : Dev nD) (j : S1x64.Idx) :
    (W5 m ρ c (Proc.devRef .tc main_v165) : S1x64.Idx → EReal) j = eSc2 m ρ c (j 1) := by
  refine (scale2_read (W4 m ρ c) j).trans ?_
  have h1 : (fun n : Fin 64 => (W4 m ρ c (Proc.devRef .tc main_v154_1) : S1x64.Idx → EReal) (ix2 0 n)) = colSum (eP2 m ρ c) :=
    funext fun n => e_p2_1 m ρ c n
  have h2 : (fun n : Fin 64 => (W4 m ρ c (Proc.devRef .tc main_v154_2) : S1x64.Idx → EReal) (ix2 0 n)) = colSumSq (eP2 m ρ c) :=
    funext fun n => e_p2_2 m ρ c n
  have h3 : (fun n : Fin 64 => (W4 m ρ c (Proc.devRef .tc main_arg10) : S64.Idx → EReal) (ix1 n)) = eG2 m c :=
    funext fun n => congrFun (eG2_atB1 m ρ c) (ix1 n)
  rw [h1, h2, h3]
  rfl

theorem e_sh2 (c : Dev nD) (j : S1x64.Idx) :
    (W5 m ρ c (Proc.devRef .tc main_v168) : S1x64.Idx → EReal) j = eSh2 m ρ c (j 1) := by
  refine (shift2_read (W4 m ρ c) j).trans ?_
  have h1 : (fun n : Fin 64 => (W4 m ρ c (Proc.devRef .tc main_v154_1) : S1x64.Idx → EReal) (ix2 0 n)) = colSum (eP2 m ρ c) :=
    funext fun n => e_p2_1 m ρ c n
  have h2 : (fun n : Fin 64 => (W4 m ρ c (Proc.devRef .tc main_v154_2) : S1x64.Idx → EReal) (ix2 0 n)) = colSumSq (eP2 m ρ c) :=
    funext fun n => e_p2_2 m ρ c n
  have h3 : (fun n : Fin 64 => (W4 m ρ c (Proc.devRef .tc main_arg10) : S64.Idx → EReal) (ix1 n)) = eG2 m c :=
    funext fun n => congrFun (eG2_atB1 m ρ c) (ix1 n)
  have h4 : (fun n : Fin 64 => (W4 m ρ c (Proc.devRef .tc main_arg11) : S64.Idx → EReal) (ix1 n)) = eB2 m c :=
    funext fun n => congrFun (eB2_atB1 m ρ c) (ix1 n)
  rw [h1, h2, h3, h4]
  rfl

theorem e_p2_0_atC (c : Dev nD) (r : Fin 120000) (n : Fin 64) :
    (W5 m ρ c (Proc.devRef .tc main_v154_0) : S120000x64.Idx → EReal) (ix2 r n) = eP2 m ρ c r n :=
  (congrFun (keep2 (W4 m ρ c) main_v154_0 (by decide)) (ix2 r n)).trans (e_p2_0 m ρ c r n)

/-! ## Region 2, and the whole network -/

/-- The network's output array after its three regions, in the named pieces. -/
theorem edge_value_pieces (c : Dev nD) :
    (W6 m ρ c (Proc.devRef .tc main_v169) : S120000x64.Idx → EReal)
      = fun j => bnReluK (eP2 m ρ c) (eSc2 m ρ c) (eSh2 m ρ c) (j 0) (j 1) := by
  have h : (W6 m ρ c (Proc.devRef .tc main_v169) : S120000x64.Idx → EReal)
      = bnRelu2 (V5 m ρ c (Pipeline.arrRef spec2 0)) (V5 m ρ c (Pipeline.arrRef spec2 1)) (V5 m ρ c (Pipeline.arrRef spec2 2)) :=
    (W6_arr m ρ c 3).trans (final2_3 (V5 m ρ) c)
  rw [h]
  funext j
  obtain ⟨r, n, rfl⟩ : ∃ (r : Fin 120000) (n : Fin 64), j = ix2 r n := ⟨j 0, j 1, eq_ix2 j⟩
  rw [bnRelu2_apply]
  exact e_max_congr (e_p2_0_atC m ρ c r n) (e_sc2 m ρ c (ix2 (0 : Fin 1) n)) (e_sh2 m ρ c (ix2 (0 : Fin 1) n))

/-- THE NETWORK'S VALUE on the kernel side: region 2's output array is the one-pass two-layer network of the input
    rows, as the first host stretch left them, and the six parameter arrays as launched. -/
theorem edge_value (c : Dev nD) :
    (W6 m ρ c (Proc.devRef .tc main_v169) : S120000x64.Idx → EReal) = fun j =>
      Cert.LibMlpBatchNorm.mlpK
        (fun (r : Fin 120000) (k : Fin 704) => (W1 m ρ c (Proc.devRef .tc main_v138) : S120000x704.Idx → EReal) (ValueIdx.ix2 r k))
        (fun (k : Fin 704) (n : Fin 128) => (m ((c : Thread nD τ).loc main_arg6) : S704x128.Idx → EReal) (ValueIdx.ix2 k n))
        (fun n : Fin 128 => (m ((c : Thread nD τ).loc main_arg7) : S128.Idx → EReal) (ValueIdx.ix1 n))
        (fun n : Fin 128 => (m ((c : Thread nD τ).loc main_arg8) : S128.Idx → EReal) (ValueIdx.ix1 n))
        (fun (k : Fin 128) (n : Fin 64) => (m ((c : Thread nD τ).loc main_arg9) : S128x64.Idx → EReal) (ValueIdx.ix2 k n))
        (fun n : Fin 64 => (m ((c : Thread nD τ).loc main_arg10) : S64.Idx → EReal) (ValueIdx.ix1 n))
        (fun n : Fin 64 => (m ((c : Thread nD τ).loc main_arg11) : S64.Idx → EReal) (ValueIdx.ix1 n))
        (Ideal.ofBits .f32 0x47EA6000#32) (Ideal.ofBits .f32 0x3727C5AC#32) (j 0) (j 1) :=
  edge_value_pieces m ρ c

end Cert.KernelIdeal.Hand

end
-- ==== Proof.KI.Value3.lean ====
import proofs.«143519_j50869592655552_1_alg».proof.Proof.KI.Region3
import proofs.«143519_j50869592655552_1_alg».proof.Proof.LibBlockSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable {F : FTy → Type} [FloatOps F]

local notation "𝕄" => MT nD τ sig Unit (Elt F) ℕ (UR sig nD τ) ℕ

/-! # Region 3 (the linear layer with running column sums): what its three result arrays end holding

With `X` the `[150000,320]` input and `Wt` the `[320,128]` weights as the region finds them: the output array at
`(r,n)` is `pre r n = ∑ k, X (r,k) · Wt (k,n)`; the sums array at `(0,n)` is `∑ r, pre r n`; the array of sums of squares at
`(0,n)` is `∑ r, pre r n · pre r n`. Point `t` of the 30 works on rows `5000 t … 5000 t + 4999`. -/

theorem r3_hz : (![0, 0] : Fin 2 → Nat) = fun _ => 0 := funext fun a => by fin_cases a <;> rfl

/-- A load of the whole shape after a last store of the whole shape reads that store's payload, whatever was stored before. -/
theorem r3_readCov_cons_unit_zero {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- THE FIRST POINT'S VALUES. The output window holds the product of the point's rows with the weights; each accumulator
    holds its zero block plus the product's column sums (of squares); each sums window holds its accumulator's value. -/
theorem res3_A_eq (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond3_0 i) (x0 : Vec F S5000x320 .f32) (x1 : Vec F S320x128 .f32) :
    res3_A c i arg1 harg1 arg2 harg2 arg3 harg3 arg4 harg4 arg5 harg5 arg6 harg6 arg7 harg7 hc0 x0 x1 = (k3_pay3 x0 x1, k3_pay4 x0 x1 k3_pay1, k3_pay5 x0 x1 k3_pay2, k3_pay4 x0 x1 k3_pay1, k3_pay5 x0 x1 k3_pay2) := by
  unfold res3_A
  refine congrArg₂ Prod.mk ?_ (congrArg₂ Prod.mk ?_ (congrArg₂ Prod.mk ?_ (congrArg₂ Prod.mk ?_ ?_)))
  · rw [View.read_writes_eq_canon _ _ _ (cover3_A_2 c i arg1 harg1 arg2 harg2 arg3 harg3 arg4 harg4 arg5 harg5 arg6 harg6 arg7 harg7 hc0 x0 x1)]
    unfold kernelRun3_A
    dsimp only
    rw [View.canon_unit_zero r3_hz]
    simp only [View.readAt_eq_ld, harg1.read_unread, harg2.read_unread, harg6.read_unread, harg7.read_unread, View.ld_unit_zero (S := S5000x320) r3_hz, View.ld_unit_zero (S := S320x128) r3_hz, View.ld_unit_zero (S := S1x128) r3_hz]
  · rw [View.read_writes_eq_canon _ _ _ (cover3_A_3 c i arg1 harg1 arg2 harg2 arg3 harg3 arg4 harg4 arg5 harg5 arg6 harg6 arg7 harg7 hc0 x0 x1)]
    unfold kernelRun3_A
    dsimp only
    sl_unfold_words
    rw [View.canon_unit_zero (S := S1x128) r3_hz, r3_readCov_cons_unit_zero (S := S1x128) _ r3_hz, View.readCov_unit_zero (S := S1x128) _ r3_hz]
    simp only [View.readAt_eq_ld, harg1.read_unread, harg2.read_unread, harg6.read_unread, harg7.read_unread, View.ld_unit_zero (S := S5000x320) r3_hz, View.ld_unit_zero (S := S320x128) r3_hz, View.ld_unit_zero (S := S1x128) r3_hz]
  · rw [View.read_writes_eq_canon _ _ _ (cover3_A_4 c i arg1 harg1 arg2 harg2 arg3 harg3 arg4 harg4 arg5 harg5 arg6 harg6 arg7 harg7 hc0 x0 x1)]
    unfold kernelRun3_A
    dsimp only
    sl_unfold_words
    rw [View.canon_unit_zero (S := S1x128) r3_hz, r3_readCov_cons_unit_zero (S := S1x128) _ r3_hz, View.readCov_unit_zero (S := S1x128) _ r3_hz]
    simp only [View.readAt_eq_ld, harg1.read_unread, harg2.read_unread, harg6.read_unread, harg7.read_unread, View.ld_unit_zero (S := S5000x320) r3_hz, View.ld_unit_zero (S := S320x128) r3_hz, View.ld_unit_zero (S := S1x128) r3_hz]
  · rw [View.read_writes_eq_canon _ _ _ (scover3_A_0 c i arg1 harg1 arg2 harg2 arg3 harg3 arg4 harg4 arg5 harg5 arg6 harg6 arg7 harg7 hc0 x0 x1)]
    unfold kernelRun3_A
    dsimp only
    sl_unfold_words
    rw [View.canon_cons_unit_zero (S := S1x128) r3_hz, View.readCov_unit_zero (S := S1x128) _ r3_hz]
    simp only [View.readAt_eq_ld, harg1.read_unread, harg2.read_unread, harg6.read_unread, harg7.read_unread, View.ld_unit_zero (S := S5000x320) r3_hz, View.ld_unit_zero (S := S320x128) r3_hz, View.ld_unit_zero (S := S1x128) r3_hz]
  · rw [View.read_writes_eq_canon _ _ _ (scover3_A_1 c i arg1 harg1 arg2 harg2 arg3 harg3 arg4 harg4 arg5 harg5 arg6 harg6 arg7 harg7 hc0 x0 x1)]
    unfold kernelRun3_A
    dsimp only
    sl_unfold_words
    rw [View.canon_cons_unit_zero (S := S1x128) r3_hz, View.readCov_unit_zero (S := S1x128) _ r3_hz]
    simp only [View.readAt_eq_ld, harg1.read_unread, harg2.read_unread, harg6.read_unread, harg7.read_unread, View.ld_unit_zero (S := S5000x320) r3_hz, View.ld_unit_zero (S := S320x128) r3_hz, View.ld_unit_zero (S := S1x128) r3_hz]

/-- A LATER POINT'S VALUES: the same over what the accumulators held when the point began. -/
theorem res3_B_eq (c : Dev nD) (i : grid3.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i) (x0 : Vec F S5000x320 .f32) (x1 : Vec F S320x128 .f32) (xs0 : Vec F S1x128 .f32) (xs1 : Vec F S1x128 .f32) :
    res3_B c i arg1 harg1 arg2 harg2 arg3 harg3 arg4 harg4 arg5 harg5 arg6 harg6 arg7 harg7 hc0 x0 x1 xs0 xs1 = (k3_pay3 x0 x1, k3_pay4 x0 x1 xs0, k3_pay5 x0 x1 xs1, k3_pay4 x0 x1 xs0, k3_pay5 x0 x1 xs1) := by
  unfold res3_B
  refine congrArg₂ Prod.mk ?_ (congrArg₂ Prod.mk ?_ (congrArg₂ Prod.mk ?_ (congrArg₂ Prod.mk ?_ ?_)))
  · rw [View.read_writes_eq_canon _ _ _ (cover3_B_2 c i arg1 harg1 arg2 harg2 arg3 harg3 arg4 harg4 arg5 harg5 arg6 harg6 arg7 harg7 hc0 x0 x1 xs0 xs1)]
    unfold kernelRun3_B
    dsimp only
    rw [View.canon_unit_zero r3_hz]
    simp only [View.readAt_eq_ld, harg1.read_unread, harg2.read_unread, harg6.read_unread, harg7.read_unread, View.ld_unit_zero (S := S5000x320) r3_hz, View.ld_unit_zero (S := S320x128) r3_hz, View.ld_unit_zero (S := S1x128) r3_hz]
  · rw [View.read_writes_eq_canon _ _ _ (cover3_B_3 c i arg1 harg1 arg2 harg2 arg3 harg3 arg4 harg4 arg5 harg5 arg6 harg6 arg7 harg7 hc0 x0 x1 xs0 xs1)]
    unfold kernelRun3_B
    dsimp only
    sl_unfold_words
    rw [View.canon_unit_zero (S := S1x128) r3_hz, View.readCov_unit_zero (S := S1x128) _ r3_hz]
    simp only [View.readAt_eq_ld, harg1.read_unread, harg2.read_unread, harg6.read_unread, harg7.read_unread, View.ld_unit_zero (S := S5000x320) r3_hz, View.ld_unit_zero (S := S320x128) r3_hz, View.ld_unit_zero (S := S1x128) r3_hz]
  · rw [View.read_writes_eq_canon _ _ _ (cover3_B_4 c i arg1 harg1 arg2 harg2 arg3 harg3 arg4 harg4 arg5 harg5 arg6 harg6 arg7 harg7 hc0 x0 x1 xs0 xs1)]
    unfold kernelRun3_B
    dsimp only
    sl_unfold_words
    rw [View.canon_unit_zero (S := S1x128) r3_hz, View.readCov_unit_zero (S := S1x128) _ r3_hz]
    simp only [View.readAt_eq_ld, harg1.read_unread, harg2.read_unread, harg6.read_unread, harg7.read_unread, View.ld_unit_zero (S := S5000x320) r3_hz, View.ld_unit_zero (S := S320x128) r3_hz, View.ld_unit_zero (S := S1x128) r3_hz]
  · rw [View.read_writes_eq_canon _ _ _ (scover3_B_0 c i arg1 harg1 arg2 harg2 arg3 harg3 arg4 harg4 arg5 harg5 arg6 harg6 arg7 harg7 hc0 x0 x1 xs0 xs1)]
    unfold kernelRun3_B
    dsimp only
    sl_unfold_words
    rw [View.canon_unit_zero (S := S1x128) r3_hz]
    simp only [View.readAt_eq_ld, harg1.read_unread, harg2.read_unread, harg6.read_unread, harg7.read_unread, View.ld_unit_zero (S := S5000x320) r3_hz, View.ld_unit_zero (S := S320x128) r3_hz, View.ld_unit_zero (S := S1x128) r3_hz]
  · rw [View.read_writes_eq_canon _ _ _ (scover3_B_1 c i arg1 harg1 arg2 harg2 arg3 harg3 arg4 harg4 arg5 harg5 arg6 harg6 arg7 harg7 hc0 x0 x1 xs0 xs1)]
    unfold kernelRun3_B
    dsimp only
    sl_unfold_words
    rw [View.canon_unit_zero (S := S1x128) r3_hz]
    simp only [View.readAt_eq_ld, harg1.read_unread, harg2.read_unread, harg6.read_unread, harg7.read_unread, View.ld_unit_zero (S := S5000x320) r3_hz, View.ld_unit_zero (S := S320x128) r3_hz, View.ld_unit_zero (S := S1x128) r3_hz]

/-! ## The accumulators after each point, over the payloads -/

section Acc
variable (V : (c : Dev nD) → (b : Ref sig .tc) → Buf (Elt F) ((c : Thread nD τ).loc b))

/-- The pair of accumulators after point `n`: the first point adds its column sums to the zero blocks, each later point to
    what the point before left. -/
def acc3 (c : Dev nD) : (n : ℕ) → n < cfg3.N → Vec F S1x128 .f32 × Vec F S1x128 .f32
  | 0, hn => (k3_pay4 (iblk3 V c 0 ⟨0, hn⟩) (iblk3 V c 1 ⟨0, hn⟩) k3_pay1, k3_pay5 (iblk3 V c 0 ⟨0, hn⟩) (iblk3 V c 1 ⟨0, hn⟩) k3_pay2)
  | n + 1, hn => (k3_pay4 (iblk3 V c 0 ⟨n + 1, hn⟩) (iblk3 V c 1 ⟨n + 1, hn⟩) (acc3 c n (Nat.lt_of_succ_lt hn)).1,
      k3_pay5 (iblk3 V c 0 ⟨n + 1, hn⟩) (iblk3 V c 1 ⟨n + 1, hn⟩) (acc3 c n (Nat.lt_of_succ_lt hn)).2)

/-- What the buffers hold after point `n`, read back from the pieces the runs found: the point's product, and the
    accumulators' current pair in both the sums windows and the scratch buffers — by induction on the point. -/
theorem outsAt3_eq (c : Dev nD) : ∀ (n : ℕ) (hn : n < cfg3.N),
    outsAt3 V c n hn = (k3_pay3 (iblk3 V c 0 ⟨n, hn⟩) (iblk3 V c 1 ⟨n, hn⟩), (acc3 V c n hn).1, (acc3 V c n hn).2, (acc3 V c n hn).1, (acc3 V c n hn).2)
  | 0, hn => (outsAt3_A V c ⟨0, hn⟩ rfl ((hcond3_0 ⟨0, hn⟩).mpr (Nat.zero_mod _))).trans (res3_A_eq ..)
  | n + 1, hn => by
    have hN : cfg3.N = 30 := N_3
    have hc : ¬cond3_0 (grid3.coords ⟨n + 1, hn⟩) := fun h => by
      have h' := (hcond3_0 ⟨n + 1, hn⟩).mp h; (try dsimp only at h'); omega
    rw [outsAt3_B V c ⟨n + 1, hn⟩ (Nat.succ_ne_zero n) hc, res3_B_eq]
    show (_, k3_pay4 _ _ (outsAt3 V c n _).2.2.2.1, k3_pay5 _ _ (outsAt3 V c n _).2.2.2.2, k3_pay4 _ _ (outsAt3 V c n _).2.2.2.1, k3_pay5 _ _ (outsAt3 V c n _).2.2.2.2) = _
    rw [outsAt3_eq c n]
    rfl

end Acc

/-! ## The payloads at an index, at the exact values -/

section AtIdeal

/-- The zero blocks the first point stores. -/
theorem r3_pay1_apply (j : S1x128.Idx) : k3_pay1 (F := Ideal) j = 0 := by
  unfold k3_pay1
  rw [shapeCast_self]
  exact Ideal.ofBits_zero_f32
theorem r3_pay2_apply (j : S1x128.Idx) : k3_pay2 (F := Ideal) j = 0 := by
  unfold k3_pay2
  rw [shapeCast_self]
  exact Ideal.ofBits_zero_f32

/-- The product block at an index: row `q` of the point's rows times column `n` of the weights (the narrowing of the
    operands is the identity on exact values; the accumulator is the zero splat). -/
theorem r3_pay3_apply (x0 : Vec Ideal S5000x320 .f32) (x1 : Vec Ideal S320x128 .f32) (q : Fin 5000) (n : Fin 128) :
    k3_pay3 (F := Ideal) x0 x1 (ix2 q n) = ∑ k : Fin 320, x0 (ix2 q k) * x1 (ix2 k n) := by
  unfold k3_pay3
  refine (Ideal.matmul_constant_zero_apply dot_S5000x320_S320x128_S5000x128_1_0_0_1_n_n none _ _ (ix2 q n)).trans ?_
  refine (Equiv.sum_comp (contrEquiv1 dot_S5000x320_S320x128_S5000x128_1_0_0_1_n_n 320 rfl rfl).symm _).symm.trans ?_
  refine Finset.sum_congr rfl fun k _ => ?_
  rw [shapeCast_self]
  refine congrArg₂ (· * ·) (congrArg x0 (funext fun a => Fin.ext ?_)) (congrArg x1 (funext fun a => Fin.ext ?_))
  · match a with
    | ⟨0, _⟩ => rfl
    | ⟨1, _⟩ => exact (DotDims.lhsIdx_val_of_single _ rfl _ _).trans (contrEquiv1_symm_val _ 320 rfl rfl k)
  · match a with
    | ⟨0, _⟩ => exact (DotDims.rhsIdx_val_of_single _ rfl _ _).trans (contrEquiv1_symm_val _ 320 rfl rfl k)
    | ⟨1, _⟩ => rfl

/-- The first accumulator's new value at column `n`: its old value plus the product block's column sum. -/
theorem r3_pay4_apply (x0 : Vec Ideal S5000x320 .f32) (x1 : Vec Ideal S320x128 .f32) (s : Vec Ideal S1x128 .f32) (z : Fin 1) (n : Fin 128) :
    k3_pay4 (F := Ideal) x0 x1 s (ix2 z n) = s (ix2 z n) + ∑ q : Fin 5000, k3_pay3 (F := Ideal) x0 x1 (ix2 q n) := by
  unfold k3_pay4
  rw [shapeCast_self]
  refine congrArg (s (ix2 z n) + ·) ?_
  refine (shapeCast_apply _ shapeCasts_S128_S1x128 (ix2 z n) (ix1 n) ?_).trans ?_
  · rw [Shape.rowMajor_val_one, Shape.rowMajor_val_two]
    show n.val = z.val * 128 + n.val
    have := z.isLt; omega
  refine (Ideal.multiReduction_add_single (k3_pay3 (F := Ideal) x0 x1) 0x00000000#32 reduces_S5000x128_S128 (.inl rfl) rfl (ix1 n)).trans ?_
  refine Finset.sum_congr rfl fun q _ => congrArg _ (funext fun a => Fin.ext ?_)
  match a with
  | ⟨0, _⟩ => rfl
  | ⟨1, _⟩ => rfl

/-- The second accumulator's new value at column `n`: its old value plus the column sum of the product block's squares. -/
theorem r3_pay5_apply (x0 : Vec Ideal S5000x320 .f32) (x1 : Vec Ideal S320x128 .f32) (s : Vec Ideal S1x128 .f32) (z : Fin 1) (n : Fin 128) :
    k3_pay5 (F := Ideal) x0 x1 s (ix2 z n)
      = s (ix2 z n) + ∑ q : Fin 5000, k3_pay3 (F := Ideal) x0 x1 (ix2 q n) * k3_pay3 (F := Ideal) x0 x1 (ix2 q n) := by
  unfold k3_pay5
  rw [shapeCast_self]
  refine congrArg (s (ix2 z n) + ·) ?_
  refine (shapeCast_apply _ shapeCasts_S128_S1x128 (ix2 z n) (ix1 n) ?_).trans ?_
  · rw [Shape.rowMajor_val_one, Shape.rowMajor_val_two]
    show n.val = z.val * 128 + n.val
    have := z.isLt; omega
  refine (Ideal.multiReduction_add_single (mulf (k3_pay3 (F := Ideal) x0 x1) (k3_pay3 (F := Ideal) x0 x1)) 0x00000000#32 reduces_S5000x128_S128 (.inl rfl) rfl (ix1 n)).trans ?_
  refine Finset.sum_congr rfl fun q _ => ?_
  have e : (reduces_S5000x128_S128.lift (ix1 n) q : S5000x128.Idx) = ix2 q n := funext fun a => Fin.ext (by
    match a with
    | ⟨0, _⟩ => rfl
    | ⟨1, _⟩ => rfl)
  rw [e]; rfl

end AtIdeal

/-! ## The blocks, the accumulators' closed form, and the three result arrays -/

section Final
variable (V : (c : Dev nD) → (b : Ref sig .tc) → Buf (Elt Ideal) ((c : Thread nD τ).loc b))

/-- The input rows and the weights as the region finds them. -/
abbrev X3 (c : Dev nD) : S150000x320.Idx → EReal := V c (Pipeline.arrRef spec3 0)
abbrev Wt3 (c : Dev nD) : S320x128.Idx → EReal := V c (Pipeline.arrRef spec3 1)

/-- The linear layer's output at row `r`, column `n`, from the input rows `X` and the weights `Wt`. -/
def pre3 (X : S150000x320.Idx → EReal) (Wt : S320x128.Idx → EReal) (r : Fin 150000) (n : Fin 128) : EReal :=
  ∑ k : Fin 320, X (ix2 r k) * Wt (ix2 k n)

theorem r3_lt30 {n : ℕ} (hn : n < cfg3.N) : n < 30 := lt_of_lt_of_eq hn N_3
theorem r3_h30 : 30 * 5000 = 150000 := by norm_num

/-- Row `q` of point `t`'s block of rows, among all the rows. -/
def r3_rowOf (t : Fin 30) (q : Fin 5000) : Fin 150000 := ⟨t.val * 5000 + q.val, LibBlockSum.row_lt_of_eq r3_h30 t q⟩

/-- One block's column sum, and its column sum of squares. -/
def colsum3 (c : Dev nD) (l : Fin 128) (t : Fin 30) : EReal := ∑ q : Fin 5000, pre3 (X3 V c) (Wt3 V c) (r3_rowOf t q) l
def colsq3 (c : Dev nD) (l : Fin 128) (t : Fin 30) : EReal := ∑ q : Fin 5000, pre3 (X3 V c) (Wt3 V c) (r3_rowOf t q) l * pre3 (X3 V c) (Wt3 V c) (r3_rowOf t q) l

/-- The windows' block indices at each point, decided over the grid: the rows' and the output's block is the point's
    number along the rows; the weights' and the two sums windows' block never moves. -/
theorem idx3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx3_1 : ∀ t : Fin cfg3.N, win3_1.index t (0 : Fin 2) = 0 ∧ win3_1.index t (1 : Fin 2) = 0 :=
  (by decide +kernel : ∀ t : Fin grid3.N, win3_1.index t (0 : Fin 2) = 0 ∧ win3_1.index t (1 : Fin 2) = 0)
theorem idx3_2 : ∀ t : Fin cfg3.N, win3_2.index t (0 : Fin 2) = t.val ∧ win3_2.index t (1 : Fin 2) = 0 :=
  (by decide +kernel : ∀ t : Fin grid3.N, win3_2.index t (0 : Fin 2) = t.val ∧ win3_2.index t (1 : Fin 2) = 0)
theorem idx3_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem idx3_4 : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)

/-- Point `t`'s block of the input rows: row `q` of it is row `5000 t + q` of the array. -/
theorem iblk3_0_apply (c : Dev nD) (t : Fin cfg3.N) (q : Fin 5000) (k : Fin 320) :
    iblk3 V c 0 t (ix2 q k) = X3 V c (ix2 (r3_rowOf ⟨t.val, r3_lt30 t.isLt⟩ q) k) := by
  unfold iblk3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t 0 * 5000 + 1 * q.val = t.val * 5000 + q.val; rw [(idx3_0 t).1]; omega
  | ⟨1, _⟩ => show win3_0.index t 1 * 320 + 1 * k.val = k.val; rw [(idx3_0 t).2]; omega

/-- The weights' one block is the array. -/
theorem iblk3_1_apply (c : Dev nD) (t : Fin cfg3.N) (k : Fin 320) (n : Fin 128) :
    iblk3 V c 1 t (ix2 k n) = Wt3 V c (ix2 k n) := by
  unfold iblk3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t 0 * 320 + 1 * k.val = k.val; rw [(idx3_1 t).1]; omega
  | ⟨1, _⟩ => show win3_1.index t 1 * 128 + 1 * n.val = n.val; rw [(idx3_1 t).2]; omega

/-- The product block of point `t` at `(q,n)` is the layer's output at row `5000 t + q`. -/
theorem prod3_apply (c : Dev nD) (t : Fin cfg3.N) (q : Fin 5000) (n : Fin 128) :
    k3_pay3 (F := Ideal) (iblk3 V c 0 t) (iblk3 V c 1 t) (ix2 q n) = pre3 (X3 V c) (Wt3 V c) (r3_rowOf ⟨t.val, r3_lt30 t.isLt⟩ q) n := by
  refine (r3_pay3_apply (iblk3 V c 0 t) (iblk3 V c 1 t) q n).trans ?_
  unfold pre3
  exact Finset.sum_congr rfl fun k _ => congrArg₂ (· * ·) (iblk3_0_apply V c t q k) (iblk3_1_apply V c t k n)

/-- THE INVARIANT. After point `n` the accumulators hold, at column `l`, the totals of the first `n + 1` blocks' column sums
    and column sums of squares. -/
theorem acc3_apply (c : Dev nD) : ∀ (n : ℕ) (hn : n < cfg3.N) (z : Fin 1) (l : Fin 128),
    (acc3 V c n hn).1 (ix2 z l) = LibBlockSum.upTo (colsum3 V c l) (n + 1)
      ∧ (acc3 V c n hn).2 (ix2 z l) = LibBlockSum.upTo (colsq3 V c l) (n + 1)
  | 0, hn, z, l => by
    constructor
    · show k3_pay4 (F := Ideal) (iblk3 V c 0 ⟨0, hn⟩) (iblk3 V c 1 ⟨0, hn⟩) (k3_pay1 (F := Ideal)) (ix2 z l) = _
      refine (r3_pay4_apply (iblk3 V c 0 ⟨0, hn⟩) (iblk3 V c 1 ⟨0, hn⟩) (k3_pay1 (F := Ideal)) z l).trans ?_
      rw [r3_pay1_apply, zero_add, LibBlockSum.upTo_succ _ 0 (by norm_num), LibBlockSum.upTo_zero, zero_add]
      exact Finset.sum_congr rfl fun q _ => prod3_apply V c ⟨0, hn⟩ q l
    · show k3_pay5 (F := Ideal) (iblk3 V c 0 ⟨0, hn⟩) (iblk3 V c 1 ⟨0, hn⟩) (k3_pay2 (F := Ideal)) (ix2 z l) = _
      refine (r3_pay5_apply (iblk3 V c 0 ⟨0, hn⟩) (iblk3 V c 1 ⟨0, hn⟩) (k3_pay2 (F := Ideal)) z l).trans ?_
      rw [r3_pay2_apply, zero_add, LibBlockSum.upTo_succ _ 0 (by norm_num), LibBlockSum.upTo_zero, zero_add]
      exact Finset.sum_congr rfl fun q _ => congrArg₂ (· * ·) (prod3_apply V c ⟨0, hn⟩ q l) (prod3_apply V c ⟨0, hn⟩ q l)
  | n + 1, hn, z, l => by
    obtain ⟨ih1, ih2⟩ := acc3_apply c n (Nat.lt_of_succ_lt hn) z l
    constructor
    · show k3_pay4 (F := Ideal) (iblk3 V c 0 ⟨n + 1, hn⟩) (iblk3 V c 1 ⟨n + 1, hn⟩) (acc3 V c n (Nat.lt_of_succ_lt hn)).1 (ix2 z l) = _
      refine (r3_pay4_apply (iblk3 V c 0 ⟨n + 1, hn⟩) (iblk3 V c 1 ⟨n + 1, hn⟩) (acc3 V c n (Nat.lt_of_succ_lt hn)).1 z l).trans ?_
      rw [ih1, LibBlockSum.upTo_succ _ (n + 1) (r3_lt30 hn)]
      refine congrArg (LibBlockSum.upTo (colsum3 V c l) (n + 1) + ·) ?_
      exact Finset.sum_congr rfl fun q _ => prod3_apply V c ⟨n + 1, hn⟩ q l
    · show k3_pay5 (F := Ideal) (iblk3 V c 0 ⟨n + 1, hn⟩) (iblk3 V c 1 ⟨n + 1, hn⟩) (acc3 V c n (Nat.lt_of_succ_lt hn)).2 (ix2 z l) = _
      refine (r3_pay5_apply (iblk3 V c 0 ⟨n + 1, hn⟩) (iblk3 V c 1 ⟨n + 1, hn⟩) (acc3 V c n (Nat.lt_of_succ_lt hn)).2 z l).trans ?_
      rw [ih2, LibBlockSum.upTo_succ _ (n + 1) (r3_lt30 hn)]
      refine congrArg (LibBlockSum.upTo (colsq3 V c l) (n + 1) + ·) ?_
      exact Finset.sum_congr rfl fun q _ => congrArg₂ (· * ·) (prod3_apply V c ⟨n + 1, hn⟩ q l) (prod3_apply V c ⟨n + 1, hn⟩ q l)

/-- What the three result arrays end holding, index by index. -/
def G3_2 (X : S150000x320.Idx → EReal) (Wt : S320x128.Idx → EReal) : S150000x128.Idx → EReal := fun j => pre3 X Wt (j 0) (j 1)
def G3_3 (X : S150000x320.Idx → EReal) (Wt : S320x128.Idx → EReal) : S1x128.Idx → EReal := fun j => ∑ r : Fin 150000, pre3 X Wt r (j 1)
def G3_4 (X : S150000x320.Idx → EReal) (Wt : S320x128.Idx → EReal) : S1x128.Idx → EReal :=
  fun j => ∑ r : Fin 150000, pre3 X Wt r (j 1) * pre3 X Wt r (j 1)

theorem G3_2_apply (X : S150000x320.Idx → EReal) (Wt : S320x128.Idx → EReal) (r : Fin 150000) (n : Fin 128) :
    G3_2 X Wt (ix2 r n) = pre3 X Wt r n := rfl
theorem G3_3_apply (X : S150000x320.Idx → EReal) (Wt : S320x128.Idx → EReal) (u : Fin 1) (n : Fin 128) :
    G3_3 X Wt (ix2 u n) = ∑ r : Fin 150000, pre3 X Wt r n := rfl
theorem G3_4_apply (X : S150000x320.Idx → EReal) (Wt : S320x128.Idx → EReal) (u : Fin 1) (n : Fin 128) :
    G3_4 X Wt (ix2 u n) = ∑ r : Fin 150000, pre3 X Wt r n * pre3 X Wt r n := rfl

/-- A function of the output array read through point `t`'s block, at `(q,n)`, is the function at row `5000 t + q`. -/
theorem read_blk3_2 (t : Fin cfg3.N) (G : S150000x128.Idx → EReal) (q : Fin 5000) (n : Fin 128) :
    ((cfg3.win 2).blk t).view.read (Elt Ideal) G (ix2 q n) = G (ix2 (r3_rowOf ⟨t.val, r3_lt30 t.isLt⟩ q) n) := by
  rw [View.read_apply]
  show G _ = G _
  refine congrArg G (funext fun a => Fin.ext ?_)
  match a with
  | ⟨0, _⟩ => show win3_2.index t 0 * 5000 + 1 * q.val = t.val * 5000 + q.val; rw [(idx3_2 t).1]; omega
  | ⟨1, _⟩ => show win3_2.index t 1 * 128 + 1 * n.val = n.val; rw [(idx3_2 t).2]; omega

/-- The sums arrays are one block: a function of either read through it is the function. -/
theorem read_blk3_3 (t : Fin cfg3.N) (G : S1x128.Idx → EReal) :
    ((cfg3.win 3).blk t).view.read (Elt Ideal) G = G := by
  funext y
  rw [View.read_apply]
  show G _ = G y
  refine congrArg G (funext fun a => Fin.ext ?_)
  match a with
  | ⟨0, _⟩ => show win3_3.index t 0 * 1 + 1 * (y 0).val = (y 0).val; rw [(idx3_3 t).1]; omega
  | ⟨1, _⟩ => show win3_3.index t 1 * 128 + 1 * (y 1).val = (y 1).val; rw [(idx3_3 t).2]; omega
theorem read_blk3_4 (t : Fin cfg3.N) (G : S1x128.Idx → EReal) :
    ((cfg3.win 4).blk t).view.read (Elt Ideal) G = G := by
  funext y
  rw [View.read_apply]
  show G _ = G y
  refine congrArg G (funext fun a => Fin.ext ?_)
  match a with
  | ⟨0, _⟩ => show win3_4.index t 0 * 1 + 1 * (y 0).val = (y 0).val; rw [(idx3_4 t).1]; omega
  | ⟨1, _⟩ => show win3_4.index t 1 * 128 + 1 * (y 1).val = (y 1).val; rw [(idx3_4 t).2]; omega

/-- What point `t` writes back into the output array is its block of the layer's output. -/
theorem flushed3_2 (c : Dev nD) (t : Fin cfg3.N) :
    (dat3 (F := Ideal) V c).flushed 2 t = ((cfg3.win 2).blk t).view.read (Elt Ideal) (G3_2 (X3 V c) (Wt3 V c)) := by
  show (cfg3.win 2).cut (grid3.coords t) ((dat3 (F := Ideal) V c).after 2 t) = _
  rw [after3_2, outsAt3_eq]
  funext y
  obtain ⟨q, n, rfl⟩ : ∃ (q : Fin 5000) (n : Fin 128), y = ix2 q n := ⟨y 0, y 1, eq_ix2 y⟩
  refine (prod3_apply V c t q n).trans ?_
  rw [read_blk3_2 t (G3_2 (X3 V c) (Wt3 V c)) q n, G3_2_apply]

/-- The last point writes back the totals over all 30 blocks, which are the sums over all the rows. -/
theorem flushed3_3 (c : Dev nD) (t : Fin cfg3.N) (hf : (cfg3.win 3).flush t = true) :
    (dat3 (F := Ideal) V c).flushed 3 t = ((cfg3.win 3).blk t).view.read (Elt Ideal) (G3_3 (X3 V c) (Wt3 V c)) := by
  have ht : t.val + 1 = 30 := by have := (flush3_3 t).mp hf; have := r3_lt30 t.isLt; omega
  rw [read_blk3_3 t (G3_3 (X3 V c) (Wt3 V c))]
  show (cfg3.win 3).cut (grid3.coords t) ((dat3 (F := Ideal) V c).after 3 t) = _
  rw [after3_3, outsAt3_eq]
  funext y
  obtain ⟨z, l, rfl⟩ : ∃ (z : Fin 1) (l : Fin 128), y = ix2 z l := ⟨y 0, y 1, eq_ix2 y⟩
  refine ((acc3_apply V c t.val t.isLt z l).1).trans ?_
  rw [ht, G3_3_apply]
  exact LibBlockSum.upTo_blocks r3_h30 (fun r => pre3 (X3 V c) (Wt3 V c) r l)
theorem flushed3_4 (c : Dev nD) (t : Fin cfg3.N) (hf : (cfg3.win 4).flush t = true) :
    (dat3 (F := Ideal) V c).flushed 4 t = ((cfg3.win 4).blk t).view.read (Elt Ideal) (G3_4 (X3 V c) (Wt3 V c)) := by
  have ht : t.val + 1 = 30 := by have := (flush3_4 t).mp hf; have := r3_lt30 t.isLt; omega
  rw [read_blk3_4 t (G3_4 (X3 V c) (Wt3 V c))]
  show (cfg3.win 4).cut (grid3.coords t) ((dat3 (F := Ideal) V c).after 4 t) = _
  rw [after3_4, outsAt3_eq]
  funext y
  obtain ⟨z, l, rfl⟩ : ∃ (z : Fin 1) (l : Fin 128), y = ix2 z l := ⟨y 0, y 1, eq_ix2 y⟩
  refine ((acc3_apply V c t.val t.isLt z l).2).trans ?_
  rw [ht, G3_4_apply]
  exact LibBlockSum.upTo_blocks r3_h30 (fun r => pre3 (X3 V c) (Wt3 V c) r l * pre3 (X3 V c) (Wt3 V c) r l)

/-- An index of each result array is in point `t`'s block iff each coordinate is in the block's range on its axis. -/
theorem mem_blk3_2 (t : Fin cfg3.N) (i : S150000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v170_0).slice (win3_2.rect t)).set ↔ _
  rw [View.set_slice_whole, Rect.mem_set_unit]
  exact Iff.rfl
theorem mem_blk3_3 (t : Fin cfg3.N) (i : S1x128.Idx) :
    i ∈ ((cfg3.win 3).blk t).view.set ↔ ∀ a : Fin 2, win3_3.index t a * S1x128.size a ≤ (i a).val ∧ (i a).val < win3_3.index t a * S1x128.size a + S1x128.size a := by
  show i ∈ ((View.whole main_v170_1).slice (win3_3.rect t)).set ↔ _
  rw [View.set_slice_whole, Rect.mem_set_unit]
  exact Iff.rfl
theorem mem_blk3_4 (t : Fin cfg3.N) (i : S1x128.Idx) :
    i ∈ ((cfg3.win 4).blk t).view.set ↔ ∀ a : Fin 2, win3_4.index t a * S1x128.size a ≤ (i a).val ∧ (i a).val < win3_4.index t a * S1x128.size a + S1x128.size a := by
  show i ∈ ((View.whole main_v170_2).slice (win3_4.rect t)).set ↔ _
  rw [View.set_slice_whole, Rect.mem_set_unit]
  exact Iff.rfl

/-- Row `r` of the output array is in the block of point `r / 5000`. -/
theorem cover_blk3_2 (i : S150000x128.Idx) :
    ∃ t : Fin cfg3.N, (cfg3.win 2).flush t = true ∧ i ∈ ((cfg3.win 2).blk t).view.set := by
  have h0 : (i 0).val < 150000 := (i 0).isLt
  have h1 : (i 1).val < 128 := (i 1).isLt
  have hN : cfg3.N = 30 := N_3
  refine ⟨⟨(i 0).val / 5000, by omega⟩, flush3_2 _, ?_⟩
  rw [mem_blk3_2]
  obtain ⟨e0, e1⟩ := idx3_2 ⟨(i 0).val / 5000, by omega⟩
  intro a
  match a with
  | ⟨0, _⟩ =>
    show win3_2.index ⟨(i 0).val / 5000, _⟩ (0 : Fin 2) * 5000 ≤ (i 0).val ∧ (i 0).val < win3_2.index ⟨(i 0).val / 5000, _⟩ (0 : Fin 2) * 5000 + 5000
    rw [e0]; dsimp only; omega
  | ⟨1, _⟩ =>
    show win3_2.index ⟨(i 0).val / 5000, _⟩ (1 : Fin 2) * 128 ≤ (i 1).val ∧ (i 1).val < win3_2.index ⟨(i 0).val / 5000, _⟩ (1 : Fin 2) * 128 + 128
    rw [e1]; omega

/-- The last point's block of either sums array is the whole array. -/
theorem cover_blk3_3 (i : S1x128.Idx) :
    ∃ t : Fin cfg3.N, (cfg3.win 3).flush t = true ∧ i ∈ ((cfg3.win 3).blk t).view.set := by
  have h0 : (i 0).val < 1 := (i 0).isLt
  have h1 : (i 1).val < 128 := (i 1).isLt
  have hN : cfg3.N = 30 := N_3
  refine ⟨⟨29, by omega⟩, (flush3_3 _).mpr rfl, ?_⟩
  rw [mem_blk3_3]
  obtain ⟨e0, e1⟩ := idx3_3 ⟨29, by omega⟩
  intro a
  match a with
  | ⟨0, _⟩ =>
    show win3_3.index ⟨29, _⟩ (0 : Fin 2) * 1 ≤ (i 0).val ∧ (i 0).val < win3_3.index ⟨29, _⟩ (0 : Fin 2) * 1 + 1
    rw [e0]; omega
  | ⟨1, _⟩ =>
    show win3_3.index ⟨29, _⟩ (1 : Fin 2) * 128 ≤ (i 1).val ∧ (i 1).val < win3_3.index ⟨29, _⟩ (1 : Fin 2) * 128 + 128
    rw [e1]; omega
theorem cover_blk3_4 (i : S1x128.Idx) :
    ∃ t : Fin cfg3.N, (cfg3.win 4).flush t = true ∧ i ∈ ((cfg3.win 4).blk t).view.set := by
  have h0 : (i 0).val < 1 := (i 0).isLt
  have h1 : (i 1).val < 128 := (i 1).isLt
  have hN : cfg3.N = 30 := N_3
  refine ⟨⟨29, by omega⟩, (flush3_4 _).mpr rfl, ?_⟩
  rw [mem_blk3_4]
  obtain ⟨e0, e1⟩ := idx3_4 ⟨29, by omega⟩
  intro a
  match a with
  | ⟨0, _⟩ =>
    show win3_4.index ⟨29, _⟩ (0 : Fin 2) * 1 ≤ (i 0).val ∧ (i 0).val < win3_4.index ⟨29, _⟩ (0 : Fin 2) * 1 + 1
    rw [e0]; omega
  | ⟨1, _⟩ =>
    show win3_4.index ⟨29, _⟩ (1 : Fin 2) * 128 ≤ (i 1).val ∧ (i 1).val < win3_4.index ⟨29, _⟩ (1 : Fin 2) * 128 + 128
    rw [e1]; omega

/-- THE OUTPUT ARRAY ends holding the layer's output. -/
theorem final3_2 (c : Dev nD) : (dat3 (F := Ideal) V c).arrAt 2 cfg3.N = G3_2 (X3 V c) (Wt3 V c) :=
  (dat3 (F := Ideal) V c).arrAt_eq_of_cover 2 (G3_2 (X3 V c) (Wt3 V c)) (fun t _ => flushed3_2 V c t) cover_blk3_2

/-- THE SUMS ARRAY ends holding the column sums of the layer's output over all the rows. -/
theorem final3_3 (c : Dev nD) : (dat3 (F := Ideal) V c).arrAt 3 cfg3.N = G3_3 (X3 V c) (Wt3 V c) :=
  (dat3 (F := Ideal) V c).arrAt_eq_of_cover 3 (G3_3 (X3 V c) (Wt3 V c)) (fun t hf => flushed3_3 V c t hf) cover_blk3_3

/-- THE ARRAY OF SUMS OF SQUARES ends holding the column sums of the squares of the layer's output over all the rows. -/
theorem final3_4 (c : Dev nD) : (dat3 (F := Ideal) V c).arrAt 4 cfg3.N = G3_4 (X3 V c) (Wt3 V c) :=
  (dat3 (F := Ideal) V c).arrAt_eq_of_cover 4 (G3_4 (X3 V c) (Wt3 V c)) (fun t hf => flushed3_4 V c t hf) cover_blk3_4

end Final

end Cert.KernelIdeal.Hand

end
-- ==== Proof.KI.Value4.lean ====
import proofs.«143519_j50869592655552_1_alg».proof.Proof.KI.Region4
import proofs.«143519_j50869592655552_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)
open scoped BigOperators

/-! # Region 4, the values: what its three result arrays hold after the region, as functions of the four arrays it reads

With X the 150000 x 128 input, sc and sh the batch-norm scale and shift rows, Wt the 128 x 64 weights:
act r k = max (X r k * sc k + sh k) 0, pre r n = Σ k, act r k * Wt k n; the product window ends holding pre, the two
small windows the column sums of pre and of pre². The column sums are accumulated block by block (30 blocks of 5000
rows) in two scratch rows; a sum over all rows is the sum over the blocks of each block's sum. -/

variable {F : FTy → Type} [FloatOps F]

/-! ## What each case's stores leave, as the payloads of the blocks -/

theorem hz4 : (![0, 0] : Fin 2 → Nat) = fun _ => 0 := funext fun a => by fin_cases a <;> rfl

/-- A whole-buffer load after stores the last of which was a whole-buffer store reads that store's payload. -/
theorem readCov_cons_unit_zero4 {S : Shape} {e : EltTy} {sg : RefSig} {κ : Kind} {sp : Space}
    (v : View sg κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem out4_A_4_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) :
    out4_A_4 c i arg1 harg1 arg2 harg2 arg3 harg3 arg4 harg4 arg5 harg5 arg6 harg6 arg7 harg7 arg8 harg8 arg9 harg9 hc0 x0 x1 x2 x3 = k4_pay4 x0 x1 x2 x3 := by
  unfold out4_A_4
  rw [View.read_writes_eq_canon _ _ _ (cover4_A_4 c i arg1 harg1 arg2 harg2 arg3 harg3 arg4 harg4 arg5 harg5 arg6 harg6 arg7 harg7 arg8 harg8 arg9 harg9 hc0 x0 x1 x2 x3)]
  unfold kernelRun4_A
  dsimp only
  sl_unfold_words
  rw [View.canon_unit_zero hz4]
  simp only [View.readAt_eq_ld, harg1.read_unread, harg2.read_unread, harg3.read_unread, harg4.read_unread, View.ld_unit_zero (S := S5000x128) hz4, View.ld_unit_zero (S := S1x128) hz4, View.ld_unit_zero (S := S128x64) hz4, View.ld_unit_zero (S := S1x64) hz4]
theorem out4_B_4_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) :
    out4_B_4 c i arg1 harg1 arg2 harg2 arg3 harg3 arg4 harg4 arg5 harg5 arg6 harg6 arg7 harg7 arg8 harg8 arg9 harg9 hc0 x0 x1 x2 x3 xs0 xs1 = k4_pay4 x0 x1 x2 x3 := by
  unfold out4_B_4
  rw [View.read_writes_eq_canon _ _ _ (cover4_B_4 c i arg1 harg1 arg2 harg2 arg3 harg3 arg4 harg4 arg5 harg5 arg6 harg6 arg7 harg7 arg8 harg8 arg9 harg9 hc0 x0 x1 x2 x3 xs0 xs1)]
  unfold kernelRun4_B
  dsimp only
  sl_unfold_words
  rw [View.canon_unit_zero hz4]
  simp only [View.readAt_eq_ld, harg1.read_unread, harg2.read_unread, harg3.read_unread, harg4.read_unread, View.ld_unit_zero (S := S5000x128) hz4, View.ld_unit_zero (S := S1x128) hz4, View.ld_unit_zero (S := S128x64) hz4, View.ld_unit_zero (S := S1x64) hz4]
theorem sout4_A_0_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) :
    sout4_A_0 c i arg1 harg1 arg2 harg2 arg3 harg3 arg4 harg4 arg5 harg5 arg6 harg6 arg7 harg7 arg8 harg8 arg9 harg9 hc0 x0 x1 x2 x3 = k4_pay5 x0 x1 x2 x3 (k4_pay2 (F := F)) := by
  unfold sout4_A_0
  rw [View.read_writes_eq_canon _ _ _ (scover4_A_0 c i arg1 harg1 arg2 harg2 arg3 harg3 arg4 harg4 arg5 harg5 arg6 harg6 arg7 harg7 arg8 harg8 arg9 harg9 hc0 x0 x1 x2 x3)]
  unfold kernelRun4_A
  dsimp only
  sl_unfold_words
  rw [View.canon_cons_unit_zero (S := S1x64) hz4, View.readCov_unit_zero (S := S1x64) _ hz4]
  simp only [View.readAt_eq_ld, harg1.read_unread, harg2.read_unread, harg3.read_unread, harg4.read_unread, View.ld_unit_zero (S := S5000x128) hz4, View.ld_unit_zero (S := S1x128) hz4, View.ld_unit_zero (S := S128x64) hz4, View.ld_unit_zero (S := S1x64) hz4]
theorem sout4_B_0_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) :
    sout4_B_0 c i arg1 harg1 arg2 harg2 arg3 harg3 arg4 harg4 arg5 harg5 arg6 harg6 arg7 harg7 arg8 harg8 arg9 harg9 hc0 x0 x1 x2 x3 xs0 xs1 = k4_pay5 x0 x1 x2 x3 xs0 := by
  unfold sout4_B_0
  rw [View.read_writes_eq_canon _ _ _ (scover4_B_0 c i arg1 harg1 arg2 harg2 arg3 harg3 arg4 harg4 arg5 harg5 arg6 harg6 arg7 harg7 arg8 harg8 arg9 harg9 hc0 x0 x1 x2 x3 xs0 xs1)]
  unfold kernelRun4_B
  dsimp only
  sl_unfold_words
  rw [View.canon_unit_zero hz4]
  simp only [View.readAt_eq_ld, harg1.read_unread, harg2.read_unread, harg3.read_unread, harg4.read_unread, harg8.read_unread, View.ld_unit_zero (S := S5000x128) hz4, View.ld_unit_zero (S := S1x128) hz4, View.ld_unit_zero (S := S128x64) hz4, View.ld_unit_zero (S := S1x64) hz4]
theorem sout4_A_1_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) :
    sout4_A_1 c i arg1 harg1 arg2 harg2 arg3 harg3 arg4 harg4 arg5 harg5 arg6 harg6 arg7 harg7 arg8 harg8 arg9 harg9 hc0 x0 x1 x2 x3 = k4_pay1 (k4_pay6 x0 x1 x2 x3 (k4_pay3 (F := F))) := by
  unfold sout4_A_1
  rw [View.read_writes_eq_canon _ _ _ (scover4_A_1 c i arg1 harg1 arg2 harg2 arg3 harg3 arg4 harg4 arg5 harg5 arg6 harg6 arg7 harg7 arg8 harg8 arg9 harg9 hc0 x0 x1 x2 x3)]
  unfold kernelRun4_A
  dsimp only
  sl_unfold_words
  rw [View.canon_cons_unit_zero (S := S1x64) hz4, View.readCov_unit_zero (S := S1x64) _ hz4]
  simp only [View.readAt_eq_ld, harg1.read_unread, harg2.read_unread, harg3.read_unread, harg4.read_unread, View.ld_unit_zero (S := S5000x128) hz4, View.ld_unit_zero (S := S1x128) hz4, View.ld_unit_zero (S := S128x64) hz4, View.ld_unit_zero (S := S1x64) hz4]
theorem sout4_B_1_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) :
    sout4_B_1 c i arg1 harg1 arg2 harg2 arg3 harg3 arg4 harg4 arg5 harg5 arg6 harg6 arg7 harg7 arg8 harg8 arg9 harg9 hc0 x0 x1 x2 x3 xs0 xs1 = k4_pay1 (k4_pay6 x0 x1 x2 x3 xs1) := by
  unfold sout4_B_1
  rw [View.read_writes_eq_canon _ _ _ (scover4_B_1 c i arg1 harg1 arg2 harg2 arg3 harg3 arg4 harg4 arg5 harg5 arg6 harg6 arg7 harg7 arg8 harg8 arg9 harg9 hc0 x0 x1 x2 x3 xs0 xs1)]
  unfold kernelRun4_B
  dsimp only
  sl_unfold_words
  rw [View.canon_unit_zero hz4]
  simp only [View.readAt_eq_ld, harg1.read_unread, harg2.read_unread, harg3.read_unread, harg4.read_unread, harg9.read_unread, View.ld_unit_zero (S := S5000x128) hz4, View.ld_unit_zero (S := S1x128) hz4, View.ld_unit_zero (S := S128x64) hz4, View.ld_unit_zero (S := S1x64) hz4]
theorem out4_A_5_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) :
    out4_A_5 c i arg1 harg1 arg2 harg2 arg3 harg3 arg4 harg4 arg5 harg5 arg6 harg6 arg7 harg7 arg8 harg8 arg9 harg9 hc0 x0 x1 x2 x3 = k4_pay5 x0 x1 x2 x3 (k4_pay2 (F := F)) := by
  unfold out4_A_5
  rw [View.read_writes_eq_canon _ _ _ (cover4_A_5 c i arg1 harg1 arg2 harg2 arg3 harg3 arg4 harg4 arg5 harg5 arg6 harg6 arg7 harg7 arg8 harg8 arg9 harg9 hc0 x0 x1 x2 x3)]
  unfold kernelRun4_A
  dsimp only
  sl_unfold_words
  rw [View.canon_unit_zero hz4, readCov_cons_unit_zero4 _ hz4, View.readCov_unit_zero (S := S1x64) _ hz4]
  simp only [View.readAt_eq_ld, harg1.read_unread, harg2.read_unread, harg3.read_unread, harg4.read_unread, View.ld_unit_zero (S := S5000x128) hz4, View.ld_unit_zero (S := S1x128) hz4, View.ld_unit_zero (S := S128x64) hz4, View.ld_unit_zero (S := S1x64) hz4]
theorem out4_B_5_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) :
    out4_B_5 c i arg1 harg1 arg2 harg2 arg3 harg3 arg4 harg4 arg5 harg5 arg6 harg6 arg7 harg7 arg8 harg8 arg9 harg9 hc0 x0 x1 x2 x3 xs0 xs1 = k4_pay5 x0 x1 x2 x3 xs0 := by
  unfold out4_B_5
  rw [View.read_writes_eq_canon _ _ _ (cover4_B_5 c i arg1 harg1 arg2 harg2 arg3 harg3 arg4 harg4 arg5 harg5 arg6 harg6 arg7 harg7 arg8 harg8 arg9 harg9 hc0 x0 x1 x2 x3 xs0 xs1)]
  unfold kernelRun4_B
  dsimp only
  sl_unfold_words
  rw [View.canon_unit_zero hz4, readCov_cons_unit_zero4 _ hz4]
  simp only [View.readAt_eq_ld, harg1.read_unread, harg2.read_unread, harg3.read_unread, harg4.read_unread, harg8.read_unread, View.ld_unit_zero (S := S5000x128) hz4, View.ld_unit_zero (S := S1x128) hz4, View.ld_unit_zero (S := S128x64) hz4, View.ld_unit_zero (S := S1x64) hz4]
theorem out4_A_6_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i)
    (x0 : Vec F S5000x128 .f32) (x1 : Vec F S1x128 .f32) (x2 : Vec F S1x128 .f32) (x3 : Vec F S128x64 .f32) :
    out4_A_6 c i arg1 harg1 arg2 harg2 arg3 harg3 arg4 harg4 arg5 harg5 arg6 harg6 arg7 harg7 arg8 harg8 arg9 harg9 hc0 x0 x1 x2 x3 = k4_pay1 (k4_pay6 x0 x1 x2 x3 (k4_pay3 (F := F))) := by
  unfold out4_A_6
  rw [View.read_writes_eq_canon _ _ _ (cover4_A_6 c i arg1 harg1 arg2 harg2 arg3 harg3 arg4 harg4 arg5 harg5 arg6 harg6 arg7 harg7 arg8 harg8 arg9 harg9 hc0 x0 x1 x2 x3)]
  unfold kernelRun4_A
  dsimp only
  sl_unfold_words
  rw [View.canon_unit_zero hz4, readCov_cons_unit_zero4 _ hz4, View.readCov_unit_zero (S := S1x64) _ hz4]
  simp only [View.readAt_eq_ld, harg1.read_unread, harg2.read_unread, harg3.read_unread, harg4.read_unread, View.ld_unit_zero (S := S5000x128) hz4, View.ld_unit_zero (S := S1x128) hz4, View.ld_unit_zero (S := S128x64) hz4, View.ld_unit_zero (S := S1x64) hz4]
theorem out4_B_6_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i)
    (x0 : Vec F S5000x128 .f32) (x1 : Vec F S1x128 .f32) (x2 : Vec F S1x128 .f32) (x3 : Vec F S128x64 .f32) (xs0 : Vec F S1x64 .f32) (xs1 : Vec F S1x64 .f32) :
    out4_B_6 c i arg1 harg1 arg2 harg2 arg3 harg3 arg4 harg4 arg5 harg5 arg6 harg6 arg7 harg7 arg8 harg8 arg9 harg9 hc0 x0 x1 x2 x3 xs0 xs1 = k4_pay1 (k4_pay6 x0 x1 x2 x3 xs1) := by
  unfold out4_B_6
  rw [View.read_writes_eq_canon _ _ _ (cover4_B_6 c i arg1 harg1 arg2 harg2 arg3 harg3 arg4 harg4 arg5 harg5 arg6 harg6 arg7 harg7 arg8 harg8 arg9 harg9 hc0 x0 x1 x2 x3 xs0 xs1)]
  unfold kernelRun4_B
  dsimp only
  sl_unfold_words
  rw [View.canon_unit_zero hz4, readCov_cons_unit_zero4 _ hz4]
  simp only [View.readAt_eq_ld, harg1.read_unread, harg2.read_unread, harg3.read_unread, harg4.read_unread, harg9.read_unread, View.ld_unit_zero (S := S5000x128) hz4, View.ld_unit_zero (S := S1x128) hz4, View.ld_unit_zero (S := S128x64) hz4, View.ld_unit_zero (S := S1x64) hz4]

/-! ## The scratch rows and the windows point by point, over the payloads (any float instance) -/

section Rows
variable (V : (c : Dev nD) → (b : Ref sig .tc) → Buf (Elt F) ((c : Thread nD τ).loc b))

/-- The two scratch rows after the body at position `n`: started from zero at the first point, each later point adds
    its block's column sums (of the product, of its squares) to what the point before left. -/
def scr4 (c : Dev nD) : (n : ℕ) → n < cfg4.N → Vec F S1x64 .f32 × Vec F S1x64 .f32
  | 0, hn => (k4_pay5 (iblk4 V c 0 ⟨0, hn⟩) (iblk4 V c 1 ⟨0, hn⟩) (iblk4 V c 2 ⟨0, hn⟩) (iblk4 V c 3 ⟨0, hn⟩) (k4_pay2 (F := F)),
      k4_pay1 (k4_pay6 (iblk4 V c 0 ⟨0, hn⟩) (iblk4 V c 1 ⟨0, hn⟩) (iblk4 V c 2 ⟨0, hn⟩) (iblk4 V c 3 ⟨0, hn⟩) (k4_pay3 (F := F))))
  | n + 1, hn => (k4_pay5 (iblk4 V c 0 ⟨n + 1, hn⟩) (iblk4 V c 1 ⟨n + 1, hn⟩) (iblk4 V c 2 ⟨n + 1, hn⟩) (iblk4 V c 3 ⟨n + 1, hn⟩) (scr4 c n (Nat.lt_of_succ_lt hn)).1,
      k4_pay1 (k4_pay6 (iblk4 V c 0 ⟨n + 1, hn⟩) (iblk4 V c 1 ⟨n + 1, hn⟩) (iblk4 V c 2 ⟨n + 1, hn⟩) (iblk4 V c 3 ⟨n + 1, hn⟩) (scr4 c n (Nat.lt_of_succ_lt hn)).2))

/-- The scratch rows at the first point. -/
theorem scr4_A (c : Dev nD) (t : Fin cfg4.N) (hz : t.val = 0) :
    scr4 V c t.val t.isLt = (k4_pay5 (iblk4 V c 0 t) (iblk4 V c 1 t) (iblk4 V c 2 t) (iblk4 V c 3 t) (k4_pay2 (F := F)), k4_pay1 (k4_pay6 (iblk4 V c 0 t) (iblk4 V c 1 t) (iblk4 V c 2 t) (iblk4 V c 3 t) (k4_pay3 (F := F)))) := by
  obtain ⟨n, hn⟩ := t
  cases n with
  | zero => exact rfl
  | succ n => exact absurd hz (Nat.succ_ne_zero n)

/-- The scratch rows at a later point, over the point before. -/
theorem scr4_B (c : Dev nD) (t : Fin cfg4.N) (hz : ¬t.val = 0) :
    scr4 V c t.val t.isLt = (k4_pay5 (iblk4 V c 0 t) (iblk4 V c 1 t) (iblk4 V c 2 t) (iblk4 V c 3 t) (scr4 V c (t.val - 1) (Nat.lt_of_le_of_lt (Nat.sub_le _ _) t.isLt)).1, k4_pay1 (k4_pay6 (iblk4 V c 0 t) (iblk4 V c 1 t) (iblk4 V c 2 t) (iblk4 V c 3 t) (scr4 V c (t.val - 1) (Nat.lt_of_le_of_lt (Nat.sub_le _ _) t.isLt)).2)) := by
  obtain ⟨n, hn⟩ := t
  cases n with
  | zero => exact absurd rfl hz
  | succ n => exact rfl

/-- After every point the product window holds the block's product, and the two small windows hold the scratch rows'
    current contents. -/
theorem outsAt4_pt (c : Dev nD) : ∀ (n : ℕ) (t : Fin cfg4.N), t.val = n → outsAt4 V c t.val t.isLt
    = (k4_pay4 (iblk4 V c 0 t) (iblk4 V c 1 t) (iblk4 V c 2 t) (iblk4 V c 3 t), (scr4 V c t.val t.isLt).1, (scr4 V c t.val t.isLt).2, (scr4 V c t.val t.isLt).1, (scr4 V c t.val t.isLt).2)
  | 0, t, hz => by
    rw [outsAt4_A V c t hz, scr4_A V c t hz]
    rw [out4_A_4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t),
      out4_A_5_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t),
      out4_A_6_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t),
      sout4_A_0_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t),
      sout4_A_1_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr hz) (iblk4 V c 0 t) (iblk4 V c 1 t) (iblk4 V c 2 t) (iblk4 V c 3 t)]
  | n + 1, t, hn => by
    have hz : ¬t.val = 0 := by omega
    have ih := outsAt4_pt c n ⟨t.val - 1, Nat.lt_of_le_of_lt (Nat.sub_le _ _) t.isLt⟩ (by show t.val - 1 = n; omega)
    have e0 : (outsAt4 V c (t.val - 1) (Nat.lt_of_le_of_lt (Nat.sub_le _ _) t.isLt)).2.2.2.1 = (scr4 V c (t.val - 1) (Nat.lt_of_le_of_lt (Nat.sub_le _ _) t.isLt)).1 := congrArg (fun x => x.2.2.2.1) ih
    have e1 : (outsAt4 V c (t.val - 1) (Nat.lt_of_le_of_lt (Nat.sub_le _ _) t.isLt)).2.2.2.2 = (scr4 V c (t.val - 1) (Nat.lt_of_le_of_lt (Nat.sub_le _ _) t.isLt)).2 := congrArg (fun x => x.2.2.2.2) ih
    rw [outsAt4_B V c t hz, scr4_B V c t hz]
    rw [out4_B_4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_5_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_6_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_0_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_1_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => hz ((hcond4_0 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2]
    rw [e0, e1]

theorem outsAt4_eq (c : Dev nD) (t : Fin cfg4.N) : outsAt4 V c t.val t.isLt
    = (k4_pay4 (iblk4 V c 0 t) (iblk4 V c 1 t) (iblk4 V c 2 t) (iblk4 V c 3 t), (scr4 V c t.val t.isLt).1, (scr4 V c t.val t.isLt).2, (scr4 V c t.val t.isLt).1, (scr4 V c t.val t.isLt).2) :=
  outsAt4_pt V c t.val t rfl

end Rows
/-! ## The payloads at an index, at the ideal instance: floats are extended reals, every operation exact -/

section AtIdeal

/-- The contraction's operand indices: the left operand is read at (row, k), the right at (k, column). -/
theorem lhs4_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs4_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs4_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs4_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix product into a zero accumulator, at (p, n): the sum over the 128 contracted coordinates. -/
theorem matmul4_apply (A : FVec Ideal S5000x128 .bf16) (B : FVec Ideal S128x64 .bf16) (p : Fin 5000) (n : Fin 64) :
    matmul dot_S5000x128_S128x64_S5000x64_1_0_0_1_n_n none A B (constant (F := Ideal) S5000x64 .f32 0x00000000#32) (ix2 p n) = ∑ k : Fin 128, A (ix2 p k) * B (ix2 k n) := by
  refine (Ideal.matmul_constant_zero_apply dot_S5000x128_S128x64_S5000x64_1_0_0_1_n_n none A B (ix2 p n)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p n) ((contrEquiv1 dot_S5000x128_S128x64_S5000x64_1_0_0_1_n_n 128 rfl rfl).symm k) = ix2 p k := funext fun a => Fin.ext (by
    match a with
    | ⟨0, _⟩ => exact lhs4_0 _ _
    | ⟨1, _⟩ => exact (lhs4_1 _ _).trans hk)
  have er : dot_S5000x128_S128x64_S5000x64_1_0_0_1_n_n.rhsIdx (ix2 p n) ((contrEquiv1 dot_S5000x128_S128x64_S5000x64_1_0_0_1_n_n 128 rfl rfl).symm k) = ix2 k n := funext fun a => Fin.ext (by
    match a with
    | ⟨0, _⟩ => exact (rhs4_0 _ _).trans hk
    | ⟨1, _⟩ => exact rhs4_1 _ _)
  rw [el, er]

/-- The block's product at (p, n): the relu of the affine transform of row p, times column n of the weights. -/
theorem pay44_apply (x0 : Vec Ideal S5000x128 .f32) (x1 x2 : Vec Ideal S1x128 .f32) (x3 : Vec Ideal S128x64 .f32)
    (p : Fin 5000) (n : Fin 64) :
    k4_pay4 (F := Ideal) x0 x1 x2 x3 (ix2 p n)
      = ∑ k : Fin 128, max (x0 (ix2 p k) * x1 (ix2 (0 : Fin 1) k) + x2 (ix2 (0 : Fin 1) k)) 0 * x3 (ix2 k n) := by
  unfold k4_pay4
  refine (matmul4_apply _ _ p n).trans ?_
  refine Finset.sum_congr rfl fun k _ => ?_
  show max (shapeCast S5000x128 x0 shapeCasts_S5000x128_S5000x128 (ix2 p k)
      * broadcastTo S5000x128 (shapeCast S1x128 x1 shapeCasts_S1x128_S1x128) broadcasts_S1x128_S5000x128 (ix2 p k)
      + broadcastTo S5000x128 (shapeCast S1x128 x2 shapeCasts_S1x128_S1x128) broadcasts_S1x128_S5000x128 (ix2 p k))
      (Ideal.ofBits .f32 0x00000000#32) * x3 (ix2 k n) = _
  rw [shapeCast_self, shapeCast_self, shapeCast_self, broadcastTo_1b_ab_apply, broadcastTo_1b_ab_apply, Ideal.ofBits_zero_f32]

/-- A column sum over the block's 5000 rows. -/
theorem colsum4_apply (src : FVec Ideal S5000x64 .f32) (n : Fin 64) :
    multiReduction (F := Ideal) .add [0] S64 src 0x00000000#32 reduces_S5000x64_S64 (.inl rfl) rfl (ix1 n) = ∑ p : Fin 5000, src (ix2 p n) := by
  refine (Ideal.multiReduction_add_single src 0x00000000#32 reduces_S5000x64_S64 (.inl rfl) rfl (ix1 n)).trans ?_
  refine Finset.sum_congr rfl fun p _ => congrArg src ?_
  funext a; apply Fin.ext
  match a with
  | ⟨0, _⟩ => rfl
  | ⟨1, _⟩ => rfl

/-- The first scratch row's update at column n: what it held plus the product's column sum. -/
theorem pay54_apply (x0 : Vec Ideal S5000x128 .f32) (x1 x2 : Vec Ideal S1x128 .f32) (x3 : Vec Ideal S128x64 .f32)
    (v : Vec Ideal S1x64 .f32) (n : Fin 64) :
    k4_pay5 (F := Ideal) x0 x1 x2 x3 v (ix2 (0 : Fin 1) n)
      = v (ix2 (0 : Fin 1) n) + ∑ p : Fin 5000, k4_pay4 (F := Ideal) x0 x1 x2 x3 (ix2 p n) := by
  unfold k4_pay5
  refine (congrFun (shapeCast_self _ _) _).trans ?_
  refine congrArg (v (ix2 (0 : Fin 1) n) + ·) ?_
  refine (shapeCast_a_1a_apply _ _ (0 : Fin 1) n).trans ?_
  exact colsum4_apply _ n

/-- The second scratch row's update at column n: what it held plus the column sum of the product's squares. -/
theorem pay64_apply (x0 : Vec Ideal S5000x128 .f32) (x1 x2 : Vec Ideal S1x128 .f32) (x3 : Vec Ideal S128x64 .f32)
    (v : Vec Ideal S1x64 .f32) (n : Fin 64) :
    k4_pay1 (F := Ideal) (k4_pay6 (F := Ideal) x0 x1 x2 x3 v) (ix2 (0 : Fin 1) n)
      = v (ix2 (0 : Fin 1) n) + ∑ p : Fin 5000, k4_pay4 (F := Ideal) x0 x1 x2 x3 (ix2 p n) * k4_pay4 (F := Ideal) x0 x1 x2 x3 (ix2 p n) := by
  unfold k4_pay1 k4_pay6
  refine (congrFun (shapeCast_self _ _) _).trans ?_
  refine congrArg (v (ix2 (0 : Fin 1) n) + ·) ?_
  refine (shapeCast_a_1a_apply _ _ (0 : Fin 1) n).trans ?_
  exact colsum4_apply _ n

/-- The rows the first point starts from are zero. -/
theorem pay24_apply (j : S1x64.Idx) : k4_pay2 (F := Ideal) j = 0 := by
  unfold k4_pay2
  refine (congrFun (shapeCast_self _ _) _).trans ?_
  exact Ideal.ofBits_zero_f32
theorem pay34_apply (j : S1x64.Idx) : k4_pay3 (F := Ideal) j = 0 := by
  unfold k4_pay3
  refine (congrFun (shapeCast_self _ _) _).trans ?_
  exact Ideal.ofBits_zero_f32

/-! ## The specification: the three results as functions of the four arrays the region reads -/

/-- Row r of the activations at coordinate k: the relu of the batch-norm affine transform. -/
def act4 (X : FVec Ideal S150000x128 .f32) (sc sh : FVec Ideal S1x128 .f32) (r : Fin 150000) (k : Fin 128) : Ideal .f32 :=
  max (X (ix2 r k) * sc (ix2 (0 : Fin 1) k) + sh (ix2 (0 : Fin 1) k)) 0

/-- The linear layer at (r, n). -/
def pre4 (X : FVec Ideal S150000x128 .f32) (sc sh : FVec Ideal S1x128 .f32) (Wt : FVec Ideal S128x64 .f32)
    (r : Fin 150000) (n : Fin 64) : Ideal .f32 :=
  ∑ k : Fin 128, act4 X sc sh r k * Wt (ix2 k n)

/-- The product array, the column sums and the column sums of squares, index by index. -/
def G4_4 (X : FVec Ideal S150000x128 .f32) (sc sh : FVec Ideal S1x128 .f32) (Wt : FVec Ideal S128x64 .f32) :
    FVec Ideal S150000x64 .f32 := fun j => pre4 X sc sh Wt (j 0) (j 1)

def G4_5 (X : FVec Ideal S150000x128 .f32) (sc sh : FVec Ideal S1x128 .f32) (Wt : FVec Ideal S128x64 .f32) :
    FVec Ideal S1x64 .f32 := fun j => ∑ r : Fin 150000, pre4 X sc sh Wt r (j 1)

def G4_6 (X : FVec Ideal S150000x128 .f32) (sc sh : FVec Ideal S1x128 .f32) (Wt : FVec Ideal S128x64 .f32) :
    FVec Ideal S1x64 .f32 := fun j => ∑ r : Fin 150000, pre4 X sc sh Wt r (j 1) * pre4 X sc sh Wt r (j 1)

theorem G4_4_apply (X : FVec Ideal S150000x128 .f32) (sc sh : FVec Ideal S1x128 .f32) (Wt : FVec Ideal S128x64 .f32)
    (r : Fin 150000) (n : Fin 64) : G4_4 X sc sh Wt (ix2 r n) = pre4 X sc sh Wt r n := rfl
theorem G4_5_apply (X : FVec Ideal S150000x128 .f32) (sc sh : FVec Ideal S1x128 .f32) (Wt : FVec Ideal S128x64 .f32)
    (u : Fin 1) (n : Fin 64) : G4_5 X sc sh Wt (ix2 u n) = ∑ r : Fin 150000, pre4 X sc sh Wt r n := rfl
theorem G4_6_apply (X : FVec Ideal S150000x128 .f32) (sc sh : FVec Ideal S1x128 .f32) (Wt : FVec Ideal S128x64 .f32)
    (u : Fin 1) (n : Fin 64) : G4_6 X sc sh Wt (ix2 u n) = ∑ r : Fin 150000, pre4 X sc sh Wt r n * pre4 X sc sh Wt r n := rfl

/-! ## From blocks to arrays -/

variable (V : (c : Dev nD) → (b : Ref sig .tc) → Buf (Elt Ideal) ((c : Thread nD τ).loc b))

/-- The four arrays the region reads, as it finds them. -/
abbrev arrX4 (c : Dev nD) : S150000x128.Idx → EReal := V c (Pipeline.arrRef spec4 0)
abbrev arrScale4 (c : Dev nD) : S1x128.Idx → EReal := V c (Pipeline.arrRef spec4 1)
abbrev arrShift4 (c : Dev nD) : S1x128.Idx → EReal := V c (Pipeline.arrRef spec4 2)
abbrev arrW4 (c : Dev nD) : S128x64.Idx → EReal := V c (Pipeline.arrRef spec4 3)

/-- The printed index maps over the grid: the row windows sit at block t, every other window at block 0. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

theorem rows4 : 30 * 5000 = 150000 := by norm_num

/-- Row p of block t is row t·5000 + p of the array. -/
theorem blk4_0_apply (c : Dev nD) (t : Fin cfg4.N) (p : Fin 5000) (k : Fin 128) (hr : t.val * 5000 + p.val < 150000) :
    (iblk4 V c 0 t : Vec Ideal S5000x128 .f32) (ix2 p k) = arrX4 V c (ix2 ⟨t.val * 5000 + p.val, hr⟩ k) := by
  unfold iblk4
  rw [View.read_apply]
  show V c (Pipeline.arrRef spec4 0) _ = V c (Pipeline.arrRef spec4 0) _
  congr 1
  funext a
  apply Fin.ext
  match a with
  | ⟨0, _⟩ => show win4_0.index t 0 * 5000 + 1 * p.val = t.val * 5000 + p.val; rw [(idx_facts4 t).1]; omega
  | ⟨1, _⟩ => show win4_0.index t 1 * 128 + 1 * k.val = k.val; rw [(idx_facts4 t).2.1]; omega
theorem blk4_1_apply (c : Dev nD) (t : Fin cfg4.N) (k : Fin 128) :
    (iblk4 V c 1 t : Vec Ideal S1x128 .f32) (ix2 (0 : Fin 1) k) = arrScale4 V c (ix2 (0 : Fin 1) k) := by
  unfold iblk4
  rw [View.read_apply]
  show V c (Pipeline.arrRef spec4 1) _ = V c (Pipeline.arrRef spec4 1) _
  congr 1
  funext a
  apply Fin.ext
  match a with
  | ⟨0, _⟩ => show win4_1.index t 0 * 1 + 1 * 0 = 0; rw [(idx_facts4 t).2.2.1]
  | ⟨1, _⟩ => show win4_1.index t 1 * 128 + 1 * k.val = k.val; rw [(idx_facts4 t).2.2.2.1]; omega
theorem blk4_2_apply (c : Dev nD) (t : Fin cfg4.N) (k : Fin 128) :
    (iblk4 V c 2 t : Vec Ideal S1x128 .f32) (ix2 (0 : Fin 1) k) = arrShift4 V c (ix2 (0 : Fin 1) k) := by
  unfold iblk4
  rw [View.read_apply]
  show V c (Pipeline.arrRef spec4 2) _ = V c (Pipeline.arrRef spec4 2) _
  congr 1
  funext a
  apply Fin.ext
  match a with
  | ⟨0, _⟩ => show win4_2.index t 0 * 1 + 1 * 0 = 0; rw [(idx_facts4 t).2.2.2.2.1]
  | ⟨1, _⟩ => show win4_2.index t 1 * 128 + 1 * k.val = k.val; rw [(idx_facts4 t).2.2.2.2.2.1]; omega
theorem blk4_3_apply (c : Dev nD) (t : Fin cfg4.N) (k : Fin 128) (n : Fin 64) :
    (iblk4 V c 3 t : Vec Ideal S128x64 .f32) (ix2 k n) = arrW4 V c (ix2 k n) := by
  unfold iblk4
  rw [View.read_apply]
  show V c (Pipeline.arrRef spec4 3) _ = V c (Pipeline.arrRef spec4 3) _
  congr 1
  funext a
  apply Fin.ext
  match a with
  | ⟨0, _⟩ => show win4_3.index t 0 * 128 + 1 * k.val = k.val; rw [(idx_facts4 t).2.2.2.2.2.2.1]; omega
  | ⟨1, _⟩ => show win4_3.index t 1 * 64 + 1 * n.val = n.val; rw [(idx_facts4 t).2.2.2.2.2.2.2.1]; omega

/-- The block's product at (p, n) is the linear layer at row t·5000 + p. -/
theorem pay44_block (c : Dev nD) (t : Fin cfg4.N) (p : Fin 5000) (n : Fin 64) (hr : t.val * 5000 + p.val < 150000) :
    k4_pay4 (F := Ideal) (iblk4 V c 0 t) (iblk4 V c 1 t) (iblk4 V c 2 t) (iblk4 V c 3 t) (ix2 p n) = pre4 (arrX4 V c) (arrScale4 V c) (arrShift4 V c) (arrW4 V c) ⟨t.val * 5000 + p.val, hr⟩ n := by
  refine (pay44_apply (iblk4 V c 0 t) (iblk4 V c 1 t) (iblk4 V c 2 t) (iblk4 V c 3 t) p n).trans ?_
  unfold pre4 act4
  refine Finset.sum_congr rfl fun k _ => ?_
  rw [blk4_0_apply V c t p k hr, blk4_1_apply V c t k, blk4_2_apply V c t k, blk4_3_apply V c t k n]

end AtIdeal

section Finals
variable (V : (c : Dev nD) → (b : Ref sig .tc) → Buf (Elt Ideal) ((c : Thread nD τ).loc b))

/-- One block's contribution to the two column totals at column n. -/
def blkSum4 (c : Dev nD) (n : Fin 64) : Fin 30 → EReal :=
  fun t => ∑ q : Fin 5000, pre4 (arrX4 V c) (arrScale4 V c) (arrShift4 V c) (arrW4 V c) ⟨t.val * 5000 + q.val, Cert.LibBlockSum.row_lt_of_eq rows4 t q⟩ n
def blkSumSq4 (c : Dev nD) (n : Fin 64) : Fin 30 → EReal :=
  fun t => ∑ q : Fin 5000, pre4 (arrX4 V c) (arrScale4 V c) (arrShift4 V c) (arrW4 V c) ⟨t.val * 5000 + q.val, Cert.LibBlockSum.row_lt_of_eq rows4 t q⟩ n * pre4 (arrX4 V c) (arrScale4 V c) (arrShift4 V c) (arrW4 V c) ⟨t.val * 5000 + q.val, Cert.LibBlockSum.row_lt_of_eq rows4 t q⟩ n

/-- The scratch rows after point t hold the totals over the first t + 1 blocks: by induction on the point. -/
theorem scr4_pt (c : Dev nD) (n : Fin 64) : ∀ (m : ℕ) (t : Fin cfg4.N), t.val = m →
    (scr4 (F := Ideal) V c t.val t.isLt).1 (ix2 (0 : Fin 1) n) = Cert.LibBlockSum.upTo (blkSum4 V c n) (t.val + 1)
    ∧ (scr4 (F := Ideal) V c t.val t.isLt).2 (ix2 (0 : Fin 1) n) = Cert.LibBlockSum.upTo (blkSumSq4 V c n) (t.val + 1)
  | 0, t, hz => by
    have hN : cfg4.N = 30 := N_4
    have h30 : t.val < 30 := lt_of_lt_of_eq t.isLt hN
    rw [scr4_A V c t hz]
    have e1 : t.val + 1 = 1 := by omega
    have eb : (⟨0, by norm_num⟩ : Fin 30) = ⟨t.val, h30⟩ := Fin.ext hz.symm
    constructor
    · show k4_pay5 (F := Ideal) (iblk4 V c 0 t) (iblk4 V c 1 t) (iblk4 V c 2 t) (iblk4 V c 3 t) (k4_pay2 (F := Ideal)) (ix2 (0 : Fin 1) n) = _
      rw [e1, Cert.LibBlockSum.upTo_one _ (by norm_num : 0 < 30), eb]
      refine (pay54_apply (iblk4 V c 0 t) (iblk4 V c 1 t) (iblk4 V c 2 t) (iblk4 V c 3 t) (k4_pay2 (F := Ideal)) n).trans ?_
      rw [pay24_apply, zero_add]
      exact Finset.sum_congr rfl fun p _ => pay44_block V c t p n _
    · show k4_pay1 (F := Ideal) (k4_pay6 (F := Ideal) (iblk4 V c 0 t) (iblk4 V c 1 t) (iblk4 V c 2 t) (iblk4 V c 3 t) (k4_pay3 (F := Ideal))) (ix2 (0 : Fin 1) n) = _
      rw [e1, Cert.LibBlockSum.upTo_one _ (by norm_num : 0 < 30), eb]
      refine (pay64_apply (iblk4 V c 0 t) (iblk4 V c 1 t) (iblk4 V c 2 t) (iblk4 V c 3 t) (k4_pay3 (F := Ideal)) n).trans ?_
      rw [pay34_apply, zero_add]
      exact Finset.sum_congr rfl fun p _ => by rw [pay44_block V c t p n (Cert.LibBlockSum.row_lt_of_eq rows4 (⟨t.val, h30⟩ : Fin 30) p)]
  | m + 1, t, hm => by
    have hN : cfg4.N = 30 := N_4
    have h30 : t.val < 30 := lt_of_lt_of_eq t.isLt hN
    have hz : ¬t.val = 0 := by omega
    have ih := scr4_pt c n m ⟨t.val - 1, Nat.lt_of_le_of_lt (Nat.sub_le _ _) t.isLt⟩ (by show t.val - 1 = m; omega)
    have e1 : t.val - 1 + 1 = t.val := by omega
    have ih0 : (scr4 (F := Ideal) V c (t.val - 1) (Nat.lt_of_le_of_lt (Nat.sub_le _ _) t.isLt)).1 (ix2 (0 : Fin 1) n) = Cert.LibBlockSum.upTo (blkSum4 V c n) (t.val - 1 + 1) := ih.1
    have ih1 : (scr4 (F := Ideal) V c (t.val - 1) (Nat.lt_of_le_of_lt (Nat.sub_le _ _) t.isLt)).2 (ix2 (0 : Fin 1) n) = Cert.LibBlockSum.upTo (blkSumSq4 V c n) (t.val - 1 + 1) := ih.2
    rw [scr4_B V c t hz]
    constructor
    · show k4_pay5 (F := Ideal) (iblk4 V c 0 t) (iblk4 V c 1 t) (iblk4 V c 2 t) (iblk4 V c 3 t) (scr4 V c (t.val - 1) (Nat.lt_of_le_of_lt (Nat.sub_le _ _) t.isLt)).1 (ix2 (0 : Fin 1) n) = _
      rw [Cert.LibBlockSum.upTo_succ _ t.val h30]
      refine (pay54_apply (iblk4 V c 0 t) (iblk4 V c 1 t) (iblk4 V c 2 t) (iblk4 V c 3 t) _ n).trans ?_
      rw [ih0, e1]
      exact congrArg (_ + ·) (Finset.sum_congr rfl fun p _ => pay44_block V c t p n _)
    · show k4_pay1 (F := Ideal) (k4_pay6 (F := Ideal) (iblk4 V c 0 t) (iblk4 V c 1 t) (iblk4 V c 2 t) (iblk4 V c 3 t) (scr4 V c (t.val - 1) (Nat.lt_of_le_of_lt (Nat.sub_le _ _) t.isLt)).2) (ix2 (0 : Fin 1) n) = _
      rw [Cert.LibBlockSum.upTo_succ _ t.val h30]
      refine (pay64_apply (iblk4 V c 0 t) (iblk4 V c 1 t) (iblk4 V c 2 t) (iblk4 V c 3 t) _ n).trans ?_
      rw [ih1, e1]
      exact congrArg (_ + ·) (Finset.sum_congr rfl fun p _ => by rw [pay44_block V c t p n (Cert.LibBlockSum.row_lt_of_eq rows4 (⟨t.val, h30⟩ : Fin 30) p)])

theorem scr4_apply (c : Dev nD) (n : Fin 64) (t : Fin cfg4.N) (u : Fin 1) :
    (scr4 (F := Ideal) V c t.val t.isLt).1 (ix2 u n) = Cert.LibBlockSum.upTo (blkSum4 V c n) (t.val + 1)
    ∧ (scr4 (F := Ideal) V c t.val t.isLt).2 (ix2 u n) = Cert.LibBlockSum.upTo (blkSumSq4 V c n) (t.val + 1) := by
  obtain rfl : u = 0 := Subsingleton.elim _ _
  exact scr4_pt V c n t.val t rfl

/-- The last grid point. -/
abbrev tLast4 : Fin cfg4.N := ⟨29, by rw [show cfg4.N = 30 from N_4]; norm_num⟩

/-- What point t writes back into the product window is block t of the linear layer's array. -/
theorem flushed4_4_eq (c : Dev nD) (t : Fin cfg4.N) :
    (dat4 (F := Ideal) V c).flushed 4 t = ((cfg4.win 4).blk t).view.read (Elt Ideal) (G4_4 (arrX4 V c) (arrScale4 V c) (arrShift4 V c) (arrW4 V c)) := by
  have hN : cfg4.N = 30 := N_4
  show (cfg4.win 4).cut (grid4.coords t) ((dat4 V c).after 4 t) = _
  rw [after4_4, outsAt4_eq V c t]
  refine funext fun (j : S5000x64.Idx) => ?_
  obtain ⟨p, n, rfl⟩ : ∃ (p : Fin 5000) (n : Fin 64), j = ix2 p n := ⟨j 0, j 1, eq_ix2 j⟩
  have hr : t.val * 5000 + p.val < 150000 := by have := t.isLt; have := p.isLt; omega
  have he : ((cfg4.win 4).blk t).view.emb (ix2 p n) = ix2 (⟨t.val * 5000 + p.val, hr⟩ : Fin 150000) n :=
    funext fun a => Fin.ext (by
      match a with
      | ⟨0, _⟩ => show win4_4.index t 0 * 5000 + 1 * p.val = t.val * 5000 + p.val; rw [(idx_facts4 t).2.2.2.2.2.2.2.2.1]; omega
      | ⟨1, _⟩ => show win4_4.index t 1 * 64 + 1 * n.val = n.val; rw [(idx_facts4 t).2.2.2.2.2.2.2.2.2.1]; omega)
  show k4_pay4 (F := Ideal) (iblk4 V c 0 t) (iblk4 V c 1 t) (iblk4 V c 2 t) (iblk4 V c 3 t) (ix2 p n) = G4_4 (arrX4 V c) (arrScale4 V c) (arrShift4 V c) (arrW4 V c) (((cfg4.win 4).blk t).view.emb (ix2 p n))
  rw [he, G4_4_apply]
  exact pay44_block V c t p n hr

theorem mem_blk4_4 (t : Fin cfg4.N) (i : S150000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v185_0).slice (win4_4.rect t)).set ↔ _
  rw [View.set_slice_whole, Rect.mem_set_unit]
  exact Iff.rfl

/-- The product window's array after the region: the linear layer of the activations, row by row; the block that
    covers row r is block r / 5000. -/
theorem final4_4 (c : Dev nD) : (dat4 (F := Ideal) V c).arrAt 4 cfg4.N = G4_4 (V c (Pipeline.arrRef spec4 0)) (V c (Pipeline.arrRef spec4 1)) (V c (Pipeline.arrRef spec4 2)) (V c (Pipeline.arrRef spec4 3)) :=
  (dat4 V c).arrAt_eq_of_cover 4 (G4_4 (arrX4 V c) (arrScale4 V c) (arrShift4 V c) (arrW4 V c)) (fun t _ => flushed4_4_eq V c t) fun i => by
    have h0 : (i 0).val < 150000 := (i 0).isLt
    have h1 : (i 1).val < 64 := (i 1).isLt
    have hN : cfg4.N = 30 := N_4
    refine ⟨⟨(i 0).val / 5000, by omega⟩, flush4_4 _, ?_⟩
    rw [mem_blk4_4]
    intro a
    match a with
    | ⟨0, _⟩ => show win4_4.index ⟨(i 0).val / 5000, _⟩ 0 * 5000 ≤ (i 0).val ∧ (i 0).val < win4_4.index ⟨(i 0).val / 5000, _⟩ 0 * 5000 + 5000
                rw [(idx_facts4 ⟨(i 0).val / 5000, _⟩).2.2.2.2.2.2.2.2.1]; dsimp only; omega
    | ⟨1, _⟩ => show win4_4.index ⟨(i 0).val / 5000, _⟩ 1 * 64 ≤ (i 1).val ∧ (i 1).val < win4_4.index ⟨(i 0).val / 5000, _⟩ 1 * 64 + 64
                rw [(idx_facts4 ⟨(i 0).val / 5000, _⟩).2.2.2.2.2.2.2.2.2.1]; omega

/-- What the last point writes back into window 5 is the whole column-sum row: the running total after all 30 blocks. -/
theorem flushed4_5_eq (c : Dev nD) (t : Fin cfg4.N) (hf : (cfg4.win 5).flush t = true) :
    (dat4 (F := Ideal) V c).flushed 5 t = ((cfg4.win 5).blk t).view.read (Elt Ideal) (G4_5 (arrX4 V c) (arrScale4 V c) (arrShift4 V c) (arrW4 V c)) := by
  have hN : cfg4.N = 30 := N_4
  have h29 : t.val = 29 := by have := (flush4_5 t).mp hf; have := t.isLt; omega
  show (cfg4.win 5).cut (grid4.coords t) ((dat4 V c).after 5 t) = _
  rw [after4_5, outsAt4_eq V c t]
  funext y
  obtain ⟨u, n, rfl⟩ : ∃ (u : Fin 1) (n : Fin 64), y = ix2 u n := ⟨y 0, y 1, eq_ix2 y⟩
  refine ((scr4_apply V c n t u).1).trans ?_
  have e30 : t.val + 1 = 30 := by omega
  rw [e30]
  refine (Cert.LibBlockSum.upTo_blocks rows4 (fun r : Fin 150000 => pre4 (arrX4 V c) (arrScale4 V c) (arrShift4 V c) (arrW4 V c) r n)).trans ?_
  rw [View.read_apply]
  unfold G4_5
  have hn : (((cfg4.win 5).blk t).view.emb (ix2 u n)) 1 = n := Fin.ext (by
    show win4_5.index t (1 : Fin 2) * 64 + 1 * n.val = n.val; rw [(idx_facts4 t).2.2.2.2.2.2.2.2.2.2.2.1]; omega)
  rw [hn]
  first | exact (cast_eq _ _).symm | rfl

theorem mem_blk4_5 (t : Fin cfg4.N) (i : S1x64.Idx) :
    i ∈ ((cfg4.win 5).blk t).view.set ↔ ∀ a : Fin 2, win4_5.index t a * S1x64.size a ≤ (i a).val ∧ (i a).val < win4_5.index t a * S1x64.size a + S1x64.size a := by
  show i ∈ ((View.whole main_v185_1).slice (win4_5.rect t)).set ↔ _
  rw [View.set_slice_whole, Rect.mem_set_unit]
  exact Iff.rfl

/-- Window 5's array after the region. -/
theorem final4_5 (c : Dev nD) : (dat4 (F := Ideal) V c).arrAt 5 cfg4.N = G4_5 (V c (Pipeline.arrRef spec4 0)) (V c (Pipeline.arrRef spec4 1)) (V c (Pipeline.arrRef spec4 2)) (V c (Pipeline.arrRef spec4 3)) :=
  (dat4 V c).arrAt_eq_of_cover 5 (G4_5 (arrX4 V c) (arrScale4 V c) (arrShift4 V c) (arrW4 V c)) (fun t hf => flushed4_5_eq V c t hf) fun i =>
    ⟨tLast4, (flush4_5 tLast4).mpr rfl, by
      rw [mem_blk4_5]
      intro a
      have h0 : (i 0).val < 1 := (i 0).isLt
      have h1 : (i 1).val < 64 := (i 1).isLt
      match a with
      | ⟨0, _⟩ => show win4_5.index tLast4 0 * 1 ≤ (i 0).val ∧ (i 0).val < win4_5.index tLast4 0 * 1 + 1
                  rw [(idx_facts4 tLast4).2.2.2.2.2.2.2.2.2.2.1]; omega
      | ⟨1, _⟩ => show win4_5.index tLast4 1 * 64 ≤ (i 1).val ∧ (i 1).val < win4_5.index tLast4 1 * 64 + 64
                  rw [(idx_facts4 tLast4).2.2.2.2.2.2.2.2.2.2.2.1]; omega⟩

/-- What the last point writes back into window 6 is the whole sum-of-squares row: the running total after all 30 blocks. -/
theorem flushed4_6_eq (c : Dev nD) (t : Fin cfg4.N) (hf : (cfg4.win 6).flush t = true) :
    (dat4 (F := Ideal) V c).flushed 6 t = ((cfg4.win 6).blk t).view.read (Elt Ideal) (G4_6 (arrX4 V c) (arrScale4 V c) (arrShift4 V c) (arrW4 V c)) := by
  have hN : cfg4.N = 30 := N_4
  have h29 : t.val = 29 := by have := (flush4_6 t).mp hf; have := t.isLt; omega
  show (cfg4.win 6).cut (grid4.coords t) ((dat4 V c).after 6 t) = _
  rw [after4_6, outsAt4_eq V c t]
  funext y
  obtain ⟨u, n, rfl⟩ : ∃ (u : Fin 1) (n : Fin 64), y = ix2 u n := ⟨y 0, y 1, eq_ix2 y⟩
  refine ((scr4_apply V c n t u).2).trans ?_
  have e30 : t.val + 1 = 30 := by omega
  rw [e30]
  refine (Cert.LibBlockSum.upTo_blocks rows4 (fun r : Fin 150000 => pre4 (arrX4 V c) (arrScale4 V c) (arrShift4 V c) (arrW4 V c) r n * pre4 (arrX4 V c) (arrScale4 V c) (arrShift4 V c) (arrW4 V c) r n)).trans ?_
  rw [View.read_apply]
  unfold G4_6
  have hn : (((cfg4.win 6).blk t).view.emb (ix2 u n)) 1 = n := Fin.ext (by
    show win4_6.index t (1 : Fin 2) * 64 + 1 * n.val = n.val; rw [(idx_facts4 t).2.2.2.2.2.2.2.2.2.2.2.2.2]; omega)
  rw [hn]
  first | exact (cast_eq _ _).symm | rfl

theorem mem_blk4_6 (t : Fin cfg4.N) (i : S1x64.Idx) :
    i ∈ ((cfg4.win 6).blk t).view.set ↔ ∀ a : Fin 2, win4_6.index t a * S1x64.size a ≤ (i a).val ∧ (i a).val < win4_6.index t a * S1x64.size a + S1x64.size a := by
  show i ∈ ((View.whole main_v185_2).slice (win4_6.rect t)).set ↔ _
  rw [View.set_slice_whole, Rect.mem_set_unit]
  exact Iff.rfl

/-- Window 6's array after the region. -/
theorem final4_6 (c : Dev nD) : (dat4 (F := Ideal) V c).arrAt 6 cfg4.N = G4_6 (V c (Pipeline.arrRef spec4 0)) (V c (Pipeline.arrRef spec4 1)) (V c (Pipeline.arrRef spec4 2)) (V c (Pipeline.arrRef spec4 3)) :=
  (dat4 V c).arrAt_eq_of_cover 6 (G4_6 (arrX4 V c) (arrScale4 V c) (arrShift4 V c) (arrW4 V c)) (fun t hf => flushed4_6_eq V c t hf) fun i =>
    ⟨tLast4, (flush4_6 tLast4).mpr rfl, by
      rw [mem_blk4_6]
      intro a
      have h0 : (i 0).val < 1 := (i 0).isLt
      have h1 : (i 1).val < 64 := (i 1).isLt
      match a with
      | ⟨0, _⟩ => show win4_6.index tLast4 0 * 1 ≤ (i 0).val ∧ (i 0).val < win4_6.index tLast4 0 * 1 + 1
                  rw [(idx_facts4 tLast4).2.2.2.2.2.2.2.2.2.2.2.2.1]; omega
      | ⟨1, _⟩ => show win4_6.index tLast4 1 * 64 ≤ (i 1).val ∧ (i 1).val < win4_6.index tLast4 1 * 64 + 64
                  rw [(idx_facts4 tLast4).2.2.2.2.2.2.2.2.2.2.2.2.2]; omega⟩

end Finals

end Cert.KernelIdeal.Hand

end
-- ==== Proof.KI.Value5.lean ====
/- The value of region 5 of @main at the extended reals: after the pointwise kernel `cc5__bn_relu_kernel` has run over its
   30 grid points, the output array holds, at row r and column n, max(x[r,n] * scale[0,n] + shift[0,n], 0) of the
   three arrays the region was entered with. Point t writes back rows 5000·t … 5000·t + 4999, so the point whose
   block covers row r is r / 5000, and the 30 blocks tile the 150000 rows. -/
import proofs.«143519_j50869592655552_1_alg».proof.Proof.KI.Region5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the TensorCore's buffer contents when the region is entered, at the extended reals
variable (V : (c : Dev nD) → (b : Ref sig .tc) → Buf (Elt Ideal) ((c : Thread nD τ).loc b))

/-! ## The specification -/

/-- Scale, shift and clamp at zero, one element: the column's scale and shift are read off the single row. -/
def bnRelu5 (X : S150000x64.Idx → EReal) (sc : S1x64.Idx → EReal) (sh : S1x64.Idx → EReal) : S150000x64.Idx → EReal :=
  fun i => max (X i * sc (ix2 (0 : Fin 1) (i 1)) + sh (ix2 (0 : Fin 1) (i 1))) 0

/-- The specification at explicit coordinates. -/
theorem bnRelu5_apply (X : S150000x64.Idx → EReal) (sc : S1x64.Idx → EReal) (sh : S1x64.Idx → EReal) (r : Fin 150000) (n : Fin 64) :
    bnRelu5 X sc sh (ix2 r n) = max (X (ix2 r n) * sc (ix2 (0 : Fin 1) n) + sh (ix2 (0 : Fin 1) n)) 0 := rfl

/-! ## The body's payload at an index -/

theorem bnrZeros5 : (![0, 0] : Fin 2 → Nat) = fun _ => 0 := funext fun a => by fin_cases a <;> rfl

/-- The payload of the body's one store, at row p and column n of the block: the same-shape casts are the identity,
    the two row broadcasts read the single row at column n, the constant is the zero word. -/
theorem bnrPay5_apply (x0 : Vec Ideal S5000x64 .f32) (x1 : Vec Ideal S1x64 .f32) (x2 : Vec Ideal S1x64 .f32) (p : Fin 5000) (n : Fin 64) :
    k5_pay1 x0 x1 x2 (ix2 p n) = max (x0 (ix2 p n) * x1 (ix2 (0 : Fin 1) n) + x2 (ix2 (0 : Fin 1) n)) 0 := by
  unfold k5_pay1
  show max (shapeCast S5000x64 x0 _ (ix2 p n) * broadcastTo S5000x64 (shapeCast S1x64 x1 _) _ (ix2 p n)
      + broadcastTo S5000x64 (shapeCast S1x64 x2 _) _ (ix2 p n)) (Ideal.ofBits .f32 0x00000000#32) = _
  rw [shapeCast_self, shapeCast_self, shapeCast_self, broadcastTo_1b_ab_apply, broadcastTo_1b_ab_apply, Ideal.ofBits_zero_f32]

/-! ## From blocks to the array -/

/-- The printed index maps, decided over the grid: the input and output row blocks move together, point t at block
    row t; the single-row windows sit still. -/
theorem bnrIdxFacts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row p of point t's block of a row-blocked window is row 5000·t + p of its array. -/
def bnrRowAt5 (t : Fin cfg5.N) (p : Fin 5000) : Fin 150000 :=
  ⟨t.val * 5000 + p.val, by have ht : t.val < 30 := t.isLt; have := p.isLt; omega⟩

/-- Input window 0's block at point t, at row p and column n: the array at row 5000·t + p. -/
theorem bnrIblk5_0_apply (c : Dev nD) (t : Fin cfg5.N) (p : Fin 5000) (n : Fin 64) :
    iblk5 V c 0 t (ix2 p n) = (V c (Pipeline.arrRef spec5 0) : S150000x64.Idx → EReal) (ix2 (bnrRowAt5 t p) n) := by
  obtain ⟨e00, e01, -⟩ := bnrIdxFacts5 t
  show (V c (Pipeline.arrRef spec5 0) : S150000x64.Idx → EReal) (((cfg5.win 0).blk t).view.emb (ix2 p n)) = _
  refine congrArg (V c (Pipeline.arrRef spec5 0) : S150000x64.Idx → EReal) (funext fun a => Fin.ext ?_)
  match a with
  | ⟨0, _⟩ => show win5_0.index t (0 : Fin 2) * 5000 + 1 * p.val = t.val * 5000 + p.val; omega
  | ⟨1, _⟩ => show win5_0.index t (1 : Fin 2) * 64 + 1 * n.val = n.val; omega

/-- Input window 1's block at any point is the whole single row. -/
theorem bnrIblk5_1_apply (c : Dev nD) (t : Fin cfg5.N) (n : Fin 64) :
    iblk5 V c 1 t (ix2 (0 : Fin 1) n) = (V c (Pipeline.arrRef spec5 1) : S1x64.Idx → EReal) (ix2 (0 : Fin 1) n) := by
  obtain ⟨-, -, e10, e11, -⟩ := bnrIdxFacts5 t
  show (V c (Pipeline.arrRef spec5 1) : S1x64.Idx → EReal) (((cfg5.win 1).blk t).view.emb (ix2 (0 : Fin 1) n)) = _
  refine congrArg (V c (Pipeline.arrRef spec5 1) : S1x64.Idx → EReal) (funext fun a => Fin.ext ?_)
  match a with
  | ⟨0, _⟩ => show win5_1.index t (0 : Fin 2) * 1 + 1 * 0 = 0; omega
  | ⟨1, _⟩ => show win5_1.index t (1 : Fin 2) * 64 + 1 * n.val = n.val; omega

/-- Input window 2's block at any point is the whole single row. -/
theorem bnrIblk5_2_apply (c : Dev nD) (t : Fin cfg5.N) (n : Fin 64) :
    iblk5 V c 2 t (ix2 (0 : Fin 1) n) = (V c (Pipeline.arrRef spec5 2) : S1x64.Idx → EReal) (ix2 (0 : Fin 1) n) := by
  obtain ⟨-, -, -, -, e20, e21, -⟩ := bnrIdxFacts5 t
  show (V c (Pipeline.arrRef spec5 2) : S1x64.Idx → EReal) (((cfg5.win 2).blk t).view.emb (ix2 (0 : Fin 1) n)) = _
  refine congrArg (V c (Pipeline.arrRef spec5 2) : S1x64.Idx → EReal) (funext fun a => Fin.ext ?_)
  match a with
  | ⟨0, _⟩ => show win5_2.index t (0 : Fin 2) * 1 + 1 * 0 = 0; omega
  | ⟨1, _⟩ => show win5_2.index t (1 : Fin 2) * 64 + 1 * n.val = n.val; omega

/-- Output window 3's block at point t of any array, at row p and column n: the array at row 5000·t + p. -/
theorem bnrReadBlk5_3_apply (G : S150000x64.Idx → EReal) (t : Fin cfg5.N) (p : Fin 5000) (n : Fin 64) :
    ((cfg5.win 3).blk t).view.read (Elt Ideal) G (ix2 p n) = G (ix2 (bnrRowAt5 t p) n) := by
  obtain ⟨-, -, -, -, -, -, e30, e31⟩ := bnrIdxFacts5 t
  show G (((cfg5.win 3).blk t).view.emb (ix2 p n)) = _
  refine congrArg G (funext fun a => Fin.ext ?_)
  match a with
  | ⟨0, _⟩ => show win5_3.index t (0 : Fin 2) * 5000 + 1 * p.val = t.val * 5000 + p.val; omega
  | ⟨1, _⟩ => show win5_3.index t (1 : Fin 2) * 64 + 1 * n.val = n.val; omega

/-- What point `t` writes back is block `t` of the specification of the arrays as the region finds them. -/
theorem bnrFlushed5_3_eq (c : Dev nD) (t : Fin cfg5.N) :
    (dat5 (F := Ideal) V c).flushed 3 t = ((cfg5.win 3).blk t).view.read (Elt Ideal)
      (bnRelu5 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero bnrZeros5]
  simp only [View.ld_unit_zero (S := S5000x64) bnrZeros5, View.ld_unit_zero (S := S1x64) bnrZeros5]
  funext j
  obtain ⟨p, n, rfl⟩ : ∃ (p : Fin 5000) (n : Fin 64), j = ix2 p n := ⟨j 0, j 1, eq_ix2 j⟩
  refine (bnrPay5_apply _ _ _ p n).trans ?_
  rw [bnrIblk5_0_apply, bnrIblk5_1_apply, bnrIblk5_2_apply]
  exact (bnrReadBlk5_3_apply
    (bnRelu5 (V c (Pipeline.arrRef spec5 0)) (V c (Pipeline.arrRef spec5 1)) (V c (Pipeline.arrRef spec5 2))) t p n).symm

/-- An index of the array is in point `t`'s block iff each coordinate is in the block's range on its axis. -/
theorem bnrMemBlk5_3 (t : Fin cfg5.N) (i : S150000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v200).slice (win5_3.rect t)).set ↔ _
  rw [View.set_slice_whole, Rect.mem_set_unit]
  exact Iff.rfl

/-- Every index of the array is in some point's block: row r in the block of point r / 5000. -/
theorem bnrCovered5_3 (i : S150000x64.Idx) :
    ∃ t : Fin cfg5.N, (cfg5.win 3).flush t = true ∧ i ∈ ((cfg5.win 3).blk t).view.set := by
  have hi0 : (i 0).val < 150000 := (i 0).isLt
  have hi1 : (i 1).val < 64 := (i 1).isLt
  have hN : cfg5.N = 30 := rfl
  have ht : (i 0).val / 5000 < cfg5.N := by rw [hN]; omega
  obtain ⟨-, -, -, -, -, -, e30, e31⟩ := bnrIdxFacts5 ⟨(i 0).val / 5000, ht⟩
  refine ⟨⟨(i 0).val / 5000, ht⟩, flush5_3 _, ?_⟩
  rw [bnrMemBlk5_3]
  intro a
  match a with
  | ⟨0, _⟩ =>
    show win5_3.index ⟨(i 0).val / 5000, ht⟩ (0 : Fin 2) * 5000 ≤ (i 0).val ∧ (i 0).val < win5_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win5_3.index ⟨(i 0).val / 5000, ht⟩ (1 : Fin 2) * 64 ≤ (i 1).val ∧ (i 1).val < win5_3.index ⟨(i 0).val / 5000, ht⟩ (1 : Fin 2) * 64 + 64
    rw [e31]; omega

/-- The output array after the region: the specification of the three arrays the region was entered with. -/
theorem final5_3 (c : Dev nD) : (dat5 (F := Ideal) V c).arrAt 3 cfg5.N
    = bnRelu5 (V c (Pipeline.arrRef spec5 0)) (V c (Pipeline.arrRef spec5 1)) (V c (Pipeline.arrRef spec5 2)) :=
  (dat5 (F := Ideal) V c).arrAt_eq_of_cover 3 _ (fun t _ => bnrFlushed5_3_eq V c t) bnrCovered5_3

end Cert.KernelIdeal.Hand

end
-- ==== Proof.KI.KValue5.lean ====
/-
  The kernel side's value of the first cycle network, as one equation. Three kernel regions are chained through two short host
  stretches: region 3 multiplies the input rows X by the first weight matrix and accumulates, column by column, the sum
  and the sum of squares of the product P1 = X · W1; the stretch after it turns those two rows and the parameters g1, b1
  into the one-pass batch-normalisation scale and shift of each column; region 4 applies them with the rectifier,
  H = max (P1 · scale + shift, 0), multiplies by the second weight matrix, P2 = H · W2, and again accumulates the column
  sums; the next stretch makes the second scale and shift; region 5 applies them, max (P2 · scale + shift, 0). Each
  step reads its operands where the previous step left them, and every parameter array is still as launched when it is
  read (no stretch writes it, no region changes it). So region 5's output array is the one-pass two-layer network
  (mlpK) of X and the six parameter arrays.
-/
import proofs.«143519_j50869592655552_1_alg».proof.Proof.KI.Fold2
import proofs.«143519_j50869592655552_1_alg».proof.Proof.KI.Value3
import proofs.«143519_j50869592655552_1_alg».proof.Proof.KI.Value4
import proofs.«143519_j50869592655552_1_alg».proof.Proof.KI.Value5
import proofs.«143519_j50869592655552_1_alg».proof.Proof.KI.AffineRead
import proofs.«143519_j50869592655552_1_alg».proof.Proof.LibMlpBatchNorm
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Cert.LibMlpBatchNorm Cert.KernelIdeal.AffineRead

variable (m : (ℓ : Loc nD τ sig) → Buf (Elt Ideal) ℓ) (ρ : Dev nD → PrngReg)

/-! ## The network's data: the input rows and the six parameter arrays, as matrices and vectors -/

/-- The input rows: what the first host stretch leaves in region 3's input array. -/
abbrev c1X (c : Dev nD) : Fin 150000 → Fin 320 → EReal :=
  fun r k => (W1 m ρ c (Proc.devRef .tc main_v93) : S150000x320.Idx → EReal) (ix2 r k)
/-- The first layer's weights, scale parameter and shift parameter; the second layer's. -/
abbrev c1W1 (c : Dev nD) : Fin 320 → Fin 128 → EReal :=
  fun k n => (m ((c : Thread nD τ).loc main_arg12) : S320x128.Idx → EReal) (ix2 k n)
abbrev c1G1 (c : Dev nD) : Fin 128 → EReal := fun n => (m ((c : Thread nD τ).loc main_arg13) : S128.Idx → EReal) (ix1 n)
abbrev c1B1 (c : Dev nD) : Fin 128 → EReal := fun n => (m ((c : Thread nD τ).loc main_arg14) : S128.Idx → EReal) (ix1 n)
abbrev c1W2 (c : Dev nD) : Fin 128 → Fin 64 → EReal :=
  fun k n => (m ((c : Thread nD τ).loc main_arg15) : S128x64.Idx → EReal) (ix2 k n)
abbrev c1G2 (c : Dev nD) : Fin 64 → EReal := fun n => (m ((c : Thread nD τ).loc main_arg16) : S64.Idx → EReal) (ix1 n)
abbrev c1B2 (c : Dev nD) : Fin 64 → EReal := fun n => (m ((c : Thread nD τ).loc main_arg17) : S64.Idx → EReal) (ix1 n)
/-- The row count and the stabiliser, as the words the host stretches splat. -/
abbrev c1NN : EReal := Ideal.ofBits .f32 0x48127C00#32
abbrev c1Eps : EReal := Ideal.ofBits .f32 0x3727C5AC#32

/-- The first product, its one-pass scale and shift, the first layer's output; the second product, its scale and shift. -/
def c1P1 (c : Dev nD) : Fin 150000 → Fin 128 → EReal := mm (c1X m ρ c) (c1W1 m c)
def c1Sc1 (c : Dev nD) : Fin 128 → EReal := scaleK (colSum (c1P1 m ρ c)) (colSumSq (c1P1 m ρ c)) (c1G1 m c) c1NN c1Eps
def c1Sh1 (c : Dev nD) : Fin 128 → EReal := shiftK (colSum (c1P1 m ρ c)) (colSumSq (c1P1 m ρ c)) (c1G1 m c) (c1B1 m c) c1NN c1Eps
def c1H (c : Dev nD) : Fin 150000 → Fin 128 → EReal := bnReluK (c1P1 m ρ c) (c1Sc1 m ρ c) (c1Sh1 m ρ c)
def c1P2 (c : Dev nD) : Fin 150000 → Fin 64 → EReal := mm (c1H m ρ c) (c1W2 m c)
def c1Sc2 (c : Dev nD) : Fin 64 → EReal := scaleK (colSum (c1P2 m ρ c)) (colSumSq (c1P2 m ρ c)) (c1G2 m c) c1NN c1Eps
def c1Sh2 (c : Dev nD) : Fin 64 → EReal := shiftK (colSum (c1P2 m ρ c)) (colSumSq (c1P2 m ρ c)) (c1G2 m c) (c1B2 m c) c1NN c1Eps

/-! ## The input rows and the parameter arrays where the regions and stretches read them: as the first stretch left
    them, and as launched -/

theorem c1X_atA (c : Dev nD) : W6 m ρ c (Proc.devRef .tc main_v93) = W1 m ρ c (Proc.devRef .tc main_v93) :=
  (W6_of_ne m ρ c main_v93 (by decide)).trans <|
    (keep2 (W4 m ρ c) main_v93 (by decide)).trans <|
    (W4_of_ne m ρ c main_v93 (by decide)).trans <|
    (keep1 (W2 m ρ c) main_v93 (by decide)).trans <|
    (W2_of_ne m ρ c main_v93 (by decide)).trans rfl
theorem c1W1_atA (c : Dev nD) : W6 m ρ c (Proc.devRef .tc main_arg12) = m ((c : Thread nD τ).loc main_arg12) :=
  (W6_of_ne m ρ c main_arg12 (by decide)).trans <|
    (keep2 (W4 m ρ c) main_arg12 (by decide)).trans <|
    (W4_of_ne m ρ c main_arg12 (by decide)).trans <|
    (keep1 (W2 m ρ c) main_arg12 (by decide)).trans <|
    (W2_of_ne m ρ c main_arg12 (by decide)).trans <|
    (keep0 (W0 m ρ c) main_arg12 (by decide)).trans rfl
theorem c1G1_atA1 (c : Dev nD) : W7 m ρ c (Proc.devRef .tc main_arg13) = m ((c : Thread nD τ).loc main_arg13) :=
  (W7_of_ne m ρ c main_arg13 (by decide)).trans <|
    (W6_of_ne m ρ c main_arg13 (by decide)).trans <|
    (keep2 (W4 m ρ c) main_arg13 (by decide)).trans <|
    (W4_of_ne m ρ c main_arg13 (by decide)).trans <|
    (keep1 (W2 m ρ c) main_arg13 (by decide)).trans <|
    (W2_of_ne m ρ c main_arg13 (by decide)).trans <|
    (keep0 (W0 m ρ c) main_arg13 (by decide)).trans rfl
theorem c1B1_atA1 (c : Dev nD) : W7 m ρ c (Proc.devRef .tc main_arg14) = m ((c : Thread nD τ).loc main_arg14) :=
  (W7_of_ne m ρ c main_arg14 (by decide)).trans <|
    (W6_of_ne m ρ c main_arg14 (by decide)).trans <|
    (keep2 (W4 m ρ c) main_arg14 (by decide)).trans <|
    (W4_of_ne m ρ c main_arg14 (by decide)).trans <|
    (keep1 (W2 m ρ c) main_arg14 (by decide)).trans <|
    (W2_of_ne m ρ c main_arg14 (by decide)).trans <|
    (keep0 (W0 m ρ c) main_arg14 (by decide)).trans rfl
theorem c1W2_atB (c : Dev nD) : W8 m ρ c (Proc.devRef .tc main_arg15) = m ((c : Thread nD τ).loc main_arg15) :=
  (keep4 (W7 m ρ c) main_arg15 (by decide)).trans <|
    (W7_of_ne m ρ c main_arg15 (by decide)).trans <|
    (W6_of_ne m ρ c main_arg15 (by decide)).trans <|
    (keep2 (W4 m ρ c) main_arg15 (by decide)).trans <|
    (W4_of_ne m ρ c main_arg15 (by decide)).trans <|
    (keep1 (W2 m ρ c) main_arg15 (by decide)).trans <|
    (W2_of_ne m ρ c main_arg15 (by decide)).trans <|
    (keep0 (W0 m ρ c) main_arg15 (by decide)).trans rfl
theorem c1G2_atB1 (c : Dev nD) : W9 m ρ c (Proc.devRef .tc main_arg16) = m ((c : Thread nD τ).loc main_arg16) :=
  (W9_of_ne m ρ c main_arg16 (by decide)).trans <|
    (keep4 (W7 m ρ c) main_arg16 (by decide)).trans <|
    (W7_of_ne m ρ c main_arg16 (by decide)).trans <|
    (W6_of_ne m ρ c main_arg16 (by decide)).trans <|
    (keep2 (W4 m ρ c) main_arg16 (by decide)).trans <|
    (W4_of_ne m ρ c main_arg16 (by decide)).trans <|
    (keep1 (W2 m ρ c) main_arg16 (by decide)).trans <|
    (W2_of_ne m ρ c main_arg16 (by decide)).trans <|
    (keep0 (W0 m ρ c) main_arg16 (by decide)).trans rfl
theorem c1B2_atB1 (c : Dev nD) : W9 m ρ c (Proc.devRef .tc main_arg17) = m ((c : Thread nD τ).loc main_arg17) :=
  (W9_of_ne m ρ c main_arg17 (by decide)).trans <|
    (keep4 (W7 m ρ c) main_arg17 (by decide)).trans <|
    (W7_of_ne m ρ c main_arg17 (by decide)).trans <|
    (W6_of_ne m ρ c main_arg17 (by decide)).trans <|
    (keep2 (W4 m ρ c) main_arg17 (by decide)).trans <|
    (W4_of_ne m ρ c main_arg17 (by decide)).trans <|
    (keep1 (W2 m ρ c) main_arg17 (by decide)).trans <|
    (W2_of_ne m ρ c main_arg17 (by decide)).trans <|
    (keep0 (W0 m ρ c) main_arg17 (by decide)).trans rfl

/-! ## Region 3: the first product and its column sums -/

theorem c1_pre3 (c : Dev nD) (r : Fin 150000) (n : Fin 128) :
    pre3 (X3 (V6 m ρ) c) (Wt3 (V6 m ρ) c) r n = c1P1 m ρ c r n := by
  have hW : (Wt3 (V6 m ρ) c : S320x128.Idx → EReal) = (m ((c : Thread nD τ).loc main_arg12) : S320x128.Idx → EReal) := c1W1_atA m ρ c
  have hX : (X3 (V6 m ρ) c : S150000x320.Idx → EReal) = (W1 m ρ c (Proc.devRef .tc main_v93) : S150000x320.Idx → EReal) := c1X_atA m ρ c
  rw [hW, hX]
  rfl

theorem c1_p1_0 (c : Dev nD) (r : Fin 150000) (n : Fin 128) :
    (W7 m ρ c (Proc.devRef .tc main_v170_0) : S150000x128.Idx → EReal) (ix2 r n) = c1P1 m ρ c r n := by
  have h : (W7 m ρ c (Proc.devRef .tc main_v170_0) : S150000x128.Idx → EReal) = G3_2 (X3 (V6 m ρ) c) (Wt3 (V6 m ρ) c) :=
    (W7_arr m ρ c 2).trans (final3_2 (V6 m ρ) c)
  refine (congrFun h (ix2 r n)).trans ?_
  rw [G3_2_apply]
  exact c1_pre3 m ρ c r n

theorem c1_p1_1 (c : Dev nD) (n : Fin 128) :
    (W7 m ρ c (Proc.devRef .tc main_v170_1) : S1x128.Idx → EReal) (ix2 (0 : Fin 1) n) = colSum (c1P1 m ρ c) n := by
  have h : (W7 m ρ c (Proc.devRef .tc main_v170_1) : S1x128.Idx → EReal) = G3_3 (X3 (V6 m ρ) c) (Wt3 (V6 m ρ) c) :=
    (W7_arr m ρ c 3).trans (final3_3 (V6 m ρ) c)
  refine (congrFun h (ix2 (0 : Fin 1) n)).trans ?_
  rw [G3_3_apply]
  exact (Finset.sum_congr rfl fun r _ => c1_pre3 m ρ c r n :
    (∑ r : Fin 150000, pre3 (X3 (V6 m ρ) c) (Wt3 (V6 m ρ) c) r n) = ∑ r : Fin 150000, c1P1 m ρ c r n)

theorem c1_p1_2 (c : Dev nD) (n : Fin 128) :
    (W7 m ρ c (Proc.devRef .tc main_v170_2) : S1x128.Idx → EReal) (ix2 (0 : Fin 1) n) = colSumSq (c1P1 m ρ c) n := by
  have h : (W7 m ρ c (Proc.devRef .tc main_v170_2) : S1x128.Idx → EReal) = G3_4 (X3 (V6 m ρ) c) (Wt3 (V6 m ρ) c) :=
    (W7_arr m ρ c 4).trans (final3_4 (V6 m ρ) c)
  refine (congrFun h (ix2 (0 : Fin 1) n)).trans ?_
  rw [G3_4_apply]
  exact (Finset.sum_congr rfl fun r _ => by rw [c1_pre3 m ρ c r n] :
    (∑ r : Fin 150000, pre3 (X3 (V6 m ρ) c) (Wt3 (V6 m ρ) c) r n * pre3 (X3 (V6 m ρ) c) (Wt3 (V6 m ρ) c) r n)
      = ∑ r : Fin 150000, c1P1 m ρ c r n * c1P1 m ρ c r n)

/-! ## Stretch 4: the first layer's scale and shift -/

theorem c1_sc1 (c : Dev nD) (j : S1x128.Idx) :
    (W8 m ρ c (Proc.devRef .tc main_v181) : S1x128.Idx → EReal) j = c1Sc1 m ρ c (j 1) := by
  refine (scale4_read (W7 m ρ c) j).trans ?_
  have h1 : (fun n : Fin 128 => (W7 m ρ c (Proc.devRef .tc main_v170_1) : S1x128.Idx → EReal) (ix2 0 n)) = colSum (c1P1 m ρ c) :=
    funext fun n => c1_p1_1 m ρ c n
  have h2 : (fun n : Fin 128 => (W7 m ρ c (Proc.devRef .tc main_v170_2) : S1x128.Idx → EReal) (ix2 0 n)) = colSumSq (c1P1 m ρ c) :=
    funext fun n => c1_p1_2 m ρ c n
  have h3 : (fun n : Fin 128 => (W7 m ρ c (Proc.devRef .tc main_arg13) : S128.Idx → EReal) (ix1 n)) = c1G1 m c :=
    funext fun n => congrFun (c1G1_atA1 m ρ c) (ix1 n)
  rw [h1, h2, h3]
  rfl

theorem c1_sh1 (c : Dev nD) (j : S1x128.Idx) :
    (W8 m ρ c (Proc.devRef .tc main_v184) : S1x128.Idx → EReal) j = c1Sh1 m ρ c (j 1) := by
  refine (shift4_read (W7 m ρ c) j).trans ?_
  have h1 : (fun n : Fin 128 => (W7 m ρ c (Proc.devRef .tc main_v170_1) : S1x128.Idx → EReal) (ix2 0 n)) = colSum (c1P1 m ρ c) :=
    funext fun n => c1_p1_1 m ρ c n
  have h2 : (fun n : Fin 128 => (W7 m ρ c (Proc.devRef .tc main_v170_2) : S1x128.Idx → EReal) (ix2 0 n)) = colSumSq (c1P1 m ρ c) :=
    funext fun n => c1_p1_2 m ρ c n
  have h3 : (fun n : Fin 128 => (W7 m ρ c (Proc.devRef .tc main_arg13) : S128.Idx → EReal) (ix1 n)) = c1G1 m c :=
    funext fun n => congrFun (c1G1_atA1 m ρ c) (ix1 n)
  have h4 : (fun n : Fin 128 => (W7 m ρ c (Proc.devRef .tc main_arg14) : S128.Idx → EReal) (ix1 n)) = c1B1 m c :=
    funext fun n => congrFun (c1B1_atA1 m ρ c) (ix1 n)
  rw [h1, h2, h3, h4]
  rfl

theorem c1_p1_0_atB (c : Dev nD) (r : Fin 150000) (n : Fin 128) :
    (W8 m ρ c (Proc.devRef .tc main_v170_0) : S150000x128.Idx → EReal) (ix2 r n) = c1P1 m ρ c r n :=
  (congrFun (keep4 (W7 m ρ c) main_v170_0 (by decide)) (ix2 r n)).trans (c1_p1_0 m ρ c r n)

/-- Scale, shift and clamp of equal operands are equal. -/
theorem c1_max_congr {x s h x' s' h' : EReal} (hx : x = x') (hs : s = s') (hh : h = h') :
    max (x * s + h) 0 = max (x' * s' + h') 0 := by
  subst hx hs hh; rfl

/-! ## Region 4: the first layer's output, the second product and its column sums -/

theorem c1_act4 (c : Dev nD) (r : Fin 150000) (k : Fin 128) :
    act4 (V8 m ρ c (Pipeline.arrRef spec4 0)) (V8 m ρ c (Pipeline.arrRef spec4 1)) (V8 m ρ c (Pipeline.arrRef spec4 2)) r k
      = c1H m ρ c r k :=
  c1_max_congr (c1_p1_0_atB m ρ c r k) (c1_sc1 m ρ c (ix2 (0 : Fin 1) k)) (c1_sh1 m ρ c (ix2 (0 : Fin 1) k))

theorem c1_pre4 (c : Dev nD) (r : Fin 150000) (n : Fin 64) :
    pre4 (V8 m ρ c (Pipeline.arrRef spec4 0)) (V8 m ρ c (Pipeline.arrRef spec4 1)) (V8 m ρ c (Pipeline.arrRef spec4 2))
        (V8 m ρ c (Pipeline.arrRef spec4 3)) r n
      = c1P2 m ρ c r n := by
  have hW : (V8 m ρ c (Pipeline.arrRef spec4 3) : S128x64.Idx → EReal) = (m ((c : Thread nD τ).loc main_arg15) : S128x64.Idx → EReal) :=
    c1W2_atB m ρ c
  show (∑ k : Fin 128, act4 (V8 m ρ c (Pipeline.arrRef spec4 0)) (V8 m ρ c (Pipeline.arrRef spec4 1)) (V8 m ρ c (Pipeline.arrRef spec4 2)) r k
      * (V8 m ρ c (Pipeline.arrRef spec4 3) : S128x64.Idx → EReal) (ix2 k n)) = ∑ k : Fin 128, c1H m ρ c r k * c1W2 m c k n
  rw [hW]
  exact (Finset.sum_congr rfl fun k _ => by rw [c1_act4 m ρ c r k] :
    (∑ k : Fin 128, act4 (V8 m ρ c (Pipeline.arrRef spec4 0)) (V8 m ρ c (Pipeline.arrRef spec4 1)) (V8 m ρ c (Pipeline.arrRef spec4 2)) r k
        * (m ((c : Thread nD τ).loc main_arg15) : S128x64.Idx → EReal) (ix2 k n))
      = ∑ k : Fin 128, c1H m ρ c r k * (m ((c : Thread nD τ).loc main_arg15) : S128x64.Idx → EReal) (ix2 k n))

theorem c1_p2_0 (c : Dev nD) (r : Fin 150000) (n : Fin 64) :
    (W9 m ρ c (Proc.devRef .tc main_v185_0) : S150000x64.Idx → EReal) (ix2 r n) = c1P2 m ρ c r n := by
  have h : (W9 m ρ c (Proc.devRef .tc main_v185_0) : S150000x64.Idx → EReal)
      = G4_4 (V8 m ρ c (Pipeline.arrRef spec4 0)) (V8 m ρ c (Pipeline.arrRef spec4 1)) (V8 m ρ c (Pipeline.arrRef spec4 2))
        (V8 m ρ c (Pipeline.arrRef spec4 3)) :=
    (W9_arr m ρ c 4).trans (final4_4 (V8 m ρ) c)
  refine (congrFun h (ix2 r n)).trans ?_
  rw [G4_4_apply]
  exact c1_pre4 m ρ c r n

theorem c1_p2_1 (c : Dev nD) (n : Fin 64) :
    (W9 m ρ c (Proc.devRef .tc main_v185_1) : S1x64.Idx → EReal) (ix2 (0 : Fin 1) n) = colSum (c1P2 m ρ c) n := by
  have h : (W9 m ρ c (Proc.devRef .tc main_v185_1) : S1x64.Idx → EReal)
      = G4_5 (V8 m ρ c (Pipeline.arrRef spec4 0)) (V8 m ρ c (Pipeline.arrRef spec4 1)) (V8 m ρ c (Pipeline.arrRef spec4 2))
        (V8 m ρ c (Pipeline.arrRef spec4 3)) :=
    (W9_arr m ρ c 5).trans (final4_5 (V8 m ρ) c)
  refine (congrFun h (ix2 (0 : Fin 1) n)).trans ?_
  rw [G4_5_apply]
  exact (Finset.sum_congr rfl fun r _ => c1_pre4 m ρ c r n :
    (∑ r : Fin 150000, pre4 (V8 m ρ c (Pipeline.arrRef spec4 0)) (V8 m ρ c (Pipeline.arrRef spec4 1)) (V8 m ρ c (Pipeline.arrRef spec4 2))
        (V8 m ρ c (Pipeline.arrRef spec4 3)) r n) = ∑ r : Fin 150000, c1P2 m ρ c r n)

theorem c1_p2_2 (c : Dev nD) (n : Fin 64) :
    (W9 m ρ c (Proc.devRef .tc main_v185_2) : S1x64.Idx → EReal) (ix2 (0 : Fin 1) n) = colSumSq (c1P2 m ρ c) n := by
  have h : (W9 m ρ c (Proc.devRef .tc main_v185_2) : S1x64.Idx → EReal)
      = G4_6 (V8 m ρ c (Pipeline.arrRef spec4 0)) (V8 m ρ c (Pipeline.arrRef spec4 1)) (V8 m ρ c (Pipeline.arrRef spec4 2))
        (V8 m ρ c (Pipeline.arrRef spec4 3)) :=
    (W9_arr m ρ c 6).trans (final4_6 (V8 m ρ) c)
  refine (congrFun h (ix2 (0 : Fin 1) n)).trans ?_
  rw [G4_6_apply]
  exact (Finset.sum_congr rfl fun r _ => by rw [c1_pre4 m ρ c r n] :
    (∑ r : Fin 150000, pre4 (V8 m ρ c (Pipeline.arrRef spec4 0)) (V8 m ρ c (Pipeline.arrRef spec4 1)) (V8 m ρ c (Pipeline.arrRef spec4 2))
        (V8 m ρ c (Pipeline.arrRef spec4 3)) r n
        * pre4 (V8 m ρ c (Pipeline.arrRef spec4 0)) (V8 m ρ c (Pipeline.arrRef spec4 1)) (V8 m ρ c (Pipeline.arrRef spec4 2))
        (V8 m ρ c (Pipeline.arrRef spec4 3)) r n) = ∑ r : Fin 150000, c1P2 m ρ c r n * c1P2 m ρ c r n)

/-! ## Stretch 5: the second layer's scale and shift -/

theorem c1_sc2 (c : Dev nD) (j : S1x64.Idx) :
    (W10 m ρ c (Proc.devRef .tc main_v196) : S1x64.Idx → EReal) j = c1Sc2 m ρ c (j 1) := by
  refine (scale5_read (W9 m ρ c) j).trans ?_
  have h1 : (fun n : Fin 64 => (W9 m ρ c (Proc.devRef .tc main_v185_1) : S1x64.Idx → EReal) (ix2 0 n)) = colSum (c1P2 m ρ c) :=
    funext fun n => c1_p2_1 m ρ c n
  have h2 : (fun n : Fin 64 => (W9 m ρ c (Proc.devRef .tc main_v185_2) : S1x64.Idx → EReal) (ix2 0 n)) = colSumSq (c1P2 m ρ c) :=
    funext fun n => c1_p2_2 m ρ c n
  have h3 : (fun n : Fin 64 => (W9 m ρ c (Proc.devRef .tc main_arg16) : S64.Idx → EReal) (ix1 n)) = c1G2 m c :=
    funext fun n => congrFun (c1G2_atB1 m ρ c) (ix1 n)
  rw [h1, h2, h3]
  rfl

theorem c1_sh2 (c : Dev nD) (j : S1x64.Idx) :
    (W10 m ρ c (Proc.devRef .tc main_v199) : S1x64.Idx → EReal) j = c1Sh2 m ρ c (j 1) := by
  refine (shift5_read (W9 m ρ c) j).trans ?_
  have h1 : (fun n : Fin 64 => (W9 m ρ c (Proc.devRef .tc main_v185_1) : S1x64.Idx → EReal) (ix2 0 n)) = colSum (c1P2 m ρ c) :=
    funext fun n => c1_p2_1 m ρ c n
  have h2 : (fun n : Fin 64 => (W9 m ρ c (Proc.devRef .tc main_v185_2) : S1x64.Idx → EReal) (ix2 0 n)) = colSumSq (c1P2 m ρ c) :=
    funext fun n => c1_p2_2 m ρ c n
  have h3 : (fun n : Fin 64 => (W9 m ρ c (Proc.devRef .tc main_arg16) : S64.Idx → EReal) (ix1 n)) = c1G2 m c :=
    funext fun n => congrFun (c1G2_atB1 m ρ c) (ix1 n)
  have h4 : (fun n : Fin 64 => (W9 m ρ c (Proc.devRef .tc main_arg17) : S64.Idx → EReal) (ix1 n)) = c1B2 m c :=
    funext fun n => congrFun (c1B2_atB1 m ρ c) (ix1 n)
  rw [h1, h2, h3, h4]
  rfl

theorem c1_p2_0_atC (c : Dev nD) (r : Fin 150000) (n : Fin 64) :
    (W10 m ρ c (Proc.devRef .tc main_v185_0) : S150000x64.Idx → EReal) (ix2 r n) = c1P2 m ρ c r n :=
  (congrFun (keep5 (W9 m ρ c) main_v185_0 (by decide)) (ix2 r n)).trans (c1_p2_0 m ρ c r n)

/-! ## Region 5, and the whole network -/

/-- The network's output array after its three regions, in the named pieces. -/
theorem cycle1_value_pieces (c : Dev nD) :
    (W11 m ρ c (Proc.devRef .tc main_v200) : S150000x64.Idx → EReal)
      = fun j => bnReluK (c1P2 m ρ c) (c1Sc2 m ρ c) (c1Sh2 m ρ c) (j 0) (j 1) := by
  have h : (W11 m ρ c (Proc.devRef .tc main_v200) : S150000x64.Idx → EReal)
      = bnRelu5 (V10 m ρ c (Pipeline.arrRef spec5 0)) (V10 m ρ c (Pipeline.arrRef spec5 1)) (V10 m ρ c (Pipeline.arrRef spec5 2)) :=
    (W11_arr m ρ c 3).trans (final5_3 (V10 m ρ) c)
  rw [h]
  funext j
  obtain ⟨r, n, rfl⟩ : ∃ (r : Fin 150000) (n : Fin 64), j = ix2 r n := ⟨j 0, j 1, eq_ix2 j⟩
  rw [bnRelu5_apply]
  exact c1_max_congr (c1_p2_0_atC m ρ c r n) (c1_sc2 m ρ c (ix2 (0 : Fin 1) n)) (c1_sh2 m ρ c (ix2 (0 : Fin 1) n))

/-- THE NETWORK'S VALUE on the kernel side: region 5's output array is the one-pass two-layer network of the input
    rows, as the first host stretch left them, and the six parameter arrays as launched. -/
theorem cycle1_value (c : Dev nD) :
    (W11 m ρ c (Proc.devRef .tc main_v200) : S150000x64.Idx → EReal) = fun j =>
      Cert.LibMlpBatchNorm.mlpK
        (fun (r : Fin 150000) (k : Fin 320) => (W1 m ρ c (Proc.devRef .tc main_v93) : S150000x320.Idx → EReal) (ValueIdx.ix2 r k))
        (fun (k : Fin 320) (n : Fin 128) => (m ((c : Thread nD τ).loc main_arg12) : S320x128.Idx → EReal) (ValueIdx.ix2 k n))
        (fun n : Fin 128 => (m ((c : Thread nD τ).loc main_arg13) : S128.Idx → EReal) (ValueIdx.ix1 n))
        (fun n : Fin 128 => (m ((c : Thread nD τ).loc main_arg14) : S128.Idx → EReal) (ValueIdx.ix1 n))
        (fun (k : Fin 128) (n : Fin 64) => (m ((c : Thread nD τ).loc main_arg15) : S128x64.Idx → EReal) (ValueIdx.ix2 k n))
        (fun n : Fin 64 => (m ((c : Thread nD τ).loc main_arg16) : S64.Idx → EReal) (ValueIdx.ix1 n))
        (fun n : Fin 64 => (m ((c : Thread nD τ).loc main_arg17) : S64.Idx → EReal) (ValueIdx.ix1 n))
        (Ideal.ofBits .f32 0x48127C00#32) (Ideal.ofBits .f32 0x3727C5AC#32) (j 0) (j 1) :=
  cycle1_value_pieces m ρ c

end Cert.KernelIdeal.Hand

end
-- ==== Proof.KI.Value6.lean ====
import proofs.«143519_j50869592655552_1_alg».proof.Proof.KI.Region6
import proofs.«143519_j50869592655552_1_alg».proof.Proof.LibBlockSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable {F : FTy → Type} [FloatOps F]

local notation "𝕄" => MT nD τ sig Unit (Elt F) ℕ (UR sig nD τ) ℕ

/-! # Region 6 (the linear layer with running column sums): what its three result arrays end holding

With `X` the `[150000,320]` input and `Wt` the `[320,128]` weights as the region finds them: the output array at
`(r,n)` is `pre r n = ∑ k, X (r,k) · Wt (k,n)`; the sums array at `(0,n)` is `∑ r, pre r n`; the array of sums of squares at
`(0,n)` is `∑ r, pre r n · pre r n`. Point `t` of the 30 works on rows `5000 t … 5000 t + 4999`. -/

theorem r6_hz : (![0, 0] : Fin 2 → Nat) = fun _ => 0 := funext fun a => by fin_cases a <;> rfl

/-- A load of the whole shape after a last store of the whole shape reads that store's payload, whatever was stored before. -/
theorem r6_readCov_cons_unit_zero {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- THE FIRST POINT'S VALUES. The output window holds the product of the point's rows with the weights; each accumulator
    holds its zero block plus the product's column sums (of squares); each sums window holds its accumulator's value. -/
theorem res6_A_eq (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond6_0 i) (x0 : Vec F S5000x320 .f32) (x1 : Vec F S320x128 .f32) :
    res6_A c i arg1 harg1 arg2 harg2 arg3 harg3 arg4 harg4 arg5 harg5 arg6 harg6 arg7 harg7 hc0 x0 x1 = (k6_pay3 x0 x1, k6_pay4 x0 x1 k6_pay1, k6_pay5 x0 x1 k6_pay2, k6_pay4 x0 x1 k6_pay1, k6_pay5 x0 x1 k6_pay2) := by
  unfold res6_A
  refine congrArg₂ Prod.mk ?_ (congrArg₂ Prod.mk ?_ (congrArg₂ Prod.mk ?_ (congrArg₂ Prod.mk ?_ ?_)))
  · rw [View.read_writes_eq_canon _ _ _ (cover6_A_2 c i arg1 harg1 arg2 harg2 arg3 harg3 arg4 harg4 arg5 harg5 arg6 harg6 arg7 harg7 hc0 x0 x1)]
    unfold kernelRun6_A
    dsimp only
    rw [View.canon_unit_zero r6_hz]
    simp only [View.readAt_eq_ld, harg1.read_unread, harg2.read_unread, harg6.read_unread, harg7.read_unread, View.ld_unit_zero (S := S5000x320) r6_hz, View.ld_unit_zero (S := S320x128) r6_hz, View.ld_unit_zero (S := S1x128) r6_hz]
  · rw [View.read_writes_eq_canon _ _ _ (cover6_A_3 c i arg1 harg1 arg2 harg2 arg3 harg3 arg4 harg4 arg5 harg5 arg6 harg6 arg7 harg7 hc0 x0 x1)]
    unfold kernelRun6_A
    dsimp only
    sl_unfold_words
    rw [View.canon_unit_zero (S := S1x128) r6_hz, r6_readCov_cons_unit_zero (S := S1x128) _ r6_hz, View.readCov_unit_zero (S := S1x128) _ r6_hz]
    simp only [View.readAt_eq_ld, harg1.read_unread, harg2.read_unread, harg6.read_unread, harg7.read_unread, View.ld_unit_zero (S := S5000x320) r6_hz, View.ld_unit_zero (S := S320x128) r6_hz, View.ld_unit_zero (S := S1x128) r6_hz]
  · rw [View.read_writes_eq_canon _ _ _ (cover6_A_4 c i arg1 harg1 arg2 harg2 arg3 harg3 arg4 harg4 arg5 harg5 arg6 harg6 arg7 harg7 hc0 x0 x1)]
    unfold kernelRun6_A
    dsimp only
    sl_unfold_words
    rw [View.canon_unit_zero (S := S1x128) r6_hz, r6_readCov_cons_unit_zero (S := S1x128) _ r6_hz, View.readCov_unit_zero (S := S1x128) _ r6_hz]
    simp only [View.readAt_eq_ld, harg1.read_unread, harg2.read_unread, harg6.read_unread, harg7.read_unread, View.ld_unit_zero (S := S5000x320) r6_hz, View.ld_unit_zero (S := S320x128) r6_hz, View.ld_unit_zero (S := S1x128) r6_hz]
  · rw [View.read_writes_eq_canon _ _ _ (scover6_A_0 c i arg1 harg1 arg2 harg2 arg3 harg3 arg4 harg4 arg5 harg5 arg6 harg6 arg7 harg7 hc0 x0 x1)]
    unfold kernelRun6_A
    dsimp only
    sl_unfold_words
    rw [View.canon_cons_unit_zero (S := S1x128) r6_hz, View.readCov_unit_zero (S := S1x128) _ r6_hz]
    simp only [View.readAt_eq_ld, harg1.read_unread, harg2.read_unread, harg6.read_unread, harg7.read_unread, View.ld_unit_zero (S := S5000x320) r6_hz, View.ld_unit_zero (S := S320x128) r6_hz, View.ld_unit_zero (S := S1x128) r6_hz]
  · rw [View.read_writes_eq_canon _ _ _ (scover6_A_1 c i arg1 harg1 arg2 harg2 arg3 harg3 arg4 harg4 arg5 harg5 arg6 harg6 arg7 harg7 hc0 x0 x1)]
    unfold kernelRun6_A
    dsimp only
    sl_unfold_words
    rw [View.canon_cons_unit_zero (S := S1x128) r6_hz, View.readCov_unit_zero (S := S1x128) _ r6_hz]
    simp only [View.readAt_eq_ld, harg1.read_unread, harg2.read_unread, harg6.read_unread, harg7.read_unread, View.ld_unit_zero (S := S5000x320) r6_hz, View.ld_unit_zero (S := S320x128) r6_hz, View.ld_unit_zero (S := S1x128) r6_hz]

/-- A LATER POINT'S VALUES: the same over what the accumulators held when the point began. -/
theorem res6_B_eq (c : Dev nD) (i : grid6.Coords) (arg1 : Memref sig .tc .vmem S5000x320 .f32) (harg1 : arg1.IsWhole) (arg2 : Memref sig .tc .vmem S320x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i) (x0 : Vec F S5000x320 .f32) (x1 : Vec F S320x128 .f32) (xs0 : Vec F S1x128 .f32) (xs1 : Vec F S1x128 .f32) :
    res6_B c i arg1 harg1 arg2 harg2 arg3 harg3 arg4 harg4 arg5 harg5 arg6 harg6 arg7 harg7 hc0 x0 x1 xs0 xs1 = (k6_pay3 x0 x1, k6_pay4 x0 x1 xs0, k6_pay5 x0 x1 xs1, k6_pay4 x0 x1 xs0, k6_pay5 x0 x1 xs1) := by
  unfold res6_B
  refine congrArg₂ Prod.mk ?_ (congrArg₂ Prod.mk ?_ (congrArg₂ Prod.mk ?_ (congrArg₂ Prod.mk ?_ ?_)))
  · rw [View.read_writes_eq_canon _ _ _ (cover6_B_2 c i arg1 harg1 arg2 harg2 arg3 harg3 arg4 harg4 arg5 harg5 arg6 harg6 arg7 harg7 hc0 x0 x1 xs0 xs1)]
    unfold kernelRun6_B
    dsimp only
    rw [View.canon_unit_zero r6_hz]
    simp only [View.readAt_eq_ld, harg1.read_unread, harg2.read_unread, harg6.read_unread, harg7.read_unread, View.ld_unit_zero (S := S5000x320) r6_hz, View.ld_unit_zero (S := S320x128) r6_hz, View.ld_unit_zero (S := S1x128) r6_hz]
  · rw [View.read_writes_eq_canon _ _ _ (cover6_B_3 c i arg1 harg1 arg2 harg2 arg3 harg3 arg4 harg4 arg5 harg5 arg6 harg6 arg7 harg7 hc0 x0 x1 xs0 xs1)]
    unfold kernelRun6_B
    dsimp only
    sl_unfold_words
    rw [View.canon_unit_zero (S := S1x128) r6_hz, View.readCov_unit_zero (S := S1x128) _ r6_hz]
    simp only [View.readAt_eq_ld, harg1.read_unread, harg2.read_unread, harg6.read_unread, harg7.read_unread, View.ld_unit_zero (S := S5000x320) r6_hz, View.ld_unit_zero (S := S320x128) r6_hz, View.ld_unit_zero (S := S1x128) r6_hz]
  · rw [View.read_writes_eq_canon _ _ _ (cover6_B_4 c i arg1 harg1 arg2 harg2 arg3 harg3 arg4 harg4 arg5 harg5 arg6 harg6 arg7 harg7 hc0 x0 x1 xs0 xs1)]
    unfold kernelRun6_B
    dsimp only
    sl_unfold_words
    rw [View.canon_unit_zero (S := S1x128) r6_hz, View.readCov_unit_zero (S := S1x128) _ r6_hz]
    simp only [View.readAt_eq_ld, harg1.read_unread, harg2.read_unread, harg6.read_unread, harg7.read_unread, View.ld_unit_zero (S := S5000x320) r6_hz, View.ld_unit_zero (S := S320x128) r6_hz, View.ld_unit_zero (S := S1x128) r6_hz]
  · rw [View.read_writes_eq_canon _ _ _ (scover6_B_0 c i arg1 harg1 arg2 harg2 arg3 harg3 arg4 harg4 arg5 harg5 arg6 harg6 arg7 harg7 hc0 x0 x1 xs0 xs1)]
    unfold kernelRun6_B
    dsimp only
    sl_unfold_words
    rw [View.canon_unit_zero (S := S1x128) r6_hz]
    simp only [View.readAt_eq_ld, harg1.read_unread, harg2.read_unread, harg6.read_unread, harg7.read_unread, View.ld_unit_zero (S := S5000x320) r6_hz, View.ld_unit_zero (S := S320x128) r6_hz, View.ld_unit_zero (S := S1x128) r6_hz]
  · rw [View.read_writes_eq_canon _ _ _ (scover6_B_1 c i arg1 harg1 arg2 harg2 arg3 harg3 arg4 harg4 arg5 harg5 arg6 harg6 arg7 harg7 hc0 x0 x1 xs0 xs1)]
    unfold kernelRun6_B
    dsimp only
    sl_unfold_words
    rw [View.canon_unit_zero (S := S1x128) r6_hz]
    simp only [View.readAt_eq_ld, harg1.read_unread, harg2.read_unread, harg6.read_unread, harg7.read_unread, View.ld_unit_zero (S := S5000x320) r6_hz, View.ld_unit_zero (S := S320x128) r6_hz, View.ld_unit_zero (S := S1x128) r6_hz]

/-! ## The accumulators after each point, over the payloads -/

section Acc
variable (V : (c : Dev nD) → (b : Ref sig .tc) → Buf (Elt F) ((c : Thread nD τ).loc b))

/-- The pair of accumulators after point `n`: the first point adds its column sums to the zero blocks, each later point to
    what the point before left. -/
def acc6 (c : Dev nD) : (n : ℕ) → n < cfg6.N → Vec F S1x128 .f32 × Vec F S1x128 .f32
  | 0, hn => (k6_pay4 (iblk6 V c 0 ⟨0, hn⟩) (iblk6 V c 1 ⟨0, hn⟩) k6_pay1, k6_pay5 (iblk6 V c 0 ⟨0, hn⟩) (iblk6 V c 1 ⟨0, hn⟩) k6_pay2)
  | n + 1, hn => (k6_pay4 (iblk6 V c 0 ⟨n + 1, hn⟩) (iblk6 V c 1 ⟨n + 1, hn⟩) (acc6 c n (Nat.lt_of_succ_lt hn)).1,
      k6_pay5 (iblk6 V c 0 ⟨n + 1, hn⟩) (iblk6 V c 1 ⟨n + 1, hn⟩) (acc6 c n (Nat.lt_of_succ_lt hn)).2)

/-- What the buffers hold after point `n`, read back from the pieces the runs found: the point's product, and the
    accumulators' current pair in both the sums windows and the scratch buffers — by induction on the point. -/
theorem outsAt6_eq (c : Dev nD) : ∀ (n : ℕ) (hn : n < cfg6.N),
    outsAt6 V c n hn = (k6_pay3 (iblk6 V c 0 ⟨n, hn⟩) (iblk6 V c 1 ⟨n, hn⟩), (acc6 V c n hn).1, (acc6 V c n hn).2, (acc6 V c n hn).1, (acc6 V c n hn).2)
  | 0, hn => (outsAt6_A V c ⟨0, hn⟩ rfl ((hcond6_0 ⟨0, hn⟩).mpr (Nat.zero_mod _))).trans (res6_A_eq ..)
  | n + 1, hn => by
    have hN : cfg6.N = 30 := N_6
    have hc : ¬cond6_0 (grid6.coords ⟨n + 1, hn⟩) := fun h => by
      have h' := (hcond6_0 ⟨n + 1, hn⟩).mp h; (try dsimp only at h'); omega
    rw [outsAt6_B V c ⟨n + 1, hn⟩ (Nat.succ_ne_zero n) hc, res6_B_eq]
    show (_, k6_pay4 _ _ (outsAt6 V c n _).2.2.2.1, k6_pay5 _ _ (outsAt6 V c n _).2.2.2.2, k6_pay4 _ _ (outsAt6 V c n _).2.2.2.1, k6_pay5 _ _ (outsAt6 V c n _).2.2.2.2) = _
    rw [outsAt6_eq c n]
    rfl

end Acc

/-! ## The payloads at an index, at the exact values -/

section AtIdeal

/-- The zero blocks the first point stores. -/
theorem r6_pay1_apply (j : S1x128.Idx) : k6_pay1 (F := Ideal) j = 0 := by
  unfold k6_pay1
  rw [shapeCast_self]
  exact Ideal.ofBits_zero_f32
theorem r6_pay2_apply (j : S1x128.Idx) : k6_pay2 (F := Ideal) j = 0 := by
  unfold k6_pay2
  rw [shapeCast_self]
  exact Ideal.ofBits_zero_f32

/-- The product block at an index: row `q` of the point's rows times column `n` of the weights (the narrowing of the
    operands is the identity on exact values; the accumulator is the zero splat). -/
theorem r6_pay3_apply (x0 : Vec Ideal S5000x320 .f32) (x1 : Vec Ideal S320x128 .f32) (q : Fin 5000) (n : Fin 128) :
    k6_pay3 (F := Ideal) x0 x1 (ix2 q n) = ∑ k : Fin 320, x0 (ix2 q k) * x1 (ix2 k n) := by
  unfold k6_pay3
  refine (Ideal.matmul_constant_zero_apply dot_S5000x320_S320x128_S5000x128_1_0_0_1_n_n none _ _ (ix2 q n)).trans ?_
  refine (Equiv.sum_comp (contrEquiv1 dot_S5000x320_S320x128_S5000x128_1_0_0_1_n_n 320 rfl rfl).symm _).symm.trans ?_
  refine Finset.sum_congr rfl fun k _ => ?_
  rw [shapeCast_self]
  refine congrArg₂ (· * ·) (congrArg x0 (funext fun a => Fin.ext ?_)) (congrArg x1 (funext fun a => Fin.ext ?_))
  · match a with
    | ⟨0, _⟩ => rfl
    | ⟨1, _⟩ => exact (DotDims.lhsIdx_val_of_single _ rfl _ _).trans (contrEquiv1_symm_val _ 320 rfl rfl k)
  · match a with
    | ⟨0, _⟩ => exact (DotDims.rhsIdx_val_of_single _ rfl _ _).trans (contrEquiv1_symm_val _ 320 rfl rfl k)
    | ⟨1, _⟩ => rfl

/-- The first accumulator's new value at column `n`: its old value plus the product block's column sum. -/
theorem r6_pay4_apply (x0 : Vec Ideal S5000x320 .f32) (x1 : Vec Ideal S320x128 .f32) (s : Vec Ideal S1x128 .f32) (z : Fin 1) (n : Fin 128) :
    k6_pay4 (F := Ideal) x0 x1 s (ix2 z n) = s (ix2 z n) + ∑ q : Fin 5000, k6_pay3 (F := Ideal) x0 x1 (ix2 q n) := by
  unfold k6_pay4
  rw [shapeCast_self]
  refine congrArg (s (ix2 z n) + ·) ?_
  refine (shapeCast_apply _ shapeCasts_S128_S1x128 (ix2 z n) (ix1 n) ?_).trans ?_
  · rw [Shape.rowMajor_val_one, Shape.rowMajor_val_two]
    show n.val = z.val * 128 + n.val
    have := z.isLt; omega
  refine (Ideal.multiReduction_add_single (k6_pay3 (F := Ideal) x0 x1) 0x00000000#32 reduces_S5000x128_S128 (.inl rfl) rfl (ix1 n)).trans ?_
  refine Finset.sum_congr rfl fun q _ => congrArg _ (funext fun a => Fin.ext ?_)
  match a with
  | ⟨0, _⟩ => rfl
  | ⟨1, _⟩ => rfl

/-- The second accumulator's new value at column `n`: its old value plus the column sum of the product block's squares. -/
theorem r6_pay5_apply (x0 : Vec Ideal S5000x320 .f32) (x1 : Vec Ideal S320x128 .f32) (s : Vec Ideal S1x128 .f32) (z : Fin 1) (n : Fin 128) :
    k6_pay5 (F := Ideal) x0 x1 s (ix2 z n)
      = s (ix2 z n) + ∑ q : Fin 5000, k6_pay3 (F := Ideal) x0 x1 (ix2 q n) * k6_pay3 (F := Ideal) x0 x1 (ix2 q n) := by
  unfold k6_pay5
  rw [shapeCast_self]
  refine congrArg (s (ix2 z n) + ·) ?_
  refine (shapeCast_apply _ shapeCasts_S128_S1x128 (ix2 z n) (ix1 n) ?_).trans ?_
  · rw [Shape.rowMajor_val_one, Shape.rowMajor_val_two]
    show n.val = z.val * 128 + n.val
    have := z.isLt; omega
  refine (Ideal.multiReduction_add_single (mulf (k6_pay3 (F := Ideal) x0 x1) (k6_pay3 (F := Ideal) x0 x1)) 0x00000000#32 reduces_S5000x128_S128 (.inl rfl) rfl (ix1 n)).trans ?_
  refine Finset.sum_congr rfl fun q _ => ?_
  have e : (reduces_S5000x128_S128.lift (ix1 n) q : S5000x128.Idx) = ix2 q n := funext fun a => Fin.ext (by
    match a with
    | ⟨0, _⟩ => rfl
    | ⟨1, _⟩ => rfl)
  rw [e]; rfl

end AtIdeal

/-! ## The blocks, the accumulators' closed form, and the three result arrays -/

section Final
variable (V : (c : Dev nD) → (b : Ref sig .tc) → Buf (Elt Ideal) ((c : Thread nD τ).loc b))

/-- The input rows and the weights as the region finds them. -/
abbrev X6 (c : Dev nD) : S150000x320.Idx → EReal := V c (Pipeline.arrRef spec6 0)
abbrev Wt6 (c : Dev nD) : S320x128.Idx → EReal := V c (Pipeline.arrRef spec6 1)

/-- The linear layer's output at row `r`, column `n`, from the input rows `X` and the weights `Wt`. -/
def pre6 (X : S150000x320.Idx → EReal) (Wt : S320x128.Idx → EReal) (r : Fin 150000) (n : Fin 128) : EReal :=
  ∑ k : Fin 320, X (ix2 r k) * Wt (ix2 k n)

theorem r6_lt30 {n : ℕ} (hn : n < cfg6.N) : n < 30 := lt_of_lt_of_eq hn N_6
theorem r6_h30 : 30 * 5000 = 150000 := by norm_num

/-- Row `q` of point `t`'s block of rows, among all the rows. -/
def r6_rowOf (t : Fin 30) (q : Fin 5000) : Fin 150000 := ⟨t.val * 5000 + q.val, LibBlockSum.row_lt_of_eq r6_h30 t q⟩

/-- One block's column sum, and its column sum of squares. -/
def colsum6 (c : Dev nD) (l : Fin 128) (t : Fin 30) : EReal := ∑ q : Fin 5000, pre6 (X6 V c) (Wt6 V c) (r6_rowOf t q) l
def colsq6 (c : Dev nD) (l : Fin 128) (t : Fin 30) : EReal := ∑ q : Fin 5000, pre6 (X6 V c) (Wt6 V c) (r6_rowOf t q) l * pre6 (X6 V c) (Wt6 V c) (r6_rowOf t q) l

/-- The windows' block indices at each point, decided over the grid: the rows' and the output's block is the point's
    number along the rows; the weights' and the two sums windows' block never moves. -/
theorem idx6_0 : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)
theorem idx6_1 : ∀ t : Fin cfg6.N, win6_1.index t (0 : Fin 2) = 0 ∧ win6_1.index t (1 : Fin 2) = 0 :=
  (by decide +kernel : ∀ t : Fin grid6.N, win6_1.index t (0 : Fin 2) = 0 ∧ win6_1.index t (1 : Fin 2) = 0)
theorem idx6_2 : ∀ t : Fin cfg6.N, win6_2.index t (0 : Fin 2) = t.val ∧ win6_2.index t (1 : Fin 2) = 0 :=
  (by decide +kernel : ∀ t : Fin grid6.N, win6_2.index t (0 : Fin 2) = t.val ∧ win6_2.index t (1 : Fin 2) = 0)
theorem idx6_3 : ∀ t : Fin cfg6.N, win6_3.index t (0 : Fin 2) = 0 ∧ win6_3.index t (1 : Fin 2) = 0 :=
  (by decide +kernel : ∀ t : Fin grid6.N, win6_3.index t (0 : Fin 2) = 0 ∧ win6_3.index t (1 : Fin 2) = 0)
theorem idx6_4 : ∀ t : Fin cfg6.N, win6_4.index t (0 : Fin 2) = 0 ∧ win6_4.index t (1 : Fin 2) = 0 :=
  (by decide +kernel : ∀ t : Fin grid6.N, win6_4.index t (0 : Fin 2) = 0 ∧ win6_4.index t (1 : Fin 2) = 0)

/-- Point `t`'s block of the input rows: row `q` of it is row `5000 t + q` of the array. -/
theorem iblk6_0_apply (c : Dev nD) (t : Fin cfg6.N) (q : Fin 5000) (k : Fin 320) :
    iblk6 V c 0 t (ix2 q k) = X6 V c (ix2 (r6_rowOf ⟨t.val, r6_lt30 t.isLt⟩ q) k) := by
  unfold iblk6
  rw [View.read_apply]
  show V c (Pipeline.arrRef spec6 0) _ = V c (Pipeline.arrRef spec6 0) _
  refine congrArg (V c (Pipeline.arrRef spec6 0)) (funext fun a => Fin.ext ?_)
  match a with
  | ⟨0, _⟩ => show win6_0.index t 0 * 5000 + 1 * q.val = t.val * 5000 + q.val; rw [(idx6_0 t).1]; omega
  | ⟨1, _⟩ => show win6_0.index t 1 * 320 + 1 * k.val = k.val; rw [(idx6_0 t).2]; omega

/-- The weights' one block is the array. -/
theorem iblk6_1_apply (c : Dev nD) (t : Fin cfg6.N) (k : Fin 320) (n : Fin 128) :
    iblk6 V c 1 t (ix2 k n) = Wt6 V c (ix2 k n) := by
  unfold iblk6
  rw [View.read_apply]
  show V c (Pipeline.arrRef spec6 1) _ = V c (Pipeline.arrRef spec6 1) _
  refine congrArg (V c (Pipeline.arrRef spec6 1)) (funext fun a => Fin.ext ?_)
  match a with
  | ⟨0, _⟩ => show win6_1.index t 0 * 320 + 1 * k.val = k.val; rw [(idx6_1 t).1]; omega
  | ⟨1, _⟩ => show win6_1.index t 1 * 128 + 1 * n.val = n.val; rw [(idx6_1 t).2]; omega

/-- The product block of point `t` at `(q,n)` is the layer's output at row `5000 t + q`. -/
theorem prod6_apply (c : Dev nD) (t : Fin cfg6.N) (q : Fin 5000) (n : Fin 128) :
    k6_pay3 (F := Ideal) (iblk6 V c 0 t) (iblk6 V c 1 t) (ix2 q n) = pre6 (X6 V c) (Wt6 V c) (r6_rowOf ⟨t.val, r6_lt30 t.isLt⟩ q) n := by
  refine (r6_pay3_apply (iblk6 V c 0 t) (iblk6 V c 1 t) q n).trans ?_
  unfold pre6
  exact Finset.sum_congr rfl fun k _ => congrArg₂ (· * ·) (iblk6_0_apply V c t q k) (iblk6_1_apply V c t k n)

/-- THE INVARIANT. After point `n` the accumulators hold, at column `l`, the totals of the first `n + 1` blocks' column sums
    and column sums of squares. -/
theorem acc6_apply (c : Dev nD) : ∀ (n : ℕ) (hn : n < cfg6.N) (z : Fin 1) (l : Fin 128),
    (acc6 V c n hn).1 (ix2 z l) = LibBlockSum.upTo (colsum6 V c l) (n + 1)
      ∧ (acc6 V c n hn).2 (ix2 z l) = LibBlockSum.upTo (colsq6 V c l) (n + 1)
  | 0, hn, z, l => by
    constructor
    · show k6_pay4 (F := Ideal) (iblk6 V c 0 ⟨0, hn⟩) (iblk6 V c 1 ⟨0, hn⟩) (k6_pay1 (F := Ideal)) (ix2 z l) = _
      refine (r6_pay4_apply (iblk6 V c 0 ⟨0, hn⟩) (iblk6 V c 1 ⟨0, hn⟩) (k6_pay1 (F := Ideal)) z l).trans ?_
      rw [r6_pay1_apply, zero_add, LibBlockSum.upTo_succ _ 0 (by norm_num), LibBlockSum.upTo_zero, zero_add]
      exact Finset.sum_congr rfl fun q _ => prod6_apply V c ⟨0, hn⟩ q l
    · show k6_pay5 (F := Ideal) (iblk6 V c 0 ⟨0, hn⟩) (iblk6 V c 1 ⟨0, hn⟩) (k6_pay2 (F := Ideal)) (ix2 z l) = _
      refine (r6_pay5_apply (iblk6 V c 0 ⟨0, hn⟩) (iblk6 V c 1 ⟨0, hn⟩) (k6_pay2 (F := Ideal)) z l).trans ?_
      rw [r6_pay2_apply, zero_add, LibBlockSum.upTo_succ _ 0 (by norm_num), LibBlockSum.upTo_zero, zero_add]
      exact Finset.sum_congr rfl fun q _ => congrArg₂ (· * ·) (prod6_apply V c ⟨0, hn⟩ q l) (prod6_apply V c ⟨0, hn⟩ q l)
  | n + 1, hn, z, l => by
    obtain ⟨ih1, ih2⟩ := acc6_apply c n (Nat.lt_of_succ_lt hn) z l
    constructor
    · show k6_pay4 (F := Ideal) (iblk6 V c 0 ⟨n + 1, hn⟩) (iblk6 V c 1 ⟨n + 1, hn⟩) (acc6 V c n (Nat.lt_of_succ_lt hn)).1 (ix2 z l) = _
      refine (r6_pay4_apply (iblk6 V c 0 ⟨n + 1, hn⟩) (iblk6 V c 1 ⟨n + 1, hn⟩) (acc6 V c n (Nat.lt_of_succ_lt hn)).1 z l).trans ?_
      rw [ih1, LibBlockSum.upTo_succ _ (n + 1) (r6_lt30 hn)]
      refine congrArg (LibBlockSum.upTo (colsum6 V c l) (n + 1) + ·) ?_
      exact Finset.sum_congr rfl fun q _ => prod6_apply V c ⟨n + 1, hn⟩ q l
    · show k6_pay5 (F := Ideal) (iblk6 V c 0 ⟨n + 1, hn⟩) (iblk6 V c 1 ⟨n + 1, hn⟩) (acc6 V c n (Nat.lt_of_succ_lt hn)).2 (ix2 z l) = _
      refine (r6_pay5_apply (iblk6 V c 0 ⟨n + 1, hn⟩) (iblk6 V c 1 ⟨n + 1, hn⟩) (acc6 V c n (Nat.lt_of_succ_lt hn)).2 z l).trans ?_
      rw [ih2, LibBlockSum.upTo_succ _ (n + 1) (r6_lt30 hn)]
      refine congrArg (LibBlockSum.upTo (colsq6 V c l) (n + 1) + ·) ?_
      exact Finset.sum_congr rfl fun q _ => congrArg₂ (· * ·) (prod6_apply V c ⟨n + 1, hn⟩ q l) (prod6_apply V c ⟨n + 1, hn⟩ q l)

/-- What the three result arrays end holding, index by index. -/
def G6_2 (X : S150000x320.Idx → EReal) (Wt : S320x128.Idx → EReal) : S150000x128.Idx → EReal := fun j => pre6 X Wt (j 0) (j 1)
def G6_3 (X : S150000x320.Idx → EReal) (Wt : S320x128.Idx → EReal) : S1x128.Idx → EReal := fun j => ∑ r : Fin 150000, pre6 X Wt r (j 1)
def G6_4 (X : S150000x320.Idx → EReal) (Wt : S320x128.Idx → EReal) : S1x128.Idx → EReal :=
  fun j => ∑ r : Fin 150000, pre6 X Wt r (j 1) * pre6 X Wt r (j 1)

theorem G6_2_apply (X : S150000x320.Idx → EReal) (Wt : S320x128.Idx → EReal) (r : Fin 150000) (n : Fin 128) :
    G6_2 X Wt (ix2 r n) = pre6 X Wt r n := rfl
theorem G6_3_apply (X : S150000x320.Idx → EReal) (Wt : S320x128.Idx → EReal) (u : Fin 1) (n : Fin 128) :
    G6_3 X Wt (ix2 u n) = ∑ r : Fin 150000, pre6 X Wt r n := rfl
theorem G6_4_apply (X : S150000x320.Idx → EReal) (Wt : S320x128.Idx → EReal) (u : Fin 1) (n : Fin 128) :
    G6_4 X Wt (ix2 u n) = ∑ r : Fin 150000, pre6 X Wt r n * pre6 X Wt r n := rfl

/-- A function of the output array read through point `t`'s block, at `(q,n)`, is the function at row `5000 t + q`. -/
theorem read_blk6_2 (t : Fin cfg6.N) (G : S150000x128.Idx → EReal) (q : Fin 5000) (n : Fin 128) :
    ((cfg6.win 2).blk t).view.read (Elt Ideal) G (ix2 q n) = G (ix2 (r6_rowOf ⟨t.val, r6_lt30 t.isLt⟩ q) n) := by
  rw [View.read_apply]
  show G _ = G _
  refine congrArg G (funext fun a => Fin.ext ?_)
  match a with
  | ⟨0, _⟩ => show win6_2.index t 0 * 5000 + 1 * q.val = t.val * 5000 + q.val; rw [(idx6_2 t).1]; omega
  | ⟨1, _⟩ => show win6_2.index t 1 * 128 + 1 * n.val = n.val; rw [(idx6_2 t).2]; omega

/-- The sums arrays are one block: a function of either read through it is the function. -/
theorem read_blk6_3 (t : Fin cfg6.N) (G : S1x128.Idx → EReal) :
    ((cfg6.win 3).blk t).view.read (Elt Ideal) G = G := by
  funext y
  rw [View.read_apply]
  show G _ = G y
  refine congrArg G (funext fun a => Fin.ext ?_)
  match a with
  | ⟨0, _⟩ => show win6_3.index t 0 * 1 + 1 * (y 0).val = (y 0).val; rw [(idx6_3 t).1]; omega
  | ⟨1, _⟩ => show win6_3.index t 1 * 128 + 1 * (y 1).val = (y 1).val; rw [(idx6_3 t).2]; omega
theorem read_blk6_4 (t : Fin cfg6.N) (G : S1x128.Idx → EReal) :
    ((cfg6.win 4).blk t).view.read (Elt Ideal) G = G := by
  funext y
  rw [View.read_apply]
  show G _ = G y
  refine congrArg G (funext fun a => Fin.ext ?_)
  match a with
  | ⟨0, _⟩ => show win6_4.index t 0 * 1 + 1 * (y 0).val = (y 0).val; rw [(idx6_4 t).1]; omega
  | ⟨1, _⟩ => show win6_4.index t 1 * 128 + 1 * (y 1).val = (y 1).val; rw [(idx6_4 t).2]; omega

/-- What point `t` writes back into the output array is its block of the layer's output. -/
theorem flushed6_2 (c : Dev nD) (t : Fin cfg6.N) :
    (dat6 (F := Ideal) V c).flushed 2 t = ((cfg6.win 2).blk t).view.read (Elt Ideal) (G6_2 (X6 V c) (Wt6 V c)) := by
  show (cfg6.win 2).cut (grid6.coords t) ((dat6 (F := Ideal) V c).after 2 t) = _
  rw [after6_2, outsAt6_eq]
  funext y
  obtain ⟨q, n, rfl⟩ : ∃ (q : Fin 5000) (n : Fin 128), y = ix2 q n := ⟨y 0, y 1, eq_ix2 y⟩
  refine (prod6_apply V c t q n).trans ?_
  rw [read_blk6_2 t (G6_2 (X6 V c) (Wt6 V c)) q n, G6_2_apply]

/-- The last point writes back the totals over all 30 blocks, which are the sums over all the rows. -/
theorem flushed6_3 (c : Dev nD) (t : Fin cfg6.N) (hf : (cfg6.win 3).flush t = true) :
    (dat6 (F := Ideal) V c).flushed 3 t = ((cfg6.win 3).blk t).view.read (Elt Ideal) (G6_3 (X6 V c) (Wt6 V c)) := by
  have ht : t.val + 1 = 30 := by have := (flush6_3 t).mp hf; have := r6_lt30 t.isLt; omega
  rw [read_blk6_3 t (G6_3 (X6 V c) (Wt6 V c))]
  show (cfg6.win 3).cut (grid6.coords t) ((dat6 (F := Ideal) V c).after 3 t) = _
  rw [after6_3, outsAt6_eq]
  funext y
  obtain ⟨z, l, rfl⟩ : ∃ (z : Fin 1) (l : Fin 128), y = ix2 z l := ⟨y 0, y 1, eq_ix2 y⟩
  refine ((acc6_apply V c t.val t.isLt z l).1).trans ?_
  rw [ht, G6_3_apply]
  exact LibBlockSum.upTo_blocks r6_h30 (fun r => pre6 (X6 V c) (Wt6 V c) r l)
theorem flushed6_4 (c : Dev nD) (t : Fin cfg6.N) (hf : (cfg6.win 4).flush t = true) :
    (dat6 (F := Ideal) V c).flushed 4 t = ((cfg6.win 4).blk t).view.read (Elt Ideal) (G6_4 (X6 V c) (Wt6 V c)) := by
  have ht : t.val + 1 = 30 := by have := (flush6_4 t).mp hf; have := r6_lt30 t.isLt; omega
  rw [read_blk6_4 t (G6_4 (X6 V c) (Wt6 V c))]
  show (cfg6.win 4).cut (grid6.coords t) ((dat6 (F := Ideal) V c).after 4 t) = _
  rw [after6_4, outsAt6_eq]
  funext y
  obtain ⟨z, l, rfl⟩ : ∃ (z : Fin 1) (l : Fin 128), y = ix2 z l := ⟨y 0, y 1, eq_ix2 y⟩
  refine ((acc6_apply V c t.val t.isLt z l).2).trans ?_
  rw [ht, G6_4_apply]
  exact LibBlockSum.upTo_blocks r6_h30 (fun r => pre6 (X6 V c) (Wt6 V c) r l * pre6 (X6 V c) (Wt6 V c) r l)

/-- An index of each result array is in point `t`'s block iff each coordinate is in the block's range on its axis. -/
theorem mem_blk6_2 (t : Fin cfg6.N) (i : S150000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v201_0).slice (win6_2.rect t)).set ↔ _
  rw [View.set_slice_whole, Rect.mem_set_unit]
  exact Iff.rfl
theorem mem_blk6_3 (t : Fin cfg6.N) (i : S1x128.Idx) :
    i ∈ ((cfg6.win 3).blk t).view.set ↔ ∀ a : Fin 2, win6_3.index t a * S1x128.size a ≤ (i a).val ∧ (i a).val < win6_3.index t a * S1x128.size a + S1x128.size a := by
  show i ∈ ((View.whole main_v201_1).slice (win6_3.rect t)).set ↔ _
  rw [View.set_slice_whole, Rect.mem_set_unit]
  exact Iff.rfl
theorem mem_blk6_4 (t : Fin cfg6.N) (i : S1x128.Idx) :
    i ∈ ((cfg6.win 4).blk t).view.set ↔ ∀ a : Fin 2, win6_4.index t a * S1x128.size a ≤ (i a).val ∧ (i a).val < win6_4.index t a * S1x128.size a + S1x128.size a := by
  show i ∈ ((View.whole main_v201_2).slice (win6_4.rect t)).set ↔ _
  rw [View.set_slice_whole, Rect.mem_set_unit]
  exact Iff.rfl

/-- Row `r` of the output array is in the block of point `r / 5000`. -/
theorem cover_blk6_2 (i : S150000x128.Idx) :
    ∃ t : Fin cfg6.N, (cfg6.win 2).flush t = true ∧ i ∈ ((cfg6.win 2).blk t).view.set := by
  have h0 : (i 0).val < 150000 := (i 0).isLt
  have h1 : (i 1).val < 128 := (i 1).isLt
  have hN : cfg6.N = 30 := N_6
  refine ⟨⟨(i 0).val / 5000, by omega⟩, flush6_2 _, ?_⟩
  rw [mem_blk6_2]
  obtain ⟨e0, e1⟩ := idx6_2 ⟨(i 0).val / 5000, by omega⟩
  intro a
  match a with
  | ⟨0, _⟩ =>
    show win6_2.index ⟨(i 0).val / 5000, _⟩ (0 : Fin 2) * 5000 ≤ (i 0).val ∧ (i 0).val < win6_2.index ⟨(i 0).val / 5000, _⟩ (0 : Fin 2) * 5000 + 5000
    rw [e0]; dsimp only; omega
  | ⟨1, _⟩ =>
    show win6_2.index ⟨(i 0).val / 5000, _⟩ (1 : Fin 2) * 128 ≤ (i 1).val ∧ (i 1).val < win6_2.index ⟨(i 0).val / 5000, _⟩ (1 : Fin 2) * 128 + 128
    rw [e1]; omega

/-- The last point's block of either sums array is the whole array. -/
theorem cover_blk6_3 (i : S1x128.Idx) :
    ∃ t : Fin cfg6.N, (cfg6.win 3).flush t = true ∧ i ∈ ((cfg6.win 3).blk t).view.set := by
  have h0 : (i 0).val < 1 := (i 0).isLt
  have h1 : (i 1).val < 128 := (i 1).isLt
  have hN : cfg6.N = 30 := N_6
  refine ⟨⟨29, by omega⟩, (flush6_3 _).mpr rfl, ?_⟩
  rw [mem_blk6_3]
  obtain ⟨e0, e1⟩ := idx6_3 ⟨29, by omega⟩
  intro a
  match a with
  | ⟨0, _⟩ =>
    show win6_3.index ⟨29, _⟩ (0 : Fin 2) * 1 ≤ (i 0).val ∧ (i 0).val < win6_3.index ⟨29, _⟩ (0 : Fin 2) * 1 + 1
    rw [e0]; omega
  | ⟨1, _⟩ =>
    show win6_3.index ⟨29, _⟩ (1 : Fin 2) * 128 ≤ (i 1).val ∧ (i 1).val < win6_3.index ⟨29, _⟩ (1 : Fin 2) * 128 + 128
    rw [e1]; omega
theorem cover_blk6_4 (i : S1x128.Idx) :
    ∃ t : Fin cfg6.N, (cfg6.win 4).flush t = true ∧ i ∈ ((cfg6.win 4).blk t).view.set := by
  have h0 : (i 0).val < 1 := (i 0).isLt
  have h1 : (i 1).val < 128 := (i 1).isLt
  have hN : cfg6.N = 30 := N_6
  refine ⟨⟨29, by omega⟩, (flush6_4 _).mpr rfl, ?_⟩
  rw [mem_blk6_4]
  obtain ⟨e0, e1⟩ := idx6_4 ⟨29, by omega⟩
  intro a
  match a with
  | ⟨0, _⟩ =>
    show win6_4.index ⟨29, _⟩ (0 : Fin 2) * 1 ≤ (i 0).val ∧ (i 0).val < win6_4.index ⟨29, _⟩ (0 : Fin 2) * 1 + 1
    rw [e0]; omega
  | ⟨1, _⟩ =>
    show win6_4.index ⟨29, _⟩ (1 : Fin 2) * 128 ≤ (i 1).val ∧ (i 1).val < win6_4.index ⟨29, _⟩ (1 : Fin 2) * 128 + 128
    rw [e1]; omega

/-- THE OUTPUT ARRAY ends holding the layer's output. -/
theorem final6_2 (c : Dev nD) : (dat6 (F := Ideal) V c).arrAt 2 cfg6.N = G6_2 (X6 V c) (Wt6 V c) :=
  (dat6 (F := Ideal) V c).arrAt_eq_of_cover 2 (G6_2 (X6 V c) (Wt6 V c)) (fun t _ => flushed6_2 V c t) cover_blk6_2

/-- THE SUMS ARRAY ends holding the column sums of the layer's output over all the rows. -/
theorem final6_3 (c : Dev nD) : (dat6 (F := Ideal) V c).arrAt 3 cfg6.N = G6_3 (X6 V c) (Wt6 V c) :=
  (dat6 (F := Ideal) V c).arrAt_eq_of_cover 3 (G6_3 (X6 V c) (Wt6 V c)) (fun t hf => flushed6_3 V c t hf) cover_blk6_3

/-- THE ARRAY OF SUMS OF SQUARES ends holding the column sums of the squares of the layer's output over all the rows. -/
theorem final6_4 (c : Dev nD) : (dat6 (F := Ideal) V c).arrAt 4 cfg6.N = G6_4 (X6 V c) (Wt6 V c) :=
  (dat6 (F := Ideal) V c).arrAt_eq_of_cover 4 (G6_4 (X6 V c) (Wt6 V c)) (fun t hf => flushed6_4 V c t hf) cover_blk6_4

end Final

end Cert.KernelIdeal.Hand

end
-- ==== Proof.KI.Value7.lean ====
import proofs.«143519_j50869592655552_1_alg».proof.Proof.KI.Region7
import proofs.«143519_j50869592655552_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)
open scoped BigOperators

/-! # Region 7, the values: what its three result arrays hold after the region, as functions of the four arrays it reads

With X the 150000 x 128 input, sc and sh the batch-norm scale and shift rows, Wt the 128 x 64 weights:
act r k = max (X r k * sc k + sh k) 0, pre r n = Σ k, act r k * Wt k n; the product window ends holding pre, the two
small windows the column sums of pre and of pre². The column sums are accumulated block by block (30 blocks of 5000
rows) in two scratch rows; a sum over all rows is the sum over the blocks of each block's sum. -/

variable {F : FTy → Type} [FloatOps F]

/-! ## What each case's stores leave, as the payloads of the blocks -/

theorem hz7 : (![0, 0] : Fin 2 → Nat) = fun _ => 0 := funext fun a => by fin_cases a <;> rfl

/-- A whole-buffer load after stores the last of which was a whole-buffer store reads that store's payload. -/
theorem readCov_cons_unit_zero7 {S : Shape} {e : EltTy} {sg : RefSig} {κ : Kind} {sp : Space}
    (v : View sg κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem out7_A_4_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) :
    out7_A_4 c i arg1 harg1 arg2 harg2 arg3 harg3 arg4 harg4 arg5 harg5 arg6 harg6 arg7 harg7 arg8 harg8 arg9 harg9 hc0 x0 x1 x2 x3 = k7_pay4 x0 x1 x2 x3 := by
  unfold out7_A_4
  rw [View.read_writes_eq_canon _ _ _ (cover7_A_4 c i arg1 harg1 arg2 harg2 arg3 harg3 arg4 harg4 arg5 harg5 arg6 harg6 arg7 harg7 arg8 harg8 arg9 harg9 hc0 x0 x1 x2 x3)]
  unfold kernelRun7_A
  dsimp only
  sl_unfold_words
  rw [View.canon_unit_zero hz7]
  simp only [View.readAt_eq_ld, harg1.read_unread, harg2.read_unread, harg3.read_unread, harg4.read_unread, View.ld_unit_zero (S := S5000x128) hz7, View.ld_unit_zero (S := S1x128) hz7, View.ld_unit_zero (S := S128x64) hz7, View.ld_unit_zero (S := S1x64) hz7]
theorem out7_B_4_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) :
    out7_B_4 c i arg1 harg1 arg2 harg2 arg3 harg3 arg4 harg4 arg5 harg5 arg6 harg6 arg7 harg7 arg8 harg8 arg9 harg9 hc0 x0 x1 x2 x3 xs0 xs1 = k7_pay4 x0 x1 x2 x3 := by
  unfold out7_B_4
  rw [View.read_writes_eq_canon _ _ _ (cover7_B_4 c i arg1 harg1 arg2 harg2 arg3 harg3 arg4 harg4 arg5 harg5 arg6 harg6 arg7 harg7 arg8 harg8 arg9 harg9 hc0 x0 x1 x2 x3 xs0 xs1)]
  unfold kernelRun7_B
  dsimp only
  sl_unfold_words
  rw [View.canon_unit_zero hz7]
  simp only [View.readAt_eq_ld, harg1.read_unread, harg2.read_unread, harg3.read_unread, harg4.read_unread, View.ld_unit_zero (S := S5000x128) hz7, View.ld_unit_zero (S := S1x128) hz7, View.ld_unit_zero (S := S128x64) hz7, View.ld_unit_zero (S := S1x64) hz7]
theorem sout7_A_0_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) :
    sout7_A_0 c i arg1 harg1 arg2 harg2 arg3 harg3 arg4 harg4 arg5 harg5 arg6 harg6 arg7 harg7 arg8 harg8 arg9 harg9 hc0 x0 x1 x2 x3 = k7_pay5 x0 x1 x2 x3 (k7_pay2 (F := F)) := by
  unfold sout7_A_0
  rw [View.read_writes_eq_canon _ _ _ (scover7_A_0 c i arg1 harg1 arg2 harg2 arg3 harg3 arg4 harg4 arg5 harg5 arg6 harg6 arg7 harg7 arg8 harg8 arg9 harg9 hc0 x0 x1 x2 x3)]
  unfold kernelRun7_A
  dsimp only
  sl_unfold_words
  rw [View.canon_cons_unit_zero (S := S1x64) hz7, View.readCov_unit_zero (S := S1x64) _ hz7]
  simp only [View.readAt_eq_ld, harg1.read_unread, harg2.read_unread, harg3.read_unread, harg4.read_unread, View.ld_unit_zero (S := S5000x128) hz7, View.ld_unit_zero (S := S1x128) hz7, View.ld_unit_zero (S := S128x64) hz7, View.ld_unit_zero (S := S1x64) hz7]
theorem sout7_B_0_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) :
    sout7_B_0 c i arg1 harg1 arg2 harg2 arg3 harg3 arg4 harg4 arg5 harg5 arg6 harg6 arg7 harg7 arg8 harg8 arg9 harg9 hc0 x0 x1 x2 x3 xs0 xs1 = k7_pay5 x0 x1 x2 x3 xs0 := by
  unfold sout7_B_0
  rw [View.read_writes_eq_canon _ _ _ (scover7_B_0 c i arg1 harg1 arg2 harg2 arg3 harg3 arg4 harg4 arg5 harg5 arg6 harg6 arg7 harg7 arg8 harg8 arg9 harg9 hc0 x0 x1 x2 x3 xs0 xs1)]
  unfold kernelRun7_B
  dsimp only
  sl_unfold_words
  rw [View.canon_unit_zero hz7]
  simp only [View.readAt_eq_ld, harg1.read_unread, harg2.read_unread, harg3.read_unread, harg4.read_unread, harg8.read_unread, View.ld_unit_zero (S := S5000x128) hz7, View.ld_unit_zero (S := S1x128) hz7, View.ld_unit_zero (S := S128x64) hz7, View.ld_unit_zero (S := S1x64) hz7]
theorem sout7_A_1_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) :
    sout7_A_1 c i arg1 harg1 arg2 harg2 arg3 harg3 arg4 harg4 arg5 harg5 arg6 harg6 arg7 harg7 arg8 harg8 arg9 harg9 hc0 x0 x1 x2 x3 = k7_pay1 (k7_pay6 x0 x1 x2 x3 (k7_pay3 (F := F))) := by
  unfold sout7_A_1
  rw [View.read_writes_eq_canon _ _ _ (scover7_A_1 c i arg1 harg1 arg2 harg2 arg3 harg3 arg4 harg4 arg5 harg5 arg6 harg6 arg7 harg7 arg8 harg8 arg9 harg9 hc0 x0 x1 x2 x3)]
  unfold kernelRun7_A
  dsimp only
  sl_unfold_words
  rw [View.canon_cons_unit_zero (S := S1x64) hz7, View.readCov_unit_zero (S := S1x64) _ hz7]
  simp only [View.readAt_eq_ld, harg1.read_unread, harg2.read_unread, harg3.read_unread, harg4.read_unread, View.ld_unit_zero (S := S5000x128) hz7, View.ld_unit_zero (S := S1x128) hz7, View.ld_unit_zero (S := S128x64) hz7, View.ld_unit_zero (S := S1x64) hz7]
theorem sout7_B_1_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) :
    sout7_B_1 c i arg1 harg1 arg2 harg2 arg3 harg3 arg4 harg4 arg5 harg5 arg6 harg6 arg7 harg7 arg8 harg8 arg9 harg9 hc0 x0 x1 x2 x3 xs0 xs1 = k7_pay1 (k7_pay6 x0 x1 x2 x3 xs1) := by
  unfold sout7_B_1
  rw [View.read_writes_eq_canon _ _ _ (scover7_B_1 c i arg1 harg1 arg2 harg2 arg3 harg3 arg4 harg4 arg5 harg5 arg6 harg6 arg7 harg7 arg8 harg8 arg9 harg9 hc0 x0 x1 x2 x3 xs0 xs1)]
  unfold kernelRun7_B
  dsimp only
  sl_unfold_words
  rw [View.canon_unit_zero hz7]
  simp only [View.readAt_eq_ld, harg1.read_unread, harg2.read_unread, harg3.read_unread, harg4.read_unread, harg9.read_unread, View.ld_unit_zero (S := S5000x128) hz7, View.ld_unit_zero (S := S1x128) hz7, View.ld_unit_zero (S := S128x64) hz7, View.ld_unit_zero (S := S1x64) hz7]
theorem out7_A_5_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) :
    out7_A_5 c i arg1 harg1 arg2 harg2 arg3 harg3 arg4 harg4 arg5 harg5 arg6 harg6 arg7 harg7 arg8 harg8 arg9 harg9 hc0 x0 x1 x2 x3 = k7_pay5 x0 x1 x2 x3 (k7_pay2 (F := F)) := by
  unfold out7_A_5
  rw [View.read_writes_eq_canon _ _ _ (cover7_A_5 c i arg1 harg1 arg2 harg2 arg3 harg3 arg4 harg4 arg5 harg5 arg6 harg6 arg7 harg7 arg8 harg8 arg9 harg9 hc0 x0 x1 x2 x3)]
  unfold kernelRun7_A
  dsimp only
  sl_unfold_words
  rw [View.canon_unit_zero hz7, readCov_cons_unit_zero7 _ hz7, View.readCov_unit_zero (S := S1x64) _ hz7]
  simp only [View.readAt_eq_ld, harg1.read_unread, harg2.read_unread, harg3.read_unread, harg4.read_unread, View.ld_unit_zero (S := S5000x128) hz7, View.ld_unit_zero (S := S1x128) hz7, View.ld_unit_zero (S := S128x64) hz7, View.ld_unit_zero (S := S1x64) hz7]
theorem out7_B_5_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) :
    out7_B_5 c i arg1 harg1 arg2 harg2 arg3 harg3 arg4 harg4 arg5 harg5 arg6 harg6 arg7 harg7 arg8 harg8 arg9 harg9 hc0 x0 x1 x2 x3 xs0 xs1 = k7_pay5 x0 x1 x2 x3 xs0 := by
  unfold out7_B_5
  rw [View.read_writes_eq_canon _ _ _ (cover7_B_5 c i arg1 harg1 arg2 harg2 arg3 harg3 arg4 harg4 arg5 harg5 arg6 harg6 arg7 harg7 arg8 harg8 arg9 harg9 hc0 x0 x1 x2 x3 xs0 xs1)]
  unfold kernelRun7_B
  dsimp only
  sl_unfold_words
  rw [View.canon_unit_zero hz7, readCov_cons_unit_zero7 _ hz7]
  simp only [View.readAt_eq_ld, harg1.read_unread, harg2.read_unread, harg3.read_unread, harg4.read_unread, harg8.read_unread, View.ld_unit_zero (S := S5000x128) hz7, View.ld_unit_zero (S := S1x128) hz7, View.ld_unit_zero (S := S128x64) hz7, View.ld_unit_zero (S := S1x64) hz7]
theorem out7_A_6_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i)
    (x0 : Vec F S5000x128 .f32) (x1 : Vec F S1x128 .f32) (x2 : Vec F S1x128 .f32) (x3 : Vec F S128x64 .f32) :
    out7_A_6 c i arg1 harg1 arg2 harg2 arg3 harg3 arg4 harg4 arg5 harg5 arg6 harg6 arg7 harg7 arg8 harg8 arg9 harg9 hc0 x0 x1 x2 x3 = k7_pay1 (k7_pay6 x0 x1 x2 x3 (k7_pay3 (F := F))) := by
  unfold out7_A_6
  rw [View.read_writes_eq_canon _ _ _ (cover7_A_6 c i arg1 harg1 arg2 harg2 arg3 harg3 arg4 harg4 arg5 harg5 arg6 harg6 arg7 harg7 arg8 harg8 arg9 harg9 hc0 x0 x1 x2 x3)]
  unfold kernelRun7_A
  dsimp only
  sl_unfold_words
  rw [View.canon_unit_zero hz7, readCov_cons_unit_zero7 _ hz7, View.readCov_unit_zero (S := S1x64) _ hz7]
  simp only [View.readAt_eq_ld, harg1.read_unread, harg2.read_unread, harg3.read_unread, harg4.read_unread, View.ld_unit_zero (S := S5000x128) hz7, View.ld_unit_zero (S := S1x128) hz7, View.ld_unit_zero (S := S128x64) hz7, View.ld_unit_zero (S := S1x64) hz7]
theorem out7_B_6_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i)
    (x0 : Vec F S5000x128 .f32) (x1 : Vec F S1x128 .f32) (x2 : Vec F S1x128 .f32) (x3 : Vec F S128x64 .f32) (xs0 : Vec F S1x64 .f32) (xs1 : Vec F S1x64 .f32) :
    out7_B_6 c i arg1 harg1 arg2 harg2 arg3 harg3 arg4 harg4 arg5 harg5 arg6 harg6 arg7 harg7 arg8 harg8 arg9 harg9 hc0 x0 x1 x2 x3 xs0 xs1 = k7_pay1 (k7_pay6 x0 x1 x2 x3 xs1) := by
  unfold out7_B_6
  rw [View.read_writes_eq_canon _ _ _ (cover7_B_6 c i arg1 harg1 arg2 harg2 arg3 harg3 arg4 harg4 arg5 harg5 arg6 harg6 arg7 harg7 arg8 harg8 arg9 harg9 hc0 x0 x1 x2 x3 xs0 xs1)]
  unfold kernelRun7_B
  dsimp only
  sl_unfold_words
  rw [View.canon_unit_zero hz7, readCov_cons_unit_zero7 _ hz7]
  simp only [View.readAt_eq_ld, harg1.read_unread, harg2.read_unread, harg3.read_unread, harg4.read_unread, harg9.read_unread, View.ld_unit_zero (S := S5000x128) hz7, View.ld_unit_zero (S := S1x128) hz7, View.ld_unit_zero (S := S128x64) hz7, View.ld_unit_zero (S := S1x64) hz7]

/-! ## The scratch rows and the windows point by point, over the payloads (any float instance) -/

section Rows
variable (V : (c : Dev nD) → (b : Ref sig .tc) → Buf (Elt F) ((c : Thread nD τ).loc b))

/-- The two scratch rows after the body at position `n`: started from zero at the first point, each later point adds
    its block's column sums (of the product, of its squares) to what the point before left. -/
def scr7 (c : Dev nD) : (n : ℕ) → n < cfg7.N → Vec F S1x64 .f32 × Vec F S1x64 .f32
  | 0, hn => (k7_pay5 (iblk7 V c 0 ⟨0, hn⟩) (iblk7 V c 1 ⟨0, hn⟩) (iblk7 V c 2 ⟨0, hn⟩) (iblk7 V c 3 ⟨0, hn⟩) (k7_pay2 (F := F)),
      k7_pay1 (k7_pay6 (iblk7 V c 0 ⟨0, hn⟩) (iblk7 V c 1 ⟨0, hn⟩) (iblk7 V c 2 ⟨0, hn⟩) (iblk7 V c 3 ⟨0, hn⟩) (k7_pay3 (F := F))))
  | n + 1, hn => (k7_pay5 (iblk7 V c 0 ⟨n + 1, hn⟩) (iblk7 V c 1 ⟨n + 1, hn⟩) (iblk7 V c 2 ⟨n + 1, hn⟩) (iblk7 V c 3 ⟨n + 1, hn⟩) (scr7 c n (Nat.lt_of_succ_lt hn)).1,
      k7_pay1 (k7_pay6 (iblk7 V c 0 ⟨n + 1, hn⟩) (iblk7 V c 1 ⟨n + 1, hn⟩) (iblk7 V c 2 ⟨n + 1, hn⟩) (iblk7 V c 3 ⟨n + 1, hn⟩) (scr7 c n (Nat.lt_of_succ_lt hn)).2))

/-- The scratch rows at the first point. -/
theorem scr7_A (c : Dev nD) (t : Fin cfg7.N) (hz : t.val = 0) :
    scr7 V c t.val t.isLt = (k7_pay5 (iblk7 V c 0 t) (iblk7 V c 1 t) (iblk7 V c 2 t) (iblk7 V c 3 t) (k7_pay2 (F := F)), k7_pay1 (k7_pay6 (iblk7 V c 0 t) (iblk7 V c 1 t) (iblk7 V c 2 t) (iblk7 V c 3 t) (k7_pay3 (F := F)))) := by
  obtain ⟨n, hn⟩ := t
  cases n with
  | zero => exact rfl
  | succ n => exact absurd hz (Nat.succ_ne_zero n)

/-- The scratch rows at a later point, over the point before. -/
theorem scr7_B (c : Dev nD) (t : Fin cfg7.N) (hz : ¬t.val = 0) :
    scr7 V c t.val t.isLt = (k7_pay5 (iblk7 V c 0 t) (iblk7 V c 1 t) (iblk7 V c 2 t) (iblk7 V c 3 t) (scr7 V c (t.val - 1) (Nat.lt_of_le_of_lt (Nat.sub_le _ _) t.isLt)).1, k7_pay1 (k7_pay6 (iblk7 V c 0 t) (iblk7 V c 1 t) (iblk7 V c 2 t) (iblk7 V c 3 t) (scr7 V c (t.val - 1) (Nat.lt_of_le_of_lt (Nat.sub_le _ _) t.isLt)).2)) := by
  obtain ⟨n, hn⟩ := t
  cases n with
  | zero => exact absurd rfl hz
  | succ n => exact rfl

/-- After every point the product window holds the block's product, and the two small windows hold the scratch rows'
    current contents. -/
theorem outsAt7_pt (c : Dev nD) : ∀ (n : ℕ) (t : Fin cfg7.N), t.val = n → outsAt7 V c t.val t.isLt
    = (k7_pay4 (iblk7 V c 0 t) (iblk7 V c 1 t) (iblk7 V c 2 t) (iblk7 V c 3 t), (scr7 V c t.val t.isLt).1, (scr7 V c t.val t.isLt).2, (scr7 V c t.val t.isLt).1, (scr7 V c t.val t.isLt).2)
  | 0, t, hz => by
    rw [outsAt7_A V c t hz, scr7_A V c t hz]
    rw [out7_A_4_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t),
      out7_A_5_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t),
      out7_A_6_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t),
      sout7_A_0_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t),
      sout7_A_1_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr hz) (iblk7 V c 0 t) (iblk7 V c 1 t) (iblk7 V c 2 t) (iblk7 V c 3 t)]
  | n + 1, t, hn => by
    have hz : ¬t.val = 0 := by omega
    have ih := outsAt7_pt c n ⟨t.val - 1, Nat.lt_of_le_of_lt (Nat.sub_le _ _) t.isLt⟩ (by show t.val - 1 = n; omega)
    have e0 : (outsAt7 V c (t.val - 1) (Nat.lt_of_le_of_lt (Nat.sub_le _ _) t.isLt)).2.2.2.1 = (scr7 V c (t.val - 1) (Nat.lt_of_le_of_lt (Nat.sub_le _ _) t.isLt)).1 := congrArg (fun x => x.2.2.2.1) ih
    have e1 : (outsAt7 V c (t.val - 1) (Nat.lt_of_le_of_lt (Nat.sub_le _ _) t.isLt)).2.2.2.2 = (scr7 V c (t.val - 1) (Nat.lt_of_le_of_lt (Nat.sub_le _ _) t.isLt)).2 := congrArg (fun x => x.2.2.2.2) ih
    rw [outsAt7_B V c t hz, scr7_B V c t hz]
    rw [out7_B_4_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
      out7_B_5_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
      out7_B_6_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
      sout7_B_0_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
      sout7_B_1_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => hz ((hcond7_0 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2]
    rw [e0, e1]

theorem outsAt7_eq (c : Dev nD) (t : Fin cfg7.N) : outsAt7 V c t.val t.isLt
    = (k7_pay4 (iblk7 V c 0 t) (iblk7 V c 1 t) (iblk7 V c 2 t) (iblk7 V c 3 t), (scr7 V c t.val t.isLt).1, (scr7 V c t.val t.isLt).2, (scr7 V c t.val t.isLt).1, (scr7 V c t.val t.isLt).2) :=
  outsAt7_pt V c t.val t rfl

end Rows
/-! ## The payloads at an index, at the ideal instance: floats are extended reals, every operation exact -/

section AtIdeal

/-- The contraction's operand indices: the left operand is read at (row, k), the right at (k, column). -/
theorem lhs7_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs7_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs7_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs7_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix product into a zero accumulator, at (p, n): the sum over the 128 contracted coordinates. -/
theorem matmul7_apply (A : FVec Ideal S5000x128 .bf16) (B : FVec Ideal S128x64 .bf16) (p : Fin 5000) (n : Fin 64) :
    matmul dot_S5000x128_S128x64_S5000x64_1_0_0_1_n_n none A B (constant (F := Ideal) S5000x64 .f32 0x00000000#32) (ix2 p n) = ∑ k : Fin 128, A (ix2 p k) * B (ix2 k n) := by
  refine (Ideal.matmul_constant_zero_apply dot_S5000x128_S128x64_S5000x64_1_0_0_1_n_n none A B (ix2 p n)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p n) ((contrEquiv1 dot_S5000x128_S128x64_S5000x64_1_0_0_1_n_n 128 rfl rfl).symm k) = ix2 p k := funext fun a => Fin.ext (by
    match a with
    | ⟨0, _⟩ => exact lhs7_0 _ _
    | ⟨1, _⟩ => exact (lhs7_1 _ _).trans hk)
  have er : dot_S5000x128_S128x64_S5000x64_1_0_0_1_n_n.rhsIdx (ix2 p n) ((contrEquiv1 dot_S5000x128_S128x64_S5000x64_1_0_0_1_n_n 128 rfl rfl).symm k) = ix2 k n := funext fun a => Fin.ext (by
    match a with
    | ⟨0, _⟩ => exact (rhs7_0 _ _).trans hk
    | ⟨1, _⟩ => exact rhs7_1 _ _)
  rw [el, er]

/-- The block's product at (p, n): the relu of the affine transform of row p, times column n of the weights. -/
theorem pay47_apply (x0 : Vec Ideal S5000x128 .f32) (x1 x2 : Vec Ideal S1x128 .f32) (x3 : Vec Ideal S128x64 .f32)
    (p : Fin 5000) (n : Fin 64) :
    k7_pay4 (F := Ideal) x0 x1 x2 x3 (ix2 p n)
      = ∑ k : Fin 128, max (x0 (ix2 p k) * x1 (ix2 (0 : Fin 1) k) + x2 (ix2 (0 : Fin 1) k)) 0 * x3 (ix2 k n) := by
  unfold k7_pay4
  refine (matmul7_apply _ _ p n).trans ?_
  refine Finset.sum_congr rfl fun k _ => ?_
  show max (shapeCast S5000x128 x0 shapeCasts_S5000x128_S5000x128 (ix2 p k)
      * broadcastTo S5000x128 (shapeCast S1x128 x1 shapeCasts_S1x128_S1x128) broadcasts_S1x128_S5000x128 (ix2 p k)
      + broadcastTo S5000x128 (shapeCast S1x128 x2 shapeCasts_S1x128_S1x128) broadcasts_S1x128_S5000x128 (ix2 p k))
      (Ideal.ofBits .f32 0x00000000#32) * x3 (ix2 k n) = _
  rw [shapeCast_self, shapeCast_self, shapeCast_self, broadcastTo_1b_ab_apply, broadcastTo_1b_ab_apply, Ideal.ofBits_zero_f32]

/-- A column sum over the block's 5000 rows. -/
theorem colsum7_apply (src : FVec Ideal S5000x64 .f32) (n : Fin 64) :
    multiReduction (F := Ideal) .add [0] S64 src 0x00000000#32 reduces_S5000x64_S64 (.inl rfl) rfl (ix1 n) = ∑ p : Fin 5000, src (ix2 p n) := by
  refine (Ideal.multiReduction_add_single src 0x00000000#32 reduces_S5000x64_S64 (.inl rfl) rfl (ix1 n)).trans ?_
  refine Finset.sum_congr rfl fun p _ => congrArg src ?_
  funext a; apply Fin.ext
  match a with
  | ⟨0, _⟩ => rfl
  | ⟨1, _⟩ => rfl

/-- The first scratch row's update at column n: what it held plus the product's column sum. -/
theorem pay57_apply (x0 : Vec Ideal S5000x128 .f32) (x1 x2 : Vec Ideal S1x128 .f32) (x3 : Vec Ideal S128x64 .f32)
    (v : Vec Ideal S1x64 .f32) (n : Fin 64) :
    k7_pay5 (F := Ideal) x0 x1 x2 x3 v (ix2 (0 : Fin 1) n)
      = v (ix2 (0 : Fin 1) n) + ∑ p : Fin 5000, k7_pay4 (F := Ideal) x0 x1 x2 x3 (ix2 p n) := by
  unfold k7_pay5
  refine (congrFun (shapeCast_self _ _) _).trans ?_
  refine congrArg (v (ix2 (0 : Fin 1) n) + ·) ?_
  refine (shapeCast_a_1a_apply _ _ (0 : Fin 1) n).trans ?_
  exact colsum7_apply _ n

/-- The second scratch row's update at column n: what it held plus the column sum of the product's squares. -/
theorem pay67_apply (x0 : Vec Ideal S5000x128 .f32) (x1 x2 : Vec Ideal S1x128 .f32) (x3 : Vec Ideal S128x64 .f32)
    (v : Vec Ideal S1x64 .f32) (n : Fin 64) :
    k7_pay1 (F := Ideal) (k7_pay6 (F := Ideal) x0 x1 x2 x3 v) (ix2 (0 : Fin 1) n)
      = v (ix2 (0 : Fin 1) n) + ∑ p : Fin 5000, k7_pay4 (F := Ideal) x0 x1 x2 x3 (ix2 p n) * k7_pay4 (F := Ideal) x0 x1 x2 x3 (ix2 p n) := by
  unfold k7_pay1 k7_pay6
  refine (congrFun (shapeCast_self _ _) _).trans ?_
  refine congrArg (v (ix2 (0 : Fin 1) n) + ·) ?_
  refine (shapeCast_a_1a_apply _ _ (0 : Fin 1) n).trans ?_
  exact colsum7_apply _ n

/-- The rows the first point starts from are zero. -/
theorem pay27_apply (j : S1x64.Idx) : k7_pay2 (F := Ideal) j = 0 := by
  unfold k7_pay2
  refine (congrFun (shapeCast_self _ _) _).trans ?_
  exact Ideal.ofBits_zero_f32
theorem pay37_apply (j : S1x64.Idx) : k7_pay3 (F := Ideal) j = 0 := by
  unfold k7_pay3
  refine (congrFun (shapeCast_self _ _) _).trans ?_
  exact Ideal.ofBits_zero_f32

/-! ## The specification: the three results as functions of the four arrays the region reads -/

/-- Row r of the activations at coordinate k: the relu of the batch-norm affine transform. -/
def act7 (X : FVec Ideal S150000x128 .f32) (sc sh : FVec Ideal S1x128 .f32) (r : Fin 150000) (k : Fin 128) : Ideal .f32 :=
  max (X (ix2 r k) * sc (ix2 (0 : Fin 1) k) + sh (ix2 (0 : Fin 1) k)) 0

/-- The linear layer at (r, n). -/
def pre7 (X : FVec Ideal S150000x128 .f32) (sc sh : FVec Ideal S1x128 .f32) (Wt : FVec Ideal S128x64 .f32)
    (r : Fin 150000) (n : Fin 64) : Ideal .f32 :=
  ∑ k : Fin 128, act7 X sc sh r k * Wt (ix2 k n)

/-- The product array, the column sums and the column sums of squares, index by index. -/
def G7_4 (X : FVec Ideal S150000x128 .f32) (sc sh : FVec Ideal S1x128 .f32) (Wt : FVec Ideal S128x64 .f32) :
    FVec Ideal S150000x64 .f32 := fun j => pre7 X sc sh Wt (j 0) (j 1)

def G7_5 (X : FVec Ideal S150000x128 .f32) (sc sh : FVec Ideal S1x128 .f32) (Wt : FVec Ideal S128x64 .f32) :
    FVec Ideal S1x64 .f32 := fun j => ∑ r : Fin 150000, pre7 X sc sh Wt r (j 1)

def G7_6 (X : FVec Ideal S150000x128 .f32) (sc sh : FVec Ideal S1x128 .f32) (Wt : FVec Ideal S128x64 .f32) :
    FVec Ideal S1x64 .f32 := fun j => ∑ r : Fin 150000, pre7 X sc sh Wt r (j 1) * pre7 X sc sh Wt r (j 1)

theorem G7_4_apply (X : FVec Ideal S150000x128 .f32) (sc sh : FVec Ideal S1x128 .f32) (Wt : FVec Ideal S128x64 .f32)
    (r : Fin 150000) (n : Fin 64) : G7_4 X sc sh Wt (ix2 r n) = pre7 X sc sh Wt r n := rfl
theorem G7_5_apply (X : FVec Ideal S150000x128 .f32) (sc sh : FVec Ideal S1x128 .f32) (Wt : FVec Ideal S128x64 .f32)
    (u : Fin 1) (n : Fin 64) : G7_5 X sc sh Wt (ix2 u n) = ∑ r : Fin 150000, pre7 X sc sh Wt r n := rfl
theorem G7_6_apply (X : FVec Ideal S150000x128 .f32) (sc sh : FVec Ideal S1x128 .f32) (Wt : FVec Ideal S128x64 .f32)
    (u : Fin 1) (n : Fin 64) : G7_6 X sc sh Wt (ix2 u n) = ∑ r : Fin 150000, pre7 X sc sh Wt r n * pre7 X sc sh Wt r n := rfl

/-! ## From blocks to arrays -/

variable (V : (c : Dev nD) → (b : Ref sig .tc) → Buf (Elt Ideal) ((c : Thread nD τ).loc b))

/-- The four arrays the region reads, as it finds them. -/
abbrev arrX7 (c : Dev nD) : S150000x128.Idx → EReal := V c (Pipeline.arrRef spec7 0)
abbrev arrScale7 (c : Dev nD) : S1x128.Idx → EReal := V c (Pipeline.arrRef spec7 1)
abbrev arrShift7 (c : Dev nD) : S1x128.Idx → EReal := V c (Pipeline.arrRef spec7 2)
abbrev arrW7 (c : Dev nD) : S128x64.Idx → EReal := V c (Pipeline.arrRef spec7 3)

/-- The printed index maps over the grid: the row windows sit at block t, every other window at block 0. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

theorem rows7 : 30 * 5000 = 150000 := by norm_num

/-- Row p of block t is row t·5000 + p of the array. -/
theorem blk7_0_apply (c : Dev nD) (t : Fin cfg7.N) (p : Fin 5000) (k : Fin 128) (hr : t.val * 5000 + p.val < 150000) :
    (iblk7 V c 0 t : Vec Ideal S5000x128 .f32) (ix2 p k) = arrX7 V c (ix2 ⟨t.val * 5000 + p.val, hr⟩ k) := by
  unfold iblk7
  rw [View.read_apply]
  show V c (Pipeline.arrRef spec7 0) _ = V c (Pipeline.arrRef spec7 0) _
  congr 1
  funext a
  apply Fin.ext
  match a with
  | ⟨0, _⟩ => show win7_0.index t 0 * 5000 + 1 * p.val = t.val * 5000 + p.val; rw [(idx_facts7 t).1]; omega
  | ⟨1, _⟩ => show win7_0.index t 1 * 128 + 1 * k.val = k.val; rw [(idx_facts7 t).2.1]; omega
theorem blk7_1_apply (c : Dev nD) (t : Fin cfg7.N) (k : Fin 128) :
    (iblk7 V c 1 t : Vec Ideal S1x128 .f32) (ix2 (0 : Fin 1) k) = arrScale7 V c (ix2 (0 : Fin 1) k) := by
  unfold iblk7
  rw [View.read_apply]
  show V c (Pipeline.arrRef spec7 1) _ = V c (Pipeline.arrRef spec7 1) _
  congr 1
  funext a
  apply Fin.ext
  match a with
  | ⟨0, _⟩ => show win7_1.index t 0 * 1 + 1 * 0 = 0; rw [(idx_facts7 t).2.2.1]
  | ⟨1, _⟩ => show win7_1.index t 1 * 128 + 1 * k.val = k.val; rw [(idx_facts7 t).2.2.2.1]; omega
theorem blk7_2_apply (c : Dev nD) (t : Fin cfg7.N) (k : Fin 128) :
    (iblk7 V c 2 t : Vec Ideal S1x128 .f32) (ix2 (0 : Fin 1) k) = arrShift7 V c (ix2 (0 : Fin 1) k) := by
  unfold iblk7
  rw [View.read_apply]
  show V c (Pipeline.arrRef spec7 2) _ = V c (Pipeline.arrRef spec7 2) _
  congr 1
  funext a
  apply Fin.ext
  match a with
  | ⟨0, _⟩ => show win7_2.index t 0 * 1 + 1 * 0 = 0; rw [(idx_facts7 t).2.2.2.2.1]
  | ⟨1, _⟩ => show win7_2.index t 1 * 128 + 1 * k.val = k.val; rw [(idx_facts7 t).2.2.2.2.2.1]; omega
theorem blk7_3_apply (c : Dev nD) (t : Fin cfg7.N) (k : Fin 128) (n : Fin 64) :
    (iblk7 V c 3 t : Vec Ideal S128x64 .f32) (ix2 k n) = arrW7 V c (ix2 k n) := by
  unfold iblk7
  rw [View.read_apply]
  show V c (Pipeline.arrRef spec7 3) _ = V c (Pipeline.arrRef spec7 3) _
  congr 1
  funext a
  apply Fin.ext
  match a with
  | ⟨0, _⟩ => show win7_3.index t 0 * 128 + 1 * k.val = k.val; rw [(idx_facts7 t).2.2.2.2.2.2.1]; omega
  | ⟨1, _⟩ => show win7_3.index t 1 * 64 + 1 * n.val = n.val; rw [(idx_facts7 t).2.2.2.2.2.2.2.1]; omega

/-- The block's product at (p, n) is the linear layer at row t·5000 + p. -/
theorem pay47_block (c : Dev nD) (t : Fin cfg7.N) (p : Fin 5000) (n : Fin 64) (hr : t.val * 5000 + p.val < 150000) :
    k7_pay4 (F := Ideal) (iblk7 V c 0 t) (iblk7 V c 1 t) (iblk7 V c 2 t) (iblk7 V c 3 t) (ix2 p n) = pre7 (arrX7 V c) (arrScale7 V c) (arrShift7 V c) (arrW7 V c) ⟨t.val * 5000 + p.val, hr⟩ n := by
  refine (pay47_apply (iblk7 V c 0 t) (iblk7 V c 1 t) (iblk7 V c 2 t) (iblk7 V c 3 t) p n).trans ?_
  unfold pre7 act7
  refine Finset.sum_congr rfl fun k _ => ?_
  rw [blk7_0_apply V c t p k hr, blk7_1_apply V c t k, blk7_2_apply V c t k, blk7_3_apply V c t k n]

end AtIdeal

section Finals
variable (V : (c : Dev nD) → (b : Ref sig .tc) → Buf (Elt Ideal) ((c : Thread nD τ).loc b))

/-- One block's contribution to the two column totals at column n. -/
def blkSum7 (c : Dev nD) (n : Fin 64) : Fin 30 → EReal :=
  fun t => ∑ q : Fin 5000, pre7 (arrX7 V c) (arrScale7 V c) (arrShift7 V c) (arrW7 V c) ⟨t.val * 5000 + q.val, Cert.LibBlockSum.row_lt_of_eq rows7 t q⟩ n
def blkSumSq7 (c : Dev nD) (n : Fin 64) : Fin 30 → EReal :=
  fun t => ∑ q : Fin 5000, pre7 (arrX7 V c) (arrScale7 V c) (arrShift7 V c) (arrW7 V c) ⟨t.val * 5000 + q.val, Cert.LibBlockSum.row_lt_of_eq rows7 t q⟩ n * pre7 (arrX7 V c) (arrScale7 V c) (arrShift7 V c) (arrW7 V c) ⟨t.val * 5000 + q.val, Cert.LibBlockSum.row_lt_of_eq rows7 t q⟩ n

/-- The scratch rows after point t hold the totals over the first t + 1 blocks: by induction on the point. -/
theorem scr7_pt (c : Dev nD) (n : Fin 64) : ∀ (m : ℕ) (t : Fin cfg7.N), t.val = m →
    (scr7 (F := Ideal) V c t.val t.isLt).1 (ix2 (0 : Fin 1) n) = Cert.LibBlockSum.upTo (blkSum7 V c n) (t.val + 1)
    ∧ (scr7 (F := Ideal) V c t.val t.isLt).2 (ix2 (0 : Fin 1) n) = Cert.LibBlockSum.upTo (blkSumSq7 V c n) (t.val + 1)
  | 0, t, hz => by
    have hN : cfg7.N = 30 := N_7
    have h30 : t.val < 30 := lt_of_lt_of_eq t.isLt hN
    rw [scr7_A V c t hz]
    have e1 : t.val + 1 = 1 := by omega
    have eb : (⟨0, by norm_num⟩ : Fin 30) = ⟨t.val, h30⟩ := Fin.ext hz.symm
    constructor
    · show k7_pay5 (F := Ideal) (iblk7 V c 0 t) (iblk7 V c 1 t) (iblk7 V c 2 t) (iblk7 V c 3 t) (k7_pay2 (F := Ideal)) (ix2 (0 : Fin 1) n) = _
      rw [e1, Cert.LibBlockSum.upTo_one _ (by norm_num : 0 < 30), eb]
      refine (pay57_apply (iblk7 V c 0 t) (iblk7 V c 1 t) (iblk7 V c 2 t) (iblk7 V c 3 t) (k7_pay2 (F := Ideal)) n).trans ?_
      rw [pay27_apply, zero_add]
      exact Finset.sum_congr rfl fun p _ => pay47_block V c t p n _
    · show k7_pay1 (F := Ideal) (k7_pay6 (F := Ideal) (iblk7 V c 0 t) (iblk7 V c 1 t) (iblk7 V c 2 t) (iblk7 V c 3 t) (k7_pay3 (F := Ideal))) (ix2 (0 : Fin 1) n) = _
      rw [e1, Cert.LibBlockSum.upTo_one _ (by norm_num : 0 < 30), eb]
      refine (pay67_apply (iblk7 V c 0 t) (iblk7 V c 1 t) (iblk7 V c 2 t) (iblk7 V c 3 t) (k7_pay3 (F := Ideal)) n).trans ?_
      rw [pay37_apply, zero_add]
      exact Finset.sum_congr rfl fun p _ => by rw [pay47_block V c t p n (Cert.LibBlockSum.row_lt_of_eq rows7 (⟨t.val, h30⟩ : Fin 30) p)]
  | m + 1, t, hm => by
    have hN : cfg7.N = 30 := N_7
    have h30 : t.val < 30 := lt_of_lt_of_eq t.isLt hN
    have hz : ¬t.val = 0 := by omega
    have ih := scr7_pt c n m ⟨t.val - 1, Nat.lt_of_le_of_lt (Nat.sub_le _ _) t.isLt⟩ (by show t.val - 1 = m; omega)
    have e1 : t.val - 1 + 1 = t.val := by omega
    have ih0 : (scr7 (F := Ideal) V c (t.val - 1) (Nat.lt_of_le_of_lt (Nat.sub_le _ _) t.isLt)).1 (ix2 (0 : Fin 1) n) = Cert.LibBlockSum.upTo (blkSum7 V c n) (t.val - 1 + 1) := ih.1
    have ih1 : (scr7 (F := Ideal) V c (t.val - 1) (Nat.lt_of_le_of_lt (Nat.sub_le _ _) t.isLt)).2 (ix2 (0 : Fin 1) n) = Cert.LibBlockSum.upTo (blkSumSq7 V c n) (t.val - 1 + 1) := ih.2
    rw [scr7_B V c t hz]
    constructor
    · show k7_pay5 (F := Ideal) (iblk7 V c 0 t) (iblk7 V c 1 t) (iblk7 V c 2 t) (iblk7 V c 3 t) (scr7 V c (t.val - 1) (Nat.lt_of_le_of_lt (Nat.sub_le _ _) t.isLt)).1 (ix2 (0 : Fin 1) n) = _
      rw [Cert.LibBlockSum.upTo_succ _ t.val h30]
      refine (pay57_apply (iblk7 V c 0 t) (iblk7 V c 1 t) (iblk7 V c 2 t) (iblk7 V c 3 t) _ n).trans ?_
      rw [ih0, e1]
      exact congrArg (_ + ·) (Finset.sum_congr rfl fun p _ => pay47_block V c t p n _)
    · show k7_pay1 (F := Ideal) (k7_pay6 (F := Ideal) (iblk7 V c 0 t) (iblk7 V c 1 t) (iblk7 V c 2 t) (iblk7 V c 3 t) (scr7 V c (t.val - 1) (Nat.lt_of_le_of_lt (Nat.sub_le _ _) t.isLt)).2) (ix2 (0 : Fin 1) n) = _
      rw [Cert.LibBlockSum.upTo_succ _ t.val h30]
      refine (pay67_apply (iblk7 V c 0 t) (iblk7 V c 1 t) (iblk7 V c 2 t) (iblk7 V c 3 t) _ n).trans ?_
      rw [ih1, e1]
      exact congrArg (_ + ·) (Finset.sum_congr rfl fun p _ => by rw [pay47_block V c t p n (Cert.LibBlockSum.row_lt_of_eq rows7 (⟨t.val, h30⟩ : Fin 30) p)])

theorem scr7_apply (c : Dev nD) (n : Fin 64) (t : Fin cfg7.N) (u : Fin 1) :
    (scr7 (F := Ideal) V c t.val t.isLt).1 (ix2 u n) = Cert.LibBlockSum.upTo (blkSum7 V c n) (t.val + 1)
    ∧ (scr7 (F := Ideal) V c t.val t.isLt).2 (ix2 u n) = Cert.LibBlockSum.upTo (blkSumSq7 V c n) (t.val + 1) := by
  obtain rfl : u = 0 := Subsingleton.elim _ _
  exact scr7_pt V c n t.val t rfl

/-- The last grid point. -/
abbrev tLast7 : Fin cfg7.N := ⟨29, by rw [show cfg7.N = 30 from N_7]; norm_num⟩

/-- What point t writes back into the product window is block t of the linear layer's array. -/
theorem flushed7_4_eq (c : Dev nD) (t : Fin cfg7.N) :
    (dat7 (F := Ideal) V c).flushed 4 t = ((cfg7.win 4).blk t).view.read (Elt Ideal) (G7_4 (arrX7 V c) (arrScale7 V c) (arrShift7 V c) (arrW7 V c)) := by
  have hN : cfg7.N = 30 := N_7
  show (cfg7.win 4).cut (grid7.coords t) ((dat7 V c).after 4 t) = _
  rw [after7_4, outsAt7_eq V c t]
  refine funext fun (j : S5000x64.Idx) => ?_
  obtain ⟨p, n, rfl⟩ : ∃ (p : Fin 5000) (n : Fin 64), j = ix2 p n := ⟨j 0, j 1, eq_ix2 j⟩
  have hr : t.val * 5000 + p.val < 150000 := by have := t.isLt; have := p.isLt; omega
  have he : ((cfg7.win 4).blk t).view.emb (ix2 p n) = ix2 (⟨t.val * 5000 + p.val, hr⟩ : Fin 150000) n :=
    funext fun a => Fin.ext (by
      match a with
      | ⟨0, _⟩ => show win7_4.index t 0 * 5000 + 1 * p.val = t.val * 5000 + p.val; rw [(idx_facts7 t).2.2.2.2.2.2.2.2.1]; omega
      | ⟨1, _⟩ => show win7_4.index t 1 * 64 + 1 * n.val = n.val; rw [(idx_facts7 t).2.2.2.2.2.2.2.2.2.1]; omega)
  show k7_pay4 (F := Ideal) (iblk7 V c 0 t) (iblk7 V c 1 t) (iblk7 V c 2 t) (iblk7 V c 3 t) (ix2 p n) = G7_4 (arrX7 V c) (arrScale7 V c) (arrShift7 V c) (arrW7 V c) (((cfg7.win 4).blk t).view.emb (ix2 p n))
  rw [he, G7_4_apply]
  exact pay47_block V c t p n hr

theorem mem_blk7_4 (t : Fin cfg7.N) (i : S150000x64.Idx) :
    i ∈ ((cfg7.win 4).blk t).view.set ↔ ∀ a : Fin 2, win7_4.index t a * S5000x64.size a ≤ (i a).val ∧ (i a).val < win7_4.index t a * S5000x64.size a + S5000x64.size a := by
  show i ∈ ((View.whole main_v216_0).slice (win7_4.rect t)).set ↔ _
  rw [View.set_slice_whole, Rect.mem_set_unit]
  exact Iff.rfl

/-- The product window's array after the region: the linear layer of the activations, row by row; the block that
    covers row r is block r / 5000. -/
theorem final7_4 (c : Dev nD) : (dat7 (F := Ideal) V c).arrAt 4 cfg7.N = G7_4 (V c (Pipeline.arrRef spec7 0)) (V c (Pipeline.arrRef spec7 1)) (V c (Pipeline.arrRef spec7 2)) (V c (Pipeline.arrRef spec7 3)) :=
  (dat7 V c).arrAt_eq_of_cover 4 (G7_4 (arrX7 V c) (arrScale7 V c) (arrShift7 V c) (arrW7 V c)) (fun t _ => flushed7_4_eq V c t) fun i => by
    have h0 : (i 0).val < 150000 := (i 0).isLt
    have h1 : (i 1).val < 64 := (i 1).isLt
    have hN : cfg7.N = 30 := N_7
    refine ⟨⟨(i 0).val / 5000, by omega⟩, flush7_4 _, ?_⟩
    rw [mem_blk7_4]
    intro a
    match a with
    | ⟨0, _⟩ => show win7_4.index ⟨(i 0).val / 5000, _⟩ 0 * 5000 ≤ (i 0).val ∧ (i 0).val < win7_4.index ⟨(i 0).val / 5000, _⟩ 0 * 5000 + 5000
                rw [(idx_facts7 ⟨(i 0).val / 5000, _⟩).2.2.2.2.2.2.2.2.1]; dsimp only; omega
    | ⟨1, _⟩ => show win7_4.index ⟨(i 0).val / 5000, _⟩ 1 * 64 ≤ (i 1).val ∧ (i 1).val < win7_4.index ⟨(i 0).val / 5000, _⟩ 1 * 64 + 64
                rw [(idx_facts7 ⟨(i 0).val / 5000, _⟩).2.2.2.2.2.2.2.2.2.1]; omega

/-- What the last point writes back into window 5 is the whole column-sum row: the running total after all 30 blocks. -/
theorem flushed7_5_eq (c : Dev nD) (t : Fin cfg7.N) (hf : (cfg7.win 5).flush t = true) :
    (dat7 (F := Ideal) V c).flushed 5 t = ((cfg7.win 5).blk t).view.read (Elt Ideal) (G7_5 (arrX7 V c) (arrScale7 V c) (arrShift7 V c) (arrW7 V c)) := by
  have hN : cfg7.N = 30 := N_7
  have h29 : t.val = 29 := by have := (flush7_5 t).mp hf; have := t.isLt; omega
  show (cfg7.win 5).cut (grid7.coords t) ((dat7 V c).after 5 t) = _
  rw [after7_5, outsAt7_eq V c t]
  funext y
  obtain ⟨u, n, rfl⟩ : ∃ (u : Fin 1) (n : Fin 64), y = ix2 u n := ⟨y 0, y 1, eq_ix2 y⟩
  refine ((scr7_apply V c n t u).1).trans ?_
  have e30 : t.val + 1 = 30 := by omega
  rw [e30]
  refine (Cert.LibBlockSum.upTo_blocks rows7 (fun r : Fin 150000 => pre7 (arrX7 V c) (arrScale7 V c) (arrShift7 V c) (arrW7 V c) r n)).trans ?_
  rw [View.read_apply]
  unfold G7_5
  have hn : (((cfg7.win 5).blk t).view.emb (ix2 u n)) 1 = n := Fin.ext (by
    show win7_5.index t (1 : Fin 2) * 64 + 1 * n.val = n.val; rw [(idx_facts7 t).2.2.2.2.2.2.2.2.2.2.2.1]; omega)
  rw [hn]
  first | exact (cast_eq _ _).symm | rfl

theorem mem_blk7_5 (t : Fin cfg7.N) (i : S1x64.Idx) :
    i ∈ ((cfg7.win 5).blk t).view.set ↔ ∀ a : Fin 2, win7_5.index t a * S1x64.size a ≤ (i a).val ∧ (i a).val < win7_5.index t a * S1x64.size a + S1x64.size a := by
  show i ∈ ((View.whole main_v216_1).slice (win7_5.rect t)).set ↔ _
  rw [View.set_slice_whole, Rect.mem_set_unit]
  exact Iff.rfl

/-- Window 5's array after the region. -/
theorem final7_5 (c : Dev nD) : (dat7 (F := Ideal) V c).arrAt 5 cfg7.N = G7_5 (V c (Pipeline.arrRef spec7 0)) (V c (Pipeline.arrRef spec7 1)) (V c (Pipeline.arrRef spec7 2)) (V c (Pipeline.arrRef spec7 3)) :=
  (dat7 V c).arrAt_eq_of_cover 5 (G7_5 (arrX7 V c) (arrScale7 V c) (arrShift7 V c) (arrW7 V c)) (fun t hf => flushed7_5_eq V c t hf) fun i =>
    ⟨tLast7, (flush7_5 tLast7).mpr rfl, by
      rw [mem_blk7_5]
      intro a
      have h0 : (i 0).val < 1 := (i 0).isLt
      have h1 : (i 1).val < 64 := (i 1).isLt
      match a with
      | ⟨0, _⟩ => show win7_5.index tLast7 0 * 1 ≤ (i 0).val ∧ (i 0).val < win7_5.index tLast7 0 * 1 + 1
                  rw [(idx_facts7 tLast7).2.2.2.2.2.2.2.2.2.2.1]; omega
      | ⟨1, _⟩ => show win7_5.index tLast7 1 * 64 ≤ (i 1).val ∧ (i 1).val < win7_5.index tLast7 1 * 64 + 64
                  rw [(idx_facts7 tLast7).2.2.2.2.2.2.2.2.2.2.2.1]; omega⟩

/-- What the last point writes back into window 6 is the whole sum-of-squares row: the running total after all 30 blocks. -/
theorem flushed7_6_eq (c : Dev nD) (t : Fin cfg7.N) (hf : (cfg7.win 6).flush t = true) :
    (dat7 (F := Ideal) V c).flushed 6 t = ((cfg7.win 6).blk t).view.read (Elt Ideal) (G7_6 (arrX7 V c) (arrScale7 V c) (arrShift7 V c) (arrW7 V c)) := by
  have hN : cfg7.N = 30 := N_7
  have h29 : t.val = 29 := by have := (flush7_6 t).mp hf; have := t.isLt; omega
  show (cfg7.win 6).cut (grid7.coords t) ((dat7 V c).after 6 t) = _
  rw [after7_6, outsAt7_eq V c t]
  funext y
  obtain ⟨u, n, rfl⟩ : ∃ (u : Fin 1) (n : Fin 64), y = ix2 u n := ⟨y 0, y 1, eq_ix2 y⟩
  refine ((scr7_apply V c n t u).2).trans ?_
  have e30 : t.val + 1 = 30 := by omega
  rw [e30]
  refine (Cert.LibBlockSum.upTo_blocks rows7 (fun r : Fin 150000 => pre7 (arrX7 V c) (arrScale7 V c) (arrShift7 V c) (arrW7 V c) r n * pre7 (arrX7 V c) (arrScale7 V c) (arrShift7 V c) (arrW7 V c) r n)).trans ?_
  rw [View.read_apply]
  unfold G7_6
  have hn : (((cfg7.win 6).blk t).view.emb (ix2 u n)) 1 = n := Fin.ext (by
    show win7_6.index t (1 : Fin 2) * 64 + 1 * n.val = n.val; rw [(idx_facts7 t).2.2.2.2.2.2.2.2.2.2.2.2.2]; omega)
  rw [hn]
  first | exact (cast_eq _ _).symm | rfl

theorem mem_blk7_6 (t : Fin cfg7.N) (i : S1x64.Idx) :
    i ∈ ((cfg7.win 6).blk t).view.set ↔ ∀ a : Fin 2, win7_6.index t a * S1x64.size a ≤ (i a).val ∧ (i a).val < win7_6.index t a * S1x64.size a + S1x64.size a := by
  show i ∈ ((View.whole main_v216_2).slice (win7_6.rect t)).set ↔ _
  rw [View.set_slice_whole, Rect.mem_set_unit]
  exact Iff.rfl

/-- Window 6's array after the region. -/
theorem final7_6 (c : Dev nD) : (dat7 (F := Ideal) V c).arrAt 6 cfg7.N = G7_6 (V c (Pipeline.arrRef spec7 0)) (V c (Pipeline.arrRef spec7 1)) (V c (Pipeline.arrRef spec7 2)) (V c (Pipeline.arrRef spec7 3)) :=
  (dat7 V c).arrAt_eq_of_cover 6 (G7_6 (arrX7 V c) (arrScale7 V c) (arrShift7 V c) (arrW7 V c)) (fun t hf => flushed7_6_eq V c t hf) fun i =>
    ⟨tLast7, (flush7_6 tLast7).mpr rfl, by
      rw [mem_blk7_6]
      intro a
      have h0 : (i 0).val < 1 := (i 0).isLt
      have h1 : (i 1).val < 64 := (i 1).isLt
      match a with
      | ⟨0, _⟩ => show win7_6.index tLast7 0 * 1 ≤ (i 0).val ∧ (i 0).val < win7_6.index tLast7 0 * 1 + 1
                  rw [(idx_facts7 tLast7).2.2.2.2.2.2.2.2.2.2.2.2.1]; omega
      | ⟨1, _⟩ => show win7_6.index tLast7 1 * 64 ≤ (i 1).val ∧ (i 1).val < win7_6.index tLast7 1 * 64 + 64
                  rw [(idx_facts7 tLast7).2.2.2.2.2.2.2.2.2.2.2.2.2]; omega⟩

end Finals

end Cert.KernelIdeal.Hand

end
-- ==== Proof.KI.Value8.lean ====
/- The value of region 8 of @main at the extended reals: after the pointwise kernel `cc8__bn_relu_kernel` has run over its
   30 grid points, the output array holds, at row r and column n, max(x[r,n] * scale[0,n] + shift[0,n], 0) of the
   three arrays the region was entered with. Point t writes back rows 5000·t … 5000·t + 4999, so the point whose
   block covers row r is r / 5000, and the 30 blocks tile the 150000 rows. -/
import proofs.«143519_j50869592655552_1_alg».proof.Proof.KI.Region8
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the TensorCore's buffer contents when the region is entered, at the extended reals
variable (V : (c : Dev nD) → (b : Ref sig .tc) → Buf (Elt Ideal) ((c : Thread nD τ).loc b))

/-! ## The specification -/

/-- Scale, shift and clamp at zero, one element: the column's scale and shift are read off the single row. -/
def bnRelu8 (X : S150000x64.Idx → EReal) (sc : S1x64.Idx → EReal) (sh : S1x64.Idx → EReal) : S150000x64.Idx → EReal :=
  fun i => max (X i * sc (ix2 (0 : Fin 1) (i 1)) + sh (ix2 (0 : Fin 1) (i 1))) 0

/-- The specification at explicit coordinates. -/
theorem bnRelu8_apply (X : S150000x64.Idx → EReal) (sc : S1x64.Idx → EReal) (sh : S1x64.Idx → EReal) (r : Fin 150000) (n : Fin 64) :
    bnRelu8 X sc sh (ix2 r n) = max (X (ix2 r n) * sc (ix2 (0 : Fin 1) n) + sh (ix2 (0 : Fin 1) n)) 0 := rfl

/-! ## The body's payload at an index -/

theorem bnrZeros8 : (![0, 0] : Fin 2 → Nat) = fun _ => 0 := funext fun a => by fin_cases a <;> rfl

/-- The payload of the body's one store, at row p and column n of the block: the same-shape casts are the identity,
    the two row broadcasts read the single row at column n, the constant is the zero word. -/
theorem bnrPay8_apply (x0 : Vec Ideal S5000x64 .f32) (x1 : Vec Ideal S1x64 .f32) (x2 : Vec Ideal S1x64 .f32) (p : Fin 5000) (n : Fin 64) :
    k8_pay1 x0 x1 x2 (ix2 p n) = max (x0 (ix2 p n) * x1 (ix2 (0 : Fin 1) n) + x2 (ix2 (0 : Fin 1) n)) 0 := by
  unfold k8_pay1
  show max (shapeCast S5000x64 x0 _ (ix2 p n) * broadcastTo S5000x64 (shapeCast S1x64 x1 _) _ (ix2 p n)
      + broadcastTo S5000x64 (shapeCast S1x64 x2 _) _ (ix2 p n)) (Ideal.ofBits .f32 0x00000000#32) = _
  rw [shapeCast_self, shapeCast_self, shapeCast_self, broadcastTo_1b_ab_apply, broadcastTo_1b_ab_apply, Ideal.ofBits_zero_f32]

/-! ## From blocks to the array -/

/-- The printed index maps, decided over the grid: the input and output row blocks move together, point t at block
    row t; the single-row windows sit still. -/
theorem bnrIdxFacts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- Row p of point t's block of a row-blocked window is row 5000·t + p of its array. -/
def bnrRowAt8 (t : Fin cfg8.N) (p : Fin 5000) : Fin 150000 :=
  ⟨t.val * 5000 + p.val, by have ht : t.val < 30 := t.isLt; have := p.isLt; omega⟩

/-- Input window 0's block at point t, at row p and column n: the array at row 5000·t + p. -/
theorem bnrIblk8_0_apply (c : Dev nD) (t : Fin cfg8.N) (p : Fin 5000) (n : Fin 64) :
    iblk8 V c 0 t (ix2 p n) = (V c (Pipeline.arrRef spec8 0) : S150000x64.Idx → EReal) (ix2 (bnrRowAt8 t p) n) := by
  obtain ⟨e00, e01, -⟩ := bnrIdxFacts8 t
  show (V c (Pipeline.arrRef spec8 0) : S150000x64.Idx → EReal) (((cfg8.win 0).blk t).view.emb (ix2 p n)) = _
  refine congrArg (V c (Pipeline.arrRef spec8 0) : S150000x64.Idx → EReal) (funext fun a => Fin.ext ?_)
  match a with
  | ⟨0, _⟩ => show win8_0.index t (0 : Fin 2) * 5000 + 1 * p.val = t.val * 5000 + p.val; omega
  | ⟨1, _⟩ => show win8_0.index t (1 : Fin 2) * 64 + 1 * n.val = n.val; omega

/-- Input window 1's block at any point is the whole single row. -/
theorem bnrIblk8_1_apply (c : Dev nD) (t : Fin cfg8.N) (n : Fin 64) :
    iblk8 V c 1 t (ix2 (0 : Fin 1) n) = (V c (Pipeline.arrRef spec8 1) : S1x64.Idx → EReal) (ix2 (0 : Fin 1) n) := by
  obtain ⟨-, -, e10, e11, -⟩ := bnrIdxFacts8 t
  show (V c (Pipeline.arrRef spec8 1) : S1x64.Idx → EReal) (((cfg8.win 1).blk t).view.emb (ix2 (0 : Fin 1) n)) = _
  refine congrArg (V c (Pipeline.arrRef spec8 1) : S1x64.Idx → EReal) (funext fun a => Fin.ext ?_)
  match a with
  | ⟨0, _⟩ => show win8_1.index t (0 : Fin 2) * 1 + 1 * 0 = 0; omega
  | ⟨1, _⟩ => show win8_1.index t (1 : Fin 2) * 64 + 1 * n.val = n.val; omega

/-- Input window 2's block at any point is the whole single row. -/
theorem bnrIblk8_2_apply (c : Dev nD) (t : Fin cfg8.N) (n : Fin 64) :
    iblk8 V c 2 t (ix2 (0 : Fin 1) n) = (V c (Pipeline.arrRef spec8 2) : S1x64.Idx → EReal) (ix2 (0 : Fin 1) n) := by
  obtain ⟨-, -, -, -, e20, e21, -⟩ := bnrIdxFacts8 t
  show (V c (Pipeline.arrRef spec8 2) : S1x64.Idx → EReal) (((cfg8.win 2).blk t).view.emb (ix2 (0 : Fin 1) n)) = _
  refine congrArg (V c (Pipeline.arrRef spec8 2) : S1x64.Idx → EReal) (funext fun a => Fin.ext ?_)
  match a with
  | ⟨0, _⟩ => show win8_2.index t (0 : Fin 2) * 1 + 1 * 0 = 0; omega
  | ⟨1, _⟩ => show win8_2.index t (1 : Fin 2) * 64 + 1 * n.val = n.val; omega

/-- Output window 3's block at point t of any array, at row p and column n: the array at row 5000·t + p. -/
theorem bnrReadBlk8_3_apply (G : S150000x64.Idx → EReal) (t : Fin cfg8.N) (p : Fin 5000) (n : Fin 64) :
    ((cfg8.win 3).blk t).view.read (Elt Ideal) G (ix2 p n) = G (ix2 (bnrRowAt8 t p) n) := by
  obtain ⟨-, -, -, -, -, -, e30, e31⟩ := bnrIdxFacts8 t
  show G (((cfg8.win 3).blk t).view.emb (ix2 p n)) = _
  refine congrArg G (funext fun a => Fin.ext ?_)
  match a with
  | ⟨0, _⟩ => show win8_3.index t (0 : Fin 2) * 5000 + 1 * p.val = t.val * 5000 + p.val; omega
  | ⟨1, _⟩ => show win8_3.index t (1 : Fin 2) * 64 + 1 * n.val = n.val; omega

/-- What point `t` writes back is block `t` of the specification of the arrays as the region finds them. -/
theorem bnrFlushed8_3_eq (c : Dev nD) (t : Fin cfg8.N) :
    (dat8 (F := Ideal) V c).flushed 3 t = ((cfg8.win 3).blk t).view.read (Elt Ideal)
      (bnRelu8 (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero bnrZeros8]
  simp only [View.ld_unit_zero (S := S5000x64) bnrZeros8, View.ld_unit_zero (S := S1x64) bnrZeros8]
  funext j
  obtain ⟨p, n, rfl⟩ : ∃ (p : Fin 5000) (n : Fin 64), j = ix2 p n := ⟨j 0, j 1, eq_ix2 j⟩
  refine (bnrPay8_apply _ _ _ p n).trans ?_
  rw [bnrIblk8_0_apply, bnrIblk8_1_apply, bnrIblk8_2_apply]
  exact (bnrReadBlk8_3_apply
    (bnRelu8 (V c (Pipeline.arrRef spec8 0)) (V c (Pipeline.arrRef spec8 1)) (V c (Pipeline.arrRef spec8 2))) t p n).symm

/-- An index of the array is in point `t`'s block iff each coordinate is in the block's range on its axis. -/
theorem bnrMemBlk8_3 (t : Fin cfg8.N) (i : S150000x64.Idx) :
    i ∈ ((cfg8.win 3).blk t).view.set ↔ ∀ a : Fin 2, win8_3.index t a * S5000x64.size a ≤ (i a).val ∧ (i a).val < win8_3.index t a * S5000x64.size a + S5000x64.size a := by
  show i ∈ ((View.whole main_v231).slice (win8_3.rect t)).set ↔ _
  rw [View.set_slice_whole, Rect.mem_set_unit]
  exact Iff.rfl

/-- Every index of the array is in some point's block: row r in the block of point r / 5000. -/
theorem bnrCovered8_3 (i : S150000x64.Idx) :
    ∃ t : Fin cfg8.N, (cfg8.win 3).flush t = true ∧ i ∈ ((cfg8.win 3).blk t).view.set := by
  have hi0 : (i 0).val < 150000 := (i 0).isLt
  have hi1 : (i 1).val < 64 := (i 1).isLt
  have hN : cfg8.N = 30 := rfl
  have ht : (i 0).val / 5000 < cfg8.N := by rw [hN]; omega
  obtain ⟨-, -, -, -, -, -, e30, e31⟩ := bnrIdxFacts8 ⟨(i 0).val / 5000, ht⟩
  refine ⟨⟨(i 0).val / 5000, ht⟩, flush8_3 _, ?_⟩
  rw [bnrMemBlk8_3]
  intro a
  match a with
  | ⟨0, _⟩ =>
    show win8_3.index ⟨(i 0).val / 5000, ht⟩ (0 : Fin 2) * 5000 ≤ (i 0).val ∧ (i 0).val < win8_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win8_3.index ⟨(i 0).val / 5000, ht⟩ (1 : Fin 2) * 64 ≤ (i 1).val ∧ (i 1).val < win8_3.index ⟨(i 0).val / 5000, ht⟩ (1 : Fin 2) * 64 + 64
    rw [e31]; omega

/-- The output array after the region: the specification of the three arrays the region was entered with. -/
theorem final8_3 (c : Dev nD) : (dat8 (F := Ideal) V c).arrAt 3 cfg8.N
    = bnRelu8 (V c (Pipeline.arrRef spec8 0)) (V c (Pipeline.arrRef spec8 1)) (V c (Pipeline.arrRef spec8 2)) :=
  (dat8 (F := Ideal) V c).arrAt_eq_of_cover 3 _ (fun t _ => bnrFlushed8_3_eq V c t) bnrCovered8_3

end Cert.KernelIdeal.Hand

end
-- ==== Proof.KI.KValue6.lean ====
/-
  The kernel side's value of the second cycle network, as one equation. Three kernel regions are chained through two short host
  stretches: region 6 multiplies the input rows X by the first weight matrix and accumulates, column by column, the sum
  and the sum of squares of the product P1 = X · W1; the stretch after it turns those two rows and the parameters g1, b1
  into the one-pass batch-normalisation scale and shift of each column; region 7 applies them with the rectifier,
  H = max (P1 · scale + shift, 0), multiplies by the second weight matrix, P2 = H · W2, and again accumulates the column
  sums; the next stretch makes the second scale and shift; region 8 applies them, max (P2 · scale + shift, 0). Each
  step reads its operands where the previous step left them, and every parameter array is still as launched when it is
  read (no stretch writes it, no region changes it). So region 8's output array is the one-pass two-layer network
  (mlpK) of X and the six parameter arrays.
-/
import proofs.«143519_j50869592655552_1_alg».proof.Proof.KI.Fold3
import proofs.«143519_j50869592655552_1_alg».proof.Proof.KI.Value6
import proofs.«143519_j50869592655552_1_alg».proof.Proof.KI.Value7
import proofs.«143519_j50869592655552_1_alg».proof.Proof.KI.Value8
import proofs.«143519_j50869592655552_1_alg».proof.Proof.KI.AffineRead
import proofs.«143519_j50869592655552_1_alg».proof.Proof.LibMlpBatchNorm
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Cert.LibMlpBatchNorm Cert.KernelIdeal.AffineRead

variable (m : (ℓ : Loc nD τ sig) → Buf (Elt Ideal) ℓ) (ρ : Dev nD → PrngReg)

/-! ## The network's data: the input rows and the six parameter arrays, as matrices and vectors -/

/-- The input rows: what the first host stretch leaves in region 6's input array. -/
abbrev c2X (c : Dev nD) : Fin 150000 → Fin 320 → EReal :=
  fun r k => (W1 m ρ c (Proc.devRef .tc main_v94) : S150000x320.Idx → EReal) (ix2 r k)
/-- The first layer's weights, scale parameter and shift parameter; the second layer's. -/
abbrev c2W1 (c : Dev nD) : Fin 320 → Fin 128 → EReal :=
  fun k n => (m ((c : Thread nD τ).loc main_arg12) : S320x128.Idx → EReal) (ix2 k n)
abbrev c2G1 (c : Dev nD) : Fin 128 → EReal := fun n => (m ((c : Thread nD τ).loc main_arg13) : S128.Idx → EReal) (ix1 n)
abbrev c2B1 (c : Dev nD) : Fin 128 → EReal := fun n => (m ((c : Thread nD τ).loc main_arg14) : S128.Idx → EReal) (ix1 n)
abbrev c2W2 (c : Dev nD) : Fin 128 → Fin 64 → EReal :=
  fun k n => (m ((c : Thread nD τ).loc main_arg15) : S128x64.Idx → EReal) (ix2 k n)
abbrev c2G2 (c : Dev nD) : Fin 64 → EReal := fun n => (m ((c : Thread nD τ).loc main_arg16) : S64.Idx → EReal) (ix1 n)
abbrev c2B2 (c : Dev nD) : Fin 64 → EReal := fun n => (m ((c : Thread nD τ).loc main_arg17) : S64.Idx → EReal) (ix1 n)
/-- The row count and the stabiliser, as the words the host stretches splat. -/
abbrev c2NN : EReal := Ideal.ofBits .f32 0x48127C00#32
abbrev c2Eps : EReal := Ideal.ofBits .f32 0x3727C5AC#32

/-- The first product, its one-pass scale and shift, the first layer's output; the second product, its scale and shift. -/
def c2P1 (c : Dev nD) : Fin 150000 → Fin 128 → EReal := mm (c2X m ρ c) (c2W1 m c)
def c2Sc1 (c : Dev nD) : Fin 128 → EReal := scaleK (colSum (c2P1 m ρ c)) (colSumSq (c2P1 m ρ c)) (c2G1 m c) c2NN c2Eps
def c2Sh1 (c : Dev nD) : Fin 128 → EReal := shiftK (colSum (c2P1 m ρ c)) (colSumSq (c2P1 m ρ c)) (c2G1 m c) (c2B1 m c) c2NN c2Eps
def c2H (c : Dev nD) : Fin 150000 → Fin 128 → EReal := bnReluK (c2P1 m ρ c) (c2Sc1 m ρ c) (c2Sh1 m ρ c)
def c2P2 (c : Dev nD) : Fin 150000 → Fin 64 → EReal := mm (c2H m ρ c) (c2W2 m c)
def c2Sc2 (c : Dev nD) : Fin 64 → EReal := scaleK (colSum (c2P2 m ρ c)) (colSumSq (c2P2 m ρ c)) (c2G2 m c) c2NN c2Eps
def c2Sh2 (c : Dev nD) : Fin 64 → EReal := shiftK (colSum (c2P2 m ρ c)) (colSumSq (c2P2 m ρ c)) (c2G2 m c) (c2B2 m c) c2NN c2Eps

/-! ## The input rows and the parameter arrays where the regions and stretches read them: as the first stretch left
    them, and as launched -/

theorem c2X_atA (c : Dev nD) : W11 m ρ c (Proc.devRef .tc main_v94) = W1 m ρ c (Proc.devRef .tc main_v94) :=
  (W11_of_ne m ρ c main_v94 (by decide)).trans <|
    (keep5 (W9 m ρ c) main_v94 (by decide)).trans <|
    (W9_of_ne m ρ c main_v94 (by decide)).trans <|
    (keep4 (W7 m ρ c) main_v94 (by decide)).trans <|
    (W7_of_ne m ρ c main_v94 (by decide)).trans <|
    (W6_of_ne m ρ c main_v94 (by decide)).trans <|
    (keep2 (W4 m ρ c) main_v94 (by decide)).trans <|
    (W4_of_ne m ρ c main_v94 (by decide)).trans <|
    (keep1 (W2 m ρ c) main_v94 (by decide)).trans <|
    (W2_of_ne m ρ c main_v94 (by decide)).trans rfl
theorem c2W1_atA (c : Dev nD) : W11 m ρ c (Proc.devRef .tc main_arg12) = m ((c : Thread nD τ).loc main_arg12) :=
  (W11_of_ne m ρ c main_arg12 (by decide)).trans <|
    (keep5 (W9 m ρ c) main_arg12 (by decide)).trans <|
    (W9_of_ne m ρ c main_arg12 (by decide)).trans <|
    (keep4 (W7 m ρ c) main_arg12 (by decide)).trans <|
    (W7_in m ρ c 1 rfl).trans <|
    (W6_of_ne m ρ c main_arg12 (by decide)).trans <|
    (keep2 (W4 m ρ c) main_arg12 (by decide)).trans <|
    (W4_of_ne m ρ c main_arg12 (by decide)).trans <|
    (keep1 (W2 m ρ c) main_arg12 (by decide)).trans <|
    (W2_of_ne m ρ c main_arg12 (by decide)).trans <|
    (keep0 (W0 m ρ c) main_arg12 (by decide)).trans rfl
theorem c2G1_atA1 (c : Dev nD) : W12 m ρ c (Proc.devRef .tc main_arg13) = m ((c : Thread nD τ).loc main_arg13) :=
  (W12_of_ne m ρ c main_arg13 (by decide)).trans <|
    (W11_of_ne m ρ c main_arg13 (by decide)).trans <|
    (keep5 (W9 m ρ c) main_arg13 (by decide)).trans <|
    (W9_of_ne m ρ c main_arg13 (by decide)).trans <|
    (keep4 (W7 m ρ c) main_arg13 (by decide)).trans <|
    (W7_of_ne m ρ c main_arg13 (by decide)).trans <|
    (W6_of_ne m ρ c main_arg13 (by decide)).trans <|
    (keep2 (W4 m ρ c) main_arg13 (by decide)).trans <|
    (W4_of_ne m ρ c main_arg13 (by decide)).trans <|
    (keep1 (W2 m ρ c) main_arg13 (by decide)).trans <|
    (W2_of_ne m ρ c main_arg13 (by decide)).trans <|
    (keep0 (W0 m ρ c) main_arg13 (by decide)).trans rfl
theorem c2B1_atA1 (c : Dev nD) : W12 m ρ c (Proc.devRef .tc main_arg14) = m ((c : Thread nD τ).loc main_arg14) :=
  (W12_of_ne m ρ c main_arg14 (by decide)).trans <|
    (W11_of_ne m ρ c main_arg14 (by decide)).trans <|
    (keep5 (W9 m ρ c) main_arg14 (by decide)).trans <|
    (W9_of_ne m ρ c main_arg14 (by decide)).trans <|
    (keep4 (W7 m ρ c) main_arg14 (by decide)).trans <|
    (W7_of_ne m ρ c main_arg14 (by decide)).trans <|
    (W6_of_ne m ρ c main_arg14 (by decide)).trans <|
    (keep2 (W4 m ρ c) main_arg14 (by decide)).trans <|
    (W4_of_ne m ρ c main_arg14 (by decide)).trans <|
    (keep1 (W2 m ρ c) main_arg14 (by decide)).trans <|
    (W2_of_ne m ρ c main_arg14 (by decide)).trans <|
    (keep0 (W0 m ρ c) main_arg14 (by decide)).trans rfl
theorem c2W2_atB (c : Dev nD) : W13 m ρ c (Proc.devRef .tc main_arg15) = m ((c : Thread nD τ).loc main_arg15) :=
  (keep7 (W12 m ρ c) main_arg15 (by decide)).trans <|
    (W12_of_ne m ρ c main_arg15 (by decide)).trans <|
    (W11_of_ne m ρ c main_arg15 (by decide)).trans <|
    (keep5 (W9 m ρ c) main_arg15 (by decide)).trans <|
    (W9_in m ρ c 3 rfl).trans <|
    (keep4 (W7 m ρ c) main_arg15 (by decide)).trans <|
    (W7_of_ne m ρ c main_arg15 (by decide)).trans <|
    (W6_of_ne m ρ c main_arg15 (by decide)).trans <|
    (keep2 (W4 m ρ c) main_arg15 (by decide)).trans <|
    (W4_of_ne m ρ c main_arg15 (by decide)).trans <|
    (keep1 (W2 m ρ c) main_arg15 (by decide)).trans <|
    (W2_of_ne m ρ c main_arg15 (by decide)).trans <|
    (keep0 (W0 m ρ c) main_arg15 (by decide)).trans rfl
theorem c2G2_atB1 (c : Dev nD) : W14 m ρ c (Proc.devRef .tc main_arg16) = m ((c : Thread nD τ).loc main_arg16) :=
  (W14_of_ne m ρ c main_arg16 (by decide)).trans <|
    (keep7 (W12 m ρ c) main_arg16 (by decide)).trans <|
    (W12_of_ne m ρ c main_arg16 (by decide)).trans <|
    (W11_of_ne m ρ c main_arg16 (by decide)).trans <|
    (keep5 (W9 m ρ c) main_arg16 (by decide)).trans <|
    (W9_of_ne m ρ c main_arg16 (by decide)).trans <|
    (keep4 (W7 m ρ c) main_arg16 (by decide)).trans <|
    (W7_of_ne m ρ c main_arg16 (by decide)).trans <|
    (W6_of_ne m ρ c main_arg16 (by decide)).trans <|
    (keep2 (W4 m ρ c) main_arg16 (by decide)).trans <|
    (W4_of_ne m ρ c main_arg16 (by decide)).trans <|
    (keep1 (W2 m ρ c) main_arg16 (by decide)).trans <|
    (W2_of_ne m ρ c main_arg16 (by decide)).trans <|
    (keep0 (W0 m ρ c) main_arg16 (by decide)).trans rfl
theorem c2B2_atB1 (c : Dev nD) : W14 m ρ c (Proc.devRef .tc main_arg17) = m ((c : Thread nD τ).loc main_arg17) :=
  (W14_of_ne m ρ c main_arg17 (by decide)).trans <|
    (keep7 (W12 m ρ c) main_arg17 (by decide)).trans <|
    (W12_of_ne m ρ c main_arg17 (by decide)).trans <|
    (W11_of_ne m ρ c main_arg17 (by decide)).trans <|
    (keep5 (W9 m ρ c) main_arg17 (by decide)).trans <|
    (W9_of_ne m ρ c main_arg17 (by decide)).trans <|
    (keep4 (W7 m ρ c) main_arg17 (by decide)).trans <|
    (W7_of_ne m ρ c main_arg17 (by decide)).trans <|
    (W6_of_ne m ρ c main_arg17 (by decide)).trans <|
    (keep2 (W4 m ρ c) main_arg17 (by decide)).trans <|
    (W4_of_ne m ρ c main_arg17 (by decide)).trans <|
    (keep1 (W2 m ρ c) main_arg17 (by decide)).trans <|
    (W2_of_ne m ρ c main_arg17 (by decide)).trans <|
    (keep0 (W0 m ρ c) main_arg17 (by decide)).trans rfl

/-! ## Region 6: the first product and its column sums -/

theorem c2_pre6 (c : Dev nD) (r : Fin 150000) (n : Fin 128) :
    pre6 (X6 (V11 m ρ) c) (Wt6 (V11 m ρ) c) r n = c2P1 m ρ c r n := by
  have hW : (Wt6 (V11 m ρ) c : S320x128.Idx → EReal) = (m ((c : Thread nD τ).loc main_arg12) : S320x128.Idx → EReal) := c2W1_atA m ρ c
  have hX : (X6 (V11 m ρ) c : S150000x320.Idx → EReal) = (W1 m ρ c (Proc.devRef .tc main_v94) : S150000x320.Idx → EReal) := c2X_atA m ρ c
  rw [hW, hX]
  rfl

theorem c2_p1_0 (c : Dev nD) (r : Fin 150000) (n : Fin 128) :
    (W12 m ρ c (Proc.devRef .tc main_v201_0) : S150000x128.Idx → EReal) (ix2 r n) = c2P1 m ρ c r n := by
  have h : (W12 m ρ c (Proc.devRef .tc main_v201_0) : S150000x128.Idx → EReal) = G6_2 (X6 (V11 m ρ) c) (Wt6 (V11 m ρ) c) :=
    (W12_arr m ρ c 2).trans (final6_2 (V11 m ρ) c)
  refine (congrFun h (ix2 r n)).trans ?_
  rw [G6_2_apply]
  exact c2_pre6 m ρ c r n

theorem c2_p1_1 (c : Dev nD) (n : Fin 128) :
    (W12 m ρ c (Proc.devRef .tc main_v201_1) : S1x128.Idx → EReal) (ix2 (0 : Fin 1) n) = colSum (c2P1 m ρ c) n := by
  have h : (W12 m ρ c (Proc.devRef .tc main_v201_1) : S1x128.Idx → EReal) = G6_3 (X6 (V11 m ρ) c) (Wt6 (V11 m ρ) c) :=
    (W12_arr m ρ c 3).trans (final6_3 (V11 m ρ) c)
  refine (congrFun h (ix2 (0 : Fin 1) n)).trans ?_
  rw [G6_3_apply]
  exact (Finset.sum_congr rfl fun r _ => c2_pre6 m ρ c r n :
    (∑ r : Fin 150000, pre6 (X6 (V11 m ρ) c) (Wt6 (V11 m ρ) c) r n) = ∑ r : Fin 150000, c2P1 m ρ c r n)

theorem c2_p1_2 (c : Dev nD) (n : Fin 128) :
    (W12 m ρ c (Proc.devRef .tc main_v201_2) : S1x128.Idx → EReal) (ix2 (0 : Fin 1) n) = colSumSq (c2P1 m ρ c) n := by
  have h : (W12 m ρ c (Proc.devRef .tc main_v201_2) : S1x128.Idx → EReal) = G6_4 (X6 (V11 m ρ) c) (Wt6 (V11 m ρ) c) :=
    (W12_arr m ρ c 4).trans (final6_4 (V11 m ρ) c)
  refine (congrFun h (ix2 (0 : Fin 1) n)).trans ?_
  rw [G6_4_apply]
  exact (Finset.sum_congr rfl fun r _ => by rw [c2_pre6 m ρ c r n] :
    (∑ r : Fin 150000, pre6 (X6 (V11 m ρ) c) (Wt6 (V11 m ρ) c) r n * pre6 (X6 (V11 m ρ) c) (Wt6 (V11 m ρ) c) r n)
      = ∑ r : Fin 150000, c2P1 m ρ c r n * c2P1 m ρ c r n)

/-! ## Stretch 7: the first layer's scale and shift -/

theorem c2_sc1 (c : Dev nD) (j : S1x128.Idx) :
    (W13 m ρ c (Proc.devRef .tc main_v212) : S1x128.Idx → EReal) j = c2Sc1 m ρ c (j 1) := by
  refine (scale7_read (W12 m ρ c) j).trans ?_
  have h1 : (fun n : Fin 128 => (W12 m ρ c (Proc.devRef .tc main_v201_1) : S1x128.Idx → EReal) (ix2 0 n)) = colSum (c2P1 m ρ c) :=
    funext fun n => c2_p1_1 m ρ c n
  have h2 : (fun n : Fin 128 => (W12 m ρ c (Proc.devRef .tc main_v201_2) : S1x128.Idx → EReal) (ix2 0 n)) = colSumSq (c2P1 m ρ c) :=
    funext fun n => c2_p1_2 m ρ c n
  have h3 : (fun n : Fin 128 => (W12 m ρ c (Proc.devRef .tc main_arg13) : S128.Idx → EReal) (ix1 n)) = c2G1 m c :=
    funext fun n => congrFun (c2G1_atA1 m ρ c) (ix1 n)
  rw [h1, h2, h3]
  rfl

theorem c2_sh1 (c : Dev nD) (j : S1x128.Idx) :
    (W13 m ρ c (Proc.devRef .tc main_v215) : S1x128.Idx → EReal) j = c2Sh1 m ρ c (j 1) := by
  refine (shift7_read (W12 m ρ c) j).trans ?_
  have h1 : (fun n : Fin 128 => (W12 m ρ c (Proc.devRef .tc main_v201_1) : S1x128.Idx → EReal) (ix2 0 n)) = colSum (c2P1 m ρ c) :=
    funext fun n => c2_p1_1 m ρ c n
  have h2 : (fun n : Fin 128 => (W12 m ρ c (Proc.devRef .tc main_v201_2) : S1x128.Idx → EReal) (ix2 0 n)) = colSumSq (c2P1 m ρ c) :=
    funext fun n => c2_p1_2 m ρ c n
  have h3 : (fun n : Fin 128 => (W12 m ρ c (Proc.devRef .tc main_arg13) : S128.Idx → EReal) (ix1 n)) = c2G1 m c :=
    funext fun n => congrFun (c2G1_atA1 m ρ c) (ix1 n)
  have h4 : (fun n : Fin 128 => (W12 m ρ c (Proc.devRef .tc main_arg14) : S128.Idx → EReal) (ix1 n)) = c2B1 m c :=
    funext fun n => congrFun (c2B1_atA1 m ρ c) (ix1 n)
  rw [h1, h2, h3, h4]
  rfl

theorem c2_p1_0_atB (c : Dev nD) (r : Fin 150000) (n : Fin 128) :
    (W13 m ρ c (Proc.devRef .tc main_v201_0) : S150000x128.Idx → EReal) (ix2 r n) = c2P1 m ρ c r n :=
  (congrFun (keep7 (W12 m ρ c) main_v201_0 (by decide)) (ix2 r n)).trans (c2_p1_0 m ρ c r n)

/-- Scale, shift and clamp of equal operands are equal. -/
theorem c2_max_congr {x s h x' s' h' : EReal} (hx : x = x') (hs : s = s') (hh : h = h') :
    max (x * s + h) 0 = max (x' * s' + h') 0 := by
  subst hx hs hh; rfl

/-! ## Region 7: the first layer's output, the second product and its column sums -/

theorem c2_act7 (c : Dev nD) (r : Fin 150000) (k : Fin 128) :
    act7 (V13 m ρ c (Pipeline.arrRef spec7 0)) (V13 m ρ c (Pipeline.arrRef spec7 1)) (V13 m ρ c (Pipeline.arrRef spec7 2)) r k
      = c2H m ρ c r k :=
  c2_max_congr (c2_p1_0_atB m ρ c r k) (c2_sc1 m ρ c (ix2 (0 : Fin 1) k)) (c2_sh1 m ρ c (ix2 (0 : Fin 1) k))

theorem c2_pre7 (c : Dev nD) (r : Fin 150000) (n : Fin 64) :
    pre7 (V13 m ρ c (Pipeline.arrRef spec7 0)) (V13 m ρ c (Pipeline.arrRef spec7 1)) (V13 m ρ c (Pipeline.arrRef spec7 2))
        (V13 m ρ c (Pipeline.arrRef spec7 3)) r n
      = c2P2 m ρ c r n := by
  have hW : (V13 m ρ c (Pipeline.arrRef spec7 3) : S128x64.Idx → EReal) = (m ((c : Thread nD τ).loc main_arg15) : S128x64.Idx → EReal) :=
    c2W2_atB m ρ c
  show (∑ k : Fin 128, act7 (V13 m ρ c (Pipeline.arrRef spec7 0)) (V13 m ρ c (Pipeline.arrRef spec7 1)) (V13 m ρ c (Pipeline.arrRef spec7 2)) r k
      * (V13 m ρ c (Pipeline.arrRef spec7 3) : S128x64.Idx → EReal) (ix2 k n)) = ∑ k : Fin 128, c2H m ρ c r k * c2W2 m c k n
  rw [hW]
  exact (Finset.sum_congr rfl fun k _ => by rw [c2_act7 m ρ c r k] :
    (∑ k : Fin 128, act7 (V13 m ρ c (Pipeline.arrRef spec7 0)) (V13 m ρ c (Pipeline.arrRef spec7 1)) (V13 m ρ c (Pipeline.arrRef spec7 2)) r k
        * (m ((c : Thread nD τ).loc main_arg15) : S128x64.Idx → EReal) (ix2 k n))
      = ∑ k : Fin 128, c2H m ρ c r k * (m ((c : Thread nD τ).loc main_arg15) : S128x64.Idx → EReal) (ix2 k n))

theorem c2_p2_0 (c : Dev nD) (r : Fin 150000) (n : Fin 64) :
    (W14 m ρ c (Proc.devRef .tc main_v216_0) : S150000x64.Idx → EReal) (ix2 r n) = c2P2 m ρ c r n := by
  have h : (W14 m ρ c (Proc.devRef .tc main_v216_0) : S150000x64.Idx → EReal)
      = G7_4 (V13 m ρ c (Pipeline.arrRef spec7 0)) (V13 m ρ c (Pipeline.arrRef spec7 1)) (V13 m ρ c (Pipeline.arrRef spec7 2))
        (V13 m ρ c (Pipeline.arrRef spec7 3)) :=
    (W14_arr m ρ c 4).trans (final7_4 (V13 m ρ) c)
  refine (congrFun h (ix2 r n)).trans ?_
  rw [G7_4_apply]
  exact c2_pre7 m ρ c r n

theorem c2_p2_1 (c : Dev nD) (n : Fin 64) :
    (W14 m ρ c (Proc.devRef .tc main_v216_1) : S1x64.Idx → EReal) (ix2 (0 : Fin 1) n) = colSum (c2P2 m ρ c) n := by
  have h : (W14 m ρ c (Proc.devRef .tc main_v216_1) : S1x64.Idx → EReal)
      = G7_5 (V13 m ρ c (Pipeline.arrRef spec7 0)) (V13 m ρ c (Pipeline.arrRef spec7 1)) (V13 m ρ c (Pipeline.arrRef spec7 2))
        (V13 m ρ c (Pipeline.arrRef spec7 3)) :=
    (W14_arr m ρ c 5).trans (final7_5 (V13 m ρ) c)
  refine (congrFun h (ix2 (0 : Fin 1) n)).trans ?_
  rw [G7_5_apply]
  exact (Finset.sum_congr rfl fun r _ => c2_pre7 m ρ c r n :
    (∑ r : Fin 150000, pre7 (V13 m ρ c (Pipeline.arrRef spec7 0)) (V13 m ρ c (Pipeline.arrRef spec7 1)) (V13 m ρ c (Pipeline.arrRef spec7 2))
        (V13 m ρ c (Pipeline.arrRef spec7 3)) r n) = ∑ r : Fin 150000, c2P2 m ρ c r n)

theorem c2_p2_2 (c : Dev nD) (n : Fin 64) :
    (W14 m ρ c (Proc.devRef .tc main_v216_2) : S1x64.Idx → EReal) (ix2 (0 : Fin 1) n) = colSumSq (c2P2 m ρ c) n := by
  have h : (W14 m ρ c (Proc.devRef .tc main_v216_2) : S1x64.Idx → EReal)
      = G7_6 (V13 m ρ c (Pipeline.arrRef spec7 0)) (V13 m ρ c (Pipeline.arrRef spec7 1)) (V13 m ρ c (Pipeline.arrRef spec7 2))
        (V13 m ρ c (Pipeline.arrRef spec7 3)) :=
    (W14_arr m ρ c 6).trans (final7_6 (V13 m ρ) c)
  refine (congrFun h (ix2 (0 : Fin 1) n)).trans ?_
  rw [G7_6_apply]
  exact (Finset.sum_congr rfl fun r _ => by rw [c2_pre7 m ρ c r n] :
    (∑ r : Fin 150000, pre7 (V13 m ρ c (Pipeline.arrRef spec7 0)) (V13 m ρ c (Pipeline.arrRef spec7 1)) (V13 m ρ c (Pipeline.arrRef spec7 2))
        (V13 m ρ c (Pipeline.arrRef spec7 3)) r n
        * pre7 (V13 m ρ c (Pipeline.arrRef spec7 0)) (V13 m ρ c (Pipeline.arrRef spec7 1)) (V13 m ρ c (Pipeline.arrRef spec7 2))
        (V13 m ρ c (Pipeline.arrRef spec7 3)) r n) = ∑ r : Fin 150000, c2P2 m ρ c r n * c2P2 m ρ c r n)

/-! ## Stretch 8: the second layer's scale and shift -/

theorem c2_sc2 (c : Dev nD) (j : S1x64.Idx) :
    (W15 m ρ c (Proc.devRef .tc main_v227) : S1x64.Idx → EReal) j = c2Sc2 m ρ c (j 1) := by
  refine (scale8_read (W14 m ρ c) j).trans ?_
  have h1 : (fun n : Fin 64 => (W14 m ρ c (Proc.devRef .tc main_v216_1) : S1x64.Idx → EReal) (ix2 0 n)) = colSum (c2P2 m ρ c) :=
    funext fun n => c2_p2_1 m ρ c n
  have h2 : (fun n : Fin 64 => (W14 m ρ c (Proc.devRef .tc main_v216_2) : S1x64.Idx → EReal) (ix2 0 n)) = colSumSq (c2P2 m ρ c) :=
    funext fun n => c2_p2_2 m ρ c n
  have h3 : (fun n : Fin 64 => (W14 m ρ c (Proc.devRef .tc main_arg16) : S64.Idx → EReal) (ix1 n)) = c2G2 m c :=
    funext fun n => congrFun (c2G2_atB1 m ρ c) (ix1 n)
  rw [h1, h2, h3]
  rfl

theorem c2_sh2 (c : Dev nD) (j : S1x64.Idx) :
    (W15 m ρ c (Proc.devRef .tc main_v230) : S1x64.Idx → EReal) j = c2Sh2 m ρ c (j 1) := by
  refine (shift8_read (W14 m ρ c) j).trans ?_
  have h1 : (fun n : Fin 64 => (W14 m ρ c (Proc.devRef .tc main_v216_1) : S1x64.Idx → EReal) (ix2 0 n)) = colSum (c2P2 m ρ c) :=
    funext fun n => c2_p2_1 m ρ c n
  have h2 : (fun n : Fin 64 => (W14 m ρ c (Proc.devRef .tc main_v216_2) : S1x64.Idx → EReal) (ix2 0 n)) = colSumSq (c2P2 m ρ c) :=
    funext fun n => c2_p2_2 m ρ c n
  have h3 : (fun n : Fin 64 => (W14 m ρ c (Proc.devRef .tc main_arg16) : S64.Idx → EReal) (ix1 n)) = c2G2 m c :=
    funext fun n => congrFun (c2G2_atB1 m ρ c) (ix1 n)
  have h4 : (fun n : Fin 64 => (W14 m ρ c (Proc.devRef .tc main_arg17) : S64.Idx → EReal) (ix1 n)) = c2B2 m c :=
    funext fun n => congrFun (c2B2_atB1 m ρ c) (ix1 n)
  rw [h1, h2, h3, h4]
  rfl

theorem c2_p2_0_atC (c : Dev nD) (r : Fin 150000) (n : Fin 64) :
    (W15 m ρ c (Proc.devRef .tc main_v216_0) : S150000x64.Idx → EReal) (ix2 r n) = c2P2 m ρ c r n :=
  (congrFun (keep8 (W14 m ρ c) main_v216_0 (by decide)) (ix2 r n)).trans (c2_p2_0 m ρ c r n)

/-! ## Region 8, and the whole network -/

/-- The network's output array after its three regions, in the named pieces. -/
theorem cycle2_value_pieces (c : Dev nD) :
    (W16 m ρ c (Proc.devRef .tc main_v231) : S150000x64.Idx → EReal)
      = fun j => bnReluK (c2P2 m ρ c) (c2Sc2 m ρ c) (c2Sh2 m ρ c) (j 0) (j 1) := by
  have h : (W16 m ρ c (Proc.devRef .tc main_v231) : S150000x64.Idx → EReal)
      = bnRelu8 (V15 m ρ c (Pipeline.arrRef spec8 0)) (V15 m ρ c (Pipeline.arrRef spec8 1)) (V15 m ρ c (Pipeline.arrRef spec8 2)) :=
    (W16_arr m ρ c 3).trans (final8_3 (V15 m ρ) c)
  rw [h]
  funext j
  obtain ⟨r, n, rfl⟩ : ∃ (r : Fin 150000) (n : Fin 64), j = ix2 r n := ⟨j 0, j 1, eq_ix2 j⟩
  rw [bnRelu8_apply]
  exact c2_max_congr (c2_p2_0_atC m ρ c r n) (c2_sc2 m ρ c (ix2 (0 : Fin 1) n)) (c2_sh2 m ρ c (ix2 (0 : Fin 1) n))

/-- THE NETWORK'S VALUE on the kernel side: region 8's output array is the one-pass two-layer network of the input
    rows, as the first host stretch left them, and the six parameter arrays as launched. -/
theorem cycle2_value (c : Dev nD) :
    (W16 m ρ c (Proc.devRef .tc main_v231) : S150000x64.Idx → EReal) = fun j =>
      Cert.LibMlpBatchNorm.mlpK
        (fun (r : Fin 150000) (k : Fin 320) => (W1 m ρ c (Proc.devRef .tc main_v94) : S150000x320.Idx → EReal) (ValueIdx.ix2 r k))
        (fun (k : Fin 320) (n : Fin 128) => (m ((c : Thread nD τ).loc main_arg12) : S320x128.Idx → EReal) (ValueIdx.ix2 k n))
        (fun n : Fin 128 => (m ((c : Thread nD τ).loc main_arg13) : S128.Idx → EReal) (ValueIdx.ix1 n))
        (fun n : Fin 128 => (m ((c : Thread nD τ).loc main_arg14) : S128.Idx → EReal) (ValueIdx.ix1 n))
        (fun (k : Fin 128) (n : Fin 64) => (m ((c : Thread nD τ).loc main_arg15) : S128x64.Idx → EReal) (ValueIdx.ix2 k n))
        (fun n : Fin 64 => (m ((c : Thread nD τ).loc main_arg16) : S64.Idx → EReal) (ValueIdx.ix1 n))
        (fun n : Fin 64 => (m ((c : Thread nD τ).loc main_arg17) : S64.Idx → EReal) (ValueIdx.ix1 n))
        (Ideal.ofBits .f32 0x48127C00#32) (Ideal.ofBits .f32 0x3727C5AC#32) (j 0) (j 1) :=
  cycle2_value_pieces m ρ c

end Cert.KernelIdeal.Hand

end
-- ==== Proof.LibRealEntries.lean ====
/-
  Finiteness of extended-real entries, and how it propagates through array operations.

  At the ideal reading of a program every float is an extended real (`EReal`). An extended real is
  FINITE when it is the image of a real number. This file defines that predicate on scalars
  (`IsReal`) and on arrays (`AllReal`), and proves that it is preserved by

  * the scalar arithmetic: sum, difference, product, finite sums, the maximum with zero, the quotient by
    a nonzero real, the reciprocal square root of a positive real, and the reading of a finite `f32` word;
  * the host's accumulating scatter (the operand's entry plus the exact sum of the updates landing on it),
    stated first as an induction principle for ANY predicate closed under addition, whatever the indices
    hold (an index outside the operand contributes nothing);
  * the host's gather (every entry of the result is an entry of the operand, the start index being clamped
    into range), stated first for any predicate;
  * concatenation, the pointwise operations, broadcasting, reshaping and selection;
  * sums over axes (the host's with its initial value, and a vector reduction), and contractions
    (a matrix product into an accumulator, the host's product onto zero).

  Nothing here mentions a particular program: every statement is for arbitrary shapes and dimension records.
-/
import Idealize.ShloMosaic.PureOps.Ideal.Laws
import Mathlib.Data.EReal.Basic
import Mathlib.Data.EReal.Operations
import Mathlib.Data.EReal.Inv

open Idealize.ShloMosaic
open scoped BigOperators

namespace Cert.LibRealEntries

/-! ## Finite scalars -/

/-- An extended real is FINITE when it is (the image of) a real number. -/
def IsReal (v : EReal) : Prop := ∃ r : ℝ, v = (r : EReal)

/-- Every entry of an array of extended reals is finite. -/
def AllReal {S : Shape} (f : S.Idx → EReal) : Prop := ∀ i, IsReal (f i)

theorem isReal_coe (r : ℝ) : IsReal (r : EReal) := ⟨r, rfl⟩

theorem isReal_zero : IsReal (0 : EReal) := ⟨0, rfl⟩

theorem isReal_one : IsReal (1 : EReal) := ⟨1, rfl⟩

/-- A finite extended real is neither infinity. -/
theorem IsReal.ne_top {v : EReal} (h : IsReal v) : v ≠ ⊤ := by
  obtain ⟨r, rfl⟩ := h; exact EReal.coe_ne_top r

theorem IsReal.ne_bot {v : EReal} (h : IsReal v) : v ≠ ⊥ := by
  obtain ⟨r, rfl⟩ := h; exact EReal.coe_ne_bot r

/-- Conversely an extended real that is neither infinity is finite. -/
theorem isReal_of_ne {v : EReal} (ht : v ≠ ⊤) (hb : v ≠ ⊥) : IsReal v :=
  ⟨v.toReal, (EReal.coe_toReal ht hb).symm⟩

theorem isReal_iff {v : EReal} : IsReal v ↔ v ≠ ⊤ ∧ v ≠ ⊥ :=
  ⟨fun h => ⟨h.ne_top, h.ne_bot⟩, fun h => isReal_of_ne h.1 h.2⟩

theorem IsReal.add {a b : EReal} (ha : IsReal a) (hb : IsReal b) : IsReal (a + b) := by
  obtain ⟨r, rfl⟩ := ha; obtain ⟨s, rfl⟩ := hb
  exact ⟨r + s, (EReal.coe_add r s).symm⟩

theorem IsReal.sub {a b : EReal} (ha : IsReal a) (hb : IsReal b) : IsReal (a - b) := by
  obtain ⟨r, rfl⟩ := ha; obtain ⟨s, rfl⟩ := hb
  exact ⟨r - s, (EReal.coe_sub r s).symm⟩

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

/-- The maximum of two finite values is finite: it is one of the two. -/
theorem IsReal.max {a b : EReal} (ha : IsReal a) (hb : IsReal b) : IsReal (Max.max a b) := by
  rcases le_total a b with h | h
  · rw [max_eq_right h]; exact hb
  · rw [max_eq_left h]; exact ha

theorem IsReal.min {a b : EReal} (ha : IsReal a) (hb : IsReal b) : IsReal (Min.min a b) := by
  rcases le_total a b with h | h
  · rw [min_eq_left h]; exact ha
  · rw [min_eq_right h]; exact hb

/-- The maximum with zero (a rectifier) of a finite value is finite. -/
theorem IsReal.max_zero {a : EReal} (ha : IsReal a) : IsReal (Max.max a 0) := ha.max isReal_zero

theorem IsReal.zero_max {a : EReal} (ha : IsReal a) : IsReal (Max.max 0 a) := isReal_zero.max ha

/-- A predicate closed under addition passes from a start value and the terms of a finite sum to the
    start value plus the sum (no assumption at zero: the empty sum adds nothing). -/
theorem add_sum_induction {ι : Type} (P : EReal → Prop) (hadd : ∀ a b, P a → P b → P (a + b))
    (a : EReal) (ha : P a) (s : Finset ι) (f : ι → EReal) (hf : ∀ j ∈ s, P (f j)) :
    P (a + ∑ j ∈ s, f j) := by
  classical
  induction s using Finset.induction_on with
  | empty => rw [Finset.sum_empty, add_zero]; exact ha
  | insert b s hb ih =>
    rw [Finset.sum_insert hb, add_left_comm, add_comm]
    exact hadd _ _ (ih fun j hj => hf j (Finset.mem_insert_of_mem hj)) (hf b (Finset.mem_insert_self b s))

/-- A finite sum of finite values is finite. -/
theorem isReal_sum {ι : Type} (s : Finset ι) (f : ι → EReal) (hf : ∀ j ∈ s, IsReal (f j)) :
    IsReal (∑ j ∈ s, f j) := by
  have h := add_sum_induction IsReal (fun _ _ => IsReal.add) 0 isReal_zero s f hf
  rwa [zero_add] at h

/-- A finite value plus a finite sum of finite values is finite. -/
theorem IsReal.add_sum {ι : Type} {a : EReal} (ha : IsReal a) (s : Finset ι) (f : ι → EReal)
    (hf : ∀ j ∈ s, IsReal (f j)) : IsReal (a + ∑ j ∈ s, f j) :=
  ha.add (isReal_sum s f hf)

/-- The quotient of a finite value by a nonzero real is finite (it is the product with the reciprocal). -/
theorem IsReal.div_coe {a : EReal} (ha : IsReal a) {y : ℝ} (hy : y ≠ 0) : IsReal (Ideal.div a (y : EReal)) := by
  rw [Ideal.div_coe hy]; exact ha.mul (isReal_coe _)

/-- The same with the divisor given as a finite value known to be nonzero. -/
theorem IsReal.div {a b : EReal} (ha : IsReal a) (hb : IsReal b) (hb0 : b ≠ 0) : IsReal (Ideal.div a b) := by
  obtain ⟨y, rfl⟩ := hb
  exact ha.div_coe (fun h => hb0 (by rw [h]; rfl))

/-- The reciprocal square root of a positive real is finite: the reciprocal of its square root. -/
theorem isReal_rsqrt_coe {r : ℝ} (hr : 0 < r) : IsReal (Ideal.rsqrt (r : EReal)) := by
  rw [Ideal.rsqrt_coe, if_neg (not_lt.mpr hr.le), if_neg hr.ne']
  exact isReal_coe _

/-- … and its value. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The same with the argument given as a finite value known to be positive. -/
theorem IsReal.rsqrt {a : EReal} (ha : IsReal a) (hpos : 0 < a) : IsReal (Ideal.rsqrt a) := by
  obtain ⟨r, rfl⟩ := ha
  exact isReal_rsqrt_coe (EReal.coe_pos.mp hpos)

/-- The `f32` zero word denotes the finite value `0`. -/
theorem isReal_ofBits_f32_zero : IsReal (Ideal.ofBits .f32 0x00000000#32) := by
  rw [Ideal.ofBits_zero_f32]; exact isReal_zero

/-- An IEEE word whose exponent field is not all ones (neither an infinity nor a NaN pattern) denotes a
    finite value: a signed dyadic rational. -/
theorem isReal_ieee (e m : Nat) {w : Nat} (b : BitVec w) (h : (b.extractLsb' m e).toNat ≠ 2 ^ e - 1) :
    IsReal (Ideal.ieee e m b) := by
  unfold Ideal.ieee
  simp only []
  rw [if_neg h]
  split_ifs <;> exact isReal_coe _

/-- So an `f32` word whose eight exponent bits are not all ones denotes a finite value (on a literal word the
    hypothesis is decided). -/
theorem isReal_ofBits_f32 (b : BitVec 32) (h : (b.extractLsb' 23 8).toNat ≠ 255) :
    IsReal (Ideal.ofBits .f32 b) :=
  isReal_ieee 8 23 b h

/-! ## The host's accumulating scatter -/

section Scatter
variable {s si su : Shape} {w : Nat} {φ : FTy}

/-- At the extended reals the host's accumulating scatter is, at each operand index, the operand's entry plus
    the sum of the updates whose result index is that index. -/
theorem scatterAdd_apply (d : ScatterDims s si su) (x : FVec Ideal s φ) (idx : IVec si w) (upd : FVec Ideal su φ)
    (i : s.Idx) :
    Host.scatterAdd (F := Ideal) d x idx upd i
      = x i + ∑ j ∈ Finset.univ.filter (fun j => d.resultIdx? j idx = some i), upd j := rfl

/-- INDUCTION PRINCIPLE for the accumulating scatter: a predicate closed under addition that holds of every
    entry of the operand and of every entry of the updates holds of every entry of the result — whatever the
    index array holds (an update whose index falls outside the operand is not added anywhere, and several
    updates landing on one entry are all added to it). -/
theorem scatterAdd_induction (P : EReal → Prop) (hadd : ∀ a b, P a → P b → P (a + b))
    (d : ScatterDims s si su) (x : FVec Ideal s φ) (idx : IVec si w) (upd : FVec Ideal su φ)
    (hx : ∀ i, P (x i)) (hu : ∀ j, P (upd j)) (i : s.Idx) :
    P (Host.scatterAdd (F := Ideal) d x idx upd i) := by
  rw [scatterAdd_apply]
  exact add_sum_induction P hadd (x i) (hx i) _ upd fun j _ => hu j

/-- The accumulating scatter of finite updates into a finite operand is finite at every entry. -/
theorem allReal_scatterAdd (d : ScatterDims s si su) (x : FVec Ideal s φ) (idx : IVec si w) (upd : FVec Ideal su φ)
    (hx : AllReal x) (hu : AllReal upd) : AllReal (Host.scatterAdd (F := Ideal) d x idx upd) :=
  scatterAdd_induction IsReal (fun _ _ => IsReal.add) d x idx upd hx hu

/-- The same at any schedule key (the extended-real value does not depend on it). -/
theorem scatterAddAt_induction (P : EReal → Prop) (hadd : ∀ a b, P a → P b → P (a + b)) (sched : HostSchedule)
    (d : ScatterDims s si su) (x : FVec Ideal s φ) (idx : IVec si w) (upd : FVec Ideal su φ)
    (hx : ∀ i, P (x i)) (hu : ∀ j, P (upd j)) (i : s.Idx) :
    P (Host.scatterAddAt (F := Ideal) sched d x idx upd i) :=
  scatterAdd_induction P hadd d x idx upd hx hu i

end Scatter

/-! ## The host's gather -/

section Gather
variable {s si t : Shape} {w : Nat} {α : Type}

/-- Every entry of a gather's result is the operand's entry at the operand index the dimension record computes
    (the start index read off the index array and CLAMPED so that the slice fits: an out-of-range start index
    reads a boundary slice, never a value outside the operand). -/
theorem gather_apply (d : GatherDims s si t) (x : s.Idx → α) (idx : IVec si w) (j : t.Idx) :
    Host.gather d x idx j = x (d.operandIdx j idx) := rfl

/-- So every entry of the result is SOME entry of the operand. -/
theorem gather_mem (d : GatherDims s si t) (x : s.Idx → α) (idx : IVec si w) (j : t.Idx) :
    ∃ i, Host.gather d x idx j = x i := ⟨_, rfl⟩

/-- PRINCIPLE for the gather: whatever holds of every entry of the operand holds of every entry of the result,
    whatever the index array holds. -/
theorem gather_induction (P : α → Prop) (d : GatherDims s si t) (x : s.Idx → α) (idx : IVec si w)
    (hx : ∀ i, P (x i)) (j : t.Idx) : P (Host.gather d x idx j) := hx _

/-- A gather from a finite array is finite at every entry. -/
theorem allReal_gather (d : GatherDims s si t) (x : s.Idx → EReal) (idx : IVec si w) (hx : AllReal x) :
    AllReal (Host.gather d x idx) := gather_induction IsReal d x idx hx

end Gather

/-! ## Pointwise operations, constants, selection -/

section Pointwise
variable {s : Shape} {φ : FTy}

theorem allReal_addf (x y : FVec Ideal s φ) (hx : AllReal x) (hy : AllReal y) : AllReal (addf x y) :=
  fun i => show IsReal (x i + y i) from (hx i).add (hy i)

theorem allReal_subf (x y : FVec Ideal s φ) (hx : AllReal x) (hy : AllReal y) : AllReal (subf x y) :=
  fun i => show IsReal (x i - y i) from (hx i).sub (hy i)

theorem allReal_mulf (x y : FVec Ideal s φ) (hx : AllReal x) (hy : AllReal y) : AllReal (mulf x y) :=
  fun i => show IsReal (x i * y i) from (hx i).mul (hy i)

theorem allReal_maximumf (x y : FVec Ideal s φ) (hx : AllReal x) (hy : AllReal y) : AllReal (maximumf x y) :=
  fun i => show IsReal (Max.max (x i) (y i)) from (hx i).max (hy i)

theorem allReal_minimumf (x y : FVec Ideal s φ) (hx : AllReal x) (hy : AllReal y) : AllReal (minimumf x y) :=
  fun i => show IsReal (Min.min (x i) (y i)) from (hx i).min (hy i)

theorem allReal_negf (x : FVec Ideal s φ) (hx : AllReal x) : AllReal (negf x) :=
  fun i => show IsReal (-(x i)) from (hx i).neg

theorem allReal_hostNegf (x : FVec Ideal s φ) (hx : AllReal x) : AllReal (Host.negf x) :=
  fun i => show IsReal (-(x i)) from (hx i).neg

/-- The host's quotient by an array whose every entry is a nonzero finite value. -/
theorem allReal_hostDivf (x y : FVec Ideal s φ) (hx : AllReal x) (hy : AllReal y) (hy0 : ∀ i, y i ≠ 0) :
    AllReal (Host.divf x y) :=
  fun i => show IsReal (Ideal.div (x i) (y i)) from (hx i).div (hy i) (hy0 i)

/-- A kernel's quotient likewise. -/
theorem allReal_divf (x y : FVec Ideal s φ) (hx : AllReal x) (hy : AllReal y) (hy0 : ∀ i, y i ≠ 0) :
    AllReal (divf x y) :=
  fun i => show IsReal (Ideal.div (x i) (y i)) from (hx i).div (hy i) (hy0 i)

/-- The host's reciprocal square root of an array whose every entry is a positive finite value. -/
theorem allReal_hostRsqrt (x : FVec Ideal s φ) (hx : AllReal x) (hpos : ∀ i, 0 < x i) : AllReal (Host.rsqrt x) :=
  fun i => show IsReal (Ideal.rsqrt (x i)) from (hx i).rsqrt (hpos i)

/-- A kernel's reciprocal square root likewise. -/
theorem allReal_rsqrt (x : FVec Ideal s φ) (hx : AllReal x) (hpos : ∀ i, 0 < x i) : AllReal (rsqrt x) :=
  fun i => show IsReal (Ideal.rsqrt (x i)) from (hx i).rsqrt (hpos i)

/-- A constant splat of a word that denotes a finite value. -/
theorem allReal_constant (φ : FTy) (b : BitVec φ.bits) (hb : IsReal (Ideal.ofBits φ b)) :
    AllReal (constant (F := Ideal) s φ b) := fun _ => hb

/-- The `f32` zero splat is finite. -/
theorem allReal_constant_zero_f32 : AllReal (constant (F := Ideal) s .f32 0x00000000#32) :=
  fun _ => isReal_ofBits_f32_zero

/-- A splat of a finite scalar. -/
theorem allReal_broadcast (v : EReal) (hv : IsReal v) : AllReal (broadcast s v) := fun _ => hv

/-- Selection takes each entry from one of its two operands. -/
theorem select_induction {α : Type} (P : α → Prop) (c : IVec s 1) (a b : s.Idx → α) (ha : ∀ i, P (a i))
    (hb : ∀ i, P (b i)) (i : s.Idx) : P (select c a b i) := by
  show P (if c i = 1 then a i else b i)
  split_ifs
  · exact ha i
  · exact hb i

theorem allReal_select (c : IVec s 1) (a b : s.Idx → EReal) (ha : AllReal a) (hb : AllReal b) :
    AllReal (select c a b) := select_induction IsReal c a b ha hb

end Pointwise

/-! ## Re-indexings: every entry of the result is an entry of the operand -/

section Reindex
variable {s t : Shape} {α : Type}

theorem broadcastInDim_induction (P : α → Prop) (dims : Fin s.rank → Fin t.rank) (h : s.BroadcastsInDim t dims)
    (x : s.Idx → α) (hx : ∀ i, P (x i)) (j : t.Idx) : P (broadcastInDim t dims h x j) := hx _

theorem allReal_broadcastInDim (dims : Fin s.rank → Fin t.rank) (h : s.BroadcastsInDim t dims)
    (x : s.Idx → EReal) (hx : AllReal x) : AllReal (broadcastInDim t dims h x) :=
  broadcastInDim_induction IsReal dims h x hx

theorem broadcastTo_induction (P : α → Prop) (x : s.Idx → α) (h : s.Broadcasts t) (hx : ∀ i, P (x i)) (j : t.Idx) :
    P (broadcastTo t x h j) := hx _

theorem allReal_broadcastTo (x : s.Idx → EReal) (h : s.Broadcasts t) (hx : AllReal x) :
    AllReal (broadcastTo t x h) := broadcastTo_induction IsReal x h hx

theorem shapeCast_induction (P : α → Prop) (x : s.Idx → α) (h : s.ShapeCasts t) (hx : ∀ i, P (x i)) (j : t.Idx) :
    P (shapeCast t x h j) := hx _

theorem allReal_shapeCast (x : s.Idx → EReal) (h : s.ShapeCasts t) (hx : AllReal x) :
    AllReal (shapeCast t x h) := shapeCast_induction IsReal x h hx

theorem transpose_induction (P : α → Prop) (perm : List (Fin s.rank)) (x : s.Idx → α) (h : s.Transposes perm t)
    (hx : ∀ i, P (x i)) (j : t.Idx) : P (transpose t perm x h j) := hx _

theorem allReal_transpose (perm : List (Fin s.rank)) (x : s.Idx → EReal) (h : s.Transposes perm t) (hx : AllReal x) :
    AllReal (transpose t perm x h) := transpose_induction IsReal perm x h hx

theorem extractStridedSlice_induction (P : α → Prop) (off : Fin s.rank → Nat) (x : s.Idx → α) (h : s.Slices off t)
    (hx : ∀ i, P (x i)) (j : t.Idx) : P (extractStridedSlice t off x h j) := hx _

theorem allReal_extractStridedSlice (off : Fin s.rank → Nat) (x : s.Idx → EReal) (h : s.Slices off t) (hx : AllReal x) :
    AllReal (extractStridedSlice t off x h) := extractStridedSlice_induction IsReal off x h hx

/-- Concatenation along an axis takes each entry of the result from one of the listed arrays: whatever holds of
    every entry of every piece holds of every entry of the result. -/
theorem concatenate_induction (P : α → Prop) (a : Fin t.rank) (xs : List ((s : Shape) × (s.Idx → α)))
    (h : Shape.Concatenates (xs.map (·.1)) t a) (hx : ∀ p ∈ xs, ∀ i, P (p.2 i)) (j : t.Idx) :
    P (concatenate t a xs h j) := by
  unfold concatenate
  exact hx _ (List.getElem_mem _) _

/-- Two arrays concatenated along an axis. -/
theorem concatenate_two_induction (P : α → Prop) {s₁ s₂ : Shape} (a : Fin t.rank) (x : s₁.Idx → α) (y : s₂.Idx → α)
    (h : Shape.Concatenates [s₁, s₂] t a) (hx : ∀ i, P (x i)) (hy : ∀ i, P (y i)) (j : t.Idx) :
    P (concatenate t a [⟨s₁, x⟩, ⟨s₂, y⟩] h j) := by
  refine concatenate_induction P a [⟨s₁, x⟩, ⟨s₂, y⟩] h (fun p hp => ?_) j
  rcases List.mem_cons.1 hp with rfl | hp
  · exact hx
  · rcases List.mem_cons.1 hp with rfl | hp
    · exact hy
    · exact absurd hp (List.not_mem_nil)

theorem allReal_concatenate (a : Fin t.rank) (xs : List ((s : Shape) × (s.Idx → EReal)))
    (h : Shape.Concatenates (xs.map (·.1)) t a) (hx : ∀ p ∈ xs, AllReal p.2) : AllReal (concatenate t a xs h) :=
  concatenate_induction IsReal a xs h hx

theorem allReal_concatenate_two {s₁ s₂ : Shape} (a : Fin t.rank) (x : s₁.Idx → EReal) (y : s₂.Idx → EReal)
    (h : Shape.Concatenates [s₁, s₂] t a) (hx : AllReal x) (hy : AllReal y) :
    AllReal (concatenate t a [⟨s₁, x⟩, ⟨s₂, y⟩] h) :=
  concatenate_two_induction IsReal a x y h hx hy

end Reindex

/-! ## Sums over axes and contractions -/

section Sums
variable {s t u : Shape} {φ : FTy}

/-- At the extended reals the host's sum over axes is, at each reduced index, the initial value (the one element
    of the rank-zero operand) plus the sum of the operand's entries reducing to it. -/
theorem hostReduceAdd_apply {axes : List (Fin s.rank)} (x : FVec Ideal s φ) (init : u.Idx → Ideal φ)
    (h : s.ReducesTo axes t) (hu : 0 < u.numel) (j : t.Idx) :
    Host.reduceAdd (F := Ideal) x init h hu j
      = init (Shape.Idx.first hu) + ∑ i ∈ Finset.univ.filter (fun i => h.drop i = j), x i := rfl

/-- PRINCIPLE for the host's sum: a predicate closed under addition that holds of the initial value and of every
    entry of the operand holds of every entry of the result. -/
theorem hostReduceAdd_induction (P : EReal → Prop) (hadd : ∀ a b, P a → P b → P (a + b))
    {axes : List (Fin s.rank)} (x : FVec Ideal s φ) (init : u.Idx → Ideal φ) (h : s.ReducesTo axes t)
    (hu : 0 < u.numel) (hx : ∀ i, P (x i)) (hi : ∀ k, P (init k)) (j : t.Idx) :
    P (Host.reduceAdd (F := Ideal) x init h hu j) := by
  rw [hostReduceAdd_apply]
  exact add_sum_induction P hadd _ (hi _) _ x fun i _ => hx i

theorem allReal_hostReduceAdd {axes : List (Fin s.rank)} (x : FVec Ideal s φ) (init : u.Idx → Ideal φ)
    (h : s.ReducesTo axes t) (hu : 0 < u.numel) (hx : AllReal x) (hi : AllReal init) :
    AllReal (Host.reduceAdd (F := Ideal) x init h hu) :=
  hostReduceAdd_induction IsReal (fun _ _ => IsReal.add) x init h hu hx hi

/-- A vector reduction by addition over axes: the sum of the entries reducing to each index, finite when they are. -/
theorem allReal_multiReduction_add (axes : List (Fin s.rank)) (src : FVec Ideal s φ) (acc : BitVec φ.bits)
    (h : s.Reduces axes t) (hφ : FKind.Formats φ) (hacc : acc = FKind.add.neutral φ hφ) (hx : AllReal src) :
    AllReal (multiReduction (F := Ideal) .add axes t src acc h hφ hacc) := fun j => by
  show IsReal (∑ i ∈ Finset.univ.filter (fun i => h.drop i = j), src i)
  exact isReal_sum _ _ fun i _ => hx i

end Sums

section Contractions
variable {sl sr so : Shape} {φ₁ φ₂ : FTy}

/-- A matrix product into an accumulator: the accumulator's entry plus the sum over the contraction index of the
    products of the operands' entries; finite when all three arrays are. -/
theorem allReal_matmul (d : DotDims sl sr so) (prec : Option ContractPrecision) (lhs : FVec Ideal sl φ₁)
    (rhs : FVec Ideal sr φ₂) (acc : FVec Ideal so .f32) (hl : AllReal lhs) (hr : AllReal rhs) (ha : AllReal acc) :
    AllReal (FloatOps.matmul d prec lhs rhs acc) := fun j => by
  rw [Ideal.matmul_apply]
  exact (ha j).add_sum _ _ fun k _ => (hl _).mul (hr _)

/-- Into the `f32` zero splat: just the sum of the products. -/
theorem allReal_matmul_constant_zero (d : DotDims sl sr so) (prec : Option ContractPrecision) (lhs : FVec Ideal sl φ₁)
    (rhs : FVec Ideal sr φ₂) (hl : AllReal lhs) (hr : AllReal rhs) :
    AllReal (FloatOps.matmul d prec lhs rhs (constant so .f32 0x00000000#32)) :=
  allReal_matmul d prec lhs rhs _ hl hr allReal_constant_zero_f32

/-- The host's product (onto zero, at any schedule key): the sum of the products. -/
theorem allReal_dotGeneralAt (sched : HostSchedule) (d : DotDims sl sr so) (prec : Option ContractPrecision)
    (lhs : FVec Ideal sl φ₁) (rhs : FVec Ideal sr φ₂) (hl : AllReal lhs) (hr : AllReal rhs) :
    AllReal (Host.dotGeneralAt (F := Ideal) sched d prec lhs rhs) := fun j => by
  show IsReal (FloatOps.dotGeneral d prec sched lhs rhs j)
  rw [Ideal.dotGeneral_apply]
  exact isReal_sum _ _ fun k _ => (hl _).mul (hr _)

theorem allReal_dotGeneral (d : DotDims sl sr so) (prec : Option ContractPrecision)
    (lhs : FVec Ideal sl φ₁) (rhs : FVec Ideal sr φ₂) (hl : AllReal lhs) (hr : AllReal rhs) :
    AllReal (Host.dotGeneral (F := Ideal) d prec lhs rhs) :=
  allReal_dotGeneralAt .single d prec lhs rhs hl hr

end Contractions

/-! ## A finiteness test read at the extended reals -/

/-- A value whose absolute value (the maximum of it and its negation) is below `⊤` is finite. -/
theorem isReal_of_abs_lt_top {v : EReal} (h : Max.max v (-v) < ⊤) : IsReal v := by
  refine isReal_of_ne (fun ht => ?_) (fun hb => ?_)
  · rw [ht] at h; simp at h
  · rw [hb] at h; simp at h

/-- … and conversely. -/
theorem IsReal.abs_lt_top {v : EReal} (h : IsReal v) : Max.max v (-v) < ⊤ := by
  obtain ⟨r, rfl⟩ := h
  rw [← EReal.coe_neg, max_lt_iff]
  exact ⟨EReal.coe_lt_top r, EReal.coe_lt_top (-r)⟩

/-- The `f32` word `0x7F800000` denotes `⊤`. -/
theorem ofBits_f32_posInf : Ideal.ofBits .f32 0x7F800000#32 = ⊤ := by simp [Ideal.ofBits, Ideal.ieee]

/-- The host's test `|v| < +∞` (an ordered less-than of the absolute value against the `f32` infinity word)
    answers `1` exactly at the finite values. -/
theorem cmpf_olt_abs_inf_eq_one_iff (v : Ideal .f32) :
    FloatOps.cmpf .olt (FloatOps.hostAbsf v) (FloatOps.ofBits (F := Ideal) .f32 0x7F800000#32) = 1#1 ↔ IsReal v := by
  show BitVec.ofBool (decide (Max.max v (-v) < Ideal.ofBits .f32 0x7F800000#32)) = 1#1 ↔ IsReal v
  rw [ofBits_f32_posInf]
  constructor
  · intro h
    by_cases hlt : Max.max v (-v) < ⊤
    · exact isReal_of_abs_lt_top hlt
    · simp [hlt] at h
  · intro h
    simp [h.abs_lt_top]

end Cert.LibRealEntries
-- ==== Proof.KI.GraphReal.lean ====
/-
  The graph part of the kernel program's @main — the host operations before its first kernel region — produces
  arrays all of whose entries are finite whenever the three float argument arrays are.

  The stretch is what the source's graph code prints to: three segment-id arrays (arange, repeat), eight
  segment sums (an accumulating scatter into a zero array), sixteen takes (an index normalisation on integers —
  compare with zero, add the length, select — then a gather), concatenations of the gathered arrays with each other
  and with the argument arrays, and one addition. Every float operation among these makes finite entries from finite
  entries, whatever the integer index arrays hold: a scatter-add's entry is the operand's entry plus a finite sum
  of update entries; a gather's, a concatenation's and a broadcast's entry is an entry of an operand; the zero
  splat is finite; a sum of two finite values is finite.

  The proof walks the line once. Its invariant is a LIST of buffers each of whose float entries are all finite
  (an integer buffer meets the condition vacuously): at the start the three float arguments; each operation keeps
  the buffers already listed (it writes its own result only) and adds its result, because the result's entries are
  finite by the fact for that kind of operation, applied to operands found in the list. At the end the three
  arrays the kernel regions read are in the list.
-/
import proofs.«143519_j50869592655552_1_alg».proof.Proof.Gen.KernelIdeal.Launch
import proofs.«143519_j50869592655552_1_alg».proof.Proof.LibRealEntries
import Idealize.ShloMosaic.Lib.StableHlo.Run

set_option maxRecDepth 16384

noncomputable section

namespace Cert.KernelIdeal.GraphReal

open Cert.LibRealEntries
open Idealize.ShloMosaic Idealize.ShloMosaic.TcCoe Idealize.SL.Sem Idealize.ShloMosaic.StableHlo

/-! ## The invariant and its passage through one operation, for any program -/

section General
variable {τ : Topo} {sig : RefSig}

/-- A float element is finite; an integer element is unconstrained. -/
def RealElt : (e : EltTy) → Elt Ideal e → Prop
  | .fp8e4m3, v => IsReal v | .fp8e5m2, v => IsReal v | .bf16, v => IsReal v | .f16, v => IsReal v | .f32, v => IsReal v
  | .i1, _ => True | .i4, _ => True | .i8, _ => True | .i16, _ => True | .i32, _ => True | .i64, _ => True

/-- Every float entry of a buffer's contents is finite (no condition on an integer buffer). -/
def RealBuf {T : BufTy} (c : T.Contents (Elt Ideal)) : Prop := ∀ i, RealElt T.elt (c i)

/-- Every buffer of the list holds contents whose float entries are finite. -/
def Inv (L : List (Ref sig .tc)) (W : Valuation τ sig (Elt Ideal)) : Prop :=
  ∀ r ∈ L, RealBuf (W (Proc.devRef .tc r))

/-- The operation keeps the invariant and adds its result buffer y to the list. -/
def Good (L : List (Ref sig .tc)) (op : HloOp τ sig (Elt Ideal)) (y : Ref sig .tc) : Prop :=
  ∀ W, Inv L W → Inv (y :: L) (op.result W)

/-- An operation that writes y alone, y's new contents having finite float entries. -/
theorem good_of_result (L : List (Ref sig .tc)) (op : HloOp τ sig (Elt Ideal)) (y : Ref sig .tc)
    (hw : op.writes = {Proc.devRef .tc y})
    (hy : ∀ W, Inv L W → RealBuf (op.result W (Proc.devRef .tc y))) : Good L op y := by
  intro W hI r hr
  by_cases h : r = y
  · subst h; exact hy W hI
  · rw [op.result_of_not_mem W (by rw [hw, Finset.mem_singleton]; exact devRef_ne_of_ne h)]
    exact hI r ((List.mem_cons.1 hr).resolve_left h)

/-- An operation whose one result is a buffer with no float entry. -/
theorem good_int (L : List (Ref sig .tc)) (op : HloOp τ sig (Elt Ideal)) (y : Ref sig .tc)
    (hw : op.writes = {Proc.devRef .tc y}) (ht : ∀ c : y.ty.Contents (Elt Ideal), RealBuf c) : Good L op y :=
  good_of_result L op y hw fun _ _ => ht _

theorem good_nullary (L : List (Ref sig .tc)) (y : Ref sig .tc) (v : y.ty.Contents (Elt Ideal)) (hy) (hv : RealBuf v) :
    Good L (nullary (τ := τ) y v hy) y :=
  good_of_result L _ y rfl fun W _ => by rw [nullary_result]; exact hv

theorem good_unary (L : List (Ref sig .tc)) (x y : Ref sig .tc) (f : x.ty.Contents (Elt Ideal) → y.ty.Contents (Elt Ideal))
    (hx hy) (hf : ∀ u, (x ∈ L → RealBuf u) → RealBuf (f u)) : Good L (unary (τ := τ) x y f hx hy) y :=
  good_of_result L _ y rfl fun W hI => by rw [unary_result]; exact hf _ (hI x)

theorem good_binary (L : List (Ref sig .tc)) (a b y : Ref sig .tc)
    (f : a.ty.Contents (Elt Ideal) → b.ty.Contents (Elt Ideal) → y.ty.Contents (Elt Ideal)) (ha hb hy)
    (hf : ∀ u v, (a ∈ L → RealBuf u) → (b ∈ L → RealBuf v) → RealBuf (f u v)) :
    Good L (binary (τ := τ) a b y f ha hb hy) y :=
  good_of_result L _ y rfl fun W hI => by rw [binary_result]; exact hf _ _ (hI a) (hI b)

theorem good_ternary (L : List (Ref sig .tc)) (c a b y : Ref sig .tc)
    (f : c.ty.Contents (Elt Ideal) → a.ty.Contents (Elt Ideal) → b.ty.Contents (Elt Ideal) → y.ty.Contents (Elt Ideal))
    (hc ha hb hy)
    (hf : ∀ u v w, (c ∈ L → RealBuf u) → (a ∈ L → RealBuf v) → (b ∈ L → RealBuf w) → RealBuf (f u v w)) :
    Good L (ternary (τ := τ) c a b y f hc ha hb hy) y :=
  good_of_result L _ y rfl fun W hI => by rw [ternary_result]; exact hf _ _ _ (hI c) (hI a) (hI b)

/-- A line of operations each of which keeps the invariant, from the list L to the list L'. -/
inductive Chain : List (Ref sig .tc) → List (HloOp τ sig (Elt Ideal)) → List (Ref sig .tc) → Prop
  | nil (L : List (Ref sig .tc)) : Chain L [] L
  | cons {L : List (Ref sig .tc)} {op : HloOp τ sig (Elt Ideal)} {y : Ref sig .tc} {ops : List (HloOp τ sig (Elt Ideal))}
      {L' : List (Ref sig .tc)} : Good L op y → Chain (y :: L) ops L' → Chain L (op :: ops) L'

/-- Along such a line the invariant passes from the contents before it to the contents after it. -/
theorem Chain.inv {L L' : List (Ref sig .tc)} {ops : List (HloOp τ sig (Elt Ideal))} (h : Chain L ops L') :
    ∀ W : Valuation τ sig (Elt Ideal), Inv L W → Inv L' (after ops W) := by
  induction h with
  | nil L => exact fun W hI => hI
  | cons hg _ ih => exact fun W hI => ih _ (hg W hI)

end General

/-! ## The stretch, operation by operation -/

open Cert.KernelIdeal Cert.KernelIdeal.Gen

/-- An operation with an integer result: nothing to show of its entries. -/
local macro "index_op" : tactic =>
  `(tactic| (apply Chain.cons; · exact good_int _ _ _ rfl (fun _ _ => trivial)))
/-- The float zero constant. -/
local macro "zero_const" : tactic =>
  `(tactic| (apply Chain.cons; · exact good_nullary _ _ _ _ allReal_constant_zero_f32))
/-- A broadcast of a float array: every entry is an entry of the operand. -/
local macro "splat" : tactic =>
  `(tactic| (apply Chain.cons; · exact good_unary _ _ _ _ _ _ (fun u hu => allReal_broadcastInDim _ _ _ (hu (by decide)))))
/-- An accumulating scatter: the operand's entry plus a finite sum of update entries. -/
local macro "scatter_add" : tactic =>
  `(tactic| (apply Chain.cons; · exact good_ternary _ _ _ _ _ _ _ _ _ _ (fun u v w hu hv hw => allReal_scatterAdd _ _ _ _ (hu (by decide)) (hw (by decide)))))
/-- A gather: every entry is an entry of the operand. -/
local macro "gather" : tactic =>
  `(tactic| (apply Chain.cons; · exact good_binary _ _ _ _ _ _ _ _ (fun u v hu hv => allReal_gather _ _ _ (hu (by decide)))))
/-- A concatenation of two float arrays: every entry is an entry of one of them. -/
local macro "concat" : tactic =>
  `(tactic| (apply Chain.cons; · exact good_binary _ _ _ _ _ _ _ _ (fun u v hu hv => allReal_concatenate_two _ _ _ _ (hu (by decide)) (hv (by decide)))))
/-- An entrywise sum of two float arrays. -/
local macro "add" : tactic =>
  `(tactic| (apply Chain.cons; · exact good_binary _ _ _ _ _ _ _ _ (fun u v hu hv => allReal_addf _ _ (hu (by decide)) (hv (by decide)))))

/-- A segment-id array: an iota, its broadcast along a new axis, the reshape to one axis. -/
local macro "segment_ids" : tactic => `(tactic| (index_op; index_op; index_op))
/-- A segment sum: the zero constant, its splat to the result's shape, the index array with a unit axis, and the
    accumulating scatter of the data into the zeros. -/
local macro "segment_sum" : tactic => `(tactic| (zero_const; splat; index_op; scatter_add))
/-- A take along the rows: the indices normalised on the integers (zero, its splat, the comparison; the length, its
    splat, the sum; the selection; a unit axis), then the gather. -/
local macro "take" : tactic =>
  `(tactic| (index_op; index_op; index_op; index_op; index_op; index_op; index_op; index_op; gather))

set_option maxHeartbeats 4000000 in
/-- The whole stretch keeps the invariant, from the three float arguments to a list that holds the three arrays the
    kernel regions read. -/
theorem chain0 : ∃ L', Chain (τ := τ) [main_arg2, main_arg1, main_arg0] (hostOps0 (F := Ideal)) L'
    ∧ main_v138 ∈ L' ∧ main_v93 ∈ L' ∧ main_v94 ∈ L' := by
  refine ⟨?L, ?c, ?m⟩
  case c =>
    segment_ids; segment_ids; segment_ids
    -- node features summed onto their nodes, taken back along the first edge family, summed and taken again
    segment_sum; take; segment_sum; take; concat
    segment_sum; take; segment_sum; take; concat
    -- the same along the second edge family
    segment_sum; take; segment_sum; take; concat
    segment_sum; take; segment_sum; take; concat
    -- each family's features beside its own edge features
    concat; concat
    -- both carried to the third family's edges, two hops each, and added
    segment_sum; take; segment_sum; take; concat
    segment_sum; take; segment_sum; take; concat
    add; concat
    exact Chain.nil _
  case m => decide

/-- The three float arrays the kernel regions read after the stretch have finite entries when the three float
    argument arrays do. -/
theorem graph_real (V : Valuation τ sig (Elt Ideal))
    (h0 : AllReal (S := S120000x64) (V (Proc.devRef .tc main_arg0)))
    (h1 : AllReal (S := S150000x64) (V (Proc.devRef .tc main_arg1)))
    (h2 : AllReal (S := S150000x64) (V (Proc.devRef .tc main_arg2))) :
    AllReal (S := S120000x704) (StableHlo.after (hostOps0 (F := Ideal)) V (Proc.devRef .tc main_v138))
      ∧ AllReal (S := S150000x320) (StableHlo.after (hostOps0 (F := Ideal)) V (Proc.devRef .tc main_v93))
      ∧ AllReal (S := S150000x320) (StableHlo.after (hostOps0 (F := Ideal)) V (Proc.devRef .tc main_v94)) := by
  obtain ⟨L', hc, m138, m93, m94⟩ := chain0
  have hI0 : Inv (τ := τ) [main_arg2, main_arg1, main_arg0] V := by
    intro r hr
    simp only [List.mem_cons, List.not_mem_nil, or_false] at hr
    rcases hr with rfl | rfl | rfl
    exacts [h2, h1, h0]
  have hI := hc.inv V hI0
  exact ⟨hI _ m138, hI _ m93, hI _ m94⟩

end Cert.KernelIdeal.GraphReal

end
-- ==== Proof.KI.PreReal.lean ====
/-
  From the precondition "every float argument passes `all (|x| < +∞)`" to "every entry of every float argument
  is a real number".

  The precondition is printed as one function of the eighteen arguments: for each float argument, the absolute
  value is compared (ordered less-than) against a splat of the `f32` infinity word, the comparison's bits are
  reduced by `and` over every axis from the constant `1`, and the fifteen results are joined by `and`. If the
  function answers `1`, each conjunct is `1`; a reduction by `and` into a single index that is `1` had a `1` at
  every operand index; and the comparison `|v| < +∞` is `1` exactly at the finite values. The three integer
  arguments are not constrained.
-/
import proofs.«143519_j50869592655552_1_alg».proof.Defs
import proofs.«143519_j50869592655552_1_alg».proof.Proof.LibRealEntries
import Idealize.ShloMosaic.Lib.ReduceAll
import Idealize.ShloMosaic.Lib.ValueIdx

open Idealize.ShloMosaic Idealize.SL.Sem Cert.LibRealEntries

namespace Cert.KernelIdeal.PreReal

/-- One `all (|x| < +∞)`: if the reduction by `and`, into a shape with a single index, of the comparison of `|x|`
    against a splat of the infinity word is `1`, every entry of `x` is finite. -/
theorem allReal_of_all_abs_lt_inf {s z t u : Shape} {axes : List (Fin s.rank)} [Subsingleton t.Idx]
    (x : FVec Ideal s .f32) (dims : Fin z.rank → Fin s.rank) (bc : z.BroadcastsInDim s dims)
    (init : u.Idx → BitVec 1) (h : s.ReducesTo axes t) (hu : 0 < u.numel) (j : t.Idx)
    (e : Host.reduce IntOp.andi
          (cmpf .olt (Host.absf x) (broadcastInDim s dims bc (constant z .f32 0x7F800000#32))) init h hu j = 1#1) :
    AllReal x := fun i =>
  (cmpf_olt_abs_inf_eq_one_iff (x i)).1 (Host.reduce_andi_all _ init h hu j e i)

/-- The rank-zero shape has one index. -/
instance : Subsingleton Cert.Pre_finite_inputs.S_.Idx := ⟨fun _ _ => funext fun d => d.elim0⟩

open Cert.Pre_finite_inputs in
/-- The printed precondition, as a pure function of its arguments: if it answers `1`, every float argument has
    only real entries. -/
theorem fn_real [Cert.Pre_finite_inputs.Facts]
    (a0 : FVec Ideal S120000x64 .f32) (a1 : FVec Ideal S150000x64 .f32) (a2 : FVec Ideal S150000x64 .f32)
    (a3 : IVec S120000 32) (a4 : IVec S150000 32) (a5 : IVec S150000 32)
    (a6 : FVec Ideal S704x128 .f32) (a7 : FVec Ideal S128 .f32) (a8 : FVec Ideal S128 .f32)
    (a9 : FVec Ideal S128x64 .f32) (a10 : FVec Ideal S64 .f32) (a11 : FVec Ideal S64 .f32)
    (a12 : FVec Ideal S320x128 .f32) (a13 : FVec Ideal S128 .f32) (a14 : FVec Ideal S128 .f32)
    (a15 : FVec Ideal S128x64 .f32) (a16 : FVec Ideal S64 .f32) (a17 : FVec Ideal S64 .f32)
    (h : fn (F := Ideal) a0 a1 a2 a3 a4 a5 a6 a7 a8 a9 a10 a11 a12 a13 a14 a15 a16 a17 = fun _ => 1#1) :
    AllReal a0 ∧ AllReal a1 ∧ AllReal a2 ∧ AllReal a6 ∧ AllReal a7 ∧ AllReal a8 ∧ AllReal a9 ∧ AllReal a10
      ∧ AllReal a11 ∧ AllReal a12 ∧ AllReal a13 ∧ AllReal a14 ∧ AllReal a15 ∧ AllReal a16 ∧ AllReal a17 := by
  have h0 := congrFun h ValueIdx.ix0
  dsimp only [fn, fn_part1, fn_part2, fn_part3, fn_part4, andi] at h0
  simp only [IntOp.andi_eq_one, and_assoc] at h0
  obtain ⟨e0, e1, e2, e6, e7, e8, e9, e10, e11, e12, e13, e14, e15, e16, e17⟩ := h0
  exact ⟨allReal_of_all_abs_lt_inf _ _ _ _ _ _ _ e0, allReal_of_all_abs_lt_inf _ _ _ _ _ _ _ e1,
    allReal_of_all_abs_lt_inf _ _ _ _ _ _ _ e2, allReal_of_all_abs_lt_inf _ _ _ _ _ _ _ e6,
    allReal_of_all_abs_lt_inf _ _ _ _ _ _ _ e7, allReal_of_all_abs_lt_inf _ _ _ _ _ _ _ e8,
    allReal_of_all_abs_lt_inf _ _ _ _ _ _ _ e9, allReal_of_all_abs_lt_inf _ _ _ _ _ _ _ e10,
    allReal_of_all_abs_lt_inf _ _ _ _ _ _ _ e11, allReal_of_all_abs_lt_inf _ _ _ _ _ _ _ e12,
    allReal_of_all_abs_lt_inf _ _ _ _ _ _ _ e13, allReal_of_all_abs_lt_inf _ _ _ _ _ _ _ e14,
    allReal_of_all_abs_lt_inf _ _ _ _ _ _ _ e15, allReal_of_all_abs_lt_inf _ _ _ _ _ _ _ e16,
    allReal_of_all_abs_lt_inf _ _ _ _ _ _ _ e17⟩

/-- On every device, under the kernel's precondition, each of the fifteen float arguments in the initial memory
    has only real entries (each argument's buffer read as the array over its printed shape). -/
theorem args_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (S := S120000x64) (m ((c.tc : Thread nD τ).loc main_arg0))
    ∧ AllReal (S := S150000x64) (m ((c.tc : Thread nD τ).loc main_arg1))
    ∧ AllReal (S := S150000x64) (m ((c.tc : Thread nD τ).loc main_arg2))
    ∧ AllReal (S := S704x128) (m ((c.tc : Thread nD τ).loc main_arg6))
    ∧ AllReal (S := S128) (m ((c.tc : Thread nD τ).loc main_arg7))
    ∧ AllReal (S := S128) (m ((c.tc : Thread nD τ).loc main_arg8))
    ∧ AllReal (S := S128x64) (m ((c.tc : Thread nD τ).loc main_arg9))
    ∧ AllReal (S := S64) (m ((c.tc : Thread nD τ).loc main_arg10))
    ∧ AllReal (S := S64) (m ((c.tc : Thread nD τ).loc main_arg11))
    ∧ AllReal (S := S320x128) (m ((c.tc : Thread nD τ).loc main_arg12))
    ∧ AllReal (S := S128) (m ((c.tc : Thread nD τ).loc main_arg13))
    ∧ AllReal (S := S128) (m ((c.tc : Thread nD τ).loc main_arg14))
    ∧ AllReal (S := S128x64) (m ((c.tc : Thread nD τ).loc main_arg15))
    ∧ AllReal (S := S64) (m ((c.tc : Thread nD τ).loc main_arg16))
    ∧ AllReal (S := S64) (m ((c.tc : Thread nD τ).loc main_arg17)) :=
  fn_real _ _ _ _ _ _ _ _ _ _ _ _ _ _ _ _ _ _ (hpre c)

end Cert.KernelIdeal.PreReal
-- ==== Proof.RefValSegG.lean ====
import proofs.«143519_j50869592655552_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations 1 … 175 of the reference's straight line (everything before the first matrix product of the three perceptrons). -/
abbrev segG : List (HloOp τ sig (Elt F)) :=
  [ StableHlo.nullary main_v0 (iotaInDim S60000 32 0),
    StableHlo.unary main_v0 main_v1 (broadcastInDim S60000x2 ![0] bcast_S60000_S60000x2_0 : (⟨S60000, .i32⟩ : BufTy).Contents (Elt F) → (⟨S60000x2, .i32⟩ : BufTy).Contents (Elt F)),
    StableHlo.reshape main_v1 main_v2 rfl shapeCasts_S60000x2_S120000,
    StableHlo.nullary main_v3 (iotaInDim S30000 32 0),
    StableHlo.unary main_v3 main_v4 (broadcastInDim S30000x5 ![0] bcast_S30000_S30000x5_0 : (⟨S30000, .i32⟩ : BufTy).Contents (Elt F) → (⟨S30000x5, .i32⟩ : BufTy).Contents (Elt F)),
    StableHlo.reshape main_v4 main_v5 rfl shapeCasts_S30000x5_S150000,
    StableHlo.nullary main_v6 (iotaInDim S25000 32 0),
    StableHlo.unary main_v6 main_v7 (broadcastInDim S25000x6 ![0] bcast_S25000_S25000x6_0 : (⟨S25000, .i32⟩ : BufTy).Contents (Elt F) → (⟨S25000x6, .i32⟩ : BufTy).Contents (Elt F)),
    StableHlo.reshape main_v7 main_v8 rfl shapeCasts_S25000x6_S150000,
    StableHlo.nullary main_cst (constant S_ .f32 0x00000000#32),
    StableHlo.unary main_cst main_v9 (broadcastInDim S40000x64 ![] bcast_S_S40000x64 : (⟨S_, .f32⟩ : BufTy).Contents (Elt F) → (⟨S40000x64, .f32⟩ : BufTy).Contents (Elt F)),
    StableHlo.unary main_arg3 main_v10 (broadcastInDim S120000x1 ![0] bcast_S120000_S120000x1_0 : (⟨S120000, .i32⟩ : BufTy).Contents (Elt F) → (⟨S120000x1, .i32⟩ : BufTy).Contents (Elt F)),
    StableHlo.ternary main_v9 main_v10 main_arg0 main_v11 ((fun x i u => Host.scatterAdd scatter_S40000x64_S120000x1_S120000x64_1_0_0_1 x i u) : (⟨S40000x64, .f32⟩ : BufTy).Contents (Elt F) → (⟨S120000x1, .i32⟩ : BufTy).Contents (Elt F) → (⟨S120000x64, .f32⟩ : BufTy).Contents (Elt F) → (⟨S40000x64, .f32⟩ : BufTy).Contents (Elt F)),
    StableHlo.nullary main_c (constantI S_ 32 0#32),
    StableHlo.unary main_c main_v12 (broadcastInDim S150000 ![] bcast_S_S150000 : (⟨S_, .i32⟩ : BufTy).Contents (Elt F) → (⟨S150000, .i32⟩ : BufTy).Contents (Elt F)),
    StableHlo.binary main_arg4 main_v12 main_v13 (cmpi .slt : (⟨S150000, .i32⟩ : BufTy).Contents (Elt F) → (⟨S150000, .i32⟩ : BufTy).Contents (Elt F) → (⟨S150000, .i1⟩ : BufTy).Contents (Elt F)),
    StableHlo.nullary main_c_0 (constantI S_ 32 40000#32),
    StableHlo.unary main_c_0 main_v14 (broadcastInDim S150000 ![] bcast_S_S150000 : (⟨S_, .i32⟩ : BufTy).Contents (Elt F) → (⟨S150000, .i32⟩ : BufTy).Contents (Elt F)),
    StableHlo.binary main_arg4 main_v14 main_v15 (addi : (⟨S150000, .i32⟩ : BufTy).Contents (Elt F) → (⟨S150000, .i32⟩ : BufTy).Contents (Elt F) → (⟨S150000, .i32⟩ : BufTy).Contents (Elt F)),
    StableHlo.ternary main_v13 main_v15 main_arg4 main_v16 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v16 main_v17 (broadcastInDim S150000x1 ![0] bcast_S150000_S150000x1_0 : (⟨S150000, .i32⟩ : BufTy).Contents (Elt F) → (⟨S150000x1, .i32⟩ : BufTy).Contents (Elt F)),
    StableHlo.binary main_v11 main_v17 main_v18 ((fun x i => Host.gather gather_S40000x64_S150000x1_S150000x64_1_0_n_n_0_1_164 x i) : (⟨S40000x64, .f32⟩ : BufTy).Contents (Elt F) → (⟨S150000x1, .i32⟩ : BufTy).Contents (Elt F) → (⟨S150000x64, .f32⟩ : BufTy).Contents (Elt F)),
    StableHlo.nullary main_cst_1 (constant S_ .f32 0x00000000#32),
    StableHlo.unary main_cst_1 main_v19 (broadcastInDim S30000x64 ![] bcast_S_S30000x64 : (⟨S_, .f32⟩ : BufTy).Contents (Elt F) → (⟨S30000x64, .f32⟩ : BufTy).Contents (Elt F)),
    StableHlo.unary main_v5 main_v20 (broadcastInDim S150000x1 ![0] bcast_S150000_S150000x1_0 : (⟨S150000, .i32⟩ : BufTy).Contents (Elt F) → (⟨S150000x1, .i32⟩ : BufTy).Contents (Elt F)),
    StableHlo.ternary main_v19 main_v20 main_v18 main_v21 ((fun x i u => Host.scatterAdd scatter_S30000x64_S150000x1_S150000x64_1_0_0_1 x i u) : (⟨S30000x64, .f32⟩ : BufTy).Contents (Elt F) → (⟨S150000x1, .i32⟩ : BufTy).Contents (Elt F) → (⟨S150000x64, .f32⟩ : BufTy).Contents (Elt F) → (⟨S30000x64, .f32⟩ : BufTy).Contents (Elt F)),
    StableHlo.nullary main_c_2 (constantI S_ 32 0#32),
    StableHlo.unary main_c_2 main_v22 (broadcastInDim S150000 ![] bcast_S_S150000 : (⟨S_, .i32⟩ : BufTy).Contents (Elt F) → (⟨S150000, .i32⟩ : BufTy).Contents (Elt F)),
    StableHlo.binary main_v5 main_v22 main_v23 (cmpi .slt : (⟨S150000, .i32⟩ : BufTy).Contents (Elt F) → (⟨S150000, .i32⟩ : BufTy).Contents (Elt F) → (⟨S150000, .i1⟩ : BufTy).Contents (Elt F)),
    StableHlo.nullary main_c_3 (constantI S_ 32 30000#32),
    StableHlo.unary main_c_3 main_v24 (broadcastInDim S150000 ![] bcast_S_S150000 : (⟨S_, .i32⟩ : BufTy).Contents (Elt F) → (⟨S150000, .i32⟩ : BufTy).Contents (Elt F)),
    StableHlo.binary main_v5 main_v24 main_v25 (addi : (⟨S150000, .i32⟩ : BufTy).Contents (Elt F) → (⟨S150000, .i32⟩ : BufTy).Contents (Elt F) → (⟨S150000, .i32⟩ : BufTy).Contents (Elt F)),
    StableHlo.ternary main_v23 main_v25 main_v5 main_v26 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v26 main_v27 (broadcastInDim S150000x1 ![0] bcast_S150000_S150000x1_0 : (⟨S150000, .i32⟩ : BufTy).Contents (Elt F) → (⟨S150000x1, .i32⟩ : BufTy).Contents (Elt F)),
    StableHlo.binary main_v21 main_v27 main_v28 ((fun x i => Host.gather gather_S30000x64_S150000x1_S150000x64_1_0_n_n_0_1_164 x i) : (⟨S30000x64, .f32⟩ : BufTy).Contents (Elt F) → (⟨S150000x1, .i32⟩ : BufTy).Contents (Elt F) → (⟨S150000x64, .f32⟩ : BufTy).Contents (Elt F)),
    StableHlo.binary main_v18 main_v28 main_v29 ((fun a b => concatenate S150000x128 1 [⟨S150000x64, a⟩, ⟨S150000x64, b⟩] concatenates_S150000x64_S150000x64_S150000x128_d1) : (⟨S150000x64, .f32⟩ : BufTy).Contents (Elt F) → (⟨S150000x64, .f32⟩ : BufTy).Contents (Elt F) → (⟨S150000x128, .f32⟩ : BufTy).Contents (Elt F)),
    StableHlo.nullary main_cst_4 (constant S_ .f32 0x00000000#32),
    StableHlo.unary main_cst_4 main_v30 (broadcastInDim S40000x128 ![] bcast_S_S40000x128 : (⟨S_, .f32⟩ : BufTy).Contents (Elt F) → (⟨S40000x128, .f32⟩ : BufTy).Contents (Elt F)),
    StableHlo.unary main_arg4 main_v31 (broadcastInDim S150000x1 ![0] bcast_S150000_S150000x1_0 : (⟨S150000, .i32⟩ : BufTy).Contents (Elt F) → (⟨S150000x1, .i32⟩ : BufTy).Contents (Elt F)),
    StableHlo.ternary main_v30 main_v31 main_v29 main_v32 ((fun x i u => Host.scatterAdd scatter_S40000x128_S150000x1_S150000x128_1_0_0_1 x i u) : (⟨S40000x128, .f32⟩ : BufTy).Contents (Elt F) → (⟨S150000x1, .i32⟩ : BufTy).Contents (Elt F) → (⟨S150000x128, .f32⟩ : BufTy).Contents (Elt F) → (⟨S40000x128, .f32⟩ : BufTy).Contents (Elt F)),
    StableHlo.nullary main_c_5 (constantI S_ 32 0#32),
    StableHlo.unary main_c_5 main_v33 (broadcastInDim S150000 ![] bcast_S_S150000 : (⟨S_, .i32⟩ : BufTy).Contents (Elt F) → (⟨S150000, .i32⟩ : BufTy).Contents (Elt F)),
    StableHlo.binary main_arg4 main_v33 main_v34 (cmpi .slt : (⟨S150000, .i32⟩ : BufTy).Contents (Elt F) → (⟨S150000, .i32⟩ : BufTy).Contents (Elt F) → (⟨S150000, .i1⟩ : BufTy).Contents (Elt F)),
    StableHlo.nullary main_c_6 (constantI S_ 32 40000#32),
    StableHlo.unary main_c_6 main_v35 (broadcastInDim S150000 ![] bcast_S_S150000 : (⟨S_, .i32⟩ : BufTy).Contents (Elt F) → (⟨S150000, .i32⟩ : BufTy).Contents (Elt F)),
    StableHlo.binary main_arg4 main_v35 main_v36 (addi : (⟨S150000, .i32⟩ : BufTy).Contents (Elt F) → (⟨S150000, .i32⟩ : BufTy).Contents (Elt F) → (⟨S150000, .i32⟩ : BufTy).Contents (Elt F)),
    StableHlo.ternary main_v34 main_v36 main_arg4 main_v37 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v37 main_v38 (broadcastInDim S150000x1 ![0] bcast_S150000_S150000x1_0 : (⟨S150000, .i32⟩ : BufTy).Contents (Elt F) → (⟨S150000x1, .i32⟩ : BufTy).Contents (Elt F)),
    StableHlo.binary main_v32 main_v38 main_v39 ((fun x i => Host.gather gather_S40000x128_S150000x1_S150000x128_1_0_n_n_0_1_1128 x i) : (⟨S40000x128, .f32⟩ : BufTy).Contents (Elt F) → (⟨S150000x1, .i32⟩ : BufTy).Contents (Elt F) → (⟨S150000x128, .f32⟩ : BufTy).Contents (Elt F)),
    StableHlo.nullary main_cst_7 (constant S_ .f32 0x00000000#32),
    StableHlo.unary main_cst_7 main_v40 (broadcastInDim S30000x128 ![] bcast_S_S30000x128 : (⟨S_, .f32⟩ : BufTy).Contents (Elt F) → (⟨S30000x128, .f32⟩ : BufTy).Contents (Elt F)),
    StableHlo.unary main_v5 main_v41 (broadcastInDim S150000x1 ![0] bcast_S150000_S150000x1_0 : (⟨S150000, .i32⟩ : BufTy).Contents (Elt F) → (⟨S150000x1, .i32⟩ : BufTy).Contents (Elt F)),
    StableHlo.ternary main_v40 main_v41 main_v39 main_v42 ((fun x i u => Host.scatterAdd scatter_S30000x128_S150000x1_S150000x128_1_0_0_1 x i u) : (⟨S30000x128, .f32⟩ : BufTy).Contents (Elt F) → (⟨S150000x1, .i32⟩ : BufTy).Contents (Elt F) → (⟨S150000x128, .f32⟩ : BufTy).Contents (Elt F) → (⟨S30000x128, .f32⟩ : BufTy).Contents (Elt F)),
    StableHlo.nullary main_c_8 (constantI S_ 32 0#32),
    StableHlo.unary main_c_8 main_v43 (broadcastInDim S150000 ![] bcast_S_S150000 : (⟨S_, .i32⟩ : BufTy).Contents (Elt F) → (⟨S150000, .i32⟩ : BufTy).Contents (Elt F)),
    StableHlo.binary main_v5 main_v43 main_v44 (cmpi .slt : (⟨S150000, .i32⟩ : BufTy).Contents (Elt F) → (⟨S150000, .i32⟩ : BufTy).Contents (Elt F) → (⟨S150000, .i1⟩ : BufTy).Contents (Elt F)),
    StableHlo.nullary main_c_9 (constantI S_ 32 30000#32),
    StableHlo.unary main_c_9 main_v45 (broadcastInDim S150000 ![] bcast_S_S150000 : (⟨S_, .i32⟩ : BufTy).Contents (Elt F) → (⟨S150000, .i32⟩ : BufTy).Contents (Elt F)),
    StableHlo.binary main_v5 main_v45 main_v46 (addi : (⟨S150000, .i32⟩ : BufTy).Contents (Elt F) → (⟨S150000, .i32⟩ : BufTy).Contents (Elt F) → (⟨S150000, .i32⟩ : BufTy).Contents (Elt F)),
    StableHlo.ternary main_v44 main_v46 main_v5 main_v47 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v47 main_v48 (broadcastInDim S150000x1 ![0] bcast_S150000_S150000x1_0 : (⟨S150000, .i32⟩ : BufTy).Contents (Elt F) → (⟨S150000x1, .i32⟩ : BufTy).Contents (Elt F)),
    StableHlo.binary main_v42 main_v48 main_v49 ((fun x i => Host.gather gather_S30000x128_S150000x1_S150000x128_1_0_n_n_0_1_1128 x i) : (⟨S30000x128, .f32⟩ : BufTy).Contents (Elt F) → (⟨S150000x1, .i32⟩ : BufTy).Contents (Elt F) → (⟨S150000x128, .f32⟩ : BufTy).Contents (Elt F)),
    StableHlo.binary main_v39 main_v49 main_v50 ((fun a b => concatenate S150000x256 1 [⟨S150000x128, a⟩, ⟨S150000x128, b⟩] concatenates_S150000x128_S150000x128_S150000x256_d1) : (⟨S150000x128, .f32⟩ : BufTy).Contents (Elt F) → (⟨S150000x128, .f32⟩ : BufTy).Contents (Elt F) → (⟨S150000x256, .f32⟩ : BufTy).Contents (Elt F)),
    StableHlo.nullary main_cst_10 (constant S_ .f32 0x00000000#32),
    StableHlo.unary main_cst_10 main_v51 (broadcastInDim S40000x64 ![] bcast_S_S40000x64 : (⟨S_, .f32⟩ : BufTy).Contents (Elt F) → (⟨S40000x64, .f32⟩ : BufTy).Contents (Elt F)),
    StableHlo.unary main_arg3 main_v52 (broadcastInDim S120000x1 ![0] bcast_S120000_S120000x1_0 : (⟨S120000, .i32⟩ : BufTy).Contents (Elt F) → (⟨S120000x1, .i32⟩ : BufTy).Contents (Elt F)),
    StableHlo.ternary main_v51 main_v52 main_arg0 main_v53 ((fun x i u => Host.scatterAdd scatter_S40000x64_S120000x1_S120000x64_1_0_0_1 x i u) : (⟨S40000x64, .f32⟩ : BufTy).Contents (Elt F) → (⟨S120000x1, .i32⟩ : BufTy).Contents (Elt F) → (⟨S120000x64, .f32⟩ : BufTy).Contents (Elt F) → (⟨S40000x64, .f32⟩ : BufTy).Contents (Elt F)),
    StableHlo.nullary main_c_11 (constantI S_ 32 0#32),
    StableHlo.unary main_c_11 main_v54 (broadcastInDim S150000 ![] bcast_S_S150000 : (⟨S_, .i32⟩ : BufTy).Contents (Elt F) → (⟨S150000, .i32⟩ : BufTy).Contents (Elt F)),
    StableHlo.binary main_arg5 main_v54 main_v55 (cmpi .slt : (⟨S150000, .i32⟩ : BufTy).Contents (Elt F) → (⟨S150000, .i32⟩ : BufTy).Contents (Elt F) → (⟨S150000, .i1⟩ : BufTy).Contents (Elt F)),
    StableHlo.nullary main_c_12 (constantI S_ 32 40000#32),
    StableHlo.unary main_c_12 main_v56 (broadcastInDim S150000 ![] bcast_S_S150000 : (⟨S_, .i32⟩ : BufTy).Contents (Elt F) → (⟨S150000, .i32⟩ : BufTy).Contents (Elt F)),
    StableHlo.binary main_arg5 main_v56 main_v57 (addi : (⟨S150000, .i32⟩ : BufTy).Contents (Elt F) → (⟨S150000, .i32⟩ : BufTy).Contents (Elt F) → (⟨S150000, .i32⟩ : BufTy).Contents (Elt F)),
    StableHlo.ternary main_v55 main_v57 main_arg5 main_v58 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v58 main_v59 (broadcastInDim S150000x1 ![0] bcast_S150000_S150000x1_0 : (⟨S150000, .i32⟩ : BufTy).Contents (Elt F) → (⟨S150000x1, .i32⟩ : BufTy).Contents (Elt F)),
    StableHlo.binary main_v53 main_v59 main_v60 ((fun x i => Host.gather gather_S40000x64_S150000x1_S150000x64_1_0_n_n_0_1_164 x i) : (⟨S40000x64, .f32⟩ : BufTy).Contents (Elt F) → (⟨S150000x1, .i32⟩ : BufTy).Contents (Elt F) → (⟨S150000x64, .f32⟩ : BufTy).Contents (Elt F)),
    StableHlo.nullary main_cst_13 (constant S_ .f32 0x00000000#32),
    StableHlo.unary main_cst_13 main_v61 (broadcastInDim S25000x64 ![] bcast_S_S25000x64 : (⟨S_, .f32⟩ : BufTy).Contents (Elt F) → (⟨S25000x64, .f32⟩ : BufTy).Contents (Elt F)),
    StableHlo.unary main_v8 main_v62 (broadcastInDim S150000x1 ![0] bcast_S150000_S150000x1_0 : (⟨S150000, .i32⟩ : BufTy).Contents (Elt F) → (⟨S150000x1, .i32⟩ : BufTy).Contents (Elt F)),
    StableHlo.ternary main_v61 main_v62 main_v60 main_v63 ((fun x i u => Host.scatterAdd scatter_S25000x64_S150000x1_S150000x64_1_0_0_1 x i u) : (⟨S25000x64, .f32⟩ : BufTy).Contents (Elt F) → (⟨S150000x1, .i32⟩ : BufTy).Contents (Elt F) → (⟨S150000x64, .f32⟩ : BufTy).Contents (Elt F) → (⟨S25000x64, .f32⟩ : BufTy).Contents (Elt F)),
    StableHlo.nullary main_c_14 (constantI S_ 32 0#32),
    StableHlo.unary main_c_14 main_v64 (broadcastInDim S150000 ![] bcast_S_S150000 : (⟨S_, .i32⟩ : BufTy).Contents (Elt F) → (⟨S150000, .i32⟩ : BufTy).Contents (Elt F)),
    StableHlo.binary main_v8 main_v64 main_v65 (cmpi .slt : (⟨S150000, .i32⟩ : BufTy).Contents (Elt F) → (⟨S150000, .i32⟩ : BufTy).Contents (Elt F) → (⟨S150000, .i1⟩ : BufTy).Contents (Elt F)),
    StableHlo.nullary main_c_15 (constantI S_ 32 25000#32),
    StableHlo.unary main_c_15 main_v66 (broadcastInDim S150000 ![] bcast_S_S150000 : (⟨S_, .i32⟩ : BufTy).Contents (Elt F) → (⟨S150000, .i32⟩ : BufTy).Contents (Elt F)),
    StableHlo.binary main_v8 main_v66 main_v67 (addi : (⟨S150000, .i32⟩ : BufTy).Contents (Elt F) → (⟨S150000, .i32⟩ : BufTy).Contents (Elt F) → (⟨S150000, .i32⟩ : BufTy).Contents (Elt F)),
    StableHlo.ternary main_v65 main_v67 main_v8 main_v68 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v68 main_v69 (broadcastInDim S150000x1 ![0] bcast_S150000_S150000x1_0 : (⟨S150000, .i32⟩ : BufTy).Contents (Elt F) → (⟨S150000x1, .i32⟩ : BufTy).Contents (Elt F)),
    StableHlo.binary main_v63 main_v69 main_v70 ((fun x i => Host.gather gather_S25000x64_S150000x1_S150000x64_1_0_n_n_0_1_164 x i) : (⟨S25000x64, .f32⟩ : BufTy).Contents (Elt F) → (⟨S150000x1, .i32⟩ : BufTy).Contents (Elt F) → (⟨S150000x64, .f32⟩ : BufTy).Contents (Elt F)),
    StableHlo.binary main_v60 main_v70 main_v71 ((fun a b => concatenate S150000x128 1 [⟨S150000x64, a⟩, ⟨S150000x64, b⟩] concatenates_S150000x64_S150000x64_S150000x128_d1) : (⟨S150000x64, .f32⟩ : BufTy).Contents (Elt F) → (⟨S150000x64, .f32⟩ : BufTy).Contents (Elt F) → (⟨S150000x128, .f32⟩ : BufTy).Contents (Elt F)),
    StableHlo.nullary main_cst_16 (constant S_ .f32 0x00000000#32),
    StableHlo.unary main_cst_16 main_v72 (broadcastInDim S40000x128 ![] bcast_S_S40000x128 : (⟨S_, .f32⟩ : BufTy).Contents (Elt F) → (⟨S40000x128, .f32⟩ : BufTy).Contents (Elt F)),
    StableHlo.unary main_arg5 main_v73 (broadcastInDim S150000x1 ![0] bcast_S150000_S150000x1_0 : (⟨S150000, .i32⟩ : BufTy).Contents (Elt F) → (⟨S150000x1, .i32⟩ : BufTy).Contents (Elt F)),
    StableHlo.ternary main_v72 main_v73 main_v71 main_v74 ((fun x i u => Host.scatterAdd scatter_S40000x128_S150000x1_S150000x128_1_0_0_1 x i u) : (⟨S40000x128, .f32⟩ : BufTy).Contents (Elt F) → (⟨S150000x1, .i32⟩ : BufTy).Contents (Elt F) → (⟨S150000x128, .f32⟩ : BufTy).Contents (Elt F) → (⟨S40000x128, .f32⟩ : BufTy).Contents (Elt F)),
    StableHlo.nullary main_c_17 (constantI S_ 32 0#32),
    StableHlo.unary main_c_17 main_v75 (broadcastInDim S150000 ![] bcast_S_S150000 : (⟨S_, .i32⟩ : BufTy).Contents (Elt F) → (⟨S150000, .i32⟩ : BufTy).Contents (Elt F)),
    StableHlo.binary main_arg5 main_v75 main_v76 (cmpi .slt : (⟨S150000, .i32⟩ : BufTy).Contents (Elt F) → (⟨S150000, .i32⟩ : BufTy).Contents (Elt F) → (⟨S150000, .i1⟩ : BufTy).Contents (Elt F)),
    StableHlo.nullary main_c_18 (constantI S_ 32 40000#32),
    StableHlo.unary main_c_18 main_v77 (broadcastInDim S150000 ![] bcast_S_S150000 : (⟨S_, .i32⟩ : BufTy).Contents (Elt F) → (⟨S150000, .i32⟩ : BufTy).Contents (Elt F)),
    StableHlo.binary main_arg5 main_v77 main_v78 (addi : (⟨S150000, .i32⟩ : BufTy).Contents (Elt F) → (⟨S150000, .i32⟩ : BufTy).Contents (Elt F) → (⟨S150000, .i32⟩ : BufTy).Contents (Elt F)),
    StableHlo.ternary main_v76 main_v78 main_arg5 main_v79 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v79 main_v80 (broadcastInDim S150000x1 ![0] bcast_S150000_S150000x1_0 : (⟨S150000, .i32⟩ : BufTy).Contents (Elt F) → (⟨S150000x1, .i32⟩ : BufTy).Contents (Elt F)),
    StableHlo.binary main_v74 main_v80 main_v81 ((fun x i => Host.gather gather_S40000x128_S150000x1_S150000x128_1_0_n_n_0_1_1128 x i) : (⟨S40000x128, .f32⟩ : BufTy).Contents (Elt F) → (⟨S150000x1, .i32⟩ : BufTy).Contents (Elt F) → (⟨S150000x128, .f32⟩ : BufTy).Contents (Elt F)),
    StableHlo.nullary main_cst_19 (constant S_ .f32 0x00000000#32),
    StableHlo.unary main_cst_19 main_v82 (broadcastInDim S25000x128 ![] bcast_S_S25000x128 : (⟨S_, .f32⟩ : BufTy).Contents (Elt F) → (⟨S25000x128, .f32⟩ : BufTy).Contents (Elt F)),
    StableHlo.unary main_v8 main_v83 (broadcastInDim S150000x1 ![0] bcast_S150000_S150000x1_0 : (⟨S150000, .i32⟩ : BufTy).Contents (Elt F) → (⟨S150000x1, .i32⟩ : BufTy).Contents (Elt F)),
    StableHlo.ternary main_v82 main_v83 main_v81 main_v84 ((fun x i u => Host.scatterAdd scatter_S25000x128_S150000x1_S150000x128_1_0_0_1 x i u) : (⟨S25000x128, .f32⟩ : BufTy).Contents (Elt F) → (⟨S150000x1, .i32⟩ : BufTy).Contents (Elt F) → (⟨S150000x128, .f32⟩ : BufTy).Contents (Elt F) → (⟨S25000x128, .f32⟩ : BufTy).Contents (Elt F)),
    StableHlo.nullary main_c_20 (constantI S_ 32 0#32),
    StableHlo.unary main_c_20 main_v85 (broadcastInDim S150000 ![] bcast_S_S150000 : (⟨S_, .i32⟩ : BufTy).Contents (Elt F) → (⟨S150000, .i32⟩ : BufTy).Contents (Elt F)),
    StableHlo.binary main_v8 main_v85 main_v86 (cmpi .slt : (⟨S150000, .i32⟩ : BufTy).Contents (Elt F) → (⟨S150000, .i32⟩ : BufTy).Contents (Elt F) → (⟨S150000, .i1⟩ : BufTy).Contents (Elt F)),
    StableHlo.nullary main_c_21 (constantI S_ 32 25000#32),
    StableHlo.unary main_c_21 main_v87 (broadcastInDim S150000 ![] bcast_S_S150000 : (⟨S_, .i32⟩ : BufTy).Contents (Elt F) → (⟨S150000, .i32⟩ : BufTy).Contents (Elt F)),
    StableHlo.binary main_v8 main_v87 main_v88 (addi : (⟨S150000, .i32⟩ : BufTy).Contents (Elt F) → (⟨S150000, .i32⟩ : BufTy).Contents (Elt F) → (⟨S150000, .i32⟩ : BufTy).Contents (Elt F)),
    StableHlo.ternary main_v86 main_v88 main_v8 main_v89 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v89 main_v90 (broadcastInDim S150000x1 ![0] bcast_S150000_S150000x1_0 : (⟨S150000, .i32⟩ : BufTy).Contents (Elt F) → (⟨S150000x1, .i32⟩ : BufTy).Contents (Elt F)),
    StableHlo.binary main_v84 main_v90 main_v91 ((fun x i => Host.gather gather_S25000x128_S150000x1_S150000x128_1_0_n_n_0_1_1128 x i) : (⟨S25000x128, .f32⟩ : BufTy).Contents (Elt F) → (⟨S150000x1, .i32⟩ : BufTy).Contents (Elt F) → (⟨S150000x128, .f32⟩ : BufTy).Contents (Elt F)),
    StableHlo.binary main_v81 main_v91 main_v92 ((fun a b => concatenate S150000x256 1 [⟨S150000x128, a⟩, ⟨S150000x128, b⟩] concatenates_S150000x128_S150000x128_S150000x256_d1) : (⟨S150000x128, .f32⟩ : BufTy).Contents (Elt F) → (⟨S150000x128, .f32⟩ : BufTy).Contents (Elt F) → (⟨S150000x256, .f32⟩ : BufTy).Contents (Elt F)),
    StableHlo.binary main_v50 main_arg1 main_v93 ((fun a b => concatenate S150000x320 1 [⟨S150000x256, a⟩, ⟨S150000x64, b⟩] concatenates_S150000x256_S150000x64_S150000x320_d1) : (⟨S150000x256, .f32⟩ : BufTy).Contents (Elt F) → (⟨S150000x64, .f32⟩ : BufTy).Contents (Elt F) → (⟨S150000x320, .f32⟩ : BufTy).Contents (Elt F)),
    StableHlo.binary main_v92 main_arg2 main_v94 ((fun a b => concatenate S150000x320 1 [⟨S150000x256, a⟩, ⟨S150000x64, b⟩] concatenates_S150000x256_S150000x64_S150000x320_d1) : (⟨S150000x256, .f32⟩ : BufTy).Contents (Elt F) → (⟨S150000x64, .f32⟩ : BufTy).Contents (Elt F) → (⟨S150000x320, .f32⟩ : BufTy).Contents (Elt F)),
    StableHlo.nullary main_cst_22 (constant S_ .f32 0x00000000#32),
    StableHlo.unary main_cst_22 main_v95 (broadcastInDim S40000x320 ![] bcast_S_S40000x320 : (⟨S_, .f32⟩ : BufTy).Contents (Elt F) → (⟨S40000x320, .f32⟩ : BufTy).Contents (Elt F)),
    StableHlo.unary main_arg4 main_v96 (broadcastInDim S150000x1 ![0] bcast_S150000_S150000x1_0 : (⟨S150000, .i32⟩ : BufTy).Contents (Elt F) → (⟨S150000x1, .i32⟩ : BufTy).Contents (Elt F)),
    StableHlo.ternary main_v95 main_v96 main_v93 main_v97 ((fun x i u => Host.scatterAdd scatter_S40000x320_S150000x1_S150000x320_1_0_0_1 x i u) : (⟨S40000x320, .f32⟩ : BufTy).Contents (Elt F) → (⟨S150000x1, .i32⟩ : BufTy).Contents (Elt F) → (⟨S150000x320, .f32⟩ : BufTy).Contents (Elt F) → (⟨S40000x320, .f32⟩ : BufTy).Contents (Elt F)),
    StableHlo.nullary main_c_23 (constantI S_ 32 0#32),
    StableHlo.unary main_c_23 main_v98 (broadcastInDim S120000 ![] bcast_S_S120000 : (⟨S_, .i32⟩ : BufTy).Contents (Elt F) → (⟨S120000, .i32⟩ : BufTy).Contents (Elt F)),
    StableHlo.binary main_arg3 main_v98 main_v99 (cmpi .slt : (⟨S120000, .i32⟩ : BufTy).Contents (Elt F) → (⟨S120000, .i32⟩ : BufTy).Contents (Elt F) → (⟨S120000, .i1⟩ : BufTy).Contents (Elt F)),
    StableHlo.nullary main_c_24 (constantI S_ 32 40000#32),
    StableHlo.unary main_c_24 main_v100 (broadcastInDim S120000 ![] bcast_S_S120000 : (⟨S_, .i32⟩ : BufTy).Contents (Elt F) → (⟨S120000, .i32⟩ : BufTy).Contents (Elt F)),
    StableHlo.binary main_arg3 main_v100 main_v101 (addi : (⟨S120000, .i32⟩ : BufTy).Contents (Elt F) → (⟨S120000, .i32⟩ : BufTy).Contents (Elt F) → (⟨S120000, .i32⟩ : BufTy).Contents (Elt F)),
    StableHlo.ternary main_v99 main_v101 main_arg3 main_v102 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F)),
    StableHlo.unary main_v102 main_v103 (broadcastInDim S120000x1 ![0] bcast_S120000_S120000x1_0 : (⟨S120000, .i32⟩ : BufTy).Contents (Elt F) → (⟨S120000x1, .i32⟩ : BufTy).Contents (Elt F)),
    StableHlo.binary main_v97 main_v103 main_v104 ((fun x i => Host.gather gather_S40000x320_S120000x1_S120000x320_1_0_n_n_0_1_1320 x i) : (⟨S40000x320, .f32⟩ : BufTy).Contents (Elt F) → (⟨S120000x1, .i32⟩ : BufTy).Contents (Elt F) → (⟨S120000x320, .f32⟩ : BufTy).Contents (Elt F)),
    StableHlo.nullary main_cst_25 (constant S_ .f32 0x00000000#32),
    StableHlo.unary main_cst_25 main_v105 (broadcastInDim S60000x320 ![] bcast_S_S60000x320 : (⟨S_, .f32⟩ : BufTy).Contents (Elt F) → (⟨S60000x320, .f32⟩ : BufTy).Contents (Elt F)),
    StableHlo.unary main_v2 main_v106 (broadcastInDim S120000x1 ![0] bcast_S120000_S120000x1_0 : (⟨S120000, .i32⟩ : BufTy).Contents (Elt F) → (⟨S120000x1, .i32⟩ : BufTy).Contents (Elt F)),
    StableHlo.ternary main_v105 main_v106 main_v104 main_v107 ((fun x i u => Host.scatterAdd scatter_S60000x320_S120000x1_S120000x320_1_0_0_1 x i u) : (⟨S60000x320, .f32⟩ : BufTy).Contents (Elt F) → (⟨S120000x1, .i32⟩ : BufTy).Contents (Elt F) → (⟨S120000x320, .f32⟩ : BufTy).Contents (Elt F) → (⟨S60000x320, .f32⟩ : BufTy).Contents (Elt F)),
    StableHlo.nullary main_c_26 (constantI S_ 32 0#32),
    StableHlo.unary main_c_26 main_v108 (broadcastInDim S120000 ![] bcast_S_S120000 : (⟨S_, .i32⟩ : BufTy).Contents (Elt F) → (⟨S120000, .i32⟩ : BufTy).Contents (Elt F)),
    StableHlo.binary main_v2 main_v108 main_v109 (cmpi .slt : (⟨S120000, .i32⟩ : BufTy).Contents (Elt F) → (⟨S120000, .i32⟩ : BufTy).Contents (Elt F) → (⟨S120000, .i1⟩ : BufTy).Contents (Elt F)),
    StableHlo.nullary main_c_27 (constantI S_ 32 60000#32),
    StableHlo.unary main_c_27 main_v110 (broadcastInDim S120000 ![] bcast_S_S120000 : (⟨S_, .i32⟩ : BufTy).Contents (Elt F) → (⟨S120000, .i32⟩ : BufTy).Contents (Elt F)),
    StableHlo.binary main_v2 main_v110 main_v111 (addi : (⟨S120000, .i32⟩ : BufTy).Contents (Elt F) → (⟨S120000, .i32⟩ : BufTy).Contents (Elt F) → (⟨S120000, .i32⟩ : BufTy).Contents (Elt F)),
    StableHlo.ternary main_v109 main_v111 main_v2 main_v112 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F)),
    StableHlo.unary main_v112 main_v113 (broadcastInDim S120000x1 ![0] bcast_S120000_S120000x1_0 : (⟨S120000, .i32⟩ : BufTy).Contents (Elt F) → (⟨S120000x1, .i32⟩ : BufTy).Contents (Elt F)),
    StableHlo.binary main_v107 main_v113 main_v114 ((fun x i => Host.gather gather_S60000x320_S120000x1_S120000x320_1_0_n_n_0_1_1320 x i) : (⟨S60000x320, .f32⟩ : BufTy).Contents (Elt F) → (⟨S120000x1, .i32⟩ : BufTy).Contents (Elt F) → (⟨S120000x320, .f32⟩ : BufTy).Contents (Elt F)),
    StableHlo.binary main_v104 main_v114 main_v115 ((fun a b => concatenate S120000x640 1 [⟨S120000x320, a⟩, ⟨S120000x320, b⟩] concatenates_S120000x320_S120000x320_S120000x640_d1) : (⟨S120000x320, .f32⟩ : BufTy).Contents (Elt F) → (⟨S120000x320, .f32⟩ : BufTy).Contents (Elt F) → (⟨S120000x640, .f32⟩ : BufTy).Contents (Elt F)),
    StableHlo.nullary main_cst_28 (constant S_ .f32 0x00000000#32),
    StableHlo.unary main_cst_28 main_v116 (broadcastInDim S40000x320 ![] bcast_S_S40000x320 : (⟨S_, .f32⟩ : BufTy).Contents (Elt F) → (⟨S40000x320, .f32⟩ : BufTy).Contents (Elt F)),
    StableHlo.unary main_arg5 main_v117 (broadcastInDim S150000x1 ![0] bcast_S150000_S150000x1_0 : (⟨S150000, .i32⟩ : BufTy).Contents (Elt F) → (⟨S150000x1, .i32⟩ : BufTy).Contents (Elt F)),
    StableHlo.ternary main_v116 main_v117 main_v94 main_v118 ((fun x i u => Host.scatterAdd scatter_S40000x320_S150000x1_S150000x320_1_0_0_1 x i u) : (⟨S40000x320, .f32⟩ : BufTy).Contents (Elt F) → (⟨S150000x1, .i32⟩ : BufTy).Contents (Elt F) → (⟨S150000x320, .f32⟩ : BufTy).Contents (Elt F) → (⟨S40000x320, .f32⟩ : BufTy).Contents (Elt F)),
    StableHlo.nullary main_c_29 (constantI S_ 32 0#32),
    StableHlo.unary main_c_29 main_v119 (broadcastInDim S120000 ![] bcast_S_S120000 : (⟨S_, .i32⟩ : BufTy).Contents (Elt F) → (⟨S120000, .i32⟩ : BufTy).Contents (Elt F)),
    StableHlo.binary main_arg3 main_v119 main_v120 (cmpi .slt : (⟨S120000, .i32⟩ : BufTy).Contents (Elt F) → (⟨S120000, .i32⟩ : BufTy).Contents (Elt F) → (⟨S120000, .i1⟩ : BufTy).Contents (Elt F)),
    StableHlo.nullary main_c_30 (constantI S_ 32 40000#32),
    StableHlo.unary main_c_30 main_v121 (broadcastInDim S120000 ![] bcast_S_S120000 : (⟨S_, .i32⟩ : BufTy).Contents (Elt F) → (⟨S120000, .i32⟩ : BufTy).Contents (Elt F)),
    StableHlo.binary main_arg3 main_v121 main_v122 (addi : (⟨S120000, .i32⟩ : BufTy).Contents (Elt F) → (⟨S120000, .i32⟩ : BufTy).Contents (Elt F) → (⟨S120000, .i32⟩ : BufTy).Contents (Elt F)),
    StableHlo.ternary main_v120 main_v122 main_arg3 main_v123 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F)),
    StableHlo.unary main_v123 main_v124 (broadcastInDim S120000x1 ![0] bcast_S120000_S120000x1_0 : (⟨S120000, .i32⟩ : BufTy).Contents (Elt F) → (⟨S120000x1, .i32⟩ : BufTy).Contents (Elt F)),
    StableHlo.binary main_v118 main_v124 main_v125 ((fun x i => Host.gather gather_S40000x320_S120000x1_S120000x320_1_0_n_n_0_1_1320 x i) : (⟨S40000x320, .f32⟩ : BufTy).Contents (Elt F) → (⟨S120000x1, .i32⟩ : BufTy).Contents (Elt F) → (⟨S120000x320, .f32⟩ : BufTy).Contents (Elt F)),
    StableHlo.nullary main_cst_31 (constant S_ .f32 0x00000000#32),
    StableHlo.unary main_cst_31 main_v126 (broadcastInDim S60000x320 ![] bcast_S_S60000x320 : (⟨S_, .f32⟩ : BufTy).Contents (Elt F) → (⟨S60000x320, .f32⟩ : BufTy).Contents (Elt F)),
    StableHlo.unary main_v2 main_v127 (broadcastInDim S120000x1 ![0] bcast_S120000_S120000x1_0 : (⟨S120000, .i32⟩ : BufTy).Contents (Elt F) → (⟨S120000x1, .i32⟩ : BufTy).Contents (Elt F)),
    StableHlo.ternary main_v126 main_v127 main_v125 main_v128 ((fun x i u => Host.scatterAdd scatter_S60000x320_S120000x1_S120000x320_1_0_0_1 x i u) : (⟨S60000x320, .f32⟩ : BufTy).Contents (Elt F) → (⟨S120000x1, .i32⟩ : BufTy).Contents (Elt F) → (⟨S120000x320, .f32⟩ : BufTy).Contents (Elt F) → (⟨S60000x320, .f32⟩ : BufTy).Contents (Elt F)),
    StableHlo.nullary main_c_32 (constantI S_ 32 0#32),
    StableHlo.unary main_c_32 main_v129 (broadcastInDim S120000 ![] bcast_S_S120000 : (⟨S_, .i32⟩ : BufTy).Contents (Elt F) → (⟨S120000, .i32⟩ : BufTy).Contents (Elt F)),
    StableHlo.binary main_v2 main_v129 main_v130 (cmpi .slt : (⟨S120000, .i32⟩ : BufTy).Contents (Elt F) → (⟨S120000, .i32⟩ : BufTy).Contents (Elt F) → (⟨S120000, .i1⟩ : BufTy).Contents (Elt F)),
    StableHlo.nullary main_c_33 (constantI S_ 32 60000#32),
    StableHlo.unary main_c_33 main_v131 (broadcastInDim S120000 ![] bcast_S_S120000 : (⟨S_, .i32⟩ : BufTy).Contents (Elt F) → (⟨S120000, .i32⟩ : BufTy).Contents (Elt F)),
    StableHlo.binary main_v2 main_v131 main_v132 (addi : (⟨S120000, .i32⟩ : BufTy).Contents (Elt F) → (⟨S120000, .i32⟩ : BufTy).Contents (Elt F) → (⟨S120000, .i32⟩ : BufTy).Contents (Elt F)),
    StableHlo.ternary main_v130 main_v132 main_v2 main_v133 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F)),
    StableHlo.unary main_v133 main_v134 (broadcastInDim S120000x1 ![0] bcast_S120000_S120000x1_0 : (⟨S120000, .i32⟩ : BufTy).Contents (Elt F) → (⟨S120000x1, .i32⟩ : BufTy).Contents (Elt F)),
    StableHlo.binary main_v128 main_v134 main_v135 ((fun x i => Host.gather gather_S60000x320_S120000x1_S120000x320_1_0_n_n_0_1_1320 x i) : (⟨S60000x320, .f32⟩ : BufTy).Contents (Elt F) → (⟨S120000x1, .i32⟩ : BufTy).Contents (Elt F) → (⟨S120000x320, .f32⟩ : BufTy).Contents (Elt F)),
    StableHlo.binary main_v125 main_v135 main_v136 ((fun a b => concatenate S120000x640 1 [⟨S120000x320, a⟩, ⟨S120000x320, b⟩] concatenates_S120000x320_S120000x320_S120000x640_d1) : (⟨S120000x320, .f32⟩ : BufTy).Contents (Elt F) → (⟨S120000x320, .f32⟩ : BufTy).Contents (Elt F) → (⟨S120000x640, .f32⟩ : BufTy).Contents (Elt F)),
    StableHlo.binary main_v115 main_v136 main_v137 (addf : (⟨S120000x640, .f32⟩ : BufTy).Contents (Elt F) → (⟨S120000x640, .f32⟩ : BufTy).Contents (Elt F) → (⟨S120000x640, .f32⟩ : BufTy).Contents (Elt F)),
    StableHlo.binary main_arg0 main_v137 main_v138 ((fun a b => concatenate S120000x704 1 [⟨S120000x64, a⟩, ⟨S120000x640, b⟩] concatenates_S120000x64_S120000x640_S120000x704_d1) : (⟨S120000x64, .f32⟩ : BufTy).Contents (Elt F) → (⟨S120000x640, .f32⟩ : BufTy).Contents (Elt F) → (⟨S120000x704, .f32⟩ : BufTy).Contents (Elt F)) ]

/-- The references these operations write, in order. -/
abbrev segG_W : List (Ref sig .tc) := [main_v0, main_v1, main_v2, main_v3, main_v4, main_v5, main_v6, main_v7, main_v8, main_cst, main_v9, main_v10, main_v11, main_c, main_v12, main_v13, main_c_0, main_v14, main_v15, main_v16, main_v17, main_v18, main_cst_1, main_v19, main_v20, main_v21, main_c_2, main_v22, main_v23, main_c_3, main_v24, main_v25, main_v26, main_v27, main_v28, main_v29, main_cst_4, main_v30, main_v31, main_v32, main_c_5, main_v33, main_v34, main_c_6, main_v35, main_v36, main_v37, main_v38, main_v39, main_cst_7, main_v40, main_v41, main_v42, main_c_8, main_v43, main_v44, main_c_9, main_v45, main_v46, main_v47, main_v48, main_v49, main_v50, main_cst_10, main_v51, main_v52, main_v53, main_c_11, main_v54, main_v55, main_c_12, main_v56, main_v57, main_v58, main_v59, main_v60, main_cst_13, main_v61, main_v62, main_v63, main_c_14, main_v64, main_v65, main_c_15, main_v66, main_v67, main_v68, main_v69, main_v70, main_v71, main_cst_16, main_v72, main_v73, main_v74, main_c_17, main_v75, main_v76, main_c_18, main_v77, main_v78, main_v79, main_v80, main_v81, main_cst_19, main_v82, main_v83, main_v84, main_c_20, main_v85, main_v86, main_c_21, main_v87, main_v88, main_v89, main_v90, main_v91, main_v92, main_v93, main_v94, main_cst_22, main_v95, main_v96, main_v97, main_c_23, main_v98, main_v99, main_c_24, main_v100, main_v101, main_v102, main_v103, main_v104, main_cst_25, main_v105, main_v106, main_v107, main_c_26, main_v108, main_v109, main_c_27, main_v110, main_v111, main_v112, main_v113, main_v114, main_v115, main_cst_28, main_v116, main_v117, main_v118, main_c_29, main_v119, main_v120, main_c_30, main_v121, main_v122, main_v123, main_v124, main_v125, main_cst_31, main_v126, main_v127, main_v128, main_c_32, main_v129, main_v130, main_c_33, main_v131, main_v132, main_v133, main_v134, main_v135, main_v136, main_v137, main_v138]

set_option maxRecDepth 8192 in
/-- Each operation writes exactly its result reference, which is in the list. -/
theorem segG_writes : (segG : List (HloOp τ sig (Elt F))).Forall fun op =>
    op.writes ⊆ (segG_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference these operations do not write keeps its contents through them. -/
theorem keepG (V : Valuation τ sig (Elt F)) (r : Ref sig .tc) (h : r ∉ segG_W) :
    after segG V (Proc.devRef .tc r) = V (Proc.devRef .tc r) :=
  after_of_writes_sub segG V segG_writes h

end Cert.ReferenceIdeal.RefValue

end
-- ==== Proof.RefValSegL1.lean ====
import proofs.«143519_j50869592655552_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations 176 … 223 of the reference's straight line (one layer of a perceptron: a matrix product, the batch statistics of its columns, the normalisation and the rectifier). -/
abbrev segL1 : List (HloOp τ sig (Elt F)) :=
  [ StableHlo.binary main_v138 main_arg6 main_v139 ((fun l r => Host.dotGeneral dot_S120000x704_S704x128_S120000x128_1_0_0_1_n_n none l r) : (⟨S120000x704, .f32⟩ : BufTy).Contents (Elt F) → (⟨S704x128, .f32⟩ : BufTy).Contents (Elt F) → (⟨S120000x128, .f32⟩ : BufTy).Contents (Elt F)),
    StableHlo.nullary main_cst_34 (constant S_ .f32 0x00000000#32),
    StableHlo.binary main_v139 main_cst_34 main_v140 ((fun x v => Host.reduceAdd x v reducesTo_S120000x128_S128_d0 h_S_) : (⟨S120000x128, .f32⟩ : BufTy).Contents (Elt F) → (⟨S_, .f32⟩ : BufTy).Contents (Elt F) → (⟨S128, .f32⟩ : BufTy).Contents (Elt F)),
    StableHlo.nullary main_cst_35 (constant S_ .f32 0x47EA6000#32),
    StableHlo.unary main_cst_35 main_v141 (broadcastInDim S128 ![] bcast_S_S128 : (⟨S_, .f32⟩ : BufTy).Contents (Elt F) → (⟨S128, .f32⟩ : BufTy).Contents (Elt F)),
    StableHlo.binary main_v140 main_v141 main_v142 (Host.divf : (⟨S128, .f32⟩ : BufTy).Contents (Elt F) → (⟨S128, .f32⟩ : BufTy).Contents (Elt F) → (⟨S128, .f32⟩ : BufTy).Contents (Elt F)),
    StableHlo.nullary main_c_36 (constantI S_ 32 0#32),
    StableHlo.TRef.nullary main_call0.cst (constant S_ .f32 0x00000000#32),
    StableHlo.TRef.binary (.of main_v139 : StableHlo.TRef sig ⟨S120000x128, .f32⟩) main_call0.cst main_call0.v0 (fun x v => Host.reduceAdd x v reducesTo_S120000x128_S128_d0 h_S_),
    StableHlo.TRef.unary main_call0.v0 main_call0.v1 (broadcastInDim S1x128 ![1] bcast_S128_S1x128_1),
    StableHlo.TRef.nullary main_call0.cst_0 (constant S_ .f32 0x47EA6000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S120000x128 ![0, 1] bcast_S1x128_S120000x128_0_1),
    StableHlo.TRef.binary (.of main_v139 : StableHlo.TRef sig ⟨S120000x128, .f32⟩) main_call0.v4 main_call0.v5 subf,
    StableHlo.TRef.binary main_call0.v5 main_call0.v5 main_call0.v6 mulf,
    StableHlo.TRef.unary (.of main_c_36 : StableHlo.TRef sig ⟨S_, .i32⟩) main_call0.v7 (sitofp .f32),
    StableHlo.TRef.nullary main_call0.cst_1 (constant S_ .f32 0x47EA6000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S120000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v142 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S120000x128 ![0, 1] bcast_S1x128_S120000x128_0_1 : (⟨S1x128, .f32⟩ : BufTy).Contents (Elt F) → (⟨S120000x128, .f32⟩ : BufTy).Contents (Elt F)),
    StableHlo.binary main_v139 main_v145 main_v146 (subf : (⟨S120000x128, .f32⟩ : BufTy).Contents (Elt F) → (⟨S120000x128, .f32⟩ : BufTy).Contents (Elt F) → (⟨S120000x128, .f32⟩ : BufTy).Contents (Elt F)),
    StableHlo.unary main_arg7 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S120000x128 ![0, 1] bcast_S1x128_S120000x128_0_1 : (⟨S1x128, .f32⟩ : BufTy).Contents (Elt F) → (⟨S120000x128, .f32⟩ : BufTy).Contents (Elt F)),
    StableHlo.binary main_v148 main_v146 main_v149 (mulf : (⟨S120000x128, .f32⟩ : BufTy).Contents (Elt F) → (⟨S120000x128, .f32⟩ : BufTy).Contents (Elt F) → (⟨S120000x128, .f32⟩ : BufTy).Contents (Elt F)),
    StableHlo.nullary main_cst_37 (constant S_ .f32 0x3727C5AC#32),
    StableHlo.unary main_cst_37 main_v150 (broadcastInDim S128 ![] bcast_S_S128 : (⟨S_, .f32⟩ : BufTy).Contents (Elt F) → (⟨S128, .f32⟩ : BufTy).Contents (Elt F)),
    StableHlo.binary main_v143 main_v150 main_v151 (addf : (⟨S128, .f32⟩ : BufTy).Contents (Elt F) → (⟨S128, .f32⟩ : BufTy).Contents (Elt F) → (⟨S128, .f32⟩ : BufTy).Contents (Elt F)),
    StableHlo.unary main_v151 main_v152 (Host.rsqrt : (⟨S128, .f32⟩ : BufTy).Contents (Elt F) → (⟨S128, .f32⟩ : BufTy).Contents (Elt F)),
    StableHlo.unary main_v152 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S120000x128 ![0, 1] bcast_S1x128_S120000x128_0_1 : (⟨S1x128, .f32⟩ : BufTy).Contents (Elt F) → (⟨S120000x128, .f32⟩ : BufTy).Contents (Elt F)),
    StableHlo.binary main_v149 main_v154 main_v155 (mulf : (⟨S120000x128, .f32⟩ : BufTy).Contents (Elt F) → (⟨S120000x128, .f32⟩ : BufTy).Contents (Elt F) → (⟨S120000x128, .f32⟩ : BufTy).Contents (Elt F)),
    StableHlo.unary main_arg8 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S120000x128 ![0, 1] bcast_S1x128_S120000x128_0_1 : (⟨S1x128, .f32⟩ : BufTy).Contents (Elt F) → (⟨S120000x128, .f32⟩ : BufTy).Contents (Elt F)),
    StableHlo.binary main_v155 main_v157 main_v158 (addf : (⟨S120000x128, .f32⟩ : BufTy).Contents (Elt F) → (⟨S120000x128, .f32⟩ : BufTy).Contents (Elt F) → (⟨S120000x128, .f32⟩ : BufTy).Contents (Elt F)),
    StableHlo.TRef.nullary main_call1.cst (constant S_ .f32 0x00000000#32),
    StableHlo.TRef.unary main_call1.cst main_call1.v0 (broadcastInDim S120000x128 ![] bcast_S_S120000x128),
    StableHlo.TRef.binary (.of main_v158 : StableHlo.TRef sig ⟨S120000x128, .f32⟩) main_call1.v0 main_call1.v1 maximumf ]

/-- The references these operations write, in order. -/
abbrev segL1_W : List (Ref sig .tc) := [main_v139, main_cst_34, main_v140, main_cst_35, main_v141, main_v142, main_c_36, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v144, main_v145, main_v146, main_v147, main_v148, main_v149, main_cst_37, main_v150, main_v151, main_v152, main_v153, main_v154, main_v155, main_v156, main_v157, main_v158, main_call1.cst.ref, main_call1.v0.ref, main_call1.v1.ref]

set_option maxRecDepth 8192 in
/-- Each operation writes exactly its result reference, which is in the list. -/
theorem segL1_writes : (segL1 : List (HloOp τ sig (Elt F))).Forall fun op =>
    op.writes ⊆ (segL1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference these operations do not write keeps its contents through them. -/
theorem keepL1 (V : Valuation τ sig (Elt F)) (r : Ref sig .tc) (h : r ∉ segL1_W) :
    after segL1 V (Proc.devRef .tc r) = V (Proc.devRef .tc r) :=
  after_of_writes_sub segL1 V segL1_writes h

end Cert.ReferenceIdeal.RefValue

end
-- ==== Proof.RefValSegL2.lean ====
import proofs.«143519_j50869592655552_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations 224 … 271 of the reference's straight line (one layer of a perceptron: a matrix product, the batch statistics of its columns, the normalisation and the rectifier). -/
abbrev segL2 : List (HloOp τ sig (Elt F)) :=
  [ StableHlo.binary main_v159 main_arg9 main_v160 ((fun l r => Host.dotGeneral dot_S120000x128_S128x64_S120000x64_1_0_0_1_n_n none l r) : (⟨S120000x128, .f32⟩ : BufTy).Contents (Elt F) → (⟨S128x64, .f32⟩ : BufTy).Contents (Elt F) → (⟨S120000x64, .f32⟩ : BufTy).Contents (Elt F)),
    StableHlo.nullary main_cst_38 (constant S_ .f32 0x00000000#32),
    StableHlo.binary main_v160 main_cst_38 main_v161 ((fun x v => Host.reduceAdd x v reducesTo_S120000x64_S64_d0 h_S_) : (⟨S120000x64, .f32⟩ : BufTy).Contents (Elt F) → (⟨S_, .f32⟩ : BufTy).Contents (Elt F) → (⟨S64, .f32⟩ : BufTy).Contents (Elt F)),
    StableHlo.nullary main_cst_39 (constant S_ .f32 0x47EA6000#32),
    StableHlo.unary main_cst_39 main_v162 (broadcastInDim S64 ![] bcast_S_S64 : (⟨S_, .f32⟩ : BufTy).Contents (Elt F) → (⟨S64, .f32⟩ : BufTy).Contents (Elt F)),
    StableHlo.binary main_v161 main_v162 main_v163 (Host.divf : (⟨S64, .f32⟩ : BufTy).Contents (Elt F) → (⟨S64, .f32⟩ : BufTy).Contents (Elt F) → (⟨S64, .f32⟩ : BufTy).Contents (Elt F)),
    StableHlo.nullary main_c_40 (constantI S_ 32 0#32),
    StableHlo.TRef.nullary main_call2.cst (constant S_ .f32 0x00000000#32),
    StableHlo.TRef.binary (.of main_v160 : StableHlo.TRef sig ⟨S120000x64, .f32⟩) main_call2.cst main_call2.v0 (fun x v => Host.reduceAdd x v reducesTo_S120000x64_S64_d0 h_S_),
    StableHlo.TRef.unary main_call2.v0 main_call2.v1 (broadcastInDim S1x64 ![1] bcast_S64_S1x64_1),
    StableHlo.TRef.nullary main_call2.cst_0 (constant S_ .f32 0x47EA6000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S120000x64 ![0, 1] bcast_S1x64_S120000x64_0_1),
    StableHlo.TRef.binary (.of main_v160 : StableHlo.TRef sig ⟨S120000x64, .f32⟩) main_call2.v4 main_call2.v5 subf,
    StableHlo.TRef.binary main_call2.v5 main_call2.v5 main_call2.v6 mulf,
    StableHlo.TRef.unary (.of main_c_40 : StableHlo.TRef sig ⟨S_, .i32⟩) main_call2.v7 (sitofp .f32),
    StableHlo.TRef.nullary main_call2.cst_1 (constant S_ .f32 0x47EA6000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S120000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v163 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S120000x64 ![0, 1] bcast_S1x64_S120000x64_0_1 : (⟨S1x64, .f32⟩ : BufTy).Contents (Elt F) → (⟨S120000x64, .f32⟩ : BufTy).Contents (Elt F)),
    StableHlo.binary main_v160 main_v166 main_v167 (subf : (⟨S120000x64, .f32⟩ : BufTy).Contents (Elt F) → (⟨S120000x64, .f32⟩ : BufTy).Contents (Elt F) → (⟨S120000x64, .f32⟩ : BufTy).Contents (Elt F)),
    StableHlo.unary main_arg10 main_v168 (broadcastInDim S1x64 ![1] bcast_S64_S1x64_1 : (⟨S64, .f32⟩ : BufTy).Contents (Elt F) → (⟨S1x64, .f32⟩ : BufTy).Contents (Elt F)),
    StableHlo.unary main_v168 main_v169 (broadcastInDim S120000x64 ![0, 1] bcast_S1x64_S120000x64_0_1 : (⟨S1x64, .f32⟩ : BufTy).Contents (Elt F) → (⟨S120000x64, .f32⟩ : BufTy).Contents (Elt F)),
    StableHlo.binary main_v169 main_v167 main_v170 (mulf : (⟨S120000x64, .f32⟩ : BufTy).Contents (Elt F) → (⟨S120000x64, .f32⟩ : BufTy).Contents (Elt F) → (⟨S120000x64, .f32⟩ : BufTy).Contents (Elt F)),
    StableHlo.nullary main_cst_41 (constant S_ .f32 0x3727C5AC#32),
    StableHlo.unary main_cst_41 main_v171 (broadcastInDim S64 ![] bcast_S_S64 : (⟨S_, .f32⟩ : BufTy).Contents (Elt F) → (⟨S64, .f32⟩ : BufTy).Contents (Elt F)),
    StableHlo.binary main_v164 main_v171 main_v172 (addf : (⟨S64, .f32⟩ : BufTy).Contents (Elt F) → (⟨S64, .f32⟩ : BufTy).Contents (Elt F) → (⟨S64, .f32⟩ : BufTy).Contents (Elt F)),
    StableHlo.unary main_v172 main_v173 (Host.rsqrt : (⟨S64, .f32⟩ : BufTy).Contents (Elt F) → (⟨S64, .f32⟩ : BufTy).Contents (Elt F)),
    StableHlo.unary main_v173 main_v174 (broadcastInDim S1x64 ![1] bcast_S64_S1x64_1 : (⟨S64, .f32⟩ : BufTy).Contents (Elt F) → (⟨S1x64, .f32⟩ : BufTy).Contents (Elt F)),
    StableHlo.unary main_v174 main_v175 (broadcastInDim S120000x64 ![0, 1] bcast_S1x64_S120000x64_0_1 : (⟨S1x64, .f32⟩ : BufTy).Contents (Elt F) → (⟨S120000x64, .f32⟩ : BufTy).Contents (Elt F)),
    StableHlo.binary main_v170 main_v175 main_v176 (mulf : (⟨S120000x64, .f32⟩ : BufTy).Contents (Elt F) → (⟨S120000x64, .f32⟩ : BufTy).Contents (Elt F) → (⟨S120000x64, .f32⟩ : BufTy).Contents (Elt F)),
    StableHlo.unary main_arg11 main_v177 (broadcastInDim S1x64 ![1] bcast_S64_S1x64_1 : (⟨S64, .f32⟩ : BufTy).Contents (Elt F) → (⟨S1x64, .f32⟩ : BufTy).Contents (Elt F)),
    StableHlo.unary main_v177 main_v178 (broadcastInDim S120000x64 ![0, 1] bcast_S1x64_S120000x64_0_1 : (⟨S1x64, .f32⟩ : BufTy).Contents (Elt F) → (⟨S120000x64, .f32⟩ : BufTy).Contents (Elt F)),
    StableHlo.binary main_v176 main_v178 main_v179 (addf : (⟨S120000x64, .f32⟩ : BufTy).Contents (Elt F) → (⟨S120000x64, .f32⟩ : BufTy).Contents (Elt F) → (⟨S120000x64, .f32⟩ : BufTy).Contents (Elt F)),
    StableHlo.TRef.nullary main_call3.cst (constant S_ .f32 0x00000000#32),
    StableHlo.TRef.unary main_call3.cst main_call3.v0 (broadcastInDim S120000x64 ![] bcast_S_S120000x64),
    StableHlo.TRef.binary (.of main_v179 : StableHlo.TRef sig ⟨S120000x64, .f32⟩) main_call3.v0 main_call3.v1 maximumf ]

/-- The references these operations write, in order. -/
abbrev segL2_W : List (Ref sig .tc) := [main_v160, main_cst_38, main_v161, main_cst_39, main_v162, main_v163, main_c_40, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v165, main_v166, main_v167, main_v168, main_v169, main_v170, main_cst_41, main_v171, main_v172, main_v173, main_v174, main_v175, main_v176, main_v177, main_v178, main_v179, main_call3.cst.ref, main_call3.v0.ref, main_call3.v1.ref]

set_option maxRecDepth 8192 in
/-- Each operation writes exactly its result reference, which is in the list. -/
theorem segL2_writes : (segL2 : List (HloOp τ sig (Elt F))).Forall fun op =>
    op.writes ⊆ (segL2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference these operations do not write keeps its contents through them. -/
theorem keepL2 (V : Valuation τ sig (Elt F)) (r : Ref sig .tc) (h : r ∉ segL2_W) :
    after segL2 V (Proc.devRef .tc r) = V (Proc.devRef .tc r) :=
  after_of_writes_sub segL2 V segL2_writes h

end Cert.ReferenceIdeal.RefValue

end
-- ==== Proof.RefValSegL3.lean ====
import proofs.«143519_j50869592655552_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations 272 … 319 of the reference's straight line (one layer of a perceptron: a matrix product, the batch statistics of its columns, the normalisation and the rectifier). -/
abbrev segL3 : List (HloOp τ sig (Elt F)) :=
  [ StableHlo.binary main_v93 main_arg12 main_v181 ((fun l r => Host.dotGeneral dot_S150000x320_S320x128_S150000x128_1_0_0_1_n_n none l r) : (⟨S150000x320, .f32⟩ : BufTy).Contents (Elt F) → (⟨S320x128, .f32⟩ : BufTy).Contents (Elt F) → (⟨S150000x128, .f32⟩ : BufTy).Contents (Elt F)),
    StableHlo.nullary main_cst_42 (constant S_ .f32 0x00000000#32),
    StableHlo.binary main_v181 main_cst_42 main_v182 ((fun x v => Host.reduceAdd x v reducesTo_S150000x128_S128_d0 h_S_) : (⟨S150000x128, .f32⟩ : BufTy).Contents (Elt F) → (⟨S_, .f32⟩ : BufTy).Contents (Elt F) → (⟨S128, .f32⟩ : BufTy).Contents (Elt F)),
    StableHlo.nullary main_cst_43 (constant S_ .f32 0x48127C00#32),
    StableHlo.unary main_cst_43 main_v183 (broadcastInDim S128 ![] bcast_S_S128 : (⟨S_, .f32⟩ : BufTy).Contents (Elt F) → (⟨S128, .f32⟩ : BufTy).Contents (Elt F)),
    StableHlo.binary main_v182 main_v183 main_v184 (Host.divf : (⟨S128, .f32⟩ : BufTy).Contents (Elt F) → (⟨S128, .f32⟩ : BufTy).Contents (Elt F) → (⟨S128, .f32⟩ : BufTy).Contents (Elt F)),
    StableHlo.nullary main_c_44 (constantI S_ 32 0#32),
    StableHlo.TRef.nullary main_call4.cst (constant S_ .f32 0x00000000#32),
    StableHlo.TRef.binary (.of main_v181 : StableHlo.TRef sig ⟨S150000x128, .f32⟩) main_call4.cst main_call4.v0 (fun x v => Host.reduceAdd x v reducesTo_S150000x128_S128_d0 h_S_),
    StableHlo.TRef.unary main_call4.v0 main_call4.v1 (broadcastInDim S1x128 ![1] bcast_S128_S1x128_1),
    StableHlo.TRef.nullary main_call4.cst_0 (constant S_ .f32 0x48127C00#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S150000x128 ![0, 1] bcast_S1x128_S150000x128_0_1),
    StableHlo.TRef.binary (.of main_v181 : StableHlo.TRef sig ⟨S150000x128, .f32⟩) main_call4.v4 main_call4.v5 subf,
    StableHlo.TRef.binary main_call4.v5 main_call4.v5 main_call4.v6 mulf,
    StableHlo.TRef.unary (.of main_c_44 : StableHlo.TRef sig ⟨S_, .i32⟩) main_call4.v7 (sitofp .f32),
    StableHlo.TRef.nullary main_call4.cst_1 (constant S_ .f32 0x48127C00#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S150000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v184 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S150000x128 ![0, 1] bcast_S1x128_S150000x128_0_1 : (⟨S1x128, .f32⟩ : BufTy).Contents (Elt F) → (⟨S150000x128, .f32⟩ : BufTy).Contents (Elt F)),
    StableHlo.binary main_v181 main_v187 main_v188 (subf : (⟨S150000x128, .f32⟩ : BufTy).Contents (Elt F) → (⟨S150000x128, .f32⟩ : BufTy).Contents (Elt F) → (⟨S150000x128, .f32⟩ : BufTy).Contents (Elt F)),
    StableHlo.unary main_arg13 main_v189 (broadcastInDim S1x128 ![1] bcast_S128_S1x128_1 : (⟨S128, .f32⟩ : BufTy).Contents (Elt F) → (⟨S1x128, .f32⟩ : BufTy).Contents (Elt F)),
    StableHlo.unary main_v189 main_v190 (broadcastInDim S150000x128 ![0, 1] bcast_S1x128_S150000x128_0_1 : (⟨S1x128, .f32⟩ : BufTy).Contents (Elt F) → (⟨S150000x128, .f32⟩ : BufTy).Contents (Elt F)),
    StableHlo.binary main_v190 main_v188 main_v191 (mulf : (⟨S150000x128, .f32⟩ : BufTy).Contents (Elt F) → (⟨S150000x128, .f32⟩ : BufTy).Contents (Elt F) → (⟨S150000x128, .f32⟩ : BufTy).Contents (Elt F)),
    StableHlo.nullary main_cst_45 (constant S_ .f32 0x3727C5AC#32),
    StableHlo.unary main_cst_45 main_v192 (broadcastInDim S128 ![] bcast_S_S128 : (⟨S_, .f32⟩ : BufTy).Contents (Elt F) → (⟨S128, .f32⟩ : BufTy).Contents (Elt F)),
    StableHlo.binary main_v185 main_v192 main_v193 (addf : (⟨S128, .f32⟩ : BufTy).Contents (Elt F) → (⟨S128, .f32⟩ : BufTy).Contents (Elt F) → (⟨S128, .f32⟩ : BufTy).Contents (Elt F)),
    StableHlo.unary main_v193 main_v194 (Host.rsqrt : (⟨S128, .f32⟩ : BufTy).Contents (Elt F) → (⟨S128, .f32⟩ : BufTy).Contents (Elt F)),
    StableHlo.unary main_v194 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S150000x128 ![0, 1] bcast_S1x128_S150000x128_0_1 : (⟨S1x128, .f32⟩ : BufTy).Contents (Elt F) → (⟨S150000x128, .f32⟩ : BufTy).Contents (Elt F)),
    StableHlo.binary main_v191 main_v196 main_v197 (mulf : (⟨S150000x128, .f32⟩ : BufTy).Contents (Elt F) → (⟨S150000x128, .f32⟩ : BufTy).Contents (Elt F) → (⟨S150000x128, .f32⟩ : BufTy).Contents (Elt F)),
    StableHlo.unary main_arg14 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S150000x128 ![0, 1] bcast_S1x128_S150000x128_0_1 : (⟨S1x128, .f32⟩ : BufTy).Contents (Elt F) → (⟨S150000x128, .f32⟩ : BufTy).Contents (Elt F)),
    StableHlo.binary main_v197 main_v199 main_v200 (addf : (⟨S150000x128, .f32⟩ : BufTy).Contents (Elt F) → (⟨S150000x128, .f32⟩ : BufTy).Contents (Elt F) → (⟨S150000x128, .f32⟩ : BufTy).Contents (Elt F)),
    StableHlo.TRef.nullary main_call5.cst (constant S_ .f32 0x00000000#32),
    StableHlo.TRef.unary main_call5.cst main_call5.v0 (broadcastInDim S150000x128 ![] bcast_S_S150000x128),
    StableHlo.TRef.binary (.of main_v200 : StableHlo.TRef sig ⟨S150000x128, .f32⟩) main_call5.v0 main_call5.v1 maximumf ]

/-- The references these operations write, in order. -/
abbrev segL3_W : List (Ref sig .tc) := [main_v181, main_cst_42, main_v182, main_cst_43, main_v183, main_v184, main_c_44, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v186, main_v187, main_v188, main_v189, main_v190, main_v191, main_cst_45, main_v192, main_v193, main_v194, main_v195, main_v196, main_v197, main_v198, main_v199, main_v200, main_call5.cst.ref, main_call5.v0.ref, main_call5.v1.ref]

set_option maxRecDepth 8192 in
/-- Each operation writes exactly its result reference, which is in the list. -/
theorem segL3_writes : (segL3 : List (HloOp τ sig (Elt F))).Forall fun op =>
    op.writes ⊆ (segL3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference these operations do not write keeps its contents through them. -/
theorem keepL3 (V : Valuation τ sig (Elt F)) (r : Ref sig .tc) (h : r ∉ segL3_W) :
    after segL3 V (Proc.devRef .tc r) = V (Proc.devRef .tc r) :=
  after_of_writes_sub segL3 V segL3_writes h

end Cert.ReferenceIdeal.RefValue

end
-- ==== Proof.RefValSegL4.lean ====
import proofs.«143519_j50869592655552_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations 320 … 367 of the reference's straight line (one layer of a perceptron: a matrix product, the batch statistics of its columns, the normalisation and the rectifier). -/
abbrev segL4 : List (HloOp τ sig (Elt F)) :=
  [ StableHlo.binary main_v201 main_arg15 main_v202 ((fun l r => Host.dotGeneral dot_S150000x128_S128x64_S150000x64_1_0_0_1_n_n none l r) : (⟨S150000x128, .f32⟩ : BufTy).Contents (Elt F) → (⟨S128x64, .f32⟩ : BufTy).Contents (Elt F) → (⟨S150000x64, .f32⟩ : BufTy).Contents (Elt F)),
    StableHlo.nullary main_cst_46 (constant S_ .f32 0x00000000#32),
    StableHlo.binary main_v202 main_cst_46 main_v203 ((fun x v => Host.reduceAdd x v reducesTo_S150000x64_S64_d0 h_S_) : (⟨S150000x64, .f32⟩ : BufTy).Contents (Elt F) → (⟨S_, .f32⟩ : BufTy).Contents (Elt F) → (⟨S64, .f32⟩ : BufTy).Contents (Elt F)),
    StableHlo.nullary main_cst_47 (constant S_ .f32 0x48127C00#32),
    StableHlo.unary main_cst_47 main_v204 (broadcastInDim S64 ![] bcast_S_S64 : (⟨S_, .f32⟩ : BufTy).Contents (Elt F) → (⟨S64, .f32⟩ : BufTy).Contents (Elt F)),
    StableHlo.binary main_v203 main_v204 main_v205 (Host.divf : (⟨S64, .f32⟩ : BufTy).Contents (Elt F) → (⟨S64, .f32⟩ : BufTy).Contents (Elt F) → (⟨S64, .f32⟩ : BufTy).Contents (Elt F)),
    StableHlo.nullary main_c_48 (constantI S_ 32 0#32),
    StableHlo.TRef.nullary main_call6.cst (constant S_ .f32 0x00000000#32),
    StableHlo.TRef.binary (.of main_v202 : StableHlo.TRef sig ⟨S150000x64, .f32⟩) main_call6.cst main_call6.v0 (fun x v => Host.reduceAdd x v reducesTo_S150000x64_S64_d0 h_S_),
    StableHlo.TRef.unary main_call6.v0 main_call6.v1 (broadcastInDim S1x64 ![1] bcast_S64_S1x64_1),
    StableHlo.TRef.nullary main_call6.cst_0 (constant S_ .f32 0x48127C00#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S150000x64 ![0, 1] bcast_S1x64_S150000x64_0_1),
    StableHlo.TRef.binary (.of main_v202 : StableHlo.TRef sig ⟨S150000x64, .f32⟩) main_call6.v4 main_call6.v5 subf,
    StableHlo.TRef.binary main_call6.v5 main_call6.v5 main_call6.v6 mulf,
    StableHlo.TRef.unary (.of main_c_48 : StableHlo.TRef sig ⟨S_, .i32⟩) main_call6.v7 (sitofp .f32),
    StableHlo.TRef.nullary main_call6.cst_1 (constant S_ .f32 0x48127C00#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S150000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v205 main_v207 (broadcastInDim S1x64 ![1] bcast_S64_S1x64_1 : (⟨S64, .f32⟩ : BufTy).Contents (Elt F) → (⟨S1x64, .f32⟩ : BufTy).Contents (Elt F)),
    StableHlo.unary main_v207 main_v208 (broadcastInDim S150000x64 ![0, 1] bcast_S1x64_S150000x64_0_1 : (⟨S1x64, .f32⟩ : BufTy).Contents (Elt F) → (⟨S150000x64, .f32⟩ : BufTy).Contents (Elt F)),
    StableHlo.binary main_v202 main_v208 main_v209 (subf : (⟨S150000x64, .f32⟩ : BufTy).Contents (Elt F) → (⟨S150000x64, .f32⟩ : BufTy).Contents (Elt F) → (⟨S150000x64, .f32⟩ : BufTy).Contents (Elt F)),
    StableHlo.unary main_arg16 main_v210 (broadcastInDim S1x64 ![1] bcast_S64_S1x64_1 : (⟨S64, .f32⟩ : BufTy).Contents (Elt F) → (⟨S1x64, .f32⟩ : BufTy).Contents (Elt F)),
    StableHlo.unary main_v210 main_v211 (broadcastInDim S150000x64 ![0, 1] bcast_S1x64_S150000x64_0_1 : (⟨S1x64, .f32⟩ : BufTy).Contents (Elt F) → (⟨S150000x64, .f32⟩ : BufTy).Contents (Elt F)),
    StableHlo.binary main_v211 main_v209 main_v212 (mulf : (⟨S150000x64, .f32⟩ : BufTy).Contents (Elt F) → (⟨S150000x64, .f32⟩ : BufTy).Contents (Elt F) → (⟨S150000x64, .f32⟩ : BufTy).Contents (Elt F)),
    StableHlo.nullary main_cst_49 (constant S_ .f32 0x3727C5AC#32),
    StableHlo.unary main_cst_49 main_v213 (broadcastInDim S64 ![] bcast_S_S64 : (⟨S_, .f32⟩ : BufTy).Contents (Elt F) → (⟨S64, .f32⟩ : BufTy).Contents (Elt F)),
    StableHlo.binary main_v206 main_v213 main_v214 (addf : (⟨S64, .f32⟩ : BufTy).Contents (Elt F) → (⟨S64, .f32⟩ : BufTy).Contents (Elt F) → (⟨S64, .f32⟩ : BufTy).Contents (Elt F)),
    StableHlo.unary main_v214 main_v215 (Host.rsqrt : (⟨S64, .f32⟩ : BufTy).Contents (Elt F) → (⟨S64, .f32⟩ : BufTy).Contents (Elt F)),
    StableHlo.unary main_v215 main_v216 (broadcastInDim S1x64 ![1] bcast_S64_S1x64_1 : (⟨S64, .f32⟩ : BufTy).Contents (Elt F) → (⟨S1x64, .f32⟩ : BufTy).Contents (Elt F)),
    StableHlo.unary main_v216 main_v217 (broadcastInDim S150000x64 ![0, 1] bcast_S1x64_S150000x64_0_1 : (⟨S1x64, .f32⟩ : BufTy).Contents (Elt F) → (⟨S150000x64, .f32⟩ : BufTy).Contents (Elt F)),
    StableHlo.binary main_v212 main_v217 main_v218 (mulf : (⟨S150000x64, .f32⟩ : BufTy).Contents (Elt F) → (⟨S150000x64, .f32⟩ : BufTy).Contents (Elt F) → (⟨S150000x64, .f32⟩ : BufTy).Contents (Elt F)),
    StableHlo.unary main_arg17 main_v219 (broadcastInDim S1x64 ![1] bcast_S64_S1x64_1 : (⟨S64, .f32⟩ : BufTy).Contents (Elt F) → (⟨S1x64, .f32⟩ : BufTy).Contents (Elt F)),
    StableHlo.unary main_v219 main_v220 (broadcastInDim S150000x64 ![0, 1] bcast_S1x64_S150000x64_0_1 : (⟨S1x64, .f32⟩ : BufTy).Contents (Elt F) → (⟨S150000x64, .f32⟩ : BufTy).Contents (Elt F)),
    StableHlo.binary main_v218 main_v220 main_v221 (addf : (⟨S150000x64, .f32⟩ : BufTy).Contents (Elt F) → (⟨S150000x64, .f32⟩ : BufTy).Contents (Elt F) → (⟨S150000x64, .f32⟩ : BufTy).Contents (Elt F)),
    StableHlo.TRef.nullary main_call7.cst (constant S_ .f32 0x00000000#32),
    StableHlo.TRef.unary main_call7.cst main_call7.v0 (broadcastInDim S150000x64 ![] bcast_S_S150000x64),
    StableHlo.TRef.binary (.of main_v221 : StableHlo.TRef sig ⟨S150000x64, .f32⟩) main_call7.v0 main_call7.v1 maximumf ]

/-- The references these operations write, in order. -/
abbrev segL4_W : List (Ref sig .tc) := [main_v202, main_cst_46, main_v203, main_cst_47, main_v204, main_v205, main_c_48, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v207, main_v208, main_v209, main_v210, main_v211, main_v212, main_cst_49, main_v213, main_v214, main_v215, main_v216, main_v217, main_v218, main_v219, main_v220, main_v221, main_call7.cst.ref, main_call7.v0.ref, main_call7.v1.ref]

set_option maxRecDepth 8192 in
/-- Each operation writes exactly its result reference, which is in the list. -/
theorem segL4_writes : (segL4 : List (HloOp τ sig (Elt F))).Forall fun op =>
    op.writes ⊆ (segL4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference these operations do not write keeps its contents through them. -/
theorem keepL4 (V : Valuation τ sig (Elt F)) (r : Ref sig .tc) (h : r ∉ segL4_W) :
    after segL4 V (Proc.devRef .tc r) = V (Proc.devRef .tc r) :=
  after_of_writes_sub segL4 V segL4_writes h

end Cert.ReferenceIdeal.RefValue

end
-- ==== Proof.RefValSegL5.lean ====
import proofs.«143519_j50869592655552_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations 368 … 415 of the reference's straight line (one layer of a perceptron: a matrix product, the batch statistics of its columns, the normalisation and the rectifier). -/
abbrev segL5 : List (HloOp τ sig (Elt F)) :=
  [ StableHlo.binary main_v94 main_arg12 main_v223 ((fun l r => Host.dotGeneral dot_S150000x320_S320x128_S150000x128_1_0_0_1_n_n none l r) : (⟨S150000x320, .f32⟩ : BufTy).Contents (Elt F) → (⟨S320x128, .f32⟩ : BufTy).Contents (Elt F) → (⟨S150000x128, .f32⟩ : BufTy).Contents (Elt F)),
    StableHlo.nullary main_cst_50 (constant S_ .f32 0x00000000#32),
    StableHlo.binary main_v223 main_cst_50 main_v224 ((fun x v => Host.reduceAdd x v reducesTo_S150000x128_S128_d0 h_S_) : (⟨S150000x128, .f32⟩ : BufTy).Contents (Elt F) → (⟨S_, .f32⟩ : BufTy).Contents (Elt F) → (⟨S128, .f32⟩ : BufTy).Contents (Elt F)),
    StableHlo.nullary main_cst_51 (constant S_ .f32 0x48127C00#32),
    StableHlo.unary main_cst_51 main_v225 (broadcastInDim S128 ![] bcast_S_S128 : (⟨S_, .f32⟩ : BufTy).Contents (Elt F) → (⟨S128, .f32⟩ : BufTy).Contents (Elt F)),
    StableHlo.binary main_v224 main_v225 main_v226 (Host.divf : (⟨S128, .f32⟩ : BufTy).Contents (Elt F) → (⟨S128, .f32⟩ : BufTy).Contents (Elt F) → (⟨S128, .f32⟩ : BufTy).Contents (Elt F)),
    StableHlo.nullary main_c_52 (constantI S_ 32 0#32),
    StableHlo.TRef.nullary main_call8.cst (constant S_ .f32 0x00000000#32),
    StableHlo.TRef.binary (.of main_v223 : StableHlo.TRef sig ⟨S150000x128, .f32⟩) main_call8.cst main_call8.v0 (fun x v => Host.reduceAdd x v reducesTo_S150000x128_S128_d0 h_S_),
    StableHlo.TRef.unary main_call8.v0 main_call8.v1 (broadcastInDim S1x128 ![1] bcast_S128_S1x128_1),
    StableHlo.TRef.nullary main_call8.cst_0 (constant S_ .f32 0x48127C00#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S150000x128 ![0, 1] bcast_S1x128_S150000x128_0_1),
    StableHlo.TRef.binary (.of main_v223 : StableHlo.TRef sig ⟨S150000x128, .f32⟩) main_call8.v4 main_call8.v5 subf,
    StableHlo.TRef.binary main_call8.v5 main_call8.v5 main_call8.v6 mulf,
    StableHlo.TRef.unary (.of main_c_52 : StableHlo.TRef sig ⟨S_, .i32⟩) main_call8.v7 (sitofp .f32),
    StableHlo.TRef.nullary main_call8.cst_1 (constant S_ .f32 0x48127C00#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S150000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v226 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S150000x128 ![0, 1] bcast_S1x128_S150000x128_0_1 : (⟨S1x128, .f32⟩ : BufTy).Contents (Elt F) → (⟨S150000x128, .f32⟩ : BufTy).Contents (Elt F)),
    StableHlo.binary main_v223 main_v229 main_v230 (subf : (⟨S150000x128, .f32⟩ : BufTy).Contents (Elt F) → (⟨S150000x128, .f32⟩ : BufTy).Contents (Elt F) → (⟨S150000x128, .f32⟩ : BufTy).Contents (Elt F)),
    StableHlo.unary main_arg13 main_v231 (broadcastInDim S1x128 ![1] bcast_S128_S1x128_1 : (⟨S128, .f32⟩ : BufTy).Contents (Elt F) → (⟨S1x128, .f32⟩ : BufTy).Contents (Elt F)),
    StableHlo.unary main_v231 main_v232 (broadcastInDim S150000x128 ![0, 1] bcast_S1x128_S150000x128_0_1 : (⟨S1x128, .f32⟩ : BufTy).Contents (Elt F) → (⟨S150000x128, .f32⟩ : BufTy).Contents (Elt F)),
    StableHlo.binary main_v232 main_v230 main_v233 (mulf : (⟨S150000x128, .f32⟩ : BufTy).Contents (Elt F) → (⟨S150000x128, .f32⟩ : BufTy).Contents (Elt F) → (⟨S150000x128, .f32⟩ : BufTy).Contents (Elt F)),
    StableHlo.nullary main_cst_53 (constant S_ .f32 0x3727C5AC#32),
    StableHlo.unary main_cst_53 main_v234 (broadcastInDim S128 ![] bcast_S_S128 : (⟨S_, .f32⟩ : BufTy).Contents (Elt F) → (⟨S128, .f32⟩ : BufTy).Contents (Elt F)),
    StableHlo.binary main_v227 main_v234 main_v235 (addf : (⟨S128, .f32⟩ : BufTy).Contents (Elt F) → (⟨S128, .f32⟩ : BufTy).Contents (Elt F) → (⟨S128, .f32⟩ : BufTy).Contents (Elt F)),
    StableHlo.unary main_v235 main_v236 (Host.rsqrt : (⟨S128, .f32⟩ : BufTy).Contents (Elt F) → (⟨S128, .f32⟩ : BufTy).Contents (Elt F)),
    StableHlo.unary main_v236 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S150000x128 ![0, 1] bcast_S1x128_S150000x128_0_1 : (⟨S1x128, .f32⟩ : BufTy).Contents (Elt F) → (⟨S150000x128, .f32⟩ : BufTy).Contents (Elt F)),
    StableHlo.binary main_v233 main_v238 main_v239 (mulf : (⟨S150000x128, .f32⟩ : BufTy).Contents (Elt F) → (⟨S150000x128, .f32⟩ : BufTy).Contents (Elt F) → (⟨S150000x128, .f32⟩ : BufTy).Contents (Elt F)),
    StableHlo.unary main_arg14 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S150000x128 ![0, 1] bcast_S1x128_S150000x128_0_1 : (⟨S1x128, .f32⟩ : BufTy).Contents (Elt F) → (⟨S150000x128, .f32⟩ : BufTy).Contents (Elt F)),
    StableHlo.binary main_v239 main_v241 main_v242 (addf : (⟨S150000x128, .f32⟩ : BufTy).Contents (Elt F) → (⟨S150000x128, .f32⟩ : BufTy).Contents (Elt F) → (⟨S150000x128, .f32⟩ : BufTy).Contents (Elt F)),
    StableHlo.TRef.nullary main_call9.cst (constant S_ .f32 0x00000000#32),
    StableHlo.TRef.unary main_call9.cst main_call9.v0 (broadcastInDim S150000x128 ![] bcast_S_S150000x128),
    StableHlo.TRef.binary (.of main_v242 : StableHlo.TRef sig ⟨S150000x128, .f32⟩) main_call9.v0 main_call9.v1 maximumf ]

/-- The references these operations write, in order. -/
abbrev segL5_W : List (Ref sig .tc) := [main_v223, main_cst_50, main_v224, main_cst_51, main_v225, main_v226, main_c_52, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v228, main_v229, main_v230, main_v231, main_v232, main_v233, main_cst_53, main_v234, main_v235, main_v236, main_v237, main_v238, main_v239, main_v240, main_v241, main_v242, main_call9.cst.ref, main_call9.v0.ref, main_call9.v1.ref]

set_option maxRecDepth 8192 in
/-- Each operation writes exactly its result reference, which is in the list. -/
theorem segL5_writes : (segL5 : List (HloOp τ sig (Elt F))).Forall fun op =>
    op.writes ⊆ (segL5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference these operations do not write keeps its contents through them. -/
theorem keepL5 (V : Valuation τ sig (Elt F)) (r : Ref sig .tc) (h : r ∉ segL5_W) :
    after segL5 V (Proc.devRef .tc r) = V (Proc.devRef .tc r) :=
  after_of_writes_sub segL5 V segL5_writes h

end Cert.ReferenceIdeal.RefValue

end
-- ==== Proof.RefValSegL6.lean ====
import proofs.«143519_j50869592655552_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations 416 … 463 of the reference's straight line (one layer of a perceptron: a matrix product, the batch statistics of its columns, the normalisation and the rectifier). -/
abbrev segL6 : List (HloOp τ sig (Elt F)) :=
  [ StableHlo.binary main_v243 main_arg15 main_v244 ((fun l r => Host.dotGeneral dot_S150000x128_S128x64_S150000x64_1_0_0_1_n_n none l r) : (⟨S150000x128, .f32⟩ : BufTy).Contents (Elt F) → (⟨S128x64, .f32⟩ : BufTy).Contents (Elt F) → (⟨S150000x64, .f32⟩ : BufTy).Contents (Elt F)),
    StableHlo.nullary main_cst_54 (constant S_ .f32 0x00000000#32),
    StableHlo.binary main_v244 main_cst_54 main_v245 ((fun x v => Host.reduceAdd x v reducesTo_S150000x64_S64_d0 h_S_) : (⟨S150000x64, .f32⟩ : BufTy).Contents (Elt F) → (⟨S_, .f32⟩ : BufTy).Contents (Elt F) → (⟨S64, .f32⟩ : BufTy).Contents (Elt F)),
    StableHlo.nullary main_cst_55 (constant S_ .f32 0x48127C00#32),
    StableHlo.unary main_cst_55 main_v246 (broadcastInDim S64 ![] bcast_S_S64 : (⟨S_, .f32⟩ : BufTy).Contents (Elt F) → (⟨S64, .f32⟩ : BufTy).Contents (Elt F)),
    StableHlo.binary main_v245 main_v246 main_v247 (Host.divf : (⟨S64, .f32⟩ : BufTy).Contents (Elt F) → (⟨S64, .f32⟩ : BufTy).Contents (Elt F) → (⟨S64, .f32⟩ : BufTy).Contents (Elt F)),
    StableHlo.nullary main_c_56 (constantI S_ 32 0#32),
    StableHlo.TRef.nullary main_call10.cst (constant S_ .f32 0x00000000#32),
    StableHlo.TRef.binary (.of main_v244 : StableHlo.TRef sig ⟨S150000x64, .f32⟩) main_call10.cst main_call10.v0 (fun x v => Host.reduceAdd x v reducesTo_S150000x64_S64_d0 h_S_),
    StableHlo.TRef.unary main_call10.v0 main_call10.v1 (broadcastInDim S1x64 ![1] bcast_S64_S1x64_1),
    StableHlo.TRef.nullary main_call10.cst_0 (constant S_ .f32 0x48127C00#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S150000x64 ![0, 1] bcast_S1x64_S150000x64_0_1),
    StableHlo.TRef.binary (.of main_v244 : StableHlo.TRef sig ⟨S150000x64, .f32⟩) main_call10.v4 main_call10.v5 subf,
    StableHlo.TRef.binary main_call10.v5 main_call10.v5 main_call10.v6 mulf,
    StableHlo.TRef.unary (.of main_c_56 : StableHlo.TRef sig ⟨S_, .i32⟩) main_call10.v7 (sitofp .f32),
    StableHlo.TRef.nullary main_call10.cst_1 (constant S_ .f32 0x48127C00#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S150000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v247 main_v249 (broadcastInDim S1x64 ![1] bcast_S64_S1x64_1 : (⟨S64, .f32⟩ : BufTy).Contents (Elt F) → (⟨S1x64, .f32⟩ : BufTy).Contents (Elt F)),
    StableHlo.unary main_v249 main_v250 (broadcastInDim S150000x64 ![0, 1] bcast_S1x64_S150000x64_0_1 : (⟨S1x64, .f32⟩ : BufTy).Contents (Elt F) → (⟨S150000x64, .f32⟩ : BufTy).Contents (Elt F)),
    StableHlo.binary main_v244 main_v250 main_v251 (subf : (⟨S150000x64, .f32⟩ : BufTy).Contents (Elt F) → (⟨S150000x64, .f32⟩ : BufTy).Contents (Elt F) → (⟨S150000x64, .f32⟩ : BufTy).Contents (Elt F)),
    StableHlo.unary main_arg16 main_v252 (broadcastInDim S1x64 ![1] bcast_S64_S1x64_1 : (⟨S64, .f32⟩ : BufTy).Contents (Elt F) → (⟨S1x64, .f32⟩ : BufTy).Contents (Elt F)),
    StableHlo.unary main_v252 main_v253 (broadcastInDim S150000x64 ![0, 1] bcast_S1x64_S150000x64_0_1 : (⟨S1x64, .f32⟩ : BufTy).Contents (Elt F) → (⟨S150000x64, .f32⟩ : BufTy).Contents (Elt F)),
    StableHlo.binary main_v253 main_v251 main_v254 (mulf : (⟨S150000x64, .f32⟩ : BufTy).Contents (Elt F) → (⟨S150000x64, .f32⟩ : BufTy).Contents (Elt F) → (⟨S150000x64, .f32⟩ : BufTy).Contents (Elt F)),
    StableHlo.nullary main_cst_57 (constant S_ .f32 0x3727C5AC#32),
    StableHlo.unary main_cst_57 main_v255 (broadcastInDim S64 ![] bcast_S_S64 : (⟨S_, .f32⟩ : BufTy).Contents (Elt F) → (⟨S64, .f32⟩ : BufTy).Contents (Elt F)),
    StableHlo.binary main_v248 main_v255 main_v256 (addf : (⟨S64, .f32⟩ : BufTy).Contents (Elt F) → (⟨S64, .f32⟩ : BufTy).Contents (Elt F) → (⟨S64, .f32⟩ : BufTy).Contents (Elt F)),
    StableHlo.unary main_v256 main_v257 (Host.rsqrt : (⟨S64, .f32⟩ : BufTy).Contents (Elt F) → (⟨S64, .f32⟩ : BufTy).Contents (Elt F)),
    StableHlo.unary main_v257 main_v258 (broadcastInDim S1x64 ![1] bcast_S64_S1x64_1 : (⟨S64, .f32⟩ : BufTy).Contents (Elt F) → (⟨S1x64, .f32⟩ : BufTy).Contents (Elt F)),
    StableHlo.unary main_v258 main_v259 (broadcastInDim S150000x64 ![0, 1] bcast_S1x64_S150000x64_0_1 : (⟨S1x64, .f32⟩ : BufTy).Contents (Elt F) → (⟨S150000x64, .f32⟩ : BufTy).Contents (Elt F)),
    StableHlo.binary main_v254 main_v259 main_v260 (mulf : (⟨S150000x64, .f32⟩ : BufTy).Contents (Elt F) → (⟨S150000x64, .f32⟩ : BufTy).Contents (Elt F) → (⟨S150000x64, .f32⟩ : BufTy).Contents (Elt F)),
    StableHlo.unary main_arg17 main_v261 (broadcastInDim S1x64 ![1] bcast_S64_S1x64_1 : (⟨S64, .f32⟩ : BufTy).Contents (Elt F) → (⟨S1x64, .f32⟩ : BufTy).Contents (Elt F)),
    StableHlo.unary main_v261 main_v262 (broadcastInDim S150000x64 ![0, 1] bcast_S1x64_S150000x64_0_1 : (⟨S1x64, .f32⟩ : BufTy).Contents (Elt F) → (⟨S150000x64, .f32⟩ : BufTy).Contents (Elt F)),
    StableHlo.binary main_v260 main_v262 main_v263 (addf : (⟨S150000x64, .f32⟩ : BufTy).Contents (Elt F) → (⟨S150000x64, .f32⟩ : BufTy).Contents (Elt F) → (⟨S150000x64, .f32⟩ : BufTy).Contents (Elt F)),
    StableHlo.TRef.nullary main_call11.cst (constant S_ .f32 0x00000000#32),
    StableHlo.TRef.unary main_call11.cst main_call11.v0 (broadcastInDim S150000x64 ![] bcast_S_S150000x64),
    StableHlo.TRef.binary (.of main_v263 : StableHlo.TRef sig ⟨S150000x64, .f32⟩) main_call11.v0 main_call11.v1 maximumf ]

/-- The references these operations write, in order. -/
abbrev segL6_W : List (Ref sig .tc) := [main_v244, main_cst_54, main_v245, main_cst_55, main_v246, main_v247, main_c_56, main_call10.cst.ref, main_call10.v0.ref, main_call10.v1.ref, main_call10.cst_0.ref, main_call10.v2.ref, main_call10.v3.ref, main_call10.v4.ref, main_call10.v5.ref, main_call10.v6.ref, main_call10.v7.ref, main_call10.cst_1.ref, main_call10.v8.ref, main_call10.cst_2.ref, main_call10.v9.ref, main_call10.v10.ref, main_call10.v11.ref, main_call10.cst_3.ref, main_call10.v12.ref, main_call10.cst_4.ref, main_call10.call0.v0.ref, main_call10.call0.v1.ref, main_call10.call0.v2.ref, main_v249, main_v250, main_v251, main_v252, main_v253, main_v254, main_cst_57, main_v255, main_v256, main_v257, main_v258, main_v259, main_v260, main_v261, main_v262, main_v263, main_call11.cst.ref, main_call11.v0.ref, main_call11.v1.ref]

set_option maxRecDepth 8192 in
/-- Each operation writes exactly its result reference, which is in the list. -/
theorem segL6_writes : (segL6 : List (HloOp τ sig (Elt F))).Forall fun op =>
    op.writes ⊆ (segL6_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference these operations do not write keeps its contents through them. -/
theorem keepL6 (V : Valuation τ sig (Elt F)) (r : Ref sig .tc) (h : r ∉ segL6_W) :
    after segL6 V (Proc.devRef .tc r) = V (Proc.devRef .tc r) :=
  after_of_writes_sub segL6 V segL6_writes h

end Cert.ReferenceIdeal.RefValue

end
-- ==== Proof.RefValLayers.lean ====
import proofs.«143519_j50869592655552_1_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! One layer's arithmetic after its matrix product, as the reference spells it on whole arrays, at the ideal
    values: from the product P (rows by columns), the column means, the column variances about those means, and
    the normalised, scaled, shifted and rectified array. One copy per shape the reference uses. -/

/-- Column means of a 120000 × 128 array: the column sums (from zero) divided by the row count, as arrays. -/
def meanArr_120000x128 (P : FVec Ideal S120000x128 .f32) : FVec Ideal S128 .f32 :=
  Host.divf (Host.reduceAdd (P) (constant (F := Ideal) S_ .f32 0x00000000#32) reducesTo_S120000x128_S128_d0 h_S_) (broadcastInDim S128 ![] bcast_S_S128 (constant (F := Ideal) S_ .f32 0x47EA6000#32))

/-- Column variances of a 120000 × 128 array: the sums of the squared deviations from the column means (the means
    recomputed in the row-vector layout), divided by the row count less the zero correction, where that count is positive. -/
def varArr_120000x128 (P : FVec Ideal S120000x128 .f32) : FVec Ideal S128 .f32 :=
  select (broadcastInDim S128 ![] bcast_S_S128 (cmpf .ogt (subf (constant (F := Ideal) S_ .f32 0x47EA6000#32) (sitofp (F := Ideal) .f32 (constantI S_ 32 0#32))) (constant (F := Ideal) S_ .f32 0x00000000#32))) (Host.divf (Host.reduceAdd (mulf (subf (P) (broadcastInDim S120000x128 ![0, 1] bcast_S1x128_S120000x128_0_1 (Host.divf (broadcastInDim S1x128 ![1] bcast_S128_S1x128_1 (Host.reduceAdd (P) (constant (F := Ideal) S_ .f32 0x00000000#32) reducesTo_S120000x128_S128_d0 h_S_)) (broadcastInDim S1x128 ![] bcast_S_S1x128 (constant (F := Ideal) S_ .f32 0x47EA6000#32))))) (subf (P) (broadcastInDim S120000x128 ![0, 1] bcast_S1x128_S120000x128_0_1 (Host.divf (broadcastInDim S1x128 ![1] bcast_S128_S1x128_1 (Host.reduceAdd (P) (constant (F := Ideal) S_ .f32 0x00000000#32) reducesTo_S120000x128_S128_d0 h_S_)) (broadcastInDim S1x128 ![] bcast_S_S1x128 (constant (F := Ideal) S_ .f32 0x47EA6000#32)))))) (constant (F := Ideal) S_ .f32 0x00000000#32) reducesTo_S120000x128_S128_d0 h_S_) (broadcastInDim S128 ![] bcast_S_S128 (subf (constant (F := Ideal) S_ .f32 0x47EA6000#32) (sitofp (F := Ideal) .f32 (constantI S_ 32 0#32))))) (broadcastInDim S128 ![] bcast_S_S128 (id (constant (F := Ideal) S_ .f32 0x7FC00000#32)))

/-- The layer on a 120000 × 128 product: scale times the centred entry, times the reciprocal root of the variance
    plus the stabiliser, plus the shift, and the maximum with zero; scale, shift and the statistics broadcast along the rows. -/
def layerArr_120000x128 (P : FVec Ideal S120000x128 .f32) (gam bet : FVec Ideal S128 .f32) : FVec Ideal S120000x128 .f32 :=
  maximumf (addf (mulf (mulf (broadcastInDim S120000x128 ![0, 1] bcast_S1x128_S120000x128_0_1 (broadcastInDim S1x128 ![1] bcast_S128_S1x128_1 (gam))) (subf (P) (broadcastInDim S120000x128 ![0, 1] bcast_S1x128_S120000x128_0_1 (broadcastInDim S1x128 ![1] bcast_S128_S1x128_1 (meanArr_120000x128 P))))) (broadcastInDim S120000x128 ![0, 1] bcast_S1x128_S120000x128_0_1 (broadcastInDim S1x128 ![1] bcast_S128_S1x128_1 (Host.rsqrt (addf (varArr_120000x128 P) (broadcastInDim S128 ![] bcast_S_S128 (constant (F := Ideal) S_ .f32 0x3727C5AC#32))))))) (broadcastInDim S120000x128 ![0, 1] bcast_S1x128_S120000x128_0_1 (broadcastInDim S1x128 ![1] bcast_S128_S1x128_1 (bet)))) (broadcastInDim S120000x128 ![] bcast_S_S120000x128 (constant (F := Ideal) S_ .f32 0x00000000#32))

/-- Column means of a 120000 × 64 array: the column sums (from zero) divided by the row count, as arrays. -/
def meanArr_120000x64 (P : FVec Ideal S120000x64 .f32) : FVec Ideal S64 .f32 :=
  Host.divf (Host.reduceAdd (P) (constant (F := Ideal) S_ .f32 0x00000000#32) reducesTo_S120000x64_S64_d0 h_S_) (broadcastInDim S64 ![] bcast_S_S64 (constant (F := Ideal) S_ .f32 0x47EA6000#32))

/-- Column variances of a 120000 × 64 array: the sums of the squared deviations from the column means (the means
    recomputed in the row-vector layout), divided by the row count less the zero correction, where that count is positive. -/
def varArr_120000x64 (P : FVec Ideal S120000x64 .f32) : FVec Ideal S64 .f32 :=
  select (broadcastInDim S64 ![] bcast_S_S64 (cmpf .ogt (subf (constant (F := Ideal) S_ .f32 0x47EA6000#32) (sitofp (F := Ideal) .f32 (constantI S_ 32 0#32))) (constant (F := Ideal) S_ .f32 0x00000000#32))) (Host.divf (Host.reduceAdd (mulf (subf (P) (broadcastInDim S120000x64 ![0, 1] bcast_S1x64_S120000x64_0_1 (Host.divf (broadcastInDim S1x64 ![1] bcast_S64_S1x64_1 (Host.reduceAdd (P) (constant (F := Ideal) S_ .f32 0x00000000#32) reducesTo_S120000x64_S64_d0 h_S_)) (broadcastInDim S1x64 ![] bcast_S_S1x64 (constant (F := Ideal) S_ .f32 0x47EA6000#32))))) (subf (P) (broadcastInDim S120000x64 ![0, 1] bcast_S1x64_S120000x64_0_1 (Host.divf (broadcastInDim S1x64 ![1] bcast_S64_S1x64_1 (Host.reduceAdd (P) (constant (F := Ideal) S_ .f32 0x00000000#32) reducesTo_S120000x64_S64_d0 h_S_)) (broadcastInDim S1x64 ![] bcast_S_S1x64 (constant (F := Ideal) S_ .f32 0x47EA6000#32)))))) (constant (F := Ideal) S_ .f32 0x00000000#32) reducesTo_S120000x64_S64_d0 h_S_) (broadcastInDim S64 ![] bcast_S_S64 (subf (constant (F := Ideal) S_ .f32 0x47EA6000#32) (sitofp (F := Ideal) .f32 (constantI S_ 32 0#32))))) (broadcastInDim S64 ![] bcast_S_S64 (id (constant (F := Ideal) S_ .f32 0x7FC00000#32)))

/-- The layer on a 120000 × 64 product: scale times the centred entry, times the reciprocal root of the variance
    plus the stabiliser, plus the shift, and the maximum with zero; scale, shift and the statistics broadcast along the rows. -/
def layerArr_120000x64 (P : FVec Ideal S120000x64 .f32) (gam bet : FVec Ideal S64 .f32) : FVec Ideal S120000x64 .f32 :=
  maximumf (addf (mulf (mulf (broadcastInDim S120000x64 ![0, 1] bcast_S1x64_S120000x64_0_1 (broadcastInDim S1x64 ![1] bcast_S64_S1x64_1 (gam))) (subf (P) (broadcastInDim S120000x64 ![0, 1] bcast_S1x64_S120000x64_0_1 (broadcastInDim S1x64 ![1] bcast_S64_S1x64_1 (meanArr_120000x64 P))))) (broadcastInDim S120000x64 ![0, 1] bcast_S1x64_S120000x64_0_1 (broadcastInDim S1x64 ![1] bcast_S64_S1x64_1 (Host.rsqrt (addf (varArr_120000x64 P) (broadcastInDim S64 ![] bcast_S_S64 (constant (F := Ideal) S_ .f32 0x3727C5AC#32))))))) (broadcastInDim S120000x64 ![0, 1] bcast_S1x64_S120000x64_0_1 (broadcastInDim S1x64 ![1] bcast_S64_S1x64_1 (bet)))) (broadcastInDim S120000x64 ![] bcast_S_S120000x64 (constant (F := Ideal) S_ .f32 0x00000000#32))

/-- Column means of a 150000 × 128 array: the column sums (from zero) divided by the row count, as arrays. -/
def meanArr_150000x128 (P : FVec Ideal S150000x128 .f32) : FVec Ideal S128 .f32 :=
  Host.divf (Host.reduceAdd (P) (constant (F := Ideal) S_ .f32 0x00000000#32) reducesTo_S150000x128_S128_d0 h_S_) (broadcastInDim S128 ![] bcast_S_S128 (constant (F := Ideal) S_ .f32 0x48127C00#32))

/-- Column variances of a 150000 × 128 array: the sums of the squared deviations from the column means (the means
    recomputed in the row-vector layout), divided by the row count less the zero correction, where that count is positive. -/
def varArr_150000x128 (P : FVec Ideal S150000x128 .f32) : FVec Ideal S128 .f32 :=
  select (broadcastInDim S128 ![] bcast_S_S128 (cmpf .ogt (subf (constant (F := Ideal) S_ .f32 0x48127C00#32) (sitofp (F := Ideal) .f32 (constantI S_ 32 0#32))) (constant (F := Ideal) S_ .f32 0x00000000#32))) (Host.divf (Host.reduceAdd (mulf (subf (P) (broadcastInDim S150000x128 ![0, 1] bcast_S1x128_S150000x128_0_1 (Host.divf (broadcastInDim S1x128 ![1] bcast_S128_S1x128_1 (Host.reduceAdd (P) (constant (F := Ideal) S_ .f32 0x00000000#32) reducesTo_S150000x128_S128_d0 h_S_)) (broadcastInDim S1x128 ![] bcast_S_S1x128 (constant (F := Ideal) S_ .f32 0x48127C00#32))))) (subf (P) (broadcastInDim S150000x128 ![0, 1] bcast_S1x128_S150000x128_0_1 (Host.divf (broadcastInDim S1x128 ![1] bcast_S128_S1x128_1 (Host.reduceAdd (P) (constant (F := Ideal) S_ .f32 0x00000000#32) reducesTo_S150000x128_S128_d0 h_S_)) (broadcastInDim S1x128 ![] bcast_S_S1x128 (constant (F := Ideal) S_ .f32 0x48127C00#32)))))) (constant (F := Ideal) S_ .f32 0x00000000#32) reducesTo_S150000x128_S128_d0 h_S_) (broadcastInDim S128 ![] bcast_S_S128 (subf (constant (F := Ideal) S_ .f32 0x48127C00#32) (sitofp (F := Ideal) .f32 (constantI S_ 32 0#32))))) (broadcastInDim S128 ![] bcast_S_S128 (id (constant (F := Ideal) S_ .f32 0x7FC00000#32)))

/-- The layer on a 150000 × 128 product: scale times the centred entry, times the reciprocal root of the variance
    plus the stabiliser, plus the shift, and the maximum with zero; scale, shift and the statistics broadcast along the rows. -/
def layerArr_150000x128 (P : FVec Ideal S150000x128 .f32) (gam bet : FVec Ideal S128 .f32) : FVec Ideal S150000x128 .f32 :=
  maximumf (addf (mulf (mulf (broadcastInDim S150000x128 ![0, 1] bcast_S1x128_S150000x128_0_1 (broadcastInDim S1x128 ![1] bcast_S128_S1x128_1 (gam))) (subf (P) (broadcastInDim S150000x128 ![0, 1] bcast_S1x128_S150000x128_0_1 (broadcastInDim S1x128 ![1] bcast_S128_S1x128_1 (meanArr_150000x128 P))))) (broadcastInDim S150000x128 ![0, 1] bcast_S1x128_S150000x128_0_1 (broadcastInDim S1x128 ![1] bcast_S128_S1x128_1 (Host.rsqrt (addf (varArr_150000x128 P) (broadcastInDim S128 ![] bcast_S_S128 (constant (F := Ideal) S_ .f32 0x3727C5AC#32))))))) (broadcastInDim S150000x128 ![0, 1] bcast_S1x128_S150000x128_0_1 (broadcastInDim S1x128 ![1] bcast_S128_S1x128_1 (bet)))) (broadcastInDim S150000x128 ![] bcast_S_S150000x128 (constant (F := Ideal) S_ .f32 0x00000000#32))

/-- Column means of a 150000 × 64 array: the column sums (from zero) divided by the row count, as arrays. -/
def meanArr_150000x64 (P : FVec Ideal S150000x64 .f32) : FVec Ideal S64 .f32 :=
  Host.divf (Host.reduceAdd (P) (constant (F := Ideal) S_ .f32 0x00000000#32) reducesTo_S150000x64_S64_d0 h_S_) (broadcastInDim S64 ![] bcast_S_S64 (constant (F := Ideal) S_ .f32 0x48127C00#32))

/-- Column variances of a 150000 × 64 array: the sums of the squared deviations from the column means (the means
    recomputed in the row-vector layout), divided by the row count less the zero correction, where that count is positive. -/
def varArr_150000x64 (P : FVec Ideal S150000x64 .f32) : FVec Ideal S64 .f32 :=
  select (broadcastInDim S64 ![] bcast_S_S64 (cmpf .ogt (subf (constant (F := Ideal) S_ .f32 0x48127C00#32) (sitofp (F := Ideal) .f32 (constantI S_ 32 0#32))) (constant (F := Ideal) S_ .f32 0x00000000#32))) (Host.divf (Host.reduceAdd (mulf (subf (P) (broadcastInDim S150000x64 ![0, 1] bcast_S1x64_S150000x64_0_1 (Host.divf (broadcastInDim S1x64 ![1] bcast_S64_S1x64_1 (Host.reduceAdd (P) (constant (F := Ideal) S_ .f32 0x00000000#32) reducesTo_S150000x64_S64_d0 h_S_)) (broadcastInDim S1x64 ![] bcast_S_S1x64 (constant (F := Ideal) S_ .f32 0x48127C00#32))))) (subf (P) (broadcastInDim S150000x64 ![0, 1] bcast_S1x64_S150000x64_0_1 (Host.divf (broadcastInDim S1x64 ![1] bcast_S64_S1x64_1 (Host.reduceAdd (P) (constant (F := Ideal) S_ .f32 0x00000000#32) reducesTo_S150000x64_S64_d0 h_S_)) (broadcastInDim S1x64 ![] bcast_S_S1x64 (constant (F := Ideal) S_ .f32 0x48127C00#32)))))) (constant (F := Ideal) S_ .f32 0x00000000#32) reducesTo_S150000x64_S64_d0 h_S_) (broadcastInDim S64 ![] bcast_S_S64 (subf (constant (F := Ideal) S_ .f32 0x48127C00#32) (sitofp (F := Ideal) .f32 (constantI S_ 32 0#32))))) (broadcastInDim S64 ![] bcast_S_S64 (id (constant (F := Ideal) S_ .f32 0x7FC00000#32)))

/-- The layer on a 150000 × 64 product: scale times the centred entry, times the reciprocal root of the variance
    plus the stabiliser, plus the shift, and the maximum with zero; scale, shift and the statistics broadcast along the rows. -/
def layerArr_150000x64 (P : FVec Ideal S150000x64 .f32) (gam bet : FVec Ideal S64 .f32) : FVec Ideal S150000x64 .f32 :=
  maximumf (addf (mulf (mulf (broadcastInDim S150000x64 ![0, 1] bcast_S1x64_S150000x64_0_1 (broadcastInDim S1x64 ![1] bcast_S64_S1x64_1 (gam))) (subf (P) (broadcastInDim S150000x64 ![0, 1] bcast_S1x64_S150000x64_0_1 (broadcastInDim S1x64 ![1] bcast_S64_S1x64_1 (meanArr_150000x64 P))))) (broadcastInDim S150000x64 ![0, 1] bcast_S1x64_S150000x64_0_1 (broadcastInDim S1x64 ![1] bcast_S64_S1x64_1 (Host.rsqrt (addf (varArr_150000x64 P) (broadcastInDim S64 ![] bcast_S_S64 (constant (F := Ideal) S_ .f32 0x3727C5AC#32))))))) (broadcastInDim S150000x64 ![0, 1] bcast_S1x64_S150000x64_0_1 (broadcastInDim S1x64 ![1] bcast_S64_S1x64_1 (bet)))) (broadcastInDim S150000x64 ![] bcast_S_S150000x64 (constant (F := Ideal) S_ .f32 0x00000000#32))

end Cert.ReferenceIdeal.RefValue

end
-- ==== Proof.RefValL1.lean ====
import proofs.«143519_j50869592655552_1_alg».proof.Proof.RefValSegL1
import proofs.«143519_j50869592655552_1_alg».proof.Proof.RefValLayers
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 16384 in
set_option maxHeartbeats 4000000 in
/-- After this layer's operations, from any contents, its result buffer holds the layer's arithmetic of the matrix
    product of the layer's input buffer with the weight argument, and of the scale and shift arguments. -/
theorem segL1_out (W : Valuation τ sig (Elt Ideal)) :
    after (segL1 (F := Ideal)) W (Proc.devRef .tc main_v159)
      = layerArr_120000x128 (Host.dotGeneral (F := Ideal) (φ₁ := .f32) (φ₂ := .f32) dot_S120000x704_S704x128_S120000x128_1_0_0_1_n_n none (W (Proc.devRef .tc main_v138)) (W (Proc.devRef .tc main_arg6)))
          (W (Proc.devRef .tc main_arg7)) (W (Proc.devRef .tc main_arg8)) := by
  after_results_simp
  rfl

end Cert.ReferenceIdeal.RefValue

end
-- ==== Proof.RefValL2.lean ====
import proofs.«143519_j50869592655552_1_alg».proof.Proof.RefValSegL2
import proofs.«143519_j50869592655552_1_alg».proof.Proof.RefValLayers
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 16384 in
set_option maxHeartbeats 4000000 in
/-- After this layer's operations, from any contents, its result buffer holds the layer's arithmetic of the matrix
    product of the layer's input buffer with the weight argument, and of the scale and shift arguments. -/
theorem segL2_out (W : Valuation τ sig (Elt Ideal)) :
    after (segL2 (F := Ideal)) W (Proc.devRef .tc main_v180)
      = layerArr_120000x64 (Host.dotGeneral (F := Ideal) (φ₁ := .f32) (φ₂ := .f32) dot_S120000x128_S128x64_S120000x64_1_0_0_1_n_n none (W (Proc.devRef .tc main_v159)) (W (Proc.devRef .tc main_arg9)))
          (W (Proc.devRef .tc main_arg10)) (W (Proc.devRef .tc main_arg11)) := by
  after_results_simp
  rfl

end Cert.ReferenceIdeal.RefValue

end
-- ==== Proof.RefValL3.lean ====
import proofs.«143519_j50869592655552_1_alg».proof.Proof.RefValSegL3
import proofs.«143519_j50869592655552_1_alg».proof.Proof.RefValLayers
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 16384 in
set_option maxHeartbeats 4000000 in
/-- After this layer's operations, from any contents, its result buffer holds the layer's arithmetic of the matrix
    product of the layer's input buffer with the weight argument, and of the scale and shift arguments. -/
theorem segL3_out (W : Valuation τ sig (Elt Ideal)) :
    after (segL3 (F := Ideal)) W (Proc.devRef .tc main_v201)
      = layerArr_150000x128 (Host.dotGeneral (F := Ideal) (φ₁ := .f32) (φ₂ := .f32) dot_S150000x320_S320x128_S150000x128_1_0_0_1_n_n none (W (Proc.devRef .tc main_v93)) (W (Proc.devRef .tc main_arg12)))
          (W (Proc.devRef .tc main_arg13)) (W (Proc.devRef .tc main_arg14)) := by
  after_results_simp
  rfl

end Cert.ReferenceIdeal.RefValue

end
-- ==== Proof.RefValL4.lean ====
import proofs.«143519_j50869592655552_1_alg».proof.Proof.RefValSegL4
import proofs.«143519_j50869592655552_1_alg».proof.Proof.RefValLayers
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 16384 in
set_option maxHeartbeats 4000000 in
/-- After this layer's operations, from any contents, its result buffer holds the layer's arithmetic of the matrix
    product of the layer's input buffer with the weight argument, and of the scale and shift arguments. -/
theorem segL4_out (W : Valuation τ sig (Elt Ideal)) :
    after (segL4 (F := Ideal)) W (Proc.devRef .tc main_v222)
      = layerArr_150000x64 (Host.dotGeneral (F := Ideal) (φ₁ := .f32) (φ₂ := .f32) dot_S150000x128_S128x64_S150000x64_1_0_0_1_n_n none (W (Proc.devRef .tc main_v201)) (W (Proc.devRef .tc main_arg15)))
          (W (Proc.devRef .tc main_arg16)) (W (Proc.devRef .tc main_arg17)) := by
  after_results_simp
  rfl

end Cert.ReferenceIdeal.RefValue

end
-- ==== Proof.RefValL5.lean ====
import proofs.«143519_j50869592655552_1_alg».proof.Proof.RefValSegL5
import proofs.«143519_j50869592655552_1_alg».proof.Proof.RefValLayers
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 16384 in
set_option maxHeartbeats 4000000 in
/-- After this layer's operations, from any contents, its result buffer holds the layer's arithmetic of the matrix
    product of the layer's input buffer with the weight argument, and of the scale and shift arguments. -/
theorem segL5_out (W : Valuation τ sig (Elt Ideal)) :
    after (segL5 (F := Ideal)) W (Proc.devRef .tc main_v243)
      = layerArr_150000x128 (Host.dotGeneral (F := Ideal) (φ₁ := .f32) (φ₂ := .f32) dot_S150000x320_S320x128_S150000x128_1_0_0_1_n_n none (W (Proc.devRef .tc main_v94)) (W (Proc.devRef .tc main_arg12)))
          (W (Proc.devRef .tc main_arg13)) (W (Proc.devRef .tc main_arg14)) := by
  after_results_simp
  rfl

end Cert.ReferenceIdeal.RefValue

end
-- ==== Proof.RefValL6.lean ====
import proofs.«143519_j50869592655552_1_alg».proof.Proof.RefValSegL6
import proofs.«143519_j50869592655552_1_alg».proof.Proof.RefValLayers
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 16384 in
set_option maxHeartbeats 4000000 in
/-- After this layer's operations, from any contents, its result buffer holds the layer's arithmetic of the matrix
    product of the layer's input buffer with the weight argument, and of the scale and shift arguments. -/
theorem segL6_out (W : Valuation τ sig (Elt Ideal)) :
    after (segL6 (F := Ideal)) W (Proc.devRef .tc main_v264)
      = layerArr_150000x64 (Host.dotGeneral (F := Ideal) (φ₁ := .f32) (φ₂ := .f32) dot_S150000x128_S128x64_S150000x64_1_0_0_1_n_n none (W (Proc.devRef .tc main_v243)) (W (Proc.devRef .tc main_arg15)))
          (W (Proc.devRef .tc main_arg16)) (W (Proc.devRef .tc main_arg17)) := by
  after_results_simp
  rfl

end Cert.ReferenceIdeal.RefValue

end
-- ==== Proof.Consts.lean ====
/-
  The float constants this certificate's programs spell, as the extended reals their `f32` words denote
  (sign bit, eight exponent bits with bias 127, twenty-three significand bits): each word is unfolded once,
  here, and read by name elsewhere.

  * `0x47EA6000`: exponent field 143, significand field 6971392: (2^23 + 6971392) · 2^(143 - 150) = 15360000 / 128 = 120000.
  * `0x48127C00`: exponent field 144, significand field 1211392: (2^23 + 1211392) · 2^(144 - 150) = 9600000 / 64 = 150000.
  * `0x3727C5AC`: exponent field 110, significand field 2606508: (2^23 + 2606508) · 2^(110 - 150) = 10995116 / 2^40,
    the `f32` nearest to 1e-5.
  * `0x00000000`: zero.

  Also the number of indices of the two row extents, as reals.
-/
import Idealize.ShloMosaic.PureOps.Ideal
import Idealize.ShloMosaic.PureOps.Ideal.Laws
import Mathlib.Data.EReal.Basic

noncomputable section

namespace Cert.Consts

open Idealize.ShloMosaic

/-- `+0.0` denotes `0`. -/
theorem ofBits_zero : Ideal.ofBits .f32 0x00000000#32 = 0 := Ideal.ofBits_zero_f32

/-- `120000.0` denotes the real `120000`. -/
theorem ofBits_120000 : Ideal.ofBits .f32 0x47EA6000#32 = ((120000 : ℝ) : EReal) := by
  simp [Ideal.ofBits, Ideal.ieee, -EReal.coe_mul]; norm_num

/-- `150000.0` denotes the real `150000`. -/
theorem ofBits_150000 : Ideal.ofBits .f32 0x48127C00#32 = ((150000 : ℝ) : EReal) := by
  simp [Ideal.ofBits, Ideal.ieee, -EReal.coe_mul]; norm_num

/-- The `f32` nearest to `1e-5` denotes the real `10995116 / 2^40`. -/
theorem ofBits_eps : Ideal.ofBits .f32 0x3727C5AC#32 = (((10995116 : ℝ) / 2 ^ 40 : ℝ) : EReal) := by
  simp [Ideal.ofBits, Ideal.ieee, -EReal.coe_mul]; norm_num

/-- … which is positive. -/
theorem eps_pos : (0 : ℝ) < 10995116 / 2 ^ 40 := by positivity

theorem c120000_ne_zero : (120000 : ℝ) ≠ 0 := by norm_num

theorem c150000_ne_zero : (150000 : ℝ) ≠ 0 := by norm_num

/-- The number of row indices, as a real. -/
theorem card_fin_120000 : (Fintype.card (Fin 120000) : ℝ) = 120000 := by
  rw [Fintype.card_fin]; norm_num

theorem card_fin_150000 : (Fintype.card (Fin 150000) : ℝ) = 150000 := by
  rw [Fintype.card_fin]; norm_num

end Cert.Consts

end
-- ==== Proof.RefValMath0.lean ====
import proofs.«143519_j50869592655552_1_alg».proof.Proof.RefValLayers
import Idealize.ShloMosaic.PureOps.Ideal.Laws
import Idealize.ShloMosaic.Lib.ValueIdx
import Idealize.ShloMosaic.Lib.Pipeline.Value
import proofs.«143519_j50869592655552_1_alg».proof.Proof.LibMlpBatchNorm
import proofs.«143519_j50869592655552_1_alg».proof.Proof.Consts

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.LibMlpBatchNorm
open scoped BigOperators

/-! ### Reading the array operations at an index, at the ideal values -/

section Generic
variable {s : Shape} {φ : FTy} {α : Type}

/-- The host's quotient reads pointwise. -/
theorem hostDivf_apply (a b : FVec Ideal s φ) (i : s.Idx) : Host.divf a b i = Ideal.div (a i) (b i) := rfl

/-- The host's reciprocal square root reads pointwise. -/
theorem hostRsqrt_apply (a : FVec Ideal s φ) (i : s.Idx) : Host.rsqrt a i = Ideal.rsqrt (a i) := rfl

/-- An integer splat reads its word everywhere. -/
theorem constantI_apply (w : Nat) (b : BitVec w) (i : s.Idx) : constantI s w b i = b := rfl

/-- The integer zero converts to the real zero. -/
theorem sitofp_zero : FloatOps.sitofp (F := Ideal) .f32 (0#32 : BitVec 32) = 0 := by
  show (((0#32 : BitVec 32).toInt : ℝ) : EReal) = 0
  simp

/-- A scalar broadcast to any shape reads the scalar's one element everywhere. -/
theorem bc0_apply {t : Shape} (h : S_.BroadcastsInDim t (![] : Fin 0 → Fin t.rank)) (x : S_.Idx → α) (j : t.Idx) :
    broadcastInDim t (no_index ![]) h x j = x ix0 :=
  broadcastInDim_apply _ h x j ix0 (fun a => a.elim0)

/-- A positive real is above zero, as the ordered comparison reports it. -/
theorem cmpf_ogt_zero_of_pos {v : EReal} {x : ℝ} (hv : v = ((x : ℝ) : EReal)) (hx : 0 < x) :
    FloatOps.cmpf (F := Ideal) (φ := .f32) .ogt v (0 : EReal) = 1#1 := by
  subst hv
  show BitVec.ofBool (decide ((0 : EReal) < ((x : ℝ) : EReal))) = 1#1
  rw [decide_eq_true (by exact_mod_cast hx)]
  rfl

end Generic

end Cert.ReferenceIdeal.RefValue

end
-- ==== Proof.RefValMath_120000x128.lean ====
import proofs.«143519_j50869592655552_1_alg».proof.Proof.RefValMath0

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.LibMlpBatchNorm
open scoped BigOperators

/-! ### The shapes 120000 × 128, 128, 1 × 128 -/

/-- A row vector broadcast along the rows reads its entry in the same column. -/
theorem bcRow_120000x128 {α : Type} (y : S1x128.Idx → α) (r : Fin 120000) (n : Fin 128) :
    broadcastInDim (no_index S120000x128) (no_index ![0, 1]) bcast_S1x128_S120000x128_0_1 y (no_index (ix2 r n)) = y (ix2 (0 : Fin 1) n) :=
  broadcastInDim_apply _ _ y _ _ (fun a => match a with | ⟨0, _⟩ => rfl | ⟨1, _⟩ => rfl)

/-- A vector laid out as a row vector reads its entry at the column. -/
theorem bcLift_120000x128 {α : Type} (v : S128.Idx → α) (z : Fin 1) (n : Fin 128) :
    broadcastInDim (no_index S1x128) (no_index ![1]) bcast_S128_S1x128_1 v (no_index (ix2 z n)) = v (ix1 n) :=
  broadcastInDim_apply _ _ v _ _ (fun a => match a with | ⟨0, _⟩ => rfl)

/-- The host's sum over the rows, from an initial value: that value plus the sum of the column. -/
theorem reduce_120000x128 (x : FVec Ideal S120000x128 .f32) (init : FVec Ideal S_ .f32) (n : Fin 128) :
    Host.reduceAdd (F := Ideal) x init reducesTo_S120000x128_S128_d0 h_S_ (ix1 n) = init ix0 + ∑ k : Fin 120000, x (ix2 k n) := by
  have hR : S120000x128.Reduces [0] S128 := by decide
  show Ideal.hostReduceAdd reducesTo_S120000x128_S128_d0 x (init (Shape.Idx.first h_S_)) (ix1 n) = _
  rw [Ideal.hostReduceAdd_single _ hR, eq_ix0 (Shape.Idx.first h_S_)]
  exact congrArg (init ix0 + ·) (Finset.sum_congr rfl fun k _ => congrArg x
    (funext fun a => match a with | ⟨0, _⟩ => Fin.ext rfl | ⟨1, _⟩ => Fin.ext rfl))

/-- The column means are the two-pass means. -/
theorem meanArr_120000x128_apply (P : FVec Ideal S120000x128 .f32) (n : Fin 128) :
    meanArr_120000x128 P (ix1 n) = meanR (fun (r : Fin 120000) (c : Fin 128) => P (ix2 r c)) (Ideal.ofBits .f32 0x47EA6000#32) n := by
  unfold meanArr_120000x128 meanR
  rw [hostDivf_apply, reduce_120000x128, bc0_apply, constant_apply, constant_apply, Ideal.ofBits_zero_f32, zero_add]

/-- The column variances are the two-pass variances: the row count less the integer zero is the row count, which is
    positive, so the guarded quotient is the quotient. -/
theorem varArr_120000x128_apply (P : FVec Ideal S120000x128 .f32) (n : Fin 128) :
    varArr_120000x128 P (ix1 n) = varR (fun (r : Fin 120000) (c : Fin 128) => P (ix2 r c)) (Ideal.ofBits .f32 0x47EA6000#32) n := by
  unfold varArr_120000x128 varR meanR
  simp only [select_apply, bc0_apply, cmpf_apply, subf_apply, mulf_apply, constant_apply, sitofp_apply, constantI_apply,
    sitofp_zero, sub_zero, hostDivf_apply, reduce_120000x128, bcRow_120000x128, bcLift_120000x128, Ideal.ofBits_zero_f32, zero_add, id]
  rw [cmpf_ogt_zero_of_pos Cert.Consts.ofBits_120000 (by norm_num), select_one]

/-- The layer read at an entry is the two-pass normalise-and-rectify of the product's entries. -/
theorem layerArr_120000x128_apply (P : FVec Ideal S120000x128 .f32) (gam bet : FVec Ideal S128 .f32) (r : Fin 120000) (n : Fin 128) :
    layerArr_120000x128 P gam bet (ix2 r n)
      = bnReluRef (fun (r : Fin 120000) (c : Fin 128) => P (ix2 r c)) (fun n : Fin 128 => gam (ix1 n)) (fun n : Fin 128 => bet (ix1 n))
          (Ideal.ofBits .f32 0x47EA6000#32) (Ideal.ofBits .f32 0x3727C5AC#32) r n := by
  unfold layerArr_120000x128 bnReluRef
  simp only [maximumf_apply, addf_apply, mulf_apply, subf_apply, bcRow_120000x128, bcLift_120000x128, bc0_apply, constant_apply,
    hostRsqrt_apply, Ideal.ofBits_zero_f32, meanArr_120000x128_apply, varArr_120000x128_apply]

/-- The same as an equation of arrays. -/
theorem layerArr_120000x128_eq (P : FVec Ideal S120000x128 .f32) (gam bet : FVec Ideal S128 .f32) :
    layerArr_120000x128 P gam bet = fun j =>
      bnReluRef (fun (r : Fin 120000) (c : Fin 128) => P (ix2 r c)) (fun n : Fin 128 => gam (ix1 n)) (fun n : Fin 128 => bet (ix1 n))
        (Ideal.ofBits .f32 0x47EA6000#32) (Ideal.ofBits .f32 0x3727C5AC#32) (j 0) (j 1) :=
  funext fun j => (congrArg (layerArr_120000x128 P gam bet) (eq_ix2 j)).trans (layerArr_120000x128_apply P gam bet (j 0) (j 1))

/-- The host's product of a 120000 × 704 array with a 704 × 128 array, read at an entry: the sum over the 704 inner
    indices of the products of the entries (the one contracted axis re-indexed by its coordinate). -/
theorem dot_120000x704x128_apply (X : FVec Ideal S120000x704 .f32) (Wt : FVec Ideal S704x128 .f32) (r : Fin 120000) (n : Fin 128) :
    Host.dotGeneral (F := Ideal) dot_S120000x704_S704x128_S120000x128_1_0_0_1_n_n none X Wt (ix2 r n)
      = mm (fun (r : Fin 120000) (k : Fin 704) => X (ix2 r k)) (fun (k : Fin 704) (n : Fin 128) => Wt (ix2 k n)) r n := by
  have hr : (dot_S120000x704_S704x128_S120000x128_1_0_0_1_n_n).contr.rank = 1 := rfl
  have hs : (dot_S120000x704_S704x128_S120000x128_1_0_0_1_n_n).contr.size ⟨0, by omega⟩ = 704 := rfl
  show FloatOps.dotGeneral dot_S120000x704_S704x128_S120000x128_1_0_0_1_n_n none .single X Wt (ix2 r n) = _
  rw [Ideal.dotGeneral_apply, ← Equiv.sum_comp (contrEquiv1 dot_S120000x704_S704x128_S120000x128_1_0_0_1_n_n 704 hr hs).symm]
  unfold mm
  refine Finset.sum_congr rfl fun k _ => ?_
  have e1 : (dot_S120000x704_S704x128_S120000x128_1_0_0_1_n_n).lhsIdx (ix2 r n) ((contrEquiv1 dot_S120000x704_S704x128_S120000x128_1_0_0_1_n_n 704 hr hs).symm k) = ix2 r k :=
    funext fun a => match a with
      | ⟨0, _⟩ => Fin.ext rfl
      | ⟨1, _⟩ => Fin.ext (contrEquiv1_symm_val dot_S120000x704_S704x128_S120000x128_1_0_0_1_n_n 704 hr hs k)
  have e2 : (dot_S120000x704_S704x128_S120000x128_1_0_0_1_n_n).rhsIdx (ix2 r n) ((contrEquiv1 dot_S120000x704_S704x128_S120000x128_1_0_0_1_n_n 704 hr hs).symm k) = ix2 k n :=
    funext fun a => match a with
      | ⟨0, _⟩ => Fin.ext (contrEquiv1_symm_val dot_S120000x704_S704x128_S120000x128_1_0_0_1_n_n 704 hr hs k)
      | ⟨1, _⟩ => Fin.ext rfl
  rw [e1, e2]

end Cert.ReferenceIdeal.RefValue

end
-- ==== Proof.RefValMath_120000x64.lean ====
import proofs.«143519_j50869592655552_1_alg».proof.Proof.RefValMath0

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.LibMlpBatchNorm
open scoped BigOperators

/-! ### The shapes 120000 × 64, 64, 1 × 64 -/

/-- A row vector broadcast along the rows reads its entry in the same column. -/
theorem bcRow_120000x64 {α : Type} (y : S1x64.Idx → α) (r : Fin 120000) (n : Fin 64) :
    broadcastInDim (no_index S120000x64) (no_index ![0, 1]) bcast_S1x64_S120000x64_0_1 y (no_index (ix2 r n)) = y (ix2 (0 : Fin 1) n) :=
  broadcastInDim_apply _ _ y _ _ (fun a => match a with | ⟨0, _⟩ => rfl | ⟨1, _⟩ => rfl)

/-- A vector laid out as a row vector reads its entry at the column. -/
theorem bcLift_120000x64 {α : Type} (v : S64.Idx → α) (z : Fin 1) (n : Fin 64) :
    broadcastInDim (no_index S1x64) (no_index ![1]) bcast_S64_S1x64_1 v (no_index (ix2 z n)) = v (ix1 n) :=
  broadcastInDim_apply _ _ v _ _ (fun a => match a with | ⟨0, _⟩ => rfl)

/-- The host's sum over the rows, from an initial value: that value plus the sum of the column. -/
theorem reduce_120000x64 (x : FVec Ideal S120000x64 .f32) (init : FVec Ideal S_ .f32) (n : Fin 64) :
    Host.reduceAdd (F := Ideal) x init reducesTo_S120000x64_S64_d0 h_S_ (ix1 n) = init ix0 + ∑ k : Fin 120000, x (ix2 k n) := by
  have hR : S120000x64.Reduces [0] S64 := by decide
  show Ideal.hostReduceAdd reducesTo_S120000x64_S64_d0 x (init (Shape.Idx.first h_S_)) (ix1 n) = _
  rw [Ideal.hostReduceAdd_single _ hR, eq_ix0 (Shape.Idx.first h_S_)]
  exact congrArg (init ix0 + ·) (Finset.sum_congr rfl fun k _ => congrArg x
    (funext fun a => match a with | ⟨0, _⟩ => Fin.ext rfl | ⟨1, _⟩ => Fin.ext rfl))

/-- The column means are the two-pass means. -/
theorem meanArr_120000x64_apply (P : FVec Ideal S120000x64 .f32) (n : Fin 64) :
    meanArr_120000x64 P (ix1 n) = meanR (fun (r : Fin 120000) (c : Fin 64) => P (ix2 r c)) (Ideal.ofBits .f32 0x47EA6000#32) n := by
  unfold meanArr_120000x64 meanR
  rw [hostDivf_apply, reduce_120000x64, bc0_apply, constant_apply, constant_apply, Ideal.ofBits_zero_f32, zero_add]

/-- The column variances are the two-pass variances: the row count less the integer zero is the row count, which is
    positive, so the guarded quotient is the quotient. -/
theorem varArr_120000x64_apply (P : FVec Ideal S120000x64 .f32) (n : Fin 64) :
    varArr_120000x64 P (ix1 n) = varR (fun (r : Fin 120000) (c : Fin 64) => P (ix2 r c)) (Ideal.ofBits .f32 0x47EA6000#32) n := by
  unfold varArr_120000x64 varR meanR
  simp only [select_apply, bc0_apply, cmpf_apply, subf_apply, mulf_apply, constant_apply, sitofp_apply, constantI_apply,
    sitofp_zero, sub_zero, hostDivf_apply, reduce_120000x64, bcRow_120000x64, bcLift_120000x64, Ideal.ofBits_zero_f32, zero_add, id]
  rw [cmpf_ogt_zero_of_pos Cert.Consts.ofBits_120000 (by norm_num), select_one]

/-- The layer read at an entry is the two-pass normalise-and-rectify of the product's entries. -/
theorem layerArr_120000x64_apply (P : FVec Ideal S120000x64 .f32) (gam bet : FVec Ideal S64 .f32) (r : Fin 120000) (n : Fin 64) :
    layerArr_120000x64 P gam bet (ix2 r n)
      = bnReluRef (fun (r : Fin 120000) (c : Fin 64) => P (ix2 r c)) (fun n : Fin 64 => gam (ix1 n)) (fun n : Fin 64 => bet (ix1 n))
          (Ideal.ofBits .f32 0x47EA6000#32) (Ideal.ofBits .f32 0x3727C5AC#32) r n := by
  unfold layerArr_120000x64 bnReluRef
  simp only [maximumf_apply, addf_apply, mulf_apply, subf_apply, bcRow_120000x64, bcLift_120000x64, bc0_apply, constant_apply,
    hostRsqrt_apply, Ideal.ofBits_zero_f32, meanArr_120000x64_apply, varArr_120000x64_apply]

/-- The same as an equation of arrays. -/
theorem layerArr_120000x64_eq (P : FVec Ideal S120000x64 .f32) (gam bet : FVec Ideal S64 .f32) :
    layerArr_120000x64 P gam bet = fun j =>
      bnReluRef (fun (r : Fin 120000) (c : Fin 64) => P (ix2 r c)) (fun n : Fin 64 => gam (ix1 n)) (fun n : Fin 64 => bet (ix1 n))
        (Ideal.ofBits .f32 0x47EA6000#32) (Ideal.ofBits .f32 0x3727C5AC#32) (j 0) (j 1) :=
  funext fun j => (congrArg (layerArr_120000x64 P gam bet) (eq_ix2 j)).trans (layerArr_120000x64_apply P gam bet (j 0) (j 1))

/-- The host's product of a 120000 × 128 array with a 128 × 64 array, read at an entry: the sum over the 128 inner
    indices of the products of the entries (the one contracted axis re-indexed by its coordinate). -/
theorem dot_120000x128x64_apply (X : FVec Ideal S120000x128 .f32) (Wt : FVec Ideal S128x64 .f32) (r : Fin 120000) (n : Fin 64) :
    Host.dotGeneral (F := Ideal) dot_S120000x128_S128x64_S120000x64_1_0_0_1_n_n none X Wt (ix2 r n)
      = mm (fun (r : Fin 120000) (k : Fin 128) => X (ix2 r k)) (fun (k : Fin 128) (n : Fin 64) => Wt (ix2 k n)) r n := by
  have hr : (dot_S120000x128_S128x64_S120000x64_1_0_0_1_n_n).contr.rank = 1 := rfl
  have hs : (dot_S120000x128_S128x64_S120000x64_1_0_0_1_n_n).contr.size ⟨0, by omega⟩ = 128 := rfl
  show FloatOps.dotGeneral dot_S120000x128_S128x64_S120000x64_1_0_0_1_n_n none .single X Wt (ix2 r n) = _
  rw [Ideal.dotGeneral_apply, ← Equiv.sum_comp (contrEquiv1 dot_S120000x128_S128x64_S120000x64_1_0_0_1_n_n 128 hr hs).symm]
  unfold mm
  refine Finset.sum_congr rfl fun k _ => ?_
  have e1 : (dot_S120000x128_S128x64_S120000x64_1_0_0_1_n_n).lhsIdx (ix2 r n) ((contrEquiv1 dot_S120000x128_S128x64_S120000x64_1_0_0_1_n_n 128 hr hs).symm k) = ix2 r k :=
    funext fun a => match a with
      | ⟨0, _⟩ => Fin.ext rfl
      | ⟨1, _⟩ => Fin.ext (contrEquiv1_symm_val dot_S120000x128_S128x64_S120000x64_1_0_0_1_n_n 128 hr hs k)
  have e2 : (dot_S120000x128_S128x64_S120000x64_1_0_0_1_n_n).rhsIdx (ix2 r n) ((contrEquiv1 dot_S120000x128_S128x64_S120000x64_1_0_0_1_n_n 128 hr hs).symm k) = ix2 k n :=
    funext fun a => match a with
      | ⟨0, _⟩ => Fin.ext (contrEquiv1_symm_val dot_S120000x128_S128x64_S120000x64_1_0_0_1_n_n 128 hr hs k)
      | ⟨1, _⟩ => Fin.ext rfl
  rw [e1, e2]

end Cert.ReferenceIdeal.RefValue

end
-- ==== Proof.RefValMlp120000.lean ====
import proofs.«143519_j50869592655552_1_alg».proof.Proof.RefValMath_120000x128
import proofs.«143519_j50869592655552_1_alg».proof.Proof.RefValMath_120000x64

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.LibMlpBatchNorm
open scoped BigOperators

/-- Two layers on 120000 rows (704 → 128 → 64 columns), as the reference spells them on arrays, are the two-pass
    perceptron of the entries: each product is the matrix product of the entries, each layer the two-pass
    normalise-and-rectify of its product, and the second layer's input is the first layer's output. -/
theorem mlp_120000_eq (X : FVec Ideal S120000x704 .f32) (W1 : FVec Ideal S704x128 .f32) (g1 b1 : FVec Ideal S128 .f32)
    (W2 : FVec Ideal S128x64 .f32) (g2 b2 : FVec Ideal S64 .f32) :
    layerArr_120000x64 (Host.dotGeneral (F := Ideal) (φ₁ := .f32) (φ₂ := .f32) dot_S120000x128_S128x64_S120000x64_1_0_0_1_n_n none (layerArr_120000x128 (Host.dotGeneral (F := Ideal) (φ₁ := .f32) (φ₂ := .f32) dot_S120000x704_S704x128_S120000x128_1_0_0_1_n_n none X W1) g1 b1) W2) g2 b2
      = fun j => mlpRef (fun (r : Fin 120000) (k : Fin 704) => X (ix2 r k)) (fun (k : Fin 704) (n : Fin 128) => W1 (ix2 k n)) (fun n : Fin 128 => g1 (ix1 n)) (fun n : Fin 128 => b1 (ix1 n))
          (fun (k : Fin 128) (n : Fin 64) => W2 (ix2 k n)) (fun n : Fin 64 => g2 (ix1 n)) (fun n : Fin 64 => b2 (ix1 n)) (Ideal.ofBits .f32 0x47EA6000#32) (Ideal.ofBits .f32 0x3727C5AC#32) (j 0) (j 1) := by
  have hP1 : (fun (r : Fin 120000) (c : Fin 128) => (Host.dotGeneral (F := Ideal) (φ₁ := .f32) (φ₂ := .f32) dot_S120000x704_S704x128_S120000x128_1_0_0_1_n_n none X W1) (ix2 r c)) = mm (fun (r : Fin 120000) (k : Fin 704) => X (ix2 r k)) (fun (k : Fin 704) (n : Fin 128) => W1 (ix2 k n)) :=
    funext fun r => funext fun c => dot_120000x704x128_apply X W1 r c
  have hH : (fun (r : Fin 120000) (c : Fin 128) => (layerArr_120000x128 (Host.dotGeneral (F := Ideal) (φ₁ := .f32) (φ₂ := .f32) dot_S120000x704_S704x128_S120000x128_1_0_0_1_n_n none X W1) g1 b1) (ix2 r c))
      = bnReluRef (mm (fun (r : Fin 120000) (k : Fin 704) => X (ix2 r k)) (fun (k : Fin 704) (n : Fin 128) => W1 (ix2 k n))) (fun n : Fin 128 => g1 (ix1 n)) (fun n : Fin 128 => b1 (ix1 n)) (Ideal.ofBits .f32 0x47EA6000#32) (Ideal.ofBits .f32 0x3727C5AC#32) := by
    funext r c
    rw [layerArr_120000x128_apply, hP1]
  have hP2 : (fun (r : Fin 120000) (c : Fin 64) => (Host.dotGeneral (F := Ideal) (φ₁ := .f32) (φ₂ := .f32) dot_S120000x128_S128x64_S120000x64_1_0_0_1_n_n none (layerArr_120000x128 (Host.dotGeneral (F := Ideal) (φ₁ := .f32) (φ₂ := .f32) dot_S120000x704_S704x128_S120000x128_1_0_0_1_n_n none X W1) g1 b1) W2) (ix2 r c))
      = mm (bnReluRef (mm (fun (r : Fin 120000) (k : Fin 704) => X (ix2 r k)) (fun (k : Fin 704) (n : Fin 128) => W1 (ix2 k n))) (fun n : Fin 128 => g1 (ix1 n)) (fun n : Fin 128 => b1 (ix1 n)) (Ideal.ofBits .f32 0x47EA6000#32) (Ideal.ofBits .f32 0x3727C5AC#32)) (fun (k : Fin 128) (n : Fin 64) => W2 (ix2 k n)) := by
    funext r c
    rw [dot_120000x128x64_apply, hH]
  rw [layerArr_120000x64_eq, hP2]
  rfl

end Cert.ReferenceIdeal.RefValue

end
-- ==== Proof.RefValMath_150000x128.lean ====
import proofs.«143519_j50869592655552_1_alg».proof.Proof.RefValMath0

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.LibMlpBatchNorm
open scoped BigOperators

/-! ### The shapes 150000 × 128, 128, 1 × 128 -/

/-- A row vector broadcast along the rows reads its entry in the same column. -/
theorem bcRow_150000x128 {α : Type} (y : S1x128.Idx → α) (r : Fin 150000) (n : Fin 128) :
    broadcastInDim (no_index S150000x128) (no_index ![0, 1]) bcast_S1x128_S150000x128_0_1 y (no_index (ix2 r n)) = y (ix2 (0 : Fin 1) n) :=
  broadcastInDim_apply _ _ y _ _ (fun a => match a with | ⟨0, _⟩ => rfl | ⟨1, _⟩ => rfl)

/-- A vector laid out as a row vector reads its entry at the column. -/
theorem bcLift_150000x128 {α : Type} (v : S128.Idx → α) (z : Fin 1) (n : Fin 128) :
    broadcastInDim (no_index S1x128) (no_index ![1]) bcast_S128_S1x128_1 v (no_index (ix2 z n)) = v (ix1 n) :=
  broadcastInDim_apply _ _ v _ _ (fun a => match a with | ⟨0, _⟩ => rfl)

/-- The host's sum over the rows, from an initial value: that value plus the sum of the column. -/
theorem reduce_150000x128 (x : FVec Ideal S150000x128 .f32) (init : FVec Ideal S_ .f32) (n : Fin 128) :
    Host.reduceAdd (F := Ideal) x init reducesTo_S150000x128_S128_d0 h_S_ (ix1 n) = init ix0 + ∑ k : Fin 150000, x (ix2 k n) := by
  have hR : S150000x128.Reduces [0] S128 := by decide
  show Ideal.hostReduceAdd reducesTo_S150000x128_S128_d0 x (init (Shape.Idx.first h_S_)) (ix1 n) = _
  rw [Ideal.hostReduceAdd_single _ hR, eq_ix0 (Shape.Idx.first h_S_)]
  exact congrArg (init ix0 + ·) (Finset.sum_congr rfl fun k _ => congrArg x
    (funext fun a => match a with | ⟨0, _⟩ => Fin.ext rfl | ⟨1, _⟩ => Fin.ext rfl))

/-- The column means are the two-pass means. -/
theorem meanArr_150000x128_apply (P : FVec Ideal S150000x128 .f32) (n : Fin 128) :
    meanArr_150000x128 P (ix1 n) = meanR (fun (r : Fin 150000) (c : Fin 128) => P (ix2 r c)) (Ideal.ofBits .f32 0x48127C00#32) n := by
  unfold meanArr_150000x128 meanR
  rw [hostDivf_apply, reduce_150000x128, bc0_apply, constant_apply, constant_apply, Ideal.ofBits_zero_f32, zero_add]

/-- The column variances are the two-pass variances: the row count less the integer zero is the row count, which is
    positive, so the guarded quotient is the quotient. -/
theorem varArr_150000x128_apply (P : FVec Ideal S150000x128 .f32) (n : Fin 128) :
    varArr_150000x128 P (ix1 n) = varR (fun (r : Fin 150000) (c : Fin 128) => P (ix2 r c)) (Ideal.ofBits .f32 0x48127C00#32) n := by
  unfold varArr_150000x128 varR meanR
  simp only [select_apply, bc0_apply, cmpf_apply, subf_apply, mulf_apply, constant_apply, sitofp_apply, constantI_apply,
    sitofp_zero, sub_zero, hostDivf_apply, reduce_150000x128, bcRow_150000x128, bcLift_150000x128, Ideal.ofBits_zero_f32, zero_add, id]
  rw [cmpf_ogt_zero_of_pos Cert.Consts.ofBits_150000 (by norm_num), select_one]

/-- The layer read at an entry is the two-pass normalise-and-rectify of the product's entries. -/
theorem layerArr_150000x128_apply (P : FVec Ideal S150000x128 .f32) (gam bet : FVec Ideal S128 .f32) (r : Fin 150000) (n : Fin 128) :
    layerArr_150000x128 P gam bet (ix2 r n)
      = bnReluRef (fun (r : Fin 150000) (c : Fin 128) => P (ix2 r c)) (fun n : Fin 128 => gam (ix1 n)) (fun n : Fin 128 => bet (ix1 n))
          (Ideal.ofBits .f32 0x48127C00#32) (Ideal.ofBits .f32 0x3727C5AC#32) r n := by
  unfold layerArr_150000x128 bnReluRef
  simp only [maximumf_apply, addf_apply, mulf_apply, subf_apply, bcRow_150000x128, bcLift_150000x128, bc0_apply, constant_apply,
    hostRsqrt_apply, Ideal.ofBits_zero_f32, meanArr_150000x128_apply, varArr_150000x128_apply]

/-- The same as an equation of arrays. -/
theorem layerArr_150000x128_eq (P : FVec Ideal S150000x128 .f32) (gam bet : FVec Ideal S128 .f32) :
    layerArr_150000x128 P gam bet = fun j =>
      bnReluRef (fun (r : Fin 150000) (c : Fin 128) => P (ix2 r c)) (fun n : Fin 128 => gam (ix1 n)) (fun n : Fin 128 => bet (ix1 n))
        (Ideal.ofBits .f32 0x48127C00#32) (Ideal.ofBits .f32 0x3727C5AC#32) (j 0) (j 1) :=
  funext fun j => (congrArg (layerArr_150000x128 P gam bet) (eq_ix2 j)).trans (layerArr_150000x128_apply P gam bet (j 0) (j 1))

/-- The host's product of a 150000 × 320 array with a 320 × 128 array, read at an entry: the sum over the 320 inner
    indices of the products of the entries (the one contracted axis re-indexed by its coordinate). -/
theorem dot_150000x320x128_apply (X : FVec Ideal S150000x320 .f32) (Wt : FVec Ideal S320x128 .f32) (r : Fin 150000) (n : Fin 128) :
    Host.dotGeneral (F := Ideal) dot_S150000x320_S320x128_S150000x128_1_0_0_1_n_n none X Wt (ix2 r n)
      = mm (fun (r : Fin 150000) (k : Fin 320) => X (ix2 r k)) (fun (k : Fin 320) (n : Fin 128) => Wt (ix2 k n)) r n := by
  have hr : (dot_S150000x320_S320x128_S150000x128_1_0_0_1_n_n).contr.rank = 1 := rfl
  have hs : (dot_S150000x320_S320x128_S150000x128_1_0_0_1_n_n).contr.size ⟨0, by omega⟩ = 320 := rfl
  show FloatOps.dotGeneral dot_S150000x320_S320x128_S150000x128_1_0_0_1_n_n none .single X Wt (ix2 r n) = _
  rw [Ideal.dotGeneral_apply, ← Equiv.sum_comp (contrEquiv1 dot_S150000x320_S320x128_S150000x128_1_0_0_1_n_n 320 hr hs).symm]
  unfold mm
  refine Finset.sum_congr rfl fun k _ => ?_
  have e1 : (dot_S150000x320_S320x128_S150000x128_1_0_0_1_n_n).lhsIdx (ix2 r n) ((contrEquiv1 dot_S150000x320_S320x128_S150000x128_1_0_0_1_n_n 320 hr hs).symm k) = ix2 r k :=
    funext fun a => match a with
      | ⟨0, _⟩ => Fin.ext rfl
      | ⟨1, _⟩ => Fin.ext (contrEquiv1_symm_val dot_S150000x320_S320x128_S150000x128_1_0_0_1_n_n 320 hr hs k)
  have e2 : (dot_S150000x320_S320x128_S150000x128_1_0_0_1_n_n).rhsIdx (ix2 r n) ((contrEquiv1 dot_S150000x320_S320x128_S150000x128_1_0_0_1_n_n 320 hr hs).symm k) = ix2 k n :=
    funext fun a => match a with
      | ⟨0, _⟩ => Fin.ext (contrEquiv1_symm_val dot_S150000x320_S320x128_S150000x128_1_0_0_1_n_n 320 hr hs k)
      | ⟨1, _⟩ => Fin.ext rfl
  rw [e1, e2]

end Cert.ReferenceIdeal.RefValue

end
-- ==== Proof.RefValMath_150000x64.lean ====
import proofs.«143519_j50869592655552_1_alg».proof.Proof.RefValMath0

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.LibMlpBatchNorm
open scoped BigOperators

/-! ### The shapes 150000 × 64, 64, 1 × 64 -/

/-- A row vector broadcast along the rows reads its entry in the same column. -/
theorem bcRow_150000x64 {α : Type} (y : S1x64.Idx → α) (r : Fin 150000) (n : Fin 64) :
    broadcastInDim (no_index S150000x64) (no_index ![0, 1]) bcast_S1x64_S150000x64_0_1 y (no_index (ix2 r n)) = y (ix2 (0 : Fin 1) n) :=
  broadcastInDim_apply _ _ y _ _ (fun a => match a with | ⟨0, _⟩ => rfl | ⟨1, _⟩ => rfl)

/-- A vector laid out as a row vector reads its entry at the column. -/
theorem bcLift_150000x64 {α : Type} (v : S64.Idx → α) (z : Fin 1) (n : Fin 64) :
    broadcastInDim (no_index S1x64) (no_index ![1]) bcast_S64_S1x64_1 v (no_index (ix2 z n)) = v (ix1 n) :=
  broadcastInDim_apply _ _ v _ _ (fun a => match a with | ⟨0, _⟩ => rfl)

/-- The host's sum over the rows, from an initial value: that value plus the sum of the column. -/
theorem reduce_150000x64 (x : FVec Ideal S150000x64 .f32) (init : FVec Ideal S_ .f32) (n : Fin 64) :
    Host.reduceAdd (F := Ideal) x init reducesTo_S150000x64_S64_d0 h_S_ (ix1 n) = init ix0 + ∑ k : Fin 150000, x (ix2 k n) := by
  have hR : S150000x64.Reduces [0] S64 := by decide
  show Ideal.hostReduceAdd reducesTo_S150000x64_S64_d0 x (init (Shape.Idx.first h_S_)) (ix1 n) = _
  rw [Ideal.hostReduceAdd_single _ hR, eq_ix0 (Shape.Idx.first h_S_)]
  exact congrArg (init ix0 + ·) (Finset.sum_congr rfl fun k _ => congrArg x
    (funext fun a => match a with | ⟨0, _⟩ => Fin.ext rfl | ⟨1, _⟩ => Fin.ext rfl))

/-- The column means are the two-pass means. -/
theorem meanArr_150000x64_apply (P : FVec Ideal S150000x64 .f32) (n : Fin 64) :
    meanArr_150000x64 P (ix1 n) = meanR (fun (r : Fin 150000) (c : Fin 64) => P (ix2 r c)) (Ideal.ofBits .f32 0x48127C00#32) n := by
  unfold meanArr_150000x64 meanR
  rw [hostDivf_apply, reduce_150000x64, bc0_apply, constant_apply, constant_apply, Ideal.ofBits_zero_f32, zero_add]

/-- The column variances are the two-pass variances: the row count less the integer zero is the row count, which is
    positive, so the guarded quotient is the quotient. -/
theorem varArr_150000x64_apply (P : FVec Ideal S150000x64 .f32) (n : Fin 64) :
    varArr_150000x64 P (ix1 n) = varR (fun (r : Fin 150000) (c : Fin 64) => P (ix2 r c)) (Ideal.ofBits .f32 0x48127C00#32) n := by
  unfold varArr_150000x64 varR meanR
  simp only [select_apply, bc0_apply, cmpf_apply, subf_apply, mulf_apply, constant_apply, sitofp_apply, constantI_apply,
    sitofp_zero, sub_zero, hostDivf_apply, reduce_150000x64, bcRow_150000x64, bcLift_150000x64, Ideal.ofBits_zero_f32, zero_add, id]
  rw [cmpf_ogt_zero_of_pos Cert.Consts.ofBits_150000 (by norm_num), select_one]

/-- The layer read at an entry is the two-pass normalise-and-rectify of the product's entries. -/
theorem layerArr_150000x64_apply (P : FVec Ideal S150000x64 .f32) (gam bet : FVec Ideal S64 .f32) (r : Fin 150000) (n : Fin 64) :
    layerArr_150000x64 P gam bet (ix2 r n)
      = bnReluRef (fun (r : Fin 150000) (c : Fin 64) => P (ix2 r c)) (fun n : Fin 64 => gam (ix1 n)) (fun n : Fin 64 => bet (ix1 n))
          (Ideal.ofBits .f32 0x48127C00#32) (Ideal.ofBits .f32 0x3727C5AC#32) r n := by
  unfold layerArr_150000x64 bnReluRef
  simp only [maximumf_apply, addf_apply, mulf_apply, subf_apply, bcRow_150000x64, bcLift_150000x64, bc0_apply, constant_apply,
    hostRsqrt_apply, Ideal.ofBits_zero_f32, meanArr_150000x64_apply, varArr_150000x64_apply]

/-- The same as an equation of arrays. -/
theorem layerArr_150000x64_eq (P : FVec Ideal S150000x64 .f32) (gam bet : FVec Ideal S64 .f32) :
    layerArr_150000x64 P gam bet = fun j =>
      bnReluRef (fun (r : Fin 150000) (c : Fin 64) => P (ix2 r c)) (fun n : Fin 64 => gam (ix1 n)) (fun n : Fin 64 => bet (ix1 n))
        (Ideal.ofBits .f32 0x48127C00#32) (Ideal.ofBits .f32 0x3727C5AC#32) (j 0) (j 1) :=
  funext fun j => (congrArg (layerArr_150000x64 P gam bet) (eq_ix2 j)).trans (layerArr_150000x64_apply P gam bet (j 0) (j 1))

/-- The host's product of a 150000 × 128 array with a 128 × 64 array, read at an entry: the sum over the 128 inner
    indices of the products of the entries (the one contracted axis re-indexed by its coordinate). -/
theorem dot_150000x128x64_apply (X : FVec Ideal S150000x128 .f32) (Wt : FVec Ideal S128x64 .f32) (r : Fin 150000) (n : Fin 64) :
    Host.dotGeneral (F := Ideal) dot_S150000x128_S128x64_S150000x64_1_0_0_1_n_n none X Wt (ix2 r n)
      = mm (fun (r : Fin 150000) (k : Fin 128) => X (ix2 r k)) (fun (k : Fin 128) (n : Fin 64) => Wt (ix2 k n)) r n := by
  have hr : (dot_S150000x128_S128x64_S150000x64_1_0_0_1_n_n).contr.rank = 1 := rfl
  have hs : (dot_S150000x128_S128x64_S150000x64_1_0_0_1_n_n).contr.size ⟨0, by omega⟩ = 128 := rfl
  show FloatOps.dotGeneral dot_S150000x128_S128x64_S150000x64_1_0_0_1_n_n none .single X Wt (ix2 r n) = _
  rw [Ideal.dotGeneral_apply, ← Equiv.sum_comp (contrEquiv1 dot_S150000x128_S128x64_S150000x64_1_0_0_1_n_n 128 hr hs).symm]
  unfold mm
  refine Finset.sum_congr rfl fun k _ => ?_
  have e1 : (dot_S150000x128_S128x64_S150000x64_1_0_0_1_n_n).lhsIdx (ix2 r n) ((contrEquiv1 dot_S150000x128_S128x64_S150000x64_1_0_0_1_n_n 128 hr hs).symm k) = ix2 r k :=
    funext fun a => match a with
      | ⟨0, _⟩ => Fin.ext rfl
      | ⟨1, _⟩ => Fin.ext (contrEquiv1_symm_val dot_S150000x128_S128x64_S150000x64_1_0_0_1_n_n 128 hr hs k)
  have e2 : (dot_S150000x128_S128x64_S150000x64_1_0_0_1_n_n).rhsIdx (ix2 r n) ((contrEquiv1 dot_S150000x128_S128x64_S150000x64_1_0_0_1_n_n 128 hr hs).symm k) = ix2 k n :=
    funext fun a => match a with
      | ⟨0, _⟩ => Fin.ext (contrEquiv1_symm_val dot_S150000x128_S128x64_S150000x64_1_0_0_1_n_n 128 hr hs k)
      | ⟨1, _⟩ => Fin.ext rfl
  rw [e1, e2]

end Cert.ReferenceIdeal.RefValue

end
-- ==== Proof.RefValMlp150000.lean ====
import proofs.«143519_j50869592655552_1_alg».proof.Proof.RefValMath_150000x128
import proofs.«143519_j50869592655552_1_alg».proof.Proof.RefValMath_150000x64

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.LibMlpBatchNorm
open scoped BigOperators

/-- Two layers on 150000 rows (320 → 128 → 64 columns), as the reference spells them on arrays, are the two-pass
    perceptron of the entries: each product is the matrix product of the entries, each layer the two-pass
    normalise-and-rectify of its product, and the second layer's input is the first layer's output. -/
theorem mlp_150000_eq (X : FVec Ideal S150000x320 .f32) (W1 : FVec Ideal S320x128 .f32) (g1 b1 : FVec Ideal S128 .f32)
    (W2 : FVec Ideal S128x64 .f32) (g2 b2 : FVec Ideal S64 .f32) :
    layerArr_150000x64 (Host.dotGeneral (F := Ideal) (φ₁ := .f32) (φ₂ := .f32) dot_S150000x128_S128x64_S150000x64_1_0_0_1_n_n none (layerArr_150000x128 (Host.dotGeneral (F := Ideal) (φ₁ := .f32) (φ₂ := .f32) dot_S150000x320_S320x128_S150000x128_1_0_0_1_n_n none X W1) g1 b1) W2) g2 b2
      = fun j => mlpRef (fun (r : Fin 150000) (k : Fin 320) => X (ix2 r k)) (fun (k : Fin 320) (n : Fin 128) => W1 (ix2 k n)) (fun n : Fin 128 => g1 (ix1 n)) (fun n : Fin 128 => b1 (ix1 n))
          (fun (k : Fin 128) (n : Fin 64) => W2 (ix2 k n)) (fun n : Fin 64 => g2 (ix1 n)) (fun n : Fin 64 => b2 (ix1 n)) (Ideal.ofBits .f32 0x48127C00#32) (Ideal.ofBits .f32 0x3727C5AC#32) (j 0) (j 1) := by
  have hP1 : (fun (r : Fin 150000) (c : Fin 128) => (Host.dotGeneral (F := Ideal) (φ₁ := .f32) (φ₂ := .f32) dot_S150000x320_S320x128_S150000x128_1_0_0_1_n_n none X W1) (ix2 r c)) = mm (fun (r : Fin 150000) (k : Fin 320) => X (ix2 r k)) (fun (k : Fin 320) (n : Fin 128) => W1 (ix2 k n)) :=
    funext fun r => funext fun c => dot_150000x320x128_apply X W1 r c
  have hH : (fun (r : Fin 150000) (c : Fin 128) => (layerArr_150000x128 (Host.dotGeneral (F := Ideal) (φ₁ := .f32) (φ₂ := .f32) dot_S150000x320_S320x128_S150000x128_1_0_0_1_n_n none X W1) g1 b1) (ix2 r c))
      = bnReluRef (mm (fun (r : Fin 150000) (k : Fin 320) => X (ix2 r k)) (fun (k : Fin 320) (n : Fin 128) => W1 (ix2 k n))) (fun n : Fin 128 => g1 (ix1 n)) (fun n : Fin 128 => b1 (ix1 n)) (Ideal.ofBits .f32 0x48127C00#32) (Ideal.ofBits .f32 0x3727C5AC#32) := by
    funext r c
    rw [layerArr_150000x128_apply, hP1]
  have hP2 : (fun (r : Fin 150000) (c : Fin 64) => (Host.dotGeneral (F := Ideal) (φ₁ := .f32) (φ₂ := .f32) dot_S150000x128_S128x64_S150000x64_1_0_0_1_n_n none (layerArr_150000x128 (Host.dotGeneral (F := Ideal) (φ₁ := .f32) (φ₂ := .f32) dot_S150000x320_S320x128_S150000x128_1_0_0_1_n_n none X W1) g1 b1) W2) (ix2 r c))
      = mm (bnReluRef (mm (fun (r : Fin 150000) (k : Fin 320) => X (ix2 r k)) (fun (k : Fin 320) (n : Fin 128) => W1 (ix2 k n))) (fun n : Fin 128 => g1 (ix1 n)) (fun n : Fin 128 => b1 (ix1 n)) (Ideal.ofBits .f32 0x48127C00#32) (Ideal.ofBits .f32 0x3727C5AC#32)) (fun (k : Fin 128) (n : Fin 64) => W2 (ix2 k n)) := by
    funext r c
    rw [dot_150000x128x64_apply, hH]
  rw [layerArr_150000x64_eq, hP2]
  rfl

end Cert.ReferenceIdeal.RefValue

end
-- ==== Proof.RefValue.lean ====
import proofs.«143519_j50869592655552_1_alg».proof.Proof.RefRun
import proofs.«143519_j50869592655552_1_alg».proof.Proof.RefValSegG
import proofs.«143519_j50869592655552_1_alg».proof.Proof.RefValSegL1
import proofs.«143519_j50869592655552_1_alg».proof.Proof.RefValSegL2
import proofs.«143519_j50869592655552_1_alg».proof.Proof.RefValSegL3
import proofs.«143519_j50869592655552_1_alg».proof.Proof.RefValSegL4
import proofs.«143519_j50869592655552_1_alg».proof.Proof.RefValSegL5
import proofs.«143519_j50869592655552_1_alg».proof.Proof.RefValSegL6
import proofs.«143519_j50869592655552_1_alg».proof.Proof.RefValL1
import proofs.«143519_j50869592655552_1_alg».proof.Proof.RefValL2
import proofs.«143519_j50869592655552_1_alg».proof.Proof.RefValL3
import proofs.«143519_j50869592655552_1_alg».proof.Proof.RefValL4
import proofs.«143519_j50869592655552_1_alg».proof.Proof.RefValL5
import proofs.«143519_j50869592655552_1_alg».proof.Proof.RefValL6
import proofs.«143519_j50869592655552_1_alg».proof.Proof.RefValMlp120000
import proofs.«143519_j50869592655552_1_alg».proof.Proof.RefValMlp150000
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.LibMlpBatchNorm
open scoped BigOperators

section Split
variable {F : FTy → Type} [FloatOps F]

set_option maxRecDepth 16384 in
/-- The reference's straight line, cut where the three perceptrons' six layers begin: the same operations in the same order. -/
theorem ops_split : (RefRun.ops : List (HloOp τ sig (Elt F)))
    = segG ++ (segL1 ++ (segL2 ++ (segL3 ++ (segL4 ++ (segL5 ++ segL6))))) := rfl

/-- So the contents after the whole line are the seven pieces' folds, one inside the next. -/
theorem after_split (V : Valuation τ sig (Elt F)) :
    after RefRun.ops V = after segL6 (after segL5 (after segL4 (after segL3 (after segL2 (after segL1 (after segG V)))))) := by
  rw [ops_split]
  simp only [after_append]

end Split

set_option maxRecDepth 8192 in
/-- The reference's result `main_v180`: the two-pass perceptron of the entries of the buffer `main_v138` (as the whole
    line leaves it) and of the six weight, scale and shift arguments at launch. The buffer `main_v138` is written before
    the perceptron's operations and by none of them, the arguments by no operation; the two layers' operations put
    the layers' arithmetic in the result (`segL1_out`, `segL2_out`), which is the two-pass perceptron (`mlp_120000_eq`). -/
theorem ref_edge (m : (ℓ : Loc nD τ sig) → Buf (Elt Ideal) ℓ) (c : Dev nD) :
    (StableHlo.after (RefRun.ops (F := Ideal)) (fun b => m (c, b)) (Proc.devRef .tc main_v180) : S120000x64.Idx → EReal) = fun j =>
      Cert.LibMlpBatchNorm.mlpRef
        (fun (r : Fin 120000) (k : Fin 704) => (StableHlo.after (RefRun.ops (F := Ideal)) (fun b => m (c, b)) (Proc.devRef .tc main_v138) : S120000x704.Idx → EReal) (ValueIdx.ix2 r k))
        (fun (k : Fin 704) (n : Fin 128) => (m ((c.tc : Thread nD τ).loc main_arg6) : S704x128.Idx → EReal) (ValueIdx.ix2 k n))
        (fun n : Fin 128 => (m ((c.tc : Thread nD τ).loc main_arg7) : S128.Idx → EReal) (ValueIdx.ix1 n))
        (fun n : Fin 128 => (m ((c.tc : Thread nD τ).loc main_arg8) : S128.Idx → EReal) (ValueIdx.ix1 n))
        (fun (k : Fin 128) (n : Fin 64) => (m ((c.tc : Thread nD τ).loc main_arg9) : S128x64.Idx → EReal) (ValueIdx.ix2 k n))
        (fun n : Fin 64 => (m ((c.tc : Thread nD τ).loc main_arg10) : S64.Idx → EReal) (ValueIdx.ix1 n))
        (fun n : Fin 64 => (m ((c.tc : Thread nD τ).loc main_arg11) : S64.Idx → EReal) (ValueIdx.ix1 n))
        (Ideal.ofBits .f32 0x47EA6000#32) (Ideal.ofBits .f32 0x3727C5AC#32) (j 0) (j 1) := by
  have hX : StableHlo.after (RefRun.ops (F := Ideal)) (fun b => m (c, b)) (Proc.devRef .tc main_v138) = after (segG (F := Ideal)) (fun b => m (c, b)) (Proc.devRef .tc main_v138) := by
    rw [after_split, keepL6 _ main_v138 (by decide),
      keepL5 _ main_v138 (by decide),
      keepL4 _ main_v138 (by decide),
      keepL3 _ main_v138 (by decide),
      keepL2 _ main_v138 (by decide),
      keepL1 _ main_v138 (by decide)]
  have hOut : StableHlo.after (RefRun.ops (F := Ideal)) (fun b => m (c, b)) (Proc.devRef .tc main_v180)
      = layerArr_120000x64 (Host.dotGeneral (F := Ideal) (φ₁ := .f32) (φ₂ := .f32) dot_S120000x128_S128x64_S120000x64_1_0_0_1_n_n none (layerArr_120000x128 (Host.dotGeneral (F := Ideal) (φ₁ := .f32) (φ₂ := .f32) dot_S120000x704_S704x128_S120000x128_1_0_0_1_n_n none (after (segG (F := Ideal)) (fun b => m (c, b)) (Proc.devRef .tc main_v138)) ((fun b => m (c, b)) (Proc.devRef .tc main_arg6))) ((fun b => m (c, b)) (Proc.devRef .tc main_arg7)) ((fun b => m (c, b)) (Proc.devRef .tc main_arg8))) ((fun b => m (c, b)) (Proc.devRef .tc main_arg9))) ((fun b => m (c, b)) (Proc.devRef .tc main_arg10)) ((fun b => m (c, b)) (Proc.devRef .tc main_arg11)) := by
    rw [after_split, keepL6 _ main_v180 (by decide),
      keepL5 _ main_v180 (by decide),
      keepL4 _ main_v180 (by decide),
      keepL3 _ main_v180 (by decide),
      segL2_out,
      keepL1 _ main_arg9 (by decide),
      keepG _ main_arg9 (by decide),
      keepL1 _ main_arg10 (by decide),
      keepG _ main_arg10 (by decide),
      keepL1 _ main_arg11 (by decide),
      keepG _ main_arg11 (by decide),
      segL1_out,
      keepG _ main_arg6 (by decide),
      keepG _ main_arg7 (by decide),
      keepG _ main_arg8 (by decide)]
  rw [hOut, hX]
  exact mlp_120000_eq _ _ _ _ _ _ _

set_option maxRecDepth 8192 in
/-- The reference's result `main_v222`: the two-pass perceptron of the entries of the buffer `main_v93` (as the whole
    line leaves it) and of the six weight, scale and shift arguments at launch. The buffer `main_v93` is written before
    the perceptron's operations and by none of them, the arguments by no operation; the two layers' operations put
    the layers' arithmetic in the result (`segL3_out`, `segL4_out`), which is the two-pass perceptron (`mlp_150000_eq`). -/
theorem ref_c5 (m : (ℓ : Loc nD τ sig) → Buf (Elt Ideal) ℓ) (c : Dev nD) :
    (StableHlo.after (RefRun.ops (F := Ideal)) (fun b => m (c, b)) (Proc.devRef .tc main_v222) : S150000x64.Idx → EReal) = fun j =>
      Cert.LibMlpBatchNorm.mlpRef
        (fun (r : Fin 150000) (k : Fin 320) => (StableHlo.after (RefRun.ops (F := Ideal)) (fun b => m (c, b)) (Proc.devRef .tc main_v93) : S150000x320.Idx → EReal) (ValueIdx.ix2 r k))
        (fun (k : Fin 320) (n : Fin 128) => (m ((c.tc : Thread nD τ).loc main_arg12) : S320x128.Idx → EReal) (ValueIdx.ix2 k n))
        (fun n : Fin 128 => (m ((c.tc : Thread nD τ).loc main_arg13) : S128.Idx → EReal) (ValueIdx.ix1 n))
        (fun n : Fin 128 => (m ((c.tc : Thread nD τ).loc main_arg14) : S128.Idx → EReal) (ValueIdx.ix1 n))
        (fun (k : Fin 128) (n : Fin 64) => (m ((c.tc : Thread nD τ).loc main_arg15) : S128x64.Idx → EReal) (ValueIdx.ix2 k n))
        (fun n : Fin 64 => (m ((c.tc : Thread nD τ).loc main_arg16) : S64.Idx → EReal) (ValueIdx.ix1 n))
        (fun n : Fin 64 => (m ((c.tc : Thread nD τ).loc main_arg17) : S64.Idx → EReal) (ValueIdx.ix1 n))
        (Ideal.ofBits .f32 0x48127C00#32) (Ideal.ofBits .f32 0x3727C5AC#32) (j 0) (j 1) := by
  have hX : StableHlo.after (RefRun.ops (F := Ideal)) (fun b => m (c, b)) (Proc.devRef .tc main_v93) = after (segG (F := Ideal)) (fun b => m (c, b)) (Proc.devRef .tc main_v93) := by
    rw [after_split, keepL6 _ main_v93 (by decide),
      keepL5 _ main_v93 (by decide),
      keepL4 _ main_v93 (by decide),
      keepL3 _ main_v93 (by decide),
      keepL2 _ main_v93 (by decide),
      keepL1 _ main_v93 (by decide)]
  have hOut : StableHlo.after (RefRun.ops (F := Ideal)) (fun b => m (c, b)) (Proc.devRef .tc main_v222)
      = layerArr_150000x64 (Host.dotGeneral (F := Ideal) (φ₁ := .f32) (φ₂ := .f32) dot_S150000x128_S128x64_S150000x64_1_0_0_1_n_n none (layerArr_150000x128 (Host.dotGeneral (F := Ideal) (φ₁ := .f32) (φ₂ := .f32) dot_S150000x320_S320x128_S150000x128_1_0_0_1_n_n none (after (segG (F := Ideal)) (fun b => m (c, b)) (Proc.devRef .tc main_v93)) ((fun b => m (c, b)) (Proc.devRef .tc main_arg12))) ((fun b => m (c, b)) (Proc.devRef .tc main_arg13)) ((fun b => m (c, b)) (Proc.devRef .tc main_arg14))) ((fun b => m (c, b)) (Proc.devRef .tc main_arg15))) ((fun b => m (c, b)) (Proc.devRef .tc main_arg16)) ((fun b => m (c, b)) (Proc.devRef .tc main_arg17)) := by
    rw [after_split, keepL6 _ main_v222 (by decide),
      keepL5 _ main_v222 (by decide),
      segL4_out,
      keepL3 _ main_arg15 (by decide),
      keepL2 _ main_arg15 (by decide),
      keepL1 _ main_arg15 (by decide),
      keepG _ main_arg15 (by decide),
      keepL3 _ main_arg16 (by decide),
      keepL2 _ main_arg16 (by decide),
      keepL1 _ main_arg16 (by decide),
      keepG _ main_arg16 (by decide),
      keepL3 _ main_arg17 (by decide),
      keepL2 _ main_arg17 (by decide),
      keepL1 _ main_arg17 (by decide),
      keepG _ main_arg17 (by decide),
      segL3_out,
      keepL2 _ main_arg12 (by decide),
      keepL1 _ main_arg12 (by decide),
      keepG _ main_arg12 (by decide),
      keepL2 _ main_arg13 (by decide),
      keepL1 _ main_arg13 (by decide),
      keepG _ main_arg13 (by decide),
      keepL2 _ main_arg14 (by decide),
      keepL1 _ main_arg14 (by decide),
      keepG _ main_arg14 (by decide),
      keepL2 _ main_v93 (by decide),
      keepL1 _ main_v93 (by decide)]
  rw [hOut, hX]
  exact mlp_150000_eq _ _ _ _ _ _ _

set_option maxRecDepth 8192 in
/-- The reference's result `main_v264`: the two-pass perceptron of the entries of the buffer `main_v94` (as the whole
    line leaves it) and of the six weight, scale and shift arguments at launch. The buffer `main_v94` is written before
    the perceptron's operations and by none of them, the arguments by no operation; the two layers' operations put
    the layers' arithmetic in the result (`segL5_out`, `segL6_out`), which is the two-pass perceptron (`mlp_150000_eq`). -/
theorem ref_c6 (m : (ℓ : Loc nD τ sig) → Buf (Elt Ideal) ℓ) (c : Dev nD) :
    (StableHlo.after (RefRun.ops (F := Ideal)) (fun b => m (c, b)) (Proc.devRef .tc main_v264) : S150000x64.Idx → EReal) = fun j =>
      Cert.LibMlpBatchNorm.mlpRef
        (fun (r : Fin 150000) (k : Fin 320) => (StableHlo.after (RefRun.ops (F := Ideal)) (fun b => m (c, b)) (Proc.devRef .tc main_v94) : S150000x320.Idx → EReal) (ValueIdx.ix2 r k))
        (fun (k : Fin 320) (n : Fin 128) => (m ((c.tc : Thread nD τ).loc main_arg12) : S320x128.Idx → EReal) (ValueIdx.ix2 k n))
        (fun n : Fin 128 => (m ((c.tc : Thread nD τ).loc main_arg13) : S128.Idx → EReal) (ValueIdx.ix1 n))
        (fun n : Fin 128 => (m ((c.tc : Thread nD τ).loc main_arg14) : S128.Idx → EReal) (ValueIdx.ix1 n))
        (fun (k : Fin 128) (n : Fin 64) => (m ((c.tc : Thread nD τ).loc main_arg15) : S128x64.Idx → EReal) (ValueIdx.ix2 k n))
        (fun n : Fin 64 => (m ((c.tc : Thread nD τ).loc main_arg16) : S64.Idx → EReal) (ValueIdx.ix1 n))
        (fun n : Fin 64 => (m ((c.tc : Thread nD τ).loc main_arg17) : S64.Idx → EReal) (ValueIdx.ix1 n))
        (Ideal.ofBits .f32 0x48127C00#32) (Ideal.ofBits .f32 0x3727C5AC#32) (j 0) (j 1) := by
  have hX : StableHlo.after (RefRun.ops (F := Ideal)) (fun b => m (c, b)) (Proc.devRef .tc main_v94) = after (segG (F := Ideal)) (fun b => m (c, b)) (Proc.devRef .tc main_v94) := by
    rw [after_split, keepL6 _ main_v94 (by decide),
      keepL5 _ main_v94 (by decide),
      keepL4 _ main_v94 (by decide),
      keepL3 _ main_v94 (by decide),
      keepL2 _ main_v94 (by decide),
      keepL1 _ main_v94 (by decide)]
  have hOut : StableHlo.after (RefRun.ops (F := Ideal)) (fun b => m (c, b)) (Proc.devRef .tc main_v264)
      = layerArr_150000x64 (Host.dotGeneral (F := Ideal) (φ₁ := .f32) (φ₂ := .f32) dot_S150000x128_S128x64_S150000x64_1_0_0_1_n_n none (layerArr_150000x128 (Host.dotGeneral (F := Ideal) (φ₁ := .f32) (φ₂ := .f32) dot_S150000x320_S320x128_S150000x128_1_0_0_1_n_n none (after (segG (F := Ideal)) (fun b => m (c, b)) (Proc.devRef .tc main_v94)) ((fun b => m (c, b)) (Proc.devRef .tc main_arg12))) ((fun b => m (c, b)) (Proc.devRef .tc main_arg13)) ((fun b => m (c, b)) (Proc.devRef .tc main_arg14))) ((fun b => m (c, b)) (Proc.devRef .tc main_arg15))) ((fun b => m (c, b)) (Proc.devRef .tc main_arg16)) ((fun b => m (c, b)) (Proc.devRef .tc main_arg17)) := by
    rw [after_split, segL6_out,
      keepL5 _ main_arg15 (by decide),
      keepL4 _ main_arg15 (by decide),
      keepL3 _ main_arg15 (by decide),
      keepL2 _ main_arg15 (by decide),
      keepL1 _ main_arg15 (by decide),
      keepG _ main_arg15 (by decide),
      keepL5 _ main_arg16 (by decide),
      keepL4 _ main_arg16 (by decide),
      keepL3 _ main_arg16 (by decide),
      keepL2 _ main_arg16 (by decide),
      keepL1 _ main_arg16 (by decide),
      keepG _ main_arg16 (by decide),
      keepL5 _ main_arg17 (by decide),
      keepL4 _ main_arg17 (by decide),
      keepL3 _ main_arg17 (by decide),
      keepL2 _ main_arg17 (by decide),
      keepL1 _ main_arg17 (by decide),
      keepG _ main_arg17 (by decide),
      segL5_out,
      keepL4 _ main_arg12 (by decide),
      keepL3 _ main_arg12 (by decide),
      keepL2 _ main_arg12 (by decide),
      keepL1 _ main_arg12 (by decide),
      keepG _ main_arg12 (by decide),
      keepL4 _ main_arg13 (by decide),
      keepL3 _ main_arg13 (by decide),
      keepL2 _ main_arg13 (by decide),
      keepL1 _ main_arg13 (by decide),
      keepG _ main_arg13 (by decide),
      keepL4 _ main_arg14 (by decide),
      keepL3 _ main_arg14 (by decide),
      keepL2 _ main_arg14 (by decide),
      keepL1 _ main_arg14 (by decide),
      keepG _ main_arg14 (by decide),
      keepL4 _ main_v94 (by decide),
      keepL3 _ main_v94 (by decide),
      keepL2 _ main_v94 (by decide),
      keepL1 _ main_v94 (by decide)]
  rw [hOut, hX]
  exact mlp_150000_eq _ _ _ _ _ _ _

end Cert.ReferenceIdeal.RefValue

end
-- ==== Proof.GraphAgree.lean ====
/-
  The two programs' graph parts agree.

  The kernel program's first host stretch and the first 175 operations of the reference are the same operations:
  three segment-id vectors (an iota broadcast and reshaped), eight accumulating scatters into zero arrays, sixteen
  gathers whose indices are normalised (a negative index has the extent added), nine concatenations of two arrays
  along the columns, and one sum. They read the arguments 0 … 5 only. So, from contents that agree on those six
  arguments, the three arrays the perceptrons read afterwards — the edge perceptron's input and the two node-side
  inputs — are equal in the two programs.

  The proof opens both sides into the operations' nested terms over the starting contents (the reference's line
  window by window: the windows after the one that writes a buffer keep it), rewrites the six argument equalities,
  and compares: the two terms are then the same text, up to the two programs' copies of the shapes and dimension
  records, which are equal literals.
-/
import proofs.«143519_j50869592655552_1_alg».proof.Proof.RefRun
import proofs.«143519_j50869592655552_1_alg».proof.Proof.Gen.KernelIdeal.Launch
import Idealize.ShloMosaic.Lib.StableHlo.Run
import Idealize.ShloMosaic.PureOps.Ideal

set_option maxRecDepth 4000

noncomputable section

namespace Cert.GraphAgree

open Idealize.ShloMosaic Idealize.SL.Sem Idealize.ShloMosaic.StableHlo

/-- Two arrays concatenated along an axis, with the two arrays as plain arguments (the list of shape-and-array
    pairs that the general concatenation takes hides them from rewriting). -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concat2_eq {α : Type} (t : Shape) (a : Fin t.rank) (s₁ s₂ : Shape) (x : s₁.Idx → α) (y : s₂.Idx → α)
    (h : Shape.Concatenates (List.map (fun p : (s : Shape) × (s.Idx → α) => p.1) [⟨s₁, x⟩, ⟨s₂, y⟩]) t a) :
    concatenate t a [⟨s₁, x⟩, ⟨s₂, y⟩] h = concat2 t a s₁ s₂ (show Shape.Concatenates [s₁, s₂] t a from h) x y := rfl

/-- The contents after a line of operations at one buffer, as the operations' nested term over the starting
    contents: one rewriting pass, two-array concatenations opened on the way. -/
macro "after_terms" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq]))

set_option maxHeartbeats 16000000 in
/-- THE GRAPH PARTS AGREE, over any two contents of the two programs' buffers that agree on the six arguments the
    graph part reads: after the reference's line and after the kernel program's first host stretch, the three
    arrays the perceptrons read are equal. Both sides are opened into the operations' nested terms over the
    starting contents; the two programs spell the same operations, so after the six argument equalities the two
    terms are the same text. -/
theorem graph_agree_val (V' : Valuation Cert.ReferenceIdeal.τ Cert.ReferenceIdeal.sig (Elt Ideal)) (V : Valuation Cert.KernelIdeal.τ Cert.KernelIdeal.sig (Elt Ideal))
    (h0 : V' (Proc.devRef .tc Cert.ReferenceIdeal.main_arg0) = V (Proc.devRef .tc Cert.KernelIdeal.main_arg0))
    (h1 : V' (Proc.devRef .tc Cert.ReferenceIdeal.main_arg1) = V (Proc.devRef .tc Cert.KernelIdeal.main_arg1))
    (h2 : V' (Proc.devRef .tc Cert.ReferenceIdeal.main_arg2) = V (Proc.devRef .tc Cert.KernelIdeal.main_arg2))
    (h3 : V' (Proc.devRef .tc Cert.ReferenceIdeal.main_arg3) = V (Proc.devRef .tc Cert.KernelIdeal.main_arg3))
    (h4 : V' (Proc.devRef .tc Cert.ReferenceIdeal.main_arg4) = V (Proc.devRef .tc Cert.KernelIdeal.main_arg4))
    (h5 : V' (Proc.devRef .tc Cert.ReferenceIdeal.main_arg5) = V (Proc.devRef .tc Cert.KernelIdeal.main_arg5)) :
    StableHlo.after (Cert.ReferenceIdeal.RefRun.ops (F := Ideal)) V' (Proc.devRef .tc Cert.ReferenceIdeal.main_v138)
        = StableHlo.after (Cert.KernelIdeal.Gen.hostOps0 (F := Ideal)) V (Proc.devRef .tc Cert.KernelIdeal.main_v138)
    ∧ StableHlo.after (Cert.ReferenceIdeal.RefRun.ops (F := Ideal)) V' (Proc.devRef .tc Cert.ReferenceIdeal.main_v93)
        = StableHlo.after (Cert.KernelIdeal.Gen.hostOps0 (F := Ideal)) V (Proc.devRef .tc Cert.KernelIdeal.main_v93)
    ∧ StableHlo.after (Cert.ReferenceIdeal.RefRun.ops (F := Ideal)) V' (Proc.devRef .tc Cert.ReferenceIdeal.main_v94)
        = StableHlo.after (Cert.KernelIdeal.Gen.hostOps0 (F := Ideal)) V (Proc.devRef .tc Cert.KernelIdeal.main_v94) := by
  rw [Cert.ReferenceIdeal.RefRun.after_ops,
    Cert.ReferenceIdeal.RefRun.keep_part5 _ Cert.ReferenceIdeal.main_v138 (by decide), Cert.ReferenceIdeal.RefRun.keep_part4 _ Cert.ReferenceIdeal.main_v138 (by decide),
    Cert.ReferenceIdeal.RefRun.keep_part3 _ Cert.ReferenceIdeal.main_v138 (by decide),
    Cert.ReferenceIdeal.RefRun.keep_part5 _ Cert.ReferenceIdeal.main_v93 (by decide), Cert.ReferenceIdeal.RefRun.keep_part4 _ Cert.ReferenceIdeal.main_v93 (by decide),
    Cert.ReferenceIdeal.RefRun.keep_part3 _ Cert.ReferenceIdeal.main_v93 (by decide), Cert.ReferenceIdeal.RefRun.keep_part2 _ Cert.ReferenceIdeal.main_v93 (by decide),
    Cert.ReferenceIdeal.RefRun.keep_part5 _ Cert.ReferenceIdeal.main_v94 (by decide), Cert.ReferenceIdeal.RefRun.keep_part4 _ Cert.ReferenceIdeal.main_v94 (by decide),
    Cert.ReferenceIdeal.RefRun.keep_part3 _ Cert.ReferenceIdeal.main_v94 (by decide), Cert.ReferenceIdeal.RefRun.keep_part2 _ Cert.ReferenceIdeal.main_v94 (by decide)]
  after_terms
  rw [h0, h1, h2, h3, h4, h5]
  exact ⟨rfl, rfl, rfl⟩

/-- The same for the two programs' launch memories on a device, under the agreement hypotheses of the claim (the graph
    part reads the arguments 0 … 5 only). -/
theorem graph_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    StableHlo.after (Cert.ReferenceIdeal.RefRun.ops (F := Ideal)) (fun b => m' (c, b)) (Proc.devRef .tc Cert.ReferenceIdeal.main_v138)
        = StableHlo.after (Cert.KernelIdeal.Gen.hostOps0 (F := Ideal)) (fun b => m (c, b)) (Proc.devRef .tc Cert.KernelIdeal.main_v138)
    ∧ StableHlo.after (Cert.ReferenceIdeal.RefRun.ops (F := Ideal)) (fun b => m' (c, b)) (Proc.devRef .tc Cert.ReferenceIdeal.main_v93)
        = StableHlo.after (Cert.KernelIdeal.Gen.hostOps0 (F := Ideal)) (fun b => m (c, b)) (Proc.devRef .tc Cert.KernelIdeal.main_v93)
    ∧ StableHlo.after (Cert.ReferenceIdeal.RefRun.ops (F := Ideal)) (fun b => m' (c, b)) (Proc.devRef .tc Cert.ReferenceIdeal.main_v94)
        = StableHlo.after (Cert.KernelIdeal.Gen.hostOps0 (F := Ideal)) (fun b => m (c, b)) (Proc.devRef .tc Cert.KernelIdeal.main_v94) :=
  graph_agree_val (fun b => m' (c, b)) (fun b => m (c, b)) h0 h1 h2 h3 h4 h5

end Cert.GraphAgree

end
-- ==== Proof.Alg.lean ====
/-
  The two idealized programs end with equal results.

  Both programs compute the same graph part (per-node sums of rows scattered by atom, read back by atom, summed and
  broadcast per edge or cycle, concatenated) and feed it to three two-layer perceptrons with training-mode batch
  normalisation. The reference normalises in two passes — mean m = Σx/n, variance Σ(x−m)²/n, then
  g·(x−m)·rsqrt(var+ε)+b —; the kernel accumulates Σx and Σx² while it computes each layer's product, folds them
  between its launches into a scale s = g·rsqrt(Σx²/n − m² + ε) and a shift t = b − m·s, and applies x·s+t in the next
  launch. Over the reals Σ(x−m)²/n = Σx²/n − m² and g·(x−m)·r+b = x·(g·r)+(b−m·(g·r)); both need every entry finite
  (the extended reals do not distribute at infinities), which the precondition gives for the arguments and the graph
  part, the products and the normalised layers preserve. Here the pieces are joined, one perceptron at a time: the
  kernel's result read off its regions' output arrays, the reference's read off its run, the graph parts' agreement,
  finiteness, and the equality of the two normalisations.
-/
import proofs.«143519_j50869592655552_1_alg».proof.Defs
import proofs.«143519_j50869592655552_1_alg».proof.Proof.Gen.KernelIdeal
import proofs.«143519_j50869592655552_1_alg».proof.Proof.Gen.ReferenceIdeal
import proofs.«143519_j50869592655552_1_alg».proof.Proof.Gen.Pre_finite_inputs
import proofs.«143519_j50869592655552_1_alg».proof.Proof.KI.Run
import proofs.«143519_j50869592655552_1_alg».proof.Proof.KI.KValueE
import proofs.«143519_j50869592655552_1_alg».proof.Proof.KI.KValue5
import proofs.«143519_j50869592655552_1_alg».proof.Proof.KI.KValue6
import proofs.«143519_j50869592655552_1_alg».proof.Proof.KI.GraphReal
import proofs.«143519_j50869592655552_1_alg».proof.Proof.KI.PreReal
import proofs.«143519_j50869592655552_1_alg».proof.Proof.RefRun
import proofs.«143519_j50869592655552_1_alg».proof.Proof.RefValue
import proofs.«143519_j50869592655552_1_alg».proof.Proof.GraphAgree
import proofs.«143519_j50869592655552_1_alg».proof.Proof.Consts
import proofs.«143519_j50869592655552_1_alg».proof.Proof.LibMlpBatchNorm
import proofs.«143519_j50869592655552_1_alg».proof.Proof.LibRealEntries
import Idealize.ShloMosaic.Lib.ValueIdx

set_option maxRecDepth 16384

noncomputable section

namespace Cert.Proof.Alg

open Idealize.ShloMosaic Idealize.ShloMosaic.TcCoe Idealize.SL.Sem
open Idealize.ShloMosaic.ValueIdx
open Cert.LibMlpBatchNorm Cert.LibRealEntries

/-! ## The specification read through array indices -/

/-- The kernel's spelling of a two-layer perceptron, over arrays indexed by coordinate vectors. -/
def specK {R Ci Cm Co : ℕ} (X : (⟨2, ![R, Ci]⟩ : Shape).Idx → EReal) (A1 : (⟨2, ![Ci, Cm]⟩ : Shape).Idx → EReal)
    (g1 b1 : (⟨1, ![Cm]⟩ : Shape).Idx → EReal) (A2 : (⟨2, ![Cm, Co]⟩ : Shape).Idx → EReal)
    (g2 b2 : (⟨1, ![Co]⟩ : Shape).Idx → EReal) (nn e : EReal) : (⟨2, ![R, Co]⟩ : Shape).Idx → EReal :=
  fun j => mlpK (fun (r : Fin R) (k : Fin Ci) => X (ix2 r k)) (fun (k : Fin Ci) (n : Fin Cm) => A1 (ix2 k n))
    (fun n : Fin Cm => g1 (ix1 n)) (fun n : Fin Cm => b1 (ix1 n)) (fun (k : Fin Cm) (n : Fin Co) => A2 (ix2 k n))
    (fun n : Fin Co => g2 (ix1 n)) (fun n : Fin Co => b2 (ix1 n)) nn e (j 0) (j 1)

/-- The reference's spelling of the same perceptron. -/
def specRef {R Ci Cm Co : ℕ} (X : (⟨2, ![R, Ci]⟩ : Shape).Idx → EReal) (A1 : (⟨2, ![Ci, Cm]⟩ : Shape).Idx → EReal)
    (g1 b1 : (⟨1, ![Cm]⟩ : Shape).Idx → EReal) (A2 : (⟨2, ![Cm, Co]⟩ : Shape).Idx → EReal)
    (g2 b2 : (⟨1, ![Co]⟩ : Shape).Idx → EReal) (nn e : EReal) : (⟨2, ![R, Co]⟩ : Shape).Idx → EReal :=
  fun j => mlpRef (fun (r : Fin R) (k : Fin Ci) => X (ix2 r k)) (fun (k : Fin Ci) (n : Fin Cm) => A1 (ix2 k n))
    (fun n : Fin Cm => g1 (ix1 n)) (fun n : Fin Cm => b1 (ix1 n)) (fun (k : Fin Cm) (n : Fin Co) => A2 (ix2 k n))
    (fun n : Fin Co => g2 (ix1 n)) (fun n : Fin Co => b2 (ix1 n)) nn e (j 0) (j 1)

/-- On arrays of real entries, with the row count and a positive epsilon as real literals, the two spellings agree. -/
theorem spec_eq {R Ci Cm Co : ℕ} (X : (⟨2, ![R, Ci]⟩ : Shape).Idx → EReal) (A1 : (⟨2, ![Ci, Cm]⟩ : Shape).Idx → EReal)
    (g1 b1 : (⟨1, ![Cm]⟩ : Shape).Idx → EReal) (A2 : (⟨2, ![Cm, Co]⟩ : Shape).Idx → EReal)
    (g2 b2 : (⟨1, ![Co]⟩ : Shape).Idx → EReal) (nn e : EReal)
    (hX : AllReal X) (hA1 : AllReal A1) (hg1 : AllReal g1) (hb1 : AllReal b1) (hA2 : AllReal A2) (hg2 : AllReal g2) (hb2 : AllReal b2)
    {N ε : ℝ} (hnn : nn = ((N : ℝ) : EReal)) (hN : (Fintype.card (Fin R) : ℝ) = N) (hN0 : N ≠ 0)
    (he : e = ((ε : ℝ) : EReal)) (hε : 0 < ε) :
    specK X A1 g1 b1 A2 g2 b2 nn e = specRef X A1 g1 b1 A2 g2 b2 nn e := by
  funext j
  exact congrFun (congrFun (mlp_eq _ _ _ _ _ _ _ nn e (fun r k => hX (ix2 r k)) (fun k n => hA1 (ix2 k n)) (fun n => hg1 (ix1 n))
    (fun n => hb1 (ix1 n)) (fun k n => hA2 (ix2 k n)) (fun n => hg2 (ix1 n)) (fun n => hb2 (ix1 n)) hnn hN hN0 he hε) (j 0)) (j 1)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-! ## One perceptron at a time -/

/-- The edge perceptron: the reference's first result is the kernel's. -/
theorem edge_bridge (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (StableHlo.after (Cert.ReferenceIdeal.RefRun.ops (F := Ideal)) (fun b => m' (c, b)) (Proc.devRef .tc Cert.ReferenceIdeal.main_v180) : (⟨2, ![120000, 64]⟩ : Shape).Idx → EReal)
      = (Cert.KernelIdeal.Hand.W16 m ρ c (Proc.devRef .tc Cert.KernelIdeal.main_v169) : (⟨2, ![120000, 64]⟩ : Shape).Idx → EReal) := by
  obtain ⟨r0, r1, r2, r6, r7, r8, r9, r10, r11, r12, r13, r14, r15, r16, r17⟩ := Cert.KernelIdeal.PreReal.args_real m hpre c
  have hG := Cert.KernelIdeal.GraphReal.graph_real (fun b => m (c, b)) r0 r1 r2
  have hA := Cert.GraphAgree.graph_agree m m' c h0 h1 h2 h3 h4 h5
  have hW1 : Cert.KernelIdeal.Hand.W1 m ρ c = StableHlo.after (Cert.KernelIdeal.Gen.hostOps0 (F := Ideal)) (fun b => m (c, b)) := rfl
  -- the kernel's side, in the specification's form
  have hk : (Cert.KernelIdeal.Hand.W16 m ρ c (Proc.devRef .tc Cert.KernelIdeal.main_v169) : (⟨2, ![120000, 64]⟩ : Shape).Idx → EReal)
      = specK (R := 120000) (Ci := 704) (Cm := 128) (Co := 64)
          (StableHlo.after (Cert.KernelIdeal.Gen.hostOps0 (F := Ideal)) (fun b => m (c, b)) (Proc.devRef .tc Cert.KernelIdeal.main_v138))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
          (Ideal.ofBits .f32 0x47EA6000#32) (Ideal.ofBits .f32 0x3727C5AC#32) := by
    rw [← hW1]
    exact ((Cert.KernelIdeal.Hand.W16_main_v169 m ρ c).trans (Cert.KernelIdeal.Hand.W6_arr m ρ c 3).symm).trans (Cert.KernelIdeal.Hand.edge_value m ρ c)
  -- the reference's side, in the specification's form, over the kernel's memory
  have hr : (StableHlo.after (Cert.ReferenceIdeal.RefRun.ops (F := Ideal)) (fun b => m' (c, b)) (Proc.devRef .tc Cert.ReferenceIdeal.main_v180) : (⟨2, ![120000, 64]⟩ : Shape).Idx → EReal)
      = specRef (R := 120000) (Ci := 704) (Cm := 128) (Co := 64)
          (StableHlo.after (Cert.ReferenceIdeal.RefRun.ops (F := Ideal)) (fun b => m' (c, b)) (Proc.devRef .tc Cert.ReferenceIdeal.main_v138))
          (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
          (Ideal.ofBits .f32 0x47EA6000#32) (Ideal.ofBits .f32 0x3727C5AC#32) :=
    Cert.ReferenceIdeal.RefValue.ref_edge m' c
  rw [hk, hr, hA.1, h6, h7, h8, h9, h10, h11]
  exact (spec_eq _ _ _ _ _ _ _ _ _ hG.1 r6 r7 r8 r9 r10 r11
    Cert.Consts.ofBits_120000 Cert.Consts.card_fin_120000 Cert.Consts.c120000_ne_zero Cert.Consts.ofBits_eps Cert.Consts.eps_pos).symm

/-- The five-cycle perceptron: the reference's second result is the kernel's. -/
theorem cycle5_bridge (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (StableHlo.after (Cert.ReferenceIdeal.RefRun.ops (F := Ideal)) (fun b => m' (c, b)) (Proc.devRef .tc Cert.ReferenceIdeal.main_v222) : (⟨2, ![150000, 64]⟩ : Shape).Idx → EReal)
      = (Cert.KernelIdeal.Hand.W16 m ρ c (Proc.devRef .tc Cert.KernelIdeal.main_v200) : (⟨2, ![150000, 64]⟩ : Shape).Idx → EReal) := by
  obtain ⟨r0, r1, r2, r6, r7, r8, r9, r10, r11, r12, r13, r14, r15, r16, r17⟩ := Cert.KernelIdeal.PreReal.args_real m hpre c
  have hG := Cert.KernelIdeal.GraphReal.graph_real (fun b => m (c, b)) r0 r1 r2
  have hA := Cert.GraphAgree.graph_agree m m' c h0 h1 h2 h3 h4 h5
  have hW1 : Cert.KernelIdeal.Hand.W1 m ρ c = StableHlo.after (Cert.KernelIdeal.Gen.hostOps0 (F := Ideal)) (fun b => m (c, b)) := rfl
  -- the kernel's side, in the specification's form
  have hk : (Cert.KernelIdeal.Hand.W16 m ρ c (Proc.devRef .tc Cert.KernelIdeal.main_v200) : (⟨2, ![150000, 64]⟩ : Shape).Idx → EReal)
      = specK (R := 150000) (Ci := 320) (Cm := 128) (Co := 64)
          (StableHlo.after (Cert.KernelIdeal.Gen.hostOps0 (F := Ideal)) (fun b => m (c, b)) (Proc.devRef .tc Cert.KernelIdeal.main_v93))
          (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
          (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
          (Ideal.ofBits .f32 0x48127C00#32) (Ideal.ofBits .f32 0x3727C5AC#32) := by
    rw [← hW1]
    exact ((Cert.KernelIdeal.Hand.W16_main_v200 m ρ c).trans (Cert.KernelIdeal.Hand.W11_arr m ρ c 3).symm).trans (Cert.KernelIdeal.Hand.cycle1_value m ρ c)
  -- the reference's side, in the specification's form, over the kernel's memory
  have hr : (StableHlo.after (Cert.ReferenceIdeal.RefRun.ops (F := Ideal)) (fun b => m' (c, b)) (Proc.devRef .tc Cert.ReferenceIdeal.main_v222) : (⟨2, ![150000, 64]⟩ : Shape).Idx → EReal)
      = specRef (R := 150000) (Ci := 320) (Cm := 128) (Co := 64)
          (StableHlo.after (Cert.ReferenceIdeal.RefRun.ops (F := Ideal)) (fun b => m' (c, b)) (Proc.devRef .tc Cert.ReferenceIdeal.main_v93))
          (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
          (Ideal.ofBits .f32 0x48127C00#32) (Ideal.ofBits .f32 0x3727C5AC#32) :=
    Cert.ReferenceIdeal.RefValue.ref_c5 m' c
  rw [hk, hr, hA.2.1, h12, h13, h14, h15, h16, h17]
  exact (spec_eq _ _ _ _ _ _ _ _ _ hG.2.1 r12 r13 r14 r15 r16 r17
    Cert.Consts.ofBits_150000 Cert.Consts.card_fin_150000 Cert.Consts.c150000_ne_zero Cert.Consts.ofBits_eps Cert.Consts.eps_pos).symm

/-- The six-cycle perceptron: the reference's third result is the kernel's. -/
theorem cycle6_bridge (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (StableHlo.after (Cert.ReferenceIdeal.RefRun.ops (F := Ideal)) (fun b => m' (c, b)) (Proc.devRef .tc Cert.ReferenceIdeal.main_v264) : (⟨2, ![150000, 64]⟩ : Shape).Idx → EReal)
      = (Cert.KernelIdeal.Hand.W16 m ρ c (Proc.devRef .tc Cert.KernelIdeal.main_v231) : (⟨2, ![150000, 64]⟩ : Shape).Idx → EReal) := by
  obtain ⟨r0, r1, r2, r6, r7, r8, r9, r10, r11, r12, r13, r14, r15, r16, r17⟩ := Cert.KernelIdeal.PreReal.args_real m hpre c
  have hG := Cert.KernelIdeal.GraphReal.graph_real (fun b => m (c, b)) r0 r1 r2
  have hA := Cert.GraphAgree.graph_agree m m' c h0 h1 h2 h3 h4 h5
  have hW1 : Cert.KernelIdeal.Hand.W1 m ρ c = StableHlo.after (Cert.KernelIdeal.Gen.hostOps0 (F := Ideal)) (fun b => m (c, b)) := rfl
  -- the kernel's side, in the specification's form
  have hk : (Cert.KernelIdeal.Hand.W16 m ρ c (Proc.devRef .tc Cert.KernelIdeal.main_v231) : (⟨2, ![150000, 64]⟩ : Shape).Idx → EReal)
      = specK (R := 150000) (Ci := 320) (Cm := 128) (Co := 64)
          (StableHlo.after (Cert.KernelIdeal.Gen.hostOps0 (F := Ideal)) (fun b => m (c, b)) (Proc.devRef .tc Cert.KernelIdeal.main_v94))
          (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
          (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
          (Ideal.ofBits .f32 0x48127C00#32) (Ideal.ofBits .f32 0x3727C5AC#32) := by
    rw [← hW1]
    exact (Cert.KernelIdeal.Hand.cycle2_value m ρ c)
  -- the reference's side, in the specification's form, over the kernel's memory
  have hr : (StableHlo.after (Cert.ReferenceIdeal.RefRun.ops (F := Ideal)) (fun b => m' (c, b)) (Proc.devRef .tc Cert.ReferenceIdeal.main_v264) : (⟨2, ![150000, 64]⟩ : Shape).Idx → EReal)
      = specRef (R := 150000) (Ci := 320) (Cm := 128) (Co := 64)
          (StableHlo.after (Cert.ReferenceIdeal.RefRun.ops (F := Ideal)) (fun b => m' (c, b)) (Proc.devRef .tc Cert.ReferenceIdeal.main_v94))
          (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
          (Ideal.ofBits .f32 0x48127C00#32) (Ideal.ofBits .f32 0x3727C5AC#32) :=
    Cert.ReferenceIdeal.RefValue.ref_c6 m' c
  rw [hk, hr, hA.2.2, h12, h13, h14, h15, h16, h17]
  exact (spec_eq _ _ _ _ _ _ _ _ _ hG.2.2 r12 r13 r14 r15 r16 r17
    Cert.Consts.ofBits_150000 Cert.Consts.card_fin_150000 Cert.Consts.c150000_ne_zero Cert.Consts.ofBits_eps Cert.Consts.eps_pos).symm

end Cert.Proof.Alg

end
-- ==== Proof.lean ====
/-
  The certificate of a message-passing layer over edges and cycles followed by three two-layer perceptrons with
  training-mode batch normalisation: a kernel program of nine pipelined regions among host operations, against a plain
  host reference.

  The three frames. The kernel program's @main is sixteen items — seven stretches of host operations and nine regions.
  Each region's body is run at every grid point (the six accumulating regions carry two one-row scratch buffers from
  point to point, reset at the first point; their sum and sum-of-squares windows hold the running totals), the regions
  and stretches are chained by the several-regions launch, and every argument array is read back through the chain to
  its launch contents: no stretch writes one, and a region either reads it through an input window or does not name it.
  The same text serves the word-level program and its idealization. The reference is host operations only (its
  variance is an outlined function with a nested call, inlined at the call site): its run is the operations' fold.

  The idealization rewrote nothing, so there is nothing to preserve.

  The algebraic claim. At the ideal instance both programs compute the same graph part, and per perceptron layer the
  reference normalises with the mean and the centred variance, the kernel with the column sums Σx and Σx² folded into
  a scale and a shift between its launches. Σ(x−m)²/n = Σx²/n − m² and g·(x−m)·r + b = x·(g·r) + (b − m·(g·r)) hold over
  the reals; the precondition makes every entry a real, and sums, products and the normalised layers keep them so.
-/
import proofs.«143519_j50869592655552_1_alg».proof.Defs
import proofs.«143519_j50869592655552_1_alg».proof.Proof.Gen.Kernel
import proofs.«143519_j50869592655552_1_alg».proof.Proof.Gen.KernelIdeal
import proofs.«143519_j50869592655552_1_alg».proof.Proof.Gen.ReferenceIdeal
import proofs.«143519_j50869592655552_1_alg».proof.Proof.Gen.Pre_finite_inputs
import proofs.«143519_j50869592655552_1_alg».proof.Proof.K.Run
import proofs.«143519_j50869592655552_1_alg».proof.Proof.KI.Run
import proofs.«143519_j50869592655552_1_alg».proof.Proof.RefRun
import proofs.«143519_j50869592655552_1_alg».proof.Proof.Alg
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ =>
  (θ_run Cert.Kernel.defs _ _).mono (fun _ h c => (h c).2) (Cert.Kernel.Hand.run (F := Bits) m ρ)

/-- So does its idealization. -/
theorem frame_ki : Cert.frame_KernelIdeal := fun m ρ _ =>
  (θ_run Cert.KernelIdeal.defs _ _).mono (fun _ h c => (h c).2) (Cert.KernelIdeal.Hand.run (F := Ideal) m ρ)

/-- And the reference: its run with the results dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both idealized programs run and end with equal results: the kernel's
    three result arrays are what its last regions leave; the reference's three are the same functions of the arguments
    (one perceptron at a time). -/
theorem algebraic : Cert.algebraic_KernelIdeal_ReferenceIdeal := by
  intro m ρ m' ρ' hpre hagree
  refine ⟨fun c => Cert.KernelIdeal.Hand.W16 m ρ c (Proc.devRef .tc Cert.KernelIdeal.main_v169),
    fun c => Cert.KernelIdeal.Hand.W16 m ρ c (Proc.devRef .tc Cert.KernelIdeal.main_v200),
    fun c => Cert.KernelIdeal.Hand.W16 m ρ c (Proc.devRef .tc Cert.KernelIdeal.main_v231), ?_, ?_⟩
  · exact (θ_run Cert.KernelIdeal.defs _ _).mono (fun _ h c => ⟨(h c).1.1, (h c).1.2.1, (h c).1.2.2, (h c).2⟩)
      (Cert.KernelIdeal.Hand.run (F := Ideal) m ρ)
  · refine (θ_run Cert.ReferenceIdeal.defs _ _).mono (fun _ h c => ?_) (Cert.ReferenceIdeal.RefRun.run (F := Ideal) m' ρ')
    obtain ⟨h0, h1, h2, h3, h4, h5, h6, h7, h8, h9, h10, h11, h12, h13, h14, h15, h16, h17⟩ := hagree c
    exact ⟨(h c).1.1.trans (Alg.edge_bridge m ρ m' c hpre h0 h1 h2 h3 h4 h5 h6 h7 h8 h9 h10 h11 h12 h13 h14 h15 h16 h17),
      (h c).1.2.1.trans (Alg.cycle5_bridge m ρ m' c hpre h0 h1 h2 h3 h4 h5 h6 h7 h8 h9 h10 h11 h12 h13 h14 h15 h16 h17),
      (h c).1.2.2.trans (Alg.cycle6_bridge m ρ m' c hpre h0 h1 h2 h3 h4 h5 h6 h7 h8 h9 h10 h11 h12 h13 h14 h15 h16 h17), (h c).2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
